-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel

variable [Facts]

def fn {F : FTy → Type} [FloatOps F] (main_arg0 : FVec F S4x8192x1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  main_v3
-- ==== Kernel.lean ====
abbrev S4x8192x1024 : Shape := ⟨3, ![4, 8192, 1024]⟩
abbrev S_ : Shape := ⟨0, ![]⟩
abbrev S1 : Shape := ⟨1, ![1]⟩
abbrev S2 : Shape := ⟨1, ![2]⟩
abbrev S1x1 : Shape := ⟨2, ![1, 1]⟩
abbrev S8192x4 : Shape := ⟨2, ![8192, 4]⟩
abbrev S4x8192 : Shape := ⟨2, ![4, 8192]⟩
abbrev S32768 : Shape := ⟨1, ![32768]⟩
abbrev S32768x1 : Shape := ⟨2, ![32768, 1]⟩
abbrev S32768x16 : Shape := ⟨2, ![32768, 16]⟩
abbrev S32768x1024 : Shape := ⟨2, ![32768, 1024]⟩
abbrev S4096x128 : Shape := ⟨2, ![4096, 128]⟩
abbrev S32x1024 : Shape := ⟨2, ![32, 1024]⟩
abbrev S128x128 : Shape := ⟨2, ![128, 128]⟩
abbrev S1x16 : Shape := ⟨2, ![1, 16]⟩
abbrev S16 : Shape := ⟨1, ![16]⟩

abbrev nBuf : Table → Nat
  | .hbm => 292
  | .local .scVector .vmem => 4
  | _ => 0

abbrev hbmTy0_0 (i : Nat) : BufTy := match i % 128 with
  | 0 => ⟨S4x8192x1024, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S_, .f32⟩
  | 16 => ⟨S1x1, .f32⟩
  | 17 => ⟨S1x1, .f32⟩
  | 18 => ⟨S1, .i32⟩
  | 19 => ⟨S_, .i32⟩
  | 20 => ⟨S1, .i32⟩
  | 21 => ⟨S_, .i32⟩
  | 22 => ⟨S8192x4, .i64⟩
  | 23 => ⟨S8192x4, .i64⟩
  | 24 => ⟨S_, .i64⟩
  | 25 => ⟨S8192x4, .i64⟩
  | 26 => ⟨S8192x4, .i64⟩
  | 27 => ⟨S_, .i64⟩
  | 28 => ⟨S8192x4, .i64⟩
  | 29 => ⟨S8192x4, .i64⟩
  | 30 => ⟨S8192x4, .i64⟩
  | 31 => ⟨S_, .i64⟩
  | 32 => ⟨S8192x4, .i64⟩
  | 33 => ⟨S8192x4, .i64⟩
  | 34 => ⟨S8192x4, .i32⟩
  | 35 => ⟨S8192x4, .i32⟩
  | 36 => ⟨S_, .i32⟩
  | 37 => ⟨S_, .i32⟩
  | 38 => ⟨S_, .i32⟩
  | 39 => ⟨S8192x4, .i32⟩
  | 40 => ⟨S8192x4, .i32⟩
  | 41 => ⟨S8192x4, .i32⟩
  | 42 => ⟨S8192x4, .i32⟩
  | 43 => ⟨S8192x4, .i32⟩
  | 44 => ⟨S_, .i32⟩
  | 45 => ⟨S8192x4, .i32⟩
  | 46 => ⟨S8192x4, .i32⟩
  | 47 => ⟨S_, .i32⟩
  | 48 => ⟨S8192x4, .i32⟩
  | 49 => ⟨S8192x4, .i32⟩
  | 50 => ⟨S8192x4, .i32⟩
  | 51 => ⟨S8192x4, .i32⟩
  | 52 => ⟨S8192x4, .i32⟩
  | 53 => ⟨S_, .i32⟩
  | 54 => ⟨S8192x4, .i32⟩
  | 55 => ⟨S8192x4, .i32⟩
  | 56 => ⟨S_, .i32⟩
  | 57 => ⟨S8192x4, .i32⟩
  | 58 => ⟨S8192x4, .i32⟩
  | 59 => ⟨S8192x4, .i32⟩
  | 60 => ⟨S8192x4, .i32⟩
  | 61 => ⟨S8192x4, .i32⟩
  | 62 => ⟨S_, .i32⟩
  | 63 => ⟨S8192x4, .i32⟩
  | 64 => ⟨S8192x4, .i32⟩
  | 65 => ⟨S_, .i32⟩
  | 66 => ⟨S8192x4, .i32⟩
  | 67 => ⟨S8192x4, .i32⟩
  | 68 => ⟨S8192x4, .i32⟩
  | 69 => ⟨S8192x4, .i32⟩
  | 70 => ⟨S8192x4, .i32⟩
  | 71 => ⟨S_, .i32⟩
  | 72 => ⟨S8192x4, .i32⟩
  | 73 => ⟨S8192x4, .i32⟩
  | 74 => ⟨S_, .i32⟩
  | 75 => ⟨S8192x4, .i32⟩
  | 76 => ⟨S8192x4, .i32⟩
  | 77 => ⟨S8192x4, .i32⟩
  | 78 => ⟨S8192x4, .i32⟩
  | 79 => ⟨S8192x4, .i32⟩
  | 80 => ⟨S8192x4, .i32⟩
  | 81 => ⟨S8192x4, .i32⟩
  | 82 => ⟨S8192x4, .i32⟩
  | 83 => ⟨S_, .i32⟩
  | 84 => ⟨S8192x4, .i32⟩
  | 85 => ⟨S8192x4, .i32⟩
  | 86 => ⟨S8192x4, .i32⟩
  | 87 => ⟨S_, .i32⟩
  | 88 => ⟨S8192x4, .i32⟩
  | 89 => ⟨S8192x4, .i32⟩
  | 90 => ⟨S_, .i32⟩
  | 91 => ⟨S8192x4, .i32⟩
  | 92 => ⟨S8192x4, .i32⟩
  | 93 => ⟨S8192x4, .i32⟩
  | 94 => ⟨S8192x4, .i32⟩
  | 95 => ⟨S8192x4, .i32⟩
  | 96 => ⟨S_, .i32⟩
  | 97 => ⟨S8192x4, .i32⟩
  | 98 => ⟨S8192x4, .i32⟩
  | 99 => ⟨S_, .i32⟩
  | 100 => ⟨S8192x4, .i32⟩
  | 101 => ⟨S8192x4, .i32⟩
  | 102 => ⟨S8192x4, .i32⟩
  | 103 => ⟨S8192x4, .i32⟩
  | 104 => ⟨S8192x4, .i32⟩
  | 105 => ⟨S_, .i32⟩
  | 106 => ⟨S8192x4, .i32⟩
  | 107 => ⟨S8192x4, .i32⟩
  | 108 => ⟨S_, .i32⟩
  | 109 => ⟨S8192x4, .i32⟩
  | 110 => ⟨S8192x4, .i32⟩
  | 111 => ⟨S8192x4, .i32⟩
  | 112 => ⟨S8192x4, .i32⟩
  | 113 => ⟨S8192x4, .i32⟩
  | 114 => ⟨S_, .i32⟩
  | 115 => ⟨S8192x4, .i32⟩
  | 116 => ⟨S8192x4, .i32⟩
  | 117 => ⟨S_, .i32⟩
  | 118 => ⟨S8192x4, .i32⟩
  | 119 => ⟨S8192x4, .i32⟩
  | 120 => ⟨S8192x4, .i32⟩
  | 121 => ⟨S8192x4, .i32⟩
  | 122 => ⟨S8192x4, .i32⟩
  | 123 => ⟨S8192x4, .i32⟩
  | 124 => ⟨S8192x4, .i32⟩
  | 125 => ⟨S8192x4, .i32⟩
  | 126 => ⟨S_, .i32⟩
  | 127 => ⟨S8192x4, .i32⟩
  | _ => ⟨S4x8192x1024, .f32⟩

abbrev hbmTy0_1 (i : Nat) : BufTy := match i % 128 with
  | 0 => ⟨S8192x4, .i32⟩
  | 1 => ⟨S8192x4, .i32⟩
  | 2 => ⟨S_, .i32⟩
  | 3 => ⟨S8192x4, .i32⟩
  | 4 => ⟨S8192x4, .i32⟩
  | 5 => ⟨S_, .i32⟩
  | 6 => ⟨S8192x4, .i32⟩
  | 7 => ⟨S8192x4, .i32⟩
  | 8 => ⟨S8192x4, .i32⟩
  | 9 => ⟨S8192x4, .i32⟩
  | 10 => ⟨S8192x4, .i32⟩
  | 11 => ⟨S_, .i32⟩
  | 12 => ⟨S8192x4, .i32⟩
  | 13 => ⟨S8192x4, .i32⟩
  | 14 => ⟨S_, .i32⟩
  | 15 => ⟨S8192x4, .i32⟩
  | 16 => ⟨S8192x4, .i32⟩
  | 17 => ⟨S8192x4, .i32⟩
  | 18 => ⟨S8192x4, .i32⟩
  | 19 => ⟨S8192x4, .i32⟩
  | 20 => ⟨S_, .i32⟩
  | 21 => ⟨S8192x4, .i32⟩
  | 22 => ⟨S8192x4, .i32⟩
  | 23 => ⟨S_, .i32⟩
  | 24 => ⟨S8192x4, .i32⟩
  | 25 => ⟨S8192x4, .i32⟩
  | 26 => ⟨S8192x4, .i32⟩
  | 27 => ⟨S8192x4, .i32⟩
  | 28 => ⟨S8192x4, .i32⟩
  | 29 => ⟨S_, .i32⟩
  | 30 => ⟨S8192x4, .i32⟩
  | 31 => ⟨S8192x4, .i32⟩
  | 32 => ⟨S_, .i32⟩
  | 33 => ⟨S8192x4, .i32⟩
  | 34 => ⟨S8192x4, .i32⟩
  | 35 => ⟨S8192x4, .i32⟩
  | 36 => ⟨S8192x4, .i32⟩
  | 37 => ⟨S8192x4, .i32⟩
  | 38 => ⟨S8192x4, .i32⟩
  | 39 => ⟨S8192x4, .i32⟩
  | 40 => ⟨S8192x4, .i32⟩
  | 41 => ⟨S_, .i32⟩
  | 42 => ⟨S8192x4, .i32⟩
  | 43 => ⟨S8192x4, .i32⟩
  | 44 => ⟨S8192x4, .i32⟩
  | 45 => ⟨S_, .i32⟩
  | 46 => ⟨S8192x4, .i32⟩
  | 47 => ⟨S8192x4, .i32⟩
  | 48 => ⟨S_, .i32⟩
  | 49 => ⟨S8192x4, .i32⟩
  | 50 => ⟨S8192x4, .i32⟩
  | 51 => ⟨S8192x4, .i32⟩
  | 52 => ⟨S8192x4, .i32⟩
  | 53 => ⟨S8192x4, .i32⟩
  | 54 => ⟨S_, .i32⟩
  | 55 => ⟨S8192x4, .i32⟩
  | 56 => ⟨S8192x4, .i32⟩
  | 57 => ⟨S_, .i32⟩
  | 58 => ⟨S8192x4, .i32⟩
  | 59 => ⟨S8192x4, .i32⟩
  | 60 => ⟨S8192x4, .i32⟩
  | 61 => ⟨S8192x4, .i32⟩
  | 62 => ⟨S8192x4, .i32⟩
  | 63 => ⟨S_, .i32⟩
  | 64 => ⟨S8192x4, .i32⟩
  | 65 => ⟨S8192x4, .i32⟩
  | 66 => ⟨S_, .i32⟩
  | 67 => ⟨S8192x4, .i32⟩
  | 68 => ⟨S8192x4, .i32⟩
  | 69 => ⟨S8192x4, .i32⟩
  | 70 => ⟨S8192x4, .i32⟩
  | 71 => ⟨S8192x4, .i32⟩
  | 72 => ⟨S_, .i32⟩
  | 73 => ⟨S8192x4, .i32⟩
  | 74 => ⟨S8192x4, .i32⟩
  | 75 => ⟨S_, .i32⟩
  | 76 => ⟨S8192x4, .i32⟩
  | 77 => ⟨S8192x4, .i32⟩
  | 78 => ⟨S8192x4, .i32⟩
  | 79 => ⟨S8192x4, .i32⟩
  | 80 => ⟨S8192x4, .i32⟩
  | 81 => ⟨S8192x4, .i32⟩
  | 82 => ⟨S8192x4, .i32⟩
  | 83 => ⟨S8192x4, .i32⟩
  | 84 => ⟨S_, .i32⟩
  | 85 => ⟨S8192x4, .i32⟩
  | 86 => ⟨S8192x4, .i32⟩
  | 87 => ⟨S8192x4, .i32⟩
  | 88 => ⟨S_, .i32⟩
  | 89 => ⟨S8192x4, .i32⟩
  | 90 => ⟨S8192x4, .i32⟩
  | 91 => ⟨S_, .i32⟩
  | 92 => ⟨S8192x4, .i32⟩
  | 93 => ⟨S8192x4, .i32⟩
  | 94 => ⟨S8192x4, .i32⟩
  | 95 => ⟨S8192x4, .i32⟩
  | 96 => ⟨S8192x4, .i32⟩
  | 97 => ⟨S_, .i32⟩
  | 98 => ⟨S8192x4, .i32⟩
  | 99 => ⟨S8192x4, .i32⟩
  | 100 => ⟨S_, .i32⟩
  | 101 => ⟨S8192x4, .i32⟩
  | 102 => ⟨S8192x4, .i32⟩
  | 103 => ⟨S8192x4, .i32⟩
  | 104 => ⟨S8192x4, .i32⟩
  | 105 => ⟨S8192x4, .i32⟩
  | 106 => ⟨S_, .i32⟩
  | 107 => ⟨S8192x4, .i32⟩
  | 108 => ⟨S8192x4, .i32⟩
  | 109 => ⟨S_, .i32⟩
  | 110 => ⟨S8192x4, .i32⟩
  | 111 => ⟨S8192x4, .i32⟩
  | 112 => ⟨S8192x4, .i32⟩
  | 113 => ⟨S8192x4, .i32⟩
  | 114 => ⟨S8192x4, .i32⟩
  | 115 => ⟨S_, .i32⟩
  | 116 => ⟨S8192x4, .i32⟩
  | 117 => ⟨S8192x4, .i32⟩
  | 118 => ⟨S_, .i32⟩
  | 119 => ⟨S8192x4, .i32⟩
  | 120 => ⟨S8192x4, .i32⟩
  | 121 => ⟨S8192x4, .i32⟩
  | 122 => ⟨S8192x4, .i32⟩
  | 123 => ⟨S8192x4, .i32⟩
  | 124 => ⟨S8192x4, .i32⟩
  | 125 => ⟨S8192x4, .i32⟩
  | 126 => ⟨S8192x4, .i32⟩
  | 127 => ⟨S_, .i32⟩
  | _ => ⟨S4x8192x1024, .f32⟩

abbrev hbmTy0_2 (i : Nat) : BufTy := match i % 128 with
  | 0 => ⟨S8192x4, .i32⟩
  | 1 => ⟨S8192x4, .i32⟩
  | 2 => ⟨S8192x4, .i32⟩
  | 3 => ⟨S_, .i32⟩
  | 4 => ⟨S8192x4, .i32⟩
  | 5 => ⟨S8192x4, .i32⟩
  | 6 => ⟨S_, .i32⟩
  | 7 => ⟨S8192x4, .i32⟩
  | 8 => ⟨S8192x4, .i32⟩
  | 9 => ⟨S8192x4, .f32⟩
  | 10 => ⟨S_, .f32⟩
  | 11 => ⟨S8192x4, .f32⟩
  | 12 => ⟨S8192x4, .f32⟩
  | 13 => ⟨S1x1, .f32⟩
  | 14 => ⟨S8192x4, .f32⟩
  | 15 => ⟨S8192x4, .f32⟩
  | 16 => ⟨S8192x4, .f32⟩
  | 17 => ⟨S8192x4, .f32⟩
  | 18 => ⟨S8192x4, .f32⟩
  | 19 => ⟨S8192x4, .f32⟩
  | 20 => ⟨S8192x4, .f32⟩
  | 21 => ⟨S8192x4, .i1⟩
  | 22 => ⟨S_, .f32⟩
  | 23 => ⟨S_, .f32⟩
  | 24 => ⟨S8192x4, .f32⟩
  | 25 => ⟨S8192x4, .f32⟩
  | 26 => ⟨S8192x4, .f32⟩
  | 27 => ⟨S8192x4, .f32⟩
  | 28 => ⟨S4x8192, .f32⟩
  | 29 => ⟨S32768, .f32⟩
  | 30 => ⟨S32768x1, .f32⟩
  | 31 => ⟨S32768x16, .f32⟩
  | 32 => ⟨S32768x1024, .f32⟩
  | 33 => ⟨S4096x128, .f32⟩
  | 34 => ⟨S32768x1024, .f32⟩
  | 35 => ⟨S4x8192x1024, .f32⟩
  | _ => ⟨S4x8192x1024, .f32⟩

abbrev hbmTy (i : Nat) : BufTy := match i / 128 with
  | 0 => hbmTy0_0 i
  | 1 => hbmTy0_1 i
  | 2 => hbmTy0_2 i
  | _ => ⟨S4x8192x1024, .f32⟩

abbrev bufTy : (tb : Table) → Fin (nBuf tb) → BufTy
  | .hbm, ⟨i, _⟩ => hbmTy i
  | .local .scVector .vmem, ⟨0, _⟩ => ⟨S32x1024, .f32⟩
  | .local .scVector .vmem, ⟨1, _⟩ => ⟨S32x1024, .f32⟩
  | .local .scVector .vmem, ⟨2, _⟩ => ⟨S32x1024, .f32⟩
  | .local .scVector .vmem, ⟨3, _⟩ => ⟨S128x128, .f32⟩
  | _, _ => ⟨S4x8192x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_call0_cst : Ref sig .tc := ⟨.hbm, 12, rfl⟩
abbrev main_call0_cst_0 : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_c : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_call0_c_0 : Ref sig .tc := ⟨.hbm, 27, rfl⟩
abbrev main_call0_call0_v12 : Ref sig .tc := ⟨.hbm, 28, rfl⟩
abbrev main_call0_call0_v13 : Ref sig .tc := ⟨.hbm, 29, rfl⟩
abbrev main_call0_call0_v14 : Ref sig .tc := ⟨.hbm, 30, rfl⟩
abbrev main_call0_call0_c_1 : Ref sig .tc := ⟨.hbm, 31, rfl⟩
abbrev main_call0_call0_v15 : Ref sig .tc := ⟨.hbm, 32, rfl⟩
abbrev main_call0_call0_v16 : Ref sig .tc := ⟨.hbm, 33, rfl⟩
abbrev main_call0_call0_v17 : Ref sig .tc := ⟨.hbm, 34, rfl⟩
abbrev main_call0_call0_v18 : Ref sig .tc := ⟨.hbm, 35, rfl⟩
abbrev main_call0_call0_call0_v0 : Ref sig .tc := ⟨.hbm, 36, rfl⟩
abbrev main_call0_call0_call0_c : Ref sig .tc := ⟨.hbm, 37, rfl⟩
abbrev main_call0_call0_call0_v1 : Ref sig .tc := ⟨.hbm, 38, rfl⟩
abbrev main_call0_call0_call0_v2 : Ref sig .tc := ⟨.hbm, 39, rfl⟩
abbrev main_call0_call0_call0_v3 : Ref sig .tc := ⟨.hbm, 40, rfl⟩
abbrev main_call0_call0_call0_v4 : Ref sig .tc := ⟨.hbm, 41, rfl⟩
abbrev main_call0_call0_call0_v5 : Ref sig .tc := ⟨.hbm, 42, rfl⟩
abbrev main_call0_call0_call0_v6 : Ref sig .tc := ⟨.hbm, 43, rfl⟩
abbrev main_call0_call0_call0_c_0 : Ref sig .tc := ⟨.hbm, 44, rfl⟩
abbrev main_call0_call0_call0_v7 : Ref sig .tc := ⟨.hbm, 45, rfl⟩
abbrev main_call0_call0_call0_v8 : Ref sig .tc := ⟨.hbm, 46, rfl⟩
abbrev main_call0_call0_call0_c_1 : Ref sig .tc := ⟨.hbm, 47, rfl⟩
abbrev main_call0_call0_call0_v9 : Ref sig .tc := ⟨.hbm, 48, rfl⟩
abbrev main_call0_call0_call0_v10 : Ref sig .tc := ⟨.hbm, 49, rfl⟩
abbrev main_call0_call0_call0_v11 : Ref sig .tc := ⟨.hbm, 50, rfl⟩
abbrev main_call0_call0_call0_v12 : Ref sig .tc := ⟨.hbm, 51, rfl⟩
abbrev main_call0_call0_call0_v13 : Ref sig .tc := ⟨.hbm, 52, rfl⟩
abbrev main_call0_call0_call0_c_2 : Ref sig .tc := ⟨.hbm, 53, rfl⟩
abbrev main_call0_call0_call0_v14 : Ref sig .tc := ⟨.hbm, 54, rfl⟩
abbrev main_call0_call0_call0_v15 : Ref sig .tc := ⟨.hbm, 55, rfl⟩
abbrev main_call0_call0_call0_c_3 : Ref sig .tc := ⟨.hbm, 56, rfl⟩
abbrev main_call0_call0_call0_v16 : Ref sig .tc := ⟨.hbm, 57, rfl⟩
abbrev main_call0_call0_call0_v17 : Ref sig .tc := ⟨.hbm, 58, rfl⟩
abbrev main_call0_call0_call0_v18 : Ref sig .tc := ⟨.hbm, 59, rfl⟩
abbrev main_call0_call0_call0_v19 : Ref sig .tc := ⟨.hbm, 60, rfl⟩
abbrev main_call0_call0_call0_v20 : Ref sig .tc := ⟨.hbm, 61, rfl⟩
abbrev main_call0_call0_call0_c_4 : Ref sig .tc := ⟨.hbm, 62, rfl⟩
abbrev main_call0_call0_call0_v21 : Ref sig .tc := ⟨.hbm, 63, rfl⟩
abbrev main_call0_call0_call0_v22 : Ref sig .tc := ⟨.hbm, 64, rfl⟩
abbrev main_call0_call0_call0_c_5 : Ref sig .tc := ⟨.hbm, 65, rfl⟩
abbrev main_call0_call0_call0_v23 : Ref sig .tc := ⟨.hbm, 66, rfl⟩
abbrev main_call0_call0_call0_v24 : Ref sig .tc := ⟨.hbm, 67, rfl⟩
abbrev main_call0_call0_call0_v25 : Ref sig .tc := ⟨.hbm, 68, rfl⟩
abbrev main_call0_call0_call0_v26 : Ref sig .tc := ⟨.hbm, 69, rfl⟩
abbrev main_call0_call0_call0_v27 : Ref sig .tc := ⟨.hbm, 70, rfl⟩
abbrev main_call0_call0_call0_c_6 : Ref sig .tc := ⟨.hbm, 71, rfl⟩
abbrev main_call0_call0_call0_v28 : Ref sig .tc := ⟨.hbm, 72, rfl⟩
abbrev main_call0_call0_call0_v29 : Ref sig .tc := ⟨.hbm, 73, rfl⟩
abbrev main_call0_call0_call0_c_7 : Ref sig .tc := ⟨.hbm, 74, rfl⟩
abbrev main_call0_call0_call0_v30 : Ref sig .tc := ⟨.hbm, 75, rfl⟩
abbrev main_call0_call0_call0_v31 : Ref sig .tc := ⟨.hbm, 76, rfl⟩
abbrev main_call0_call0_call0_v32 : Ref sig .tc := ⟨.hbm, 77, rfl⟩
abbrev main_call0_call0_call0_v33 : Ref sig .tc := ⟨.hbm, 78, rfl⟩
abbrev main_call0_call0_call0_v34 : Ref sig .tc := ⟨.hbm, 79, rfl⟩
abbrev main_call0_call0_call0_v35 : Ref sig .tc := ⟨.hbm, 80, rfl⟩
abbrev main_call0_call0_call0_v36 : Ref sig .tc := ⟨.hbm, 81, rfl⟩
abbrev main_call0_call0_call0_v37 : Ref sig .tc := ⟨.hbm, 82, rfl⟩
abbrev main_call0_call0_call0_c_8 : Ref sig .tc := ⟨.hbm, 83, rfl⟩
abbrev main_call0_call0_call0_v38 : Ref sig .tc := ⟨.hbm, 84, rfl⟩
abbrev main_call0_call0_call0_v39 : Ref sig .tc := ⟨.hbm, 85, rfl⟩
abbrev main_call0_call0_call0_v40 : Ref sig .tc := ⟨.hbm, 86, rfl⟩
abbrev main_call0_call0_call0_c_9 : Ref sig .tc := ⟨.hbm, 87, rfl⟩
abbrev main_call0_call0_call0_v41 : Ref sig .tc := ⟨.hbm, 88, rfl⟩
abbrev main_call0_call0_call0_v42 : Ref sig .tc := ⟨.hbm, 89, rfl⟩
abbrev main_call0_call0_call0_c_10 : Ref sig .tc := ⟨.hbm, 90, rfl⟩
abbrev main_call0_call0_call0_v43 : Ref sig .tc := ⟨.hbm, 91, rfl⟩
abbrev main_call0_call0_call0_v44 : Ref sig .tc := ⟨.hbm, 92, rfl⟩
abbrev main_call0_call0_call0_v45 : Ref sig .tc := ⟨.hbm, 93, rfl⟩
abbrev main_call0_call0_call0_v46 : Ref sig .tc := ⟨.hbm, 94, rfl⟩
abbrev main_call0_call0_call0_v47 : Ref sig .tc := ⟨.hbm, 95, rfl⟩
abbrev main_call0_call0_call0_c_11 : Ref sig .tc := ⟨.hbm, 96, rfl⟩
abbrev main_call0_call0_call0_v48 : Ref sig .tc := ⟨.hbm, 97, rfl⟩
abbrev main_call0_call0_call0_v49 : Ref sig .tc := ⟨.hbm, 98, rfl⟩
abbrev main_call0_call0_call0_c_12 : Ref sig .tc := ⟨.hbm, 99, rfl⟩
abbrev main_call0_call0_call0_v50 : Ref sig .tc := ⟨.hbm, 100, rfl⟩
abbrev main_call0_call0_call0_v51 : Ref sig .tc := ⟨.hbm, 101, rfl⟩
abbrev main_call0_call0_call0_v52 : Ref sig .tc := ⟨.hbm, 102, rfl⟩
abbrev main_call0_call0_call0_v53 : Ref sig .tc := ⟨.hbm, 103, rfl⟩
abbrev main_call0_call0_call0_v54 : Ref sig .tc := ⟨.hbm, 104, rfl⟩
abbrev main_call0_call0_call0_c_13 : Ref sig .tc := ⟨.hbm, 105, rfl⟩
abbrev main_call0_call0_call0_v55 : Ref sig .tc := ⟨.hbm, 106, rfl⟩
abbrev main_call0_call0_call0_v56 : Ref sig .tc := ⟨.hbm, 107, rfl⟩
abbrev main_call0_call0_call0_c_14 : Ref sig .tc := ⟨.hbm, 108, rfl⟩
abbrev main_call0_call0_call0_v57 : Ref sig .tc := ⟨.hbm, 109, rfl⟩
abbrev main_call0_call0_call0_v58 : Ref sig .tc := ⟨.hbm, 110, rfl⟩
abbrev main_call0_call0_call0_v59 : Ref sig .tc := ⟨.hbm, 111, rfl⟩
abbrev main_call0_call0_call0_v60 : Ref sig .tc := ⟨.hbm, 112, rfl⟩
abbrev main_call0_call0_call0_v61 : Ref sig .tc := ⟨.hbm, 113, rfl⟩
abbrev main_call0_call0_call0_c_15 : Ref sig .tc := ⟨.hbm, 114, rfl⟩
abbrev main_call0_call0_call0_v62 : Ref sig .tc := ⟨.hbm, 115, rfl⟩
abbrev main_call0_call0_call0_v63 : Ref sig .tc := ⟨.hbm, 116, rfl⟩
abbrev main_call0_call0_call0_c_16 : Ref sig .tc := ⟨.hbm, 117, rfl⟩
abbrev main_call0_call0_call0_v64 : Ref sig .tc := ⟨.hbm, 118, rfl⟩
abbrev main_call0_call0_call0_v65 : Ref sig .tc := ⟨.hbm, 119, rfl⟩
abbrev main_call0_call0_call0_v66 : Ref sig .tc := ⟨.hbm, 120, rfl⟩
abbrev main_call0_call0_call0_v67 : Ref sig .tc := ⟨.hbm, 121, rfl⟩
abbrev main_call0_call0_call0_v68 : Ref sig .tc := ⟨.hbm, 122, rfl⟩
abbrev main_call0_call0_call0_v69 : Ref sig .tc := ⟨.hbm, 123, rfl⟩
abbrev main_call0_call0_call0_v70 : Ref sig .tc := ⟨.hbm, 124, rfl⟩
abbrev main_call0_call0_call0_v71 : Ref sig .tc := ⟨.hbm, 125, rfl⟩
abbrev main_call0_call0_call0_c_17 : Ref sig .tc := ⟨.hbm, 126, rfl⟩
abbrev main_call0_call0_call0_v72 : Ref sig .tc := ⟨.hbm, 127, rfl⟩
abbrev main_call0_call0_call0_v73 : Ref sig .tc := ⟨.hbm, 128, rfl⟩
abbrev main_call0_call0_call0_v74 : Ref sig .tc := ⟨.hbm, 129, rfl⟩
abbrev main_call0_call0_call0_c_18 : Ref sig .tc := ⟨.hbm, 130, rfl⟩
abbrev main_call0_call0_call0_v75 : Ref sig .tc := ⟨.hbm, 131, rfl⟩
abbrev main_call0_call0_call0_v76 : Ref sig .tc := ⟨.hbm, 132, rfl⟩
abbrev main_call0_call0_call0_c_19 : Ref sig .tc := ⟨.hbm, 133, rfl⟩
abbrev main_call0_call0_call0_v77 : Ref sig .tc := ⟨.hbm, 134, rfl⟩
abbrev main_call0_call0_call0_v78 : Ref sig .tc := ⟨.hbm, 135, rfl⟩
abbrev main_call0_call0_call0_v79 : Ref sig .tc := ⟨.hbm, 136, rfl⟩
abbrev main_call0_call0_call0_v80 : Ref sig .tc := ⟨.hbm, 137, rfl⟩
abbrev main_call0_call0_call0_v81 : Ref sig .tc := ⟨.hbm, 138, rfl⟩
abbrev main_call0_call0_call0_c_20 : Ref sig .tc := ⟨.hbm, 139, rfl⟩
abbrev main_call0_call0_call0_v82 : Ref sig .tc := ⟨.hbm, 140, rfl⟩
abbrev main_call0_call0_call0_v83 : Ref sig .tc := ⟨.hbm, 141, rfl⟩
abbrev main_call0_call0_call0_c_21 : Ref sig .tc := ⟨.hbm, 142, rfl⟩
abbrev main_call0_call0_call0_v84 : Ref sig .tc := ⟨.hbm, 143, rfl⟩
abbrev main_call0_call0_call0_v85 : Ref sig .tc := ⟨.hbm, 144, rfl⟩
abbrev main_call0_call0_call0_v86 : Ref sig .tc := ⟨.hbm, 145, rfl⟩
abbrev main_call0_call0_call0_v87 : Ref sig .tc := ⟨.hbm, 146, rfl⟩
abbrev main_call0_call0_call0_v88 : Ref sig .tc := ⟨.hbm, 147, rfl⟩
abbrev main_call0_call0_call0_c_22 : Ref sig .tc := ⟨.hbm, 148, rfl⟩
abbrev main_call0_call0_call0_v89 : Ref sig .tc := ⟨.hbm, 149, rfl⟩
abbrev main_call0_call0_call0_v90 : Ref sig .tc := ⟨.hbm, 150, rfl⟩
abbrev main_call0_call0_call0_c_23 : Ref sig .tc := ⟨.hbm, 151, rfl⟩
abbrev main_call0_call0_call0_v91 : Ref sig .tc := ⟨.hbm, 152, rfl⟩
abbrev main_call0_call0_call0_v92 : Ref sig .tc := ⟨.hbm, 153, rfl⟩
abbrev main_call0_call0_call0_v93 : Ref sig .tc := ⟨.hbm, 154, rfl⟩
abbrev main_call0_call0_call0_v94 : Ref sig .tc := ⟨.hbm, 155, rfl⟩
abbrev main_call0_call0_call0_v95 : Ref sig .tc := ⟨.hbm, 156, rfl⟩
abbrev main_call0_call0_call0_c_24 : Ref sig .tc := ⟨.hbm, 157, rfl⟩
abbrev main_call0_call0_call0_v96 : Ref sig .tc := ⟨.hbm, 158, rfl⟩
abbrev main_call0_call0_call0_v97 : Ref sig .tc := ⟨.hbm, 159, rfl⟩
abbrev main_call0_call0_call0_c_25 : Ref sig .tc := ⟨.hbm, 160, rfl⟩
abbrev main_call0_call0_call0_v98 : Ref sig .tc := ⟨.hbm, 161, rfl⟩
abbrev main_call0_call0_call0_v99 : Ref sig .tc := ⟨.hbm, 162, rfl⟩
abbrev main_call0_call0_call0_v100 : Ref sig .tc := ⟨.hbm, 163, rfl⟩
abbrev main_call0_call0_call0_v101 : Ref sig .tc := ⟨.hbm, 164, rfl⟩
abbrev main_call0_call0_call0_v102 : Ref sig .tc := ⟨.hbm, 165, rfl⟩
abbrev main_call0_call0_call0_v103 : Ref sig .tc := ⟨.hbm, 166, rfl⟩
abbrev main_call0_call0_call0_v104 : Ref sig .tc := ⟨.hbm, 167, rfl⟩
abbrev main_call0_call0_call0_v105 : Ref sig .tc := ⟨.hbm, 168, rfl⟩
abbrev main_call0_call0_call0_c_26 : Ref sig .tc := ⟨.hbm, 169, rfl⟩
abbrev main_call0_call0_call0_v106 : Ref sig .tc := ⟨.hbm, 170, rfl⟩
abbrev main_call0_call0_call0_v107 : Ref sig .tc := ⟨.hbm, 171, rfl⟩
abbrev main_call0_call0_call0_v108 : Ref sig .tc := ⟨.hbm, 172, rfl⟩
abbrev main_call0_call0_call0_c_27 : Ref sig .tc := ⟨.hbm, 173, rfl⟩
abbrev main_call0_call0_call0_v109 : Ref sig .tc := ⟨.hbm, 174, rfl⟩
abbrev main_call0_call0_call0_v110 : Ref sig .tc := ⟨.hbm, 175, rfl⟩
abbrev main_call0_call0_call0_c_28 : Ref sig .tc := ⟨.hbm, 176, rfl⟩
abbrev main_call0_call0_call0_v111 : Ref sig .tc := ⟨.hbm, 177, rfl⟩
abbrev main_call0_call0_call0_v112 : Ref sig .tc := ⟨.hbm, 178, rfl⟩
abbrev main_call0_call0_call0_v113 : Ref sig .tc := ⟨.hbm, 179, rfl⟩
abbrev main_call0_call0_call0_v114 : Ref sig .tc := ⟨.hbm, 180, rfl⟩
abbrev main_call0_call0_call0_v115 : Ref sig .tc := ⟨.hbm, 181, rfl⟩
abbrev main_call0_call0_call0_c_29 : Ref sig .tc := ⟨.hbm, 182, rfl⟩
abbrev main_call0_call0_call0_v116 : Ref sig .tc := ⟨.hbm, 183, rfl⟩
abbrev main_call0_call0_call0_v117 : Ref sig .tc := ⟨.hbm, 184, rfl⟩
abbrev main_call0_call0_call0_c_30 : Ref sig .tc := ⟨.hbm, 185, rfl⟩
abbrev main_call0_call0_call0_v118 : Ref sig .tc := ⟨.hbm, 186, rfl⟩
abbrev main_call0_call0_call0_v119 : Ref sig .tc := ⟨.hbm, 187, rfl⟩
abbrev main_call0_call0_call0_v120 : Ref sig .tc := ⟨.hbm, 188, rfl⟩
abbrev main_call0_call0_call0_v121 : Ref sig .tc := ⟨.hbm, 189, rfl⟩
abbrev main_call0_call0_call0_v122 : Ref sig .tc := ⟨.hbm, 190, rfl⟩
abbrev main_call0_call0_call0_c_31 : Ref sig .tc := ⟨.hbm, 191, rfl⟩
abbrev main_call0_call0_call0_v123 : Ref sig .tc := ⟨.hbm, 192, rfl⟩
abbrev main_call0_call0_call0_v124 : Ref sig .tc := ⟨.hbm, 193, rfl⟩
abbrev main_call0_call0_call0_c_32 : Ref sig .tc := ⟨.hbm, 194, rfl⟩
abbrev main_call0_call0_call0_v125 : Ref sig .tc := ⟨.hbm, 195, rfl⟩
abbrev main_call0_call0_call0_v126 : Ref sig .tc := ⟨.hbm, 196, rfl⟩
abbrev main_call0_call0_call0_v127 : Ref sig .tc := ⟨.hbm, 197, rfl⟩
abbrev main_call0_call0_call0_v128 : Ref sig .tc := ⟨.hbm, 198, rfl⟩
abbrev main_call0_call0_call0_v129 : Ref sig .tc := ⟨.hbm, 199, rfl⟩
abbrev main_call0_call0_call0_c_33 : Ref sig .tc := ⟨.hbm, 200, rfl⟩
abbrev main_call0_call0_call0_v130 : Ref sig .tc := ⟨.hbm, 201, rfl⟩
abbrev main_call0_call0_call0_v131 : Ref sig .tc := ⟨.hbm, 202, rfl⟩
abbrev main_call0_call0_call0_c_34 : Ref sig .tc := ⟨.hbm, 203, rfl⟩
abbrev main_call0_call0_call0_v132 : Ref sig .tc := ⟨.hbm, 204, rfl⟩
abbrev main_call0_call0_call0_v133 : Ref sig .tc := ⟨.hbm, 205, rfl⟩
abbrev main_call0_call0_call0_v134 : Ref sig .tc := ⟨.hbm, 206, rfl⟩
abbrev main_call0_call0_call0_v135 : Ref sig .tc := ⟨.hbm, 207, rfl⟩
abbrev main_call0_call0_call0_v136 : Ref sig .tc := ⟨.hbm, 208, rfl⟩
abbrev main_call0_call0_call0_v137 : Ref sig .tc := ⟨.hbm, 209, rfl⟩
abbrev main_call0_call0_call0_v138 : Ref sig .tc := ⟨.hbm, 210, rfl⟩
abbrev main_call0_call0_call0_v139 : Ref sig .tc := ⟨.hbm, 211, rfl⟩
abbrev main_call0_call0_call0_c_35 : Ref sig .tc := ⟨.hbm, 212, rfl⟩
abbrev main_call0_call0_call0_v140 : Ref sig .tc := ⟨.hbm, 213, rfl⟩
abbrev main_call0_call0_call0_v141 : Ref sig .tc := ⟨.hbm, 214, rfl⟩
abbrev main_call0_call0_call0_v142 : Ref sig .tc := ⟨.hbm, 215, rfl⟩
abbrev main_call0_call0_call0_c_36 : Ref sig .tc := ⟨.hbm, 216, rfl⟩
abbrev main_call0_call0_call0_v143 : Ref sig .tc := ⟨.hbm, 217, rfl⟩
abbrev main_call0_call0_call0_v144 : Ref sig .tc := ⟨.hbm, 218, rfl⟩
abbrev main_call0_call0_call0_c_37 : Ref sig .tc := ⟨.hbm, 219, rfl⟩
abbrev main_call0_call0_call0_v145 : Ref sig .tc := ⟨.hbm, 220, rfl⟩
abbrev main_call0_call0_call0_v146 : Ref sig .tc := ⟨.hbm, 221, rfl⟩
abbrev main_call0_call0_call0_v147 : Ref sig .tc := ⟨.hbm, 222, rfl⟩
abbrev main_call0_call0_call0_v148 : Ref sig .tc := ⟨.hbm, 223, rfl⟩
abbrev main_call0_call0_call0_v149 : Ref sig .tc := ⟨.hbm, 224, rfl⟩
abbrev main_call0_call0_call0_c_38 : Ref sig .tc := ⟨.hbm, 225, rfl⟩
abbrev main_call0_call0_call0_v150 : Ref sig .tc := ⟨.hbm, 226, rfl⟩
abbrev main_call0_call0_call0_v151 : Ref sig .tc := ⟨.hbm, 227, rfl⟩
abbrev main_call0_call0_call0_c_39 : Ref sig .tc := ⟨.hbm, 228, rfl⟩
abbrev main_call0_call0_call0_v152 : Ref sig .tc := ⟨.hbm, 229, rfl⟩
abbrev main_call0_call0_call0_v153 : Ref sig .tc := ⟨.hbm, 230, rfl⟩
abbrev main_call0_call0_call0_v154 : Ref sig .tc := ⟨.hbm, 231, rfl⟩
abbrev main_call0_call0_call0_v155 : Ref sig .tc := ⟨.hbm, 232, rfl⟩
abbrev main_call0_call0_call0_v156 : Ref sig .tc := ⟨.hbm, 233, rfl⟩
abbrev main_call0_call0_call0_c_40 : Ref sig .tc := ⟨.hbm, 234, rfl⟩
abbrev main_call0_call0_call0_v157 : Ref sig .tc := ⟨.hbm, 235, rfl⟩
abbrev main_call0_call0_call0_v158 : Ref sig .tc := ⟨.hbm, 236, rfl⟩
abbrev main_call0_call0_call0_c_41 : Ref sig .tc := ⟨.hbm, 237, rfl⟩
abbrev main_call0_call0_call0_v159 : Ref sig .tc := ⟨.hbm, 238, rfl⟩
abbrev main_call0_call0_call0_v160 : Ref sig .tc := ⟨.hbm, 239, rfl⟩
abbrev main_call0_call0_call0_v161 : Ref sig .tc := ⟨.hbm, 240, rfl⟩
abbrev main_call0_call0_call0_v162 : Ref sig .tc := ⟨.hbm, 241, rfl⟩
abbrev main_call0_call0_call0_v163 : Ref sig .tc := ⟨.hbm, 242, rfl⟩
abbrev main_call0_call0_call0_c_42 : Ref sig .tc := ⟨.hbm, 243, rfl⟩
abbrev main_call0_call0_call0_v164 : Ref sig .tc := ⟨.hbm, 244, rfl⟩
abbrev main_call0_call0_call0_v165 : Ref sig .tc := ⟨.hbm, 245, rfl⟩
abbrev main_call0_call0_call0_c_43 : Ref sig .tc := ⟨.hbm, 246, rfl⟩
abbrev main_call0_call0_call0_v166 : Ref sig .tc := ⟨.hbm, 247, rfl⟩
abbrev main_call0_call0_call0_v167 : Ref sig .tc := ⟨.hbm, 248, rfl⟩
abbrev main_call0_call0_call0_v168 : Ref sig .tc := ⟨.hbm, 249, rfl⟩
abbrev main_call0_call0_call0_v169 : Ref sig .tc := ⟨.hbm, 250, rfl⟩
abbrev main_call0_call0_call0_v170 : Ref sig .tc := ⟨.hbm, 251, rfl⟩
abbrev main_call0_call0_v19_0 : Ref sig .tc := ⟨.hbm, 252, rfl⟩
abbrev main_call0_call0_call0_v172 : Ref sig .tc := ⟨.hbm, 253, rfl⟩
abbrev main_call0_call0_call0_v173 : Ref sig .tc := ⟨.hbm, 254, rfl⟩
abbrev main_call0_call0_call0_c_44 : Ref sig .tc := ⟨.hbm, 255, rfl⟩
abbrev main_call0_call0_call0_v174 : Ref sig .tc := ⟨.hbm, 256, rfl⟩
abbrev main_call0_call0_v19_1 : Ref sig .tc := ⟨.hbm, 257, rfl⟩
abbrev main_call0_call0_v20 : Ref sig .tc := ⟨.hbm, 258, rfl⟩
abbrev main_call0_call0_c_2 : Ref sig .tc := ⟨.hbm, 259, rfl⟩
abbrev main_call0_call0_v21 : Ref sig .tc := ⟨.hbm, 260, rfl⟩
abbrev main_call0_call0_v22 : Ref sig .tc := ⟨.hbm, 261, rfl⟩
abbrev main_call0_call0_c_3 : Ref sig .tc := ⟨.hbm, 262, rfl⟩
abbrev main_call0_call0_v23 : Ref sig .tc := ⟨.hbm, 263, rfl⟩
abbrev main_call0_call0_v24 : Ref sig .tc := ⟨.hbm, 264, rfl⟩
abbrev main_call0_call0_v25 : Ref sig .tc := ⟨.hbm, 265, rfl⟩
abbrev main_call0_call0_cst : Ref sig .tc := ⟨.hbm, 266, rfl⟩
abbrev main_call0_call0_v26 : Ref sig .tc := ⟨.hbm, 267, rfl⟩
abbrev main_call0_call0_v27 : Ref sig .tc := ⟨.hbm, 268, rfl⟩
abbrev main_call0_call0_v28 : Ref sig .tc := ⟨.hbm, 269, rfl⟩
abbrev main_call0_call0_v29 : Ref sig .tc := ⟨.hbm, 270, rfl⟩
abbrev main_call0_call0_v30 : Ref sig .tc := ⟨.hbm, 271, rfl⟩
abbrev main_call0_call0_v31 : Ref sig .tc := ⟨.hbm, 272, rfl⟩
abbrev main_call0_call0_v32 : Ref sig .tc := ⟨.hbm, 273, rfl⟩
abbrev main_call0_call0_v33 : Ref sig .tc := ⟨.hbm, 274, rfl⟩
abbrev main_call0_v0 : Ref sig .tc := ⟨.hbm, 275, rfl⟩
abbrev main_call0_v1 : Ref sig .tc := ⟨.hbm, 276, rfl⟩
abbrev main_v7 : Ref sig .tc := ⟨.hbm, 277, rfl⟩
abbrev main_cst_2 : Ref sig .tc := ⟨.hbm, 278, rfl⟩
abbrev main_cst_3 : Ref sig .tc := ⟨.hbm, 279, rfl⟩
abbrev main_call1_v0 : Ref sig .tc := ⟨.hbm, 280, rfl⟩
abbrev main_call1_v1 : Ref sig .tc := ⟨.hbm, 281, rfl⟩
abbrev main_v8 : Ref sig .tc := ⟨.hbm, 282, rfl⟩
abbrev main_v9 : Ref sig .tc := ⟨.hbm, 283, rfl⟩
abbrev main_v10 : Ref sig .tc := ⟨.hbm, 284, rfl⟩
abbrev main_v11 : Ref sig .tc := ⟨.hbm, 285, rfl⟩
abbrev main_v12 : Ref sig .tc := ⟨.hbm, 286, rfl⟩
abbrev main_v13 : Ref sig .tc := ⟨.hbm, 287, rfl⟩
abbrev main_v14 : Ref sig .tc := ⟨.hbm, 288, rfl⟩
abbrev main_v15 : Ref sig .tc := ⟨.hbm, 289, rfl⟩
abbrev main_v16 : Ref sig .tc := ⟨.hbm, 290, rfl⟩
abbrev main_v17 : Ref sig .tc := ⟨.hbm, 291, rfl⟩
abbrev main_v14_scv : Ref sig .scVector := ⟨.hbm, 288, rfl⟩
abbrev main_v15_scv : Ref sig .scVector := ⟨.hbm, 289, rfl⟩
abbrev main_v16_scv : Ref sig .scVector := ⟨.hbm, 290, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c0_i32_38_r0 : BitVec 32 := 0#32
  ![v3.toNat, 0]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v4 : BitVec 32 := Scalar.addi v2 c0_i32
  let c0_i32_0 : BitVec 32 := 0#32
  ![v4.toNat, 0]
def k0_off2_at (r : Fin 5) : BitVec 32 :=
  if r.val < 2 then
    if r.val < 1 then
      0#32
    else
      32#32
  else
    if r.val < 3 then
      960#32
    else
      if r.val < 4 then
        992#32
      else
        928#32
@[reducible] def k0_t1_loop : Scf.Loop 32 :=
  let c0_i32_5 : BitVec 32 := 0#32
  let c10_i32 : BitVec 32 := 10#32
  let v10 : BitVec 32 := Scalar.addi c0_i32_5 c10_i32
  let c1_i32 : BitVec 32 := 1#32
  ⟨c0_i32_5, v10, c1_i32⟩
def k0_off3 (i : grid0.Coords) (k0_t1 : Fin k0_t1_loop.trips) (c0_i32_38 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_5 : BitVec 32 := 0#32
  let c1_i32 : BitVec 32 := 1#32
  let arg15 : BitVec 32 := Scf.iv c0_i32_5 c1_i32 k0_t1
  let c3_i32 : BitVec 32 := 3#32
  let v40 : BitVec 32 := Scalar.muli arg15 c3_i32
  let v41 : BitVec 32 := Scalar.addi v40 c0_i32_38
  let c32_i32_39 : BitVec 32 := 32#32
  let v42 : BitVec 32 := Scalar.muli v41 c32_i32_39
  let v43 : BitVec 32 := Scalar.addi v2 v42
  let c0_i32_40 : BitVec 32 := 0#32
  ![v43.toNat, 0]
@[reducible] def k0_t2_loop : Scf.Loop 32 :=
  let c0_i32_43 : BitVec 32 := 0#32
  let c16_i32_44 : BitVec 32 := 16#32
  let v46 : BitVec 32 := Scalar.addi c0_i32_43 c16_i32_44
  let c1_i32_45 : BitVec 32 := 1#32
  ⟨c0_i32_43, v46, c1_i32_45⟩
def k0_off4 (k0_t1 : Fin k0_t1_loop.trips) (k0_t2 : Fin k0_t2_loop.trips) (c0_i32_95 : BitVec 32) : Fin 2 → Nat :=
  let c0_i32_5 : BitVec 32 := 0#32
  let c1_i32 : BitVec 32 := 1#32
  let arg15 : BitVec 32 := Scf.iv c0_i32_5 c1_i32 k0_t1
  let c3_i32 : BitVec 32 := 3#32
  let v40 : BitVec 32 := Scalar.muli arg15 c3_i32
  let c0_i32_38 : BitVec 32 := 0#32
  let v41 : BitVec 32 := Scalar.addi v40 c0_i32_38
  let c32_i32_96 : BitVec 32 := 32#32
  let v102 : BitVec 32 := Scalar.muli v41 c32_i32_96
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v103 : BitVec 32 := Scalar.addi v102 v101
  let c0_i32_97 : BitVec 32 := 0#32
  let v105 : BitVec 1 := Scalar.cmpi .sgt v103 c0_i32_97
  let v106 : BitVec 32 := Scalar.extui v105
  let c0_i32_98 : BitVec 32 := 0#32
  let v107 : BitVec 1 := Scalar.cmpi .slt v103 c0_i32_98
  let v108 : BitVec 32 := Scalar.extui v107
  let v109 : BitVec 32 := Scalar.subi v106 v108
  let c8_i32 : BitVec 32 := 8#32
  let c0_i32_99 : BitVec 32 := 0#32
  let v110 : BitVec 1 := Scalar.cmpi .sgt c8_i32 c0_i32_99
  let v111 : BitVec 32 := Scalar.extui v110
  let c0_i32_100 : BitVec 32 := 0#32
  let v112 : BitVec 1 := Scalar.cmpi .slt c8_i32 c0_i32_100
  let v113 : BitVec 32 := Scalar.extui v112
  let v114 : BitVec 32 := Scalar.subi v111 v113
  let v115 : BitVec 1 := Scalar.cmpi .ne v109 v114
  let v116 : BitVec 32 := Scalar.remsi v103 c8_i32
  let c0_i32_101 : BitVec 32 := 0#32
  let v117 : BitVec 1 := Scalar.cmpi .ne v116 c0_i32_101
  let v118 : BitVec 1 := Scalar.andi v115 v117
  let v104 : BitVec 32 := Scalar.divsi v103 c8_i32
  let c1_i32_102 : BitVec 32 := 1#32
  let v119 : BitVec 32 := Scalar.subi v104 c1_i32_102
  let v120 : BitVec 32 := Scalar.select v118 v119 v104
  let v132 : Index := Scalar.indexCast v120
  let c8_i32_103 : BitVec 32 := 8#32
  let c0_i32_104 : BitVec 32 := 0#32
  let v121 : BitVec 1 := Scalar.cmpi .eq c8_i32_103 c0_i32_104
  let c1_i32_105 : BitVec 32 := 1#32
  let v122 : BitVec 32 := Scalar.select v121 c1_i32_105 c8_i32_103
  let v123 : BitVec 32 := Scalar.remsi v103 v122
  let c0_i32_107 : BitVec 32 := 0#32
  let v125 : BitVec 1 := Scalar.cmpi .slt v123 c0_i32_107
  let c0_i32_108 : BitVec 32 := 0#32
  let v126 : BitVec 1 := Scalar.cmpi .slt v122 c0_i32_108
  let v127 : BitVec 1 := Scalar.xori v125 v126
  let c0_i32_106 : BitVec 32 := 0#32
  let v124 : BitVec 1 := Scalar.cmpi .ne v123 c0_i32_106
  let v128 : BitVec 1 := Scalar.andi v127 v124
  let v129 : BitVec 32 := Scalar.addi v123 v122
  let v130 : BitVec 32 := Scalar.select v128 v129 v123
  let c16_i32_109 : BitVec 32 := 16#32
  let v131 : BitVec 32 := Scalar.muli v130 c16_i32_109
  let v133 : Index := Scalar.indexCast v131
  ![v132.toNat, v133.toNat]
def k0_off5 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v136 : Index := Scalar.indexCast v101
  let c0 : Index := 0#32
  ![v136.toNat, 0]
def k0_off6 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v144 : Index := Scalar.indexCast v101
  let c16 : Index := 16#32
  ![v144.toNat, 16]
def k0_off7 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v152 : Index := Scalar.indexCast v101
  let c32 : Index := 32#32
  ![v152.toNat, 32]
def k0_off8 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v160 : Index := Scalar.indexCast v101
  let c48 : Index := 48#32
  ![v160.toNat, 48]
def k0_off9 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v168 : Index := Scalar.indexCast v101
  let c64 : Index := 64#32
  ![v168.toNat, 64]
def k0_off10 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v176 : Index := Scalar.indexCast v101
  let c80 : Index := 80#32
  ![v176.toNat, 80]
def k0_off11 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v184 : Index := Scalar.indexCast v101
  let c96 : Index := 96#32
  ![v184.toNat, 96]
def k0_off12 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v192 : Index := Scalar.indexCast v101
  let c112 : Index := 112#32
  ![v192.toNat, 112]
def k0_off13 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v200 : Index := Scalar.indexCast v101
  let c128 : Index := 128#32
  ![v200.toNat, 128]
def k0_off14 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v208 : Index := Scalar.indexCast v101
  let c144 : Index := 144#32
  ![v208.toNat, 144]
def k0_off15 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v216 : Index := Scalar.indexCast v101
  let c160 : Index := 160#32
  ![v216.toNat, 160]
def k0_off16 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v224 : Index := Scalar.indexCast v101
  let c176 : Index := 176#32
  ![v224.toNat, 176]
def k0_off17 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v232 : Index := Scalar.indexCast v101
  let c192 : Index := 192#32
  ![v232.toNat, 192]
def k0_off18 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v240 : Index := Scalar.indexCast v101
  let c208 : Index := 208#32
  ![v240.toNat, 208]
def k0_off19 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v248 : Index := Scalar.indexCast v101
  let c224 : Index := 224#32
  ![v248.toNat, 224]
def k0_off20 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v256 : Index := Scalar.indexCast v101
  let c240 : Index := 240#32
  ![v256.toNat, 240]
def k0_off21 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v264 : Index := Scalar.indexCast v101
  let c256 : Index := 256#32
  ![v264.toNat, 256]
def k0_off22 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v272 : Index := Scalar.indexCast v101
  let c272 : Index := 272#32
  ![v272.toNat, 272]
def k0_off23 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v280 : Index := Scalar.indexCast v101
  let c288 : Index := 288#32
  ![v280.toNat, 288]
def k0_off24 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v288 : Index := Scalar.indexCast v101
  let c304 : Index := 304#32
  ![v288.toNat, 304]
def k0_off25 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v296 : Index := Scalar.indexCast v101
  let c320 : Index := 320#32
  ![v296.toNat, 320]
def k0_off26 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v304 : Index := Scalar.indexCast v101
  let c336 : Index := 336#32
  ![v304.toNat, 336]
def k0_off27 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v312 : Index := Scalar.indexCast v101
  let c352 : Index := 352#32
  ![v312.toNat, 352]
def k0_off28 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v320 : Index := Scalar.indexCast v101
  let c368 : Index := 368#32
  ![v320.toNat, 368]
def k0_off29 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v328 : Index := Scalar.indexCast v101
  let c384 : Index := 384#32
  ![v328.toNat, 384]
def k0_off30 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v336 : Index := Scalar.indexCast v101
  let c400 : Index := 400#32
  ![v336.toNat, 400]
def k0_off31 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v344 : Index := Scalar.indexCast v101
  let c416 : Index := 416#32
  ![v344.toNat, 416]
def k0_off32 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v352 : Index := Scalar.indexCast v101
  let c432 : Index := 432#32
  ![v352.toNat, 432]
def k0_off33 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v360 : Index := Scalar.indexCast v101
  let c448 : Index := 448#32
  ![v360.toNat, 448]
def k0_off34 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v368 : Index := Scalar.indexCast v101
  let c464 : Index := 464#32
  ![v368.toNat, 464]
def k0_off35 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v376 : Index := Scalar.indexCast v101
  let c480 : Index := 480#32
  ![v376.toNat, 480]
def k0_off36 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v384 : Index := Scalar.indexCast v101
  let c496 : Index := 496#32
  ![v384.toNat, 496]
def k0_off37 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v392 : Index := Scalar.indexCast v101
  let c512 : Index := 512#32
  ![v392.toNat, 512]
def k0_off38 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v400 : Index := Scalar.indexCast v101
  let c528 : Index := 528#32
  ![v400.toNat, 528]
def k0_off39 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v408 : Index := Scalar.indexCast v101
  let c544 : Index := 544#32
  ![v408.toNat, 544]
def k0_off40 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v416 : Index := Scalar.indexCast v101
  let c560 : Index := 560#32
  ![v416.toNat, 560]
def k0_off41 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v424 : Index := Scalar.indexCast v101
  let c576 : Index := 576#32
  ![v424.toNat, 576]
def k0_off42 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v432 : Index := Scalar.indexCast v101
  let c592 : Index := 592#32
  ![v432.toNat, 592]
def k0_off43 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v440 : Index := Scalar.indexCast v101
  let c608 : Index := 608#32
  ![v440.toNat, 608]
def k0_off44 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v448 : Index := Scalar.indexCast v101
  let c624 : Index := 624#32
  ![v448.toNat, 624]
def k0_off45 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v456 : Index := Scalar.indexCast v101
  let c640 : Index := 640#32
  ![v456.toNat, 640]
def k0_off46 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v464 : Index := Scalar.indexCast v101
  let c656 : Index := 656#32
  ![v464.toNat, 656]
def k0_off47 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v472 : Index := Scalar.indexCast v101
  let c672 : Index := 672#32
  ![v472.toNat, 672]
def k0_off48 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v480 : Index := Scalar.indexCast v101
  let c688 : Index := 688#32
  ![v480.toNat, 688]
def k0_off49 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v488 : Index := Scalar.indexCast v101
  let c704 : Index := 704#32
  ![v488.toNat, 704]
def k0_off50 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v496 : Index := Scalar.indexCast v101
  let c720 : Index := 720#32
  ![v496.toNat, 720]
def k0_off51 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v504 : Index := Scalar.indexCast v101
  let c736 : Index := 736#32
  ![v504.toNat, 736]
def k0_off52 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v512 : Index := Scalar.indexCast v101
  let c752 : Index := 752#32
  ![v512.toNat, 752]
def k0_off53 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v520 : Index := Scalar.indexCast v101
  let c768 : Index := 768#32
  ![v520.toNat, 768]
def k0_off54 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v528 : Index := Scalar.indexCast v101
  let c784 : Index := 784#32
  ![v528.toNat, 784]
def k0_off55 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v536 : Index := Scalar.indexCast v101
  let c800 : Index := 800#32
  ![v536.toNat, 800]
def k0_off56 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v544 : Index := Scalar.indexCast v101
  let c816 : Index := 816#32
  ![v544.toNat, 816]
def k0_off57 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v552 : Index := Scalar.indexCast v101
  let c832 : Index := 832#32
  ![v552.toNat, 832]
def k0_off58 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v560 : Index := Scalar.indexCast v101
  let c848 : Index := 848#32
  ![v560.toNat, 848]
def k0_off59 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v568 : Index := Scalar.indexCast v101
  let c864 : Index := 864#32
  ![v568.toNat, 864]
def k0_off60 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v576 : Index := Scalar.indexCast v101
  let c880 : Index := 880#32
  ![v576.toNat, 880]
def k0_off61 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v584 : Index := Scalar.indexCast v101
  let c896 : Index := 896#32
  ![v584.toNat, 896]
def k0_off62 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v592 : Index := Scalar.indexCast v101
  let c912 : Index := 912#32
  ![v592.toNat, 912]
def k0_off63 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v600 : Index := Scalar.indexCast v101
  let c928 : Index := 928#32
  ![v600.toNat, 928]
def k0_off64 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v608 : Index := Scalar.indexCast v101
  let c944 : Index := 944#32
  ![v608.toNat, 944]
def k0_off65 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v616 : Index := Scalar.indexCast v101
  let c960 : Index := 960#32
  ![v616.toNat, 960]
def k0_off66 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v624 : Index := Scalar.indexCast v101
  let c976 : Index := 976#32
  ![v624.toNat, 976]
def k0_off67 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v632 : Index := Scalar.indexCast v101
  let c992 : Index := 992#32
  ![v632.toNat, 992]
def k0_off68 (k0_t2 : Fin k0_t2_loop.trips) (c0_i32_95 : BitVec 32) : Fin 2 → Nat :=
  let c0_i32_43 : BitVec 32 := 0#32
  let c1_i32_45 : BitVec 32 := 1#32
  let arg16 : BitVec 32 := Scf.iv c0_i32_43 c1_i32_45 k0_t2
  let c2_i32_94 : BitVec 32 := 2#32
  let v100 : BitVec 32 := Scalar.muli arg16 c2_i32_94
  let v101 : BitVec 32 := Scalar.addi v100 c0_i32_95
  let v640 : Index := Scalar.indexCast v101
  let c1008 : Index := 1008#32
  ![v640.toNat, 1008]
def k0_cond1 (k0_t1 : Fin k0_t1_loop.trips) : BitVec 1 :=
  let c0_i32_5 : BitVec 32 := 0#32
  let c1_i32 : BitVec 32 := 1#32
  let arg15 : BitVec 32 := Scf.iv c0_i32_5 c1_i32 k0_t1
  let c3_i32 : BitVec 32 := 3#32
  let v40 : BitVec 32 := Scalar.muli arg15 c3_i32
  let c0_i32_38 : BitVec 32 := 0#32
  let v41 : BitVec 32 := Scalar.addi v40 c0_i32_38
  let c2_i32_50 : BitVec 32 := 2#32
  let v51 : BitVec 32 := Scalar.addi v41 c2_i32_50
  let c3_i32_51 : BitVec 32 := 3#32
  let v52 : BitVec 1 := Scalar.cmpi .sge v51 c3_i32_51
  let c32_i32_52 : BitVec 32 := 32#32
  let v53 : BitVec 1 := Scalar.cmpi .slt v51 c32_i32_52
  let v54 : BitVec 1 := Scalar.andi v52 v53
  let v55 : BitVec 32 := Scalar.extui v54
  let c0_i32_53 : BitVec 32 := 0#32
  let v56 : BitVec 1 := Scalar.cmpi .ne v55 c0_i32_53
  v56

def k0_off69 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_5 : BitVec 32 := 0#32
  let c1_i32 : BitVec 32 := 1#32
  let arg15 : BitVec 32 := Scf.iv c0_i32_5 c1_i32 k0_t1
  let c3_i32 : BitVec 32 := 3#32
  let v40 : BitVec 32 := Scalar.muli arg15 c3_i32
  let c0_i32_38 : BitVec 32 := 0#32
  let v41 : BitVec 32 := Scalar.addi v40 c0_i32_38
  let c2_i32_50 : BitVec 32 := 2#32
  let v51 : BitVec 32 := Scalar.addi v41 c2_i32_50
  let c3_i32_94 : BitVec 32 := 3#32
  let v100 : BitVec 32 := Scalar.subi v51 c3_i32_94
  let c32_i32_95 : BitVec 32 := 32#32
  let v101 : BitVec 32 := Scalar.muli v100 c32_i32_95
  let v102 : BitVec 32 := Scalar.addi v2 v101
  let c0_i32_96 : BitVec 32 := 0#32
  ![v102.toNat, 0]
def k0_cond2 (k0_t1 : Fin k0_t1_loop.trips) : BitVec 1 :=
  let c0_i32_5 : BitVec 32 := 0#32
  let c1_i32 : BitVec 32 := 1#32
  let arg15 : BitVec 32 := Scf.iv c0_i32_5 c1_i32 k0_t1
  let c3_i32 : BitVec 32 := 3#32
  let v40 : BitVec 32 := Scalar.muli arg15 c3_i32
  let c0_i32_38 : BitVec 32 := 0#32
  let v41 : BitVec 32 := Scalar.addi v40 c0_i32_38
  let c2_i32_50 : BitVec 32 := 2#32
  let v51 : BitVec 32 := Scalar.addi v41 c2_i32_50
  let c32_i32_54 : BitVec 32 := 32#32
  let v57 : BitVec 1 := Scalar.cmpi .slt v51 c32_i32_54
  let v58 : BitVec 32 := Scalar.extui v57
  let c0_i32_55 : BitVec 32 := 0#32
  let v59 : BitVec 1 := Scalar.cmpi .ne v58 c0_i32_55
  v59

def k0_off70 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_5 : BitVec 32 := 0#32
  let c1_i32 : BitVec 32 := 1#32
  let arg15 : BitVec 32 := Scf.iv c0_i32_5 c1_i32 k0_t1
  let c3_i32 : BitVec 32 := 3#32
  let v40 : BitVec 32 := Scalar.muli arg15 c3_i32
  let c0_i32_38 : BitVec 32 := 0#32
  let v41 : BitVec 32 := Scalar.addi v40 c0_i32_38
  let c2_i32_50 : BitVec 32 := 2#32
  let v51 : BitVec 32 := Scalar.addi v41 c2_i32_50
  let c32_i32_94 : BitVec 32 := 32#32
  let v100 : BitVec 32 := Scalar.muli v51 c32_i32_94
  let v101 : BitVec 32 := Scalar.addi v2 v100
  let c0_i32_95 : BitVec 32 := 0#32
  ![v101.toNat, 0]
@[reducible] def k0_t3_loop : Scf.Loop 32 :=
  let c0_i32_62 : BitVec 32 := 0#32
  let c16_i32_63 : BitVec 32 := 16#32
  let v66 : BitVec 32 := Scalar.addi c0_i32_62 c16_i32_63
  let c1_i32_64 : BitVec 32 := 1#32
  ⟨c0_i32_62, v66, c1_i32_64⟩
def k0_off71 (k0_t1 : Fin k0_t1_loop.trips) (k0_t3 : Fin k0_t3_loop.trips) (c0_i32_95 : BitVec 32) : Fin 2 → Nat :=
  let c0_i32_5 : BitVec 32 := 0#32
  let c1_i32 : BitVec 32 := 1#32
  let arg15 : BitVec 32 := Scf.iv c0_i32_5 c1_i32 k0_t1
  let c3_i32_56 : BitVec 32 := 3#32
  let v60 : BitVec 32 := Scalar.muli arg15 c3_i32_56
  let c1_i32_57 : BitVec 32 := 1#32
  let v61 : BitVec 32 := Scalar.addi v60 c1_i32_57
  let c32_i32_96 : BitVec 32 := 32#32
  let v102 : BitVec 32 := Scalar.muli v61 c32_i32_96
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v103 : BitVec 32 := Scalar.addi v102 v101
  let c0_i32_97 : BitVec 32 := 0#32
  let v105 : BitVec 1 := Scalar.cmpi .sgt v103 c0_i32_97
  let v106 : BitVec 32 := Scalar.extui v105
  let c0_i32_98 : BitVec 32 := 0#32
  let v107 : BitVec 1 := Scalar.cmpi .slt v103 c0_i32_98
  let v108 : BitVec 32 := Scalar.extui v107
  let v109 : BitVec 32 := Scalar.subi v106 v108
  let c8_i32 : BitVec 32 := 8#32
  let c0_i32_99 : BitVec 32 := 0#32
  let v110 : BitVec 1 := Scalar.cmpi .sgt c8_i32 c0_i32_99
  let v111 : BitVec 32 := Scalar.extui v110
  let c0_i32_100 : BitVec 32 := 0#32
  let v112 : BitVec 1 := Scalar.cmpi .slt c8_i32 c0_i32_100
  let v113 : BitVec 32 := Scalar.extui v112
  let v114 : BitVec 32 := Scalar.subi v111 v113
  let v115 : BitVec 1 := Scalar.cmpi .ne v109 v114
  let v116 : BitVec 32 := Scalar.remsi v103 c8_i32
  let c0_i32_101 : BitVec 32 := 0#32
  let v117 : BitVec 1 := Scalar.cmpi .ne v116 c0_i32_101
  let v118 : BitVec 1 := Scalar.andi v115 v117
  let v104 : BitVec 32 := Scalar.divsi v103 c8_i32
  let c1_i32_102 : BitVec 32 := 1#32
  let v119 : BitVec 32 := Scalar.subi v104 c1_i32_102
  let v120 : BitVec 32 := Scalar.select v118 v119 v104
  let v132 : Index := Scalar.indexCast v120
  let c8_i32_103 : BitVec 32 := 8#32
  let c0_i32_104 : BitVec 32 := 0#32
  let v121 : BitVec 1 := Scalar.cmpi .eq c8_i32_103 c0_i32_104
  let c1_i32_105 : BitVec 32 := 1#32
  let v122 : BitVec 32 := Scalar.select v121 c1_i32_105 c8_i32_103
  let v123 : BitVec 32 := Scalar.remsi v103 v122
  let c0_i32_107 : BitVec 32 := 0#32
  let v125 : BitVec 1 := Scalar.cmpi .slt v123 c0_i32_107
  let c0_i32_108 : BitVec 32 := 0#32
  let v126 : BitVec 1 := Scalar.cmpi .slt v122 c0_i32_108
  let v127 : BitVec 1 := Scalar.xori v125 v126
  let c0_i32_106 : BitVec 32 := 0#32
  let v124 : BitVec 1 := Scalar.cmpi .ne v123 c0_i32_106
  let v128 : BitVec 1 := Scalar.andi v127 v124
  let v129 : BitVec 32 := Scalar.addi v123 v122
  let v130 : BitVec 32 := Scalar.select v128 v129 v123
  let c16_i32_109 : BitVec 32 := 16#32
  let v131 : BitVec 32 := Scalar.muli v130 c16_i32_109
  let v133 : Index := Scalar.indexCast v131
  ![v132.toNat, v133.toNat]
def k0_off72 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v136 : Index := Scalar.indexCast v101
  let c0 : Index := 0#32
  ![v136.toNat, 0]
def k0_off73 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v144 : Index := Scalar.indexCast v101
  let c16 : Index := 16#32
  ![v144.toNat, 16]
def k0_off74 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v152 : Index := Scalar.indexCast v101
  let c32 : Index := 32#32
  ![v152.toNat, 32]
def k0_off75 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v160 : Index := Scalar.indexCast v101
  let c48 : Index := 48#32
  ![v160.toNat, 48]
def k0_off76 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v168 : Index := Scalar.indexCast v101
  let c64 : Index := 64#32
  ![v168.toNat, 64]
def k0_off77 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v176 : Index := Scalar.indexCast v101
  let c80 : Index := 80#32
  ![v176.toNat, 80]
def k0_off78 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v184 : Index := Scalar.indexCast v101
  let c96 : Index := 96#32
  ![v184.toNat, 96]
def k0_off79 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v192 : Index := Scalar.indexCast v101
  let c112 : Index := 112#32
  ![v192.toNat, 112]
def k0_off80 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v200 : Index := Scalar.indexCast v101
  let c128 : Index := 128#32
  ![v200.toNat, 128]
def k0_off81 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v208 : Index := Scalar.indexCast v101
  let c144 : Index := 144#32
  ![v208.toNat, 144]
def k0_off82 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v216 : Index := Scalar.indexCast v101
  let c160 : Index := 160#32
  ![v216.toNat, 160]
def k0_off83 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v224 : Index := Scalar.indexCast v101
  let c176 : Index := 176#32
  ![v224.toNat, 176]
def k0_off84 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v232 : Index := Scalar.indexCast v101
  let c192 : Index := 192#32
  ![v232.toNat, 192]
def k0_off85 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v240 : Index := Scalar.indexCast v101
  let c208 : Index := 208#32
  ![v240.toNat, 208]
def k0_off86 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v248 : Index := Scalar.indexCast v101
  let c224 : Index := 224#32
  ![v248.toNat, 224]
def k0_off87 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v256 : Index := Scalar.indexCast v101
  let c240 : Index := 240#32
  ![v256.toNat, 240]
def k0_off88 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v264 : Index := Scalar.indexCast v101
  let c256 : Index := 256#32
  ![v264.toNat, 256]
def k0_off89 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v272 : Index := Scalar.indexCast v101
  let c272 : Index := 272#32
  ![v272.toNat, 272]
def k0_off90 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v280 : Index := Scalar.indexCast v101
  let c288 : Index := 288#32
  ![v280.toNat, 288]
def k0_off91 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v288 : Index := Scalar.indexCast v101
  let c304 : Index := 304#32
  ![v288.toNat, 304]
def k0_off92 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v296 : Index := Scalar.indexCast v101
  let c320 : Index := 320#32
  ![v296.toNat, 320]
def k0_off93 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v304 : Index := Scalar.indexCast v101
  let c336 : Index := 336#32
  ![v304.toNat, 336]
def k0_off94 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v312 : Index := Scalar.indexCast v101
  let c352 : Index := 352#32
  ![v312.toNat, 352]
def k0_off95 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v320 : Index := Scalar.indexCast v101
  let c368 : Index := 368#32
  ![v320.toNat, 368]
def k0_off96 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v328 : Index := Scalar.indexCast v101
  let c384 : Index := 384#32
  ![v328.toNat, 384]
def k0_off97 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v336 : Index := Scalar.indexCast v101
  let c400 : Index := 400#32
  ![v336.toNat, 400]
def k0_off98 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v344 : Index := Scalar.indexCast v101
  let c416 : Index := 416#32
  ![v344.toNat, 416]
def k0_off99 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v352 : Index := Scalar.indexCast v101
  let c432 : Index := 432#32
  ![v352.toNat, 432]
def k0_off100 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v360 : Index := Scalar.indexCast v101
  let c448 : Index := 448#32
  ![v360.toNat, 448]
def k0_off101 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v368 : Index := Scalar.indexCast v101
  let c464 : Index := 464#32
  ![v368.toNat, 464]
def k0_off102 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v376 : Index := Scalar.indexCast v101
  let c480 : Index := 480#32
  ![v376.toNat, 480]
def k0_off103 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v384 : Index := Scalar.indexCast v101
  let c496 : Index := 496#32
  ![v384.toNat, 496]
def k0_off104 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v392 : Index := Scalar.indexCast v101
  let c512 : Index := 512#32
  ![v392.toNat, 512]
def k0_off105 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v400 : Index := Scalar.indexCast v101
  let c528 : Index := 528#32
  ![v400.toNat, 528]
def k0_off106 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v408 : Index := Scalar.indexCast v101
  let c544 : Index := 544#32
  ![v408.toNat, 544]
def k0_off107 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v416 : Index := Scalar.indexCast v101
  let c560 : Index := 560#32
  ![v416.toNat, 560]
def k0_off108 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v424 : Index := Scalar.indexCast v101
  let c576 : Index := 576#32
  ![v424.toNat, 576]
def k0_off109 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v432 : Index := Scalar.indexCast v101
  let c592 : Index := 592#32
  ![v432.toNat, 592]
def k0_off110 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v440 : Index := Scalar.indexCast v101
  let c608 : Index := 608#32
  ![v440.toNat, 608]
def k0_off111 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v448 : Index := Scalar.indexCast v101
  let c624 : Index := 624#32
  ![v448.toNat, 624]
def k0_off112 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v456 : Index := Scalar.indexCast v101
  let c640 : Index := 640#32
  ![v456.toNat, 640]
def k0_off113 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v464 : Index := Scalar.indexCast v101
  let c656 : Index := 656#32
  ![v464.toNat, 656]
def k0_off114 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v472 : Index := Scalar.indexCast v101
  let c672 : Index := 672#32
  ![v472.toNat, 672]
def k0_off115 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v480 : Index := Scalar.indexCast v101
  let c688 : Index := 688#32
  ![v480.toNat, 688]
def k0_off116 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v488 : Index := Scalar.indexCast v101
  let c704 : Index := 704#32
  ![v488.toNat, 704]
def k0_off117 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v496 : Index := Scalar.indexCast v101
  let c720 : Index := 720#32
  ![v496.toNat, 720]
def k0_off118 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v504 : Index := Scalar.indexCast v101
  let c736 : Index := 736#32
  ![v504.toNat, 736]
def k0_off119 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v512 : Index := Scalar.indexCast v101
  let c752 : Index := 752#32
  ![v512.toNat, 752]
def k0_off120 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v520 : Index := Scalar.indexCast v101
  let c768 : Index := 768#32
  ![v520.toNat, 768]
def k0_off121 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v528 : Index := Scalar.indexCast v101
  let c784 : Index := 784#32
  ![v528.toNat, 784]
def k0_off122 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v536 : Index := Scalar.indexCast v101
  let c800 : Index := 800#32
  ![v536.toNat, 800]
def k0_off123 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v544 : Index := Scalar.indexCast v101
  let c816 : Index := 816#32
  ![v544.toNat, 816]
def k0_off124 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v552 : Index := Scalar.indexCast v101
  let c832 : Index := 832#32
  ![v552.toNat, 832]
def k0_off125 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v560 : Index := Scalar.indexCast v101
  let c848 : Index := 848#32
  ![v560.toNat, 848]
def k0_off126 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v568 : Index := Scalar.indexCast v101
  let c864 : Index := 864#32
  ![v568.toNat, 864]
def k0_off127 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v576 : Index := Scalar.indexCast v101
  let c880 : Index := 880#32
  ![v576.toNat, 880]
def k0_off128 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v584 : Index := Scalar.indexCast v101
  let c896 : Index := 896#32
  ![v584.toNat, 896]
def k0_off129 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v592 : Index := Scalar.indexCast v101
  let c912 : Index := 912#32
  ![v592.toNat, 912]
def k0_off130 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v600 : Index := Scalar.indexCast v101
  let c928 : Index := 928#32
  ![v600.toNat, 928]
def k0_off131 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v608 : Index := Scalar.indexCast v101
  let c944 : Index := 944#32
  ![v608.toNat, 944]
def k0_off132 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v616 : Index := Scalar.indexCast v101
  let c960 : Index := 960#32
  ![v616.toNat, 960]
def k0_off133 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v624 : Index := Scalar.indexCast v101
  let c976 : Index := 976#32
  ![v624.toNat, 976]
def k0_off134 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v632 : Index := Scalar.indexCast v101
  let c992 : Index := 992#32
  ![v632.toNat, 992]
def k0_off135 (k0_t3 : Fin k0_t3_loop.trips) (c0_i32_95 : BitVec 32) : Fin 2 → Nat :=
  let c0_i32_62 : BitVec 32 := 0#32
  let c1_i32_64 : BitVec 32 := 1#32
  let arg16 : BitVec 32 := Scf.iv c0_i32_62 c1_i32_64 k0_t3
  let c2_i32_94 : BitVec 32 := 2#32
  let v100 : BitVec 32 := Scalar.muli arg16 c2_i32_94
  let v101 : BitVec 32 := Scalar.addi v100 c0_i32_95
  let v640 : Index := Scalar.indexCast v101
  let c1008 : Index := 1008#32
  ![v640.toNat, 1008]
def k0_cond3 (k0_t1 : Fin k0_t1_loop.trips) : BitVec 1 :=
  let c0_i32_5 : BitVec 32 := 0#32
  let c1_i32 : BitVec 32 := 1#32
  let arg15 : BitVec 32 := Scf.iv c0_i32_5 c1_i32 k0_t1
  let c3_i32_56 : BitVec 32 := 3#32
  let v60 : BitVec 32 := Scalar.muli arg15 c3_i32_56
  let c1_i32_57 : BitVec 32 := 1#32
  let v61 : BitVec 32 := Scalar.addi v60 c1_i32_57
  let c2_i32_69 : BitVec 32 := 2#32
  let v71 : BitVec 32 := Scalar.addi v61 c2_i32_69
  let c3_i32_70 : BitVec 32 := 3#32
  let v72 : BitVec 1 := Scalar.cmpi .sge v71 c3_i32_70
  let c32_i32_71 : BitVec 32 := 32#32
  let v73 : BitVec 1 := Scalar.cmpi .slt v71 c32_i32_71
  let v74 : BitVec 1 := Scalar.andi v72 v73
  let v75 : BitVec 32 := Scalar.extui v74
  let c0_i32_72 : BitVec 32 := 0#32
  let v76 : BitVec 1 := Scalar.cmpi .ne v75 c0_i32_72
  v76

def k0_off136 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_5 : BitVec 32 := 0#32
  let c1_i32 : BitVec 32 := 1#32
  let arg15 : BitVec 32 := Scf.iv c0_i32_5 c1_i32 k0_t1
  let c3_i32_56 : BitVec 32 := 3#32
  let v60 : BitVec 32 := Scalar.muli arg15 c3_i32_56
  let c1_i32_57 : BitVec 32 := 1#32
  let v61 : BitVec 32 := Scalar.addi v60 c1_i32_57
  let c2_i32_69 : BitVec 32 := 2#32
  let v71 : BitVec 32 := Scalar.addi v61 c2_i32_69
  let c3_i32_94 : BitVec 32 := 3#32
  let v100 : BitVec 32 := Scalar.subi v71 c3_i32_94
  let c32_i32_95 : BitVec 32 := 32#32
  let v101 : BitVec 32 := Scalar.muli v100 c32_i32_95
  let v102 : BitVec 32 := Scalar.addi v2 v101
  let c0_i32_96 : BitVec 32 := 0#32
  ![v102.toNat, 0]
def k0_cond4 (k0_t1 : Fin k0_t1_loop.trips) : BitVec 1 :=
  let c0_i32_5 : BitVec 32 := 0#32
  let c1_i32 : BitVec 32 := 1#32
  let arg15 : BitVec 32 := Scf.iv c0_i32_5 c1_i32 k0_t1
  let c3_i32_56 : BitVec 32 := 3#32
  let v60 : BitVec 32 := Scalar.muli arg15 c3_i32_56
  let c1_i32_57 : BitVec 32 := 1#32
  let v61 : BitVec 32 := Scalar.addi v60 c1_i32_57
  let c2_i32_69 : BitVec 32 := 2#32
  let v71 : BitVec 32 := Scalar.addi v61 c2_i32_69
  let c32_i32_73 : BitVec 32 := 32#32
  let v77 : BitVec 1 := Scalar.cmpi .slt v71 c32_i32_73
  let v78 : BitVec 32 := Scalar.extui v77
  let c0_i32_74 : BitVec 32 := 0#32
  let v79 : BitVec 1 := Scalar.cmpi .ne v78 c0_i32_74
  v79

def k0_off137 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_5 : BitVec 32 := 0#32
  let c1_i32 : BitVec 32 := 1#32
  let arg15 : BitVec 32 := Scf.iv c0_i32_5 c1_i32 k0_t1
  let c3_i32_56 : BitVec 32 := 3#32
  let v60 : BitVec 32 := Scalar.muli arg15 c3_i32_56
  let c1_i32_57 : BitVec 32 := 1#32
  let v61 : BitVec 32 := Scalar.addi v60 c1_i32_57
  let c2_i32_69 : BitVec 32 := 2#32
  let v71 : BitVec 32 := Scalar.addi v61 c2_i32_69
  let c32_i32_94 : BitVec 32 := 32#32
  let v100 : BitVec 32 := Scalar.muli v71 c32_i32_94
  let v101 : BitVec 32 := Scalar.addi v2 v100
  let c0_i32_95 : BitVec 32 := 0#32
  ![v101.toNat, 0]
@[reducible] def k0_t4_loop : Scf.Loop 32 :=
  let c0_i32_81 : BitVec 32 := 0#32
  let c16_i32_82 : BitVec 32 := 16#32
  let v86 : BitVec 32 := Scalar.addi c0_i32_81 c16_i32_82
  let c1_i32_83 : BitVec 32 := 1#32
  ⟨c0_i32_81, v86, c1_i32_83⟩
def k0_off138 (k0_t1 : Fin k0_t1_loop.trips) (k0_t4 : Fin k0_t4_loop.trips) (c0_i32_95 : BitVec 32) : Fin 2 → Nat :=
  let c0_i32_5 : BitVec 32 := 0#32
  let c1_i32 : BitVec 32 := 1#32
  let arg15 : BitVec 32 := Scf.iv c0_i32_5 c1_i32 k0_t1
  let c3_i32_75 : BitVec 32 := 3#32
  let v80 : BitVec 32 := Scalar.muli arg15 c3_i32_75
  let c2_i32_76 : BitVec 32 := 2#32
  let v81 : BitVec 32 := Scalar.addi v80 c2_i32_76
  let c32_i32_96 : BitVec 32 := 32#32
  let v102 : BitVec 32 := Scalar.muli v81 c32_i32_96
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v103 : BitVec 32 := Scalar.addi v102 v101
  let c0_i32_97 : BitVec 32 := 0#32
  let v105 : BitVec 1 := Scalar.cmpi .sgt v103 c0_i32_97
  let v106 : BitVec 32 := Scalar.extui v105
  let c0_i32_98 : BitVec 32 := 0#32
  let v107 : BitVec 1 := Scalar.cmpi .slt v103 c0_i32_98
  let v108 : BitVec 32 := Scalar.extui v107
  let v109 : BitVec 32 := Scalar.subi v106 v108
  let c8_i32 : BitVec 32 := 8#32
  let c0_i32_99 : BitVec 32 := 0#32
  let v110 : BitVec 1 := Scalar.cmpi .sgt c8_i32 c0_i32_99
  let v111 : BitVec 32 := Scalar.extui v110
  let c0_i32_100 : BitVec 32 := 0#32
  let v112 : BitVec 1 := Scalar.cmpi .slt c8_i32 c0_i32_100
  let v113 : BitVec 32 := Scalar.extui v112
  let v114 : BitVec 32 := Scalar.subi v111 v113
  let v115 : BitVec 1 := Scalar.cmpi .ne v109 v114
  let v116 : BitVec 32 := Scalar.remsi v103 c8_i32
  let c0_i32_101 : BitVec 32 := 0#32
  let v117 : BitVec 1 := Scalar.cmpi .ne v116 c0_i32_101
  let v118 : BitVec 1 := Scalar.andi v115 v117
  let v104 : BitVec 32 := Scalar.divsi v103 c8_i32
  let c1_i32_102 : BitVec 32 := 1#32
  let v119 : BitVec 32 := Scalar.subi v104 c1_i32_102
  let v120 : BitVec 32 := Scalar.select v118 v119 v104
  let v132 : Index := Scalar.indexCast v120
  let c8_i32_103 : BitVec 32 := 8#32
  let c0_i32_104 : BitVec 32 := 0#32
  let v121 : BitVec 1 := Scalar.cmpi .eq c8_i32_103 c0_i32_104
  let c1_i32_105 : BitVec 32 := 1#32
  let v122 : BitVec 32 := Scalar.select v121 c1_i32_105 c8_i32_103
  let v123 : BitVec 32 := Scalar.remsi v103 v122
  let c0_i32_107 : BitVec 32 := 0#32
  let v125 : BitVec 1 := Scalar.cmpi .slt v123 c0_i32_107
  let c0_i32_108 : BitVec 32 := 0#32
  let v126 : BitVec 1 := Scalar.cmpi .slt v122 c0_i32_108
  let v127 : BitVec 1 := Scalar.xori v125 v126
  let c0_i32_106 : BitVec 32 := 0#32
  let v124 : BitVec 1 := Scalar.cmpi .ne v123 c0_i32_106
  let v128 : BitVec 1 := Scalar.andi v127 v124
  let v129 : BitVec 32 := Scalar.addi v123 v122
  let v130 : BitVec 32 := Scalar.select v128 v129 v123
  let c16_i32_109 : BitVec 32 := 16#32
  let v131 : BitVec 32 := Scalar.muli v130 c16_i32_109
  let v133 : Index := Scalar.indexCast v131
  ![v132.toNat, v133.toNat]
def k0_off139 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v136 : Index := Scalar.indexCast v101
  let c0 : Index := 0#32
  ![v136.toNat, 0]
def k0_off140 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v144 : Index := Scalar.indexCast v101
  let c16 : Index := 16#32
  ![v144.toNat, 16]
def k0_off141 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v152 : Index := Scalar.indexCast v101
  let c32 : Index := 32#32
  ![v152.toNat, 32]
def k0_off142 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v160 : Index := Scalar.indexCast v101
  let c48 : Index := 48#32
  ![v160.toNat, 48]
def k0_off143 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v168 : Index := Scalar.indexCast v101
  let c64 : Index := 64#32
  ![v168.toNat, 64]
def k0_off144 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v176 : Index := Scalar.indexCast v101
  let c80 : Index := 80#32
  ![v176.toNat, 80]
def k0_off145 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v184 : Index := Scalar.indexCast v101
  let c96 : Index := 96#32
  ![v184.toNat, 96]
def k0_off146 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v192 : Index := Scalar.indexCast v101
  let c112 : Index := 112#32
  ![v192.toNat, 112]
def k0_off147 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v200 : Index := Scalar.indexCast v101
  let c128 : Index := 128#32
  ![v200.toNat, 128]
def k0_off148 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v208 : Index := Scalar.indexCast v101
  let c144 : Index := 144#32
  ![v208.toNat, 144]
def k0_off149 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v216 : Index := Scalar.indexCast v101
  let c160 : Index := 160#32
  ![v216.toNat, 160]
def k0_off150 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v224 : Index := Scalar.indexCast v101
  let c176 : Index := 176#32
  ![v224.toNat, 176]
def k0_off151 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v232 : Index := Scalar.indexCast v101
  let c192 : Index := 192#32
  ![v232.toNat, 192]
def k0_off152 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v240 : Index := Scalar.indexCast v101
  let c208 : Index := 208#32
  ![v240.toNat, 208]
def k0_off153 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v248 : Index := Scalar.indexCast v101
  let c224 : Index := 224#32
  ![v248.toNat, 224]
def k0_off154 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v256 : Index := Scalar.indexCast v101
  let c240 : Index := 240#32
  ![v256.toNat, 240]
def k0_off155 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v264 : Index := Scalar.indexCast v101
  let c256 : Index := 256#32
  ![v264.toNat, 256]
def k0_off156 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v272 : Index := Scalar.indexCast v101
  let c272 : Index := 272#32
  ![v272.toNat, 272]
def k0_off157 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v280 : Index := Scalar.indexCast v101
  let c288 : Index := 288#32
  ![v280.toNat, 288]
def k0_off158 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v288 : Index := Scalar.indexCast v101
  let c304 : Index := 304#32
  ![v288.toNat, 304]
def k0_off159 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v296 : Index := Scalar.indexCast v101
  let c320 : Index := 320#32
  ![v296.toNat, 320]
def k0_off160 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v304 : Index := Scalar.indexCast v101
  let c336 : Index := 336#32
  ![v304.toNat, 336]
def k0_off161 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v312 : Index := Scalar.indexCast v101
  let c352 : Index := 352#32
  ![v312.toNat, 352]
def k0_off162 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v320 : Index := Scalar.indexCast v101
  let c368 : Index := 368#32
  ![v320.toNat, 368]
def k0_off163 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v328 : Index := Scalar.indexCast v101
  let c384 : Index := 384#32
  ![v328.toNat, 384]
def k0_off164 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v336 : Index := Scalar.indexCast v101
  let c400 : Index := 400#32
  ![v336.toNat, 400]
def k0_off165 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v344 : Index := Scalar.indexCast v101
  let c416 : Index := 416#32
  ![v344.toNat, 416]
def k0_off166 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v352 : Index := Scalar.indexCast v101
  let c432 : Index := 432#32
  ![v352.toNat, 432]
def k0_off167 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v360 : Index := Scalar.indexCast v101
  let c448 : Index := 448#32
  ![v360.toNat, 448]
def k0_off168 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v368 : Index := Scalar.indexCast v101
  let c464 : Index := 464#32
  ![v368.toNat, 464]
def k0_off169 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v376 : Index := Scalar.indexCast v101
  let c480 : Index := 480#32
  ![v376.toNat, 480]
def k0_off170 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v384 : Index := Scalar.indexCast v101
  let c496 : Index := 496#32
  ![v384.toNat, 496]
def k0_off171 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v392 : Index := Scalar.indexCast v101
  let c512 : Index := 512#32
  ![v392.toNat, 512]
def k0_off172 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v400 : Index := Scalar.indexCast v101
  let c528 : Index := 528#32
  ![v400.toNat, 528]
def k0_off173 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v408 : Index := Scalar.indexCast v101
  let c544 : Index := 544#32
  ![v408.toNat, 544]
def k0_off174 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v416 : Index := Scalar.indexCast v101
  let c560 : Index := 560#32
  ![v416.toNat, 560]
def k0_off175 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v424 : Index := Scalar.indexCast v101
  let c576 : Index := 576#32
  ![v424.toNat, 576]
def k0_off176 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v432 : Index := Scalar.indexCast v101
  let c592 : Index := 592#32
  ![v432.toNat, 592]
def k0_off177 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v440 : Index := Scalar.indexCast v101
  let c608 : Index := 608#32
  ![v440.toNat, 608]
def k0_off178 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v448 : Index := Scalar.indexCast v101
  let c624 : Index := 624#32
  ![v448.toNat, 624]
def k0_off179 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v456 : Index := Scalar.indexCast v101
  let c640 : Index := 640#32
  ![v456.toNat, 640]
def k0_off180 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v464 : Index := Scalar.indexCast v101
  let c656 : Index := 656#32
  ![v464.toNat, 656]
def k0_off181 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v472 : Index := Scalar.indexCast v101
  let c672 : Index := 672#32
  ![v472.toNat, 672]
def k0_off182 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v480 : Index := Scalar.indexCast v101
  let c688 : Index := 688#32
  ![v480.toNat, 688]
def k0_off183 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v488 : Index := Scalar.indexCast v101
  let c704 : Index := 704#32
  ![v488.toNat, 704]
def k0_off184 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v496 : Index := Scalar.indexCast v101
  let c720 : Index := 720#32
  ![v496.toNat, 720]
def k0_off185 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v504 : Index := Scalar.indexCast v101
  let c736 : Index := 736#32
  ![v504.toNat, 736]
def k0_off186 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v512 : Index := Scalar.indexCast v101
  let c752 : Index := 752#32
  ![v512.toNat, 752]
def k0_off187 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v520 : Index := Scalar.indexCast v101
  let c768 : Index := 768#32
  ![v520.toNat, 768]
def k0_off188 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v528 : Index := Scalar.indexCast v101
  let c784 : Index := 784#32
  ![v528.toNat, 784]
def k0_off189 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v536 : Index := Scalar.indexCast v101
  let c800 : Index := 800#32
  ![v536.toNat, 800]
def k0_off190 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v544 : Index := Scalar.indexCast v101
  let c816 : Index := 816#32
  ![v544.toNat, 816]
def k0_off191 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v552 : Index := Scalar.indexCast v101
  let c832 : Index := 832#32
  ![v552.toNat, 832]
def k0_off192 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v560 : Index := Scalar.indexCast v101
  let c848 : Index := 848#32
  ![v560.toNat, 848]
def k0_off193 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v568 : Index := Scalar.indexCast v101
  let c864 : Index := 864#32
  ![v568.toNat, 864]
def k0_off194 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v576 : Index := Scalar.indexCast v101
  let c880 : Index := 880#32
  ![v576.toNat, 880]
def k0_off195 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v584 : Index := Scalar.indexCast v101
  let c896 : Index := 896#32
  ![v584.toNat, 896]
def k0_off196 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v592 : Index := Scalar.indexCast v101
  let c912 : Index := 912#32
  ![v592.toNat, 912]
def k0_off197 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v600 : Index := Scalar.indexCast v101
  let c928 : Index := 928#32
  ![v600.toNat, 928]
def k0_off198 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v608 : Index := Scalar.indexCast v101
  let c944 : Index := 944#32
  ![v608.toNat, 944]
def k0_off199 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v616 : Index := Scalar.indexCast v101
  let c960 : Index := 960#32
  ![v616.toNat, 960]
def k0_off200 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v624 : Index := Scalar.indexCast v101
  let c976 : Index := 976#32
  ![v624.toNat, 976]
def k0_off201 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v632 : Index := Scalar.indexCast v101
  let c992 : Index := 992#32
  ![v632.toNat, 992]
def k0_off202 (k0_t4 : Fin k0_t4_loop.trips) (c0_i32_95 : BitVec 32) : Fin 2 → Nat :=
  let c0_i32_81 : BitVec 32 := 0#32
  let c1_i32_83 : BitVec 32 := 1#32
  let arg16 : BitVec 32 := Scf.iv c0_i32_81 c1_i32_83 k0_t4
  let c2_i32_94 : BitVec 32 := 2#32
  let v100 : BitVec 32 := Scalar.muli arg16 c2_i32_94
  let v101 : BitVec 32 := Scalar.addi v100 c0_i32_95
  let v640 : Index := Scalar.indexCast v101
  let c1008 : Index := 1008#32
  ![v640.toNat, 1008]
def k0_cond5 (k0_t1 : Fin k0_t1_loop.trips) : BitVec 1 :=
  let c0_i32_5 : BitVec 32 := 0#32
  let c1_i32 : BitVec 32 := 1#32
  let arg15 : BitVec 32 := Scf.iv c0_i32_5 c1_i32 k0_t1
  let c3_i32_75 : BitVec 32 := 3#32
  let v80 : BitVec 32 := Scalar.muli arg15 c3_i32_75
  let c2_i32_76 : BitVec 32 := 2#32
  let v81 : BitVec 32 := Scalar.addi v80 c2_i32_76
  let c2_i32_88 : BitVec 32 := 2#32
  let v91 : BitVec 32 := Scalar.addi v81 c2_i32_88
  let c3_i32_89 : BitVec 32 := 3#32
  let v92 : BitVec 1 := Scalar.cmpi .sge v91 c3_i32_89
  let c32_i32_90 : BitVec 32 := 32#32
  let v93 : BitVec 1 := Scalar.cmpi .slt v91 c32_i32_90
  let v94 : BitVec 1 := Scalar.andi v92 v93
  let v95 : BitVec 32 := Scalar.extui v94
  let c0_i32_91 : BitVec 32 := 0#32
  let v96 : BitVec 1 := Scalar.cmpi .ne v95 c0_i32_91
  v96

def k0_off203 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_5 : BitVec 32 := 0#32
  let c1_i32 : BitVec 32 := 1#32
  let arg15 : BitVec 32 := Scf.iv c0_i32_5 c1_i32 k0_t1
  let c3_i32_75 : BitVec 32 := 3#32
  let v80 : BitVec 32 := Scalar.muli arg15 c3_i32_75
  let c2_i32_76 : BitVec 32 := 2#32
  let v81 : BitVec 32 := Scalar.addi v80 c2_i32_76
  let c2_i32_88 : BitVec 32 := 2#32
  let v91 : BitVec 32 := Scalar.addi v81 c2_i32_88
  let c3_i32_94 : BitVec 32 := 3#32
  let v100 : BitVec 32 := Scalar.subi v91 c3_i32_94
  let c32_i32_95 : BitVec 32 := 32#32
  let v101 : BitVec 32 := Scalar.muli v100 c32_i32_95
  let v102 : BitVec 32 := Scalar.addi v2 v101
  let c0_i32_96 : BitVec 32 := 0#32
  ![v102.toNat, 0]
def k0_cond6 (k0_t1 : Fin k0_t1_loop.trips) : BitVec 1 :=
  let c0_i32_5 : BitVec 32 := 0#32
  let c1_i32 : BitVec 32 := 1#32
  let arg15 : BitVec 32 := Scf.iv c0_i32_5 c1_i32 k0_t1
  let c3_i32_75 : BitVec 32 := 3#32
  let v80 : BitVec 32 := Scalar.muli arg15 c3_i32_75
  let c2_i32_76 : BitVec 32 := 2#32
  let v81 : BitVec 32 := Scalar.addi v80 c2_i32_76
  let c2_i32_88 : BitVec 32 := 2#32
  let v91 : BitVec 32 := Scalar.addi v81 c2_i32_88
  let c32_i32_92 : BitVec 32 := 32#32
  let v97 : BitVec 1 := Scalar.cmpi .slt v91 c32_i32_92
  let v98 : BitVec 32 := Scalar.extui v97
  let c0_i32_93 : BitVec 32 := 0#32
  let v99 : BitVec 1 := Scalar.cmpi .ne v98 c0_i32_93
  v99

def k0_off204 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_5 : BitVec 32 := 0#32
  let c1_i32 : BitVec 32 := 1#32
  let arg15 : BitVec 32 := Scf.iv c0_i32_5 c1_i32 k0_t1
  let c3_i32_75 : BitVec 32 := 3#32
  let v80 : BitVec 32 := Scalar.muli arg15 c3_i32_75
  let c2_i32_76 : BitVec 32 := 2#32
  let v81 : BitVec 32 := Scalar.addi v80 c2_i32_76
  let c2_i32_88 : BitVec 32 := 2#32
  let v91 : BitVec 32 := Scalar.addi v81 c2_i32_88
  let c32_i32_94 : BitVec 32 := 32#32
  let v100 : BitVec 32 := Scalar.muli v91 c32_i32_94
  let v101 : BitVec 32 := Scalar.addi v2 v100
  let c0_i32_95 : BitVec 32 := 0#32
  ![v101.toNat, 0]
@[reducible] def k0_t5_loop : Scf.Loop 32 :=
  let c0_i32_10 : BitVec 32 := 0#32
  let c16_i32 : BitVec 32 := 16#32
  let v14 : BitVec 32 := Scalar.addi c0_i32_10 c16_i32
  let c1_i32_11 : BitVec 32 := 1#32
  ⟨c0_i32_10, v14, c1_i32_11⟩
def k0_off205 (k0_t5 : Fin k0_t5_loop.trips) (c0_i32_39 : BitVec 32) : Fin 2 → Nat :=
  let c960_i32_40 : BitVec 32 := 960#32
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v42 : BitVec 32 := Scalar.addi c960_i32_40 v41
  let c0_i32_41 : BitVec 32 := 0#32
  let v44 : BitVec 1 := Scalar.cmpi .sgt v42 c0_i32_41
  let v45 : BitVec 32 := Scalar.extui v44
  let c0_i32_42 : BitVec 32 := 0#32
  let v46 : BitVec 1 := Scalar.cmpi .slt v42 c0_i32_42
  let v47 : BitVec 32 := Scalar.extui v46
  let v48 : BitVec 32 := Scalar.subi v45 v47
  let c8_i32 : BitVec 32 := 8#32
  let c0_i32_43 : BitVec 32 := 0#32
  let v49 : BitVec 1 := Scalar.cmpi .sgt c8_i32 c0_i32_43
  let v50 : BitVec 32 := Scalar.extui v49
  let c0_i32_44 : BitVec 32 := 0#32
  let v51 : BitVec 1 := Scalar.cmpi .slt c8_i32 c0_i32_44
  let v52 : BitVec 32 := Scalar.extui v51
  let v53 : BitVec 32 := Scalar.subi v50 v52
  let v54 : BitVec 1 := Scalar.cmpi .ne v48 v53
  let v55 : BitVec 32 := Scalar.remsi v42 c8_i32
  let c0_i32_45 : BitVec 32 := 0#32
  let v56 : BitVec 1 := Scalar.cmpi .ne v55 c0_i32_45
  let v57 : BitVec 1 := Scalar.andi v54 v56
  let v43 : BitVec 32 := Scalar.divsi v42 c8_i32
  let c1_i32_46 : BitVec 32 := 1#32
  let v58 : BitVec 32 := Scalar.subi v43 c1_i32_46
  let v59 : BitVec 32 := Scalar.select v57 v58 v43
  let v71 : Index := Scalar.indexCast v59
  let c8_i32_47 : BitVec 32 := 8#32
  let c0_i32_48 : BitVec 32 := 0#32
  let v60 : BitVec 1 := Scalar.cmpi .eq c8_i32_47 c0_i32_48
  let c1_i32_49 : BitVec 32 := 1#32
  let v61 : BitVec 32 := Scalar.select v60 c1_i32_49 c8_i32_47
  let v62 : BitVec 32 := Scalar.remsi v42 v61
  let c0_i32_51 : BitVec 32 := 0#32
  let v64 : BitVec 1 := Scalar.cmpi .slt v62 c0_i32_51
  let c0_i32_52 : BitVec 32 := 0#32
  let v65 : BitVec 1 := Scalar.cmpi .slt v61 c0_i32_52
  let v66 : BitVec 1 := Scalar.xori v64 v65
  let c0_i32_50 : BitVec 32 := 0#32
  let v63 : BitVec 1 := Scalar.cmpi .ne v62 c0_i32_50
  let v67 : BitVec 1 := Scalar.andi v66 v63
  let v68 : BitVec 32 := Scalar.addi v62 v61
  let v69 : BitVec 32 := Scalar.select v67 v68 v62
  let c16_i32_53 : BitVec 32 := 16#32
  let v70 : BitVec 32 := Scalar.muli v69 c16_i32_53
  let v72 : Index := Scalar.indexCast v70
  ![v71.toNat, v72.toNat]
def k0_off206 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v75 : Index := Scalar.indexCast v41
  let c0 : Index := 0#32
  ![v75.toNat, 0]
def k0_off207 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v83 : Index := Scalar.indexCast v41
  let c16 : Index := 16#32
  ![v83.toNat, 16]
def k0_off208 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v91 : Index := Scalar.indexCast v41
  let c32 : Index := 32#32
  ![v91.toNat, 32]
def k0_off209 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v99 : Index := Scalar.indexCast v41
  let c48 : Index := 48#32
  ![v99.toNat, 48]
def k0_off210 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v107 : Index := Scalar.indexCast v41
  let c64 : Index := 64#32
  ![v107.toNat, 64]
def k0_off211 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v115 : Index := Scalar.indexCast v41
  let c80 : Index := 80#32
  ![v115.toNat, 80]
def k0_off212 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v123 : Index := Scalar.indexCast v41
  let c96 : Index := 96#32
  ![v123.toNat, 96]
def k0_off213 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v131 : Index := Scalar.indexCast v41
  let c112 : Index := 112#32
  ![v131.toNat, 112]
def k0_off214 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v139 : Index := Scalar.indexCast v41
  let c128 : Index := 128#32
  ![v139.toNat, 128]
def k0_off215 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v147 : Index := Scalar.indexCast v41
  let c144 : Index := 144#32
  ![v147.toNat, 144]
def k0_off216 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v155 : Index := Scalar.indexCast v41
  let c160 : Index := 160#32
  ![v155.toNat, 160]
def k0_off217 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v163 : Index := Scalar.indexCast v41
  let c176 : Index := 176#32
  ![v163.toNat, 176]
def k0_off218 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v171 : Index := Scalar.indexCast v41
  let c192 : Index := 192#32
  ![v171.toNat, 192]
def k0_off219 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v179 : Index := Scalar.indexCast v41
  let c208 : Index := 208#32
  ![v179.toNat, 208]
def k0_off220 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v187 : Index := Scalar.indexCast v41
  let c224 : Index := 224#32
  ![v187.toNat, 224]
def k0_off221 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v195 : Index := Scalar.indexCast v41
  let c240 : Index := 240#32
  ![v195.toNat, 240]
def k0_off222 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v203 : Index := Scalar.indexCast v41
  let c256 : Index := 256#32
  ![v203.toNat, 256]
def k0_off223 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v211 : Index := Scalar.indexCast v41
  let c272 : Index := 272#32
  ![v211.toNat, 272]
def k0_off224 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v219 : Index := Scalar.indexCast v41
  let c288 : Index := 288#32
  ![v219.toNat, 288]
def k0_off225 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v227 : Index := Scalar.indexCast v41
  let c304 : Index := 304#32
  ![v227.toNat, 304]
def k0_off226 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v235 : Index := Scalar.indexCast v41
  let c320 : Index := 320#32
  ![v235.toNat, 320]
def k0_off227 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v243 : Index := Scalar.indexCast v41
  let c336 : Index := 336#32
  ![v243.toNat, 336]
def k0_off228 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v251 : Index := Scalar.indexCast v41
  let c352 : Index := 352#32
  ![v251.toNat, 352]
def k0_off229 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v259 : Index := Scalar.indexCast v41
  let c368 : Index := 368#32
  ![v259.toNat, 368]
def k0_off230 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v267 : Index := Scalar.indexCast v41
  let c384 : Index := 384#32
  ![v267.toNat, 384]
def k0_off231 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v275 : Index := Scalar.indexCast v41
  let c400 : Index := 400#32
  ![v275.toNat, 400]
def k0_off232 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v283 : Index := Scalar.indexCast v41
  let c416 : Index := 416#32
  ![v283.toNat, 416]
def k0_off233 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v291 : Index := Scalar.indexCast v41
  let c432 : Index := 432#32
  ![v291.toNat, 432]
def k0_off234 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v299 : Index := Scalar.indexCast v41
  let c448 : Index := 448#32
  ![v299.toNat, 448]
def k0_off235 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v307 : Index := Scalar.indexCast v41
  let c464 : Index := 464#32
  ![v307.toNat, 464]
def k0_off236 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v315 : Index := Scalar.indexCast v41
  let c480 : Index := 480#32
  ![v315.toNat, 480]
def k0_off237 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v323 : Index := Scalar.indexCast v41
  let c496 : Index := 496#32
  ![v323.toNat, 496]
def k0_off238 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v331 : Index := Scalar.indexCast v41
  let c512 : Index := 512#32
  ![v331.toNat, 512]
def k0_off239 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v339 : Index := Scalar.indexCast v41
  let c528 : Index := 528#32
  ![v339.toNat, 528]
def k0_off240 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v347 : Index := Scalar.indexCast v41
  let c544 : Index := 544#32
  ![v347.toNat, 544]
def k0_off241 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v355 : Index := Scalar.indexCast v41
  let c560 : Index := 560#32
  ![v355.toNat, 560]
def k0_off242 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v363 : Index := Scalar.indexCast v41
  let c576 : Index := 576#32
  ![v363.toNat, 576]
def k0_off243 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v371 : Index := Scalar.indexCast v41
  let c592 : Index := 592#32
  ![v371.toNat, 592]
def k0_off244 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v379 : Index := Scalar.indexCast v41
  let c608 : Index := 608#32
  ![v379.toNat, 608]
def k0_off245 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v387 : Index := Scalar.indexCast v41
  let c624 : Index := 624#32
  ![v387.toNat, 624]
def k0_off246 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v395 : Index := Scalar.indexCast v41
  let c640 : Index := 640#32
  ![v395.toNat, 640]
def k0_off247 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v403 : Index := Scalar.indexCast v41
  let c656 : Index := 656#32
  ![v403.toNat, 656]
def k0_off248 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v411 : Index := Scalar.indexCast v41
  let c672 : Index := 672#32
  ![v411.toNat, 672]
def k0_off249 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v419 : Index := Scalar.indexCast v41
  let c688 : Index := 688#32
  ![v419.toNat, 688]
def k0_off250 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v427 : Index := Scalar.indexCast v41
  let c704 : Index := 704#32
  ![v427.toNat, 704]
def k0_off251 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v435 : Index := Scalar.indexCast v41
  let c720 : Index := 720#32
  ![v435.toNat, 720]
def k0_off252 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v443 : Index := Scalar.indexCast v41
  let c736 : Index := 736#32
  ![v443.toNat, 736]
def k0_off253 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v451 : Index := Scalar.indexCast v41
  let c752 : Index := 752#32
  ![v451.toNat, 752]
def k0_off254 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v459 : Index := Scalar.indexCast v41
  let c768 : Index := 768#32
  ![v459.toNat, 768]
def k0_off255 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v467 : Index := Scalar.indexCast v41
  let c784 : Index := 784#32
  ![v467.toNat, 784]
def k0_off256 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v475 : Index := Scalar.indexCast v41
  let c800 : Index := 800#32
  ![v475.toNat, 800]
def k0_off257 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v483 : Index := Scalar.indexCast v41
  let c816 : Index := 816#32
  ![v483.toNat, 816]
def k0_off258 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v491 : Index := Scalar.indexCast v41
  let c832 : Index := 832#32
  ![v491.toNat, 832]
def k0_off259 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v499 : Index := Scalar.indexCast v41
  let c848 : Index := 848#32
  ![v499.toNat, 848]
def k0_off260 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v507 : Index := Scalar.indexCast v41
  let c864 : Index := 864#32
  ![v507.toNat, 864]
def k0_off261 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v515 : Index := Scalar.indexCast v41
  let c880 : Index := 880#32
  ![v515.toNat, 880]
def k0_off262 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v523 : Index := Scalar.indexCast v41
  let c896 : Index := 896#32
  ![v523.toNat, 896]
def k0_off263 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v531 : Index := Scalar.indexCast v41
  let c912 : Index := 912#32
  ![v531.toNat, 912]
def k0_off264 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v539 : Index := Scalar.indexCast v41
  let c928 : Index := 928#32
  ![v539.toNat, 928]
def k0_off265 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v547 : Index := Scalar.indexCast v41
  let c944 : Index := 944#32
  ![v547.toNat, 944]
def k0_off266 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v555 : Index := Scalar.indexCast v41
  let c960 : Index := 960#32
  ![v555.toNat, 960]
def k0_off267 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v563 : Index := Scalar.indexCast v41
  let c976 : Index := 976#32
  ![v563.toNat, 976]
def k0_off268 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v571 : Index := Scalar.indexCast v41
  let c992 : Index := 992#32
  ![v571.toNat, 992]
def k0_off269 (k0_t5 : Fin k0_t5_loop.trips) (c0_i32_39 : BitVec 32) : Fin 2 → Nat :=
  let c0_i32_10 : BitVec 32 := 0#32
  let c1_i32_11 : BitVec 32 := 1#32
  let arg15 : BitVec 32 := Scf.iv c0_i32_10 c1_i32_11 k0_t5
  let c2_i32_38 : BitVec 32 := 2#32
  let v40 : BitVec 32 := Scalar.muli arg15 c2_i32_38
  let v41 : BitVec 32 := Scalar.addi v40 c0_i32_39
  let v579 : Index := Scalar.indexCast v41
  let c1008 : Index := 1008#32
  ![v579.toNat, 1008]
def k0_cond7 : BitVec 1 :=
  let v_true : BitVec 1 := 1#1
  let v_false : BitVec 1 := 0#1
  let v18 : BitVec 1 := Scalar.andi v_true v_false
  let v19 : BitVec 32 := Scalar.extui v18
  let c0_i32_16 : BitVec 32 := 0#32
  let v20 : BitVec 1 := Scalar.cmpi .ne v19 c0_i32_16
  v20

def k0_off270 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c928_i32_38 : BitVec 32 := 928#32
  let v40 : BitVec 32 := Scalar.addi v2 c928_i32_38
  let c0_i32_39 : BitVec 32 := 0#32
  ![v40.toNat, 0]
@[reducible] def k0_t6_loop : Scf.Loop 32 :=
  let c0_i32_20 : BitVec 32 := 0#32
  let c16_i32_21 : BitVec 32 := 16#32
  let v24 : BitVec 32 := Scalar.addi c0_i32_20 c16_i32_21
  let c1_i32_22 : BitVec 32 := 1#32
  ⟨c0_i32_20, v24, c1_i32_22⟩
def k0_off271 (k0_t6 : Fin k0_t6_loop.trips) (c0_i32_39 : BitVec 32) : Fin 2 → Nat :=
  let c992_i32_40 : BitVec 32 := 992#32
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v42 : BitVec 32 := Scalar.addi c992_i32_40 v41
  let c0_i32_41 : BitVec 32 := 0#32
  let v44 : BitVec 1 := Scalar.cmpi .sgt v42 c0_i32_41
  let v45 : BitVec 32 := Scalar.extui v44
  let c0_i32_42 : BitVec 32 := 0#32
  let v46 : BitVec 1 := Scalar.cmpi .slt v42 c0_i32_42
  let v47 : BitVec 32 := Scalar.extui v46
  let v48 : BitVec 32 := Scalar.subi v45 v47
  let c8_i32 : BitVec 32 := 8#32
  let c0_i32_43 : BitVec 32 := 0#32
  let v49 : BitVec 1 := Scalar.cmpi .sgt c8_i32 c0_i32_43
  let v50 : BitVec 32 := Scalar.extui v49
  let c0_i32_44 : BitVec 32 := 0#32
  let v51 : BitVec 1 := Scalar.cmpi .slt c8_i32 c0_i32_44
  let v52 : BitVec 32 := Scalar.extui v51
  let v53 : BitVec 32 := Scalar.subi v50 v52
  let v54 : BitVec 1 := Scalar.cmpi .ne v48 v53
  let v55 : BitVec 32 := Scalar.remsi v42 c8_i32
  let c0_i32_45 : BitVec 32 := 0#32
  let v56 : BitVec 1 := Scalar.cmpi .ne v55 c0_i32_45
  let v57 : BitVec 1 := Scalar.andi v54 v56
  let v43 : BitVec 32 := Scalar.divsi v42 c8_i32
  let c1_i32_46 : BitVec 32 := 1#32
  let v58 : BitVec 32 := Scalar.subi v43 c1_i32_46
  let v59 : BitVec 32 := Scalar.select v57 v58 v43
  let v71 : Index := Scalar.indexCast v59
  let c8_i32_47 : BitVec 32 := 8#32
  let c0_i32_48 : BitVec 32 := 0#32
  let v60 : BitVec 1 := Scalar.cmpi .eq c8_i32_47 c0_i32_48
  let c1_i32_49 : BitVec 32 := 1#32
  let v61 : BitVec 32 := Scalar.select v60 c1_i32_49 c8_i32_47
  let v62 : BitVec 32 := Scalar.remsi v42 v61
  let c0_i32_51 : BitVec 32 := 0#32
  let v64 : BitVec 1 := Scalar.cmpi .slt v62 c0_i32_51
  let c0_i32_52 : BitVec 32 := 0#32
  let v65 : BitVec 1 := Scalar.cmpi .slt v61 c0_i32_52
  let v66 : BitVec 1 := Scalar.xori v64 v65
  let c0_i32_50 : BitVec 32 := 0#32
  let v63 : BitVec 1 := Scalar.cmpi .ne v62 c0_i32_50
  let v67 : BitVec 1 := Scalar.andi v66 v63
  let v68 : BitVec 32 := Scalar.addi v62 v61
  let v69 : BitVec 32 := Scalar.select v67 v68 v62
  let c16_i32_53 : BitVec 32 := 16#32
  let v70 : BitVec 32 := Scalar.muli v69 c16_i32_53
  let v72 : Index := Scalar.indexCast v70
  ![v71.toNat, v72.toNat]
def k0_off272 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v75 : Index := Scalar.indexCast v41
  let c0 : Index := 0#32
  ![v75.toNat, 0]
def k0_off273 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v83 : Index := Scalar.indexCast v41
  let c16 : Index := 16#32
  ![v83.toNat, 16]
def k0_off274 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v91 : Index := Scalar.indexCast v41
  let c32 : Index := 32#32
  ![v91.toNat, 32]
def k0_off275 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v99 : Index := Scalar.indexCast v41
  let c48 : Index := 48#32
  ![v99.toNat, 48]
def k0_off276 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v107 : Index := Scalar.indexCast v41
  let c64 : Index := 64#32
  ![v107.toNat, 64]
def k0_off277 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v115 : Index := Scalar.indexCast v41
  let c80 : Index := 80#32
  ![v115.toNat, 80]
def k0_off278 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v123 : Index := Scalar.indexCast v41
  let c96 : Index := 96#32
  ![v123.toNat, 96]
def k0_off279 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v131 : Index := Scalar.indexCast v41
  let c112 : Index := 112#32
  ![v131.toNat, 112]
def k0_off280 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v139 : Index := Scalar.indexCast v41
  let c128 : Index := 128#32
  ![v139.toNat, 128]
def k0_off281 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v147 : Index := Scalar.indexCast v41
  let c144 : Index := 144#32
  ![v147.toNat, 144]
def k0_off282 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v155 : Index := Scalar.indexCast v41
  let c160 : Index := 160#32
  ![v155.toNat, 160]
def k0_off283 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v163 : Index := Scalar.indexCast v41
  let c176 : Index := 176#32
  ![v163.toNat, 176]
def k0_off284 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v171 : Index := Scalar.indexCast v41
  let c192 : Index := 192#32
  ![v171.toNat, 192]
def k0_off285 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v179 : Index := Scalar.indexCast v41
  let c208 : Index := 208#32
  ![v179.toNat, 208]
def k0_off286 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v187 : Index := Scalar.indexCast v41
  let c224 : Index := 224#32
  ![v187.toNat, 224]
def k0_off287 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v195 : Index := Scalar.indexCast v41
  let c240 : Index := 240#32
  ![v195.toNat, 240]
def k0_off288 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v203 : Index := Scalar.indexCast v41
  let c256 : Index := 256#32
  ![v203.toNat, 256]
def k0_off289 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v211 : Index := Scalar.indexCast v41
  let c272 : Index := 272#32
  ![v211.toNat, 272]
def k0_off290 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v219 : Index := Scalar.indexCast v41
  let c288 : Index := 288#32
  ![v219.toNat, 288]
def k0_off291 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v227 : Index := Scalar.indexCast v41
  let c304 : Index := 304#32
  ![v227.toNat, 304]
def k0_off292 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v235 : Index := Scalar.indexCast v41
  let c320 : Index := 320#32
  ![v235.toNat, 320]
def k0_off293 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v243 : Index := Scalar.indexCast v41
  let c336 : Index := 336#32
  ![v243.toNat, 336]
def k0_off294 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v251 : Index := Scalar.indexCast v41
  let c352 : Index := 352#32
  ![v251.toNat, 352]
def k0_off295 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v259 : Index := Scalar.indexCast v41
  let c368 : Index := 368#32
  ![v259.toNat, 368]
def k0_off296 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v267 : Index := Scalar.indexCast v41
  let c384 : Index := 384#32
  ![v267.toNat, 384]
def k0_off297 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v275 : Index := Scalar.indexCast v41
  let c400 : Index := 400#32
  ![v275.toNat, 400]
def k0_off298 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v283 : Index := Scalar.indexCast v41
  let c416 : Index := 416#32
  ![v283.toNat, 416]
def k0_off299 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v291 : Index := Scalar.indexCast v41
  let c432 : Index := 432#32
  ![v291.toNat, 432]
def k0_off300 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v299 : Index := Scalar.indexCast v41
  let c448 : Index := 448#32
  ![v299.toNat, 448]
def k0_off301 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v307 : Index := Scalar.indexCast v41
  let c464 : Index := 464#32
  ![v307.toNat, 464]
def k0_off302 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v315 : Index := Scalar.indexCast v41
  let c480 : Index := 480#32
  ![v315.toNat, 480]
def k0_off303 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v323 : Index := Scalar.indexCast v41
  let c496 : Index := 496#32
  ![v323.toNat, 496]
def k0_off304 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v331 : Index := Scalar.indexCast v41
  let c512 : Index := 512#32
  ![v331.toNat, 512]
def k0_off305 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v339 : Index := Scalar.indexCast v41
  let c528 : Index := 528#32
  ![v339.toNat, 528]
def k0_off306 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v347 : Index := Scalar.indexCast v41
  let c544 : Index := 544#32
  ![v347.toNat, 544]
def k0_off307 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v355 : Index := Scalar.indexCast v41
  let c560 : Index := 560#32
  ![v355.toNat, 560]
def k0_off308 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v363 : Index := Scalar.indexCast v41
  let c576 : Index := 576#32
  ![v363.toNat, 576]
def k0_off309 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v371 : Index := Scalar.indexCast v41
  let c592 : Index := 592#32
  ![v371.toNat, 592]
def k0_off310 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v379 : Index := Scalar.indexCast v41
  let c608 : Index := 608#32
  ![v379.toNat, 608]
def k0_off311 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v387 : Index := Scalar.indexCast v41
  let c624 : Index := 624#32
  ![v387.toNat, 624]
def k0_off312 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v395 : Index := Scalar.indexCast v41
  let c640 : Index := 640#32
  ![v395.toNat, 640]
def k0_off313 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v403 : Index := Scalar.indexCast v41
  let c656 : Index := 656#32
  ![v403.toNat, 656]
def k0_off314 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v411 : Index := Scalar.indexCast v41
  let c672 : Index := 672#32
  ![v411.toNat, 672]
def k0_off315 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v419 : Index := Scalar.indexCast v41
  let c688 : Index := 688#32
  ![v419.toNat, 688]
def k0_off316 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v427 : Index := Scalar.indexCast v41
  let c704 : Index := 704#32
  ![v427.toNat, 704]
def k0_off317 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v435 : Index := Scalar.indexCast v41
  let c720 : Index := 720#32
  ![v435.toNat, 720]
def k0_off318 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v443 : Index := Scalar.indexCast v41
  let c736 : Index := 736#32
  ![v443.toNat, 736]
def k0_off319 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v451 : Index := Scalar.indexCast v41
  let c752 : Index := 752#32
  ![v451.toNat, 752]
def k0_off320 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v459 : Index := Scalar.indexCast v41
  let c768 : Index := 768#32
  ![v459.toNat, 768]
def k0_off321 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v467 : Index := Scalar.indexCast v41
  let c784 : Index := 784#32
  ![v467.toNat, 784]
def k0_off322 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v475 : Index := Scalar.indexCast v41
  let c800 : Index := 800#32
  ![v475.toNat, 800]
def k0_off323 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v483 : Index := Scalar.indexCast v41
  let c816 : Index := 816#32
  ![v483.toNat, 816]
def k0_off324 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v491 : Index := Scalar.indexCast v41
  let c832 : Index := 832#32
  ![v491.toNat, 832]
def k0_off325 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v499 : Index := Scalar.indexCast v41
  let c848 : Index := 848#32
  ![v499.toNat, 848]
def k0_off326 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v507 : Index := Scalar.indexCast v41
  let c864 : Index := 864#32
  ![v507.toNat, 864]
def k0_off327 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v515 : Index := Scalar.indexCast v41
  let c880 : Index := 880#32
  ![v515.toNat, 880]
def k0_off328 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v523 : Index := Scalar.indexCast v41
  let c896 : Index := 896#32
  ![v523.toNat, 896]
def k0_off329 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v531 : Index := Scalar.indexCast v41
  let c912 : Index := 912#32
  ![v531.toNat, 912]
def k0_off330 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v539 : Index := Scalar.indexCast v41
  let c928 : Index := 928#32
  ![v539.toNat, 928]
def k0_off331 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v547 : Index := Scalar.indexCast v41
  let c944 : Index := 944#32
  ![v547.toNat, 944]
def k0_off332 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v555 : Index := Scalar.indexCast v41
  let c960 : Index := 960#32
  ![v555.toNat, 960]
def k0_off333 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v563 : Index := Scalar.indexCast v41
  let c976 : Index := 976#32
  ![v563.toNat, 976]
def k0_off334 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v571 : Index := Scalar.indexCast v41
  let c992 : Index := 992#32
  ![v571.toNat, 992]
def k0_off335 (k0_t6 : Fin k0_t6_loop.trips) (c0_i32_39 : BitVec 32) : Fin 2 → Nat :=
  let c0_i32_20 : BitVec 32 := 0#32
  let c1_i32_22 : BitVec 32 := 1#32
  let arg15 : BitVec 32 := Scf.iv c0_i32_20 c1_i32_22 k0_t6
  let c2_i32_38 : BitVec 32 := 2#32
  let v40 : BitVec 32 := Scalar.muli arg15 c2_i32_38
  let v41 : BitVec 32 := Scalar.addi v40 c0_i32_39
  let v579 : Index := Scalar.indexCast v41
  let c1008 : Index := 1008#32
  ![v579.toNat, 1008]
def k0_cond8 : BitVec 1 :=
  let true_27 : BitVec 1 := 1#1
  let false_28 : BitVec 1 := 0#1
  let v28 : BitVec 1 := Scalar.andi true_27 false_28
  let v29 : BitVec 32 := Scalar.extui v28
  let c0_i32_29 : BitVec 32 := 0#32
  let v30 : BitVec 1 := Scalar.cmpi .ne v29 c0_i32_29
  v30

def k0_off336 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c960_i32_38 : BitVec 32 := 960#32
  let v40 : BitVec 32 := Scalar.addi v2 c960_i32_38
  let c0_i32_39 : BitVec 32 := 0#32
  ![v40.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  bcast_S_S1 : S_.BroadcastsInDim S1 (![] : Fin 0 → Fin S1.rank)
  concatenates_S1_S1_S2_d0 : Shape.Concatenates [S1, S1] S2 0
  bcast_S_S1x1 : S_.BroadcastsInDim S1x1 (![] : Fin 0 → Fin S1x1.rank)
  slices_S2_S1_0 : S2.Slices ![0] S1
  shapeCasts_S1_S_ : S1.ShapeCasts S_
  slices_S2_S1_1 : S2.Slices ![1] S1
  bcast_S_S8192x4 : S_.BroadcastsInDim S8192x4 (![] : Fin 0 → Fin S8192x4.rank)
  natLt_32_64 : 32 < 64
  bcast_S1x1_S8192x4_0_1 : S1x1.BroadcastsInDim S8192x4 (![0, 1] : Fin 2 → Fin S8192x4.rank)
  transposes_S8192x4_S4x8192_1_0 : S8192x4.Transposes [1, 0] S4x8192
  shapeCasts_S4x8192_S32768 : S4x8192.ShapeCasts S32768
  bcast_S32768_S32768x1_0 : S32768.BroadcastsInDim S32768x1 (![0] : Fin 1 → Fin S32768x1.rank)
  bcast_S32768x1_S32768x16_0_1 : S32768x1.BroadcastsInDim S32768x16 (![0, 1] : Fin 2 → Fin S32768x16.rank)
  shapeCasts_S4x8192x1024_S32768x1024 : S4x8192x1024.ShapeCasts S32768x1024
  shapeCasts_S32768x16_S4096x128 : S32768x16.ShapeCasts S4096x128
  h_S1x16 : 0 < S1x16.numel
  shapeCasts_S1x16_S16 : S1x16.ShapeCasts S16
  shapeCasts_S16_S1x16 : S16.ShapeCasts S1x16
  shapeCasts_S32768x1024_S4x8192x1024 : S32768x1024.ShapeCasts S4x8192x1024
  hcc0_scratch4 : 0 + S_.numel ≤ 7
  hcc0_scratch5 : 1 + S_.numel ≤ 7
  hcc0_scratch6 : 2 + S_.numel ≤ 7
  hcc0_scratch7 : 3 + S_.numel ≤ 7
  hcc0_scratch8 : 4 + S_.numel ≤ 7
  hcc0_scratch9 : 5 + S_.numel ≤ 7
  hcc0_scoped0 : 6 + S_.numel ≤ 7
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S128x128.size a ≤ S4096x128.size a
  k0_off2_inb : ∀ i : grid0.Coords, ∀ (r : Fin 5), ∀ a, (k0_off2 i (k0_off2_at r)) a + S32x1024.size a ≤ S32768x1024.size a
  k0_t1_ok : k0_t1_loop.OK
  k0_off3_inb : ∀ (i : grid0.Coords) (k0_t1 : Fin k0_t1_loop.trips), ∀ (r : Fin 3), ∀ a, (k0_off3 i k0_t1 (BitVec.ofNat 32 r.val)) a + S32x1024.size a ≤ S32768x1024.size a
  k0_t2_ok : k0_t2_loop.OK
  k0_off4_inb : ∀ (k0_t1 : Fin k0_t1_loop.trips) (k0_t2 : Fin k0_t2_loop.trips), ∀ (r : Fin 2), ∀ a, (k0_off4 k0_t1 k0_t2 (BitVec.ofNat 32 r.val)) a + S1x16.size a ≤ S128x128.size a
  k0_off5_inb : ∀ k0_t2 : Fin k0_t2_loop.trips, ∀ (r : Fin 2), ∀ a, (k0_off5 k0_t2 (BitVec.ofNat 32 r.val)) a + S1x16.size a ≤ S32x1024.size a
  k0_off6_inb : ∀ k0_t2 : Fin k0_t2_loop.trips, ∀ (r : Fin 2), ∀ a, (k0_off6 k0_t2 (BitVec.ofNat 32 r.val)) a + S1x16.size a ≤ S32x1024.size a
  k0_off7_inb : ∀ k0_t2 : Fin k0_t2_loop.trips, ∀ (r : Fin 2), ∀ a, (k0_off7 k0_t2 (BitVec.ofNat 32 r.val)) a + S1x16.size a ≤ S32x1024.size a
  k0_off8_inb : ∀ k0_t2 : Fin k0_t2_loop.trips, ∀ (r : Fin 2), ∀ a, (k0_off8 k0_t2 (BitVec.ofNat 32 r.val)) a + S1x16.size a ≤ S32x1024.size a
  k0_off9_inb : ∀ k0_t2 : Fin k0_t2_loop.trips, ∀ (r : Fin 2), ∀ a, (k0_off9 k0_t2 (BitVec.ofNat 32 r.val)) a + S1x16.size a ≤ S32x1024.size a
  k0_off10_inb : ∀ k0_t2 : Fin k0_t2_loop.trips, ∀ (r : Fin 2), ∀ a, (k0_off10 k0_t2 (BitVec.ofNat 32 r.val)) a + S1x16.size a ≤ S32x1024.size a
  k0_off11_inb : ∀ k0_t2 : Fin k0_t2_loop.trips, ∀ (r : Fin 2), ∀ a, (k0_off11 k0_t2 (BitVec.ofNat 32 r.val)) a + S1x16.size a ≤ S32x1024.size a
  k0_off12_inb : ∀ k0_t2 : Fin k0_t2_loop.trips, ∀ (r : Fin 2), ∀ a, (k0_off12 k0_t2 (BitVec.ofNat 32 r.val)) a + S1x16.size a ≤ S32x1024.size a
  k0_off13_inb : ∀ k0_t2 : Fin k0_t2_loop.trips, ∀ (r : Fin 2), ∀ a, (k0_off13 k0_t2 (BitVec.ofNat 32 r.val)) a + S1x16.size a ≤ S32x1024.size a
  k0_off14_inb : ∀ k0_t2 : Fin k0_t2_loop.trips, ∀ (r : Fin 2), ∀ a, (k0_off14 k0_t2 (BitVec.ofNat 32 r.val)) a + S1x16.size a ≤ S32x1024.size a
  k0_off15_inb : ∀ k0_t2 : Fin k0_t2_loop.trips, ∀ (r : Fin 2), ∀ a, (k0_off15 k0_t2 (BitVec.ofNat 32 r.val)) a + S1x16.size a ≤ S32x1024.size a
  k0_off16_inb : ∀ k0_t2 : Fin k0_t2_loop.trips, ∀ (r : Fin 2), ∀ a, (k0_off16 k0_t2 (BitVec.ofNat 32 r.val)) a + S1x16.size a ≤ S32x1024.size a
  k0_off17_inb : ∀ k0_t2 : Fin k0_t2_loop.trips, ∀ (r : Fin 2), ∀ a, (k0_off17 k0_t2 (BitVec.ofNat 32 r.val)) a + S1x16.size a ≤ S32x1024.size a
  k0_off18_inb : ∀ k0_t2 : Fin k0_t2_loop.trips, ∀ (r : Fin 2), ∀ a, (k0_off18 k0_t2 (BitVec.ofNat 32 r.val)) a + S1x16.size a ≤ S32x1024.size a
  k0_off19_inb : ∀ k0_t2 : Fin k0_t2_loop.trips, ∀ (r : Fin 2), ∀ a, (k0_off19 k0_t2 (BitVec.ofNat 32 r.val)) a + S1x16.size a ≤ S32x1024.size a
  k0_off20_inb : ∀ k0_t2 : Fin k0_t2_loop.trips, ∀ (r : Fin 2), ∀ a, (k0_off20 k0_t2 (BitVec.ofNat 32 r.val)) a + S1x16.size a ≤ S32x1024.size a
  k0_off21_inb : ∀ k0_t2 : Fin k0_t2_loop.trips, ∀ (r : Fin 2), ∀ a, (k0_off21 k0_t2 (BitVec.ofNat 32 r.val)) a + S1x16.size a ≤ S32x1024.size a
  k0_off22_inb : ∀ k0_t2 : Fin k0_t2_loop.trips, ∀ (r : Fin 2), ∀ a, (k0_off22 k0_t2 (BitVec.ofNat 32 r.val)) a + S1x16.size a ≤ S32x1024.size a
  k0_off23_inb : ∀ k0_t2 : Fin k0_t2_loop.trips, ∀ (r : Fin 2), ∀ a, (k0_off23 k0_t2 (BitVec.ofNat 32 r.val)) a + S1x16.size a ≤ S32x1024.size a
  k0_off24_inb : ∀ k0_t2 : Fin k0_t2_loop.trips, ∀ (r : Fin 2), ∀ a, (k0_off24 k0_t2 (BitVec.ofNat 32 r.val)) a + S1x16.size a ≤ S32x1024.size a
  k0_off25_inb : ∀ k0_t2 : Fin k0_t2_loop.trips, ∀ (r : Fin 2), ∀ a, (k0_off25 k0_t2 (BitVec.ofNat 32 r.val)) a + S1x16.size a ≤ S32x1024.size a
  k0_off26_inb : ∀ k0_t2 : Fin k0_t2_loop.trips, ∀ (r : Fin 2), ∀ a, (k0_off26 k0_t2 (BitVec.ofNat 32 r.val)) a + S1x16.size a ≤ S32x1024.size a
  k0_off27_inb : ∀ k0_t2 : Fin k0_t2_loop.trips, ∀ (r : Fin 2), ∀ a, (k0_off27 k0_t2 (BitVec.ofNat 32 r.val)) a + S1x16.size a ≤ S32x1024.size a
  k0_off28_inb : ∀ k0_t2 : Fin k0_t2_loop.trips, ∀ (r : Fin 2), ∀ a, (k0_off28 k0_t2 (BitVec.ofNat 32 r.val)) a + S1x16.size a ≤ S32x1024.size a
  k0_off29_inb : ∀ k0_t2 : Fin k0_t2_loop.trips, ∀ (r : Fin 2), ∀ a, (k0_off29 k0_t2 (BitVec.ofNat 32 r.val)) a + S1x16.size a ≤ S32x1024.size a
  k0_off30_inb : ∀ k0_t2 : Fin k0_t2_loop.trips, ∀ (r : Fin 2), ∀ a, (k0_off30 k0_t2 (BitVec.ofNat 32 r.val)) a + S1x16.size a ≤ S32x1024.size a
  k0_off31_inb : ∀ k0_t2 : Fin k0_t2_loop.trips, ∀ (r : Fin 2), ∀ a, (k0_off31 k0_t2 (BitVec.ofNat 32 r.val)) a + S1x16.size a ≤ S32x1024.size a
  k0_off32_inb : ∀ k0_t2 : Fin k0_t2_loop.trips, ∀ (r : Fin 2), ∀ a, (k0_off32 k0_t2 (BitVec.ofNat 32 r.val)) a + S1x16.size a ≤ S32x1024.size a
  k0_off33_inb : ∀ k0_t2 : Fin k0_t2_loop.trips, ∀ (r : Fin 2), ∀ a, (k0_off33 k0_t2 (BitVec.ofNat 32 r.val)) a + S1x16.size a ≤ S32x1024.size a
  k0_off34_inb : ∀ k0_t2 : Fin k0_t2_loop.trips, ∀ (r : Fin 2), ∀ a, (k0_off34 k0_t2 (BitVec.ofNat 32 r.val)) a + S1x16.size a ≤ S32x1024.size a
  k0_off35_inb : ∀ k0_t2 : Fin k0_t2_loop.trips, ∀ (r : Fin 2), ∀ a, (k0_off35 k0_t2 (BitVec.ofNat 32 r.val)) a + S1x16.size a ≤ S32x1024.size a
  k0_off36_inb : ∀ k0_t2 : Fin k0_t2_loop.trips, ∀ (r : Fin 2), ∀ a, (k0_off36 k0_t2 (BitVec.ofNat 32 r.val)) a + S1x16.size a ≤ S32x1024.size a
  k0_off37_inb : ∀ k0_t2 : Fin k0_t2_loop.trips, ∀ (r : Fin 2), ∀ a, (k0_off37 k0_t2 (BitVec.ofNat 32 r.val)) a + S1x16.size a ≤ S32x1024.size a
  k0_off38_inb : ∀ k0_t2 : Fin k0_t2_loop.trips, ∀ (r : Fin 2), ∀ a, (k0_off38 k0_t2 (BitVec.ofNat 32 r.val)) a + S1x16.size a ≤ S32x1024.size a
  k0_off39_inb : ∀ k0_t2 : Fin k0_t2_loop.trips, ∀ (r : Fin 2), ∀ a, (k0_off39 k0_t2 (BitVec.ofNat 32 r.val)) a + S1x16.size a ≤ S32x1024.size a
  k0_off40_inb : ∀ k0_t2 : Fin k0_t2_loop.trips, ∀ (r : Fin 2), ∀ a, (k0_off40 k0_t2 (BitVec.ofNat 32 r.val)) a + S1x16.size a ≤ S32x1024.size a
  k0_off41_inb : ∀ k0_t2 : Fin k0_t2_loop.trips, ∀ (r : Fin 2), ∀ a, (k0_off41 k0_t2 (BitVec.ofNat 32 r.val)) a + S1x16.size a ≤ S32x1024.size a
  k0_off42_inb : ∀ k0_t2 : Fin k0_t2_loop.trips, ∀ (r : Fin 2), ∀ a, (k0_off42 k0_t2 (BitVec.ofNat 32 r.val)) a + S1x16.size a ≤ S32x1024.size a
  k0_off43_inb : ∀ k0_t2 : Fin k0_t2_loop.trips, ∀ (r : Fin 2), ∀ a, (k0_off43 k0_t2 (BitVec.ofNat 32 r.val)) a + S1x16.size a ≤ S32x1024.size a
  k0_off44_inb : ∀ k0_t2 : Fin k0_t2_loop.trips, ∀ (r : Fin 2), ∀ a, (k0_off44 k0_t2 (BitVec.ofNat 32 r.val)) a + S1x16.size a ≤ S32x1024.size a
  k0_off45_inb : ∀ k0_t2 : Fin k0_t2_loop.trips, ∀ (r : Fin 2), ∀ a, (k0_off45 k0_t2 (BitVec.ofNat 32 r.val)) a + S1x16.size a ≤ S32x1024.size a
  k0_off46_inb : ∀ k0_t2 : Fin k0_t2_loop.trips, ∀ (r : Fin 2), ∀ a, (k0_off46 k0_t2 (BitVec.ofNat 32 r.val)) a + S1x16.size a ≤ S32x1024.size a
  k0_off47_inb : ∀ k0_t2 : Fin k0_t2_loop.trips, ∀ (r : Fin 2), ∀ a, (k0_off47 k0_t2 (BitVec.ofNat 32 r.val)) a + S1x16.size a ≤ S32x1024.size a
  k0_off48_inb : ∀ k0_t2 : Fin k0_t2_loop.trips, ∀ (r : Fin 2), ∀ a, (k0_off48 k0_t2 (BitVec.ofNat 32 r.val)) a + S1x16.size a ≤ S32x1024.size a
  k0_off49_inb : ∀ k0_t2 : Fin k0_t2_loop.trips, ∀ (r : Fin 2), ∀ a, (k0_off49 k0_t2 (BitVec.ofNat 32 r.val)) a + S1x16.size a ≤ S32x1024.size a
  k0_off50_inb : ∀ k0_t2 : Fin k0_t2_loop.trips, ∀ (r : Fin 2), ∀ a, (k0_off50 k0_t2 (BitVec.ofNat 32 r.val)) a + S1x16.size a ≤ S32x1024.size a
  k0_off51_inb : ∀ k0_t2 : Fin k0_t2_loop.trips, ∀ (r : Fin 2), ∀ a, (k0_off51 k0_t2 (BitVec.ofNat 32 r.val)) a + S1x16.size a ≤ S32x1024.size a
  k0_off52_inb : ∀ k0_t2 : Fin k0_t2_loop.trips, ∀ (r : Fin 2), ∀ a, (k0_off52 k0_t2 (BitVec.ofNat 32 r.val)) a + S1x16.size a ≤ S32x1024.size a
  k0_off53_inb : ∀ k0_t2 : Fin k0_t2_loop.trips, ∀ (r : Fin 2), ∀ a, (k0_off53 k0_t2 (BitVec.ofNat 32 r.val)) a + S1x16.size a ≤ S32x1024.size a
  k0_off54_inb : ∀ k0_t2 : Fin k0_t2_loop.trips, ∀ (r : Fin 2), ∀ a, (k0_off54 k0_t2 (BitVec.ofNat 32 r.val)) a + S1x16.size a ≤ S32x1024.size a
  k0_off55_inb : ∀ k0_t2 : Fin k0_t2_loop.trips, ∀ (r : Fin 2), ∀ a, (k0_off55 k0_t2 (BitVec.ofNat 32 r.val)) a + S1x16.size a ≤ S32x1024.size a
  k0_off56_inb : ∀ k0_t2 : Fin k0_t2_loop.trips, ∀ (r : Fin 2), ∀ a, (k0_off56 k0_t2 (BitVec.ofNat 32 r.val)) a + S1x16.size a ≤ S32x1024.size a
  k0_off57_inb : ∀ k0_t2 : Fin k0_t2_loop.trips, ∀ (r : Fin 2), ∀ a, (k0_off57 k0_t2 (BitVec.ofNat 32 r.val)) a + S1x16.size a ≤ S32x1024.size a
  k0_off58_inb : ∀ k0_t2 : Fin k0_t2_loop.trips, ∀ (r : Fin 2), ∀ a, (k0_off58 k0_t2 (BitVec.ofNat 32 r.val)) a + S1x16.size a ≤ S32x1024.size a
  k0_off59_inb : ∀ k0_t2 : Fin k0_t2_loop.trips, ∀ (r : Fin 2), ∀ a, (k0_off59 k0_t2 (BitVec.ofNat 32 r.val)) a + S1x16.size a ≤ S32x1024.size a
  k0_off60_inb : ∀ k0_t2 : Fin k0_t2_loop.trips, ∀ (r : Fin 2), ∀ a, (k0_off60 k0_t2 (BitVec.ofNat 32 r.val)) a + S1x16.size a ≤ S32x1024.size a
  k0_off61_inb : ∀ k0_t2 : Fin k0_t2_loop.trips, ∀ (r : Fin 2), ∀ a, (k0_off61 k0_t2 (BitVec.ofNat 32 r.val)) a + S1x16.size a ≤ S32x1024.size a
  k0_off62_inb : ∀ k0_t2 : Fin k0_t2_loop.trips, ∀ (r : Fin 2), ∀ a, (k0_off62 k0_t2 (BitVec.ofNat 32 r.val)) a + S1x16.size a ≤ S32x1024.size a
  k0_off63_inb : ∀ k0_t2 : Fin k0_t2_loop.trips, ∀ (r : Fin 2), ∀ a, (k0_off63 k0_t2 (BitVec.ofNat 32 r.val)) a + S1x16.size a ≤ S32x1024.size a
  k0_off64_inb : ∀ k0_t2 : Fin k0_t2_loop.trips, ∀ (r : Fin 2), ∀ a, (k0_off64 k0_t2 (BitVec.ofNat 32 r.val)) a + S1x16.size a ≤ S32x1024.size a
  k0_off65_inb : ∀ k0_t2 : Fin k0_t2_loop.trips, ∀ (r : Fin 2), ∀ a, (k0_off65 k0_t2 (BitVec.ofNat 32 r.val)) a + S1x16.size a ≤ S32x1024.size a
  k0_off66_inb : ∀ k0_t2 : Fin k0_t2_loop.trips, ∀ (r : Fin 2), ∀ a, (k0_off66 k0_t2 (BitVec.ofNat 32 r.val)) a + S1x16.size a ≤ S32x1024.size a
  k0_off67_inb : ∀ k0_t2 : Fin k0_t2_loop.trips, ∀ (r : Fin 2), ∀ a, (k0_off67 k0_t2 (BitVec.ofNat 32 r.val)) a + S1x16.size a ≤ S32x1024.size a
  k0_off68_inb : ∀ k0_t2 : Fin k0_t2_loop.trips, ∀ (r : Fin 2), ∀ a, (k0_off68 k0_t2 (BitVec.ofNat 32 r.val)) a + S1x16.size a ≤ S32x1024.size a
  k0_off69_inb : ∀ (i : grid0.Coords) (k0_t1 : Fin k0_t1_loop.trips), ∀ (k0_h1 : k0_cond1 k0_t1 = 1#1), ∀ a, (k0_off69 i k0_t1) a + S32x1024.size a ≤ S32768x1024.size a
  k0_off70_inb : ∀ (i : grid0.Coords) (k0_t1 : Fin k0_t1_loop.trips), ∀ (k0_h2 : k0_cond2 k0_t1 = 1#1), ∀ a, (k0_off70 i k0_t1) a + S32x1024.size a ≤ S32768x1024.size a
  k0_t3_ok : k0_t3_loop.OK
  k0_off71_inb : ∀ (k0_t1 : Fin k0_t1_loop.trips) (k0_t3 : Fin k0_t3_loop.trips), ∀ (r : Fin 2), ∀ a, (k0_off71 k0_t1 k0_t3 (BitVec.ofNat 32 r.val)) a + S1x16.size a ≤ S128x128.size a
  k0_off72_inb : ∀ k0_t3 : Fin k0_t3_loop.trips, ∀ (r : Fin 2), ∀ a, (k0_off72 k0_t3 (BitVec.ofNat 32 r.val)) a + S1x16.size a ≤ S32x1024.size a
  k0_off73_inb : ∀ k0_t3 : Fin k0_t3_loop.trips, ∀ (r : Fin 2), ∀ a, (k0_off73 k0_t3 (BitVec.ofNat 32 r.val)) a + S1x16.size a ≤ S32x1024.size a
  k0_off74_inb : ∀ k0_t3 : Fin k0_t3_loop.trips, ∀ (r : Fin 2), ∀ a, (k0_off74 k0_t3 (BitVec.ofNat 32 r.val)) a + S1x16.size a ≤ S32x1024.size a
  k0_off75_inb : ∀ k0_t3 : Fin k0_t3_loop.trips, ∀ (r : Fin 2), ∀ a, (k0_off75 k0_t3 (BitVec.ofNat 32 r.val)) a + S1x16.size a ≤ S32x1024.size a
  k0_off76_inb : ∀ k0_t3 : Fin k0_t3_loop.trips, ∀ (r : Fin 2), ∀ a, (k0_off76 k0_t3 (BitVec.ofNat 32 r.val)) a + S1x16.size a ≤ S32x1024.size a
  k0_off77_inb : ∀ k0_t3 : Fin k0_t3_loop.trips, ∀ (r : Fin 2), ∀ a, (k0_off77 k0_t3 (BitVec.ofNat 32 r.val)) a + S1x16.size a ≤ S32x1024.size a
  k0_off78_inb : ∀ k0_t3 : Fin k0_t3_loop.trips, ∀ (r : Fin 2), ∀ a, (k0_off78 k0_t3 (BitVec.ofNat 32 r.val)) a + S1x16.size a ≤ S32x1024.size a
  k0_off79_inb : ∀ k0_t3 : Fin k0_t3_loop.trips, ∀ (r : Fin 2), ∀ a, (k0_off79 k0_t3 (BitVec.ofNat 32 r.val)) a + S1x16.size a ≤ S32x1024.size a
  k0_off80_inb : ∀ k0_t3 : Fin k0_t3_loop.trips, ∀ (r : Fin 2), ∀ a, (k0_off80 k0_t3 (BitVec.ofNat 32 r.val)) a + S1x16.size a ≤ S32x1024.size a
  k0_off81_inb : ∀ k0_t3 : Fin k0_t3_loop.trips, ∀ (r : Fin 2), ∀ a, (k0_off81 k0_t3 (BitVec.ofNat 32 r.val)) a + S1x16.size a ≤ S32x1024.size a
  k0_off82_inb : ∀ k0_t3 : Fin k0_t3_loop.trips, ∀ (r : Fin 2), ∀ a, (k0_off82 k0_t3 (BitVec.ofNat 32 r.val)) a + S1x16.size a ≤ S32x1024.size a
  k0_off83_inb : ∀ k0_t3 : Fin k0_t3_loop.trips, ∀ (r : Fin 2), ∀ a, (k0_off83 k0_t3 (BitVec.ofNat 32 r.val)) a + S1x16.size a ≤ S32x1024.size a
  k0_off84_inb : ∀ k0_t3 : Fin k0_t3_loop.trips, ∀ (r : Fin 2), ∀ a, (k0_off84 k0_t3 (BitVec.ofNat 32 r.val)) a + S1x16.size a ≤ S32x1024.size a
  k0_off85_inb : ∀ k0_t3 : Fin k0_t3_loop.trips, ∀ (r : Fin 2), ∀ a, (k0_off85 k0_t3 (BitVec.ofNat 32 r.val)) a + S1x16.size a ≤ S32x1024.size a
  k0_off86_inb : ∀ k0_t3 : Fin k0_t3_loop.trips, ∀ (r : Fin 2), ∀ a, (k0_off86 k0_t3 (BitVec.ofNat 32 r.val)) a + S1x16.size a ≤ S32x1024.size a
  k0_off87_inb : ∀ k0_t3 : Fin k0_t3_loop.trips, ∀ (r : Fin 2), ∀ a, (k0_off87 k0_t3 (BitVec.ofNat 32 r.val)) a + S1x16.size a ≤ S32x1024.size a
  k0_off88_inb : ∀ k0_t3 : Fin k0_t3_loop.trips, ∀ (r : Fin 2), ∀ a, (k0_off88 k0_t3 (BitVec.ofNat 32 r.val)) a + S1x16.size a ≤ S32x1024.size a
  k0_off89_inb : ∀ k0_t3 : Fin k0_t3_loop.trips, ∀ (r : Fin 2), ∀ a, (k0_off89 k0_t3 (BitVec.ofNat 32 r.val)) a + S1x16.size a ≤ S32x1024.size a
  k0_off90_inb : ∀ k0_t3 : Fin k0_t3_loop.trips, ∀ (r : Fin 2), ∀ a, (k0_off90 k0_t3 (BitVec.ofNat 32 r.val)) a + S1x16.size a ≤ S32x1024.size a
  k0_off91_inb : ∀ k0_t3 : Fin k0_t3_loop.trips, ∀ (r : Fin 2), ∀ a, (k0_off91 k0_t3 (BitVec.ofNat 32 r.val)) a + S1x16.size a ≤ S32x1024.size a
  k0_off92_inb : ∀ k0_t3 : Fin k0_t3_loop.trips, ∀ (r : Fin 2), ∀ a, (k0_off92 k0_t3 (BitVec.ofNat 32 r.val)) a + S1x16.size a ≤ S32x1024.size a
  k0_off93_inb : ∀ k0_t3 : Fin k0_t3_loop.trips, ∀ (r : Fin 2), ∀ a, (k0_off93 k0_t3 (BitVec.ofNat 32 r.val)) a + S1x16.size a ≤ S32x1024.size a
  k0_off94_inb : ∀ k0_t3 : Fin k0_t3_loop.trips, ∀ (r : Fin 2), ∀ a, (k0_off94 k0_t3 (BitVec.ofNat 32 r.val)) a + S1x16.size a ≤ S32x1024.size a
  k0_off95_inb : ∀ k0_t3 : Fin k0_t3_loop.trips, ∀ (r : Fin 2), ∀ a, (k0_off95 k0_t3 (BitVec.ofNat 32 r.val)) a + S1x16.size a ≤ S32x1024.size a
  k0_off96_inb : ∀ k0_t3 : Fin k0_t3_loop.trips, ∀ (r : Fin 2), ∀ a, (k0_off96 k0_t3 (BitVec.ofNat 32 r.val)) a + S1x16.size a ≤ S32x1024.size a
  k0_off97_inb : ∀ k0_t3 : Fin k0_t3_loop.trips, ∀ (r : Fin 2), ∀ a, (k0_off97 k0_t3 (BitVec.ofNat 32 r.val)) a + S1x16.size a ≤ S32x1024.size a
  k0_off98_inb : ∀ k0_t3 : Fin k0_t3_loop.trips, ∀ (r : Fin 2), ∀ a, (k0_off98 k0_t3 (BitVec.ofNat 32 r.val)) a + S1x16.size a ≤ S32x1024.size a
  k0_off99_inb : ∀ k0_t3 : Fin k0_t3_loop.trips, ∀ (r : Fin 2), ∀ a, (k0_off99 k0_t3 (BitVec.ofNat 32 r.val)) a + S1x16.size a ≤ S32x1024.size a
  k0_off100_inb : ∀ k0_t3 : Fin k0_t3_loop.trips, ∀ (r : Fin 2), ∀ a, (k0_off100 k0_t3 (BitVec.ofNat 32 r.val)) a + S1x16.size a ≤ S32x1024.size a
  k0_off101_inb : ∀ k0_t3 : Fin k0_t3_loop.trips, ∀ (r : Fin 2), ∀ a, (k0_off101 k0_t3 (BitVec.ofNat 32 r.val)) a + S1x16.size a ≤ S32x1024.size a
  k0_off102_inb : ∀ k0_t3 : Fin k0_t3_loop.trips, ∀ (r : Fin 2), ∀ a, (k0_off102 k0_t3 (BitVec.ofNat 32 r.val)) a + S1x16.size a ≤ S32x1024.size a
  k0_off103_inb : ∀ k0_t3 : Fin k0_t3_loop.trips, ∀ (r : Fin 2), ∀ a, (k0_off103 k0_t3 (BitVec.ofNat 32 r.val)) a + S1x16.size a ≤ S32x1024.size a
  k0_off104_inb : ∀ k0_t3 : Fin k0_t3_loop.trips, ∀ (r : Fin 2), ∀ a, (k0_off104 k0_t3 (BitVec.ofNat 32 r.val)) a + S1x16.size a ≤ S32x1024.size a
  k0_off105_inb : ∀ k0_t3 : Fin k0_t3_loop.trips, ∀ (r : Fin 2), ∀ a, (k0_off105 k0_t3 (BitVec.ofNat 32 r.val)) a + S1x16.size a ≤ S32x1024.size a
  k0_off106_inb : ∀ k0_t3 : Fin k0_t3_loop.trips, ∀ (r : Fin 2), ∀ a, (k0_off106 k0_t3 (BitVec.ofNat 32 r.val)) a + S1x16.size a ≤ S32x1024.size a
  k0_off107_inb : ∀ k0_t3 : Fin k0_t3_loop.trips, ∀ (r : Fin 2), ∀ a, (k0_off107 k0_t3 (BitVec.ofNat 32 r.val)) a + S1x16.size a ≤ S32x1024.size a
  k0_off108_inb : ∀ k0_t3 : Fin k0_t3_loop.trips, ∀ (r : Fin 2), ∀ a, (k0_off108 k0_t3 (BitVec.ofNat 32 r.val)) a + S1x16.size a ≤ S32x1024.size a
  k0_off109_inb : ∀ k0_t3 : Fin k0_t3_loop.trips, ∀ (r : Fin 2), ∀ a, (k0_off109 k0_t3 (BitVec.ofNat 32 r.val)) a + S1x16.size a ≤ S32x1024.size a
  k0_off110_inb : ∀ k0_t3 : Fin k0_t3_loop.trips, ∀ (r : Fin 2), ∀ a, (k0_off110 k0_t3 (BitVec.ofNat 32 r.val)) a + S1x16.size a ≤ S32x1024.size a
  k0_off111_inb : ∀ k0_t3 : Fin k0_t3_loop.trips, ∀ (r : Fin 2), ∀ a, (k0_off111 k0_t3 (BitVec.ofNat 32 r.val)) a + S1x16.size a ≤ S32x1024.size a
  k0_off112_inb : ∀ k0_t3 : Fin k0_t3_loop.trips, ∀ (r : Fin 2), ∀ a, (k0_off112 k0_t3 (BitVec.ofNat 32 r.val)) a + S1x16.size a ≤ S32x1024.size a
  k0_off113_inb : ∀ k0_t3 : Fin k0_t3_loop.trips, ∀ (r : Fin 2), ∀ a, (k0_off113 k0_t3 (BitVec.ofNat 32 r.val)) a + S1x16.size a ≤ S32x1024.size a
  k0_off114_inb : ∀ k0_t3 : Fin k0_t3_loop.trips, ∀ (r : Fin 2), ∀ a, (k0_off114 k0_t3 (BitVec.ofNat 32 r.val)) a + S1x16.size a ≤ S32x1024.size a
  k0_off115_inb : ∀ k0_t3 : Fin k0_t3_loop.trips, ∀ (r : Fin 2), ∀ a, (k0_off115 k0_t3 (BitVec.ofNat 32 r.val)) a + S1x16.size a ≤ S32x1024.size a
  k0_off116_inb : ∀ k0_t3 : Fin k0_t3_loop.trips, ∀ (r : Fin 2), ∀ a, (k0_off116 k0_t3 (BitVec.ofNat 32 r.val)) a + S1x16.size a ≤ S32x1024.size a
  k0_off117_inb : ∀ k0_t3 : Fin k0_t3_loop.trips, ∀ (r : Fin 2), ∀ a, (k0_off117 k0_t3 (BitVec.ofNat 32 r.val)) a + S1x16.size a ≤ S32x1024.size a
  k0_off118_inb : ∀ k0_t3 : Fin k0_t3_loop.trips, ∀ (r : Fin 2), ∀ a, (k0_off118 k0_t3 (BitVec.ofNat 32 r.val)) a + S1x16.size a ≤ S32x1024.size a
  k0_off119_inb : ∀ k0_t3 : Fin k0_t3_loop.trips, ∀ (r : Fin 2), ∀ a, (k0_off119 k0_t3 (BitVec.ofNat 32 r.val)) a + S1x16.size a ≤ S32x1024.size a
  k0_off120_inb : ∀ k0_t3 : Fin k0_t3_loop.trips, ∀ (r : Fin 2), ∀ a, (k0_off120 k0_t3 (BitVec.ofNat 32 r.val)) a + S1x16.size a ≤ S32x1024.size a
  k0_off121_inb : ∀ k0_t3 : Fin k0_t3_loop.trips, ∀ (r : Fin 2), ∀ a, (k0_off121 k0_t3 (BitVec.ofNat 32 r.val)) a + S1x16.size a ≤ S32x1024.size a
  k0_off122_inb : ∀ k0_t3 : Fin k0_t3_loop.trips, ∀ (r : Fin 2), ∀ a, (k0_off122 k0_t3 (BitVec.ofNat 32 r.val)) a + S1x16.size a ≤ S32x1024.size a
  k0_off123_inb : ∀ k0_t3 : Fin k0_t3_loop.trips, ∀ (r : Fin 2), ∀ a, (k0_off123 k0_t3 (BitVec.ofNat 32 r.val)) a + S1x16.size a ≤ S32x1024.size a
  k0_off124_inb : ∀ k0_t3 : Fin k0_t3_loop.trips, ∀ (r : Fin 2), ∀ a, (k0_off124 k0_t3 (BitVec.ofNat 32 r.val)) a + S1x16.size a ≤ S32x1024.size a
  k0_off125_inb : ∀ k0_t3 : Fin k0_t3_loop.trips, ∀ (r : Fin 2), ∀ a, (k0_off125 k0_t3 (BitVec.ofNat 32 r.val)) a + S1x16.size a ≤ S32x1024.size a
  k0_off126_inb : ∀ k0_t3 : Fin k0_t3_loop.trips, ∀ (r : Fin 2), ∀ a, (k0_off126 k0_t3 (BitVec.ofNat 32 r.val)) a + S1x16.size a ≤ S32x1024.size a
  k0_off127_inb : ∀ k0_t3 : Fin k0_t3_loop.trips, ∀ (r : Fin 2), ∀ a, (k0_off127 k0_t3 (BitVec.ofNat 32 r.val)) a + S1x16.size a ≤ S32x1024.size a
  k0_off128_inb : ∀ k0_t3 : Fin k0_t3_loop.trips, ∀ (r : Fin 2), ∀ a, (k0_off128 k0_t3 (BitVec.ofNat 32 r.val)) a + S1x16.size a ≤ S32x1024.size a
  k0_off129_inb : ∀ k0_t3 : Fin k0_t3_loop.trips, ∀ (r : Fin 2), ∀ a, (k0_off129 k0_t3 (BitVec.ofNat 32 r.val)) a + S1x16.size a ≤ S32x1024.size a
  k0_off130_inb : ∀ k0_t3 : Fin k0_t3_loop.trips, ∀ (r : Fin 2), ∀ a, (k0_off130 k0_t3 (BitVec.ofNat 32 r.val)) a + S1x16.size a ≤ S32x1024.size a
  k0_off131_inb : ∀ k0_t3 : Fin k0_t3_loop.trips, ∀ (r : Fin 2), ∀ a, (k0_off131 k0_t3 (BitVec.ofNat 32 r.val)) a + S1x16.size a ≤ S32x1024.size a
  k0_off132_inb : ∀ k0_t3 : Fin k0_t3_loop.trips, ∀ (r : Fin 2), ∀ a, (k0_off132 k0_t3 (BitVec.ofNat 32 r.val)) a + S1x16.size a ≤ S32x1024.size a
  k0_off133_inb : ∀ k0_t3 : Fin k0_t3_loop.trips, ∀ (r : Fin 2), ∀ a, (k0_off133 k0_t3 (BitVec.ofNat 32 r.val)) a + S1x16.size a ≤ S32x1024.size a
  k0_off134_inb : ∀ k0_t3 : Fin k0_t3_loop.trips, ∀ (r : Fin 2), ∀ a, (k0_off134 k0_t3 (BitVec.ofNat 32 r.val)) a + S1x16.size a ≤ S32x1024.size a
  k0_off135_inb : ∀ k0_t3 : Fin k0_t3_loop.trips, ∀ (r : Fin 2), ∀ a, (k0_off135 k0_t3 (BitVec.ofNat 32 r.val)) a + S1x16.size a ≤ S32x1024.size a
  k0_off136_inb : ∀ (i : grid0.Coords) (k0_t1 : Fin k0_t1_loop.trips), ∀ (k0_h3 : k0_cond3 k0_t1 = 1#1), ∀ a, (k0_off136 i k0_t1) a + S32x1024.size a ≤ S32768x1024.size a
  k0_off137_inb : ∀ (i : grid0.Coords) (k0_t1 : Fin k0_t1_loop.trips), ∀ (k0_h4 : k0_cond4 k0_t1 = 1#1), ∀ a, (k0_off137 i k0_t1) a + S32x1024.size a ≤ S32768x1024.size a
  k0_t4_ok : k0_t4_loop.OK
  k0_off138_inb : ∀ (k0_t1 : Fin k0_t1_loop.trips) (k0_t4 : Fin k0_t4_loop.trips), ∀ (r : Fin 2), ∀ a, (k0_off138 k0_t1 k0_t4 (BitVec.ofNat 32 r.val)) a + S1x16.size a ≤ S128x128.size a
  k0_off139_inb : ∀ k0_t4 : Fin k0_t4_loop.trips, ∀ (r : Fin 2), ∀ a, (k0_off139 k0_t4 (BitVec.ofNat 32 r.val)) a + S1x16.size a ≤ S32x1024.size a
  k0_off140_inb : ∀ k0_t4 : Fin k0_t4_loop.trips, ∀ (r : Fin 2), ∀ a, (k0_off140 k0_t4 (BitVec.ofNat 32 r.val)) a + S1x16.size a ≤ S32x1024.size a
  k0_off141_inb : ∀ k0_t4 : Fin k0_t4_loop.trips, ∀ (r : Fin 2), ∀ a, (k0_off141 k0_t4 (BitVec.ofNat 32 r.val)) a + S1x16.size a ≤ S32x1024.size a
  k0_off142_inb : ∀ k0_t4 : Fin k0_t4_loop.trips, ∀ (r : Fin 2), ∀ a, (k0_off142 k0_t4 (BitVec.ofNat 32 r.val)) a + S1x16.size a ≤ S32x1024.size a
  k0_off143_inb : ∀ k0_t4 : Fin k0_t4_loop.trips, ∀ (r : Fin 2), ∀ a, (k0_off143 k0_t4 (BitVec.ofNat 32 r.val)) a + S1x16.size a ≤ S32x1024.size a
  k0_off144_inb : ∀ k0_t4 : Fin k0_t4_loop.trips, ∀ (r : Fin 2), ∀ a, (k0_off144 k0_t4 (BitVec.ofNat 32 r.val)) a + S1x16.size a ≤ S32x1024.size a
  k0_off145_inb : ∀ k0_t4 : Fin k0_t4_loop.trips, ∀ (r : Fin 2), ∀ a, (k0_off145 k0_t4 (BitVec.ofNat 32 r.val)) a + S1x16.size a ≤ S32x1024.size a
  k0_off146_inb : ∀ k0_t4 : Fin k0_t4_loop.trips, ∀ (r : Fin 2), ∀ a, (k0_off146 k0_t4 (BitVec.ofNat 32 r.val)) a + S1x16.size a ≤ S32x1024.size a
  k0_off147_inb : ∀ k0_t4 : Fin k0_t4_loop.trips, ∀ (r : Fin 2), ∀ a, (k0_off147 k0_t4 (BitVec.ofNat 32 r.val)) a + S1x16.size a ≤ S32x1024.size a
  k0_off148_inb : ∀ k0_t4 : Fin k0_t4_loop.trips, ∀ (r : Fin 2), ∀ a, (k0_off148 k0_t4 (BitVec.ofNat 32 r.val)) a + S1x16.size a ≤ S32x1024.size a
  k0_off149_inb : ∀ k0_t4 : Fin k0_t4_loop.trips, ∀ (r : Fin 2), ∀ a, (k0_off149 k0_t4 (BitVec.ofNat 32 r.val)) a + S1x16.size a ≤ S32x1024.size a
  k0_off150_inb : ∀ k0_t4 : Fin k0_t4_loop.trips, ∀ (r : Fin 2), ∀ a, (k0_off150 k0_t4 (BitVec.ofNat 32 r.val)) a + S1x16.size a ≤ S32x1024.size a
  k0_off151_inb : ∀ k0_t4 : Fin k0_t4_loop.trips, ∀ (r : Fin 2), ∀ a, (k0_off151 k0_t4 (BitVec.ofNat 32 r.val)) a + S1x16.size a ≤ S32x1024.size a
  k0_off152_inb : ∀ k0_t4 : Fin k0_t4_loop.trips, ∀ (r : Fin 2), ∀ a, (k0_off152 k0_t4 (BitVec.ofNat 32 r.val)) a + S1x16.size a ≤ S32x1024.size a
  k0_off153_inb : ∀ k0_t4 : Fin k0_t4_loop.trips, ∀ (r : Fin 2), ∀ a, (k0_off153 k0_t4 (BitVec.ofNat 32 r.val)) a + S1x16.size a ≤ S32x1024.size a
  k0_off154_inb : ∀ k0_t4 : Fin k0_t4_loop.trips, ∀ (r : Fin 2), ∀ a, (k0_off154 k0_t4 (BitVec.ofNat 32 r.val)) a + S1x16.size a ≤ S32x1024.size a
  k0_off155_inb : ∀ k0_t4 : Fin k0_t4_loop.trips, ∀ (r : Fin 2), ∀ a, (k0_off155 k0_t4 (BitVec.ofNat 32 r.val)) a + S1x16.size a ≤ S32x1024.size a
  k0_off156_inb : ∀ k0_t4 : Fin k0_t4_loop.trips, ∀ (r : Fin 2), ∀ a, (k0_off156 k0_t4 (BitVec.ofNat 32 r.val)) a + S1x16.size a ≤ S32x1024.size a
  k0_off157_inb : ∀ k0_t4 : Fin k0_t4_loop.trips, ∀ (r : Fin 2), ∀ a, (k0_off157 k0_t4 (BitVec.ofNat 32 r.val)) a + S1x16.size a ≤ S32x1024.size a
  k0_off158_inb : ∀ k0_t4 : Fin k0_t4_loop.trips, ∀ (r : Fin 2), ∀ a, (k0_off158 k0_t4 (BitVec.ofNat 32 r.val)) a + S1x16.size a ≤ S32x1024.size a
  k0_off159_inb : ∀ k0_t4 : Fin k0_t4_loop.trips, ∀ (r : Fin 2), ∀ a, (k0_off159 k0_t4 (BitVec.ofNat 32 r.val)) a + S1x16.size a ≤ S32x1024.size a
  k0_off160_inb : ∀ k0_t4 : Fin k0_t4_loop.trips, ∀ (r : Fin 2), ∀ a, (k0_off160 k0_t4 (BitVec.ofNat 32 r.val)) a + S1x16.size a ≤ S32x1024.size a
  k0_off161_inb : ∀ k0_t4 : Fin k0_t4_loop.trips, ∀ (r : Fin 2), ∀ a, (k0_off161 k0_t4 (BitVec.ofNat 32 r.val)) a + S1x16.size a ≤ S32x1024.size a
  k0_off162_inb : ∀ k0_t4 : Fin k0_t4_loop.trips, ∀ (r : Fin 2), ∀ a, (k0_off162 k0_t4 (BitVec.ofNat 32 r.val)) a + S1x16.size a ≤ S32x1024.size a
  k0_off163_inb : ∀ k0_t4 : Fin k0_t4_loop.trips, ∀ (r : Fin 2), ∀ a, (k0_off163 k0_t4 (BitVec.ofNat 32 r.val)) a + S1x16.size a ≤ S32x1024.size a
  k0_off164_inb : ∀ k0_t4 : Fin k0_t4_loop.trips, ∀ (r : Fin 2), ∀ a, (k0_off164 k0_t4 (BitVec.ofNat 32 r.val)) a + S1x16.size a ≤ S32x1024.size a
  k0_off165_inb : ∀ k0_t4 : Fin k0_t4_loop.trips, ∀ (r : Fin 2), ∀ a, (k0_off165 k0_t4 (BitVec.ofNat 32 r.val)) a + S1x16.size a ≤ S32x1024.size a
  k0_off166_inb : ∀ k0_t4 : Fin k0_t4_loop.trips, ∀ (r : Fin 2), ∀ a, (k0_off166 k0_t4 (BitVec.ofNat 32 r.val)) a + S1x16.size a ≤ S32x1024.size a
  k0_off167_inb : ∀ k0_t4 : Fin k0_t4_loop.trips, ∀ (r : Fin 2), ∀ a, (k0_off167 k0_t4 (BitVec.ofNat 32 r.val)) a + S1x16.size a ≤ S32x1024.size a
  k0_off168_inb : ∀ k0_t4 : Fin k0_t4_loop.trips, ∀ (r : Fin 2), ∀ a, (k0_off168 k0_t4 (BitVec.ofNat 32 r.val)) a + S1x16.size a ≤ S32x1024.size a
  k0_off169_inb : ∀ k0_t4 : Fin k0_t4_loop.trips, ∀ (r : Fin 2), ∀ a, (k0_off169 k0_t4 (BitVec.ofNat 32 r.val)) a + S1x16.size a ≤ S32x1024.size a
  k0_off170_inb : ∀ k0_t4 : Fin k0_t4_loop.trips, ∀ (r : Fin 2), ∀ a, (k0_off170 k0_t4 (BitVec.ofNat 32 r.val)) a + S1x16.size a ≤ S32x1024.size a
  k0_off171_inb : ∀ k0_t4 : Fin k0_t4_loop.trips, ∀ (r : Fin 2), ∀ a, (k0_off171 k0_t4 (BitVec.ofNat 32 r.val)) a + S1x16.size a ≤ S32x1024.size a
  k0_off172_inb : ∀ k0_t4 : Fin k0_t4_loop.trips, ∀ (r : Fin 2), ∀ a, (k0_off172 k0_t4 (BitVec.ofNat 32 r.val)) a + S1x16.size a ≤ S32x1024.size a
  k0_off173_inb : ∀ k0_t4 : Fin k0_t4_loop.trips, ∀ (r : Fin 2), ∀ a, (k0_off173 k0_t4 (BitVec.ofNat 32 r.val)) a + S1x16.size a ≤ S32x1024.size a
  k0_off174_inb : ∀ k0_t4 : Fin k0_t4_loop.trips, ∀ (r : Fin 2), ∀ a, (k0_off174 k0_t4 (BitVec.ofNat 32 r.val)) a + S1x16.size a ≤ S32x1024.size a
  k0_off175_inb : ∀ k0_t4 : Fin k0_t4_loop.trips, ∀ (r : Fin 2), ∀ a, (k0_off175 k0_t4 (BitVec.ofNat 32 r.val)) a + S1x16.size a ≤ S32x1024.size a
  k0_off176_inb : ∀ k0_t4 : Fin k0_t4_loop.trips, ∀ (r : Fin 2), ∀ a, (k0_off176 k0_t4 (BitVec.ofNat 32 r.val)) a + S1x16.size a ≤ S32x1024.size a
  k0_off177_inb : ∀ k0_t4 : Fin k0_t4_loop.trips, ∀ (r : Fin 2), ∀ a, (k0_off177 k0_t4 (BitVec.ofNat 32 r.val)) a + S1x16.size a ≤ S32x1024.size a
  k0_off178_inb : ∀ k0_t4 : Fin k0_t4_loop.trips, ∀ (r : Fin 2), ∀ a, (k0_off178 k0_t4 (BitVec.ofNat 32 r.val)) a + S1x16.size a ≤ S32x1024.size a
  k0_off179_inb : ∀ k0_t4 : Fin k0_t4_loop.trips, ∀ (r : Fin 2), ∀ a, (k0_off179 k0_t4 (BitVec.ofNat 32 r.val)) a + S1x16.size a ≤ S32x1024.size a
  k0_off180_inb : ∀ k0_t4 : Fin k0_t4_loop.trips, ∀ (r : Fin 2), ∀ a, (k0_off180 k0_t4 (BitVec.ofNat 32 r.val)) a + S1x16.size a ≤ S32x1024.size a
  k0_off181_inb : ∀ k0_t4 : Fin k0_t4_loop.trips, ∀ (r : Fin 2), ∀ a, (k0_off181 k0_t4 (BitVec.ofNat 32 r.val)) a + S1x16.size a ≤ S32x1024.size a
  k0_off182_inb : ∀ k0_t4 : Fin k0_t4_loop.trips, ∀ (r : Fin 2), ∀ a, (k0_off182 k0_t4 (BitVec.ofNat 32 r.val)) a + S1x16.size a ≤ S32x1024.size a
  k0_off183_inb : ∀ k0_t4 : Fin k0_t4_loop.trips, ∀ (r : Fin 2), ∀ a, (k0_off183 k0_t4 (BitVec.ofNat 32 r.val)) a + S1x16.size a ≤ S32x1024.size a
  k0_off184_inb : ∀ k0_t4 : Fin k0_t4_loop.trips, ∀ (r : Fin 2), ∀ a, (k0_off184 k0_t4 (BitVec.ofNat 32 r.val)) a + S1x16.size a ≤ S32x1024.size a
  k0_off185_inb : ∀ k0_t4 : Fin k0_t4_loop.trips, ∀ (r : Fin 2), ∀ a, (k0_off185 k0_t4 (BitVec.ofNat 32 r.val)) a + S1x16.size a ≤ S32x1024.size a
  k0_off186_inb : ∀ k0_t4 : Fin k0_t4_loop.trips, ∀ (r : Fin 2), ∀ a, (k0_off186 k0_t4 (BitVec.ofNat 32 r.val)) a + S1x16.size a ≤ S32x1024.size a
  k0_off187_inb : ∀ k0_t4 : Fin k0_t4_loop.trips, ∀ (r : Fin 2), ∀ a, (k0_off187 k0_t4 (BitVec.ofNat 32 r.val)) a + S1x16.size a ≤ S32x1024.size a
  k0_off188_inb : ∀ k0_t4 : Fin k0_t4_loop.trips, ∀ (r : Fin 2), ∀ a, (k0_off188 k0_t4 (BitVec.ofNat 32 r.val)) a + S1x16.size a ≤ S32x1024.size a
  k0_off189_inb : ∀ k0_t4 : Fin k0_t4_loop.trips, ∀ (r : Fin 2), ∀ a, (k0_off189 k0_t4 (BitVec.ofNat 32 r.val)) a + S1x16.size a ≤ S32x1024.size a
  k0_off190_inb : ∀ k0_t4 : Fin k0_t4_loop.trips, ∀ (r : Fin 2), ∀ a, (k0_off190 k0_t4 (BitVec.ofNat 32 r.val)) a + S1x16.size a ≤ S32x1024.size a
  k0_off191_inb : ∀ k0_t4 : Fin k0_t4_loop.trips, ∀ (r : Fin 2), ∀ a, (k0_off191 k0_t4 (BitVec.ofNat 32 r.val)) a + S1x16.size a ≤ S32x1024.size a
  k0_off192_inb : ∀ k0_t4 : Fin k0_t4_loop.trips, ∀ (r : Fin 2), ∀ a, (k0_off192 k0_t4 (BitVec.ofNat 32 r.val)) a + S1x16.size a ≤ S32x1024.size a
  k0_off193_inb : ∀ k0_t4 : Fin k0_t4_loop.trips, ∀ (r : Fin 2), ∀ a, (k0_off193 k0_t4 (BitVec.ofNat 32 r.val)) a + S1x16.size a ≤ S32x1024.size a
  k0_off194_inb : ∀ k0_t4 : Fin k0_t4_loop.trips, ∀ (r : Fin 2), ∀ a, (k0_off194 k0_t4 (BitVec.ofNat 32 r.val)) a + S1x16.size a ≤ S32x1024.size a
  k0_off195_inb : ∀ k0_t4 : Fin k0_t4_loop.trips, ∀ (r : Fin 2), ∀ a, (k0_off195 k0_t4 (BitVec.ofNat 32 r.val)) a + S1x16.size a ≤ S32x1024.size a
  k0_off196_inb : ∀ k0_t4 : Fin k0_t4_loop.trips, ∀ (r : Fin 2), ∀ a, (k0_off196 k0_t4 (BitVec.ofNat 32 r.val)) a + S1x16.size a ≤ S32x1024.size a
  k0_off197_inb : ∀ k0_t4 : Fin k0_t4_loop.trips, ∀ (r : Fin 2), ∀ a, (k0_off197 k0_t4 (BitVec.ofNat 32 r.val)) a + S1x16.size a ≤ S32x1024.size a
  k0_off198_inb : ∀ k0_t4 : Fin k0_t4_loop.trips, ∀ (r : Fin 2), ∀ a, (k0_off198 k0_t4 (BitVec.ofNat 32 r.val)) a + S1x16.size a ≤ S32x1024.size a
  k0_off199_inb : ∀ k0_t4 : Fin k0_t4_loop.trips, ∀ (r : Fin 2), ∀ a, (k0_off199 k0_t4 (BitVec.ofNat 32 r.val)) a + S1x16.size a ≤ S32x1024.size a
  k0_off200_inb : ∀ k0_t4 : Fin k0_t4_loop.trips, ∀ (r : Fin 2), ∀ a, (k0_off200 k0_t4 (BitVec.ofNat 32 r.val)) a + S1x16.size a ≤ S32x1024.size a
  k0_off201_inb : ∀ k0_t4 : Fin k0_t4_loop.trips, ∀ (r : Fin 2), ∀ a, (k0_off201 k0_t4 (BitVec.ofNat 32 r.val)) a + S1x16.size a ≤ S32x1024.size a
  k0_off202_inb : ∀ k0_t4 : Fin k0_t4_loop.trips, ∀ (r : Fin 2), ∀ a, (k0_off202 k0_t4 (BitVec.ofNat 32 r.val)) a + S1x16.size a ≤ S32x1024.size a
  k0_off203_inb : ∀ (i : grid0.Coords) (k0_t1 : Fin k0_t1_loop.trips), ∀ (k0_h5 : k0_cond5 k0_t1 = 1#1), ∀ a, (k0_off203 i k0_t1) a + S32x1024.size a ≤ S32768x1024.size a
  k0_off204_inb : ∀ (i : grid0.Coords) (k0_t1 : Fin k0_t1_loop.trips), ∀ (k0_h6 : k0_cond6 k0_t1 = 1#1), ∀ a, (k0_off204 i k0_t1) a + S32x1024.size a ≤ S32768x1024.size a
  k0_t5_ok : k0_t5_loop.OK
  k0_off205_inb : ∀ k0_t5 : Fin k0_t5_loop.trips, ∀ (r : Fin 2), ∀ a, (k0_off205 k0_t5 (BitVec.ofNat 32 r.val)) a + S1x16.size a ≤ S128x128.size a
  k0_off206_inb : ∀ k0_t5 : Fin k0_t5_loop.trips, ∀ (r : Fin 2), ∀ a, (k0_off206 k0_t5 (BitVec.ofNat 32 r.val)) a + S1x16.size a ≤ S32x1024.size a
  k0_off207_inb : ∀ k0_t5 : Fin k0_t5_loop.trips, ∀ (r : Fin 2), ∀ a, (k0_off207 k0_t5 (BitVec.ofNat 32 r.val)) a + S1x16.size a ≤ S32x1024.size a
  k0_off208_inb : ∀ k0_t5 : Fin k0_t5_loop.trips, ∀ (r : Fin 2), ∀ a, (k0_off208 k0_t5 (BitVec.ofNat 32 r.val)) a + S1x16.size a ≤ S32x1024.size a
  k0_off209_inb : ∀ k0_t5 : Fin k0_t5_loop.trips, ∀ (r : Fin 2), ∀ a, (k0_off209 k0_t5 (BitVec.ofNat 32 r.val)) a + S1x16.size a ≤ S32x1024.size a
  k0_off210_inb : ∀ k0_t5 : Fin k0_t5_loop.trips, ∀ (r : Fin 2), ∀ a, (k0_off210 k0_t5 (BitVec.ofNat 32 r.val)) a + S1x16.size a ≤ S32x1024.size a
  k0_off211_inb : ∀ k0_t5 : Fin k0_t5_loop.trips, ∀ (r : Fin 2), ∀ a, (k0_off211 k0_t5 (BitVec.ofNat 32 r.val)) a + S1x16.size a ≤ S32x1024.size a
  k0_off212_inb : ∀ k0_t5 : Fin k0_t5_loop.trips, ∀ (r : Fin 2), ∀ a, (k0_off212 k0_t5 (BitVec.ofNat 32 r.val)) a + S1x16.size a ≤ S32x1024.size a
  k0_off213_inb : ∀ k0_t5 : Fin k0_t5_loop.trips, ∀ (r : Fin 2), ∀ a, (k0_off213 k0_t5 (BitVec.ofNat 32 r.val)) a + S1x16.size a ≤ S32x1024.size a
  k0_off214_inb : ∀ k0_t5 : Fin k0_t5_loop.trips, ∀ (r : Fin 2), ∀ a, (k0_off214 k0_t5 (BitVec.ofNat 32 r.val)) a + S1x16.size a ≤ S32x1024.size a
  k0_off215_inb : ∀ k0_t5 : Fin k0_t5_loop.trips, ∀ (r : Fin 2), ∀ a, (k0_off215 k0_t5 (BitVec.ofNat 32 r.val)) a + S1x16.size a ≤ S32x1024.size a
  k0_off216_inb : ∀ k0_t5 : Fin k0_t5_loop.trips, ∀ (r : Fin 2), ∀ a, (k0_off216 k0_t5 (BitVec.ofNat 32 r.val)) a + S1x16.size a ≤ S32x1024.size a
  k0_off217_inb : ∀ k0_t5 : Fin k0_t5_loop.trips, ∀ (r : Fin 2), ∀ a, (k0_off217 k0_t5 (BitVec.ofNat 32 r.val)) a + S1x16.size a ≤ S32x1024.size a
  k0_off218_inb : ∀ k0_t5 : Fin k0_t5_loop.trips, ∀ (r : Fin 2), ∀ a, (k0_off218 k0_t5 (BitVec.ofNat 32 r.val)) a + S1x16.size a ≤ S32x1024.size a
  k0_off219_inb : ∀ k0_t5 : Fin k0_t5_loop.trips, ∀ (r : Fin 2), ∀ a, (k0_off219 k0_t5 (BitVec.ofNat 32 r.val)) a + S1x16.size a ≤ S32x1024.size a
  k0_off220_inb : ∀ k0_t5 : Fin k0_t5_loop.trips, ∀ (r : Fin 2), ∀ a, (k0_off220 k0_t5 (BitVec.ofNat 32 r.val)) a + S1x16.size a ≤ S32x1024.size a
  k0_off221_inb : ∀ k0_t5 : Fin k0_t5_loop.trips, ∀ (r : Fin 2), ∀ a, (k0_off221 k0_t5 (BitVec.ofNat 32 r.val)) a + S1x16.size a ≤ S32x1024.size a
  k0_off222_inb : ∀ k0_t5 : Fin k0_t5_loop.trips, ∀ (r : Fin 2), ∀ a, (k0_off222 k0_t5 (BitVec.ofNat 32 r.val)) a + S1x16.size a ≤ S32x1024.size a
  k0_off223_inb : ∀ k0_t5 : Fin k0_t5_loop.trips, ∀ (r : Fin 2), ∀ a, (k0_off223 k0_t5 (BitVec.ofNat 32 r.val)) a + S1x16.size a ≤ S32x1024.size a
  k0_off224_inb : ∀ k0_t5 : Fin k0_t5_loop.trips, ∀ (r : Fin 2), ∀ a, (k0_off224 k0_t5 (BitVec.ofNat 32 r.val)) a + S1x16.size a ≤ S32x1024.size a
  k0_off225_inb : ∀ k0_t5 : Fin k0_t5_loop.trips, ∀ (r : Fin 2), ∀ a, (k0_off225 k0_t5 (BitVec.ofNat 32 r.val)) a + S1x16.size a ≤ S32x1024.size a
  k0_off226_inb : ∀ k0_t5 : Fin k0_t5_loop.trips, ∀ (r : Fin 2), ∀ a, (k0_off226 k0_t5 (BitVec.ofNat 32 r.val)) a + S1x16.size a ≤ S32x1024.size a
  k0_off227_inb : ∀ k0_t5 : Fin k0_t5_loop.trips, ∀ (r : Fin 2), ∀ a, (k0_off227 k0_t5 (BitVec.ofNat 32 r.val)) a + S1x16.size a ≤ S32x1024.size a
  k0_off228_inb : ∀ k0_t5 : Fin k0_t5_loop.trips, ∀ (r : Fin 2), ∀ a, (k0_off228 k0_t5 (BitVec.ofNat 32 r.val)) a + S1x16.size a ≤ S32x1024.size a
  k0_off229_inb : ∀ k0_t5 : Fin k0_t5_loop.trips, ∀ (r : Fin 2), ∀ a, (k0_off229 k0_t5 (BitVec.ofNat 32 r.val)) a + S1x16.size a ≤ S32x1024.size a
  k0_off230_inb : ∀ k0_t5 : Fin k0_t5_loop.trips, ∀ (r : Fin 2), ∀ a, (k0_off230 k0_t5 (BitVec.ofNat 32 r.val)) a + S1x16.size a ≤ S32x1024.size a
  k0_off231_inb : ∀ k0_t5 : Fin k0_t5_loop.trips, ∀ (r : Fin 2), ∀ a, (k0_off231 k0_t5 (BitVec.ofNat 32 r.val)) a + S1x16.size a ≤ S32x1024.size a
  k0_off232_inb : ∀ k0_t5 : Fin k0_t5_loop.trips, ∀ (r : Fin 2), ∀ a, (k0_off232 k0_t5 (BitVec.ofNat 32 r.val)) a + S1x16.size a ≤ S32x1024.size a
  k0_off233_inb : ∀ k0_t5 : Fin k0_t5_loop.trips, ∀ (r : Fin 2), ∀ a, (k0_off233 k0_t5 (BitVec.ofNat 32 r.val)) a + S1x16.size a ≤ S32x1024.size a
  k0_off234_inb : ∀ k0_t5 : Fin k0_t5_loop.trips, ∀ (r : Fin 2), ∀ a, (k0_off234 k0_t5 (BitVec.ofNat 32 r.val)) a + S1x16.size a ≤ S32x1024.size a
  k0_off235_inb : ∀ k0_t5 : Fin k0_t5_loop.trips, ∀ (r : Fin 2), ∀ a, (k0_off235 k0_t5 (BitVec.ofNat 32 r.val)) a + S1x16.size a ≤ S32x1024.size a
  k0_off236_inb : ∀ k0_t5 : Fin k0_t5_loop.trips, ∀ (r : Fin 2), ∀ a, (k0_off236 k0_t5 (BitVec.ofNat 32 r.val)) a + S1x16.size a ≤ S32x1024.size a
  k0_off237_inb : ∀ k0_t5 : Fin k0_t5_loop.trips, ∀ (r : Fin 2), ∀ a, (k0_off237 k0_t5 (BitVec.ofNat 32 r.val)) a + S1x16.size a ≤ S32x1024.size a
  k0_off238_inb : ∀ k0_t5 : Fin k0_t5_loop.trips, ∀ (r : Fin 2), ∀ a, (k0_off238 k0_t5 (BitVec.ofNat 32 r.val)) a + S1x16.size a ≤ S32x1024.size a
  k0_off239_inb : ∀ k0_t5 : Fin k0_t5_loop.trips, ∀ (r : Fin 2), ∀ a, (k0_off239 k0_t5 (BitVec.ofNat 32 r.val)) a + S1x16.size a ≤ S32x1024.size a
  k0_off240_inb : ∀ k0_t5 : Fin k0_t5_loop.trips, ∀ (r : Fin 2), ∀ a, (k0_off240 k0_t5 (BitVec.ofNat 32 r.val)) a + S1x16.size a ≤ S32x1024.size a
  k0_off241_inb : ∀ k0_t5 : Fin k0_t5_loop.trips, ∀ (r : Fin 2), ∀ a, (k0_off241 k0_t5 (BitVec.ofNat 32 r.val)) a + S1x16.size a ≤ S32x1024.size a
  k0_off242_inb : ∀ k0_t5 : Fin k0_t5_loop.trips, ∀ (r : Fin 2), ∀ a, (k0_off242 k0_t5 (BitVec.ofNat 32 r.val)) a + S1x16.size a ≤ S32x1024.size a
  k0_off243_inb : ∀ k0_t5 : Fin k0_t5_loop.trips, ∀ (r : Fin 2), ∀ a, (k0_off243 k0_t5 (BitVec.ofNat 32 r.val)) a + S1x16.size a ≤ S32x1024.size a
  k0_off244_inb : ∀ k0_t5 : Fin k0_t5_loop.trips, ∀ (r : Fin 2), ∀ a, (k0_off244 k0_t5 (BitVec.ofNat 32 r.val)) a + S1x16.size a ≤ S32x1024.size a
  k0_off245_inb : ∀ k0_t5 : Fin k0_t5_loop.trips, ∀ (r : Fin 2), ∀ a, (k0_off245 k0_t5 (BitVec.ofNat 32 r.val)) a + S1x16.size a ≤ S32x1024.size a
  k0_off246_inb : ∀ k0_t5 : Fin k0_t5_loop.trips, ∀ (r : Fin 2), ∀ a, (k0_off246 k0_t5 (BitVec.ofNat 32 r.val)) a + S1x16.size a ≤ S32x1024.size a
  k0_off247_inb : ∀ k0_t5 : Fin k0_t5_loop.trips, ∀ (r : Fin 2), ∀ a, (k0_off247 k0_t5 (BitVec.ofNat 32 r.val)) a + S1x16.size a ≤ S32x1024.size a
  k0_off248_inb : ∀ k0_t5 : Fin k0_t5_loop.trips, ∀ (r : Fin 2), ∀ a, (k0_off248 k0_t5 (BitVec.ofNat 32 r.val)) a + S1x16.size a ≤ S32x1024.size a
  k0_off249_inb : ∀ k0_t5 : Fin k0_t5_loop.trips, ∀ (r : Fin 2), ∀ a, (k0_off249 k0_t5 (BitVec.ofNat 32 r.val)) a + S1x16.size a ≤ S32x1024.size a
  k0_off250_inb : ∀ k0_t5 : Fin k0_t5_loop.trips, ∀ (r : Fin 2), ∀ a, (k0_off250 k0_t5 (BitVec.ofNat 32 r.val)) a + S1x16.size a ≤ S32x1024.size a
  k0_off251_inb : ∀ k0_t5 : Fin k0_t5_loop.trips, ∀ (r : Fin 2), ∀ a, (k0_off251 k0_t5 (BitVec.ofNat 32 r.val)) a + S1x16.size a ≤ S32x1024.size a
  k0_off252_inb : ∀ k0_t5 : Fin k0_t5_loop.trips, ∀ (r : Fin 2), ∀ a, (k0_off252 k0_t5 (BitVec.ofNat 32 r.val)) a + S1x16.size a ≤ S32x1024.size a
  k0_off253_inb : ∀ k0_t5 : Fin k0_t5_loop.trips, ∀ (r : Fin 2), ∀ a, (k0_off253 k0_t5 (BitVec.ofNat 32 r.val)) a + S1x16.size a ≤ S32x1024.size a
  k0_off254_inb : ∀ k0_t5 : Fin k0_t5_loop.trips, ∀ (r : Fin 2), ∀ a, (k0_off254 k0_t5 (BitVec.ofNat 32 r.val)) a + S1x16.size a ≤ S32x1024.size a
  k0_off255_inb : ∀ k0_t5 : Fin k0_t5_loop.trips, ∀ (r : Fin 2), ∀ a, (k0_off255 k0_t5 (BitVec.ofNat 32 r.val)) a + S1x16.size a ≤ S32x1024.size a
  k0_off256_inb : ∀ k0_t5 : Fin k0_t5_loop.trips, ∀ (r : Fin 2), ∀ a, (k0_off256 k0_t5 (BitVec.ofNat 32 r.val)) a + S1x16.size a ≤ S32x1024.size a
  k0_off257_inb : ∀ k0_t5 : Fin k0_t5_loop.trips, ∀ (r : Fin 2), ∀ a, (k0_off257 k0_t5 (BitVec.ofNat 32 r.val)) a + S1x16.size a ≤ S32x1024.size a
  k0_off258_inb : ∀ k0_t5 : Fin k0_t5_loop.trips, ∀ (r : Fin 2), ∀ a, (k0_off258 k0_t5 (BitVec.ofNat 32 r.val)) a + S1x16.size a ≤ S32x1024.size a
  k0_off259_inb : ∀ k0_t5 : Fin k0_t5_loop.trips, ∀ (r : Fin 2), ∀ a, (k0_off259 k0_t5 (BitVec.ofNat 32 r.val)) a + S1x16.size a ≤ S32x1024.size a
  k0_off260_inb : ∀ k0_t5 : Fin k0_t5_loop.trips, ∀ (r : Fin 2), ∀ a, (k0_off260 k0_t5 (BitVec.ofNat 32 r.val)) a + S1x16.size a ≤ S32x1024.size a
  k0_off261_inb : ∀ k0_t5 : Fin k0_t5_loop.trips, ∀ (r : Fin 2), ∀ a, (k0_off261 k0_t5 (BitVec.ofNat 32 r.val)) a + S1x16.size a ≤ S32x1024.size a
  k0_off262_inb : ∀ k0_t5 : Fin k0_t5_loop.trips, ∀ (r : Fin 2), ∀ a, (k0_off262 k0_t5 (BitVec.ofNat 32 r.val)) a + S1x16.size a ≤ S32x1024.size a
  k0_off263_inb : ∀ k0_t5 : Fin k0_t5_loop.trips, ∀ (r : Fin 2), ∀ a, (k0_off263 k0_t5 (BitVec.ofNat 32 r.val)) a + S1x16.size a ≤ S32x1024.size a
  k0_off264_inb : ∀ k0_t5 : Fin k0_t5_loop.trips, ∀ (r : Fin 2), ∀ a, (k0_off264 k0_t5 (BitVec.ofNat 32 r.val)) a + S1x16.size a ≤ S32x1024.size a
  k0_off265_inb : ∀ k0_t5 : Fin k0_t5_loop.trips, ∀ (r : Fin 2), ∀ a, (k0_off265 k0_t5 (BitVec.ofNat 32 r.val)) a + S1x16.size a ≤ S32x1024.size a
  k0_off266_inb : ∀ k0_t5 : Fin k0_t5_loop.trips, ∀ (r : Fin 2), ∀ a, (k0_off266 k0_t5 (BitVec.ofNat 32 r.val)) a + S1x16.size a ≤ S32x1024.size a
  k0_off267_inb : ∀ k0_t5 : Fin k0_t5_loop.trips, ∀ (r : Fin 2), ∀ a, (k0_off267 k0_t5 (BitVec.ofNat 32 r.val)) a + S1x16.size a ≤ S32x1024.size a
  k0_off268_inb : ∀ k0_t5 : Fin k0_t5_loop.trips, ∀ (r : Fin 2), ∀ a, (k0_off268 k0_t5 (BitVec.ofNat 32 r.val)) a + S1x16.size a ≤ S32x1024.size a
  k0_off269_inb : ∀ k0_t5 : Fin k0_t5_loop.trips, ∀ (r : Fin 2), ∀ a, (k0_off269 k0_t5 (BitVec.ofNat 32 r.val)) a + S1x16.size a ≤ S32x1024.size a
  k0_off270_inb : ∀ i : grid0.Coords, ∀ (k0_h7 : k0_cond7 = 1#1), ∀ a, (k0_off270 i) a + S32x1024.size a ≤ S32768x1024.size a
  k0_t6_ok : k0_t6_loop.OK
  k0_off271_inb : ∀ k0_t6 : Fin k0_t6_loop.trips, ∀ (r : Fin 2), ∀ a, (k0_off271 k0_t6 (BitVec.ofNat 32 r.val)) a + S1x16.size a ≤ S128x128.size a
  k0_off272_inb : ∀ k0_t6 : Fin k0_t6_loop.trips, ∀ (r : Fin 2), ∀ a, (k0_off272 k0_t6 (BitVec.ofNat 32 r.val)) a + S1x16.size a ≤ S32x1024.size a
  k0_off273_inb : ∀ k0_t6 : Fin k0_t6_loop.trips, ∀ (r : Fin 2), ∀ a, (k0_off273 k0_t6 (BitVec.ofNat 32 r.val)) a + S1x16.size a ≤ S32x1024.size a
  k0_off274_inb : ∀ k0_t6 : Fin k0_t6_loop.trips, ∀ (r : Fin 2), ∀ a, (k0_off274 k0_t6 (BitVec.ofNat 32 r.val)) a + S1x16.size a ≤ S32x1024.size a
  k0_off275_inb : ∀ k0_t6 : Fin k0_t6_loop.trips, ∀ (r : Fin 2), ∀ a, (k0_off275 k0_t6 (BitVec.ofNat 32 r.val)) a + S1x16.size a ≤ S32x1024.size a
  k0_off276_inb : ∀ k0_t6 : Fin k0_t6_loop.trips, ∀ (r : Fin 2), ∀ a, (k0_off276 k0_t6 (BitVec.ofNat 32 r.val)) a + S1x16.size a ≤ S32x1024.size a
  k0_off277_inb : ∀ k0_t6 : Fin k0_t6_loop.trips, ∀ (r : Fin 2), ∀ a, (k0_off277 k0_t6 (BitVec.ofNat 32 r.val)) a + S1x16.size a ≤ S32x1024.size a
  k0_off278_inb : ∀ k0_t6 : Fin k0_t6_loop.trips, ∀ (r : Fin 2), ∀ a, (k0_off278 k0_t6 (BitVec.ofNat 32 r.val)) a + S1x16.size a ≤ S32x1024.size a
  k0_off279_inb : ∀ k0_t6 : Fin k0_t6_loop.trips, ∀ (r : Fin 2), ∀ a, (k0_off279 k0_t6 (BitVec.ofNat 32 r.val)) a + S1x16.size a ≤ S32x1024.size a
  k0_off280_inb : ∀ k0_t6 : Fin k0_t6_loop.trips, ∀ (r : Fin 2), ∀ a, (k0_off280 k0_t6 (BitVec.ofNat 32 r.val)) a + S1x16.size a ≤ S32x1024.size a
  k0_off281_inb : ∀ k0_t6 : Fin k0_t6_loop.trips, ∀ (r : Fin 2), ∀ a, (k0_off281 k0_t6 (BitVec.ofNat 32 r.val)) a + S1x16.size a ≤ S32x1024.size a
  k0_off282_inb : ∀ k0_t6 : Fin k0_t6_loop.trips, ∀ (r : Fin 2), ∀ a, (k0_off282 k0_t6 (BitVec.ofNat 32 r.val)) a + S1x16.size a ≤ S32x1024.size a
  k0_off283_inb : ∀ k0_t6 : Fin k0_t6_loop.trips, ∀ (r : Fin 2), ∀ a, (k0_off283 k0_t6 (BitVec.ofNat 32 r.val)) a + S1x16.size a ≤ S32x1024.size a
  k0_off284_inb : ∀ k0_t6 : Fin k0_t6_loop.trips, ∀ (r : Fin 2), ∀ a, (k0_off284 k0_t6 (BitVec.ofNat 32 r.val)) a + S1x16.size a ≤ S32x1024.size a
  k0_off285_inb : ∀ k0_t6 : Fin k0_t6_loop.trips, ∀ (r : Fin 2), ∀ a, (k0_off285 k0_t6 (BitVec.ofNat 32 r.val)) a + S1x16.size a ≤ S32x1024.size a
  k0_off286_inb : ∀ k0_t6 : Fin k0_t6_loop.trips, ∀ (r : Fin 2), ∀ a, (k0_off286 k0_t6 (BitVec.ofNat 32 r.val)) a + S1x16.size a ≤ S32x1024.size a
  k0_off287_inb : ∀ k0_t6 : Fin k0_t6_loop.trips, ∀ (r : Fin 2), ∀ a, (k0_off287 k0_t6 (BitVec.ofNat 32 r.val)) a + S1x16.size a ≤ S32x1024.size a
  k0_off288_inb : ∀ k0_t6 : Fin k0_t6_loop.trips, ∀ (r : Fin 2), ∀ a, (k0_off288 k0_t6 (BitVec.ofNat 32 r.val)) a + S1x16.size a ≤ S32x1024.size a
  k0_off289_inb : ∀ k0_t6 : Fin k0_t6_loop.trips, ∀ (r : Fin 2), ∀ a, (k0_off289 k0_t6 (BitVec.ofNat 32 r.val)) a + S1x16.size a ≤ S32x1024.size a
  k0_off290_inb : ∀ k0_t6 : Fin k0_t6_loop.trips, ∀ (r : Fin 2), ∀ a, (k0_off290 k0_t6 (BitVec.ofNat 32 r.val)) a + S1x16.size a ≤ S32x1024.size a
  k0_off291_inb : ∀ k0_t6 : Fin k0_t6_loop.trips, ∀ (r : Fin 2), ∀ a, (k0_off291 k0_t6 (BitVec.ofNat 32 r.val)) a + S1x16.size a ≤ S32x1024.size a
  k0_off292_inb : ∀ k0_t6 : Fin k0_t6_loop.trips, ∀ (r : Fin 2), ∀ a, (k0_off292 k0_t6 (BitVec.ofNat 32 r.val)) a + S1x16.size a ≤ S32x1024.size a
  k0_off293_inb : ∀ k0_t6 : Fin k0_t6_loop.trips, ∀ (r : Fin 2), ∀ a, (k0_off293 k0_t6 (BitVec.ofNat 32 r.val)) a + S1x16.size a ≤ S32x1024.size a
  k0_off294_inb : ∀ k0_t6 : Fin k0_t6_loop.trips, ∀ (r : Fin 2), ∀ a, (k0_off294 k0_t6 (BitVec.ofNat 32 r.val)) a + S1x16.size a ≤ S32x1024.size a
  k0_off295_inb : ∀ k0_t6 : Fin k0_t6_loop.trips, ∀ (r : Fin 2), ∀ a, (k0_off295 k0_t6 (BitVec.ofNat 32 r.val)) a + S1x16.size a ≤ S32x1024.size a
  k0_off296_inb : ∀ k0_t6 : Fin k0_t6_loop.trips, ∀ (r : Fin 2), ∀ a, (k0_off296 k0_t6 (BitVec.ofNat 32 r.val)) a + S1x16.size a ≤ S32x1024.size a
  k0_off297_inb : ∀ k0_t6 : Fin k0_t6_loop.trips, ∀ (r : Fin 2), ∀ a, (k0_off297 k0_t6 (BitVec.ofNat 32 r.val)) a + S1x16.size a ≤ S32x1024.size a
  k0_off298_inb : ∀ k0_t6 : Fin k0_t6_loop.trips, ∀ (r : Fin 2), ∀ a, (k0_off298 k0_t6 (BitVec.ofNat 32 r.val)) a + S1x16.size a ≤ S32x1024.size a
  k0_off299_inb : ∀ k0_t6 : Fin k0_t6_loop.trips, ∀ (r : Fin 2), ∀ a, (k0_off299 k0_t6 (BitVec.ofNat 32 r.val)) a + S1x16.size a ≤ S32x1024.size a
  k0_off300_inb : ∀ k0_t6 : Fin k0_t6_loop.trips, ∀ (r : Fin 2), ∀ a, (k0_off300 k0_t6 (BitVec.ofNat 32 r.val)) a + S1x16.size a ≤ S32x1024.size a
  k0_off301_inb : ∀ k0_t6 : Fin k0_t6_loop.trips, ∀ (r : Fin 2), ∀ a, (k0_off301 k0_t6 (BitVec.ofNat 32 r.val)) a + S1x16.size a ≤ S32x1024.size a
  k0_off302_inb : ∀ k0_t6 : Fin k0_t6_loop.trips, ∀ (r : Fin 2), ∀ a, (k0_off302 k0_t6 (BitVec.ofNat 32 r.val)) a + S1x16.size a ≤ S32x1024.size a
  k0_off303_inb : ∀ k0_t6 : Fin k0_t6_loop.trips, ∀ (r : Fin 2), ∀ a, (k0_off303 k0_t6 (BitVec.ofNat 32 r.val)) a + S1x16.size a ≤ S32x1024.size a
  k0_off304_inb : ∀ k0_t6 : Fin k0_t6_loop.trips, ∀ (r : Fin 2), ∀ a, (k0_off304 k0_t6 (BitVec.ofNat 32 r.val)) a + S1x16.size a ≤ S32x1024.size a
  k0_off305_inb : ∀ k0_t6 : Fin k0_t6_loop.trips, ∀ (r : Fin 2), ∀ a, (k0_off305 k0_t6 (BitVec.ofNat 32 r.val)) a + S1x16.size a ≤ S32x1024.size a
  k0_off306_inb : ∀ k0_t6 : Fin k0_t6_loop.trips, ∀ (r : Fin 2), ∀ a, (k0_off306 k0_t6 (BitVec.ofNat 32 r.val)) a + S1x16.size a ≤ S32x1024.size a
  k0_off307_inb : ∀ k0_t6 : Fin k0_t6_loop.trips, ∀ (r : Fin 2), ∀ a, (k0_off307 k0_t6 (BitVec.ofNat 32 r.val)) a + S1x16.size a ≤ S32x1024.size a
  k0_off308_inb : ∀ k0_t6 : Fin k0_t6_loop.trips, ∀ (r : Fin 2), ∀ a, (k0_off308 k0_t6 (BitVec.ofNat 32 r.val)) a + S1x16.size a ≤ S32x1024.size a
  k0_off309_inb : ∀ k0_t6 : Fin k0_t6_loop.trips, ∀ (r : Fin 2), ∀ a, (k0_off309 k0_t6 (BitVec.ofNat 32 r.val)) a + S1x16.size a ≤ S32x1024.size a
  k0_off310_inb : ∀ k0_t6 : Fin k0_t6_loop.trips, ∀ (r : Fin 2), ∀ a, (k0_off310 k0_t6 (BitVec.ofNat 32 r.val)) a + S1x16.size a ≤ S32x1024.size a
  k0_off311_inb : ∀ k0_t6 : Fin k0_t6_loop.trips, ∀ (r : Fin 2), ∀ a, (k0_off311 k0_t6 (BitVec.ofNat 32 r.val)) a + S1x16.size a ≤ S32x1024.size a
  k0_off312_inb : ∀ k0_t6 : Fin k0_t6_loop.trips, ∀ (r : Fin 2), ∀ a, (k0_off312 k0_t6 (BitVec.ofNat 32 r.val)) a + S1x16.size a ≤ S32x1024.size a
  k0_off313_inb : ∀ k0_t6 : Fin k0_t6_loop.trips, ∀ (r : Fin 2), ∀ a, (k0_off313 k0_t6 (BitVec.ofNat 32 r.val)) a + S1x16.size a ≤ S32x1024.size a
  k0_off314_inb : ∀ k0_t6 : Fin k0_t6_loop.trips, ∀ (r : Fin 2), ∀ a, (k0_off314 k0_t6 (BitVec.ofNat 32 r.val)) a + S1x16.size a ≤ S32x1024.size a
  k0_off315_inb : ∀ k0_t6 : Fin k0_t6_loop.trips, ∀ (r : Fin 2), ∀ a, (k0_off315 k0_t6 (BitVec.ofNat 32 r.val)) a + S1x16.size a ≤ S32x1024.size a
  k0_off316_inb : ∀ k0_t6 : Fin k0_t6_loop.trips, ∀ (r : Fin 2), ∀ a, (k0_off316 k0_t6 (BitVec.ofNat 32 r.val)) a + S1x16.size a ≤ S32x1024.size a
  k0_off317_inb : ∀ k0_t6 : Fin k0_t6_loop.trips, ∀ (r : Fin 2), ∀ a, (k0_off317 k0_t6 (BitVec.ofNat 32 r.val)) a + S1x16.size a ≤ S32x1024.size a
  k0_off318_inb : ∀ k0_t6 : Fin k0_t6_loop.trips, ∀ (r : Fin 2), ∀ a, (k0_off318 k0_t6 (BitVec.ofNat 32 r.val)) a + S1x16.size a ≤ S32x1024.size a
  k0_off319_inb : ∀ k0_t6 : Fin k0_t6_loop.trips, ∀ (r : Fin 2), ∀ a, (k0_off319 k0_t6 (BitVec.ofNat 32 r.val)) a + S1x16.size a ≤ S32x1024.size a
  k0_off320_inb : ∀ k0_t6 : Fin k0_t6_loop.trips, ∀ (r : Fin 2), ∀ a, (k0_off320 k0_t6 (BitVec.ofNat 32 r.val)) a + S1x16.size a ≤ S32x1024.size a
  k0_off321_inb : ∀ k0_t6 : Fin k0_t6_loop.trips, ∀ (r : Fin 2), ∀ a, (k0_off321 k0_t6 (BitVec.ofNat 32 r.val)) a + S1x16.size a ≤ S32x1024.size a
  k0_off322_inb : ∀ k0_t6 : Fin k0_t6_loop.trips, ∀ (r : Fin 2), ∀ a, (k0_off322 k0_t6 (BitVec.ofNat 32 r.val)) a + S1x16.size a ≤ S32x1024.size a
  k0_off323_inb : ∀ k0_t6 : Fin k0_t6_loop.trips, ∀ (r : Fin 2), ∀ a, (k0_off323 k0_t6 (BitVec.ofNat 32 r.val)) a + S1x16.size a ≤ S32x1024.size a
  k0_off324_inb : ∀ k0_t6 : Fin k0_t6_loop.trips, ∀ (r : Fin 2), ∀ a, (k0_off324 k0_t6 (BitVec.ofNat 32 r.val)) a + S1x16.size a ≤ S32x1024.size a
  k0_off325_inb : ∀ k0_t6 : Fin k0_t6_loop.trips, ∀ (r : Fin 2), ∀ a, (k0_off325 k0_t6 (BitVec.ofNat 32 r.val)) a + S1x16.size a ≤ S32x1024.size a
  k0_off326_inb : ∀ k0_t6 : Fin k0_t6_loop.trips, ∀ (r : Fin 2), ∀ a, (k0_off326 k0_t6 (BitVec.ofNat 32 r.val)) a + S1x16.size a ≤ S32x1024.size a
  k0_off327_inb : ∀ k0_t6 : Fin k0_t6_loop.trips, ∀ (r : Fin 2), ∀ a, (k0_off327 k0_t6 (BitVec.ofNat 32 r.val)) a + S1x16.size a ≤ S32x1024.size a
  k0_off328_inb : ∀ k0_t6 : Fin k0_t6_loop.trips, ∀ (r : Fin 2), ∀ a, (k0_off328 k0_t6 (BitVec.ofNat 32 r.val)) a + S1x16.size a ≤ S32x1024.size a
  k0_off329_inb : ∀ k0_t6 : Fin k0_t6_loop.trips, ∀ (r : Fin 2), ∀ a, (k0_off329 k0_t6 (BitVec.ofNat 32 r.val)) a + S1x16.size a ≤ S32x1024.size a
  k0_off330_inb : ∀ k0_t6 : Fin k0_t6_loop.trips, ∀ (r : Fin 2), ∀ a, (k0_off330 k0_t6 (BitVec.ofNat 32 r.val)) a + S1x16.size a ≤ S32x1024.size a
  k0_off331_inb : ∀ k0_t6 : Fin k0_t6_loop.trips, ∀ (r : Fin 2), ∀ a, (k0_off331 k0_t6 (BitVec.ofNat 32 r.val)) a + S1x16.size a ≤ S32x1024.size a
  k0_off332_inb : ∀ k0_t6 : Fin k0_t6_loop.trips, ∀ (r : Fin 2), ∀ a, (k0_off332 k0_t6 (BitVec.ofNat 32 r.val)) a + S1x16.size a ≤ S32x1024.size a
  k0_off333_inb : ∀ k0_t6 : Fin k0_t6_loop.trips, ∀ (r : Fin 2), ∀ a, (k0_off333 k0_t6 (BitVec.ofNat 32 r.val)) a + S1x16.size a ≤ S32x1024.size a
  k0_off334_inb : ∀ k0_t6 : Fin k0_t6_loop.trips, ∀ (r : Fin 2), ∀ a, (k0_off334 k0_t6 (BitVec.ofNat 32 r.val)) a + S1x16.size a ≤ S32x1024.size a
  k0_off335_inb : ∀ k0_t6 : Fin k0_t6_loop.trips, ∀ (r : Fin 2), ∀ a, (k0_off335 k0_t6 (BitVec.ofNat 32 r.val)) a + S1x16.size a ≤ S32x1024.size a
  k0_off336_inb : ∀ i : grid0.Coords, ∀ (k0_h8 : k0_cond8 = 1#1), ∀ a, (k0_off336 i) a + S32x1024.size a ≤ S32768x1024.size a

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scratch7 : DmaSems sig S_ := SemArray.consecutive 3 S_ hcc0_scratch7
abbrev cc0_scratch8 : DmaSems sig S_ := SemArray.consecutive 4 S_ hcc0_scratch8
abbrev cc0_scratch9 : DmaSems sig S_ := SemArray.consecutive 5 S_ hcc0_scratch9
abbrev cc0_scoped0 : DmaSems sig S_ := SemArray.consecutive 6 S_ hcc0_scoped0

class Facts : Prop extends Facts₀ where

variable [Facts]
-- ==== ReferenceIdeal.lean ====
abbrev S4x8192x1024 : Shape := ⟨3, ![4, 8192, 1024]⟩
abbrev S8192x4x1024 : Shape := ⟨3, ![8192, 4, 1024]⟩
abbrev S_ : Shape := ⟨0, ![]⟩
abbrev S1 : Shape := ⟨1, ![1]⟩
abbrev S2 : Shape := ⟨1, ![2]⟩
abbrev S1x1 : Shape := ⟨2, ![1, 1]⟩
abbrev S8192x4 : Shape := ⟨2, ![8192, 4]⟩
abbrev S8192x4x1 : Shape := ⟨3, ![8192, 4, 1]⟩

abbrev nBuf : Space → Nat
  | .hbm => 288
  | .vmem => 0
  | .smem => 0
  | _ => 0

abbrev hbmTy0_0 (i : Nat) : BufTy := match i % 128 with
  | 0 => ⟨S4x8192x1024, .f32⟩
  | 1 => ⟨S8192x4x1024, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S_, .f32⟩
  | 13 => ⟨S_, .f32⟩
  | 14 => ⟨S_, .f32⟩
  | 15 => ⟨S_, .f32⟩
  | 16 => ⟨S_, .f32⟩
  | 17 => ⟨S1x1, .f32⟩
  | 18 => ⟨S1x1, .f32⟩
  | 19 => ⟨S1, .i32⟩
  | 20 => ⟨S_, .i32⟩
  | 21 => ⟨S1, .i32⟩
  | 22 => ⟨S_, .i32⟩
  | 23 => ⟨S8192x4, .i64⟩
  | 24 => ⟨S8192x4, .i64⟩
  | 25 => ⟨S_, .i64⟩
  | 26 => ⟨S8192x4, .i64⟩
  | 27 => ⟨S8192x4, .i64⟩
  | 28 => ⟨S_, .i64⟩
  | 29 => ⟨S8192x4, .i64⟩
  | 30 => ⟨S8192x4, .i64⟩
  | 31 => ⟨S8192x4, .i64⟩
  | 32 => ⟨S_, .i64⟩
  | 33 => ⟨S8192x4, .i64⟩
  | 34 => ⟨S8192x4, .i64⟩
  | 35 => ⟨S8192x4, .i32⟩
  | 36 => ⟨S8192x4, .i32⟩
  | 37 => ⟨S_, .i32⟩
  | 38 => ⟨S_, .i32⟩
  | 39 => ⟨S_, .i32⟩
  | 40 => ⟨S8192x4, .i32⟩
  | 41 => ⟨S8192x4, .i32⟩
  | 42 => ⟨S8192x4, .i32⟩
  | 43 => ⟨S8192x4, .i32⟩
  | 44 => ⟨S8192x4, .i32⟩
  | 45 => ⟨S_, .i32⟩
  | 46 => ⟨S8192x4, .i32⟩
  | 47 => ⟨S8192x4, .i32⟩
  | 48 => ⟨S_, .i32⟩
  | 49 => ⟨S8192x4, .i32⟩
  | 50 => ⟨S8192x4, .i32⟩
  | 51 => ⟨S8192x4, .i32⟩
  | 52 => ⟨S8192x4, .i32⟩
  | 53 => ⟨S8192x4, .i32⟩
  | 54 => ⟨S_, .i32⟩
  | 55 => ⟨S8192x4, .i32⟩
  | 56 => ⟨S8192x4, .i32⟩
  | 57 => ⟨S_, .i32⟩
  | 58 => ⟨S8192x4, .i32⟩
  | 59 => ⟨S8192x4, .i32⟩
  | 60 => ⟨S8192x4, .i32⟩
  | 61 => ⟨S8192x4, .i32⟩
  | 62 => ⟨S8192x4, .i32⟩
  | 63 => ⟨S_, .i32⟩
  | 64 => ⟨S8192x4, .i32⟩
  | 65 => ⟨S8192x4, .i32⟩
  | 66 => ⟨S_, .i32⟩
  | 67 => ⟨S8192x4, .i32⟩
  | 68 => ⟨S8192x4, .i32⟩
  | 69 => ⟨S8192x4, .i32⟩
  | 70 => ⟨S8192x4, .i32⟩
  | 71 => ⟨S8192x4, .i32⟩
  | 72 => ⟨S_, .i32⟩
  | 73 => ⟨S8192x4, .i32⟩
  | 74 => ⟨S8192x4, .i32⟩
  | 75 => ⟨S_, .i32⟩
  | 76 => ⟨S8192x4, .i32⟩
  | 77 => ⟨S8192x4, .i32⟩
  | 78 => ⟨S8192x4, .i32⟩
  | 79 => ⟨S8192x4, .i32⟩
  | 80 => ⟨S8192x4, .i32⟩
  | 81 => ⟨S8192x4, .i32⟩
  | 82 => ⟨S8192x4, .i32⟩
  | 83 => ⟨S8192x4, .i32⟩
  | 84 => ⟨S_, .i32⟩
  | 85 => ⟨S8192x4, .i32⟩
  | 86 => ⟨S8192x4, .i32⟩
  | 87 => ⟨S8192x4, .i32⟩
  | 88 => ⟨S_, .i32⟩
  | 89 => ⟨S8192x4, .i32⟩
  | 90 => ⟨S8192x4, .i32⟩
  | 91 => ⟨S_, .i32⟩
  | 92 => ⟨S8192x4, .i32⟩
  | 93 => ⟨S8192x4, .i32⟩
  | 94 => ⟨S8192x4, .i32⟩
  | 95 => ⟨S8192x4, .i32⟩
  | 96 => ⟨S8192x4, .i32⟩
  | 97 => ⟨S_, .i32⟩
  | 98 => ⟨S8192x4, .i32⟩
  | 99 => ⟨S8192x4, .i32⟩
  | 100 => ⟨S_, .i32⟩
  | 101 => ⟨S8192x4, .i32⟩
  | 102 => ⟨S8192x4, .i32⟩
  | 103 => ⟨S8192x4, .i32⟩
  | 104 => ⟨S8192x4, .i32⟩
  | 105 => ⟨S8192x4, .i32⟩
  | 106 => ⟨S_, .i32⟩
  | 107 => ⟨S8192x4, .i32⟩
  | 108 => ⟨S8192x4, .i32⟩
  | 109 => ⟨S_, .i32⟩
  | 110 => ⟨S8192x4, .i32⟩
  | 111 => ⟨S8192x4, .i32⟩
  | 112 => ⟨S8192x4, .i32⟩
  | 113 => ⟨S8192x4, .i32⟩
  | 114 => ⟨S8192x4, .i32⟩
  | 115 => ⟨S_, .i32⟩
  | 116 => ⟨S8192x4, .i32⟩
  | 117 => ⟨S8192x4, .i32⟩
  | 118 => ⟨S_, .i32⟩
  | 119 => ⟨S8192x4, .i32⟩
  | 120 => ⟨S8192x4, .i32⟩
  | 121 => ⟨S8192x4, .i32⟩
  | 122 => ⟨S8192x4, .i32⟩
  | 123 => ⟨S8192x4, .i32⟩
  | 124 => ⟨S8192x4, .i32⟩
  | 125 => ⟨S8192x4, .i32⟩
  | 126 => ⟨S8192x4, .i32⟩
  | 127 => ⟨S_, .i32⟩
  | _ => ⟨S4x8192x1024, .f32⟩

abbrev hbmTy0_1 (i : Nat) : BufTy := match i % 128 with
  | 0 => ⟨S8192x4, .i32⟩
  | 1 => ⟨S8192x4, .i32⟩
  | 2 => ⟨S8192x4, .i32⟩
  | 3 => ⟨S_, .i32⟩
  | 4 => ⟨S8192x4, .i32⟩
  | 5 => ⟨S8192x4, .i32⟩
  | 6 => ⟨S_, .i32⟩
  | 7 => ⟨S8192x4, .i32⟩
  | 8 => ⟨S8192x4, .i32⟩
  | 9 => ⟨S8192x4, .i32⟩
  | 10 => ⟨S8192x4, .i32⟩
  | 11 => ⟨S8192x4, .i32⟩
  | 12 => ⟨S_, .i32⟩
  | 13 => ⟨S8192x4, .i32⟩
  | 14 => ⟨S8192x4, .i32⟩
  | 15 => ⟨S_, .i32⟩
  | 16 => ⟨S8192x4, .i32⟩
  | 17 => ⟨S8192x4, .i32⟩
  | 18 => ⟨S8192x4, .i32⟩
  | 19 => ⟨S8192x4, .i32⟩
  | 20 => ⟨S8192x4, .i32⟩
  | 21 => ⟨S_, .i32⟩
  | 22 => ⟨S8192x4, .i32⟩
  | 23 => ⟨S8192x4, .i32⟩
  | 24 => ⟨S_, .i32⟩
  | 25 => ⟨S8192x4, .i32⟩
  | 26 => ⟨S8192x4, .i32⟩
  | 27 => ⟨S8192x4, .i32⟩
  | 28 => ⟨S8192x4, .i32⟩
  | 29 => ⟨S8192x4, .i32⟩
  | 30 => ⟨S_, .i32⟩
  | 31 => ⟨S8192x4, .i32⟩
  | 32 => ⟨S8192x4, .i32⟩
  | 33 => ⟨S_, .i32⟩
  | 34 => ⟨S8192x4, .i32⟩
  | 35 => ⟨S8192x4, .i32⟩
  | 36 => ⟨S8192x4, .i32⟩
  | 37 => ⟨S8192x4, .i32⟩
  | 38 => ⟨S8192x4, .i32⟩
  | 39 => ⟨S8192x4, .i32⟩
  | 40 => ⟨S8192x4, .i32⟩
  | 41 => ⟨S8192x4, .i32⟩
  | 42 => ⟨S_, .i32⟩
  | 43 => ⟨S8192x4, .i32⟩
  | 44 => ⟨S8192x4, .i32⟩
  | 45 => ⟨S8192x4, .i32⟩
  | 46 => ⟨S_, .i32⟩
  | 47 => ⟨S8192x4, .i32⟩
  | 48 => ⟨S8192x4, .i32⟩
  | 49 => ⟨S_, .i32⟩
  | 50 => ⟨S8192x4, .i32⟩
  | 51 => ⟨S8192x4, .i32⟩
  | 52 => ⟨S8192x4, .i32⟩
  | 53 => ⟨S8192x4, .i32⟩
  | 54 => ⟨S8192x4, .i32⟩
  | 55 => ⟨S_, .i32⟩
  | 56 => ⟨S8192x4, .i32⟩
  | 57 => ⟨S8192x4, .i32⟩
  | 58 => ⟨S_, .i32⟩
  | 59 => ⟨S8192x4, .i32⟩
  | 60 => ⟨S8192x4, .i32⟩
  | 61 => ⟨S8192x4, .i32⟩
  | 62 => ⟨S8192x4, .i32⟩
  | 63 => ⟨S8192x4, .i32⟩
  | 64 => ⟨S_, .i32⟩
  | 65 => ⟨S8192x4, .i32⟩
  | 66 => ⟨S8192x4, .i32⟩
  | 67 => ⟨S_, .i32⟩
  | 68 => ⟨S8192x4, .i32⟩
  | 69 => ⟨S8192x4, .i32⟩
  | 70 => ⟨S8192x4, .i32⟩
  | 71 => ⟨S8192x4, .i32⟩
  | 72 => ⟨S8192x4, .i32⟩
  | 73 => ⟨S_, .i32⟩
  | 74 => ⟨S8192x4, .i32⟩
  | 75 => ⟨S8192x4, .i32⟩
  | 76 => ⟨S_, .i32⟩
  | 77 => ⟨S8192x4, .i32⟩
  | 78 => ⟨S8192x4, .i32⟩
  | 79 => ⟨S8192x4, .i32⟩
  | 80 => ⟨S8192x4, .i32⟩
  | 81 => ⟨S8192x4, .i32⟩
  | 82 => ⟨S8192x4, .i32⟩
  | 83 => ⟨S8192x4, .i32⟩
  | 84 => ⟨S8192x4, .i32⟩
  | 85 => ⟨S_, .i32⟩
  | 86 => ⟨S8192x4, .i32⟩
  | 87 => ⟨S8192x4, .i32⟩
  | 88 => ⟨S8192x4, .i32⟩
  | 89 => ⟨S_, .i32⟩
  | 90 => ⟨S8192x4, .i32⟩
  | 91 => ⟨S8192x4, .i32⟩
  | 92 => ⟨S_, .i32⟩
  | 93 => ⟨S8192x4, .i32⟩
  | 94 => ⟨S8192x4, .i32⟩
  | 95 => ⟨S8192x4, .i32⟩
  | 96 => ⟨S8192x4, .i32⟩
  | 97 => ⟨S8192x4, .i32⟩
  | 98 => ⟨S_, .i32⟩
  | 99 => ⟨S8192x4, .i32⟩
  | 100 => ⟨S8192x4, .i32⟩
  | 101 => ⟨S_, .i32⟩
  | 102 => ⟨S8192x4, .i32⟩
  | 103 => ⟨S8192x4, .i32⟩
  | 104 => ⟨S8192x4, .i32⟩
  | 105 => ⟨S8192x4, .i32⟩
  | 106 => ⟨S8192x4, .i32⟩
  | 107 => ⟨S_, .i32⟩
  | 108 => ⟨S8192x4, .i32⟩
  | 109 => ⟨S8192x4, .i32⟩
  | 110 => ⟨S_, .i32⟩
  | 111 => ⟨S8192x4, .i32⟩
  | 112 => ⟨S8192x4, .i32⟩
  | 113 => ⟨S8192x4, .i32⟩
  | 114 => ⟨S8192x4, .i32⟩
  | 115 => ⟨S8192x4, .i32⟩
  | 116 => ⟨S_, .i32⟩
  | 117 => ⟨S8192x4, .i32⟩
  | 118 => ⟨S8192x4, .i32⟩
  | 119 => ⟨S_, .i32⟩
  | 120 => ⟨S8192x4, .i32⟩
  | 121 => ⟨S8192x4, .i32⟩
  | 122 => ⟨S8192x4, .i32⟩
  | 123 => ⟨S8192x4, .i32⟩
  | 124 => ⟨S8192x4, .i32⟩
  | 125 => ⟨S8192x4, .i32⟩
  | 126 => ⟨S8192x4, .i32⟩
  | 127 => ⟨S8192x4, .i32⟩
  | _ => ⟨S4x8192x1024, .f32⟩

abbrev hbmTy0_2 (i : Nat) : BufTy := match i % 128 with
  | 0 => ⟨S_, .i32⟩
  | 1 => ⟨S8192x4, .i32⟩
  | 2 => ⟨S8192x4, .i32⟩
  | 3 => ⟨S8192x4, .i32⟩
  | 4 => ⟨S_, .i32⟩
  | 5 => ⟨S8192x4, .i32⟩
  | 6 => ⟨S8192x4, .i32⟩
  | 7 => ⟨S_, .i32⟩
  | 8 => ⟨S8192x4, .i32⟩
  | 9 => ⟨S8192x4, .i32⟩
  | 10 => ⟨S8192x4, .f32⟩
  | 11 => ⟨S_, .f32⟩
  | 12 => ⟨S8192x4, .f32⟩
  | 13 => ⟨S8192x4, .f32⟩
  | 14 => ⟨S1x1, .f32⟩
  | 15 => ⟨S8192x4, .f32⟩
  | 16 => ⟨S8192x4, .f32⟩
  | 17 => ⟨S8192x4, .f32⟩
  | 18 => ⟨S8192x4, .f32⟩
  | 19 => ⟨S8192x4, .f32⟩
  | 20 => ⟨S8192x4, .f32⟩
  | 21 => ⟨S8192x4, .f32⟩
  | 22 => ⟨S8192x4, .i1⟩
  | 23 => ⟨S8192x4x1, .i1⟩
  | 24 => ⟨S_, .f32⟩
  | 25 => ⟨S8192x4x1024, .i1⟩
  | 26 => ⟨S8192x4x1024, .f32⟩
  | 27 => ⟨S8192x4x1024, .f32⟩
  | 28 => ⟨S4x8192x1024, .f32⟩
  | 29 => ⟨S_, .f32⟩
  | 30 => ⟨S4x8192x1024, .f32⟩
  | 31 => ⟨S4x8192x1024, .f32⟩
  | _ => ⟨S4x8192x1024, .f32⟩

abbrev hbmTy (i : Nat) : BufTy := match i / 128 with
  | 0 => hbmTy0_0 i
  | 1 => hbmTy0_1 i
  | 2 => hbmTy0_2 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_call0_cst : Ref sig .tc := ⟨.hbm, 13, rfl⟩
abbrev main_call0_cst_0 : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_c : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_call0_c_0 : Ref sig .tc := ⟨.hbm, 28, rfl⟩
abbrev main_call0_call0_v12 : Ref sig .tc := ⟨.hbm, 29, rfl⟩
abbrev main_call0_call0_v13 : Ref sig .tc := ⟨.hbm, 30, rfl⟩
abbrev main_call0_call0_v14 : Ref sig .tc := ⟨.hbm, 31, rfl⟩
abbrev main_call0_call0_c_1 : Ref sig .tc := ⟨.hbm, 32, rfl⟩
abbrev main_call0_call0_v15 : Ref sig .tc := ⟨.hbm, 33, rfl⟩
abbrev main_call0_call0_v16 : Ref sig .tc := ⟨.hbm, 34, rfl⟩
abbrev main_call0_call0_v17 : Ref sig .tc := ⟨.hbm, 35, rfl⟩
abbrev main_call0_call0_v18 : Ref sig .tc := ⟨.hbm, 36, rfl⟩
abbrev main_call0_call0_call0_v0 : Ref sig .tc := ⟨.hbm, 37, rfl⟩
abbrev main_call0_call0_call0_c : Ref sig .tc := ⟨.hbm, 38, rfl⟩
abbrev main_call0_call0_call0_v1 : Ref sig .tc := ⟨.hbm, 39, rfl⟩
abbrev main_call0_call0_call0_v2 : Ref sig .tc := ⟨.hbm, 40, rfl⟩
abbrev main_call0_call0_call0_v3 : Ref sig .tc := ⟨.hbm, 41, rfl⟩
abbrev main_call0_call0_call0_v4 : Ref sig .tc := ⟨.hbm, 42, rfl⟩
abbrev main_call0_call0_call0_v5 : Ref sig .tc := ⟨.hbm, 43, rfl⟩
abbrev main_call0_call0_call0_v6 : Ref sig .tc := ⟨.hbm, 44, rfl⟩
abbrev main_call0_call0_call0_c_0 : Ref sig .tc := ⟨.hbm, 45, rfl⟩
abbrev main_call0_call0_call0_v7 : Ref sig .tc := ⟨.hbm, 46, rfl⟩
abbrev main_call0_call0_call0_v8 : Ref sig .tc := ⟨.hbm, 47, rfl⟩
abbrev main_call0_call0_call0_c_1 : Ref sig .tc := ⟨.hbm, 48, rfl⟩
abbrev main_call0_call0_call0_v9 : Ref sig .tc := ⟨.hbm, 49, rfl⟩
abbrev main_call0_call0_call0_v10 : Ref sig .tc := ⟨.hbm, 50, rfl⟩
abbrev main_call0_call0_call0_v11 : Ref sig .tc := ⟨.hbm, 51, rfl⟩
abbrev main_call0_call0_call0_v12 : Ref sig .tc := ⟨.hbm, 52, rfl⟩
abbrev main_call0_call0_call0_v13 : Ref sig .tc := ⟨.hbm, 53, rfl⟩
abbrev main_call0_call0_call0_c_2 : Ref sig .tc := ⟨.hbm, 54, rfl⟩
abbrev main_call0_call0_call0_v14 : Ref sig .tc := ⟨.hbm, 55, rfl⟩
abbrev main_call0_call0_call0_v15 : Ref sig .tc := ⟨.hbm, 56, rfl⟩
abbrev main_call0_call0_call0_c_3 : Ref sig .tc := ⟨.hbm, 57, rfl⟩
abbrev main_call0_call0_call0_v16 : Ref sig .tc := ⟨.hbm, 58, rfl⟩
abbrev main_call0_call0_call0_v17 : Ref sig .tc := ⟨.hbm, 59, rfl⟩
abbrev main_call0_call0_call0_v18 : Ref sig .tc := ⟨.hbm, 60, rfl⟩
abbrev main_call0_call0_call0_v19 : Ref sig .tc := ⟨.hbm, 61, rfl⟩
abbrev main_call0_call0_call0_v20 : Ref sig .tc := ⟨.hbm, 62, rfl⟩
abbrev main_call0_call0_call0_c_4 : Ref sig .tc := ⟨.hbm, 63, rfl⟩
abbrev main_call0_call0_call0_v21 : Ref sig .tc := ⟨.hbm, 64, rfl⟩
abbrev main_call0_call0_call0_v22 : Ref sig .tc := ⟨.hbm, 65, rfl⟩
abbrev main_call0_call0_call0_c_5 : Ref sig .tc := ⟨.hbm, 66, rfl⟩
abbrev main_call0_call0_call0_v23 : Ref sig .tc := ⟨.hbm, 67, rfl⟩
abbrev main_call0_call0_call0_v24 : Ref sig .tc := ⟨.hbm, 68, rfl⟩
abbrev main_call0_call0_call0_v25 : Ref sig .tc := ⟨.hbm, 69, rfl⟩
abbrev main_call0_call0_call0_v26 : Ref sig .tc := ⟨.hbm, 70, rfl⟩
abbrev main_call0_call0_call0_v27 : Ref sig .tc := ⟨.hbm, 71, rfl⟩
abbrev main_call0_call0_call0_c_6 : Ref sig .tc := ⟨.hbm, 72, rfl⟩
abbrev main_call0_call0_call0_v28 : Ref sig .tc := ⟨.hbm, 73, rfl⟩
abbrev main_call0_call0_call0_v29 : Ref sig .tc := ⟨.hbm, 74, rfl⟩
abbrev main_call0_call0_call0_c_7 : Ref sig .tc := ⟨.hbm, 75, rfl⟩
abbrev main_call0_call0_call0_v30 : Ref sig .tc := ⟨.hbm, 76, rfl⟩
abbrev main_call0_call0_call0_v31 : Ref sig .tc := ⟨.hbm, 77, rfl⟩
abbrev main_call0_call0_call0_v32 : Ref sig .tc := ⟨.hbm, 78, rfl⟩
abbrev main_call0_call0_call0_v33 : Ref sig .tc := ⟨.hbm, 79, rfl⟩
abbrev main_call0_call0_call0_v34 : Ref sig .tc := ⟨.hbm, 80, rfl⟩
abbrev main_call0_call0_call0_v35 : Ref sig .tc := ⟨.hbm, 81, rfl⟩
abbrev main_call0_call0_call0_v36 : Ref sig .tc := ⟨.hbm, 82, rfl⟩
abbrev main_call0_call0_call0_v37 : Ref sig .tc := ⟨.hbm, 83, rfl⟩
abbrev main_call0_call0_call0_c_8 : Ref sig .tc := ⟨.hbm, 84, rfl⟩
abbrev main_call0_call0_call0_v38 : Ref sig .tc := ⟨.hbm, 85, rfl⟩
abbrev main_call0_call0_call0_v39 : Ref sig .tc := ⟨.hbm, 86, rfl⟩
abbrev main_call0_call0_call0_v40 : Ref sig .tc := ⟨.hbm, 87, rfl⟩
abbrev main_call0_call0_call0_c_9 : Ref sig .tc := ⟨.hbm, 88, rfl⟩
abbrev main_call0_call0_call0_v41 : Ref sig .tc := ⟨.hbm, 89, rfl⟩
abbrev main_call0_call0_call0_v42 : Ref sig .tc := ⟨.hbm, 90, rfl⟩
abbrev main_call0_call0_call0_c_10 : Ref sig .tc := ⟨.hbm, 91, rfl⟩
abbrev main_call0_call0_call0_v43 : Ref sig .tc := ⟨.hbm, 92, rfl⟩
abbrev main_call0_call0_call0_v44 : Ref sig .tc := ⟨.hbm, 93, rfl⟩
abbrev main_call0_call0_call0_v45 : Ref sig .tc := ⟨.hbm, 94, rfl⟩
abbrev main_call0_call0_call0_v46 : Ref sig .tc := ⟨.hbm, 95, rfl⟩
abbrev main_call0_call0_call0_v47 : Ref sig .tc := ⟨.hbm, 96, rfl⟩
abbrev main_call0_call0_call0_c_11 : Ref sig .tc := ⟨.hbm, 97, rfl⟩
abbrev main_call0_call0_call0_v48 : Ref sig .tc := ⟨.hbm, 98, rfl⟩
abbrev main_call0_call0_call0_v49 : Ref sig .tc := ⟨.hbm, 99, rfl⟩
abbrev main_call0_call0_call0_c_12 : Ref sig .tc := ⟨.hbm, 100, rfl⟩
abbrev main_call0_call0_call0_v50 : Ref sig .tc := ⟨.hbm, 101, rfl⟩
abbrev main_call0_call0_call0_v51 : Ref sig .tc := ⟨.hbm, 102, rfl⟩
abbrev main_call0_call0_call0_v52 : Ref sig .tc := ⟨.hbm, 103, rfl⟩
abbrev main_call0_call0_call0_v53 : Ref sig .tc := ⟨.hbm, 104, rfl⟩
abbrev main_call0_call0_call0_v54 : Ref sig .tc := ⟨.hbm, 105, rfl⟩
abbrev main_call0_call0_call0_c_13 : Ref sig .tc := ⟨.hbm, 106, rfl⟩
abbrev main_call0_call0_call0_v55 : Ref sig .tc := ⟨.hbm, 107, rfl⟩
abbrev main_call0_call0_call0_v56 : Ref sig .tc := ⟨.hbm, 108, rfl⟩
abbrev main_call0_call0_call0_c_14 : Ref sig .tc := ⟨.hbm, 109, rfl⟩
abbrev main_call0_call0_call0_v57 : Ref sig .tc := ⟨.hbm, 110, rfl⟩
abbrev main_call0_call0_call0_v58 : Ref sig .tc := ⟨.hbm, 111, rfl⟩
abbrev main_call0_call0_call0_v59 : Ref sig .tc := ⟨.hbm, 112, rfl⟩
abbrev main_call0_call0_call0_v60 : Ref sig .tc := ⟨.hbm, 113, rfl⟩
abbrev main_call0_call0_call0_v61 : Ref sig .tc := ⟨.hbm, 114, rfl⟩
abbrev main_call0_call0_call0_c_15 : Ref sig .tc := ⟨.hbm, 115, rfl⟩
abbrev main_call0_call0_call0_v62 : Ref sig .tc := ⟨.hbm, 116, rfl⟩
abbrev main_call0_call0_call0_v63 : Ref sig .tc := ⟨.hbm, 117, rfl⟩
abbrev main_call0_call0_call0_c_16 : Ref sig .tc := ⟨.hbm, 118, rfl⟩
abbrev main_call0_call0_call0_v64 : Ref sig .tc := ⟨.hbm, 119, rfl⟩
abbrev main_call0_call0_call0_v65 : Ref sig .tc := ⟨.hbm, 120, rfl⟩
abbrev main_call0_call0_call0_v66 : Ref sig .tc := ⟨.hbm, 121, rfl⟩
abbrev main_call0_call0_call0_v67 : Ref sig .tc := ⟨.hbm, 122, rfl⟩
abbrev main_call0_call0_call0_v68 : Ref sig .tc := ⟨.hbm, 123, rfl⟩
abbrev main_call0_call0_call0_v69 : Ref sig .tc := ⟨.hbm, 124, rfl⟩
abbrev main_call0_call0_call0_v70 : Ref sig .tc := ⟨.hbm, 125, rfl⟩
abbrev main_call0_call0_call0_v71 : Ref sig .tc := ⟨.hbm, 126, rfl⟩
abbrev main_call0_call0_call0_c_17 : Ref sig .tc := ⟨.hbm, 127, rfl⟩
abbrev main_call0_call0_call0_v72 : Ref sig .tc := ⟨.hbm, 128, rfl⟩
abbrev main_call0_call0_call0_v73 : Ref sig .tc := ⟨.hbm, 129, rfl⟩
abbrev main_call0_call0_call0_v74 : Ref sig .tc := ⟨.hbm, 130, rfl⟩
abbrev main_call0_call0_call0_c_18 : Ref sig .tc := ⟨.hbm, 131, rfl⟩
abbrev main_call0_call0_call0_v75 : Ref sig .tc := ⟨.hbm, 132, rfl⟩
abbrev main_call0_call0_call0_v76 : Ref sig .tc := ⟨.hbm, 133, rfl⟩
abbrev main_call0_call0_call0_c_19 : Ref sig .tc := ⟨.hbm, 134, rfl⟩
abbrev main_call0_call0_call0_v77 : Ref sig .tc := ⟨.hbm, 135, rfl⟩
abbrev main_call0_call0_call0_v78 : Ref sig .tc := ⟨.hbm, 136, rfl⟩
abbrev main_call0_call0_call0_v79 : Ref sig .tc := ⟨.hbm, 137, rfl⟩
abbrev main_call0_call0_call0_v80 : Ref sig .tc := ⟨.hbm, 138, rfl⟩
abbrev main_call0_call0_call0_v81 : Ref sig .tc := ⟨.hbm, 139, rfl⟩
abbrev main_call0_call0_call0_c_20 : Ref sig .tc := ⟨.hbm, 140, rfl⟩
abbrev main_call0_call0_call0_v82 : Ref sig .tc := ⟨.hbm, 141, rfl⟩
abbrev main_call0_call0_call0_v83 : Ref sig .tc := ⟨.hbm, 142, rfl⟩
abbrev main_call0_call0_call0_c_21 : Ref sig .tc := ⟨.hbm, 143, rfl⟩
abbrev main_call0_call0_call0_v84 : Ref sig .tc := ⟨.hbm, 144, rfl⟩
abbrev main_call0_call0_call0_v85 : Ref sig .tc := ⟨.hbm, 145, rfl⟩
abbrev main_call0_call0_call0_v86 : Ref sig .tc := ⟨.hbm, 146, rfl⟩
abbrev main_call0_call0_call0_v87 : Ref sig .tc := ⟨.hbm, 147, rfl⟩
abbrev main_call0_call0_call0_v88 : Ref sig .tc := ⟨.hbm, 148, rfl⟩
abbrev main_call0_call0_call0_c_22 : Ref sig .tc := ⟨.hbm, 149, rfl⟩
abbrev main_call0_call0_call0_v89 : Ref sig .tc := ⟨.hbm, 150, rfl⟩
abbrev main_call0_call0_call0_v90 : Ref sig .tc := ⟨.hbm, 151, rfl⟩
abbrev main_call0_call0_call0_c_23 : Ref sig .tc := ⟨.hbm, 152, rfl⟩
abbrev main_call0_call0_call0_v91 : Ref sig .tc := ⟨.hbm, 153, rfl⟩
abbrev main_call0_call0_call0_v92 : Ref sig .tc := ⟨.hbm, 154, rfl⟩
abbrev main_call0_call0_call0_v93 : Ref sig .tc := ⟨.hbm, 155, rfl⟩
abbrev main_call0_call0_call0_v94 : Ref sig .tc := ⟨.hbm, 156, rfl⟩
abbrev main_call0_call0_call0_v95 : Ref sig .tc := ⟨.hbm, 157, rfl⟩
abbrev main_call0_call0_call0_c_24 : Ref sig .tc := ⟨.hbm, 158, rfl⟩
abbrev main_call0_call0_call0_v96 : Ref sig .tc := ⟨.hbm, 159, rfl⟩
abbrev main_call0_call0_call0_v97 : Ref sig .tc := ⟨.hbm, 160, rfl⟩
abbrev main_call0_call0_call0_c_25 : Ref sig .tc := ⟨.hbm, 161, rfl⟩
abbrev main_call0_call0_call0_v98 : Ref sig .tc := ⟨.hbm, 162, rfl⟩
abbrev main_call0_call0_call0_v99 : Ref sig .tc := ⟨.hbm, 163, rfl⟩
abbrev main_call0_call0_call0_v100 : Ref sig .tc := ⟨.hbm, 164, rfl⟩
abbrev main_call0_call0_call0_v101 : Ref sig .tc := ⟨.hbm, 165, rfl⟩
abbrev main_call0_call0_call0_v102 : Ref sig .tc := ⟨.hbm, 166, rfl⟩
abbrev main_call0_call0_call0_v103 : Ref sig .tc := ⟨.hbm, 167, rfl⟩
abbrev main_call0_call0_call0_v104 : Ref sig .tc := ⟨.hbm, 168, rfl⟩
abbrev main_call0_call0_call0_v105 : Ref sig .tc := ⟨.hbm, 169, rfl⟩
abbrev main_call0_call0_call0_c_26 : Ref sig .tc := ⟨.hbm, 170, rfl⟩
abbrev main_call0_call0_call0_v106 : Ref sig .tc := ⟨.hbm, 171, rfl⟩
abbrev main_call0_call0_call0_v107 : Ref sig .tc := ⟨.hbm, 172, rfl⟩
abbrev main_call0_call0_call0_v108 : Ref sig .tc := ⟨.hbm, 173, rfl⟩
abbrev main_call0_call0_call0_c_27 : Ref sig .tc := ⟨.hbm, 174, rfl⟩
abbrev main_call0_call0_call0_v109 : Ref sig .tc := ⟨.hbm, 175, rfl⟩
abbrev main_call0_call0_call0_v110 : Ref sig .tc := ⟨.hbm, 176, rfl⟩
abbrev main_call0_call0_call0_c_28 : Ref sig .tc := ⟨.hbm, 177, rfl⟩
abbrev main_call0_call0_call0_v111 : Ref sig .tc := ⟨.hbm, 178, rfl⟩
abbrev main_call0_call0_call0_v112 : Ref sig .tc := ⟨.hbm, 179, rfl⟩
abbrev main_call0_call0_call0_v113 : Ref sig .tc := ⟨.hbm, 180, rfl⟩
abbrev main_call0_call0_call0_v114 : Ref sig .tc := ⟨.hbm, 181, rfl⟩
abbrev main_call0_call0_call0_v115 : Ref sig .tc := ⟨.hbm, 182, rfl⟩
abbrev main_call0_call0_call0_c_29 : Ref sig .tc := ⟨.hbm, 183, rfl⟩
abbrev main_call0_call0_call0_v116 : Ref sig .tc := ⟨.hbm, 184, rfl⟩
abbrev main_call0_call0_call0_v117 : Ref sig .tc := ⟨.hbm, 185, rfl⟩
abbrev main_call0_call0_call0_c_30 : Ref sig .tc := ⟨.hbm, 186, rfl⟩
abbrev main_call0_call0_call0_v118 : Ref sig .tc := ⟨.hbm, 187, rfl⟩
abbrev main_call0_call0_call0_v119 : Ref sig .tc := ⟨.hbm, 188, rfl⟩
abbrev main_call0_call0_call0_v120 : Ref sig .tc := ⟨.hbm, 189, rfl⟩
abbrev main_call0_call0_call0_v121 : Ref sig .tc := ⟨.hbm, 190, rfl⟩
abbrev main_call0_call0_call0_v122 : Ref sig .tc := ⟨.hbm, 191, rfl⟩
abbrev main_call0_call0_call0_c_31 : Ref sig .tc := ⟨.hbm, 192, rfl⟩
abbrev main_call0_call0_call0_v123 : Ref sig .tc := ⟨.hbm, 193, rfl⟩
abbrev main_call0_call0_call0_v124 : Ref sig .tc := ⟨.hbm, 194, rfl⟩
abbrev main_call0_call0_call0_c_32 : Ref sig .tc := ⟨.hbm, 195, rfl⟩
abbrev main_call0_call0_call0_v125 : Ref sig .tc := ⟨.hbm, 196, rfl⟩
abbrev main_call0_call0_call0_v126 : Ref sig .tc := ⟨.hbm, 197, rfl⟩
abbrev main_call0_call0_call0_v127 : Ref sig .tc := ⟨.hbm, 198, rfl⟩
abbrev main_call0_call0_call0_v128 : Ref sig .tc := ⟨.hbm, 199, rfl⟩
abbrev main_call0_call0_call0_v129 : Ref sig .tc := ⟨.hbm, 200, rfl⟩
abbrev main_call0_call0_call0_c_33 : Ref sig .tc := ⟨.hbm, 201, rfl⟩
abbrev main_call0_call0_call0_v130 : Ref sig .tc := ⟨.hbm, 202, rfl⟩
abbrev main_call0_call0_call0_v131 : Ref sig .tc := ⟨.hbm, 203, rfl⟩
abbrev main_call0_call0_call0_c_34 : Ref sig .tc := ⟨.hbm, 204, rfl⟩
abbrev main_call0_call0_call0_v132 : Ref sig .tc := ⟨.hbm, 205, rfl⟩
abbrev main_call0_call0_call0_v133 : Ref sig .tc := ⟨.hbm, 206, rfl⟩
abbrev main_call0_call0_call0_v134 : Ref sig .tc := ⟨.hbm, 207, rfl⟩
abbrev main_call0_call0_call0_v135 : Ref sig .tc := ⟨.hbm, 208, rfl⟩
abbrev main_call0_call0_call0_v136 : Ref sig .tc := ⟨.hbm, 209, rfl⟩
abbrev main_call0_call0_call0_v137 : Ref sig .tc := ⟨.hbm, 210, rfl⟩
abbrev main_call0_call0_call0_v138 : Ref sig .tc := ⟨.hbm, 211, rfl⟩
abbrev main_call0_call0_call0_v139 : Ref sig .tc := ⟨.hbm, 212, rfl⟩
abbrev main_call0_call0_call0_c_35 : Ref sig .tc := ⟨.hbm, 213, rfl⟩
abbrev main_call0_call0_call0_v140 : Ref sig .tc := ⟨.hbm, 214, rfl⟩
abbrev main_call0_call0_call0_v141 : Ref sig .tc := ⟨.hbm, 215, rfl⟩
abbrev main_call0_call0_call0_v142 : Ref sig .tc := ⟨.hbm, 216, rfl⟩
abbrev main_call0_call0_call0_c_36 : Ref sig .tc := ⟨.hbm, 217, rfl⟩
abbrev main_call0_call0_call0_v143 : Ref sig .tc := ⟨.hbm, 218, rfl⟩
abbrev main_call0_call0_call0_v144 : Ref sig .tc := ⟨.hbm, 219, rfl⟩
abbrev main_call0_call0_call0_c_37 : Ref sig .tc := ⟨.hbm, 220, rfl⟩
abbrev main_call0_call0_call0_v145 : Ref sig .tc := ⟨.hbm, 221, rfl⟩
abbrev main_call0_call0_call0_v146 : Ref sig .tc := ⟨.hbm, 222, rfl⟩
abbrev main_call0_call0_call0_v147 : Ref sig .tc := ⟨.hbm, 223, rfl⟩
abbrev main_call0_call0_call0_v148 : Ref sig .tc := ⟨.hbm, 224, rfl⟩
abbrev main_call0_call0_call0_v149 : Ref sig .tc := ⟨.hbm, 225, rfl⟩
abbrev main_call0_call0_call0_c_38 : Ref sig .tc := ⟨.hbm, 226, rfl⟩
abbrev main_call0_call0_call0_v150 : Ref sig .tc := ⟨.hbm, 227, rfl⟩
abbrev main_call0_call0_call0_v151 : Ref sig .tc := ⟨.hbm, 228, rfl⟩
abbrev main_call0_call0_call0_c_39 : Ref sig .tc := ⟨.hbm, 229, rfl⟩
abbrev main_call0_call0_call0_v152 : Ref sig .tc := ⟨.hbm, 230, rfl⟩
abbrev main_call0_call0_call0_v153 : Ref sig .tc := ⟨.hbm, 231, rfl⟩
abbrev main_call0_call0_call0_v154 : Ref sig .tc := ⟨.hbm, 232, rfl⟩
abbrev main_call0_call0_call0_v155 : Ref sig .tc := ⟨.hbm, 233, rfl⟩
abbrev main_call0_call0_call0_v156 : Ref sig .tc := ⟨.hbm, 234, rfl⟩
abbrev main_call0_call0_call0_c_40 : Ref sig .tc := ⟨.hbm, 235, rfl⟩
abbrev main_call0_call0_call0_v157 : Ref sig .tc := ⟨.hbm, 236, rfl⟩
abbrev main_call0_call0_call0_v158 : Ref sig .tc := ⟨.hbm, 237, rfl⟩
abbrev main_call0_call0_call0_c_41 : Ref sig .tc := ⟨.hbm, 238, rfl⟩
abbrev main_call0_call0_call0_v159 : Ref sig .tc := ⟨.hbm, 239, rfl⟩
abbrev main_call0_call0_call0_v160 : Ref sig .tc := ⟨.hbm, 240, rfl⟩
abbrev main_call0_call0_call0_v161 : Ref sig .tc := ⟨.hbm, 241, rfl⟩
abbrev main_call0_call0_call0_v162 : Ref sig .tc := ⟨.hbm, 242, rfl⟩
abbrev main_call0_call0_call0_v163 : Ref sig .tc := ⟨.hbm, 243, rfl⟩
abbrev main_call0_call0_call0_c_42 : Ref sig .tc := ⟨.hbm, 244, rfl⟩
abbrev main_call0_call0_call0_v164 : Ref sig .tc := ⟨.hbm, 245, rfl⟩
abbrev main_call0_call0_call0_v165 : Ref sig .tc := ⟨.hbm, 246, rfl⟩
abbrev main_call0_call0_call0_c_43 : Ref sig .tc := ⟨.hbm, 247, rfl⟩
abbrev main_call0_call0_call0_v166 : Ref sig .tc := ⟨.hbm, 248, rfl⟩
abbrev main_call0_call0_call0_v167 : Ref sig .tc := ⟨.hbm, 249, rfl⟩
abbrev main_call0_call0_call0_v168 : Ref sig .tc := ⟨.hbm, 250, rfl⟩
abbrev main_call0_call0_call0_v169 : Ref sig .tc := ⟨.hbm, 251, rfl⟩
abbrev main_call0_call0_call0_v170 : Ref sig .tc := ⟨.hbm, 252, rfl⟩
abbrev main_call0_call0_v19_0 : Ref sig .tc := ⟨.hbm, 253, rfl⟩
abbrev main_call0_call0_call0_v172 : Ref sig .tc := ⟨.hbm, 254, rfl⟩
abbrev main_call0_call0_call0_v173 : Ref sig .tc := ⟨.hbm, 255, rfl⟩
abbrev main_call0_call0_call0_c_44 : Ref sig .tc := ⟨.hbm, 256, rfl⟩
abbrev main_call0_call0_call0_v174 : Ref sig .tc := ⟨.hbm, 257, rfl⟩
abbrev main_call0_call0_v19_1 : Ref sig .tc := ⟨.hbm, 258, rfl⟩
abbrev main_call0_call0_v20 : Ref sig .tc := ⟨.hbm, 259, rfl⟩
abbrev main_call0_call0_c_2 : Ref sig .tc := ⟨.hbm, 260, rfl⟩
abbrev main_call0_call0_v21 : Ref sig .tc := ⟨.hbm, 261, rfl⟩
abbrev main_call0_call0_v22 : Ref sig .tc := ⟨.hbm, 262, rfl⟩
abbrev main_call0_call0_c_3 : Ref sig .tc := ⟨.hbm, 263, rfl⟩
abbrev main_call0_call0_v23 : Ref sig .tc := ⟨.hbm, 264, rfl⟩
abbrev main_call0_call0_v24 : Ref sig .tc := ⟨.hbm, 265, rfl⟩
abbrev main_call0_call0_v25 : Ref sig .tc := ⟨.hbm, 266, rfl⟩
abbrev main_call0_call0_cst : Ref sig .tc := ⟨.hbm, 267, rfl⟩
abbrev main_call0_call0_v26 : Ref sig .tc := ⟨.hbm, 268, rfl⟩
abbrev main_call0_call0_v27 : Ref sig .tc := ⟨.hbm, 269, rfl⟩
abbrev main_call0_call0_v28 : Ref sig .tc := ⟨.hbm, 270, rfl⟩
abbrev main_call0_call0_v29 : Ref sig .tc := ⟨.hbm, 271, rfl⟩
abbrev main_call0_call0_v30 : Ref sig .tc := ⟨.hbm, 272, rfl⟩
abbrev main_call0_call0_v31 : Ref sig .tc := ⟨.hbm, 273, rfl⟩
abbrev main_call0_call0_v32 : Ref sig .tc := ⟨.hbm, 274, rfl⟩
abbrev main_call0_call0_v33 : Ref sig .tc := ⟨.hbm, 275, rfl⟩
abbrev main_call0_v0 : Ref sig .tc := ⟨.hbm, 276, rfl⟩
abbrev main_call0_v1 : Ref sig .tc := ⟨.hbm, 277, rfl⟩
abbrev main_v8 : Ref sig .tc := ⟨.hbm, 278, rfl⟩
abbrev main_v9 : Ref sig .tc := ⟨.hbm, 279, rfl⟩
abbrev main_cst_2 : Ref sig .tc := ⟨.hbm, 280, rfl⟩
abbrev main_call1_v0 : Ref sig .tc := ⟨.hbm, 281, rfl⟩
abbrev main_call1_v1 : Ref sig .tc := ⟨.hbm, 282, rfl⟩
abbrev main_v10 : Ref sig .tc := ⟨.hbm, 283, rfl⟩
abbrev main_v11 : Ref sig .tc := ⟨.hbm, 284, rfl⟩
abbrev main_cst_3 : Ref sig .tc := ⟨.hbm, 285, rfl⟩
abbrev main_v12 : Ref sig .tc := ⟨.hbm, 286, rfl⟩
abbrev main_v13 : Ref sig .tc := ⟨.hbm, 287, rfl⟩

abbrev nD : Nat := 1
abbrev τ : Topo := Topo.v7x

variable {F : FTy → Type} [FloatOps F]

class Facts₀ : Prop where
  transposes_S4x8192x1024_S8192x4x1024_1_0_2 : S4x8192x1024.Transposes [1, 0, 2] S8192x4x1024
  bcast_S_S1 : S_.BroadcastsInDim S1 (![] : Fin 0 → Fin S1.rank)
  concatenates_S1_S1_S2_d0 : Shape.Concatenates [S1, S1] S2 0
  bcast_S_S1x1 : S_.BroadcastsInDim S1x1 (![] : Fin 0 → Fin S1x1.rank)
  slices_S2_S1_0 : S2.Slices ![0] S1
  shapeCasts_S1_S_ : S1.ShapeCasts S_
  slices_S2_S1_1 : S2.Slices ![1] S1
  bcast_S_S8192x4 : S_.BroadcastsInDim S8192x4 (![] : Fin 0 → Fin S8192x4.rank)
  natLt_32_64 : 32 < 64
  bcast_S1x1_S8192x4_0_1 : S1x1.BroadcastsInDim S8192x4 (![0, 1] : Fin 2 → Fin S8192x4.rank)
  bcast_S8192x4_S8192x4x1_0_1 : S8192x4.BroadcastsInDim S8192x4x1 (![0, 1] : Fin 2 → Fin S8192x4x1.rank)
  bcast_S8192x4x1_S8192x4x1024_0_1_2 : S8192x4x1.BroadcastsInDim S8192x4x1024 (![0, 1, 2] : Fin 3 → Fin S8192x4x1024.rank)
  bcast_S_S8192x4x1024 : S_.BroadcastsInDim S8192x4x1024 (![] : Fin 0 → Fin S8192x4x1024.rank)
  transposes_S8192x4x1024_S4x8192x1024_1_0_2 : S8192x4x1024.Transposes [1, 0, 2] S4x8192x1024
  bcast_S_S4x8192x1024 : S_.BroadcastsInDim S4x8192x1024 (![] : Fin 0 → Fin S4x8192x1024.rank)

variable [Facts₀]

class Facts : Prop extends Facts₀ where

variable [Facts]
-- ==== Proof.KICommon.lean ====
/-
  The launch vocabulary of the idealized dropout kernel: the SparseCore configuration as the launch theorem reads
  it, the handshake facts, and the ghost state — the handshakes' rounds beside a copy of the transfer counters, which is
  all a kernel needs whose only communication is local copies it waits for itself.
-/
import proofs.«206558_g86277303042394_cont_sun_m_1099_24_alg».proof.Defs
import Idealize.ShloMosaic.Lib.SparseCore.Launch
import Idealize.ShloMosaic.Lib.StableHlo.Run
import Idealize.ShloMosaic.Lib.Pipeline.Kit
import Idealize.ShloMosaic.Lib.Tactic
import proofs.«206558_g86277303042394_cont_sun_m_1099_24_alg».proof.Proof.Gen.KernelIdeal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev 𝕄 : Type := MT nD τ sig (HIx 1) (Elt F) ℕ UU ℕ

/-- The handshakes' rounds, the left factor; the transfers' counters are found by instance in the right. -/
abbrev EH : Emb UH (MT nD τ sig (HIx 1) (Elt F) ℕ UU ℕ) := embL

end Cert.Proof.KI

end
-- ==== Proof.KIPay.lean ====
/-
  What the SparseCore call moves: each of the 32 tiles (worker w = 2·s + c on SparseCore c, subcore s) reads rows
  [1024·w, 1024·(w+1)) of x and rows [128·w, 128·(w+1)) of the scale table, and writes the same rows of the result, 32
  chunks of 32 rows each. A tile is handed a read share of x and of the table (whole arrays) and the 32 chunks of its
  rows of the result; it hands back the shares and the chunks at the one whole-array function
  out (r, h) = x (r, h) · scale (r / 8, 16·(r % 8) + h % 16).
-/
import proofs.«206558_g86277303042394_cont_sun_m_1099_24_alg».proof.Proof.KICommon

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

/-- The three arrays of the call as a tile's kernel names them. -/
abbrev xV : Memref sig .scVector .hbm S32768x1024 .f32 := Memref.whole main_v14_scv
abbrev sV : Memref sig .scVector .hbm S4096x128 .f32 := Memref.whole main_v15_scv
abbrev oV : Memref sig .scVector .hbm S32768x1024 .f32 := Memref.whole main_v16_scv

/-- and as locations of device `d` (the TensorCore's names for them). -/
abbrev xLoc (d : Dev nD) : Loc nD τ sig := (SparseCore.T d).loc main_v14
abbrev sLoc (d : Dev nD) : Loc nD τ sig := (SparseCore.T d).loc main_v15
abbrev oLoc (d : Dev nD) : Loc nD τ sig := (SparseCore.T d).loc main_v16

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

def coordsV (c : Fin (grid0.bound 0)) (s : Fin (grid0.bound 1)) : grid0.Coords :=
  fun | 0 => c | 1 => s | ⟨_ + 2, h⟩ => absurd h (Nat.not_lt.2 (Nat.le_add_left _ _))

theorem L0_lt (L : grid0.Coords) : (L 0).val < 2 := (L 0).isLt
theorem L1_lt (L : grid0.Coords) : (L 1).val < 16 := (L 1).isLt

/-- The worker number of the tile at grid coordinates `L`: 2·s + c. -/
def wid (L : grid0.Coords) : Fin 32 := ⟨2 * (L 1).val + (L 0).val, by have := L0_lt L; have := L1_lt L; omega⟩

/-- Chunk `j` of the tile's rows: 32 rows from row 1024·w + 32·j. -/
def offC (L : grid0.Coords) (j : Fin 32) : Fin 2 → Nat := ![2048 * (L 1).val + 1024 * (L 0).val + 32 * j.val, 0]

theorem offC_inb (L : grid0.Coords) (j : Fin 32) : ∀ a, offC L j a + S32x1024.size a ≤ S32768x1024.size a := by
  have := L0_lt L; have := L1_lt L; have := j.isLt
  intro a; fin_cases a <;> simp [offC] <;> omega

abbrev rectC (L : grid0.Coords) (j : Fin 32) : Rect S32768x1024 := Rect.unit (s := S32768x1024) (offC L j) S32x1024.size (offC_inb L j)
abbrev oChunk (L : grid0.Coords) (j : Fin 32) : Memref sig .scVector .hbm S32x1024 .f32 := (oV).slice (rectC L j) (fun _ => rfl)
abbrev xChunk (L : grid0.Coords) (j : Fin 32) : Memref sig .scVector .hbm S32x1024 .f32 := (xV).slice (rectC L j) (fun _ => rfl)

/-- The tile's read share of an array read by all 32 tiles. -/
abbrev qT (L : grid0.Coords) : PosShare TreeShare := shareTok fullShare 32 (wid L)

section Values

variable (d : Dev nD)

/-- The scale entry row `r` of x meets at lane `h % 16`: the table's entry (r / 8, 16·(r % 8) + h % 16). -/
def scIdx (i : S32768x1024.Idx) : S4096x128.Idx :=
  have h0 : (i 0).val < 32768 := (i 0).isLt
  have h1 : (i 1).val < 1024 := (i 1).isLt
  fun | 0 => ⟨(i 0).val / 8, by show _ < 4096; omega⟩ | 1 => ⟨16 * ((i 0).val % 8) + (i 1).val % 16, by show _ < 128; omega⟩

/-- The result as one function of x and the scale table. -/
def OUTV (X : Buf (Elt F) (xLoc d)) (SC : Buf (Elt F) (sLoc d)) : Buf (Elt F) (oLoc d) :=
  fun i => FloatOps.mulf (X i) (SC (scIdx i))

end Values

/-! ## What a tile is handed and hands back -/

section Pay

variable (X : (d : Dev nD) → Buf (Elt F) (xLoc d)) (SC : (d : Dev nD) → Buf (Elt F) (sLoc d)) (O0 : (d : Dev nD) → Buf (Elt F) (oLoc d))

/-- The tile's share of x and of the table, and its 32 chunks of the result at contents `f`. -/
def tileRes (d : Dev nD) (L : grid0.Coords) (f : Buf (Elt F) (oLoc d)) : sProp (𝕄 (F := F)) :=
  iprop((xLoc d ↦{qT L} X d) ∗ (sLoc d ↦{qT L} SC d)
    ∗ bigSep Finset.univ fun j : Fin 32 => (oLoc d ↦[(oChunk L j).view.set]{fullShare} f))

def goL (d : Dev nD) (L : grid0.Coords) : sProp (𝕄 (F := F)) := tileRes X SC d L (O0 d)
def tdL (d : Dev nD) (L : grid0.Coords) : sProp (𝕄 (F := F)) := tileRes X SC d L (OUTV d (X d) (SC d))

/-- What a tile hands back when only the frame is wanted: its shares, and its chunks at some contents. -/
def tdLE (d : Dev nD) (L : grid0.Coords) : sProp (𝕄 (F := F)) := iprop(∃ f, tileRes X SC d L f)

theorem tdL_tdLE (d : Dev nD) (L : grid0.Coords) : tdL X SC d L ⊢ tdLE X SC d L := by
  unfold tdL tdLE; iintro H; iexists _; iexact H

def goN (d : Dev nD) (c s : ℕ) : sProp (𝕄 (F := F)) :=
  if h : c < grid0.bound 0 ∧ s < grid0.bound 1 then goL X SC O0 d (coordsV ⟨c, h.1⟩ ⟨s, h.2⟩) else iprop(emp)
def tdN (d : Dev nD) (c s : ℕ) : sProp (𝕄 (F := F)) :=
  if h : c < grid0.bound 0 ∧ s < grid0.bound 1 then tdL X SC d (coordsV ⟨c, h.1⟩ ⟨s, h.2⟩) else iprop(emp)

def tdNE (d : Dev nD) (c s : ℕ) : sProp (𝕄 (F := F)) :=
  if h : c < grid0.bound 0 ∧ s < grid0.bound 1 then tdLE X SC d (coordsV ⟨c, h.1⟩ ⟨s, h.2⟩) else iprop(emp)
theorem tdNE_eq (d : Dev nD) (c : Fin (grid0.bound 0)) (s : Fin (grid0.bound 1)) :
    tdNE X SC d c.val s.val = tdLE X SC d (coordsV c s) := dif_pos ⟨c.isLt, s.isLt⟩

theorem goN_eq (d : Dev nD) (c : Fin (grid0.bound 0)) (s : Fin (grid0.bound 1)) :
    goN X SC O0 d c.val s.val = goL X SC O0 d (coordsV c s) := dif_pos ⟨c.isLt, s.isLt⟩
theorem tdN_eq (d : Dev nD) (c : Fin (grid0.bound 0)) (s : Fin (grid0.bound 1)) :
    tdN X SC d c.val s.val = tdL X SC d (coordsV c s) := dif_pos ⟨c.isLt, s.isLt⟩

/-- The call's payloads: a SparseCore is handed its sixteen tiles' operands, a tile its own. -/
def P : (K (F := F)).Pay (nD := nD) (Val := Elt F) (Name := ℕ) (U := UU) where
  st := fun q d c => bigSep Finset.univ fun i : Fin ((K (F := F)).nSub q) => goN X SC O0 d c.val i.val
  dn := fun q d c => bigSep Finset.univ fun i : Fin ((K (F := F)).nSub q) => tdN X SC d c.val i.val
  go := fun _ d c i => goN X SC O0 d c.val i.val
  td := fun _ d c i => tdN X SC d c.val i.val
  x := fun _ _ => iprop(emp)

/-- The same call when only the frame is wanted: the tiles' results at some contents. -/
def PE : (K (F := F)).Pay (nD := nD) (Val := Elt F) (Name := ℕ) (U := UU) where
  st := fun q d c => bigSep Finset.univ fun i : Fin ((K (F := F)).nSub q) => goN X SC O0 d c.val i.val
  dn := fun q d c => bigSep Finset.univ fun i : Fin ((K (F := F)).nSub q) => tdNE X SC d c.val i.val
  go := fun _ d c i => goN X SC O0 d c.val i.val
  td := fun _ d c i => tdNE X SC d c.val i.val
  x := fun _ _ => iprop(emp)

end Pay

end Cert.Proof.KI

end
-- ==== Proof.KIOpen.lean ====
/-
  A tile's scoped storage, opened: its seven DMA cells (three for the copies in, three for the copies out, one for the
  scale table's copy) each at zero, and its four scratch buffers (three row slots and the scale table) each at some
  contents, beside the rest of what the vector subcore owns.
-/
import proofs.«206558_g86277303042394_cont_sun_m_1099_24_alg».proof.Proof.KIPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev b0 : Memref sig .scVector .vmem S32x1024 .f32 := Memref.whole cc0_scratch0
abbrev b1 : Memref sig .scVector .vmem S32x1024 .f32 := Memref.whole cc0_scratch1
abbrev b2 : Memref sig .scVector .vmem S32x1024 .f32 := Memref.whole cc0_scratch2
abbrev bS : Memref sig .scVector .vmem S128x128 .f32 := Memref.whole cc0_scratch3

variable (d : Dev nD) (L : grid0.Coords)

/-- The tile's cell of a DMA semaphore. -/
abbrev cell (sm : DmaSems sig S_) : GSem nD τ sig := (thr d L, .dma sm.sem)

theorem cell_ne {a b : DmaSems sig S_} (h : (SemLoc.dma a.sem : SemLoc sig) ≠ SemLoc.dma b.sem) : cell d L a ≠ cell d L b :=
  fun e => h (congrArg Prod.snd e)

/-- The other cells the subcore owns. -/
abbrev restCells : Finset (GSem nD τ sig) := (((((((ownCells (thr d L)).erase (cell d L cc0_scratch4)).erase (cell d L cc0_scratch5)).erase (cell d L cc0_scratch6)).erase (cell d L cc0_scratch7)).erase (cell d L cc0_scratch8)).erase (cell d L cc0_scratch9)).erase (cell d L cc0_scoped0)

omit [FloatOps F] in
theorem ownSems0_V :
    (ownSems0 (thr d L) : sProp (𝕄 (F := F)))
      = iprop(semVal (cell d L cc0_scratch4) 0 ∗ semVal (cell d L cc0_scratch5) 0 ∗ semVal (cell d L cc0_scratch6) 0 ∗ semVal (cell d L cc0_scratch7) 0 ∗ semVal (cell d L cc0_scratch8) 0 ∗ semVal (cell d L cc0_scratch9) 0 ∗ semVal (cell d L cc0_scoped0) 0
          ∗ bigSep (restCells d L) fun g => semVal g 0) := by
  unfold SparseCore.Cfg.ownSems0
  rw [SparseCore.bigSep_erase' ((mem_ownCells (g := cell d L cc0_scratch4)).mpr ⟨rfl, by show (SemLoc.dma cc0_scratch4.sem : SemLoc sig).isScoped .scVector = true; decide⟩),
    SparseCore.bigSep_erase' (Finset.mem_erase.mpr ⟨cell_ne d L (show (SemLoc.dma cc0_scratch5.sem : SemLoc sig) ≠ SemLoc.dma cc0_scratch4.sem by decide), (mem_ownCells (g := cell d L cc0_scratch5)).mpr ⟨rfl, by show (SemLoc.dma cc0_scratch5.sem : SemLoc sig).isScoped .scVector = true; decide⟩⟩),
    SparseCore.bigSep_erase' (Finset.mem_erase.mpr ⟨cell_ne d L (show (SemLoc.dma cc0_scratch6.sem : SemLoc sig) ≠ SemLoc.dma cc0_scratch5.sem by decide), Finset.mem_erase.mpr ⟨cell_ne d L (show (SemLoc.dma cc0_scratch6.sem : SemLoc sig) ≠ SemLoc.dma cc0_scratch4.sem by decide), (mem_ownCells (g := cell d L cc0_scratch6)).mpr ⟨rfl, by show (SemLoc.dma cc0_scratch6.sem : SemLoc sig).isScoped .scVector = true; decide⟩⟩⟩),
    SparseCore.bigSep_erase' (Finset.mem_erase.mpr ⟨cell_ne d L (show (SemLoc.dma cc0_scratch7.sem : SemLoc sig) ≠ SemLoc.dma cc0_scratch6.sem by decide), Finset.mem_erase.mpr ⟨cell_ne d L (show (SemLoc.dma cc0_scratch7.sem : SemLoc sig) ≠ SemLoc.dma cc0_scratch5.sem by decide), Finset.mem_erase.mpr ⟨cell_ne d L (show (SemLoc.dma cc0_scratch7.sem : SemLoc sig) ≠ SemLoc.dma cc0_scratch4.sem by decide), (mem_ownCells (g := cell d L cc0_scratch7)).mpr ⟨rfl, by show (SemLoc.dma cc0_scratch7.sem : SemLoc sig).isScoped .scVector = true; decide⟩⟩⟩⟩),
    SparseCore.bigSep_erase' (Finset.mem_erase.mpr ⟨cell_ne d L (show (SemLoc.dma cc0_scratch8.sem : SemLoc sig) ≠ SemLoc.dma cc0_scratch7.sem by decide), Finset.mem_erase.mpr ⟨cell_ne d L (show (SemLoc.dma cc0_scratch8.sem : SemLoc sig) ≠ SemLoc.dma cc0_scratch6.sem by decide), Finset.mem_erase.mpr ⟨cell_ne d L (show (SemLoc.dma cc0_scratch8.sem : SemLoc sig) ≠ SemLoc.dma cc0_scratch5.sem by decide), Finset.mem_erase.mpr ⟨cell_ne d L (show (SemLoc.dma cc0_scratch8.sem : SemLoc sig) ≠ SemLoc.dma cc0_scratch4.sem by decide), (mem_ownCells (g := cell d L cc0_scratch8)).mpr ⟨rfl, by show (SemLoc.dma cc0_scratch8.sem : SemLoc sig).isScoped .scVector = true; decide⟩⟩⟩⟩⟩),
    SparseCore.bigSep_erase' (Finset.mem_erase.mpr ⟨cell_ne d L (show (SemLoc.dma cc0_scratch9.sem : SemLoc sig) ≠ SemLoc.dma cc0_scratch8.sem by decide), Finset.mem_erase.mpr ⟨cell_ne d L (show (SemLoc.dma cc0_scratch9.sem : SemLoc sig) ≠ SemLoc.dma cc0_scratch7.sem by decide), Finset.mem_erase.mpr ⟨cell_ne d L (show (SemLoc.dma cc0_scratch9.sem : SemLoc sig) ≠ SemLoc.dma cc0_scratch6.sem by decide), Finset.mem_erase.mpr ⟨cell_ne d L (show (SemLoc.dma cc0_scratch9.sem : SemLoc sig) ≠ SemLoc.dma cc0_scratch5.sem by decide), Finset.mem_erase.mpr ⟨cell_ne d L (show (SemLoc.dma cc0_scratch9.sem : SemLoc sig) ≠ SemLoc.dma cc0_scratch4.sem by decide), (mem_ownCells (g := cell d L cc0_scratch9)).mpr ⟨rfl, by show (SemLoc.dma cc0_scratch9.sem : SemLoc sig).isScoped .scVector = true; decide⟩⟩⟩⟩⟩⟩),
    SparseCore.bigSep_erase' (Finset.mem_erase.mpr ⟨cell_ne d L (show (SemLoc.dma cc0_scoped0.sem : SemLoc sig) ≠ SemLoc.dma cc0_scratch9.sem by decide), Finset.mem_erase.mpr ⟨cell_ne d L (show (SemLoc.dma cc0_scoped0.sem : SemLoc sig) ≠ SemLoc.dma cc0_scratch8.sem by decide), Finset.mem_erase.mpr ⟨cell_ne d L (show (SemLoc.dma cc0_scoped0.sem : SemLoc sig) ≠ SemLoc.dma cc0_scratch7.sem by decide), Finset.mem_erase.mpr ⟨cell_ne d L (show (SemLoc.dma cc0_scoped0.sem : SemLoc sig) ≠ SemLoc.dma cc0_scratch6.sem by decide), Finset.mem_erase.mpr ⟨cell_ne d L (show (SemLoc.dma cc0_scoped0.sem : SemLoc sig) ≠ SemLoc.dma cc0_scratch5.sem by decide), Finset.mem_erase.mpr ⟨cell_ne d L (show (SemLoc.dma cc0_scoped0.sem : SemLoc sig) ≠ SemLoc.dma cc0_scratch4.sem by decide), (mem_ownCells (g := cell d L cc0_scoped0)).mpr ⟨rfl, by show (SemLoc.dma cc0_scoped0.sem : SemLoc sig).isScoped .scVector = true; decide⟩⟩⟩⟩⟩⟩⟩)]

/-- The other buffers the subcore owns. -/
abbrev restRefs : Finset (DevRef τ sig) := ((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)

omit [FloatOps F] in
theorem ownBufs_V :
    (ownBufs (thr d L) : sProp (𝕄 (F := F)))
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩)]

end Cert.Proof.KI

end
-- ==== Proof.KIInner.lean ====
import proofs.«206558_g86277303042394_cont_sun_m_1099_24_alg».proof.Proof.KIOpen
import proofs.«206558_g86277303042394_cont_sun_m_1099_24_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

variable (d : Dev nD) (L : grid0.Coords)

/-! ## The scaling loops

Each of the five scaling loops runs sixteen trips over one slot; a trip multiplies rows 2k and 2k+1 of the slot, lane group
by lane group, by the sixteen-lane scale vector of the row. The pieces a trip stores are found by running it once at a
symbolic trip; the loop's result is the iteration of those stores over what the slot held when the loop began. -/

/-- One trip of scaling loop 2: what it stores over the slot's contents `G`, given the scale table `fS`. -/
@[irreducible] def trip2 (v2 a0 a1 : BitVec 32) (g : Fin k0_t1_loop.trips) (v41 : BitVec 32) (k : Fin k0_t2_loop.trips) :
    Σ' (Lp : Buf (Elt F) ((b0).view.loc (thr d L)) → Buf (Elt F) ((bS).view.loc (thr d L)) → List (View.Piece (Elt F) S32x1024 .f32)),
      ∀ (G : Buf (Elt F) ((b0).view.loc (thr d L))) (fS : Buf (Elt F) ((bS).view.loc (thr d L))),
        (iprop(((b0).view.loc (thr d L) ↦{fullShare} G) ∗ ((bS).view.loc (thr d L) ↦{fullShare} fS)) : sProp (𝕄 (F := F)))
        ⊢ wp frame (wpE (defs₀ (F := F)) 𝒱₀ (thr d L) none) Set.univ
            (k0_t2_body L xV (Memref.isWhole_whole _) sV (Memref.isWhole_whole _) oV (Memref.isWhole_whole _)
              b0 (Memref.isWhole_whole _) b1 (Memref.isWhole_whole _) b2 (Memref.isWhole_whole _) bS (Memref.isWhole_whole _)
              cc0_scratch4 cc0_scratch5 cc0_scratch6 cc0_scratch7 cc0_scratch8 cc0_scratch9 cc0_scoped0 v2 a0 a1 g v41 k ⟨⟩)
            (fun _ => iprop(((b0).view.loc (thr d L) ↦{fullShare} (b0).view.writes (Elt F) G (Lp G fS))
              ∗ ((bS).view.loc (thr d L) ↦{fullShare} fS))) := by
  refine ⟨?_, fun G fS => ?run⟩
  case run =>
    delta k0_t2_body
    iintro ⟨H0, HS⟩
    sl_exec_parts
    sl_step
    sl_close

/-- The slot after the first `k` trips of scaling loop 2. -/
def iter2 (v2 a0 a1 : BitVec 32) (g : Fin k0_t1_loop.trips) (v41 : BitVec 32) (fS : Buf (Elt F) ((bS).view.loc (thr d L))) : ℕ → Buf (Elt F) ((b0).view.loc (thr d L)) → Buf (Elt F) ((b0).view.loc (thr d L))
  | 0, G => G
  | k + 1, G => if h : k < k0_t2_loop.trips then
      (b0).view.writes (Elt F) (iter2 v2 a0 a1 g v41 fS k G) ((trip2 d L v2 a0 a1 g v41 ⟨k, h⟩).1 (iter2 v2 a0 a1 g v41 fS k G) fS)
    else iter2 v2 a0 a1 g v41 fS k G

theorem iter2_succ (v2 a0 a1 : BitVec 32) (g : Fin k0_t1_loop.trips) (v41 : BitVec 32) (fS : Buf (Elt F) ((bS).view.loc (thr d L))) (k : Fin k0_t2_loop.trips) (G : Buf (Elt F) ((b0).view.loc (thr d L))) :
    iter2 d L v2 a0 a1 g v41 fS (k.val + 1) G
      = (b0).view.writes (Elt F) (iter2 d L v2 a0 a1 g v41 fS k.val G) ((trip2 d L v2 a0 a1 g v41 k).1 (iter2 d L v2 a0 a1 g v41 fS k.val G) fS) := by
  rw [iter2]; exact dif_pos k.isLt

/-- One trip of scaling loop 3: what it stores over the slot's contents `G`, given the scale table `fS`. -/
@[irreducible] def trip3 (v2 : BitVec 32) (g : Fin k0_t1_loop.trips) (a15 v61 a0 a1 : BitVec 32) (k : Fin k0_t3_loop.trips) :
    Σ' (Lp : Buf (Elt F) ((b1).view.loc (thr d L)) → Buf (Elt F) ((bS).view.loc (thr d L)) → List (View.Piece (Elt F) S32x1024 .f32)),
      ∀ (G : Buf (Elt F) ((b1).view.loc (thr d L))) (fS : Buf (Elt F) ((bS).view.loc (thr d L))),
        (iprop(((b1).view.loc (thr d L) ↦{fullShare} G) ∗ ((bS).view.loc (thr d L) ↦{fullShare} fS)) : sProp (𝕄 (F := F)))
        ⊢ wp frame (wpE (defs₀ (F := F)) 𝒱₀ (thr d L) none) Set.univ
            (k0_t3_body L xV (Memref.isWhole_whole _) sV (Memref.isWhole_whole _) oV (Memref.isWhole_whole _)
              b0 (Memref.isWhole_whole _) b1 (Memref.isWhole_whole _) b2 (Memref.isWhole_whole _) bS (Memref.isWhole_whole _)
              cc0_scratch4 cc0_scratch5 cc0_scratch6 cc0_scratch7 cc0_scratch8 cc0_scratch9 cc0_scoped0 v2 g a15 v61 a0 a1 k ⟨⟩)
            (fun _ => iprop(((b1).view.loc (thr d L) ↦{fullShare} (b1).view.writes (Elt F) G (Lp G fS))
              ∗ ((bS).view.loc (thr d L) ↦{fullShare} fS))) := by
  refine ⟨?_, fun G fS => ?run⟩
  case run =>
    delta k0_t3_body
    iintro ⟨H0, HS⟩
    sl_exec_parts
    sl_step
    sl_close

/-- The slot after the first `k` trips of scaling loop 3. -/
def iter3 (v2 : BitVec 32) (g : Fin k0_t1_loop.trips) (a15 v61 a0 a1 : BitVec 32) (fS : Buf (Elt F) ((bS).view.loc (thr d L))) : ℕ → Buf (Elt F) ((b1).view.loc (thr d L)) → Buf (Elt F) ((b1).view.loc (thr d L))
  | 0, G => G
  | k + 1, G => if h : k < k0_t3_loop.trips then
      (b1).view.writes (Elt F) (iter3 v2 g a15 v61 a0 a1 fS k G) ((trip3 d L v2 g a15 v61 a0 a1 ⟨k, h⟩).1 (iter3 v2 g a15 v61 a0 a1 fS k G) fS)
    else iter3 v2 g a15 v61 a0 a1 fS k G

theorem iter3_succ (v2 : BitVec 32) (g : Fin k0_t1_loop.trips) (a15 v61 a0 a1 : BitVec 32) (fS : Buf (Elt F) ((bS).view.loc (thr d L))) (k : Fin k0_t3_loop.trips) (G : Buf (Elt F) ((b1).view.loc (thr d L))) :
    iter3 d L v2 g a15 v61 a0 a1 fS (k.val + 1) G
      = (b1).view.writes (Elt F) (iter3 d L v2 g a15 v61 a0 a1 fS k.val G) ((trip3 d L v2 g a15 v61 a0 a1 k).1 (iter3 d L v2 g a15 v61 a0 a1 fS k.val G) fS) := by
  rw [iter3]; exact dif_pos k.isLt

/-- One trip of scaling loop 4: what it stores over the slot's contents `G`, given the scale table `fS`. -/
@[irreducible] def trip4 (v2 : BitVec 32) (g : Fin k0_t1_loop.trips) (a15 v61 a0 a1 v81 : BitVec 32) (k : Fin k0_t4_loop.trips) :
    Σ' (Lp : Buf (Elt F) ((b2).view.loc (thr d L)) → Buf (Elt F) ((bS).view.loc (thr d L)) → List (View.Piece (Elt F) S32x1024 .f32)),
      ∀ (G : Buf (Elt F) ((b2).view.loc (thr d L))) (fS : Buf (Elt F) ((bS).view.loc (thr d L))),
        (iprop(((b2).view.loc (thr d L) ↦{fullShare} G) ∗ ((bS).view.loc (thr d L) ↦{fullShare} fS)) : sProp (𝕄 (F := F)))
        ⊢ wp frame (wpE (defs₀ (F := F)) 𝒱₀ (thr d L) none) Set.univ
            (k0_t4_body L xV (Memref.isWhole_whole _) sV (Memref.isWhole_whole _) oV (Memref.isWhole_whole _)
              b0 (Memref.isWhole_whole _) b1 (Memref.isWhole_whole _) b2 (Memref.isWhole_whole _) bS (Memref.isWhole_whole _)
              cc0_scratch4 cc0_scratch5 cc0_scratch6 cc0_scratch7 cc0_scratch8 cc0_scratch9 cc0_scoped0 v2 g a15 v61 a0 a1 v81 k ⟨⟩)
            (fun _ => iprop(((b2).view.loc (thr d L) ↦{fullShare} (b2).view.writes (Elt F) G (Lp G fS))
              ∗ ((bS).view.loc (thr d L) ↦{fullShare} fS))) := by
  refine ⟨?_, fun G fS => ?run⟩
  case run =>
    delta k0_t4_body
    iintro ⟨H0, HS⟩
    sl_exec_parts
    sl_step
    sl_close

/-- The slot after the first `k` trips of scaling loop 4. -/
def iter4 (v2 : BitVec 32) (g : Fin k0_t1_loop.trips) (a15 v61 a0 a1 v81 : BitVec 32) (fS : Buf (Elt F) ((bS).view.loc (thr d L))) : ℕ → Buf (Elt F) ((b2).view.loc (thr d L)) → Buf (Elt F) ((b2).view.loc (thr d L))
  | 0, G => G
  | k + 1, G => if h : k < k0_t4_loop.trips then
      (b2).view.writes (Elt F) (iter4 v2 g a15 v61 a0 a1 v81 fS k G) ((trip4 d L v2 g a15 v61 a0 a1 v81 ⟨k, h⟩).1 (iter4 v2 g a15 v61 a0 a1 v81 fS k G) fS)
    else iter4 v2 g a15 v61 a0 a1 v81 fS k G

theorem iter4_succ (v2 : BitVec 32) (g : Fin k0_t1_loop.trips) (a15 v61 a0 a1 v81 : BitVec 32) (fS : Buf (Elt F) ((bS).view.loc (thr d L))) (k : Fin k0_t4_loop.trips) (G : Buf (Elt F) ((b2).view.loc (thr d L))) :
    iter4 d L v2 g a15 v61 a0 a1 v81 fS (k.val + 1) G
      = (b2).view.writes (Elt F) (iter4 d L v2 g a15 v61 a0 a1 v81 fS k.val G) ((trip4 d L v2 g a15 v61 a0 a1 v81 k).1 (iter4 d L v2 g a15 v61 a0 a1 v81 fS k.val G) fS) := by
  rw [iter4]; exact dif_pos k.isLt

/-- One trip of scaling loop 5: what it stores over the slot's contents `G`, given the scale table `fS`. -/
@[irreducible] def trip5  (k : Fin k0_t5_loop.trips) :
    Σ' (Lp : Buf (Elt F) ((b0).view.loc (thr d L)) → Buf (Elt F) ((bS).view.loc (thr d L)) → List (View.Piece (Elt F) S32x1024 .f32)),
      ∀ (G : Buf (Elt F) ((b0).view.loc (thr d L))) (fS : Buf (Elt F) ((bS).view.loc (thr d L))),
        (iprop(((b0).view.loc (thr d L) ↦{fullShare} G) ∗ ((bS).view.loc (thr d L) ↦{fullShare} fS)) : sProp (𝕄 (F := F)))
        ⊢ wp frame (wpE (defs₀ (F := F)) 𝒱₀ (thr d L) none) Set.univ
            (k0_t5_body L xV (Memref.isWhole_whole _) sV (Memref.isWhole_whole _) oV (Memref.isWhole_whole _)
              b0 (Memref.isWhole_whole _) b1 (Memref.isWhole_whole _) b2 (Memref.isWhole_whole _) bS (Memref.isWhole_whole _)
              cc0_scratch4 cc0_scratch5 cc0_scratch6 cc0_scratch7 cc0_scratch8 cc0_scratch9 cc0_scoped0  k ⟨⟩)
            (fun _ => iprop(((b0).view.loc (thr d L) ↦{fullShare} (b0).view.writes (Elt F) G (Lp G fS))
              ∗ ((bS).view.loc (thr d L) ↦{fullShare} fS))) := by
  refine ⟨?_, fun G fS => ?run⟩
  case run =>
    delta k0_t5_body
    iintro ⟨H0, HS⟩
    sl_exec_parts
    sl_step
    sl_close

/-- The slot after the first `k` trips of scaling loop 5. -/
def iter5  (fS : Buf (Elt F) ((bS).view.loc (thr d L))) : ℕ → Buf (Elt F) ((b0).view.loc (thr d L)) → Buf (Elt F) ((b0).view.loc (thr d L))
  | 0, G => G
  | k + 1, G => if h : k < k0_t5_loop.trips then
      (b0).view.writes (Elt F) (iter5  fS k G) ((trip5 d L  ⟨k, h⟩).1 (iter5  fS k G) fS)
    else iter5  fS k G

theorem iter5_succ  (fS : Buf (Elt F) ((bS).view.loc (thr d L))) (k : Fin k0_t5_loop.trips) (G : Buf (Elt F) ((b0).view.loc (thr d L))) :
    iter5 d L  fS (k.val + 1) G
      = (b0).view.writes (Elt F) (iter5 d L  fS k.val G) ((trip5 d L  k).1 (iter5 d L  fS k.val G) fS) := by
  rw [iter5]; exact dif_pos k.isLt

/-- One trip of scaling loop 6: what it stores over the slot's contents `G`, given the scale table `fS`. -/
@[irreducible] def trip6  (k : Fin k0_t6_loop.trips) :
    Σ' (Lp : Buf (Elt F) ((b1).view.loc (thr d L)) → Buf (Elt F) ((bS).view.loc (thr d L)) → List (View.Piece (Elt F) S32x1024 .f32)),
      ∀ (G : Buf (Elt F) ((b1).view.loc (thr d L))) (fS : Buf (Elt F) ((bS).view.loc (thr d L))),
        (iprop(((b1).view.loc (thr d L) ↦{fullShare} G) ∗ ((bS).view.loc (thr d L) ↦{fullShare} fS)) : sProp (𝕄 (F := F)))
        ⊢ wp frame (wpE (defs₀ (F := F)) 𝒱₀ (thr d L) none) Set.univ
            (k0_t6_body L xV (Memref.isWhole_whole _) sV (Memref.isWhole_whole _) oV (Memref.isWhole_whole _)
              b0 (Memref.isWhole_whole _) b1 (Memref.isWhole_whole _) b2 (Memref.isWhole_whole _) bS (Memref.isWhole_whole _)
              cc0_scratch4 cc0_scratch5 cc0_scratch6 cc0_scratch7 cc0_scratch8 cc0_scratch9 cc0_scoped0  k ⟨⟩)
            (fun _ => iprop(((b1).view.loc (thr d L) ↦{fullShare} (b1).view.writes (Elt F) G (Lp G fS))
              ∗ ((bS).view.loc (thr d L) ↦{fullShare} fS))) := by
  refine ⟨?_, fun G fS => ?run⟩
  case run =>
    delta k0_t6_body
    iintro ⟨H0, HS⟩
    sl_exec_parts
    sl_step
    sl_close

/-- The slot after the first `k` trips of scaling loop 6. -/
def iter6  (fS : Buf (Elt F) ((bS).view.loc (thr d L))) : ℕ → Buf (Elt F) ((b1).view.loc (thr d L)) → Buf (Elt F) ((b1).view.loc (thr d L))
  | 0, G => G
  | k + 1, G => if h : k < k0_t6_loop.trips then
      (b1).view.writes (Elt F) (iter6  fS k G) ((trip6 d L  ⟨k, h⟩).1 (iter6  fS k G) fS)
    else iter6  fS k G

theorem iter6_succ  (fS : Buf (Elt F) ((bS).view.loc (thr d L))) (k : Fin k0_t6_loop.trips) (G : Buf (Elt F) ((b1).view.loc (thr d L))) :
    iter6 d L  fS (k.val + 1) G
      = (b1).view.writes (Elt F) (iter6 d L  fS k.val G) ((trip6 d L  k).1 (iter6 d L  fS k.val G) fS) := by
  rw [iter6]; exact dif_pos k.isLt

end Cert.Proof.KI

end
-- ==== Proof.KIBodyDefs.lean ====
import proofs.«206558_g86277303042394_cont_sun_m_1099_24_alg».proof.Proof.KIInner
import proofs.«206558_g86277303042394_cont_sun_m_1099_24_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

variable (d : Dev nD) (L : grid0.Coords)

/-! ## The tile's resources, as the run holds them

A chunk of the result is held through its own slice memref. A copy in flight into a slot holds the slot and the lent
part of one read share of x; a copy in flight out of a slot holds the chunk and the slot. For the frame the contents
are left existential. -/

/-- A 32-row slice of the result at row offsets `off`, spelt as the kernel slices it. -/
abbrev oSlice (off : Fin 2 → Nat) (h : ∀ a, off a + S32x1024.size a ≤ S32768x1024.size a) : Memref sig .scVector .hbm S32x1024 .f32 :=
  (oV).slice (Rect.unit (s := S32768x1024) off S32x1024.size h) (fun _ => rfl)

/-- Chunk `j` of the tile's rows of the result, at some contents. -/
def Φc (j : Fin 32) : sProp (𝕄 (F := F)) :=
  iprop(∃ f, (oChunk L j).view.loc (thr d L) ↦[(oChunk L j).view.set]{fullShare} f)

/-- A chunk held through the kernel's own spelling of its slice is that chunk. -/
theorem chunk_fold {off : Fin 2 → Nat} (h : ∀ a, off a + S32x1024.size a ≤ S32768x1024.size a) (j : Fin 32) (e : off = offC L j)
    (f : Buf (Elt F) ((oSlice off h).view.loc (thr d L))) :
    ((oSlice off h).view.loc (thr d L) ↦[(oSlice off h).view.set]{fullShare} f : sProp (𝕄 (F := F))) ⊢ Φc d L j := by
  subst e
  unfold Φc
  iintro H; iexists f; iexact H

theorem chunk_unfold {off : Fin 2 → Nat} (h : ∀ a, off a + S32x1024.size a ≤ S32768x1024.size a) (j : Fin 32) (e : off = offC L j) :
    Φc (F := F) d L j ⊢ iprop(∃ f, (oSlice off h).view.loc (thr d L) ↦[(oSlice off h).view.set]{fullShare} f) := by
  subst e
  unfold Φc
  iintro H; iexact H

/-- A copy into slot `b` in flight on cell `sm`, out of the read share `t` of x. -/
def InFlight (sm : DmaSems sig S_) (b : Memref sig .scVector .vmem S32x1024 .f32) (t : PosShare TreeShare)
    (X : Buf (Elt F) ((xV).view.loc (thr d L))) : sProp (𝕄 (F := F)) :=
  iprop(∃ (I : Finset (Idx ((xV).view.loc (thr d L)))) (f : Buf (Elt F) (b.view.loc (thr d L))),
    Transfers.Flight countersEmb (thr d L) (SemLoc.dma sm.sem) default 1048576
        iprop((b.view.loc (thr d L) ↦{fullShare} f) ∗ ((xV).view.loc (thr d L) ↦[I]{t} X))
      ∗ ((xV).view.loc (thr d L) ↦[Finset.univ \ I]{t} X))

/-- A copy out of slot `b` into chunk `j` in flight on cell `sm`. -/
def OutFlight (sm : DmaSems sig S_) (b : Memref sig .scVector .vmem S32x1024 .f32) (j : Fin 32) : sProp (𝕄 (F := F)) :=
  iprop(∃ (fo : Buf (Elt F) ((oChunk L j).view.loc (thr d L))) (f : Buf (Elt F) (b.view.loc (thr d L))),
    Transfers.Flight countersEmb (thr d L) (SemLoc.dma sm.sem) default 1048576
        iprop(((oChunk L j).view.loc (thr d L) ↦[(oChunk L j).view.set]{fullShare} fo) ∗ (b.view.loc (thr d L) ↦[b.view.set]{fullShare} f))
      ∗ (b.view.loc (thr d L) ↦[Finset.univ \ b.view.set]{fullShare} f))

theorem outFlight_fold (sm : DmaSems sig S_) (b : Memref sig .scVector .vmem S32x1024 .f32)
    {off : Fin 2 → Nat} (h : ∀ a, off a + S32x1024.size a ≤ S32768x1024.size a) (j : Fin 32) (e : off = offC L j)
    (fo : Buf (Elt F) ((oSlice off h).view.loc (thr d L))) (f : Buf (Elt F) (b.view.loc (thr d L))) :
    (iprop(Transfers.Flight countersEmb (thr d L) (SemLoc.dma sm.sem) default 1048576
        iprop(((oSlice off h).view.loc (thr d L) ↦[(oSlice off h).view.set]{fullShare} fo) ∗ (b.view.loc (thr d L) ↦[b.view.set]{fullShare} f))
      ∗ (b.view.loc (thr d L) ↦[Finset.univ \ b.view.set]{fullShare} f)) : sProp (𝕄 (F := F))) ⊢ OutFlight d L sm b j := by
  subst e
  unfold OutFlight
  iintro ⟨Hf, Hr⟩
  iexists fo, f
  isplitl [Hf]
  · iexact Hf
  · iexact Hr

/-! ## Chunk numbers -/

theorem trips1 : k0_t1_loop.trips ≤ 10 := k0_t1_abs.2.1

/-- Chunk `3g + r` of group `g`. -/
def ch (g : Fin k0_t1_loop.trips) (r : Fin 3) : Fin 32 :=
  ⟨3 * g.val + r.val, by have := g.isLt; have := trips1; have := r.isLt; omega⟩

/-- The chunk whose copy out is in flight when group `g ≥ 1` begins: `3g − 1`. -/
def fl (g : ℕ) : Fin 32 := ⟨(3 * g + 31) % 32, Nat.mod_lt _ (by decide)⟩

theorem fl_succ (g : Fin k0_t1_loop.trips) : fl (g.val + 1) = ch g 2 := by
  have := g.isLt; have := trips1
  apply Fin.ext; show (3 * (g.val + 1) + 31) % 32 = 3 * g.val + 2; omega

theorem ch_ne (g : Fin k0_t1_loop.trips) {r r' : Fin 3} (h : r ≠ r') : ch g r ≠ ch g r' := by
  intro e; apply h; apply Fin.ext
  have := congrArg Fin.val e; simp only [ch] at this; omega

theorem fl_ne_ch (g : Fin k0_t1_loop.trips) (r : Fin 3) : fl g.val ≠ ch g r := by
  have := g.isLt; have := trips1; have := r.isLt
  intro e; have := congrArg Fin.val e; simp only [ch, fl] at this; omega

/-- The kernel's offsets of a group's chunks are the chunks'. -/
theorem off3_eq (g : Fin k0_t1_loop.trips) (r : Fin 3) : k0_off3 L g (BitVec.ofNat 32 r.val) = offC L (ch g r) := by
  rw [k0_off3_eq]; unfold offC ch
  funext a; fin_cases a <;> simp <;> ring

/-- The chunks held while group `g` begins: all of them at the first group, all but the one in flight later. -/
def heldSet (g : ℕ) : Finset (Fin 32) := if g = 0 then Finset.univ else Finset.univ.erase (fl g)

theorem swap_chunk (a j : Fin 32) (h : a ≠ j) :
    (iprop(Φc d L a ∗ bigSep ((Finset.univ.erase a).erase j) (Φc d L)) : sProp (𝕄 (F := F))) = bigSep (Finset.univ.erase j) (Φc d L) := by
  rw [Finset.erase_right_comm, ← SparseCore.bigSep_erase' (Finset.mem_erase.mpr ⟨h, Finset.mem_univ a⟩)]

/-! ## The scaling loops' frame invariants: the slot at some contents, the table as it is -/

def invB (b : Memref sig .scVector .vmem S32x1024 .f32) (fS : Buf (Elt F) ((bS).view.loc (thr d L))) (_ : Nat) (_ : PUnit) : sProp (𝕄 (F := F)) :=
  iprop((∃ G, b.view.loc (thr d L) ↦{fullShare} G) ∗ ((bS).view.loc (thr d L) ↦{fullShare} fS))

theorem loopStep2 (fS : Buf (Elt F) ((bS).view.loc (thr d L))) (v2 a0 a1 : BitVec 32) (g : Fin k0_t1_loop.trips) (v41 : BitVec 32) (k : Fin k0_t2_loop.trips) (acc : PUnit) :
    invB (F := F) d L b0 fS k.val acc
      ⊢ wp frame (wpE (defs₀ (F := F)) 𝒱₀ (thr d L) none) Set.univ
          (k0_t2_body L xV (Memref.isWhole_whole _) sV (Memref.isWhole_whole _) oV (Memref.isWhole_whole _)
              b0 (Memref.isWhole_whole _) b1 (Memref.isWhole_whole _) b2 (Memref.isWhole_whole _) bS (Memref.isWhole_whole _)
              cc0_scratch4 cc0_scratch5 cc0_scratch6 cc0_scratch7 cc0_scratch8 cc0_scratch9 cc0_scoped0 v2 a0 a1 g v41 k acc)
          (invB d L b0 fS (k.val + 1)) := by
  unfold invB
  iintro ⟨⟨%G, H0⟩, HS⟩
  iapply (((trip2 d L v2 a0 a1 g v41 k).2 G fS).trans (wp_mono frame _ _ fun _ => (by
    iintro ⟨H0, HS⟩
    isplitl [H0]
    · iexists _; iexact H0
    · iexact HS)))
  isplitl [H0]
  · iexact H0
  · iexact HS

theorem loopStep3 (fS : Buf (Elt F) ((bS).view.loc (thr d L))) (v2 : BitVec 32) (g : Fin k0_t1_loop.trips) (a15 v61 a0 a1 : BitVec 32) (k : Fin k0_t3_loop.trips) (acc : PUnit) :
    invB (F := F) d L b1 fS k.val acc
      ⊢ wp frame (wpE (defs₀ (F := F)) 𝒱₀ (thr d L) none) Set.univ
          (k0_t3_body L xV (Memref.isWhole_whole _) sV (Memref.isWhole_whole _) oV (Memref.isWhole_whole _)
              b0 (Memref.isWhole_whole _) b1 (Memref.isWhole_whole _) b2 (Memref.isWhole_whole _) bS (Memref.isWhole_whole _)
              cc0_scratch4 cc0_scratch5 cc0_scratch6 cc0_scratch7 cc0_scratch8 cc0_scratch9 cc0_scoped0 v2 g a15 v61 a0 a1 k acc)
          (invB d L b1 fS (k.val + 1)) := by
  unfold invB
  iintro ⟨⟨%G, H0⟩, HS⟩
  iapply (((trip3 d L v2 g a15 v61 a0 a1 k).2 G fS).trans (wp_mono frame _ _ fun _ => (by
    iintro ⟨H0, HS⟩
    isplitl [H0]
    · iexists _; iexact H0
    · iexact HS)))
  isplitl [H0]
  · iexact H0
  · iexact HS

theorem loopStep4 (fS : Buf (Elt F) ((bS).view.loc (thr d L))) (v2 : BitVec 32) (g : Fin k0_t1_loop.trips) (a15 v61 a0 a1 v81 : BitVec 32) (k : Fin k0_t4_loop.trips) (acc : PUnit) :
    invB (F := F) d L b2 fS k.val acc
      ⊢ wp frame (wpE (defs₀ (F := F)) 𝒱₀ (thr d L) none) Set.univ
          (k0_t4_body L xV (Memref.isWhole_whole _) sV (Memref.isWhole_whole _) oV (Memref.isWhole_whole _)
              b0 (Memref.isWhole_whole _) b1 (Memref.isWhole_whole _) b2 (Memref.isWhole_whole _) bS (Memref.isWhole_whole _)
              cc0_scratch4 cc0_scratch5 cc0_scratch6 cc0_scratch7 cc0_scratch8 cc0_scratch9 cc0_scoped0 v2 g a15 v61 a0 a1 v81 k acc)
          (invB d L b2 fS (k.val + 1)) := by
  unfold invB
  iintro ⟨⟨%G, H0⟩, HS⟩
  iapply (((trip4 d L v2 g a15 v61 a0 a1 v81 k).2 G fS).trans (wp_mono frame _ _ fun _ => (by
    iintro ⟨H0, HS⟩
    isplitl [H0]
    · iexists _; iexact H0
    · iexact HS)))
  isplitl [H0]
  · iexact H0
  · iexact HS

theorem loopStep5 (fS : Buf (Elt F) ((bS).view.loc (thr d L)))  (k : Fin k0_t5_loop.trips) (acc : PUnit) :
    invB (F := F) d L b0 fS k.val acc
      ⊢ wp frame (wpE (defs₀ (F := F)) 𝒱₀ (thr d L) none) Set.univ
          (k0_t5_body L xV (Memref.isWhole_whole _) sV (Memref.isWhole_whole _) oV (Memref.isWhole_whole _)
              b0 (Memref.isWhole_whole _) b1 (Memref.isWhole_whole _) b2 (Memref.isWhole_whole _) bS (Memref.isWhole_whole _)
              cc0_scratch4 cc0_scratch5 cc0_scratch6 cc0_scratch7 cc0_scratch8 cc0_scratch9 cc0_scoped0  k acc)
          (invB d L b0 fS (k.val + 1)) := by
  unfold invB
  iintro ⟨⟨%G, H0⟩, HS⟩
  iapply (((trip5 d L  k).2 G fS).trans (wp_mono frame _ _ fun _ => (by
    iintro ⟨H0, HS⟩
    isplitl [H0]
    · iexists _; iexact H0
    · iexact HS)))
  isplitl [H0]
  · iexact H0
  · iexact HS

theorem loopStep6 (fS : Buf (Elt F) ((bS).view.loc (thr d L)))  (k : Fin k0_t6_loop.trips) (acc : PUnit) :
    invB (F := F) d L b1 fS k.val acc
      ⊢ wp frame (wpE (defs₀ (F := F)) 𝒱₀ (thr d L) none) Set.univ
          (k0_t6_body L xV (Memref.isWhole_whole _) sV (Memref.isWhole_whole _) oV (Memref.isWhole_whole _)
              b0 (Memref.isWhole_whole _) b1 (Memref.isWhole_whole _) b2 (Memref.isWhole_whole _) bS (Memref.isWhole_whole _)
              cc0_scratch4 cc0_scratch5 cc0_scratch6 cc0_scratch7 cc0_scratch8 cc0_scratch9 cc0_scoped0  k acc)
          (invB d L b1 fS (k.val + 1)) := by
  unfold invB
  iintro ⟨⟨%G, H0⟩, HS⟩
  iapply (((trip6 d L  k).2 G fS).trans (wp_mono frame _ _ fun _ => (by
    iintro ⟨H0, HS⟩
    isplitl [H0]
    · iexists _; iexact H0
    · iexact HS)))
  isplitl [H0]
  · iexact H0
  · iexact HS

end Cert.Proof.KI

end
-- ==== Proof.KILaunch1.lean ====
/-
  The launch of the idealized dropout kernel, first part: what the launch theorem asks of the call beside the tile's
  body. The body enters as a hypothesis (`BodySpec`); from it the tile obligation, the identity split of a SparseCore's
  operands into its sixteen tiles', the launch element (the handshakes' rounds; the transfer counters are dropped), and
  the two array lemmas: x and the scale table go out as 32 read shares, one per tile (tile w = 2·s + c), and the result
  as its 1024 chunks of 32 rows (32 per tile), which are pairwise disjoint and cover the array.
-/
import proofs.«206558_g86277303042394_cont_sun_m_1099_24_alg».proof.Proof.KIPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.Tactic

variable {F : FTy → Type} [FloatOps F]

section Launch

variable (X : (d : Dev nD) → Buf (Elt F) (xLoc d)) (SC : (d : Dev nD) → Buf (Elt F) (sLoc d)) (O0 : (d : Dev nD) → Buf (Elt F) (oLoc d))

/-! ## The body, as the tile obligation takes it -/

/-- The tile's body at a symbolic place: from its operands (its read shares of x and of the table, its 32 chunks of the
    result at the launch contents) to the same with the chunks at the result function. -/
def BodySpec : Prop :=
  ∀ (d : Dev nD) (L : grid0.Coords) (O : CellTallies nD τ sig (HIx 1)) (W : Waits sig (HIx 1)), (∀ g, O g none = 0) →
    iprop(levAts (K (F := F)).L (K (F := F)).lev ∗ emp ∗ goL X SC O0 d L ∗ scopedBufs (thr d L) ∗ scopedSems0 (thr d L) ∗ owes (thr d L) O W)
      ⊢ wp frame (wpE (defs₀ (F := F)) 𝒱₀ (thr d L) none) Set.univ
          (cc0__sc_dropout L xV (Memref.isWhole_whole _) sV (Memref.isWhole_whole _) oV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8 cc0_scratch9 cc0_scoped0)
          fun _ => iprop(tdL X SC d L ∗ scopedBufs (thr d L) ∗ scopedSems0 (thr d L) ∗ ∃ W', ⌜∀ p ∈ W', p ∈ W ∨ p.2 = none⌝ ∗ owes (thr d L) O W')

/-! ## The payloads are storable -/

instance tileRes_storable (d : Dev nD) (L : grid0.Coords) (f : Buf (Elt F) (oLoc d)) :
    BI.Storable (upEmb : UEmb _ (𝕄 (F := F))) (tileRes X SC d L f) := by
  unfold tileRes; infer_instance

instance goN_storable (d : Dev nD) (c s : ℕ) : BI.Storable (upEmb : UEmb _ (𝕄 (F := F))) (goN X SC O0 d c s) := by
  unfold goN goL; split <;> infer_instance
instance tdN_storable (d : Dev nD) (c s : ℕ) : BI.Storable (upEmb : UEmb _ (𝕄 (F := F))) (tdN X SC d c s) := by
  unfold tdN tdL; split <;> infer_instance

instance P_storable : (P X SC O0).IsStorable where
  st _ d c := by unfold P; infer_instance
  dn _ d c := by unfold P; infer_instance
  go _ d c i := by unfold P; infer_instance
  td _ d c i := by unfold P; infer_instance

/-! ## A SparseCore's operands are its tiles' -/

theorem vecSplit : (K (F := F)).VecSplit' (P X SC O0) 0 := by
  intro d c
  show (bigSep Finset.univ fun i : Fin ((K (F := F)).nSub 0) => goN X SC O0 d c.val i.val)
    ⊢ |={Set.univ}=> iprop((bigSep Finset.univ fun i : Fin ((K (F := F)).nSub 0) => goN X SC O0 d c.val i.val)
        ∗ ((bigSep Finset.univ fun i : Fin ((K (F := F)).nSub 0) => tdN X SC d c.val i.val)
          -∗ bigSep Finset.univ fun i : Fin ((K (F := F)).nSub 0) => tdN X SC d c.val i.val))
  iintro H; imodintro
  isplitl [H]; · iexact H
  iintro H; iexact H

/-! ## The tile obligation -/

theorem defs₀_vector (c : Fin τ.nSC) (s : Fin τ.nSub) :
    defs₀ (F := F) (.scVector c s) 0 ()
      = SparseCore.onTile hcore0 hsub0 (fun c s => cc0__sc_dropout (coordsV c s) xV (Memref.isWhole_whole _) sV (Memref.isWhole_whole _) oV (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7 cc0_scratch8 cc0_scratch9 cc0_scoped0) ⟨⟩ c s := rfl

omit [FloatOps F] in
theorem obl_post {thr : Thread nD τ} {A B C : sProp (𝕄 (F := F))} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hbody : BodySpec X SC O0) : (K (F := F)).TileObl (D (F := F)) 𝒱 (P X SC O0) v₀ 0 := by
  intro d c i O W hO _ _
  -- the kernel owes nothing for a protocol of its own
  simp only [show (P X SC O0).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hgo : (P X SC O0).go 0 d c i = goL X SC O0 d (coordsV ⟨_, hc.1⟩ ⟨_, hc.2⟩) := goN_eq X SC O0 d ⟨_, hc.1⟩ ⟨_, hc.2⟩
  have htd : (P X SC O0).td 0 d c i = tdL X SC d (coordsV ⟨_, hc.1⟩ ⟨_, hc.2⟩) := tdN_eq X SC d ⟨_, hc.1⟩ ⟨_, hc.2⟩
  rw [hgo, htd]
  exact (hbody d (coordsV ⟨_, hc.1⟩ ⟨_, hc.2⟩) O W hO).trans (wp_mono frame _ _ fun _ => obl_post)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp (𝕄 (F := F))) := bigSep_emp_const s

theorem hu₀ : (ownU (u₀ (F := F)) : sProp (𝕄 (F := F)))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P X SC O0).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp (𝕄 (F := F)))) = iprop(emp) from by
    rw [bigSep_congr fun _ _ => bigSep_emp' _, bigSep_emp']]
  iempintro

/-! ## The arrays dealt to the 32 tiles and gathered back -/

/-- The tile numbering: tile (c, s) is worker 2·s + c. -/
def eW : Fin (grid0.bound 0) × Fin (grid0.bound 1) ≃ Fin 32 where
  toFun p := ⟨2 * p.2.val + p.1.val, by have h1 : p.1.val < 2 := p.1.isLt; have h2 : p.2.val < 16 := p.2.isLt; omega⟩
  invFun w := (⟨w.val % 2, Nat.mod_lt _ (by decide)⟩, ⟨w.val / 2, by have := w.isLt; show w.val / 2 < 16; omega⟩)
  left_inv p := by
    have h1 : p.1.val < 2 := p.1.isLt
    have h2 : p.2.val < 16 := p.2.isLt
    refine Prod.ext (Fin.ext ?_) (Fin.ext ?_)
    · show (2 * p.2.val + p.1.val) % 2 = p.1.val; omega
    · show (2 * p.2.val + p.1.val) / 2 = p.2.val; omega
  right_inv w := by
    refine Fin.ext ?_
    show 2 * (w.val / 2) + w.val % 2 = w.val; omega

omit [FloatOps F] in
theorem wid_coordsV (c : Fin (grid0.bound 0)) (s : Fin (grid0.bound 1)) : wid (coordsV c s) = eW (c, s) := rfl

omit [FloatOps F] in
/-- 32 read shares, one per worker, are one per tile. -/
theorem shares_tiles (ℓ : Loc nD τ sig) (f : Buf (Elt F) ℓ) :
    (bigSep Finset.univ fun w : Fin 32 => (ℓ ↦{shareTok fullShare 32 w} f : sProp (𝕄 (F := F))))
      = bigSep Finset.univ fun c : Fin (grid0.bound 0) => bigSep Finset.univ fun s : Fin (grid0.bound 1) => ℓ ↦{qT (coordsV c s)} f := by
  rw [BI.bigSep_univ_equiv eW, BI.bigSep_univ_prod]; rfl

/-- The chunks' element sets, indexed by tile and chunk. -/
abbrev CS (p : (Fin (grid0.bound 0) × Fin (grid0.bound 1)) × Fin 32) : Finset S32768x1024.Idx := (oChunk (coordsV p.1.1 p.1.2) p.2).view.set

omit [FloatOps F] in
/-- Chunk (c, s, j) is the rows of 32-row block number 32·(2·s + c) + j. -/
theorem mem_CS (p : (Fin (grid0.bound 0) × Fin (grid0.bound 1)) × Fin 32) (i : S32768x1024.Idx) :
    i ∈ CS p ↔ (i 0).val / 32 = 32 * (2 * p.1.2.val + p.1.1.val) + p.2.val := by
  have e0 : offC (coordsV p.1.1 p.1.2) p.2 0 = 2048 * p.1.2.val + 1024 * p.1.1.val + 32 * p.2.val := rfl
  have e1 : offC (coordsV p.1.1 p.1.2) p.2 1 = 0 := rfl
  have z0 : S32x1024.size 0 = 32 := rfl
  have z1 : S32x1024.size 1 = 1024 := rfl
  have hi1 : (i 1).val < 1024 := (i 1).isLt
  show i ∈ ((View.whole (main_v16_scv : Ref sig .scVector)).slice (rectC (coordsV p.1.1 p.1.2) p.2)).set ↔ _
  rw [View.set_slice_whole, Rect.mem_set_unit]
  constructor
  · intro h
    have h0 := h 0
    rw [e0, z0] at h0
    omega
  · intro h a
    match a with
    | 0 => rw [e0, z0]; omega
    | 1 => rw [e1, z1]; omega

omit [FloatOps F] in
theorem CS_disjoint : ∀ p ∈ (Finset.univ : Finset ((Fin (grid0.bound 0) × Fin (grid0.bound 1)) × Fin 32)), ∀ p' ∈ (Finset.univ : Finset ((Fin (grid0.bound 0) × Fin (grid0.bound 1)) × Fin 32)),
    p ≠ p' → Disjoint (CS p) (CS p') := by
  intro p _ p' _ hne
  refine Finset.disjoint_left.mpr fun i h1 h2 => hne ?_
  have e1 := (mem_CS p i).mp h1
  have e2 := (mem_CS p' i).mp h2
  have a1 : p.1.1.val < 2 := p.1.1.isLt
  have a2 : p.1.2.val < 16 := p.1.2.isLt
  have a3 : p.2.val < 32 := p.2.isLt
  have b1 : p'.1.1.val < 2 := p'.1.1.isLt
  have b2 : p'.1.2.val < 16 := p'.1.2.isLt
  have b3 : p'.2.val < 32 := p'.2.isLt
  refine Prod.ext (Prod.ext (Fin.ext ?_) (Fin.ext ?_)) (Fin.ext ?_) <;> omega

omit [FloatOps F] in
theorem CS_cover : (Finset.univ : Finset ((Fin (grid0.bound 0) × Fin (grid0.bound 1)) × Fin 32)).biUnion CS = Finset.univ := by
  ext i
  simp only [Finset.mem_biUnion, Finset.mem_univ, true_and, iff_true]
  have hi0 : (i 0).val < 32768 := (i 0).isLt
  refine ⟨((⟨((i 0).val / 1024) % 2, Nat.mod_lt _ (by decide)⟩, ⟨(i 0).val / 2048, by show _ < 16; omega⟩), ⟨((i 0).val / 32) % 32, Nat.mod_lt _ (by decide)⟩), (mem_CS _ i).mpr ?_⟩
  show (i 0).val / 32 = 32 * (2 * ((i 0).val / 2048) + ((i 0).val / 1024) % 2) + ((i 0).val / 32) % 32
  omega

omit [FloatOps F] in
/-- The result array is its 1024 chunks, per tile. -/
theorem out_chunks (d : Dev nD) (f : Buf (Elt F) (oLoc d)) :
    (bigSep Finset.univ fun c : Fin (grid0.bound 0) => bigSep Finset.univ fun s : Fin (grid0.bound 1) => bigSep Finset.univ fun j : Fin 32 =>
        (oLoc d ↦[(oChunk (coordsV c s) j).view.set]{fullShare} f : sProp (𝕄 (F := F))))
      = (oLoc d ↦{fullShare} f) := by
  have h1 := BI.bigSep_univ_prod (fun p : (Fin (grid0.bound 0) × Fin (grid0.bound 1)) × Fin 32 => (oLoc d ↦[CS p]{fullShare} f : sProp (𝕄 (F := F))))
  have h2 := BI.bigSep_univ_prod (fun a : Fin (grid0.bound 0) × Fin (grid0.bound 1) => bigSep Finset.univ fun b : Fin 32 => (oLoc d ↦[CS (a, b)]{fullShare} f : sProp (𝕄 (F := F))))
  rw [← pointsTo_biUnion Finset.univ (ℓ := oLoc d) CS CS_disjoint, CS_cover] at h1
  exact (h1.trans h2).symm

/-- The tiles' operands at result contents `f`: 32 shares of x, 32 of the table, the result whole. -/
theorem tiles_eq (d : Dev nD) (f : Buf (Elt F) (oLoc d)) :
    (bigSep Finset.univ fun c : Fin (grid0.bound 0) => bigSep Finset.univ fun s : Fin (grid0.bound 1) => tileRes X SC d (coordsV c s) f)
      = iprop((bigSep Finset.univ fun w : Fin 32 => (xLoc d ↦{shareTok fullShare 32 w} X d))
          ∗ (bigSep Finset.univ fun w : Fin 32 => (sLoc d ↦{shareTok fullShare 32 w} SC d))
          ∗ (oLoc d ↦{fullShare} f)) := by
  unfold tileRes
  simp only [bigSep_sep']
  rw [shares_tiles, shares_tiles, out_chunks]

theorem st_eq (d : Dev nD) :
    (bigSep Finset.univ fun c : Fin ((K (F := F)).nCore 0) => (P X SC O0).st 0 d c)
      = bigSep Finset.univ fun c : Fin (grid0.bound 0) => bigSep Finset.univ fun s : Fin (grid0.bound 1) => tileRes X SC d (coordsV c s) (O0 d) := by
  show (bigSep Finset.univ fun c : Fin (grid0.bound 0) => bigSep Finset.univ fun s : Fin (grid0.bound 1) => goN X SC O0 d c.val s.val) = _
  exact bigSep_congr fun c _ => bigSep_congr fun s _ => goN_eq X SC O0 d c s
theorem dn_eq (d : Dev nD) :
    (bigSep Finset.univ fun c : Fin ((K (F := F)).nCore 0) => (P X SC O0).dn 0 d c)
      = bigSep Finset.univ fun c : Fin (grid0.bound 0) => bigSep Finset.univ fun s : Fin (grid0.bound 1) => tileRes X SC d (coordsV c s) (OUTV d (X d) (SC d)) := by
  show (bigSep Finset.univ fun c : Fin (grid0.bound 0) => bigSep Finset.univ fun s : Fin (grid0.bound 1) => tdN X SC d c.val s.val) = _
  exact bigSep_congr fun c _ => bigSep_congr fun s _ => tdN_eq X SC d c s

/-- What stays with the TensorCore during the call: the remainders of x and of the table. -/
def R (d : Dev nD) : sProp (𝕄 (F := F)) := iprop((xLoc d ↦{shareDrop fullShare 32} X d) ∗ (sLoc d ↦{shareDrop fullShare 32} SC d))

theorem deal (d : Dev nD) :
    iprop((xLoc d ↦{fullShare} X d) ∗ (sLoc d ↦{fullShare} SC d) ∗ (oLoc d ↦{fullShare} O0 d))
      ⊢ iprop(R X SC d ∗ bigSep Finset.univ fun c : Fin ((K (F := F)).nCore 0) => (P X SC O0).st 0 d c) := by
  rw [st_eq, tiles_eq]; unfold R
  iintro ⟨Hx, Hs, Ho⟩
  ihave Hx' := (pointsTo_toks_split fullShare 32) $$ Hx
  ihave Hs' := (pointsTo_toks_split fullShare 32) $$ Hs
  icases Hx' with ⟨Hxr, Hxt⟩
  icases Hs' with ⟨Hsr, Hst⟩
  isplitl [Hxr Hsr]
  · isplitl [Hxr]; · iexact Hxr
    iexact Hsr
  isplitl [Hxt]; · iexact Hxt
  isplitl [Hst]; · iexact Hst
  iexact Ho

theorem gather (d : Dev nD) :
    iprop(R X SC d ∗ bigSep Finset.univ fun c : Fin ((K (F := F)).nCore 0) => (P X SC O0).dn 0 d c)
      ⊢ iprop((xLoc d ↦{fullShare} X d) ∗ (sLoc d ↦{fullShare} SC d) ∗ (oLoc d ↦{fullShare} OUTV d (X d) (SC d))) := by
  rw [dn_eq, tiles_eq]; unfold R
  iintro ⟨⟨Hxr, Hsr⟩, Hxt, Hst, Ho⟩
  isplitl [Hxr Hxt]
  · iapply (pointsTo_toks_join fullShare 32)
    isplitl [Hxr]; · iexact Hxr
    iexact Hxt
  isplitl [Hsr Hst]
  · iapply (pointsTo_toks_join fullShare 32)
    isplitl [Hsr]; · iexact Hsr
    iexact Hst
  iexact Ho

end Launch

end Cert.Proof.KI

end
-- ==== Proof.KILaunch2.lean ====
/-
  The launch of the idealized dropout kernel, second part: @main on the TensorCore and the program's run. The host
  operations before the call enter as a list with the facts the run needs of them (`HostFacts`); they run as one
  straight line over the TensorCore's unscoped buffers held whole; x (reshaped), the scale table and the result array
  are taken out, dealt to the 32 tiles, the call runs, they are gathered and put back, the result at the one
  whole-array function; the last reshape runs; the claim reads the reshaped result and the argument off the final memory.
-/
import proofs.«206558_g86277303042394_cont_sun_m_1099_24_alg».proof.Proof.KILaunch1

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within wp_seq after)
open Idealize.ShloMosaic.Tactic

variable {F : FTy → Type} [FloatOps F]

/-! ## The host side, as the run needs it -/

/-- The one host operation after the call: the result reshaped to the argument's shape. -/
abbrev opOut : HloOp τ sig (Elt F) := StableHlo.reshape main_v16 main_v17 rfl shapeCasts_S32768x1024_S4x8192x1024

/-- The TensorCore's unscoped buffers, as device buffers. -/
def tcU : Finset (DevRef τ sig) :=
  (Finset.univ.filter fun b : Ref sig .tc => ¬ b.isScoped).map ⟨Proc.devRef (sig := sig) (.tc : Proc τ), Proc.devRef_injective _⟩

theorem mem_tcU {r : Ref sig .tc} (h : r.isScoped = false) : Proc.devRef (τ := τ) .tc r ∈ tcU :=
  Finset.mem_map_of_mem _ (Finset.mem_filter.mpr ⟨Finset.mem_univ _, by rw [h]; exact Bool.false_ne_true⟩)

/-- A set of device buffers each of which is an unscoped TensorCore reference lies in `tcU`. -/
theorem sub_tcU {B : Finset (DevRef τ sig)} (h : ∀ b ∈ B, ∃ r : Ref sig .tc, r.isScoped = false ∧ Proc.devRef (τ := τ) .tc r = b) : B ⊆ tcU :=
  fun b hb => by obtain ⟨r, hr, rfl⟩ := h b hb; exact mem_tcU hr

/-- No TensorCore buffer of this program is scoped: every TensorCore reference is in `tcU`. -/
theorem noScoped : ∀ r : Ref sig .tc, r.isScoped = false := by decide
theorem tcRefs_sub : StableHlo.tcRefs τ sig ⊆ tcU := fun b hb => by
  obtain ⟨r, -, rfl⟩ := Finset.mem_map.mp hb
  exact mem_tcU (noScoped r)

/-- What the run asks of the host operations before the call. -/
structure HostFacts (hostOps0 : List (HloOp τ sig (Elt F))) : Prop where
  main_eq : ∀ d : Dev nD, main (F := F) d
    = (StableHlo.seq hostOps0 >>= fun _ => sc.run d 0 >>= fun _ => hlo rfl (opOut (F := F)) (fun _ => .ret (⟨⟩ : PUnit)) >>= fun _ => pure (⟨⟩ : PUnit))
  fresh : ∀ op ∈ hostOps0, op.fresh = ∅
  sub : ∀ op ∈ hostOps0, op.bufs ⊆ tcU
  after_arg0 : ∀ V : Valuation τ sig (Elt F), after hostOps0 V (Proc.devRef .tc main_arg0) = V (Proc.devRef .tc main_arg0)

section Run

variable (hostOps0 : List (HloOp τ sig (Elt F))) (m : (ℓ : Loc nD τ sig) → Buf (Elt F) ℓ) (ρ : Dev nD → PrngReg)

abbrev x' : DevRef τ sig := Proc.devRef .tc (main_v14 : Ref sig .tc)
abbrev s' : DevRef τ sig := Proc.devRef .tc (main_v15 : Ref sig .tc)
abbrev o' : DevRef τ sig := Proc.devRef .tc (main_v16 : Ref sig .tc)
abbrev r' : DevRef τ sig := Proc.devRef .tc (main_v17 : Ref sig .tc)
abbrev a' : DevRef τ sig := Proc.devRef .tc (main_arg0 : Ref sig .tc)

/-- The launch valuation; after the host line; after the call (the result array at the whole-array function of x and
    the table as the host line left them); after the last reshape. -/
def V0 (d : Dev nD) : Valuation τ sig (Elt F) := fun b => m (d, b)
def V1 (d : Dev nD) : Valuation τ sig (Elt F) := after hostOps0 (V0 m d)
def XH (d : Dev nD) : Buf (Elt F) (xLoc d) := V1 hostOps0 m d x'
def SH (d : Dev nD) : Buf (Elt F) (sLoc d) := V1 hostOps0 m d s'
def OH (d : Dev nD) : Buf (Elt F) (oLoc d) := V1 hostOps0 m d o'
def V2 (d : Dev nD) : Valuation τ sig (Elt F) := Function.update (V1 hostOps0 m d) o' (OUTV d (XH hostOps0 m d) (SH hostOps0 m d))
def V3 (d : Dev nD) : Valuation τ sig (Elt F) := (opOut (F := F)).result (V2 hostOps0 m d)

/-- The program's result: the call's result array, reshaped. -/
def RES (d : Dev nD) : Buf (Elt F) ((SparseCore.T d : Thread nD τ).loc main_v17) := V3 hostOps0 m d r'

omit [FloatOps F] in
theorem unscoped_held (d : Dev nD) : (unscopedBufs d (fun b => m ((SparseCore.T d).loc b)) : sProp (𝕄 (F := F))) = held (T d) tcU (V0 m d) := by
  unfold unscopedBufs held tcU; rw [bigSep_map]; rfl

abbrev S3 : Finset (DevRef τ sig) := {x', s', o'}
abbrev S2 : Finset (DevRef τ sig) := {r', a'}

omit [FloatOps F] in
theorem held_S3 (d : Dev nD) (W : Valuation τ sig (Elt F)) :
    (held (T d) S3 W : sProp (𝕄 (F := F))) = iprop((xLoc d ↦{fullShare} W x') ∗ (sLoc d ↦{fullShare} W s') ∗ (oLoc d ↦{fullShare} W o')) := by
  unfold held S3
  rw [SparseCore.bigSep_insert' (by decide), SparseCore.bigSep_insert' (by decide), bigSep_singleton]
omit [FloatOps F] in
theorem held_S2 (d : Dev nD) (W : Valuation τ sig (Elt F)) :
    (held (T d) S2 W : sProp (𝕄 (F := F))) = iprop(((SparseCore.T d).loc main_v17 ↦{fullShare} W r') ∗ ((SparseCore.T d).loc main_arg0 ↦{fullShare} W a')) := by
  unfold held S2
  rw [SparseCore.bigSep_insert' (by decide), bigSep_singleton]

theorem S3_sub : S3 ⊆ tcU := by
  intro b hb
  rcases Finset.mem_insert.mp hb with rfl | hb
  · exact mem_tcU rfl
  rcases Finset.mem_insert.mp hb with rfl | hb
  · exact mem_tcU rfl
  · cases Finset.mem_singleton.mp hb; exact mem_tcU rfl
theorem S2_sub : S2 ⊆ tcU := by
  intro b hb
  rcases Finset.mem_insert.mp hb with rfl | hb
  · exact mem_tcU rfl
  · cases Finset.mem_singleton.mp hb; exact mem_tcU rfl
theorem opOut_sub : (opOut (F := F)).bufs ⊆ tcU := by
  intro b hb
  rcases Finset.mem_insert.mp hb with rfl | hb
  · exact mem_tcU rfl
  · cases Finset.mem_singleton.mp hb; exact mem_tcU rfl

/-- Off the result array the call changes nothing. -/
theorem held_rest (d : Dev nD) :
    (held (T d) (tcU \ S3) (V2 hostOps0 m d) : sProp (𝕄 (F := F))) = held (T d) (tcU \ S3) (V1 hostOps0 m d) :=
  held_congr (T d) fun b hb => Function.update_of_ne (fun e => (Finset.mem_sdiff.mp hb).2 (by rw [e]; simp)) _ _

theorem V2_x (d : Dev nD) : V2 hostOps0 m d x' = XH hostOps0 m d := Function.update_of_ne (show x' ≠ o' by decide) _ _
theorem V2_s (d : Dev nD) : V2 hostOps0 m d s' = SH hostOps0 m d := Function.update_of_ne (show s' ≠ o' by decide) _ _
theorem V2_o (d : Dev nD) : V2 hostOps0 m d o' = OUTV d (XH hostOps0 m d) (SH hostOps0 m d) := Function.update_self _ _ _

/-- The program's result as a pure term: the whole-array function of x and the table after the host line, reshaped. -/
theorem RES_eq (d : Dev nD) :
    RES hostOps0 m d = fun i => (rfl : (main_v16 : Ref sig .tc).ty.elt = (main_v17 : Ref sig .tc).ty.elt) ▸
      shapeCast (main_v17 : Ref sig .tc).ty.shape (OUTV d (XH hostOps0 m d) (SH hostOps0 m d)) shapeCasts_S32768x1024_S4x8192x1024 i := by
  unfold RES V3
  rw [StableHlo.reshape_result', V2_o]

/-- What @main leaves the claim: the reshaped result and the argument. -/
def FIN (d : Dev nD) : sProp (𝕄 (F := F)) :=
  iprop(((SparseCore.T d).loc main_v17 ↦{fullShare} V3 hostOps0 m d r') ∗ ((SparseCore.T d).loc main_arg0 ↦{fullShare} V3 hostOps0 m d a'))

variable (H : HostFacts hostOps0)

include H in
/-- The argument is untouched: the host line does not write it, nor the call, nor the last reshape. -/
theorem V3_arg0 (d : Dev nD) : V3 hostOps0 m d a' = m ((SparseCore.T d).loc main_arg0) := by
  unfold V3
  rw [StableHlo.reshape_result_ne (h := show (main_arg0 : Ref sig .tc) ≠ main_v17 by decide)]
  unfold V2
  rw [Function.update_of_ne (show a' ≠ o' by decide)]
  exact H.after_arg0 _

include H in
/-- @main on device `d`'s TensorCore: the host line, the arrays dealt, the call, the arrays gathered, the last reshape. -/
theorem hmain (κ : GSem nD τ sig → ℕ) (d : Dev nD) :
    iprop((K (F := F)).ctx EH (P (XH hostOps0 m) (SH hostOps0 m) (OH hostOps0 m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN hostOps0 m d) := by
  unfold SparseCore.Cfg.tcRes
  rw [unscoped_held, H.main_eq d]
  iintro ⟨#Hctx, Hst, ⟨Hb, Hheld, -, -⟩, -⟩
  -- the host line
  iapply (wp_seq 𝒱 none Set.univ d tcU _ hostOps0 H.sub H.fresh (V0 m d)) $$ [Hb Hheld]
  · isplitl [Hb]; · iexact Hb
    iexact Hheld
  iintro ⟨Hb, Hheld⟩
  -- x, the table and the result array out of the held set, and to the tiles
  ihave Hh := (Entails.of_eq ((show (held (d.tc : Thread nD τ) tcU (after hostOps0 (V0 m d)) : sProp (𝕄 (F := F))) = held (T d) tcU (V1 hostOps0 m d) from rfl).trans <| (held_sub_split (T d) S3_sub (V1 hostOps0 m d)).trans
    (congrArg (fun A => iprop(A ∗ held (T d) (tcU \ S3) (V1 hostOps0 m d))) (held_S3 d _)))) $$ Hheld
  icases Hh with ⟨⟨Hx, Hs, Ho⟩, Hrest⟩
  ihave Hd := (deal (XH hostOps0 m) (SH hostOps0 m) (OH hostOps0 m) d) $$ [Hx Hs Ho]
  · isplitl [Hx]; · iexact Hx
    isplitl [Hs]; · iexact Hs
    iexact Ho
  icases Hd with ⟨HR, Hgo⟩
  simp only [wp_bind, wp_pure]
  -- the call
  iapply ((K (F := F)).wp_run (D (F := F)) 𝒱 (EH := EH) (P := P (XH hostOps0 m) (SH hostOps0 m) (OH hostOps0 m)) κ d 0) $$ [Hst Hgo Hb HR Hrest]
  isplitr; · iexact Hctx
  isplitl [Hst]; · iexact Hst
  isplitl [Hgo]; · iexact Hgo
  iintro ⟨Hst, Hdn⟩
  ihave Hg := (gather (XH hostOps0 m) (SH hostOps0 m) (OH hostOps0 m) d) $$ [HR Hdn]
  · isplitl [HR]; · iexact HR
    iexact Hdn
  icases Hg with ⟨Hx, Hs, Ho⟩
  -- the last reshape, over the set put back
  iapply (wp_hlo_within 𝒱 (SparseCore.T d) none Set.univ (op := opOut) (S := tcU) opOut_sub (V := V2 hostOps0 m d)) $$ [Hb Hx Hs Ho Hrest]
  · isplitl [Hb]; · iexact Hb
    rw [held_sub_split (T d) S3_sub, held_S3, held_rest, V2_x, V2_s, V2_o]
    isplitr [Hrest]
    · isplitl [Hx]; · iexact Hx
      isplitl [Hs]; · iexact Hs
      iexact Ho
    · iexact Hrest
  iintro ⟨Hb, Hheld⟩
  ihave Hh := (Entails.of_eq ((held_sub_split (T d) S2_sub ((opOut (F := F)).result (V2 hostOps0 m d))).trans
    (congrArg (fun A => iprop(A ∗ held (T d) (tcU \ S2) ((opOut (F := F)).result (V2 hostOps0 m d)))) (held_S2 d _)))) $$ Hheld
  icases Hh with ⟨⟨Hr, Ha⟩, -⟩
  rw [wp_ret]; imodintro; imodintro
  isplitl [Hst]; · iexact Hst
  unfold FIN V3
  isplitl [Hr]; · iexact Hr
  iexact Ha

/-- What the final memory holds at the two buffers of the claim. -/
def fq (d : Dev nD) (st : Phys nD τ sig (Elt F)) : Prop :=
  st.mem.mem ((SparseCore.T d : Thread nD τ).loc main_v17) = RES hostOps0 m d
    ∧ st.mem.mem ((SparseCore.T d : Thread nD τ).loc main_arg0) = V3 hostOps0 m d a'

theorem hfin (d : Dev nD) (st : Phys nD τ sig (Elt F)) : iprop(FIN hostOps0 m d ∗ SI st) ⊢ (⌜fq hostOps0 m d st⌝ : sProp (𝕄 (F := F))) := by
  unfold FIN
  iintro ⟨⟨Hr, Ha⟩, HSI⟩
  ihave H1 := (persistent_entails_right (SI_pointsTo_agree (st := st) (ℓ := (SparseCore.T d : Thread nD τ).loc main_v17) (I := Finset.univ) (q := fullShare) (f := V3 hostOps0 m d r'))) $$ [HSI Hr]
  · isplitl [HSI] <;> iassumption
  icases H1 with ⟨%h1, HSI, -⟩
  ihave H2 := (SI_pointsTo_agree (st := st) (ℓ := (SparseCore.T d : Thread nD τ).loc main_arg0) (I := Finset.univ) (q := fullShare) (f := V3 hostOps0 m d a')) $$ [HSI Ha]
  · isplitl [HSI] <;> iassumption
  icases H2 with %h2
  ipureintro; exact ⟨funext fun i => h1 i (Finset.mem_univ i), funext fun i => h2 i (Finset.mem_univ i)⟩

/-! ## The program's run -/

/-- The run's post: the result buffer holds the call's result reshaped, the argument is unchanged. -/
def QC : PUnit × MemSt nD τ sig (Elt F) → Prop := fun r => ∀ c : Dev nD,
  r.2.mem ((c.tc : Thread nD τ).loc main_v17) = RES hostOps0 m c ∧ r.2.mem ((c.tc : Thread nD τ).loc main_arg0) = m ((c.tc : Thread nD τ).loc main_arg0)

include H in
theorem run_main [∀ e, Nonempty (Elt F e)] (hbody : ∀ X SC O0, BodySpec (F := F) X SC O0) :
    θ_run (Cert.KernelIdeal.defs (F := F)) (Cert.KernelIdeal.threads (F := F)) ⟨m, fun _ => 0, ρ⟩ (QC hostOps0 m) :=
  SparseCore.Cfg.θ_run_sc (K := K (F := F)) (D := D (F := F)) (𝒱 := 𝒱) (EH := EH) (P := P (XH hostOps0 m) (SH hostOps0 m) (OH hostOps0 m)) facts v₀
    (fun q hq => match q with | 0 => nomatch hq)
    (fun q _ => match q with | 0 => tileObl _ _ _ (hbody _ _ _))
    (fun q _ => match q with | 0 => SparseCore.Cfg.VecSplit.of_plain (vecSplit _ _ _))
    m ρ main (fun _ => iprop(emp)) (FIN hostOps0 m) (u₀ (F := F)) (sep_elim_left.trans (hu₀ _ _ _)) (hmain hostOps0 m ρ H) (fq hostOps0 m) (hfin hostOps0 m) (QC hostOps0 m)
    (fun _ h c => ⟨(h c).1, (h c).2.trans (V3_arg0 hostOps0 m H c)⟩)

end Run

end Cert.Proof.KI

end
-- ==== Proof.KILaunchE.lean ====
/-
  The launch of the idealized dropout kernel when only the frame is wanted: the tiles hand their chunks of the result
  back at SOME contents. The same chain as for the valued payloads — the tile obligation from the body at the weaker
  post, the identity split, the launch element, the arrays dealt and gathered (the 1024 chunks, pairwise disjoint and
  covering the array, join at some whole-array contents), @main on the TensorCore and the run — with the claim that the
  argument is unchanged.
-/
import proofs.«206558_g86277303042394_cont_sun_m_1099_24_alg».proof.Proof.KILaunch2

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.StableHlo (held held_split held_sdiff_result held_sub_split held_congr wp_hlo_within wp_seq after)
open Idealize.ShloMosaic.Tactic

variable {F : FTy → Type} [FloatOps F]

section LaunchE

variable (X : (d : Dev nD) → Buf (Elt F) (xLoc d)) (SC : (d : Dev nD) → Buf (Elt F) (sLoc d)) (O0 : (d : Dev nD) → Buf (Elt F) (oLoc d))

/-- The tile's body at the weaker post: its chunks of the result come back at some contents. -/
def BodySpecE : Prop :=
  ∀ (d : Dev nD) (L : grid0.Coords) (O : CellTallies nD τ sig (HIx 1)) (W : Waits sig (HIx 1)), (∀ g, O g none = 0) →
    iprop(levAts (K (F := F)).L (K (F := F)).lev ∗ emp ∗ goL X SC O0 d L ∗ scopedBufs (thr d L) ∗ scopedSems0 (thr d L) ∗ owes (thr d L) O W)
      ⊢ wp frame (wpE (defs₀ (F := F)) 𝒱₀ (thr d L) none) Set.univ
          (cc0__sc_dropout L xV (Memref.isWhole_whole _) sV (Memref.isWhole_whole _) oV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8 cc0_scratch9 cc0_scoped0)
          fun _ => iprop(tdLE X SC d L ∗ scopedBufs (thr d L) ∗ scopedSems0 (thr d L) ∗ ∃ W', ⌜∀ p ∈ W', p ∈ W ∨ p.2 = none⌝ ∗ owes (thr d L) O W')

/-- The body at the valued post is one at the weaker post. -/
theorem BodySpec.toE (h : BodySpec X SC O0) : BodySpecE X SC O0 := fun d L O W hO =>
  (h d L O W hO).trans (wp_mono frame _ _ fun _ => sep_mono_left (tdL_tdLE X SC d L))

instance tdNE_storable (d : Dev nD) (c s : ℕ) : BI.Storable (upEmb : UEmb _ (𝕄 (F := F))) (tdNE X SC d c s) := by
  unfold tdNE tdLE; split <;> infer_instance

instance PE_storable : (PE X SC O0).IsStorable where
  st _ d c := by unfold PE; infer_instance
  dn _ d c := by unfold PE; infer_instance
  go _ d c i := by unfold PE; infer_instance
  td _ d c i := by unfold PE; infer_instance

theorem vecSplitE : (K (F := F)).VecSplit' (PE X SC O0) 0 := by
  intro d c
  show (bigSep Finset.univ fun i : Fin ((K (F := F)).nSub 0) => goN X SC O0 d c.val i.val)
    ⊢ |={Set.univ}=> iprop((bigSep Finset.univ fun i : Fin ((K (F := F)).nSub 0) => goN X SC O0 d c.val i.val)
        ∗ ((bigSep Finset.univ fun i : Fin ((K (F := F)).nSub 0) => tdNE X SC d c.val i.val)
          -∗ bigSep Finset.univ fun i : Fin ((K (F := F)).nSub 0) => tdNE X SC d c.val i.val))
  iintro H; imodintro
  isplitl [H]; · iexact H
  iintro H; iexact H

theorem tileOblE (hbody : BodySpecE X SC O0) : (K (F := F)).TileObl (D (F := F)) 𝒱 (PE X SC O0) v₀ 0 := by
  intro d c i O W hO _ _
  -- the kernel owes nothing for a protocol of its own
  simp only [show (PE X SC O0).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hgo : (PE X SC O0).go 0 d c i = goL X SC O0 d (coordsV ⟨_, hc.1⟩ ⟨_, hc.2⟩) := goN_eq X SC O0 d ⟨_, hc.1⟩ ⟨_, hc.2⟩
  have htd : (PE X SC O0).td 0 d c i = tdLE X SC d (coordsV ⟨_, hc.1⟩ ⟨_, hc.2⟩) := tdNE_eq X SC d ⟨_, hc.1⟩ ⟨_, hc.2⟩
  rw [hgo, htd]
  exact (hbody d (coordsV ⟨_, hc.1⟩ ⟨_, hc.2⟩) O W hO).trans (wp_mono frame _ _ fun _ => obl_post)

theorem hu₀E : (ownU (u₀ (F := F)) : sProp (𝕄 (F := F)))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PE X SC O0).x q thr) :=
  hu₀ X SC O0

/-! ## The arrays dealt and gathered -/

theorem dealE (d : Dev nD) :
    iprop((xLoc d ↦{fullShare} X d) ∗ (sLoc d ↦{fullShare} SC d) ∗ (oLoc d ↦{fullShare} O0 d))
      ⊢ iprop(R X SC d ∗ bigSep Finset.univ fun c : Fin ((K (F := F)).nCore 0) => (PE X SC O0).st 0 d c) :=
  deal X SC O0 d

/-- The 1024 chunks, each at some contents, are the whole result array at some contents. -/
theorem chunks_join (d : Dev nD) :
    (bigSep Finset.univ fun c : Fin (grid0.bound 0) => bigSep Finset.univ fun s : Fin (grid0.bound 1) => bigSep Finset.univ fun j : Fin 32 =>
        (iprop(∃ g, oLoc d ↦[(oChunk (coordsV c s) j).view.set]{fullShare} g) : sProp (𝕄 (F := F))))
      ⊢ iprop(∃ f, oLoc d ↦{fullShare} f) := by
  have h1 := BI.bigSep_univ_prod (fun p : (Fin (grid0.bound 0) × Fin (grid0.bound 1)) × Fin 32 => (iprop(∃ g, oLoc d ↦[CS p]{fullShare} g) : sProp (𝕄 (F := F))))
  have h2 := BI.bigSep_univ_prod (fun a : Fin (grid0.bound 0) × Fin (grid0.bound 1) => bigSep Finset.univ fun b : Fin 32 => (iprop(∃ g, oLoc d ↦[CS (a, b)]{fullShare} g) : sProp (𝕄 (F := F))))
  refine (Entails.of_eq (h1.trans h2).symm).trans ?_
  refine (bigSep_exists_pi Finset.univ (fun p (g : Buf (Elt F) (oLoc d)) => (oLoc d ↦[CS p]{fullShare} g : sProp (𝕄 (F := F))))).trans ?_
  iintro ⟨%fs, H⟩
  ihave H' := (pointsTo_biUnion_join Finset.univ CS fs (fs ((⟨0, by decide⟩, ⟨0, by decide⟩), ⟨0, by decide⟩)) CS_disjoint) $$ H
  icases H' with ⟨%g, -, Hg⟩
  rw [CS_cover]
  iexists g; iexact Hg

omit [FloatOps F] in
theorem chunk_ex (d : Dev nD) (L : grid0.Coords) (j : Fin 32) (f : Buf (Elt F) (oLoc d)) :
    (oLoc d ↦[(oChunk L j).view.set]{fullShare} f : sProp (𝕄 (F := F))) ⊢ iprop(∃ g, oLoc d ↦[(oChunk L j).view.set]{fullShare} g) := by
  iintro H; iexists f; iexact H

/-- A tile's results at some contents: its shares, and each chunk at some contents. -/
theorem tileE_split (d : Dev nD) (L : grid0.Coords) :
    (iprop(∃ f, tileRes X SC d L f) : sProp (𝕄 (F := F)))
      ⊢ iprop((xLoc d ↦{qT L} X d) ∗ (sLoc d ↦{qT L} SC d) ∗ bigSep Finset.univ fun j : Fin 32 => iprop(∃ g, oLoc d ↦[(oChunk L j).view.set]{fullShare} g)) := by
  have hmono (f : Buf (Elt F) (oLoc d)) :
      (bigSep Finset.univ fun j : Fin 32 => (oLoc d ↦[(oChunk L j).view.set]{fullShare} f : sProp (𝕄 (F := F))))
        ⊢ bigSep Finset.univ fun j : Fin 32 => iprop(∃ g, oLoc d ↦[(oChunk L j).view.set]{fullShare} g) :=
    bigSep_mono fun j _ => chunk_ex d L j f
  unfold tileRes
  iintro ⟨%f, Hx, Hs, Ho⟩
  isplitl [Hx]; · iexact Hx
  isplitl [Hs]; · iexact Hs
  iapply (hmono f); iexact Ho

theorem dnE_eq (d : Dev nD) :
    (bigSep Finset.univ fun c : Fin ((K (F := F)).nCore 0) => (PE X SC O0).dn 0 d c)
      = bigSep Finset.univ fun c : Fin (grid0.bound 0) => bigSep Finset.univ fun s : Fin (grid0.bound 1) => iprop(∃ f, tileRes X SC d (coordsV c s) f) := by
  show (bigSep Finset.univ fun c : Fin (grid0.bound 0) => bigSep Finset.univ fun s : Fin (grid0.bound 1) => tdNE X SC d c.val s.val) = _
  exact bigSep_congr fun c _ => bigSep_congr fun s _ => tdNE_eq X SC d c s

theorem gatherE (d : Dev nD) :
    iprop(R X SC d ∗ bigSep Finset.univ fun c : Fin ((K (F := F)).nCore 0) => (PE X SC O0).dn 0 d c)
      ⊢ iprop((xLoc d ↦{fullShare} X d) ∗ (sLoc d ↦{fullShare} SC d) ∗ ∃ f, oLoc d ↦{fullShare} f) := by
  have hmono : (bigSep Finset.univ fun c : Fin (grid0.bound 0) => bigSep Finset.univ fun s : Fin (grid0.bound 1) => (iprop(∃ f, tileRes X SC d (coordsV c s) f) : sProp (𝕄 (F := F))))
      ⊢ bigSep Finset.univ fun c : Fin (grid0.bound 0) => bigSep Finset.univ fun s : Fin (grid0.bound 1) =>
          iprop((xLoc d ↦{qT (coordsV c s)} X d) ∗ (sLoc d ↦{qT (coordsV c s)} SC d)
            ∗ bigSep Finset.univ fun j : Fin 32 => iprop(∃ g, oLoc d ↦[(oChunk (coordsV c s) j).view.set]{fullShare} g)) :=
    bigSep_mono fun c _ => bigSep_mono fun s _ => tileE_split X SC d (coordsV c s)
  rw [dnE_eq]; unfold R
  iintro ⟨⟨Hxr, Hsr⟩, Hdn⟩
  ihave Hdn' := hmono $$ Hdn
  simp only [bigSep_sep']
  icases Hdn' with ⟨Hxt, Hst, Ho⟩
  isplitl [Hxr Hxt]
  · iapply (pointsTo_toks_join fullShare 32)
    isplitl [Hxr]; · iexact Hxr
    rw [shares_tiles]; iexact Hxt
  isplitl [Hsr Hst]
  · iapply (pointsTo_toks_join fullShare 32)
    isplitl [Hsr]; · iexact Hsr
    rw [shares_tiles]; iexact Hst
  iapply (chunks_join d); iexact Ho

end LaunchE

/-! ## @main on the TensorCore and the run, the argument's frame only -/

section RunE

variable (hostOps0 : List (HloOp τ sig (Elt F))) (m : (ℓ : Loc nD τ sig) → Buf (Elt F) ℓ) (ρ : Dev nD → PrngReg)

/-- The valuation after the call when the result array holds `f`. -/
def V2f (d : Dev nD) (f : Buf (Elt F) (oLoc d)) : Valuation τ sig (Elt F) := Function.update (V1 hostOps0 m d) o' f

theorem held_restf (d : Dev nD) (f : Buf (Elt F) (oLoc d)) :
    (held (T d) (tcU \ S3) (V2f hostOps0 m d f) : sProp (𝕄 (F := F))) = held (T d) (tcU \ S3) (V1 hostOps0 m d) :=
  held_congr (T d) fun b hb => Function.update_of_ne (fun e => (Finset.mem_sdiff.mp hb).2 (by rw [e]; simp)) _ _

theorem V2f_x (d : Dev nD) (f : Buf (Elt F) (oLoc d)) : V2f hostOps0 m d f x' = XH hostOps0 m d := Function.update_of_ne (show x' ≠ o' by decide) _ _
theorem V2f_s (d : Dev nD) (f : Buf (Elt F) (oLoc d)) : V2f hostOps0 m d f s' = SH hostOps0 m d := Function.update_of_ne (show s' ≠ o' by decide) _ _
theorem V2f_o (d : Dev nD) (f : Buf (Elt F) (oLoc d)) : V2f hostOps0 m d f o' = f := Function.update_self _ _ _

/-- What @main leaves the claim: the argument at its launch contents. -/
def FINE (d : Dev nD) : sProp (𝕄 (F := F)) := (SparseCore.T d : Thread nD τ).loc main_arg0 ↦{fullShare} m ((SparseCore.T d : Thread nD τ).loc main_arg0)

variable (H : HostFacts hostOps0)

include H in
/-- The argument is untouched, whatever the call left in the result array. -/
theorem V3f_arg0 (d : Dev nD) (f : Buf (Elt F) (oLoc d)) :
    (opOut (F := F)).result (V2f hostOps0 m d f) a' = m ((SparseCore.T d : Thread nD τ).loc main_arg0) := by
  rw [StableHlo.reshape_result_ne (h := show (main_arg0 : Ref sig .tc) ≠ main_v17 by decide)]
  unfold V2f
  rw [Function.update_of_ne (show a' ≠ o' by decide)]
  exact H.after_arg0 _

include H in
theorem hmainE (κ : GSem nD τ sig → ℕ) (d : Dev nD) :
    iprop((K (F := F)).ctx EH (PE (XH hostOps0 m) (SH hostOps0 m) (OH hostOps0 m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FINE m d) := by
  unfold SparseCore.Cfg.tcRes
  rw [unscoped_held, H.main_eq d]
  iintro ⟨#Hctx, Hst, ⟨Hb, Hheld, -, -⟩, -⟩
  -- the host line
  iapply (wp_seq 𝒱 none Set.univ d tcU _ hostOps0 H.sub H.fresh (V0 m d)) $$ [Hb Hheld]
  · isplitl [Hb]; · iexact Hb
    iexact Hheld
  iintro ⟨Hb, Hheld⟩
  -- x, the table and the result array out of the held set, and to the tiles
  ihave Hh := (Entails.of_eq ((show (held (d.tc : Thread nD τ) tcU (after hostOps0 (V0 m d)) : sProp (𝕄 (F := F))) = held (T d) tcU (V1 hostOps0 m d) from rfl).trans <|
    (held_sub_split (T d) S3_sub (V1 hostOps0 m d)).trans
    (congrArg (fun A => iprop(A ∗ held (T d) (tcU \ S3) (V1 hostOps0 m d))) (held_S3 d _)))) $$ Hheld
  icases Hh with ⟨⟨Hx, Hs, Ho⟩, Hrest⟩
  ihave Hd := (dealE (XH hostOps0 m) (SH hostOps0 m) (OH hostOps0 m) d) $$ [Hx Hs Ho]
  · isplitl [Hx]; · iexact Hx
    isplitl [Hs]; · iexact Hs
    iexact Ho
  icases Hd with ⟨HR, Hgo⟩
  simp only [wp_bind, wp_pure]
  -- the call
  iapply ((K (F := F)).wp_run (D (F := F)) 𝒱 (EH := EH) (P := PE (XH hostOps0 m) (SH hostOps0 m) (OH hostOps0 m)) κ d 0) $$ [Hst Hgo Hb HR Hrest]
  isplitr; · iexact Hctx
  isplitl [Hst]; · iexact Hst
  isplitl [Hgo]; · iexact Hgo
  iintro ⟨Hst, Hdn⟩
  ihave Hg := (gatherE (XH hostOps0 m) (SH hostOps0 m) (OH hostOps0 m) d) $$ [HR Hdn]
  · isplitl [HR]; · iexact HR
    iexact Hdn
  icases Hg with ⟨Hx, Hs, %f, Ho⟩
  -- the last reshape, over the set put back
  iapply (wp_hlo_within 𝒱 (SparseCore.T d) none Set.univ (op := opOut) (S := tcU) opOut_sub (V := V2f hostOps0 m d f)) $$ [Hb Hx Hs Ho Hrest]
  · isplitl [Hb]; · iexact Hb
    rw [held_sub_split (T d) S3_sub, held_S3, held_restf, V2f_x, V2f_s, V2f_o]
    isplitr [Hrest]
    · isplitl [Hx]; · iexact Hx
      isplitl [Hs]; · iexact Hs
      iexact Ho
    · iexact Hrest
  iintro ⟨Hb, Hheld⟩
  ihave Hh := (Entails.of_eq ((held_sub_split (T d) S2_sub ((opOut (F := F)).result (V2f hostOps0 m d f))).trans
    (congrArg (fun A => iprop(A ∗ held (T d) (tcU \ S2) ((opOut (F := F)).result (V2f hostOps0 m d f)))) (held_S2 d _)))) $$ Hheld
  icases Hh with ⟨⟨-, Ha⟩, -⟩
  rw [wp_ret]; imodintro; imodintro
  isplitl [Hst]; · iexact Hst
  unfold FINE
  rw [← V3f_arg0 hostOps0 m H d f]
  iexact Ha

def fqE (d : Dev nD) (st : Phys nD τ sig (Elt F)) : Prop :=
  st.mem.mem ((SparseCore.T d : Thread nD τ).loc main_arg0) = m ((SparseCore.T d : Thread nD τ).loc main_arg0)

theorem hfinE (d : Dev nD) (st : Phys nD τ sig (Elt F)) : iprop(FINE m d ∗ SI st) ⊢ (⌜fqE m d st⌝ : sProp (𝕄 (F := F))) := by
  unfold FINE
  iintro ⟨Ha, HSI⟩
  ihave H2 := (SI_pointsTo_agree (st := st) (ℓ := (SparseCore.T d : Thread nD τ).loc main_arg0) (I := Finset.univ) (q := fullShare) (f := m ((SparseCore.T d : Thread nD τ).loc main_arg0))) $$ [HSI Ha]
  · isplitl [HSI] <;> iassumption
  icases H2 with %h2
  ipureintro; exact funext fun i => h2 i (Finset.mem_univ i)

/-- The frame's post: the argument is unchanged. -/
def QCE : PUnit × MemSt nD τ sig (Elt F) → Prop := fun r => ∀ c : Dev nD,
  r.2.mem ((c.tc : Thread nD τ).loc main_arg0) = m ((c.tc : Thread nD τ).loc main_arg0)

include H in
theorem run_mainE [∀ e, Nonempty (Elt F e)] (hbody : ∀ X SC O0, BodySpecE (F := F) X SC O0) :
    θ_run (Cert.KernelIdeal.defs (F := F)) (Cert.KernelIdeal.threads (F := F)) ⟨m, fun _ => 0, ρ⟩ (QCE m) :=
  SparseCore.Cfg.θ_run_sc (K := K (F := F)) (D := D (F := F)) (𝒱 := 𝒱) (EH := EH) (P := PE (XH hostOps0 m) (SH hostOps0 m) (OH hostOps0 m)) facts v₀
    (fun q hq => match q with | 0 => nomatch hq)
    (fun q _ => match q with | 0 => tileOblE _ _ _ (hbody _ _ _))
    (fun q _ => match q with | 0 => SparseCore.Cfg.VecSplit.of_plain (vecSplitE _ _ _))
    m ρ main (fun _ => iprop(emp)) (FINE m) (u₀ (F := F)) (sep_elim_left.trans (hu₀E _ _ _)) (hmainE hostOps0 m ρ H) (fqE m) (hfinE m) (QCE m)
    (fun _ h c => h c)

end RunE

end Cert.Proof.KI

end
-- ==== Proof.KIBodyE.lean ====
/-
  From the tile's body at its own resources — three read tokens of x, a read share of the scale table, the four scratch
  buffers, the 32 chunks of the result each at some contents, the seven DMA cells at zero — to the body as the launch
  takes it (at the weaker post): the tile's scoped storage is opened, its share of x is split into three tokens and
  joined back, each buffer is restated through the memref the kernel names it by, and the 32 chunks, pairwise disjoint,
  come back at one contents.
-/
import proofs.«206558_g86277303042394_cont_sun_m_1099_24_alg».proof.Proof.KIBodyDefs
import proofs.«206558_g86277303042394_cont_sun_m_1099_24_alg».proof.Proof.KILaunchE

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop pointsTo_toks_split pointsTo_toks_join)

variable {F : FTy → Type} [FloatOps F]

/-- The tile's body at its own resources, at a symbolic place. -/
def TileCore : Prop :=
  ∀ (d : Dev nD) (L : grid0.Coords) (q : PosShare TreeShare) (X : Buf (Elt F) ((xV).view.loc (thr d L))) (SCt : Buf (Elt F) ((sV).view.loc (thr d L)))
    (O : CellTallies nD τ sig (HIx 1)) (W : Waits sig (HIx 1)) (_ : ∀ g, O g none = 0)
    (f0 : Buf (Elt F) ((b0).view.loc (thr d L))) (f1 : Buf (Elt F) ((b1).view.loc (thr d L))) (f2 : Buf (Elt F) ((b2).view.loc (thr d L)))
    (fS : Buf (Elt F) ((bS).view.loc (thr d L))),
    iprop(levAts (K (F := F)).L (K (F := F)).lev
        ∗ ((xV).view.loc (thr d L) ↦{shareTok q 3 0} X) ∗ ((xV).view.loc (thr d L) ↦{shareTok q 3 1} X) ∗ ((xV).view.loc (thr d L) ↦{shareTok q 3 2} X)
        ∗ ((sV).view.loc (thr d L) ↦{q} SCt)
        ∗ ((b0).view.loc (thr d L) ↦{fullShare} f0) ∗ ((b1).view.loc (thr d L) ↦{fullShare} f1) ∗ ((b2).view.loc (thr d L) ↦{fullShare} f2)
        ∗ ((bS).view.loc (thr d L) ↦{fullShare} fS)
        ∗ bigSep Finset.univ (Φc (F := F) d L)
        ∗ semVal (cell d L cc0_scratch4) 0 ∗ semVal (cell d L cc0_scratch5) 0 ∗ semVal (cell d L cc0_scratch6) 0
        ∗ semVal (cell d L cc0_scratch7) 0 ∗ semVal (cell d L cc0_scratch8) 0 ∗ semVal (cell d L cc0_scratch9) 0
        ∗ semVal (cell d L cc0_scoped0) 0
        ∗ owes (thr d L) O W)
      ⊢ wp frame (wpE (defs₀ (F := F)) 𝒱₀ (thr d L) none) Set.univ
          (cc0__sc_dropout L xV (Memref.isWhole_whole _) sV (Memref.isWhole_whole _) oV (Memref.isWhole_whole _)
              b0 (Memref.isWhole_whole _) b1 (Memref.isWhole_whole _) b2 (Memref.isWhole_whole _) bS (Memref.isWhole_whole _)
              cc0_scratch4 cc0_scratch5 cc0_scratch6 cc0_scratch7 cc0_scratch8 cc0_scratch9 cc0_scoped0)
          fun _ => iprop(((xV).view.loc (thr d L) ↦{shareTok q 3 0} X) ∗ ((xV).view.loc (thr d L) ↦{shareTok q 3 1} X) ∗ ((xV).view.loc (thr d L) ↦{shareTok q 3 2} X)
            ∗ ((sV).view.loc (thr d L) ↦{q} SCt)
            ∗ (∃ f, (b0).view.loc (thr d L) ↦{fullShare} f) ∗ (∃ f, (b1).view.loc (thr d L) ↦{fullShare} f) ∗ (∃ f, (b2).view.loc (thr d L) ↦{fullShare} f)
            ∗ (∃ f, (bS).view.loc (thr d L) ↦{fullShare} f)
            ∗ bigSep Finset.univ (Φc (F := F) d L)
            ∗ semVal (cell d L cc0_scratch4) 0 ∗ semVal (cell d L cc0_scratch5) 0 ∗ semVal (cell d L cc0_scratch6) 0
            ∗ semVal (cell d L cc0_scratch7) 0 ∗ semVal (cell d L cc0_scratch8) 0 ∗ semVal (cell d L cc0_scratch9) 0
            ∗ semVal (cell d L cc0_scoped0) 0
            ∗ ∃ W', ⌜∀ p ∈ W', p ∈ W ∨ p.2 = none⌝ ∗ owes (thr d L) O W')

section Wrap

variable (d : Dev nD) (L : grid0.Coords)

omit [FloatOps F] in
/-- A tile's chunks are pairwise disjoint: chunk `j` is rows [off + 32·j, off + 32·j + 32). -/
theorem chunk_disjoint : ∀ j ∈ (Finset.univ : Finset (Fin 32)), ∀ j' ∈ (Finset.univ : Finset (Fin 32)), j ≠ j' →
    Disjoint (oChunk L j).view.set (oChunk L j').view.set := by
  intro j _ j' _ hne
  show Disjoint ((View.whole (main_v16_scv : Ref sig .scVector)).slice (rectC L j)).set ((View.whole (main_v16_scv : Ref sig .scVector)).slice (rectC L j')).set
  rw [View.set_slice_whole, View.set_slice_whole]
  refine Rect.unit_disjoint 0 ?_
  have e (j : Fin 32) : offC L j 0 = 2048 * (L 1).val + 1024 * (L 0).val + 32 * j.val := rfl
  have z0 : S32x1024.size 0 = 32 := rfl
  rw [e, e, z0]
  have : j.val ≠ j'.val := fun h => hne (Fin.ext h)
  omega

/-- The 32 chunks, each at some contents, are the 32 chunks at one contents. -/
theorem tile_chunks_join :
    (bigSep Finset.univ (Φc (F := F) d L)) ⊢ iprop(∃ f, bigSep Finset.univ fun j : Fin 32 => (oLoc d ↦[(oChunk L j).view.set]{fullShare} f : sProp (𝕄 (F := F)))) := by
  refine (show (bigSep Finset.univ (Φc (F := F) d L)) ⊢ bigSep Finset.univ fun j : Fin 32 => iprop(∃ f, (oLoc d ↦[(oChunk L j).view.set]{fullShare} f : sProp (𝕄 (F := F)))) from
    Entails.of_eq (bigSep_congr fun j _ => by unfold Φc; rfl)).trans ?_
  refine (bigSep_exists_pi Finset.univ (fun (j : Fin 32) (g : Buf (Elt F) (oLoc d)) => (oLoc d ↦[(oChunk L j).view.set]{fullShare} g : sProp (𝕄 (F := F))))).trans ?_
  iintro ⟨%fs, H⟩
  ihave H' := (pointsTo_biUnion_join Finset.univ (fun j : Fin 32 => (oChunk L j).view.set) fs (fs 0) (chunk_disjoint L)) $$ H
  icases H' with ⟨%g, -, Hg⟩
  iexists g
  ihave Hg' := (Entails.of_eq (pointsTo_biUnion (q := fullShare) (f := g) Finset.univ (ℓ := oLoc d) (fun j : Fin 32 => (oChunk L j).view.set) (chunk_disjoint L))) $$ Hg
  iexact Hg'

omit [FloatOps F] in
/-- The 32 chunks at one contents are each at some contents. -/
theorem tile_chunks_open (f : Buf (Elt F) (oLoc d)) :
    (bigSep Finset.univ fun j : Fin 32 => (oLoc d ↦[(oChunk L j).view.set]{fullShare} f : sProp (𝕄 (F := F)))) ⊢ bigSep Finset.univ (Φc (F := F) d L) :=
  bigSep_mono fun j _ => by
    show (oLoc d ↦[(oChunk L j).view.set]{fullShare} f : sProp (𝕄 (F := F))) ⊢ iprop(∃ g, (oChunk L j).view.loc (thr d L) ↦[(oChunk L j).view.set]{fullShare} g)
    iintro H; iexists f; iexact H

omit [FloatOps F] in
theorem bigSep_fin3 (Φ : Fin 3 → sProp (𝕄 (F := F))) : bigSep Finset.univ Φ = iprop(Φ 0 ∗ Φ 1 ∗ Φ 2) := by
  rw [show (Finset.univ : Finset (Fin 3)) = {0, 1, 2} by decide, SparseCore.bigSep_insert' (by decide), SparseCore.bigSep_insert' (by decide), bigSep_singleton]

end Wrap

/-- The body as the launch takes it, from the body at the tile's own resources. -/
theorem bodySpecE_of_core (hcore : TileCore (F := F)) : ∀ X SC O0, BodySpecE (F := F) X SC O0 := by
  intro X SC O0 d L O W hO
  rw [(K (F := F)).scopedBufs_V facts d (cV L) (jV L), SparseCore.Cfg.scopedSems0_V (Val := Elt F) d (cV L) (jV L), ownSems0_V d L, ownBufs_V d L]
  unfold goL tdLE tileRes
  iintro ⟨#Hlv, -, ⟨Hx, Hs, Ho⟩, ⟨⟨%f0, H0⟩, ⟨%f1, H1⟩, ⟨%f2, H2⟩, ⟨%fS, HS⟩, Hbufs⟩, ⟨Hc4, Hc5, Hc6, Hc7, Hc8, Hc9, Hc0, Hsems⟩, HO⟩
  -- the tile's share of x as three tokens and a remainder; its chunks each at some contents
  ihave Hx' := (pointsTo_toks_split (qT L) 3) $$ Hx
  icases Hx' with ⟨Hxr, Hxt⟩
  ihave Hxt' := (Entails.of_eq (bigSep_fin3 (F := F) fun i : Fin 3 => (xLoc d ↦{shareTok (qT L) 3 i} X d))) $$ Hxt
  icases Hxt' with ⟨Hx0, Hx1, Hx2⟩
  ihave Hch := (tile_chunks_open d L (O0 d)) $$ Ho
  iapply (wp_wand_r frame _ _)
  isplitl [Hx0 Hx1 Hx2 Hs H0 H1 H2 HS Hch Hc4 Hc5 Hc6 Hc7 Hc8 Hc9 Hc0 HO]
  · iapply (hcore d L (qT L) (X d) (SC d) O W hO f0 f1 f2 fS)
    isplitr; · iexact Hlv
    isplitl [Hx0]; · iexact Hx0
    isplitl [Hx1]; · iexact Hx1
    isplitl [Hx2]; · iexact Hx2
    isplitl [Hs]; · iexact Hs
    isplitl [H0]; · iexact H0
    isplitl [H1]; · iexact H1
    isplitl [H2]; · iexact H2
    isplitl [HS]; · iexact HS
    isplitl [Hch]; · iexact Hch
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc0]; · iexact Hc0
    iexact HO
  iintro %_ ⟨Hx0, Hx1, Hx2, Hs, H0, H1, H2, HS, Hch, Hc4, Hc5, Hc6, Hc7, Hc8, Hc9, Hc0, HO⟩
  -- the tokens joined back, the chunks at one contents
  ihave Hj := (tile_chunks_join d L) $$ Hch
  icases Hj with ⟨%f, Ho⟩
  isplitl [Hxr Hx0 Hx1 Hx2 Hs Ho]
  · iexists f
    isplitl [Hxr Hx0 Hx1 Hx2]
    · iapply (pointsTo_toks_join (qT L) 3)
      isplitl [Hxr]; · iexact Hxr
      rw [bigSep_fin3]
      isplitl [Hx0]; · iexact Hx0
      isplitl [Hx1]; · iexact Hx1
      iexact Hx2
    isplitl [Hs]; · iexact Hs
    iexact Ho
  isplitl [H0 H1 H2 HS Hbufs]
  · isplitl [H0]; · iexact H0
    isplitl [H1]; · iexact H1
    isplitl [H2]; · iexact H2
    isplitl [HS]; · iexact HS
    iexact Hbufs
  isplitl [Hc4 Hc5 Hc6 Hc7 Hc8 Hc9 Hc0 Hsems]
  · isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc0]; · iexact Hc0
    iexact Hsems
  iexact HO

end Cert.Proof.KI

end
-- ==== Proof.KIGroupDefs.lean ====
import proofs.«206558_g86277303042394_cont_sun_m_1099_24_alg».proof.Proof.KIBodyDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

variable (d : Dev nD) (L : grid0.Coords)

/-! ## The tile between two groups of three chunks

When group `g` begins, the copies into slots 0 and 1 (chunks 3g and 3g+1) are in flight; slot 2 is free at the first
group and afterwards still being copied out (chunk 3g−1); every other chunk of the result is held. -/

theorem inFlight_fold (sm : DmaSems sig S_) (b : Memref sig .scVector .vmem S32x1024 .f32) (t : PosShare TreeShare)
    (X : Buf (Elt F) ((xV).view.loc (thr d L))) (I : Finset (Idx ((xV).view.loc (thr d L)))) (f : Buf (Elt F) (b.view.loc (thr d L))) :
    (iprop(Transfers.Flight countersEmb (thr d L) (SemLoc.dma sm.sem) default 1048576
        iprop((b.view.loc (thr d L) ↦{fullShare} f) ∗ ((xV).view.loc (thr d L) ↦[I]{t} X))
      ∗ ((xV).view.loc (thr d L) ↦[Finset.univ \ I]{t} X)) : sProp (𝕄 (F := F))) ⊢ InFlight d L sm b t X := by
  unfold InFlight
  iintro ⟨Hf, Hr⟩
  iexists I, f
  isplitl [Hf]
  · iexact Hf
  · iexact Hr

theorem inFlight_open (sm : DmaSems sig S_) (b : Memref sig .scVector .vmem S32x1024 .f32) (t : PosShare TreeShare)
    (X : Buf (Elt F) ((xV).view.loc (thr d L))) :
    InFlight (F := F) d L sm b t X ⊢ iprop(∃ (I : Finset (Idx ((xV).view.loc (thr d L)))) (f : Buf (Elt F) (b.view.loc (thr d L))),
      Transfers.Flight countersEmb (thr d L) (SemLoc.dma sm.sem) default 1048576
          iprop((b.view.loc (thr d L) ↦{fullShare} f) ∗ ((xV).view.loc (thr d L) ↦[I]{t} X))
        ∗ ((xV).view.loc (thr d L) ↦[Finset.univ \ I]{t} X)) := by
  unfold InFlight; exact Entails.rfl

theorem outFlight_open (sm : DmaSems sig S_) (b : Memref sig .scVector .vmem S32x1024 .f32) (j : Fin 32) :
    OutFlight (F := F) d L sm b j ⊢ iprop(∃ (fo : Buf (Elt F) ((oChunk L j).view.loc (thr d L))) (f : Buf (Elt F) (b.view.loc (thr d L))),
      Transfers.Flight countersEmb (thr d L) (SemLoc.dma sm.sem) default 1048576
          iprop(((oChunk L j).view.loc (thr d L) ↦[(oChunk L j).view.set]{fullShare} fo) ∗ (b.view.loc (thr d L) ↦[b.view.set]{fullShare} f))
        ∗ (b.view.loc (thr d L) ↦[Finset.univ \ b.view.set]{fullShare} f)) := by
  unfold OutFlight; exact Entails.rfl

/-- Slot 2 and the chunks held, when group `g` begins. -/
def Slot2 (g : ℕ) : sProp (𝕄 (F := F)) :=
  if g = 0 then iprop((∃ f, (b2).view.loc (thr d L) ↦{fullShare} f) ∗ semVal (cell d L cc0_scratch9) 0 ∗ bigSep Finset.univ (Φc d L))
  else iprop(OutFlight d L cc0_scratch9 b2 (fl g) ∗ bigSep (Finset.univ.erase (fl g)) (Φc d L))

theorem Slot2_zero {g : ℕ} (h : g = 0) : Slot2 (F := F) d L g
    = iprop((∃ f, (b2).view.loc (thr d L) ↦{fullShare} f) ∗ semVal (cell d L cc0_scratch9) 0 ∗ bigSep Finset.univ (Φc d L)) := if_pos h
theorem Slot2_pos {g : ℕ} (h : ¬ g = 0) : Slot2 (F := F) d L g
    = iprop(OutFlight d L cc0_scratch9 b2 (fl g) ∗ bigSep (Finset.univ.erase (fl g)) (Φc d L)) := if_neg h
theorem Slot2_succ (g : Fin k0_t1_loop.trips) : Slot2 (F := F) d L (g.val + 1)
    = iprop(OutFlight d L cc0_scratch9 b2 (ch g 2) ∗ bigSep (Finset.univ.erase (ch g 2)) (Φc d L)) := by
  rw [Slot2_pos d L (Nat.succ_ne_zero _), fl_succ]

/-- The tile when group `g` begins. -/
def inv1 (q : PosShare TreeShare) (X : Buf (Elt F) ((xV).view.loc (thr d L)))
    (O : CellTallies nD τ sig (HIx 1)) (W : Waits sig (HIx 1)) (g : ℕ) (_ : PUnit) : sProp (𝕄 (F := F)) :=
  iprop(Transfers.MayWaits (thr d L) none O
    ∗ InFlight d L cc0_scratch4 b0 (shareTok q 3 0) X
    ∗ InFlight d L cc0_scratch5 b1 (shareTok q 3 1) X
    ∗ ((xV).view.loc (thr d L) ↦{shareTok q 3 2} X) ∗ semVal (cell d L cc0_scratch6) 0
    ∗ Slot2 d L g
    ∗ semVal (cell d L cc0_scratch7) 0 ∗ semVal (cell d L cc0_scratch8) 0
    ∗ (∃ fS, (bS).view.loc (thr d L) ↦{fullShare} fS)
    ∗ ∃ W', ⌜∀ p ∈ W', p ∈ W ∨ p.2 = none⌝ ∗ owes (thr d L) O W')

/-- Three chunks taken out of a held set and put back (the third stays out). -/
theorem regroup (S : Finset (Fin 32)) (j0 j1 j2 : Fin 32) (h0 : j0 ∈ S) (h1 : j1 ∈ S) (h01 : j0 ≠ j1) (h02 : j0 ≠ j2) (h12 : j1 ≠ j2) :
    (iprop(Φc d L j0 ∗ Φc d L j1 ∗ bigSep (((S.erase j0).erase j1).erase j2) (Φc d L)) : sProp (𝕄 (F := F))) = bigSep (S.erase j2) (Φc d L) := by
  have e : ((S.erase j0).erase j1).erase j2 = ((S.erase j2).erase j0).erase j1 := by
    ext x; simp only [Finset.mem_erase]; tauto
  rw [e, ← SparseCore.bigSep_erase' (Finset.mem_erase.mpr ⟨h01.symm, Finset.mem_erase.mpr ⟨h12, h1⟩⟩),
    ← SparseCore.bigSep_erase' (Finset.mem_erase.mpr ⟨h02, h0⟩)]

end Cert.Proof.KI

end
-- ==== Proof.KIInnerV.lean ====
import proofs.«206558_g86277303042394_cont_sun_m_1099_24_alg».proof.Proof.KIInner
import proofs.«206558_g86277303042394_cont_sun_m_1099_24_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

variable (d : Dev nD) (L : grid0.Coords)

/-! ## The group loop's scaling loops, for the value: the pieces a trip stores depend on the group and the trip only

(the loop-variable words the region is handed do not enter them), so that the loop's result is a function of the group,
the scale table and the slot's contents. -/

/-- One trip of scaling loop 2 of group `g`: what it stores over the slot's contents `G`, given the scale table `fS`. -/
@[irreducible] def tripV2 (g : Fin k0_t1_loop.trips) (k : Fin k0_t2_loop.trips) :
    Σ' (Lp : Buf (Elt F) ((b0).view.loc (thr d L)) → Buf (Elt F) ((bS).view.loc (thr d L)) → List (View.Piece (Elt F) S32x1024 .f32)),
      ∀ (v2 a0 a1 v41 : BitVec 32) (G : Buf (Elt F) ((b0).view.loc (thr d L))) (fS : Buf (Elt F) ((bS).view.loc (thr d L))),
        (iprop(((b0).view.loc (thr d L) ↦{fullShare} G) ∗ ((bS).view.loc (thr d L) ↦{fullShare} fS)) : sProp (𝕄 (F := F)))
        ⊢ wp frame (wpE (defs₀ (F := F)) 𝒱₀ (thr d L) none) Set.univ
            (k0_t2_body L xV (Memref.isWhole_whole _) sV (Memref.isWhole_whole _) oV (Memref.isWhole_whole _)
              b0 (Memref.isWhole_whole _) b1 (Memref.isWhole_whole _) b2 (Memref.isWhole_whole _) bS (Memref.isWhole_whole _)
              cc0_scratch4 cc0_scratch5 cc0_scratch6 cc0_scratch7 cc0_scratch8 cc0_scratch9 cc0_scoped0 v2 a0 a1 g v41 k ⟨⟩)
            (fun _ => iprop(((b0).view.loc (thr d L) ↦{fullShare} (b0).view.writes (Elt F) G (Lp G fS))
              ∗ ((bS).view.loc (thr d L) ↦{fullShare} fS))) := by
  refine ⟨?_, fun v2 a0 a1 v41 G fS => ?run⟩
  case run =>
    delta k0_t2_body
    iintro ⟨H0, HS⟩
    sl_exec_parts
    sl_step
    sl_close

/-- The slot after the first `k` trips of scaling loop 2 of group `g`. -/
def iterV2 (g : Fin k0_t1_loop.trips) (fS : Buf (Elt F) ((bS).view.loc (thr d L))) : ℕ → Buf (Elt F) ((b0).view.loc (thr d L)) → Buf (Elt F) ((b0).view.loc (thr d L))
  | 0, G => G
  | k + 1, G => if h : k < k0_t2_loop.trips then
      (b0).view.writes (Elt F) (iterV2 g fS k G) ((tripV2 d L g ⟨k, h⟩).1 (iterV2 g fS k G) fS)
    else iterV2 g fS k G

theorem iterV2_succ (g : Fin k0_t1_loop.trips) (fS : Buf (Elt F) ((bS).view.loc (thr d L))) (k : Fin k0_t2_loop.trips) (G : Buf (Elt F) ((b0).view.loc (thr d L))) :
    iterV2 d L g fS (k.val + 1) G
      = (b0).view.writes (Elt F) (iterV2 d L g fS k.val G) ((tripV2 d L g k).1 (iterV2 d L g fS k.val G) fS) := by
  rw [iterV2]; exact dif_pos k.isLt

/-- One trip of scaling loop 3 of group `g`: what it stores over the slot's contents `G`, given the scale table `fS`. -/
@[irreducible] def tripV3 (g : Fin k0_t1_loop.trips) (k : Fin k0_t3_loop.trips) :
    Σ' (Lp : Buf (Elt F) ((b1).view.loc (thr d L)) → Buf (Elt F) ((bS).view.loc (thr d L)) → List (View.Piece (Elt F) S32x1024 .f32)),
      ∀ (v2 a15 v61 a0 a1 : BitVec 32) (G : Buf (Elt F) ((b1).view.loc (thr d L))) (fS : Buf (Elt F) ((bS).view.loc (thr d L))),
        (iprop(((b1).view.loc (thr d L) ↦{fullShare} G) ∗ ((bS).view.loc (thr d L) ↦{fullShare} fS)) : sProp (𝕄 (F := F)))
        ⊢ wp frame (wpE (defs₀ (F := F)) 𝒱₀ (thr d L) none) Set.univ
            (k0_t3_body L xV (Memref.isWhole_whole _) sV (Memref.isWhole_whole _) oV (Memref.isWhole_whole _)
              b0 (Memref.isWhole_whole _) b1 (Memref.isWhole_whole _) b2 (Memref.isWhole_whole _) bS (Memref.isWhole_whole _)
              cc0_scratch4 cc0_scratch5 cc0_scratch6 cc0_scratch7 cc0_scratch8 cc0_scratch9 cc0_scoped0 v2 g a15 v61 a0 a1 k ⟨⟩)
            (fun _ => iprop(((b1).view.loc (thr d L) ↦{fullShare} (b1).view.writes (Elt F) G (Lp G fS))
              ∗ ((bS).view.loc (thr d L) ↦{fullShare} fS))) := by
  refine ⟨?_, fun v2 a15 v61 a0 a1 G fS => ?run⟩
  case run =>
    delta k0_t3_body
    iintro ⟨H0, HS⟩
    sl_exec_parts
    sl_step
    sl_close

/-- The slot after the first `k` trips of scaling loop 3 of group `g`. -/
def iterV3 (g : Fin k0_t1_loop.trips) (fS : Buf (Elt F) ((bS).view.loc (thr d L))) : ℕ → Buf (Elt F) ((b1).view.loc (thr d L)) → Buf (Elt F) ((b1).view.loc (thr d L))
  | 0, G => G
  | k + 1, G => if h : k < k0_t3_loop.trips then
      (b1).view.writes (Elt F) (iterV3 g fS k G) ((tripV3 d L g ⟨k, h⟩).1 (iterV3 g fS k G) fS)
    else iterV3 g fS k G

theorem iterV3_succ (g : Fin k0_t1_loop.trips) (fS : Buf (Elt F) ((bS).view.loc (thr d L))) (k : Fin k0_t3_loop.trips) (G : Buf (Elt F) ((b1).view.loc (thr d L))) :
    iterV3 d L g fS (k.val + 1) G
      = (b1).view.writes (Elt F) (iterV3 d L g fS k.val G) ((tripV3 d L g k).1 (iterV3 d L g fS k.val G) fS) := by
  rw [iterV3]; exact dif_pos k.isLt

/-- One trip of scaling loop 4 of group `g`: what it stores over the slot's contents `G`, given the scale table `fS`. -/
@[irreducible] def tripV4 (g : Fin k0_t1_loop.trips) (k : Fin k0_t4_loop.trips) :
    Σ' (Lp : Buf (Elt F) ((b2).view.loc (thr d L)) → Buf (Elt F) ((bS).view.loc (thr d L)) → List (View.Piece (Elt F) S32x1024 .f32)),
      ∀ (v2 a15 v61 a0 a1 v81 : BitVec 32) (G : Buf (Elt F) ((b2).view.loc (thr d L))) (fS : Buf (Elt F) ((bS).view.loc (thr d L))),
        (iprop(((b2).view.loc (thr d L) ↦{fullShare} G) ∗ ((bS).view.loc (thr d L) ↦{fullShare} fS)) : sProp (𝕄 (F := F)))
        ⊢ wp frame (wpE (defs₀ (F := F)) 𝒱₀ (thr d L) none) Set.univ
            (k0_t4_body L xV (Memref.isWhole_whole _) sV (Memref.isWhole_whole _) oV (Memref.isWhole_whole _)
              b0 (Memref.isWhole_whole _) b1 (Memref.isWhole_whole _) b2 (Memref.isWhole_whole _) bS (Memref.isWhole_whole _)
              cc0_scratch4 cc0_scratch5 cc0_scratch6 cc0_scratch7 cc0_scratch8 cc0_scratch9 cc0_scoped0 v2 g a15 v61 a0 a1 v81 k ⟨⟩)
            (fun _ => iprop(((b2).view.loc (thr d L) ↦{fullShare} (b2).view.writes (Elt F) G (Lp G fS))
              ∗ ((bS).view.loc (thr d L) ↦{fullShare} fS))) := by
  refine ⟨?_, fun v2 a15 v61 a0 a1 v81 G fS => ?run⟩
  case run =>
    delta k0_t4_body
    iintro ⟨H0, HS⟩
    sl_exec_parts
    sl_step
    sl_close

/-- The slot after the first `k` trips of scaling loop 4 of group `g`. -/
def iterV4 (g : Fin k0_t1_loop.trips) (fS : Buf (Elt F) ((bS).view.loc (thr d L))) : ℕ → Buf (Elt F) ((b2).view.loc (thr d L)) → Buf (Elt F) ((b2).view.loc (thr d L))
  | 0, G => G
  | k + 1, G => if h : k < k0_t4_loop.trips then
      (b2).view.writes (Elt F) (iterV4 g fS k G) ((tripV4 d L g ⟨k, h⟩).1 (iterV4 g fS k G) fS)
    else iterV4 g fS k G

theorem iterV4_succ (g : Fin k0_t1_loop.trips) (fS : Buf (Elt F) ((bS).view.loc (thr d L))) (k : Fin k0_t4_loop.trips) (G : Buf (Elt F) ((b2).view.loc (thr d L))) :
    iterV4 d L g fS (k.val + 1) G
      = (b2).view.writes (Elt F) (iterV4 d L g fS k.val G) ((tripV4 d L g k).1 (iterV4 d L g fS k.val G) fS) := by
  rw [iterV4]; exact dif_pos k.isLt

end Cert.Proof.KI

end
-- ==== Proof.KIVDefs.lean ====
import proofs.«206558_g86277303042394_cont_sun_m_1099_24_alg».proof.Proof.KIGroupDefs
import proofs.«206558_g86277303042394_cont_sun_m_1099_24_alg».proof.Proof.KIInnerV

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

variable (d : Dev nD) (L : grid0.Coords)

/-! ## The values the run carries

Slot contents after chunk `j` of x has landed: the chunk as the copy reads it. After the scaling loop: each row of it
times its scale vector, read from the tile's part of the scale table. A chunk of the result after the slot was copied
out: the chunk's previous contents overwritten whole by the scaled slot. -/

abbrev SlotT (F : FTy → Type) : Type := S32x1024.Idx → Elt F .f32
abbrev TabT (F : FTy → Type) : Type := S128x128.Idx → Elt F .f32

/-- A 32-row slice of x at row offsets `off`, spelt as the kernel slices it. -/
abbrev xSlice (off : Fin 2 → Nat) (h : ∀ a, off a + S32x1024.size a ≤ S32768x1024.size a) : Memref sig .scVector .hbm S32x1024 .f32 :=
  (xV).slice (Rect.unit (s := S32768x1024) off S32x1024.size h) (fun _ => rfl)

/-- Chunk `j` of the tile's rows of x, as a slot receives it. -/
def XC (X : Buf (Elt F) ((xV).view.loc (thr d L))) (j : Fin 32) : SlotT F :=
  View.read (Elt F) (xChunk L j).view X

/-- The scale table's entry for row `y 0` of chunk `c`, lane `y 1 % 16`: tile row `32c + y 0` sits in table row
    `(32c + y 0) / 8` at lanes `16·((32c + y 0) % 8) …`. -/
def tIdx (c : Fin 32) (y : S32x1024.Idx) : S128x128.Idx :=
  have h0 : (y 0).val < 32 := (y 0).isLt
  have hc : c.val < 32 := c.isLt
  fun | 0 => ⟨(32 * c.val + (y 0).val) / 8, by show _ < 128; omega⟩ | 1 => ⟨16 * ((32 * c.val + (y 0).val) % 8) + (y 1).val % 16, by show _ < 128; omega⟩

/-- A slot scaled: every entry times its row's scale. -/
def Scaled (c : Fin 32) (G : SlotT F) (TS : TabT F) : SlotT F := fun y => FloatOps.mulf (G y) (TS (tIdx c y))

/-- The closed forms of the five scaling loops (sixteen trips each). -/
structure IterClosed : Prop where
  h2 : ∀ (g : Fin k0_t1_loop.trips) (TS : TabT F) (G : SlotT F), iterV2 (F := F) d L g TS 16 G = Scaled (ch g 0) G TS
  h3 : ∀ (g : Fin k0_t1_loop.trips) (TS : TabT F) (G : SlotT F), iterV3 (F := F) d L g TS 16 G = Scaled (ch g 1) G TS
  h4 : ∀ (g : Fin k0_t1_loop.trips) (TS : TabT F) (G : SlotT F), iterV4 (F := F) d L g TS 16 G = Scaled (ch g 2) G TS
  h5 : ∀ (TS : TabT F) (G : SlotT F), iter5 (F := F) d L TS 16 G = Scaled 30 G TS
  h6 : ∀ (TS : TabT F) (G : SlotT F), iter6 (F := F) d L TS 16 G = Scaled 31 G TS

/-- What chunk `j` of the result holds once its slot has been copied out over contents `fo`. -/
def chunkVal (X : Buf (Elt F) ((xV).view.loc (thr d L))) (TS : TabT F) (j : Fin 32) (fo : Buf (Elt F) ((oChunk L j).view.loc (thr d L))) :
    Buf (Elt F) ((oChunk L j).view.loc (thr d L)) :=
  (oChunk L j).view.writes (Elt F) fo [⟨Rect.whole S32x1024, Scaled j (XC d L X j) TS⟩]

/-- Chunk `j` of the result, written. -/
def ΦcV (X : Buf (Elt F) ((xV).view.loc (thr d L))) (TS : TabT F) (j : Fin 32) : sProp (𝕄 (F := F)) :=
  iprop(∃ fo, (oChunk L j).view.loc (thr d L) ↦[(oChunk L j).view.set]{fullShare} chunkVal d L X TS j fo)

/-- The chunks below `n` written, the others at some contents. -/
def Ψc (X : Buf (Elt F) ((xV).view.loc (thr d L))) (TS : TabT F) (n : ℕ) (j : Fin 32) : sProp (𝕄 (F := F)) :=
  if j.val < n then ΦcV d L X TS j else Φc d L j

theorem Ψc_lt {X : Buf (Elt F) ((xV).view.loc (thr d L))} {TS : TabT F} {n : ℕ} {j : Fin 32} (h : j.val < n) : Ψc d L X TS n j = ΦcV d L X TS j := if_pos h
theorem Ψc_ge {X : Buf (Elt F) ((xV).view.loc (thr d L))} {TS : TabT F} {n : ℕ} {j : Fin 32} (h : ¬ j.val < n) : Ψc d L X TS n j = Φc d L j := if_neg h

/-- A copy of chunk `j` of x into slot `b` in flight on cell `sm`, out of the read share `t`. -/
def InFlightV (sm : DmaSems sig S_) (b : Memref sig .scVector .vmem S32x1024 .f32) (t : PosShare TreeShare)
    (X : Buf (Elt F) ((xV).view.loc (thr d L))) (j : Fin 32) (G : Buf (Elt F) (b.view.loc (thr d L))) : sProp (𝕄 (F := F)) :=
  iprop(∃ (I : Finset (Idx ((xV).view.loc (thr d L)))),
    Transfers.Flight countersEmb (thr d L) (SemLoc.dma sm.sem) default 1048576
        iprop((b.view.loc (thr d L) ↦{fullShare} G) ∗ ((xV).view.loc (thr d L) ↦[I]{t} X))
      ∗ ((xV).view.loc (thr d L) ↦[Finset.univ \ I]{t} X))

end Cert.Proof.KI

end
-- ==== Proof.KIVChunk.lean ====
import proofs.«206558_g86277303042394_cont_sun_m_1099_24_alg».proof.Proof.KIVDefs

/-! # A written chunk of the result is the whole-array function there

An element of chunk `j` of tile `w = 2 (L 1) + (L 0)` is `(1024 w + 32 j + r, c)` with `r < 32`. The chunk, written whole
by the scaled slot, holds there the argument's entry times the tile's table at `((32 j + r) / 8, 16 ((32 j + r) % 8) + c % 16)`,
and the tile's table is the scale table from row `128 w` on. The whole-array function holds there the argument's entry
times the scale table at `((1024 w + 32 j + r) / 8, 16 ((1024 w + 32 j + r) % 8) + c % 16)`. The two table entries are the
same, `1024 w` being a multiple of 8. -/

noncomputable section

namespace Cert.Proof.KI

open Cert.KernelIdeal Cert.KernelIdeal.Gen

open Idealize.ShloMosaic
open Idealize.ShloMosaic.SparseCore (S V T)
open Idealize.SL.Sem

variable {F : FTy → Type} [FloatOps F]

/-- The tile's table entry for an element of chunk `j` is the scale table's entry for that element of the whole array. -/
theorem tab_idx (L : grid0.Coords) (j : Fin 32) (y : S32x1024.Idx) :
    ((sV).slice (Rect.unit (s := S4096x128) (k0_off1 L) S128x128.size (k0_off1_inb L)) (fun _ => rfl)).view.emb (tIdx j y)
      = scIdx ((oChunk L j).view.emb y) := by
  have h0 := (y 0).isLt
  have h1 := (y 1).isLt
  have hj := j.isLt
  have hL0 := L0_lt L
  have hL1 := L1_lt L
  have e := k0_off1_eq L
  funext a
  apply Fin.ext
  match a with
  | ⟨0, _⟩ =>
    show k0_off1 L 0 + 1 * ((32 * j.val + (y 0).val) / 8) = (offC L j 0 + 1 * (y 0).val) / 8
    rw [e]
    show 256 * (L 1).val + 128 * (L 0).val + 1 * ((32 * j.val + (y 0).val) / 8)
      = (2048 * (L 1).val + 1024 * (L 0).val + 32 * j.val + 1 * (y 0).val) / 8
    omega
  | ⟨1, _⟩ =>
    show k0_off1 L 1 + 1 * (16 * ((32 * j.val + (y 0).val) % 8) + (y 1).val % 16)
      = 16 * ((offC L j 0 + 1 * (y 0).val) % 8) + (offC L j 1 + 1 * (y 1).val) % 16
    rw [e]
    show 0 + 1 * (16 * ((32 * j.val + (y 0).val) % 8) + (y 1).val % 16)
      = 16 * ((2048 * (L 1).val + 1024 * (L 0).val + 32 * j.val + 1 * (y 0).val) % 8) + (0 + 1 * (y 1).val) % 16
    omega

/-- On its own elements a written chunk holds the whole-array function of the argument and the scale table. -/
theorem chunkVal_eq (d : Dev nD) (L : grid0.Coords) (X : Buf (Elt F) ((xV).view.loc (thr d L)))
    (SCt : Buf (Elt F) ((sV).view.loc (thr d L))) (j : Fin 32) (fo : Buf (Elt F) ((oChunk L j).view.loc (thr d L))) :
    ∀ i ∈ (oChunk L j).view.set,
      chunkVal d L X (View.read (Elt F)
        ((sV).slice (Rect.unit (s := S4096x128) (k0_off1 L) S128x128.size (k0_off1_inb L)) (fun _ => rfl)).view SCt) j fo i
        = OUTV d X SCt i := by
  intro i hi
  obtain ⟨y, -, rfl⟩ := Finset.mem_map.mp hi
  have h1 := View.read_writes_cons_emb (Val := Elt F) (oChunk L j).view fo (Rect.whole S32x1024)
    (Scaled j (XC d L X j) (View.read (Elt F)
      ((sV).slice (Rect.unit (s := S4096x128) (k0_off1 L) S128x128.size (k0_off1_inb L)) (fun _ => rfl)).view SCt)) [] y
  rw [View.read_apply, Rect.emb_whole_apply] at h1
  refine (cast_eq _ _).symm.trans (h1.trans ?_)
  unfold Scaled OUTV XC
  rw [View.read_apply, View.read_apply, tab_idx]
  rfl

end Cert.Proof.KI

end
-- ==== Proof.KIBodyV.lean ====
import proofs.«206558_g86277303042394_cont_sun_m_1099_24_alg».proof.Proof.KIBodyE
import proofs.«206558_g86277303042394_cont_sun_m_1099_24_alg».proof.Proof.KIVChunk

/-!
  From the tile's body at its own resources with the VALUED post — every chunk of the result written whole by its scaled
  slot — to the body as the launch takes it at the result function: the tile's scoped storage is opened, its share of x is
  split into three tokens and joined back, each buffer is restated through the memref the kernel names it by, and each of
  the 32 chunks, holding on its own elements the whole-array function of x and the scale table, is restated at that function.
-/

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop pointsTo_toks_split pointsTo_toks_join)

variable {F : FTy → Type} [FloatOps F]

/-- The tile's 128 rows of the scale table as its table slot receives them. -/
abbrev TSu (d : Dev nD) (L : grid0.Coords) (SCt : Buf (Elt F) ((sV).view.loc (thr d L))) : TabT F :=
  View.read (Elt F) ((sV).slice (Rect.unit (s := S4096x128) (k0_off1 L) S128x128.size (k0_off1_inb L)) (fun _ => rfl)).view SCt

/-- The tile's body at its own resources with the valued post, at a symbolic place, given the scaling loops' closed forms. -/
def TileCoreV : Prop :=
  ∀ (d : Dev nD) (L : grid0.Coords) (_ : IterClosed (F := F) d L) (q : PosShare TreeShare) (X : Buf (Elt F) ((xV).view.loc (thr d L))) (SCt : Buf (Elt F) ((sV).view.loc (thr d L)))
    (O : CellTallies nD τ sig (HIx 1)) (W : Waits sig (HIx 1)) (_ : ∀ g, O g none = 0)
    (f0 : Buf (Elt F) ((b0).view.loc (thr d L))) (f1 : Buf (Elt F) ((b1).view.loc (thr d L))) (f2 : Buf (Elt F) ((b2).view.loc (thr d L)))
    (fS : Buf (Elt F) ((bS).view.loc (thr d L))),
    iprop(levAts (K (F := F)).L (K (F := F)).lev
        ∗ ((xV).view.loc (thr d L) ↦{shareTok q 3 0} X) ∗ ((xV).view.loc (thr d L) ↦{shareTok q 3 1} X) ∗ ((xV).view.loc (thr d L) ↦{shareTok q 3 2} X)
        ∗ ((sV).view.loc (thr d L) ↦{q} SCt)
        ∗ ((b0).view.loc (thr d L) ↦{fullShare} f0) ∗ ((b1).view.loc (thr d L) ↦{fullShare} f1) ∗ ((b2).view.loc (thr d L) ↦{fullShare} f2)
        ∗ ((bS).view.loc (thr d L) ↦{fullShare} fS)
        ∗ bigSep Finset.univ (Φc (F := F) d L)
        ∗ semVal (cell d L cc0_scratch4) 0 ∗ semVal (cell d L cc0_scratch5) 0 ∗ semVal (cell d L cc0_scratch6) 0
        ∗ semVal (cell d L cc0_scratch7) 0 ∗ semVal (cell d L cc0_scratch8) 0 ∗ semVal (cell d L cc0_scratch9) 0
        ∗ semVal (cell d L cc0_scoped0) 0
        ∗ owes (thr d L) O W)
      ⊢ wp frame (wpE (defs₀ (F := F)) 𝒱₀ (thr d L) none) Set.univ
          (cc0__sc_dropout L xV (Memref.isWhole_whole _) sV (Memref.isWhole_whole _) oV (Memref.isWhole_whole _)
              b0 (Memref.isWhole_whole _) b1 (Memref.isWhole_whole _) b2 (Memref.isWhole_whole _) bS (Memref.isWhole_whole _)
              cc0_scratch4 cc0_scratch5 cc0_scratch6 cc0_scratch7 cc0_scratch8 cc0_scratch9 cc0_scoped0)
          fun _ => iprop(((xV).view.loc (thr d L) ↦{shareTok q 3 0} X) ∗ ((xV).view.loc (thr d L) ↦{shareTok q 3 1} X) ∗ ((xV).view.loc (thr d L) ↦{shareTok q 3 2} X)
            ∗ ((sV).view.loc (thr d L) ↦{q} SCt)
            ∗ (∃ f, (b0).view.loc (thr d L) ↦{fullShare} f) ∗ (∃ f, (b1).view.loc (thr d L) ↦{fullShare} f) ∗ (∃ f, (b2).view.loc (thr d L) ↦{fullShare} f)
            ∗ (∃ f, (bS).view.loc (thr d L) ↦{fullShare} f)
            ∗ bigSep Finset.univ (ΦcV (F := F) d L X (TSu d L SCt))
            ∗ semVal (cell d L cc0_scratch4) 0 ∗ semVal (cell d L cc0_scratch5) 0 ∗ semVal (cell d L cc0_scratch6) 0
            ∗ semVal (cell d L cc0_scratch7) 0 ∗ semVal (cell d L cc0_scratch8) 0 ∗ semVal (cell d L cc0_scratch9) 0
            ∗ semVal (cell d L cc0_scoped0) 0
            ∗ ∃ W', ⌜∀ p ∈ W', p ∈ W ∨ p.2 = none⌝ ∗ owes (thr d L) O W')

section Wrap

variable (d : Dev nD) (L : grid0.Coords)

/-- The 32 written chunks are the 32 chunks at the whole-array function. -/
theorem chunksV_close (X : Buf (Elt F) ((xV).view.loc (thr d L))) (SCt : Buf (Elt F) ((sV).view.loc (thr d L))) :
    (bigSep Finset.univ (ΦcV (F := F) d L X (TSu d L SCt)))
      ⊢ bigSep Finset.univ fun j : Fin 32 => (oLoc d ↦[(oChunk L j).view.set]{fullShare} OUTV d X SCt : sProp (𝕄 (F := F))) :=
  bigSep_mono fun j _ => by
    show (iprop(∃ fo, (oChunk L j).view.loc (thr d L) ↦[(oChunk L j).view.set]{fullShare} chunkVal d L X (TSu d L SCt) j fo) : sProp (𝕄 (F := F)))
      ⊢ (oLoc d ↦[(oChunk L j).view.set]{fullShare} OUTV d X SCt)
    iintro ⟨%fo, H⟩
    ihave H' := (Entails.of_eq (pointsTo_congr (q := fullShare) (ℓ := (oChunk L j).view.loc (thr d L)) (chunkVal_eq d L X SCt j fo))) $$ H
    iexact H'

end Wrap

/-- The body as the launch takes it, from the valued body at the tile's own resources and the loops' closed forms. -/
theorem bodySpec_of_coreV (hcore : TileCoreV (F := F)) (hI : ∀ d L, IterClosed (F := F) d L) : ∀ X SC O0, BodySpec (F := F) X SC O0 := by
  intro X SC O0 d L O W hO
  rw [(K (F := F)).scopedBufs_V facts d (cV L) (jV L), SparseCore.Cfg.scopedSems0_V (Val := Elt F) d (cV L) (jV L), ownSems0_V d L, ownBufs_V d L]
  unfold goL tdL tileRes
  iintro ⟨#Hlv, -, ⟨Hx, Hs, Ho⟩, ⟨⟨%f0, H0⟩, ⟨%f1, H1⟩, ⟨%f2, H2⟩, ⟨%fS, HS⟩, Hbufs⟩, ⟨Hc4, Hc5, Hc6, Hc7, Hc8, Hc9, Hc0, Hsems⟩, HO⟩
  -- the tile's share of x as three tokens and a remainder; its chunks each at some contents
  ihave Hx' := (pointsTo_toks_split (qT L) 3) $$ Hx
  icases Hx' with ⟨Hxr, Hxt⟩
  ihave Hxt' := (Entails.of_eq (bigSep_fin3 (F := F) fun i : Fin 3 => (xLoc d ↦{shareTok (qT L) 3 i} X d))) $$ Hxt
  icases Hxt' with ⟨Hx0, Hx1, Hx2⟩
  ihave Hch := (tile_chunks_open d L (O0 d)) $$ Ho
  iapply (wp_wand_r frame _ _)
  isplitl [Hx0 Hx1 Hx2 Hs H0 H1 H2 HS Hch Hc4 Hc5 Hc6 Hc7 Hc8 Hc9 Hc0 HO]
  · iapply (hcore d L (hI d L) (qT L) (X d) (SC d) O W hO f0 f1 f2 fS)
    isplitr; · iexact Hlv
    isplitl [Hx0]; · iexact Hx0
    isplitl [Hx1]; · iexact Hx1
    isplitl [Hx2]; · iexact Hx2
    isplitl [Hs]; · iexact Hs
    isplitl [H0]; · iexact H0
    isplitl [H1]; · iexact H1
    isplitl [H2]; · iexact H2
    isplitl [HS]; · iexact HS
    isplitl [Hch]; · iexact Hch
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc0]; · iexact Hc0
    iexact HO
  iintro %_ ⟨Hx0, Hx1, Hx2, Hs, H0, H1, H2, HS, Hch, Hc4, Hc5, Hc6, Hc7, Hc8, Hc9, Hc0, HO⟩
  -- the tokens joined back, the chunks at the result function
  ihave Ho := (chunksV_close d L (X d) (SC d)) $$ Hch
  isplitl [Hxr Hx0 Hx1 Hx2 Hs Ho]
  · isplitl [Hxr Hx0 Hx1 Hx2]
    · iapply (pointsTo_toks_join (qT L) 3)
      isplitl [Hxr]; · iexact Hxr
      rw [bigSep_fin3]
      isplitl [Hx0]; · iexact Hx0
      isplitl [Hx1]; · iexact Hx1
      iexact Hx2
    isplitl [Hs]; · iexact Hs
    iexact Ho
  isplitl [H0 H1 H2 HS Hbufs]
  · isplitl [H0]; · iexact H0
    isplitl [H1]; · iexact H1
    isplitl [H2]; · iexact H2
    isplitl [HS]; · iexact HS
    iexact Hbufs
  isplitl [Hc4 Hc5 Hc6 Hc7 Hc8 Hc9 Hc0 Hsems]
  · isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc0]; · iexact Hc0
    iexact Hsems
  iexact HO

end Cert.Proof.KI

end
-- ==== Proof.KIGroup.lean ====
import proofs.«206558_g86277303042394_cont_sun_m_1099_24_alg».proof.Proof.KIGroupDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

variable (d : Dev nD) (L : grid0.Coords)

theorem waits_ok {W W' : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with hp | hp
  · exact .inr (hp ▸ rfl)
  · exact h p hp

/-! ## One group: three chunks scaled and sent out, the next three requested -/

theorem group_trip (q : PosShare TreeShare) (X : Buf (Elt F) ((xV).view.loc (thr d L)))
    (O : CellTallies nD τ sig (HIx 1)) (W : Waits sig (HIx 1)) (v2 : BitVec 32) (k : Fin k0_t1_loop.trips) (acc : PUnit) :
    inv1 (F := F) d L q X O W k.val acc
      ⊢ wp frame (wpE (defs₀ (F := F)) 𝒱₀ (thr d L) none) Set.univ
          (k0_t1_body L xV (Memref.isWhole_whole _) sV (Memref.isWhole_whole _) oV (Memref.isWhole_whole _)
              b0 (Memref.isWhole_whole _) b1 (Memref.isWhole_whole _) b2 (Memref.isWhole_whole _) bS (Memref.isWhole_whole _)
              cc0_scratch4 cc0_scratch5 cc0_scratch6 cc0_scratch7 cc0_scratch8 cc0_scratch9 cc0_scoped0 v2 k acc)
          (inv1 d L q X O W (k.val + 1)) := by
  have hc1z : k.val = 0 → ¬ k0_cond1 k = 1#1 := by revert k; decide
  have hc1p : ¬ k.val = 0 → k0_cond1 k = 1#1 := by revert k; decide
  have k0_h2 : k0_cond2 k = 1#1 := by revert k; decide
  have k0_h3 : k0_cond3 k = 1#1 := by revert k; decide
  have k0_h4 : k0_cond4 k = 1#1 := by revert k; decide
  have k0_h5 : k0_cond5 k = 1#1 := by revert k; decide
  have k0_h6 : k0_cond6 k = 1#1 := by revert k; decide
  have e0 : k0_off3 L k 0#32 = offC L (ch k 0) := off3_eq L k 0
  have e1 : k0_off3 L k 1#32 = offC L (ch k 1) := off3_eq L k 1
  have e2 : k0_off3 L k 2#32 = offC L (ch k 2) := off3_eq L k 2
  unfold inv1
  rw [Slot2_succ]
  delta k0_t1_body
  rw [k0_part76_eq_skeleton]; delta k0_part76_skel
  by_cases hk : k.val = 0
  · have k0_h1 : ¬ k0_cond1 k = 1#1 := hc1z hk
    rw [Slot2_zero d L hk]
    iintro ⟨Hmw, Hin0, Hin1, Hx2, Hi2, ⟨⟨%f2, H2⟩, Ho2, Hout⟩, Ho0, Ho1, ⟨%fS, HS⟩, %W', %hW', HO⟩
    ihave Hin0' := (inFlight_open d L cc0_scratch4 b0 _ X) $$ Hin0
    icases Hin0' with ⟨%I0, %f0, Hi0, Hx0⟩
    ihave Hin1' := (inFlight_open d L cc0_scratch5 b1 _ X) $$ Hin1
    icases Hin1' with ⟨%I1, %f1, Hi1, Hx1⟩

    -- the group's three chunks, out of the held set, spelt as the kernel slices them
    ihave Hout' := (Entails.of_eq (SparseCore.bigSep_erase' (s := (Finset.univ : Finset (Fin 32))) (i := ch k 0) (Φ := Φc (F := F) d L) (Finset.mem_univ _))) $$ Hout
    icases Hout' with ⟨Hc0, Hout⟩
    ihave Hout' := (Entails.of_eq (SparseCore.bigSep_erase' (s := (Finset.univ : Finset (Fin 32)).erase (ch k 0)) (i := ch k 1) (Φ := Φc (F := F) d L) (Finset.mem_erase.mpr ⟨(ch_ne k (by decide : (1 : Fin 3) ≠ 0)), Finset.mem_univ _⟩))) $$ Hout
    icases Hout' with ⟨Hc1, Hout⟩
    ihave Hout' := (Entails.of_eq (SparseCore.bigSep_erase' (s := ((Finset.univ : Finset (Fin 32)).erase (ch k 0)).erase (ch k 1)) (i := ch k 2) (Φ := Φc (F := F) d L) (Finset.mem_erase.mpr ⟨(ch_ne k (by decide : (2 : Fin 3) ≠ 1)), Finset.mem_erase.mpr ⟨(ch_ne k (by decide : (2 : Fin 3) ≠ 0)), Finset.mem_univ _⟩⟩))) $$ Hout
    icases Hout' with ⟨Hc2, Hout⟩
    ihave Hc0' := (chunk_unfold d L (k0_off3_inb L k 0) (ch k 0) e0) $$ Hc0
    icases Hc0' with ⟨%fo0, Hc0⟩
    ihave Hc1' := (chunk_unfold d L (k0_off3_inb L k 1) (ch k 1) e1) $$ Hc1
    icases Hc1' with ⟨%fo1, Hc1⟩
    ihave Hc2' := (chunk_unfold d L (k0_off3_inb L k 2) (ch k 2) e2) $$ Hc2
    icases Hc2' with ⟨%fo2, Hc2⟩
    sl_exec (disch := first | exact View.amount_pos _ _ (show 0 < S128x128.numel by decide) | exact View.amount_pos _ _ (show 0 < S32x1024.numel by decide))
    sl_rw [bind_assoc]

    sl_for (invB d L b0 fS) $$ [Hi0_dst HS]
    case region =>
      intro k' acc'
      sl_respell []
      exact loopStep2 d L fS _ _ _ _ _ k' acc'
    · unfold invB
      isplitl [Hi0_dst]
      · iexists _; iexact Hi0_dst
      · iexact HS
    iintro %_ HI
    unfold invB
    icases HI with ⟨⟨%Gb0, Hbb0⟩, HS⟩
    sl_exec (disch := first | exact View.amount_pos _ _ (show 0 < S128x128.numel by decide) | exact View.amount_pos _ _ (show 0 < S32x1024.numel by decide))

    sl_for (invB d L b1 fS) $$ [Hi1_dst HS]
    case region =>
      intro k' acc'
      sl_respell []
      exact loopStep3 d L fS _ _ _ _ _ _ k' acc'
    · unfold invB
      isplitl [Hi1_dst]
      · iexists _; iexact Hi1_dst
      · iexact HS
    iintro %_ HI
    unfold invB
    icases HI with ⟨⟨%Gb1, Hbb1⟩, HS⟩
    sl_exec (disch := first | exact View.amount_pos _ _ (show 0 < S128x128.numel by decide) | exact View.amount_pos _ _ (show 0 < S32x1024.numel by decide))

    sl_for (invB d L b2 fS) $$ [H2 HS]
    case region =>
      intro k' acc'
      sl_respell []
      exact loopStep4 d L fS _ _ _ _ _ _ _ k' acc'
    · unfold invB
      isplitl [H2]
      · iexists _; iexact H2
      · iexact HS
    iintro %_ HI
    unfold invB
    icases HI with ⟨⟨%Gb2, Hbb2⟩, HS⟩

    sl_exec (disch := first | exact View.amount_pos _ _ (show 0 < S128x128.numel by decide) | exact View.amount_pos _ _ (show 0 < S32x1024.numel by decide))
    sl_step
    isplitl [Hmw]
    · iexact Hmw
    isplitl [Hi0 Hx0]
    · iapply (inFlight_fold d L cc0_scratch4 b0 _ X _ _)
      isplitl [Hi0]
      · iexact Hi0
      · iexact Hx0
    isplitl [Hi1 Hx1]
    · iapply (inFlight_fold d L cc0_scratch5 b1 _ X _ _)
      isplitl [Hi1]
      · iexact Hi1
      · iexact Hx1
    isplitl [Hx2]
    · iexact Hx2
    isplitl [Hi2]
    · iexact Hi2
    isplitl [Ho2 Hbb2 Hc0 Hc1 Hout]
    · isplitl [Ho2 Hbb2]
      · iapply (outFlight_fold d L cc0_scratch9 b2 (k0_off3_inb L k 2) (ch k 2) e2 _ _)
        isplitl [Ho2]
        · iexact Ho2
        · iexact Hbb2
      · ihave Hd0 := (chunk_fold d L (k0_off3_inb L k 0) (ch k 0) e0 _) $$ Hc0
        ihave Hd1 := (chunk_fold d L (k0_off3_inb L k 1) (ch k 1) e1 _) $$ Hc1
        iapply (Entails.of_eq (regroup d L Finset.univ (ch k 0) (ch k 1) (ch k 2) (Finset.mem_univ _) (Finset.mem_univ _)
          (ch_ne k (by decide : (0 : Fin 3) ≠ 1)) (ch_ne k (by decide : (0 : Fin 3) ≠ 2)) (ch_ne k (by decide : (1 : Fin 3) ≠ 2))))
        isplitl [Hd0]
        · iexact Hd0
        isplitl [Hd1]
        · iexact Hd1
        · iexact Hout
    isplitl [Ho0]
    · iexact Ho0
    isplitl [Ho1]
    · iexact Ho1
    isplitl [HS]
    · iexists _; iexact HS
    iexists _
    isplitr
    rotate_left
    · iexact HO
    · ipureintro
      exact waits_ok (waits_ok (waits_ok (waits_ok (waits_ok hW' _) _) _) _) _
  · have k0_h1 : k0_cond1 k = 1#1 := hc1p hk
    rw [Slot2_pos d L hk]
    iintro ⟨Hmw, Hin0, Hin1, Hx2, Hi2, ⟨Hof2, Hout⟩, Ho0, Ho1, ⟨%fS, HS⟩, %W', %hW', HO⟩
    ihave Hin0' := (inFlight_open d L cc0_scratch4 b0 _ X) $$ Hin0
    icases Hin0' with ⟨%I0, %f0, Hi0, Hx0⟩
    ihave Hin1' := (inFlight_open d L cc0_scratch5 b1 _ X) $$ Hin1
    icases Hin1' with ⟨%I1, %f1, Hi1, Hx1⟩
    ihave Hof2' := (outFlight_open d L cc0_scratch9 b2 (fl k.val)) $$ Hof2
    icases Hof2' with ⟨%fo9, %f2, Ho2, H2⟩

    -- the group's three chunks, out of the held set, spelt as the kernel slices them
    ihave Hout' := (Entails.of_eq (SparseCore.bigSep_erase' (s := ((Finset.univ : Finset (Fin 32)).erase (fl k.val))) (i := ch k 0) (Φ := Φc (F := F) d L) (Finset.mem_erase.mpr ⟨(fl_ne_ch k 0).symm, Finset.mem_univ _⟩))) $$ Hout
    icases Hout' with ⟨Hc0, Hout⟩
    ihave Hout' := (Entails.of_eq (SparseCore.bigSep_erase' (s := ((Finset.univ : Finset (Fin 32)).erase (fl k.val)).erase (ch k 0)) (i := ch k 1) (Φ := Φc (F := F) d L) (Finset.mem_erase.mpr ⟨(ch_ne k (by decide : (1 : Fin 3) ≠ 0)), Finset.mem_erase.mpr ⟨(fl_ne_ch k 1).symm, Finset.mem_univ _⟩⟩))) $$ Hout
    icases Hout' with ⟨Hc1, Hout⟩
    ihave Hout' := (Entails.of_eq (SparseCore.bigSep_erase' (s := (((Finset.univ : Finset (Fin 32)).erase (fl k.val)).erase (ch k 0)).erase (ch k 1)) (i := ch k 2) (Φ := Φc (F := F) d L) (Finset.mem_erase.mpr ⟨(ch_ne k (by decide : (2 : Fin 3) ≠ 1)), Finset.mem_erase.mpr ⟨(ch_ne k (by decide : (2 : Fin 3) ≠ 0)), Finset.mem_erase.mpr ⟨(fl_ne_ch k 2).symm, Finset.mem_univ _⟩⟩⟩))) $$ Hout
    icases Hout' with ⟨Hc2, Hout⟩
    ihave Hc0' := (chunk_unfold d L (k0_off3_inb L k 0) (ch k 0) e0) $$ Hc0
    icases Hc0' with ⟨%fo0, Hc0⟩
    ihave Hc1' := (chunk_unfold d L (k0_off3_inb L k 1) (ch k 1) e1) $$ Hc1
    icases Hc1' with ⟨%fo1, Hc1⟩
    ihave Hc2' := (chunk_unfold d L (k0_off3_inb L k 2) (ch k 2) e2) $$ Hc2
    icases Hc2' with ⟨%fo2, Hc2⟩
    sl_exec (disch := first | exact View.amount_pos _ _ (show 0 < S128x128.numel by decide) | exact View.amount_pos _ _ (show 0 < S32x1024.numel by decide))
    sl_rw [bind_assoc]

    sl_for (invB d L b0 fS) $$ [Hi0_dst HS]
    case region =>
      intro k' acc'
      sl_respell []
      exact loopStep2 d L fS _ _ _ _ _ k' acc'
    · unfold invB
      isplitl [Hi0_dst]
      · iexists _; iexact Hi0_dst
      · iexact HS
    iintro %_ HI
    unfold invB
    icases HI with ⟨⟨%Gb0, Hbb0⟩, HS⟩
    sl_exec (disch := first | exact View.amount_pos _ _ (show 0 < S128x128.numel by decide) | exact View.amount_pos _ _ (show 0 < S32x1024.numel by decide))

    sl_for (invB d L b1 fS) $$ [Hi1_dst HS]
    case region =>
      intro k' acc'
      sl_respell []
      exact loopStep3 d L fS _ _ _ _ _ _ k' acc'
    · unfold invB
      isplitl [Hi1_dst]
      · iexists _; iexact Hi1_dst
      · iexact HS
    iintro %_ HI
    unfold invB
    icases HI with ⟨⟨%Gb1, Hbb1⟩, HS⟩
    sl_exec (disch := first | exact View.amount_pos _ _ (show 0 < S128x128.numel by decide) | exact View.amount_pos _ _ (show 0 < S32x1024.numel by decide))

    sl_for (invB d L b2 fS) $$ [H2 HS]
    case region =>
      intro k' acc'
      sl_respell []
      exact loopStep4 d L fS _ _ _ _ _ _ _ k' acc'
    · unfold invB
      isplitl [H2]
      · iexists _; iexact H2
      · iexact HS
    iintro %_ HI
    unfold invB
    icases HI with ⟨⟨%Gb2, Hbb2⟩, HS⟩
    ihave Hca := (show ((oChunk L (fl k.val)).view.loc (thr d L) ↦[(oChunk L (fl k.val)).view.set]{fullShare} _ : sProp (𝕄 (F := F))) ⊢ Φc d L (fl k.val) from by
      unfold Φc; iintro H; iexists _; iexact H) $$ Ho2_dst

    sl_exec (disch := first | exact View.amount_pos _ _ (show 0 < S128x128.numel by decide) | exact View.amount_pos _ _ (show 0 < S32x1024.numel by decide))
    sl_step
    isplitl [Hmw]
    · iexact Hmw
    isplitl [Hi0 Hx0]
    · iapply (inFlight_fold d L cc0_scratch4 b0 _ X _ _)
      isplitl [Hi0]
      · iexact Hi0
      · iexact Hx0
    isplitl [Hi1 Hx1]
    · iapply (inFlight_fold d L cc0_scratch5 b1 _ X _ _)
      isplitl [Hi1]
      · iexact Hi1
      · iexact Hx1
    isplitl [Hx2]
    · iexact Hx2
    isplitl [Hi2]
    · iexact Hi2
    isplitl [Ho2 Hbb2 Hc0 Hc1 Hout Hca]
    · isplitl [Ho2 Hbb2]
      · iapply (outFlight_fold d L cc0_scratch9 b2 (k0_off3_inb L k 2) (ch k 2) e2 _ _)
        isplitl [Ho2]
        · iexact Ho2
        · iexact Hbb2
      · ihave Hd0 := (chunk_fold d L (k0_off3_inb L k 0) (ch k 0) e0 _) $$ Hc0
        ihave Hd1 := (chunk_fold d L (k0_off3_inb L k 1) (ch k 1) e1 _) $$ Hc1
        iapply (Entails.of_eq (swap_chunk d L (fl k.val) (ch k 2) (fl_ne_ch k 2)))
        isplitl [Hca]
        · iexact Hca
        iapply (Entails.of_eq (regroup d L (Finset.univ.erase (fl k.val)) (ch k 0) (ch k 1) (ch k 2)
          (Finset.mem_erase.mpr ⟨(fl_ne_ch k 0).symm, Finset.mem_univ _⟩) (Finset.mem_erase.mpr ⟨(fl_ne_ch k 1).symm, Finset.mem_univ _⟩)
          (ch_ne k (by decide : (0 : Fin 3) ≠ 1)) (ch_ne k (by decide : (0 : Fin 3) ≠ 2)) (ch_ne k (by decide : (1 : Fin 3) ≠ 2))))
        isplitl [Hd0]
        · iexact Hd0
        isplitl [Hd1]
        · iexact Hd1
        · iexact Hout
    isplitl [Ho0]
    · iexact Ho0
    isplitl [Ho1]
    · iexact Ho1
    isplitl [HS]
    · iexists _; iexact HS
    iexists _
    isplitr
    rotate_left
    · iexact HO
    · ipureintro
      exact waits_ok (waits_ok (waits_ok (waits_ok (waits_ok (waits_ok hW' _) _) _) _) _) _

end Cert.Proof.KI

end
-- ==== Proof.KIVFlights.lean ====
import proofs.«206558_g86277303042394_cont_sun_m_1099_24_alg».proof.Proof.KIVDefs
import proofs.«206558_g86277303042394_cont_sun_m_1099_24_alg».proof.Proof.KIGroup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

variable (d : Dev nD) (L : grid0.Coords)

/-! ## The valued flights and their folding -/

/-- A copy of slot `b`, holding chunk `j` scaled, into chunk `j` of the result, in flight on cell `sm`. -/
def OutFlightV (sm : DmaSems sig S_) (b : Memref sig .scVector .vmem S32x1024 .f32)
    (X : Buf (Elt F) ((xV).view.loc (thr d L))) (TS : TabT F) (j : Fin 32) (G : Buf (Elt F) (b.view.loc (thr d L))) : sProp (𝕄 (F := F)) :=
  iprop(∃ (fo : Buf (Elt F) ((oChunk L j).view.loc (thr d L))),
    Transfers.Flight countersEmb (thr d L) (SemLoc.dma sm.sem) default 1048576
        iprop(((oChunk L j).view.loc (thr d L) ↦[(oChunk L j).view.set]{fullShare} chunkVal d L X TS j fo) ∗ (b.view.loc (thr d L) ↦[b.view.set]{fullShare} G))
      ∗ (b.view.loc (thr d L) ↦[Finset.univ \ b.view.set]{fullShare} G))

theorem inFlightV_open (sm : DmaSems sig S_) (b : Memref sig .scVector .vmem S32x1024 .f32) (t : PosShare TreeShare)
    (X : Buf (Elt F) ((xV).view.loc (thr d L))) (j : Fin 32) (G : Buf (Elt F) (b.view.loc (thr d L))) :
    InFlightV (F := F) d L sm b t X j G ⊢ iprop(∃ (I : Finset (Idx ((xV).view.loc (thr d L)))),
      Transfers.Flight countersEmb (thr d L) (SemLoc.dma sm.sem) default 1048576
          iprop((b.view.loc (thr d L) ↦{fullShare} G) ∗ ((xV).view.loc (thr d L) ↦[I]{t} X))
        ∗ ((xV).view.loc (thr d L) ↦[Finset.univ \ I]{t} X)) := by
  unfold InFlightV; exact Entails.rfl

theorem outFlightV_open (sm : DmaSems sig S_) (b : Memref sig .scVector .vmem S32x1024 .f32)
    (X : Buf (Elt F) ((xV).view.loc (thr d L))) (TS : TabT F) (j : Fin 32) (G : Buf (Elt F) (b.view.loc (thr d L))) :
    OutFlightV (F := F) d L sm b X TS j G ⊢ iprop(∃ (fo : Buf (Elt F) ((oChunk L j).view.loc (thr d L))),
      Transfers.Flight countersEmb (thr d L) (SemLoc.dma sm.sem) default 1048576
          iprop(((oChunk L j).view.loc (thr d L) ↦[(oChunk L j).view.set]{fullShare} chunkVal d L X TS j fo) ∗ (b.view.loc (thr d L) ↦[b.view.set]{fullShare} G))
        ∗ (b.view.loc (thr d L) ↦[Finset.univ \ b.view.set]{fullShare} G)) := by
  unfold OutFlightV; exact Entails.rfl

/-- What lands in slot b0: the chunk of x the copy read. -/
theorem inFlightV_fold_b0 (sm : DmaSems sig S_) (t : PosShare TreeShare)
    (X : Buf (Elt F) ((xV).view.loc (thr d L)))
    {off : Fin 2 → Nat} (h : ∀ a, off a + S32x1024.size a ≤ S32768x1024.size a) (j : Fin 32) (e : off = offC L j)
    (I : Finset (Idx ((xV).view.loc (thr d L)))) (fprev : Buf (Elt F) ((b0).view.loc (thr d L))) :
    (iprop(Transfers.Flight countersEmb (thr d L) (SemLoc.dma sm.sem) default 1048576
        iprop(((b0).view.loc (thr d L) ↦{fullShare}
            View.write (Elt F) (b0).view fprev (ReadAs.same.apply (View.read (Elt F) (xSlice off h).view X)) Finset.univ)
          ∗ ((xV).view.loc (thr d L) ↦[I]{t} X))
      ∗ ((xV).view.loc (thr d L) ↦[Finset.univ \ I]{t} X)) : sProp (𝕄 (F := F))) ⊢ InFlightV d L sm b0 t X j (XC d L X j) := by
  subst e
  have hw : View.write (Elt F) (b0).view fprev (ReadAs.same.apply (View.read (Elt F) (xSlice (offC L j) h).view X)) Finset.univ = XC d L X j := by
    show View.write (Elt F) (View.whole (cc0_scratch0 : Ref sig .scVector)) fprev (XC d L X j) Finset.univ = XC d L X j
    exact View.write_whole_univ (Val := Elt F) (cc0_scratch0 : Ref sig .scVector) fprev (XC d L X j)
  rw [hw]
  unfold InFlightV
  iintro ⟨Hf, Hr⟩
  iexists I
  isplitl [Hf]
  · iexact Hf
  · iexact Hr

/-- The contents of slot b0 once chunk `j` of x has landed. -/
theorem landed_b0 (X : Buf (Elt F) ((xV).view.loc (thr d L)))
    {off : Fin 2 → Nat} (h : ∀ a, off a + S32x1024.size a ≤ S32768x1024.size a) (j : Fin 32) (e : off = offC L j)
    (fprev : Buf (Elt F) ((b0).view.loc (thr d L))) :
    View.write (Elt F) (b0).view fprev (ReadAs.same.apply (View.read (Elt F) (xSlice off h).view X)) Finset.univ = XC d L X j := by
  subst e
  show View.write (Elt F) (View.whole (cc0_scratch0 : Ref sig .scVector)) fprev (XC d L X j) Finset.univ = XC d L X j
  exact View.write_whole_univ (Val := Elt F) (cc0_scratch0 : Ref sig .scVector) fprev (XC d L X j)

/-- A copy out of slot b0 holding chunk `j` scaled, as the kernel spells its destination, is that chunk's copy out. -/
theorem outFlightV_fold_b0 (sm : DmaSems sig S_)
    (X : Buf (Elt F) ((xV).view.loc (thr d L))) (TS : TabT F)
    {off : Fin 2 → Nat} (h : ∀ a, off a + S32x1024.size a ≤ S32768x1024.size a) (j : Fin 32) (e : off = offC L j)
    (fo : Buf (Elt F) ((oSlice off h).view.loc (thr d L))) :
    (iprop(Transfers.Flight countersEmb (thr d L) (SemLoc.dma sm.sem) default 1048576
        iprop(((oSlice off h).view.loc (thr d L) ↦[(oSlice off h).view.set]{fullShare}
            (oSlice off h).view.writes (Elt F) fo [⟨Rect.whole S32x1024, ReadAs.same.apply (View.read (Elt F) (b0).view (Scaled j (XC d L X j) TS))⟩])
          ∗ ((b0).view.loc (thr d L) ↦[(b0).view.set]{fullShare} (Scaled j (XC d L X j) TS)))
      ∗ ((b0).view.loc (thr d L) ↦[Finset.univ \ (b0).view.set]{fullShare} (Scaled j (XC d L X j) TS))) : sProp (𝕄 (F := F)))
      ⊢ OutFlightV d L sm b0 X TS j (Scaled j (XC d L X j) TS) := by
  subst e
  unfold OutFlightV chunkVal
  iintro ⟨Hf, Hr⟩
  iexists fo
  isplitl [Hf]
  · iexact Hf
  · iexact Hr

/-- A delivered chunk copied out of slot b0, as the kernel spells it, is the chunk written. -/
theorem chunkV_fold_b0 (X : Buf (Elt F) ((xV).view.loc (thr d L))) (TS : TabT F)
    {off : Fin 2 → Nat} (h : ∀ a, off a + S32x1024.size a ≤ S32768x1024.size a) (j : Fin 32) (e : off = offC L j)
    (fo : Buf (Elt F) ((oSlice off h).view.loc (thr d L))) :
    ((oSlice off h).view.loc (thr d L) ↦[(oSlice off h).view.set]{fullShare}
        (oSlice off h).view.writes (Elt F) fo [⟨Rect.whole S32x1024, ReadAs.same.apply (View.read (Elt F) (b0).view (Scaled j (XC d L X j) TS))⟩]
      : sProp (𝕄 (F := F))) ⊢ ΦcV d L X TS j := by
  subst e
  unfold ΦcV chunkVal
  iintro H
  iexists fo
  iexact H

/-- What lands in slot b1: the chunk of x the copy read. -/
theorem inFlightV_fold_b1 (sm : DmaSems sig S_) (t : PosShare TreeShare)
    (X : Buf (Elt F) ((xV).view.loc (thr d L)))
    {off : Fin 2 → Nat} (h : ∀ a, off a + S32x1024.size a ≤ S32768x1024.size a) (j : Fin 32) (e : off = offC L j)
    (I : Finset (Idx ((xV).view.loc (thr d L)))) (fprev : Buf (Elt F) ((b1).view.loc (thr d L))) :
    (iprop(Transfers.Flight countersEmb (thr d L) (SemLoc.dma sm.sem) default 1048576
        iprop(((b1).view.loc (thr d L) ↦{fullShare}
            View.write (Elt F) (b1).view fprev (ReadAs.same.apply (View.read (Elt F) (xSlice off h).view X)) Finset.univ)
          ∗ ((xV).view.loc (thr d L) ↦[I]{t} X))
      ∗ ((xV).view.loc (thr d L) ↦[Finset.univ \ I]{t} X)) : sProp (𝕄 (F := F))) ⊢ InFlightV d L sm b1 t X j (XC d L X j) := by
  subst e
  have hw : View.write (Elt F) (b1).view fprev (ReadAs.same.apply (View.read (Elt F) (xSlice (offC L j) h).view X)) Finset.univ = XC d L X j := by
    show View.write (Elt F) (View.whole (cc0_scratch1 : Ref sig .scVector)) fprev (XC d L X j) Finset.univ = XC d L X j
    exact View.write_whole_univ (Val := Elt F) (cc0_scratch1 : Ref sig .scVector) fprev (XC d L X j)
  rw [hw]
  unfold InFlightV
  iintro ⟨Hf, Hr⟩
  iexists I
  isplitl [Hf]
  · iexact Hf
  · iexact Hr

/-- The contents of slot b1 once chunk `j` of x has landed. -/
theorem landed_b1 (X : Buf (Elt F) ((xV).view.loc (thr d L)))
    {off : Fin 2 → Nat} (h : ∀ a, off a + S32x1024.size a ≤ S32768x1024.size a) (j : Fin 32) (e : off = offC L j)
    (fprev : Buf (Elt F) ((b1).view.loc (thr d L))) :
    View.write (Elt F) (b1).view fprev (ReadAs.same.apply (View.read (Elt F) (xSlice off h).view X)) Finset.univ = XC d L X j := by
  subst e
  show View.write (Elt F) (View.whole (cc0_scratch1 : Ref sig .scVector)) fprev (XC d L X j) Finset.univ = XC d L X j
  exact View.write_whole_univ (Val := Elt F) (cc0_scratch1 : Ref sig .scVector) fprev (XC d L X j)

/-- A copy out of slot b1 holding chunk `j` scaled, as the kernel spells its destination, is that chunk's copy out. -/
theorem outFlightV_fold_b1 (sm : DmaSems sig S_)
    (X : Buf (Elt F) ((xV).view.loc (thr d L))) (TS : TabT F)
    {off : Fin 2 → Nat} (h : ∀ a, off a + S32x1024.size a ≤ S32768x1024.size a) (j : Fin 32) (e : off = offC L j)
    (fo : Buf (Elt F) ((oSlice off h).view.loc (thr d L))) :
    (iprop(Transfers.Flight countersEmb (thr d L) (SemLoc.dma sm.sem) default 1048576
        iprop(((oSlice off h).view.loc (thr d L) ↦[(oSlice off h).view.set]{fullShare}
            (oSlice off h).view.writes (Elt F) fo [⟨Rect.whole S32x1024, ReadAs.same.apply (View.read (Elt F) (b1).view (Scaled j (XC d L X j) TS))⟩])
          ∗ ((b1).view.loc (thr d L) ↦[(b1).view.set]{fullShare} (Scaled j (XC d L X j) TS)))
      ∗ ((b1).view.loc (thr d L) ↦[Finset.univ \ (b1).view.set]{fullShare} (Scaled j (XC d L X j) TS))) : sProp (𝕄 (F := F)))
      ⊢ OutFlightV d L sm b1 X TS j (Scaled j (XC d L X j) TS) := by
  subst e
  unfold OutFlightV chunkVal
  iintro ⟨Hf, Hr⟩
  iexists fo
  isplitl [Hf]
  · iexact Hf
  · iexact Hr

/-- A delivered chunk copied out of slot b1, as the kernel spells it, is the chunk written. -/
theorem chunkV_fold_b1 (X : Buf (Elt F) ((xV).view.loc (thr d L))) (TS : TabT F)
    {off : Fin 2 → Nat} (h : ∀ a, off a + S32x1024.size a ≤ S32768x1024.size a) (j : Fin 32) (e : off = offC L j)
    (fo : Buf (Elt F) ((oSlice off h).view.loc (thr d L))) :
    ((oSlice off h).view.loc (thr d L) ↦[(oSlice off h).view.set]{fullShare}
        (oSlice off h).view.writes (Elt F) fo [⟨Rect.whole S32x1024, ReadAs.same.apply (View.read (Elt F) (b1).view (Scaled j (XC d L X j) TS))⟩]
      : sProp (𝕄 (F := F))) ⊢ ΦcV d L X TS j := by
  subst e
  unfold ΦcV chunkVal
  iintro H
  iexists fo
  iexact H

/-- What lands in slot b2: the chunk of x the copy read. -/
theorem inFlightV_fold_b2 (sm : DmaSems sig S_) (t : PosShare TreeShare)
    (X : Buf (Elt F) ((xV).view.loc (thr d L)))
    {off : Fin 2 → Nat} (h : ∀ a, off a + S32x1024.size a ≤ S32768x1024.size a) (j : Fin 32) (e : off = offC L j)
    (I : Finset (Idx ((xV).view.loc (thr d L)))) (fprev : Buf (Elt F) ((b2).view.loc (thr d L))) :
    (iprop(Transfers.Flight countersEmb (thr d L) (SemLoc.dma sm.sem) default 1048576
        iprop(((b2).view.loc (thr d L) ↦{fullShare}
            View.write (Elt F) (b2).view fprev (ReadAs.same.apply (View.read (Elt F) (xSlice off h).view X)) Finset.univ)
          ∗ ((xV).view.loc (thr d L) ↦[I]{t} X))
      ∗ ((xV).view.loc (thr d L) ↦[Finset.univ \ I]{t} X)) : sProp (𝕄 (F := F))) ⊢ InFlightV d L sm b2 t X j (XC d L X j) := by
  subst e
  have hw : View.write (Elt F) (b2).view fprev (ReadAs.same.apply (View.read (Elt F) (xSlice (offC L j) h).view X)) Finset.univ = XC d L X j := by
    show View.write (Elt F) (View.whole (cc0_scratch2 : Ref sig .scVector)) fprev (XC d L X j) Finset.univ = XC d L X j
    exact View.write_whole_univ (Val := Elt F) (cc0_scratch2 : Ref sig .scVector) fprev (XC d L X j)
  rw [hw]
  unfold InFlightV
  iintro ⟨Hf, Hr⟩
  iexists I
  isplitl [Hf]
  · iexact Hf
  · iexact Hr

/-- The contents of slot b2 once chunk `j` of x has landed. -/
theorem landed_b2 (X : Buf (Elt F) ((xV).view.loc (thr d L)))
    {off : Fin 2 → Nat} (h : ∀ a, off a + S32x1024.size a ≤ S32768x1024.size a) (j : Fin 32) (e : off = offC L j)
    (fprev : Buf (Elt F) ((b2).view.loc (thr d L))) :
    View.write (Elt F) (b2).view fprev (ReadAs.same.apply (View.read (Elt F) (xSlice off h).view X)) Finset.univ = XC d L X j := by
  subst e
  show View.write (Elt F) (View.whole (cc0_scratch2 : Ref sig .scVector)) fprev (XC d L X j) Finset.univ = XC d L X j
  exact View.write_whole_univ (Val := Elt F) (cc0_scratch2 : Ref sig .scVector) fprev (XC d L X j)

/-- A copy out of slot b2 holding chunk `j` scaled, as the kernel spells its destination, is that chunk's copy out. -/
theorem outFlightV_fold_b2 (sm : DmaSems sig S_)
    (X : Buf (Elt F) ((xV).view.loc (thr d L))) (TS : TabT F)
    {off : Fin 2 → Nat} (h : ∀ a, off a + S32x1024.size a ≤ S32768x1024.size a) (j : Fin 32) (e : off = offC L j)
    (fo : Buf (Elt F) ((oSlice off h).view.loc (thr d L))) :
    (iprop(Transfers.Flight countersEmb (thr d L) (SemLoc.dma sm.sem) default 1048576
        iprop(((oSlice off h).view.loc (thr d L) ↦[(oSlice off h).view.set]{fullShare}
            (oSlice off h).view.writes (Elt F) fo [⟨Rect.whole S32x1024, ReadAs.same.apply (View.read (Elt F) (b2).view (Scaled j (XC d L X j) TS))⟩])
          ∗ ((b2).view.loc (thr d L) ↦[(b2).view.set]{fullShare} (Scaled j (XC d L X j) TS)))
      ∗ ((b2).view.loc (thr d L) ↦[Finset.univ \ (b2).view.set]{fullShare} (Scaled j (XC d L X j) TS))) : sProp (𝕄 (F := F)))
      ⊢ OutFlightV d L sm b2 X TS j (Scaled j (XC d L X j) TS) := by
  subst e
  unfold OutFlightV chunkVal
  iintro ⟨Hf, Hr⟩
  iexists fo
  isplitl [Hf]
  · iexact Hf
  · iexact Hr

/-- A delivered chunk copied out of slot b2, as the kernel spells it, is the chunk written. -/
theorem chunkV_fold_b2 (X : Buf (Elt F) ((xV).view.loc (thr d L))) (TS : TabT F)
    {off : Fin 2 → Nat} (h : ∀ a, off a + S32x1024.size a ≤ S32768x1024.size a) (j : Fin 32) (e : off = offC L j)
    (fo : Buf (Elt F) ((oSlice off h).view.loc (thr d L))) :
    ((oSlice off h).view.loc (thr d L) ↦[(oSlice off h).view.set]{fullShare}
        (oSlice off h).view.writes (Elt F) fo [⟨Rect.whole S32x1024, ReadAs.same.apply (View.read (Elt F) (b2).view (Scaled j (XC d L X j) TS))⟩]
      : sProp (𝕄 (F := F))) ⊢ ΦcV d L X TS j := by
  subst e
  unfold ΦcV chunkVal
  iintro H
  iexists fo
  iexact H

end Cert.Proof.KI

end
-- ==== Proof.KIVGroupDefs.lean ====
import proofs.«206558_g86277303042394_cont_sun_m_1099_24_alg».proof.Proof.KIVFlights

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

variable (d : Dev nD) (L : grid0.Coords)

/-! ## Chunk numbers of the copies requested ahead -/

def cn (n : ℕ) : Fin 32 := ⟨n % 32, Nat.mod_lt _ (by decide)⟩

/-- Chunk `3g + r` for `r ≤ 4` (the group's three and the next group's first two). -/
def chn (g : Fin k0_t1_loop.trips) (r : Fin 5) : Fin 32 :=
  ⟨3 * g.val + r.val, by have := g.isLt; have := trips1; have := r.isLt; omega⟩

theorem cn_0 (g : Fin k0_t1_loop.trips) : cn (3 * g.val) = ch g 0 := by
  have := g.isLt; have := trips1
  apply Fin.ext; show (3 * g.val) % 32 = 3 * g.val + 0; omega
theorem cn_1 (g : Fin k0_t1_loop.trips) : cn (3 * g.val + 1) = ch g 1 := by
  have := g.isLt; have := trips1
  apply Fin.ext; show (3 * g.val + 1) % 32 = 3 * g.val + 1; omega
theorem cn_3 (g : Fin k0_t1_loop.trips) : cn (3 * (g.val + 1)) = chn g 3 := by
  have := g.isLt; have := trips1
  apply Fin.ext; show (3 * (g.val + 1)) % 32 = 3 * g.val + 3; omega
theorem cn_4 (g : Fin k0_t1_loop.trips) : cn (3 * (g.val + 1) + 1) = chn g 4 := by
  have := g.isLt; have := trips1
  apply Fin.ext; show (3 * (g.val + 1) + 1) % 32 = 3 * g.val + 4; omega

theorem off70_eq (g : Fin k0_t1_loop.trips) : k0_off70 L g = offC L (ch g 2) := by
  rw [k0_off70_eq]; unfold offC ch
  funext a; fin_cases a <;> simp <;> ring
theorem off137_eq (g : Fin k0_t1_loop.trips) : k0_off137 L g = offC L (chn g 3) := by
  rw [k0_off137_eq]; unfold offC chn
  funext a; fin_cases a <;> simp <;> ring
theorem off204_eq (g : Fin k0_t1_loop.trips) : k0_off204 L g = offC L (chn g 4) := by
  rw [k0_off204_eq]; unfold offC chn
  funext a; fin_cases a <;> simp <;> ring

/-! ## The scaling loops' valued invariants: the slot at the iteration of the trips' stores -/

def invBV2 (g : Fin k0_t1_loop.trips) (TS : TabT F) (G0 : SlotT F) (k : ℕ) (_ : PUnit) : sProp (𝕄 (F := F)) :=
  iprop(((b0).view.loc (thr d L) ↦{fullShare} iterV2 d L g TS k G0) ∗ ((bS).view.loc (thr d L) ↦{fullShare} TS))

theorem loopStepV2 (g : Fin k0_t1_loop.trips) (TS : TabT F) (G0 : SlotT F) (v2 a0 a1 v41 : BitVec 32) (k : Fin k0_t2_loop.trips) (acc : PUnit) :
    invBV2 (F := F) d L g TS G0 k.val acc
      ⊢ wp frame (wpE (defs₀ (F := F)) 𝒱₀ (thr d L) none) Set.univ
          (k0_t2_body L xV (Memref.isWhole_whole _) sV (Memref.isWhole_whole _) oV (Memref.isWhole_whole _)
              b0 (Memref.isWhole_whole _) b1 (Memref.isWhole_whole _) b2 (Memref.isWhole_whole _) bS (Memref.isWhole_whole _)
              cc0_scratch4 cc0_scratch5 cc0_scratch6 cc0_scratch7 cc0_scratch8 cc0_scratch9 cc0_scoped0 v2 a0 a1 g v41 k acc)
          (invBV2 d L g TS G0 (k.val + 1)) := by
  unfold invBV2
  rw [iterV2_succ]
  exact (tripV2 d L g k).2 v2 a0 a1 v41 _ TS

theorem trips2_eq : Scf.trips k0_t2_loop.lb k0_t2_loop.ub k0_t2_loop.st = 16 := by decide

def invBV3 (g : Fin k0_t1_loop.trips) (TS : TabT F) (G0 : SlotT F) (k : ℕ) (_ : PUnit) : sProp (𝕄 (F := F)) :=
  iprop(((b1).view.loc (thr d L) ↦{fullShare} iterV3 d L g TS k G0) ∗ ((bS).view.loc (thr d L) ↦{fullShare} TS))

theorem loopStepV3 (g : Fin k0_t1_loop.trips) (TS : TabT F) (G0 : SlotT F) (v2 a15 v61 a0 a1 : BitVec 32) (k : Fin k0_t3_loop.trips) (acc : PUnit) :
    invBV3 (F := F) d L g TS G0 k.val acc
      ⊢ wp frame (wpE (defs₀ (F := F)) 𝒱₀ (thr d L) none) Set.univ
          (k0_t3_body L xV (Memref.isWhole_whole _) sV (Memref.isWhole_whole _) oV (Memref.isWhole_whole _)
              b0 (Memref.isWhole_whole _) b1 (Memref.isWhole_whole _) b2 (Memref.isWhole_whole _) bS (Memref.isWhole_whole _)
              cc0_scratch4 cc0_scratch5 cc0_scratch6 cc0_scratch7 cc0_scratch8 cc0_scratch9 cc0_scoped0 v2 g a15 v61 a0 a1 k acc)
          (invBV3 d L g TS G0 (k.val + 1)) := by
  unfold invBV3
  rw [iterV3_succ]
  exact (tripV3 d L g k).2 v2 a15 v61 a0 a1 _ TS

theorem trips3_eq : Scf.trips k0_t3_loop.lb k0_t3_loop.ub k0_t3_loop.st = 16 := by decide

def invBV4 (g : Fin k0_t1_loop.trips) (TS : TabT F) (G0 : SlotT F) (k : ℕ) (_ : PUnit) : sProp (𝕄 (F := F)) :=
  iprop(((b2).view.loc (thr d L) ↦{fullShare} iterV4 d L g TS k G0) ∗ ((bS).view.loc (thr d L) ↦{fullShare} TS))

theorem loopStepV4 (g : Fin k0_t1_loop.trips) (TS : TabT F) (G0 : SlotT F) (v2 a15 v61 a0 a1 v81 : BitVec 32) (k : Fin k0_t4_loop.trips) (acc : PUnit) :
    invBV4 (F := F) d L g TS G0 k.val acc
      ⊢ wp frame (wpE (defs₀ (F := F)) 𝒱₀ (thr d L) none) Set.univ
          (k0_t4_body L xV (Memref.isWhole_whole _) sV (Memref.isWhole_whole _) oV (Memref.isWhole_whole _)
              b0 (Memref.isWhole_whole _) b1 (Memref.isWhole_whole _) b2 (Memref.isWhole_whole _) bS (Memref.isWhole_whole _)
              cc0_scratch4 cc0_scratch5 cc0_scratch6 cc0_scratch7 cc0_scratch8 cc0_scratch9 cc0_scoped0 v2 g a15 v61 a0 a1 v81 k acc)
          (invBV4 d L g TS G0 (k.val + 1)) := by
  unfold invBV4
  rw [iterV4_succ]
  exact (tripV4 d L g k).2 v2 a15 v61 a0 a1 v81 _ TS

theorem trips4_eq : Scf.trips k0_t4_loop.lb k0_t4_loop.ub k0_t4_loop.st = 16 := by decide

def invBV5  (TS : TabT F) (G0 : SlotT F) (k : ℕ) (_ : PUnit) : sProp (𝕄 (F := F)) :=
  iprop(((b0).view.loc (thr d L) ↦{fullShare} iter5 d L  TS k G0) ∗ ((bS).view.loc (thr d L) ↦{fullShare} TS))

theorem loopStepV5  (TS : TabT F) (G0 : SlotT F)  (k : Fin k0_t5_loop.trips) (acc : PUnit) :
    invBV5 (F := F) d L  TS G0 k.val acc
      ⊢ wp frame (wpE (defs₀ (F := F)) 𝒱₀ (thr d L) none) Set.univ
          (k0_t5_body L xV (Memref.isWhole_whole _) sV (Memref.isWhole_whole _) oV (Memref.isWhole_whole _)
              b0 (Memref.isWhole_whole _) b1 (Memref.isWhole_whole _) b2 (Memref.isWhole_whole _) bS (Memref.isWhole_whole _)
              cc0_scratch4 cc0_scratch5 cc0_scratch6 cc0_scratch7 cc0_scratch8 cc0_scratch9 cc0_scoped0  k acc)
          (invBV5 d L  TS G0 (k.val + 1)) := by
  unfold invBV5
  rw [iter5_succ]
  exact (trip5 d L  k).2  _ TS

theorem trips5_eq : Scf.trips k0_t5_loop.lb k0_t5_loop.ub k0_t5_loop.st = 16 := by decide

def invBV6  (TS : TabT F) (G0 : SlotT F) (k : ℕ) (_ : PUnit) : sProp (𝕄 (F := F)) :=
  iprop(((b1).view.loc (thr d L) ↦{fullShare} iter6 d L  TS k G0) ∗ ((bS).view.loc (thr d L) ↦{fullShare} TS))

theorem loopStepV6  (TS : TabT F) (G0 : SlotT F)  (k : Fin k0_t6_loop.trips) (acc : PUnit) :
    invBV6 (F := F) d L  TS G0 k.val acc
      ⊢ wp frame (wpE (defs₀ (F := F)) 𝒱₀ (thr d L) none) Set.univ
          (k0_t6_body L xV (Memref.isWhole_whole _) sV (Memref.isWhole_whole _) oV (Memref.isWhole_whole _)
              b0 (Memref.isWhole_whole _) b1 (Memref.isWhole_whole _) b2 (Memref.isWhole_whole _) bS (Memref.isWhole_whole _)
              cc0_scratch4 cc0_scratch5 cc0_scratch6 cc0_scratch7 cc0_scratch8 cc0_scratch9 cc0_scoped0  k acc)
          (invBV6 d L  TS G0 (k.val + 1)) := by
  unfold invBV6
  rw [iter6_succ]
  exact (trip6 d L  k).2  _ TS

theorem trips6_eq : Scf.trips k0_t6_loop.lb k0_t6_loop.ub k0_t6_loop.st = 16 := by decide

/-! ## The tile between two groups, with its values -/

/-- Slot 2 and the chunks held, when group `g` begins: the chunks below `3g` written. -/
def Slot2V (X : Buf (Elt F) ((xV).view.loc (thr d L))) (TS : TabT F) (g : ℕ) : sProp (𝕄 (F := F)) :=
  if g = 0 then iprop((∃ f, (b2).view.loc (thr d L) ↦{fullShare} f) ∗ semVal (cell d L cc0_scratch9) 0 ∗ bigSep Finset.univ (Ψc d L X TS (3 * g)))
  else iprop(OutFlightV d L cc0_scratch9 b2 X TS (fl g) (Scaled (fl g) (XC d L X (fl g)) TS) ∗ bigSep (Finset.univ.erase (fl g)) (Ψc d L X TS (3 * g)))

theorem Slot2V_zero {X : Buf (Elt F) ((xV).view.loc (thr d L))} {TS : TabT F} {g : ℕ} (h : g = 0) : Slot2V (F := F) d L X TS g
    = iprop((∃ f, (b2).view.loc (thr d L) ↦{fullShare} f) ∗ semVal (cell d L cc0_scratch9) 0 ∗ bigSep Finset.univ (Ψc d L X TS (3 * g))) := if_pos h
theorem Slot2V_pos {X : Buf (Elt F) ((xV).view.loc (thr d L))} {TS : TabT F} {g : ℕ} (h : ¬ g = 0) : Slot2V (F := F) d L X TS g
    = iprop(OutFlightV d L cc0_scratch9 b2 X TS (fl g) (Scaled (fl g) (XC d L X (fl g)) TS) ∗ bigSep (Finset.univ.erase (fl g)) (Ψc d L X TS (3 * g))) := if_neg h
theorem Slot2V_succ (X : Buf (Elt F) ((xV).view.loc (thr d L))) (TS : TabT F) (g : Fin k0_t1_loop.trips) : Slot2V (F := F) d L X TS (g.val + 1)
    = iprop(OutFlightV d L cc0_scratch9 b2 X TS (ch g 2) (Scaled (ch g 2) (XC d L X (ch g 2)) TS)
        ∗ bigSep (Finset.univ.erase (ch g 2)) (Ψc d L X TS (3 * (g.val + 1)))) := by
  rw [Slot2V_pos d L (Nat.succ_ne_zero _), fl_succ]

def inv1V (q : PosShare TreeShare) (X : Buf (Elt F) ((xV).view.loc (thr d L))) (TS : TabT F)
    (O : CellTallies nD τ sig (HIx 1)) (W : Waits sig (HIx 1)) (g : ℕ) (_ : PUnit) : sProp (𝕄 (F := F)) :=
  iprop(Transfers.MayWaits (thr d L) none O
    ∗ InFlightV d L cc0_scratch4 b0 (shareTok q 3 0) X (cn (3 * g)) (XC d L X (cn (3 * g)))
    ∗ InFlightV d L cc0_scratch5 b1 (shareTok q 3 1) X (cn (3 * g + 1)) (XC d L X (cn (3 * g + 1)))
    ∗ ((xV).view.loc (thr d L) ↦{shareTok q 3 2} X) ∗ semVal (cell d L cc0_scratch6) 0
    ∗ Slot2V d L X TS g
    ∗ semVal (cell d L cc0_scratch7) 0 ∗ semVal (cell d L cc0_scratch8) 0
    ∗ ((bS).view.loc (thr d L) ↦{fullShare} TS)
    ∗ ∃ W', ⌜∀ p ∈ W', p ∈ W ∨ p.2 = none⌝ ∗ owes (thr d L) O W')

/-- Three members taken out of a held set and put back (the third stays out), for any family. -/
theorem regroupG (Φ : Fin 32 → sProp (𝕄 (F := F))) (S : Finset (Fin 32)) (j0 j1 j2 : Fin 32) (h0 : j0 ∈ S) (h1 : j1 ∈ S) (h01 : j0 ≠ j1) (h02 : j0 ≠ j2) (h12 : j1 ≠ j2) :
    (iprop(Φ j0 ∗ Φ j1 ∗ bigSep (((S.erase j0).erase j1).erase j2) Φ) : sProp (𝕄 (F := F))) = bigSep (S.erase j2) Φ := by
  have e : ((S.erase j0).erase j1).erase j2 = ((S.erase j2).erase j0).erase j1 := by
    ext x; simp only [Finset.mem_erase]; tauto
  rw [e, ← SparseCore.bigSep_erase' (Finset.mem_erase.mpr ⟨h01.symm, Finset.mem_erase.mpr ⟨h12, h1⟩⟩),
    ← SparseCore.bigSep_erase' (Finset.mem_erase.mpr ⟨h02, h0⟩)]

theorem swapG (Φ : Fin 32 → sProp (𝕄 (F := F))) (a j : Fin 32) (h : a ≠ j) :
    (iprop(Φ a ∗ bigSep ((Finset.univ.erase a).erase j) Φ) : sProp (𝕄 (F := F))) = bigSep (Finset.univ.erase j) Φ := by
  rw [Finset.erase_right_comm, ← SparseCore.bigSep_erase' (Finset.mem_erase.mpr ⟨h, Finset.mem_univ a⟩)]

/-- Off the group's three chunks, "written below 3g" and "written below 3(g+1)" say the same. -/
theorem Ψc_step (X : Buf (Elt F) ((xV).view.loc (thr d L))) (TS : TabT F) (g : Fin k0_t1_loop.trips) (S : Finset (Fin 32)) :
    bigSep (((S.erase (ch g 0)).erase (ch g 1)).erase (ch g 2)) (Ψc d L X TS (3 * g.val))
      = bigSep (((S.erase (ch g 0)).erase (ch g 1)).erase (ch g 2)) (Ψc d L X TS (3 * (g.val + 1))) := by
  refine bigSep_congr fun j hj => ?_
  simp only [Finset.mem_erase] at hj
  have h0 : j.val ≠ 3 * g.val + 0 := fun e => hj.2.2.1 (Fin.ext e)
  have h1 : j.val ≠ 3 * g.val + 1 := fun e => hj.2.1 (Fin.ext e)
  have h2 : j.val ≠ 3 * g.val + 2 := fun e => hj.1 (Fin.ext e)
  unfold Ψc
  by_cases hlt : j.val < 3 * g.val
  · rw [if_pos hlt, if_pos (by omega)]
  · rw [if_neg hlt, if_neg (by omega)]

end Cert.Proof.KI

end
-- ==== Proof.KIVGroup.lean ====
import proofs.«206558_g86277303042394_cont_sun_m_1099_24_alg».proof.Proof.KIVGroupDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

variable (d : Dev nD) (L : grid0.Coords)

/-! ## One group, with its values -/

set_option maxHeartbeats 1600000 in
theorem group_tripV (hI : IterClosed (F := F) d L) (q : PosShare TreeShare) (X : Buf (Elt F) ((xV).view.loc (thr d L))) (TS : TabT F)
    (O : CellTallies nD τ sig (HIx 1)) (W : Waits sig (HIx 1)) (v2 : BitVec 32) (k : Fin k0_t1_loop.trips) (acc : PUnit) :
    inv1V (F := F) d L q X TS O W k.val acc
      ⊢ wp frame (wpE (defs₀ (F := F)) 𝒱₀ (thr d L) none) Set.univ
          (k0_t1_body L xV (Memref.isWhole_whole _) sV (Memref.isWhole_whole _) oV (Memref.isWhole_whole _)
              b0 (Memref.isWhole_whole _) b1 (Memref.isWhole_whole _) b2 (Memref.isWhole_whole _) bS (Memref.isWhole_whole _)
              cc0_scratch4 cc0_scratch5 cc0_scratch6 cc0_scratch7 cc0_scratch8 cc0_scratch9 cc0_scoped0 v2 k acc)
          (inv1V d L q X TS O W (k.val + 1)) := by
  have hc1z : k.val = 0 → ¬ k0_cond1 k = 1#1 := by revert k; decide
  have hc1p : ¬ k.val = 0 → k0_cond1 k = 1#1 := by revert k; decide
  have k0_h2 : k0_cond2 k = 1#1 := by revert k; decide
  have k0_h3 : k0_cond3 k = 1#1 := by revert k; decide
  have k0_h4 : k0_cond4 k = 1#1 := by revert k; decide
  have k0_h5 : k0_cond5 k = 1#1 := by revert k; decide
  have k0_h6 : k0_cond6 k = 1#1 := by revert k; decide
  have e0 : k0_off3 L k 0#32 = offC L (ch k 0) := off3_eq L k 0
  have e1 : k0_off3 L k 1#32 = offC L (ch k 1) := off3_eq L k 1
  have e2 : k0_off3 L k 2#32 = offC L (ch k 2) := off3_eq L k 2
  unfold inv1V
  rw [Slot2V_succ, cn_0, cn_1, cn_3, cn_4]
  delta k0_t1_body
  rw [k0_part76_eq_skeleton]; delta k0_part76_skel
  by_cases hk : k.val = 0
  · have k0_h1 : ¬ k0_cond1 k = 1#1 := hc1z hk
    rw [Slot2V_zero d L hk]
    iintro ⟨Hmw, Hin0, Hin1, Hx2, Hi2, ⟨⟨%f2, H2⟩, Ho2, Hout⟩, Ho0, Ho1, HS, %W', %hW', HO⟩
    ihave Hin0' := (inFlightV_open d L cc0_scratch4 b0 _ X _ _) $$ Hin0
    icases Hin0' with ⟨%I0, Hi0, Hx0⟩
    ihave Hin1' := (inFlightV_open d L cc0_scratch5 b1 _ X _ _) $$ Hin1
    icases Hin1' with ⟨%I1, Hi1, Hx1⟩

    ihave Hout' := (Entails.of_eq (SparseCore.bigSep_erase' (s := (Finset.univ : Finset (Fin 32))) (i := ch k 0) (Φ := Ψc (F := F) d L X TS (3 * k.val)) (Finset.mem_univ _))) $$ Hout
    icases Hout' with ⟨Hc0, Hout⟩
    ihave Hout' := (Entails.of_eq (SparseCore.bigSep_erase' (s := (Finset.univ : Finset (Fin 32)).erase (ch k 0)) (i := ch k 1) (Φ := Ψc (F := F) d L X TS (3 * k.val)) (Finset.mem_erase.mpr ⟨(ch_ne k (by decide : (1 : Fin 3) ≠ 0)), Finset.mem_univ _⟩))) $$ Hout
    icases Hout' with ⟨Hc1, Hout⟩
    ihave Hout' := (Entails.of_eq (SparseCore.bigSep_erase' (s := ((Finset.univ : Finset (Fin 32)).erase (ch k 0)).erase (ch k 1)) (i := ch k 2) (Φ := Ψc (F := F) d L X TS (3 * k.val)) (Finset.mem_erase.mpr ⟨(ch_ne k (by decide : (2 : Fin 3) ≠ 1)), Finset.mem_erase.mpr ⟨(ch_ne k (by decide : (2 : Fin 3) ≠ 0)), Finset.mem_univ _⟩⟩))) $$ Hout
    icases Hout' with ⟨Hc2, Hout⟩
    ihave Hc0 := (Entails.of_eq (Ψc_ge d L (X := X) (TS := TS) (n := 3 * k.val) (j := ch k 0) (by show ¬ 3 * k.val + 0 < _; omega))) $$ Hc0
    ihave Hc1 := (Entails.of_eq (Ψc_ge d L (X := X) (TS := TS) (n := 3 * k.val) (j := ch k 1) (by show ¬ 3 * k.val + 1 < _; omega))) $$ Hc1
    ihave Hc2 := (Entails.of_eq (Ψc_ge d L (X := X) (TS := TS) (n := 3 * k.val) (j := ch k 2) (by show ¬ 3 * k.val + 2 < _; omega))) $$ Hc2
    ihave Hc0' := (chunk_unfold d L (k0_off3_inb L k 0) (ch k 0) e0) $$ Hc0
    icases Hc0' with ⟨%fo0, Hc0⟩
    ihave Hc1' := (chunk_unfold d L (k0_off3_inb L k 1) (ch k 1) e1) $$ Hc1
    icases Hc1' with ⟨%fo1, Hc1⟩
    ihave Hc2' := (chunk_unfold d L (k0_off3_inb L k 2) (ch k 2) e2) $$ Hc2
    icases Hc2' with ⟨%fo2, Hc2⟩
    sl_exec (disch := first | exact View.amount_pos _ _ (show 0 < S128x128.numel by decide) | exact View.amount_pos _ _ (show 0 < S32x1024.numel by decide))
    sl_rw [bind_assoc]

    sl_for (invBV2 d L k TS (XC d L X (ch k 0))) $$ [Hi0_dst HS]
    case region =>
      intro k' acc'
      sl_respell []
      exact loopStepV2 d L k TS (XC d L X (ch k 0)) _ _ _ _ k' acc'
    · unfold invBV2
      isplitl [Hi0_dst]
      · iexact Hi0_dst
      · iexact HS
    iintro %_ HI
    unfold invBV2
    rw [trips2_eq, hI.h2 k TS (XC d L X (ch k 0))]
    icases HI with ⟨Hbb0, HS⟩
    sl_exec (disch := first | exact View.amount_pos _ _ (show 0 < S128x128.numel by decide) | exact View.amount_pos _ _ (show 0 < S32x1024.numel by decide))

    sl_for (invBV3 d L k TS (XC d L X (ch k 1))) $$ [Hi1_dst HS]
    case region =>
      intro k' acc'
      sl_respell []
      exact loopStepV3 d L k TS (XC d L X (ch k 1)) _ _ _ _ _ k' acc'
    · unfold invBV3
      isplitl [Hi1_dst]
      · iexact Hi1_dst
      · iexact HS
    iintro %_ HI
    unfold invBV3
    rw [trips3_eq, hI.h3 k TS (XC d L X (ch k 1))]
    icases HI with ⟨Hbb1, HS⟩
    sl_exec (disch := first | exact View.amount_pos _ _ (show 0 < S128x128.numel by decide) | exact View.amount_pos _ _ (show 0 < S32x1024.numel by decide))

    sl_unfold_run_names
    ihave H2 := (Entails.of_eq (congrArg (fun f => (((b2).view.loc (thr d L) ↦{fullShare} f) : sProp (𝕄 (F := F)))) (landed_b2 d L X (k0_off70_inb L k k0_h2) (ch k 2) (off70_eq L k) _))) $$ H2

    sl_for (invBV4 d L k TS (XC d L X (ch k 2))) $$ [H2 HS]
    case region =>
      intro k' acc'
      sl_respell []
      exact loopStepV4 d L k TS (XC d L X (ch k 2)) _ _ _ _ _ _ k' acc'
    · unfold invBV4
      isplitl [H2]
      · iexact H2
      · iexact HS
    iintro %_ HI
    unfold invBV4
    rw [trips4_eq, hI.h4 k TS (XC d L X (ch k 2))]
    icases HI with ⟨Hbb2, HS⟩

    sl_exec (disch := first | exact View.amount_pos _ _ (show 0 < S128x128.numel by decide) | exact View.amount_pos _ _ (show 0 < S32x1024.numel by decide))
    sl_step
    isplitl [Hmw]
    · iexact Hmw
    isplitl [Hi0 Hx0]
    · iapply (inFlightV_fold_b0 d L cc0_scratch4 _ X (k0_off137_inb L k k0_h4) (chn k 3) (off137_eq L k) _ _)
      isplitl [Hi0]
      · iexact Hi0
      · iexact Hx0
    isplitl [Hi1 Hx1]
    · iapply (inFlightV_fold_b1 d L cc0_scratch5 _ X (k0_off204_inb L k k0_h6) (chn k 4) (off204_eq L k) _ _)
      isplitl [Hi1]
      · iexact Hi1
      · iexact Hx1
    isplitl [Hx2]
    · iexact Hx2
    isplitl [Hi2]
    · iexact Hi2
    isplitl [Ho2 Hbb2 Hc0 Hc1 Hout]
    · isplitl [Ho2 Hbb2]
      · iapply (outFlightV_fold_b2 d L cc0_scratch9 X TS (k0_off3_inb L k 2) (ch k 2) e2 _)
        isplitl [Ho2]
        · iexact Ho2
        · iexact Hbb2
      · ihave Hd0 := (chunkV_fold_b0 d L X TS (k0_off3_inb L k 0) (ch k 0) e0 _) $$ Hc0
        ihave Hd1 := (chunkV_fold_b1 d L X TS (k0_off3_inb L k 1) (ch k 1) e1 _) $$ Hc1
        ihave Hd0 := (Entails.of_eq (Ψc_lt d L (X := X) (TS := TS) (n := 3 * (k.val + 1)) (j := ch k 0) (by show 3 * k.val + 0 < _; omega)).symm) $$ Hd0
        ihave Hd1 := (Entails.of_eq (Ψc_lt d L (X := X) (TS := TS) (n := 3 * (k.val + 1)) (j := ch k 1) (by show 3 * k.val + 1 < _; omega)).symm) $$ Hd1
        ihave Hout := (Entails.of_eq (Ψc_step d L X TS k Finset.univ)) $$ Hout
        iapply (Entails.of_eq (regroupG (Ψc d L X TS (3 * (k.val + 1))) Finset.univ (ch k 0) (ch k 1) (ch k 2) (Finset.mem_univ _) (Finset.mem_univ _)
          (ch_ne k (by decide : (0 : Fin 3) ≠ 1)) (ch_ne k (by decide : (0 : Fin 3) ≠ 2)) (ch_ne k (by decide : (1 : Fin 3) ≠ 2))))
        isplitl [Hd0]
        · iexact Hd0
        isplitl [Hd1]
        · iexact Hd1
        · iexact Hout
    isplitl [Ho0]
    · iexact Ho0
    isplitl [Ho1]
    · iexact Ho1
    isplitl [HS]
    · iexact HS
    iexists _
    isplitr
    rotate_left
    · iexact HO
    · ipureintro
      exact waits_ok (waits_ok (waits_ok (waits_ok (waits_ok hW' _) _) _) _) _
  · have k0_h1 : k0_cond1 k = 1#1 := hc1p hk
    rw [Slot2V_pos d L hk]
    iintro ⟨Hmw, Hin0, Hin1, Hx2, Hi2, ⟨Hof2, Hout⟩, Ho0, Ho1, HS, %W', %hW', HO⟩
    ihave Hin0' := (inFlightV_open d L cc0_scratch4 b0 _ X _ _) $$ Hin0
    icases Hin0' with ⟨%I0, Hi0, Hx0⟩
    ihave Hin1' := (inFlightV_open d L cc0_scratch5 b1 _ X _ _) $$ Hin1
    icases Hin1' with ⟨%I1, Hi1, Hx1⟩
    ihave Hof2' := (outFlightV_open d L cc0_scratch9 b2 X TS (fl k.val) _) $$ Hof2
    icases Hof2' with ⟨%fo9, Ho2, H2⟩

    ihave Hout' := (Entails.of_eq (SparseCore.bigSep_erase' (s := ((Finset.univ : Finset (Fin 32)).erase (fl k.val))) (i := ch k 0) (Φ := Ψc (F := F) d L X TS (3 * k.val)) (Finset.mem_erase.mpr ⟨(fl_ne_ch k 0).symm, Finset.mem_univ _⟩))) $$ Hout
    icases Hout' with ⟨Hc0, Hout⟩
    ihave Hout' := (Entails.of_eq (SparseCore.bigSep_erase' (s := ((Finset.univ : Finset (Fin 32)).erase (fl k.val)).erase (ch k 0)) (i := ch k 1) (Φ := Ψc (F := F) d L X TS (3 * k.val)) (Finset.mem_erase.mpr ⟨(ch_ne k (by decide : (1 : Fin 3) ≠ 0)), Finset.mem_erase.mpr ⟨(fl_ne_ch k 1).symm, Finset.mem_univ _⟩⟩))) $$ Hout
    icases Hout' with ⟨Hc1, Hout⟩
    ihave Hout' := (Entails.of_eq (SparseCore.bigSep_erase' (s := (((Finset.univ : Finset (Fin 32)).erase (fl k.val)).erase (ch k 0)).erase (ch k 1)) (i := ch k 2) (Φ := Ψc (F := F) d L X TS (3 * k.val)) (Finset.mem_erase.mpr ⟨(ch_ne k (by decide : (2 : Fin 3) ≠ 1)), Finset.mem_erase.mpr ⟨(ch_ne k (by decide : (2 : Fin 3) ≠ 0)), Finset.mem_erase.mpr ⟨(fl_ne_ch k 2).symm, Finset.mem_univ _⟩⟩⟩))) $$ Hout
    icases Hout' with ⟨Hc2, Hout⟩
    ihave Hc0 := (Entails.of_eq (Ψc_ge d L (X := X) (TS := TS) (n := 3 * k.val) (j := ch k 0) (by show ¬ 3 * k.val + 0 < _; omega))) $$ Hc0
    ihave Hc1 := (Entails.of_eq (Ψc_ge d L (X := X) (TS := TS) (n := 3 * k.val) (j := ch k 1) (by show ¬ 3 * k.val + 1 < _; omega))) $$ Hc1
    ihave Hc2 := (Entails.of_eq (Ψc_ge d L (X := X) (TS := TS) (n := 3 * k.val) (j := ch k 2) (by show ¬ 3 * k.val + 2 < _; omega))) $$ Hc2
    ihave Hc0' := (chunk_unfold d L (k0_off3_inb L k 0) (ch k 0) e0) $$ Hc0
    icases Hc0' with ⟨%fo0, Hc0⟩
    ihave Hc1' := (chunk_unfold d L (k0_off3_inb L k 1) (ch k 1) e1) $$ Hc1
    icases Hc1' with ⟨%fo1, Hc1⟩
    ihave Hc2' := (chunk_unfold d L (k0_off3_inb L k 2) (ch k 2) e2) $$ Hc2
    icases Hc2' with ⟨%fo2, Hc2⟩
    sl_exec (disch := first | exact View.amount_pos _ _ (show 0 < S128x128.numel by decide) | exact View.amount_pos _ _ (show 0 < S32x1024.numel by decide))
    sl_rw [bind_assoc]

    sl_for (invBV2 d L k TS (XC d L X (ch k 0))) $$ [Hi0_dst HS]
    case region =>
      intro k' acc'
      sl_respell []
      exact loopStepV2 d L k TS (XC d L X (ch k 0)) _ _ _ _ k' acc'
    · unfold invBV2
      isplitl [Hi0_dst]
      · iexact Hi0_dst
      · iexact HS
    iintro %_ HI
    unfold invBV2
    rw [trips2_eq, hI.h2 k TS (XC d L X (ch k 0))]
    icases HI with ⟨Hbb0, HS⟩
    sl_exec (disch := first | exact View.amount_pos _ _ (show 0 < S128x128.numel by decide) | exact View.amount_pos _ _ (show 0 < S32x1024.numel by decide))

    sl_for (invBV3 d L k TS (XC d L X (ch k 1))) $$ [Hi1_dst HS]
    case region =>
      intro k' acc'
      sl_respell []
      exact loopStepV3 d L k TS (XC d L X (ch k 1)) _ _ _ _ _ k' acc'
    · unfold invBV3
      isplitl [Hi1_dst]
      · iexact Hi1_dst
      · iexact HS
    iintro %_ HI
    unfold invBV3
    rw [trips3_eq, hI.h3 k TS (XC d L X (ch k 1))]
    icases HI with ⟨Hbb1, HS⟩
    sl_exec (disch := first | exact View.amount_pos _ _ (show 0 < S128x128.numel by decide) | exact View.amount_pos _ _ (show 0 < S32x1024.numel by decide))
    sl_unfold_run_names

    ihave H2 := (Entails.of_eq (congrArg (fun f => (((b2).view.loc (thr d L) ↦{fullShare} f) : sProp (𝕄 (F := F)))) (landed_b2 d L X (k0_off70_inb L k k0_h2) (ch k 2) (off70_eq L k) _))) $$ H2

    sl_for (invBV4 d L k TS (XC d L X (ch k 2))) $$ [H2 HS]
    case region =>
      intro k' acc'
      sl_respell []
      exact loopStepV4 d L k TS (XC d L X (ch k 2)) _ _ _ _ _ _ k' acc'
    · unfold invBV4
      isplitl [H2]
      · iexact H2
      · iexact HS
    iintro %_ HI
    unfold invBV4
    rw [trips4_eq, hI.h4 k TS (XC d L X (ch k 2))]
    icases HI with ⟨Hbb2, HS⟩
    ihave Hca := (show ((oChunk L (fl k.val)).view.loc (thr d L) ↦[(oChunk L (fl k.val)).view.set]{fullShare} chunkVal d L X TS (fl k.val) fo9 : sProp (𝕄 (F := F))) ⊢ ΦcV d L X TS (fl k.val) from by
      unfold ΦcV; iintro H; iexists fo9; iexact H) $$ Ho2_dst

    sl_exec (disch := first | exact View.amount_pos _ _ (show 0 < S128x128.numel by decide) | exact View.amount_pos _ _ (show 0 < S32x1024.numel by decide))
    sl_step
    isplitl [Hmw]
    · iexact Hmw
    isplitl [Hi0 Hx0]
    · iapply (inFlightV_fold_b0 d L cc0_scratch4 _ X (k0_off137_inb L k k0_h4) (chn k 3) (off137_eq L k) _ _)
      isplitl [Hi0]
      · iexact Hi0
      · iexact Hx0
    isplitl [Hi1 Hx1]
    · iapply (inFlightV_fold_b1 d L cc0_scratch5 _ X (k0_off204_inb L k k0_h6) (chn k 4) (off204_eq L k) _ _)
      isplitl [Hi1]
      · iexact Hi1
      · iexact Hx1
    isplitl [Hx2]
    · iexact Hx2
    isplitl [Hi2]
    · iexact Hi2
    isplitl [Ho2 Hbb2 Hc0 Hc1 Hout Hca]
    · isplitl [Ho2 Hbb2]
      · iapply (outFlightV_fold_b2 d L cc0_scratch9 X TS (k0_off3_inb L k 2) (ch k 2) e2 _)
        isplitl [Ho2]
        · iexact Ho2
        · iexact Hbb2
      · ihave Hd0 := (chunkV_fold_b0 d L X TS (k0_off3_inb L k 0) (ch k 0) e0 _) $$ Hc0
        ihave Hd1 := (chunkV_fold_b1 d L X TS (k0_off3_inb L k 1) (ch k 1) e1 _) $$ Hc1
        ihave Hd0 := (Entails.of_eq (Ψc_lt d L (X := X) (TS := TS) (n := 3 * (k.val + 1)) (j := ch k 0) (by show 3 * k.val + 0 < _; omega)).symm) $$ Hd0
        ihave Hd1 := (Entails.of_eq (Ψc_lt d L (X := X) (TS := TS) (n := 3 * (k.val + 1)) (j := ch k 1) (by show 3 * k.val + 1 < _; omega)).symm) $$ Hd1
        ihave Hout := (Entails.of_eq (Ψc_step d L X TS k (Finset.univ.erase (fl k.val)))) $$ Hout
        ihave Hca := (Entails.of_eq (Ψc_lt d L (X := X) (TS := TS) (n := 3 * (k.val + 1)) (j := fl k.val) (by show (3 * k.val + 31) % 32 < _; have := k.isLt; have := trips1; omega)).symm) $$ Hca
        iapply (Entails.of_eq (swapG (Ψc d L X TS (3 * (k.val + 1))) (fl k.val) (ch k 2) (fl_ne_ch k 2)))
        isplitl [Hca]
        · iexact Hca
        iapply (Entails.of_eq (regroupG (Ψc d L X TS (3 * (k.val + 1))) (Finset.univ.erase (fl k.val)) (ch k 0) (ch k 1) (ch k 2)
          (Finset.mem_erase.mpr ⟨(fl_ne_ch k 0).symm, Finset.mem_univ _⟩) (Finset.mem_erase.mpr ⟨(fl_ne_ch k 1).symm, Finset.mem_univ _⟩)
          (ch_ne k (by decide : (0 : Fin 3) ≠ 1)) (ch_ne k (by decide : (0 : Fin 3) ≠ 2)) (ch_ne k (by decide : (1 : Fin 3) ≠ 2))))
        isplitl [Hd0]
        · iexact Hd0
        isplitl [Hd1]
        · iexact Hd1
        · iexact Hout
    isplitl [Ho0]
    · iexact Ho0
    isplitl [Ho1]
    · iexact Ho1
    isplitl [HS]
    · iexact HS
    iexists _
    isplitr
    rotate_left
    · iexact HO
    · ipureintro
      exact waits_ok (waits_ok (waits_ok (waits_ok (waits_ok (waits_ok hW' _) _) _) _) _) _

end Cert.Proof.KI

end
-- ==== Proof.KICore.lean ====
import proofs.«206558_g86277303042394_cont_sun_m_1099_24_alg».proof.Proof.KIGroup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

variable (d : Dev nD) (L : grid0.Coords)

/-! ## The whole tile: scale table in, two copies requested, ten groups, the last two chunks, the drain -/

theorem off2_960 : ∀ L : grid0.Coords, k0_off2 L 960#32 = offC L 30 := by decide +kernel
theorem off2_992 : ∀ L : grid0.Coords, k0_off2 L 992#32 = offC L 31 := by decide +kernel

theorem trips1_eq : Scf.trips k0_t1_loop.lb k0_t1_loop.ub k0_t1_loop.st = 10 := by decide

/-- All chunks back: the one whose copy out the last group left in flight and the last two. -/
theorem regroup_all (a j0 j1 : Fin 32) (ha0 : a ≠ j0) (ha1 : a ≠ j1) (h01 : j0 ≠ j1) :
    (iprop(Φc d L a ∗ Φc d L j0 ∗ Φc d L j1 ∗ bigSep (((Finset.univ.erase a).erase j0).erase j1) (Φc d L)) : sProp (𝕄 (F := F)))
      = bigSep Finset.univ (Φc d L) := by
  rw [← SparseCore.bigSep_erase' (Finset.mem_erase.mpr ⟨h01.symm, Finset.mem_erase.mpr ⟨ha1.symm, Finset.mem_univ _⟩⟩),
    ← SparseCore.bigSep_erase' (Finset.mem_erase.mpr ⟨ha0.symm, Finset.mem_univ _⟩),
    ← SparseCore.bigSep_erase' (Finset.mem_univ a)]

theorem tile_core (q : PosShare TreeShare) (X : Buf (Elt F) ((xV).view.loc (thr d L))) (SCt : Buf (Elt F) ((sV).view.loc (thr d L)))
    (O : CellTallies nD τ sig (HIx 1)) (W : Waits sig (HIx 1)) (hO : ∀ g, O g none = 0)
    (f0 : Buf (Elt F) ((b0).view.loc (thr d L))) (f1 : Buf (Elt F) ((b1).view.loc (thr d L))) (f2 : Buf (Elt F) ((b2).view.loc (thr d L)))
    (fS : Buf (Elt F) ((bS).view.loc (thr d L))) :
    iprop(levAts (K (F := F)).L (K (F := F)).lev
        ∗ ((xV).view.loc (thr d L) ↦{shareTok q 3 0} X) ∗ ((xV).view.loc (thr d L) ↦{shareTok q 3 1} X) ∗ ((xV).view.loc (thr d L) ↦{shareTok q 3 2} X)
        ∗ ((sV).view.loc (thr d L) ↦{q} SCt)
        ∗ ((b0).view.loc (thr d L) ↦{fullShare} f0) ∗ ((b1).view.loc (thr d L) ↦{fullShare} f1) ∗ ((b2).view.loc (thr d L) ↦{fullShare} f2)
        ∗ ((bS).view.loc (thr d L) ↦{fullShare} fS)
        ∗ bigSep Finset.univ (Φc (F := F) d L)
        ∗ semVal (cell d L cc0_scratch4) 0 ∗ semVal (cell d L cc0_scratch5) 0 ∗ semVal (cell d L cc0_scratch6) 0
        ∗ semVal (cell d L cc0_scratch7) 0 ∗ semVal (cell d L cc0_scratch8) 0 ∗ semVal (cell d L cc0_scratch9) 0
        ∗ semVal (cell d L cc0_scoped0) 0
        ∗ owes (thr d L) O W)
      ⊢ wp frame (wpE (defs₀ (F := F)) 𝒱₀ (thr d L) none) Set.univ
          (cc0__sc_dropout L xV (Memref.isWhole_whole _) sV (Memref.isWhole_whole _) oV (Memref.isWhole_whole _)
              b0 (Memref.isWhole_whole _) b1 (Memref.isWhole_whole _) b2 (Memref.isWhole_whole _) bS (Memref.isWhole_whole _)
              cc0_scratch4 cc0_scratch5 cc0_scratch6 cc0_scratch7 cc0_scratch8 cc0_scratch9 cc0_scoped0)
          fun _ => iprop(((xV).view.loc (thr d L) ↦{shareTok q 3 0} X) ∗ ((xV).view.loc (thr d L) ↦{shareTok q 3 1} X) ∗ ((xV).view.loc (thr d L) ↦{shareTok q 3 2} X)
            ∗ ((sV).view.loc (thr d L) ↦{q} SCt)
            ∗ (∃ f, (b0).view.loc (thr d L) ↦{fullShare} f) ∗ (∃ f, (b1).view.loc (thr d L) ↦{fullShare} f) ∗ (∃ f, (b2).view.loc (thr d L) ↦{fullShare} f)
            ∗ (∃ f, (bS).view.loc (thr d L) ↦{fullShare} f)
            ∗ bigSep Finset.univ (Φc (F := F) d L)
            ∗ semVal (cell d L cc0_scratch4) 0 ∗ semVal (cell d L cc0_scratch5) 0 ∗ semVal (cell d L cc0_scratch6) 0
            ∗ semVal (cell d L cc0_scratch7) 0 ∗ semVal (cell d L cc0_scratch8) 0 ∗ semVal (cell d L cc0_scratch9) 0
            ∗ semVal (cell d L cc0_scoped0) 0
            ∗ ∃ W', ⌜∀ p ∈ W', p ∈ W ∨ p.2 = none⌝ ∗ owes (thr d L) O W') := by
  have k0_h7 : ¬ k0_cond7 = 1#1 := by decide
  have k0_h8 : ¬ k0_cond8 = 1#1 := by decide
  have e30 : k0_off2 L 960#32 = offC L 30 := off2_960 L
  have e31 : k0_off2 L 992#32 = offC L 31 := off2_992 L
  rw [cc0__sc_dropout_eq_skeleton]; delta cc0__sc_dropout_skel
  rw [k0_part128_eq_skeleton]; delta k0_part128_skel
  iintro ⟨#Hlv, Hx0, Hx1, Hx2, Hs, H0, H1, H2, HS, Hout, Hi0, Hi1, Hi2, Ho0, Ho1, Ho2, Hsc, HO⟩
  ihave Hmw := ((K (F := F)).mayWaits_none (thr := thr d L) hO) $$ Hlv
  sl_exec (disch := first | exact View.amount_pos _ _ (show 0 < S128x128.numel by decide) | exact View.amount_pos _ _ (show 0 < S32x1024.numel by decide))
  sl_rw [bind_assoc]
  sl_for (inv1 d L q X O W) $$ [Hmw Hi0 Hx0 Hi1 Hx1 Hx2 Hi2 H2 Ho2 Hout Ho0 Ho1 HS HO]
  case region =>
    intro k acc
    sl_respell []
    exact group_trip d L q X O W _ k acc
  · unfold inv1
    rw [Slot2_zero d L rfl]
    isplitl [Hmw]
    · iexact Hmw
    isplitl [Hi0 Hx0]
    · iapply (inFlight_fold d L cc0_scratch4 b0 _ X _ _)
      isplitl [Hi0]
      · iexact Hi0
      · iexact Hx0
    isplitl [Hi1 Hx1]
    · iapply (inFlight_fold d L cc0_scratch5 b1 _ X _ _)
      isplitl [Hi1]
      · iexact Hi1
      · iexact Hx1
    isplitl [Hx2]
    · iexact Hx2
    isplitl [Hi2]
    · iexact Hi2
    isplitl [H2 Ho2 Hout]
    · isplitl [H2]
      · iexists _; iexact H2
      isplitl [Ho2]
      · iexact Ho2
      · iexact Hout
    isplitl [Ho0]
    · iexact Ho0
    isplitl [Ho1]
    · iexact Ho1
    isplitl [HS]
    · iexists _; iexact HS
    iexists _
    isplitr
    rotate_left
    · iexact HO
    · ipureintro
      exact waits_ok (fun p hp => Or.inl hp) _
  iintro %_ HI
  unfold inv1
  rw [trips1_eq, Slot2_pos d L (by decide : ¬ (10 : ℕ) = 0), (by decide : fl 10 = 29)]
  icases HI with ⟨-, Hin0, Hin1, Hx2, Hi2, ⟨Hof2, Hout⟩, Ho0, Ho1, ⟨%fS', HS⟩, %W', %hW', HO⟩
  ihave Hin0' := (inFlight_open d L cc0_scratch4 b0 _ X) $$ Hin0
  icases Hin0' with ⟨%I0, %g0, Hi0, Hx0⟩
  ihave Hin1' := (inFlight_open d L cc0_scratch5 b1 _ X) $$ Hin1
  icases Hin1' with ⟨%I1, %g1, Hi1, Hx1⟩
  ihave Hof2' := (outFlight_open d L cc0_scratch9 b2 29) $$ Hof2
  icases Hof2' with ⟨%fo9, %g2, Ho2, H2⟩
  -- the last two chunks
  ihave Hout' := (Entails.of_eq (SparseCore.bigSep_erase' (s := (Finset.univ : Finset (Fin 32)).erase 29) (i := 30) (Φ := Φc (F := F) d L)
    (Finset.mem_erase.mpr ⟨by decide, Finset.mem_univ _⟩))) $$ Hout
  icases Hout' with ⟨Hc30, Hout⟩
  ihave Hout' := (Entails.of_eq (SparseCore.bigSep_erase' (s := ((Finset.univ : Finset (Fin 32)).erase 29).erase 30) (i := 31) (Φ := Φc (F := F) d L)
    (Finset.mem_erase.mpr ⟨by decide, Finset.mem_erase.mpr ⟨by decide, Finset.mem_univ _⟩⟩))) $$ Hout
  icases Hout' with ⟨Hc31, Hout⟩
  ihave Hc30' := (chunk_unfold d L (k0_off2_inb L 2) 30 e30) $$ Hc30
  icases Hc30' with ⟨%fo30, Hc30⟩
  ihave Hc31' := (chunk_unfold d L (k0_off2_inb L 3) 31 e31) $$ Hc31
  icases Hc31' with ⟨%fo31, Hc31⟩
  sl_exec (disch := first | exact View.amount_pos _ _ (show 0 < S128x128.numel by decide) | exact View.amount_pos _ _ (show 0 < S32x1024.numel by decide))
  sl_rw [bind_assoc]
  sl_for (invB d L b0 fS') $$ [Hi0_dst HS]
  case region =>
    intro k' acc'
    sl_respell []
    exact loopStep5 d L fS' k' acc'
  · unfold invB
    isplitl [Hi0_dst]
    · iexists _; iexact Hi0_dst
    · iexact HS
  iintro %_ HI
  unfold invB
  icases HI with ⟨⟨%Gb0, Hbb0⟩, HS⟩
  sl_exec (disch := first | exact View.amount_pos _ _ (show 0 < S128x128.numel by decide) | exact View.amount_pos _ _ (show 0 < S32x1024.numel by decide))

  sl_for (invB d L b1 fS') $$ [Hi1_dst HS]
  case region =>
    intro k' acc'
    sl_respell []
    exact loopStep6 d L fS' k' acc'
  · unfold invB
    isplitl [Hi1_dst]
    · iexists _; iexact Hi1_dst
    · iexact HS
  iintro %_ HI
  unfold invB
  icases HI with ⟨⟨%Gb1, Hbb1⟩, HS⟩
  sl_exec (disch := first | exact View.amount_pos _ _ (show 0 < S128x128.numel by decide) | exact View.amount_pos _ _ (show 0 < S32x1024.numel by decide))
  sl_step
  isplitl [Hx0]
  · iexact Hx0
  isplitl [Hx1]
  · iexact Hx1
  isplitl [Hx2]
  · iexact Hx2
  isplitl [Hs]
  · iexact Hs
  isplitl [Hbb0]
  · iexists _; iexact Hbb0
  isplitl [Hbb1]
  · iexists _; iexact Hbb1
  isplitl [H2]
  · iexists _; iexact H2
  isplitl [HS]
  · iexists _; iexact HS
  isplitl [Ho2_dst Hc30 Hc31 Hout]
  · ihave Hd29 := (show ((oChunk L 29).view.loc (thr d L) ↦[(oChunk L 29).view.set]{fullShare} fo9 : sProp (𝕄 (F := F))) ⊢ Φc d L 29 from by
      unfold Φc; iintro H; iexists _; iexact H) $$ Ho2_dst
    ihave Hd30 := (chunk_fold d L (k0_off2_inb L 2) 30 e30 _) $$ Hc30
    ihave Hd31 := (chunk_fold d L (k0_off2_inb L 3) 31 e31 _) $$ Hc31
    iapply (Entails.of_eq (regroup_all d L 29 30 31 (by decide) (by decide) (by decide)))
    isplitl [Hd29]
    · iexact Hd29
    isplitl [Hd30]
    · iexact Hd30
    isplitl [Hd31]
    · iexact Hd31
    · iexact Hout
  isplitl [Hi0]
  · iexact Hi0
  isplitl [Hi1]
  · iexact Hi1
  isplitl [Hi2]
  · iexact Hi2
  isplitl [Ho0]
  · iexact Ho0
  isplitl [Ho1]
  · iexact Ho1
  isplitl [Ho2]
  · iexact Ho2
  isplitl [Hsc]
  · iexact Hsc
  iexists _
  isplitr
  rotate_left
  · iexact HO
  · ipureintro
    exact waits_ok (waits_ok (waits_ok (waits_ok (waits_ok hW' _) _) _) _) _

end Cert.Proof.KI

end
-- ==== Proof.KIVCore.lean ====
import proofs.«206558_g86277303042394_cont_sun_m_1099_24_alg».proof.Proof.KIVGroup
import proofs.«206558_g86277303042394_cont_sun_m_1099_24_alg».proof.Proof.KICore

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

variable (d : Dev nD) (L : grid0.Coords)

/-! ## The whole tile, with its values -/

/-- The tile's 128 rows of the scale table, spelt as the kernel slices them, and what the table slot holds once they landed. -/
abbrev sSlice : Memref sig .scVector .hbm S128x128 .f32 :=
  (sV).slice (Rect.unit (s := S4096x128) (k0_off1 L) S128x128.size (k0_off1_inb L)) (fun _ => rfl)

def TSf (SCt : Buf (Elt F) ((sV).view.loc (thr d L))) : TabT F := View.read (Elt F) (sSlice L).view SCt

theorem landedS (SCt : Buf (Elt F) ((sV).view.loc (thr d L))) (fS : Buf (Elt F) ((bS).view.loc (thr d L))) :
    View.write (Elt F) (bS).view fS (ReadAs.same.apply (View.read (Elt F) (sSlice L).view SCt)) Finset.univ = TSf d L SCt := by
  show View.write (Elt F) (View.whole (cc0_scratch3 : Ref sig .scVector)) fS (TSf d L SCt) Finset.univ = TSf d L SCt
  exact View.write_whole_univ (Val := Elt F) (cc0_scratch3 : Ref sig .scVector) fS (TSf d L SCt)

theorem off2_0 : ∀ L : grid0.Coords, k0_off2 L 0#32 = offC L 0 := by decide +kernel
theorem off2_32 : ∀ L : grid0.Coords, k0_off2 L 32#32 = offC L 1 := by decide +kernel

theorem regroupAllG (Φ : Fin 32 → sProp (𝕄 (F := F))) (a j0 j1 : Fin 32) (ha0 : a ≠ j0) (ha1 : a ≠ j1) (h01 : j0 ≠ j1) :
    (iprop(Φ a ∗ Φ j0 ∗ Φ j1 ∗ bigSep (((Finset.univ.erase a).erase j0).erase j1) Φ) : sProp (𝕄 (F := F))) = bigSep Finset.univ Φ := by
  rw [← SparseCore.bigSep_erase' (Finset.mem_erase.mpr ⟨h01.symm, Finset.mem_erase.mpr ⟨ha1.symm, Finset.mem_univ _⟩⟩),
    ← SparseCore.bigSep_erase' (Finset.mem_erase.mpr ⟨ha0.symm, Finset.mem_univ _⟩),
    ← SparseCore.bigSep_erase' (Finset.mem_univ a)]

set_option maxHeartbeats 1600000 in
theorem tile_coreV (hI : IterClosed (F := F) d L) (q : PosShare TreeShare) (X : Buf (Elt F) ((xV).view.loc (thr d L))) (SCt : Buf (Elt F) ((sV).view.loc (thr d L)))
    (O : CellTallies nD τ sig (HIx 1)) (W : Waits sig (HIx 1)) (hO : ∀ g, O g none = 0)
    (f0 : Buf (Elt F) ((b0).view.loc (thr d L))) (f1 : Buf (Elt F) ((b1).view.loc (thr d L))) (f2 : Buf (Elt F) ((b2).view.loc (thr d L)))
    (fS : Buf (Elt F) ((bS).view.loc (thr d L))) :
    iprop(levAts (K (F := F)).L (K (F := F)).lev
        ∗ ((xV).view.loc (thr d L) ↦{shareTok q 3 0} X) ∗ ((xV).view.loc (thr d L) ↦{shareTok q 3 1} X) ∗ ((xV).view.loc (thr d L) ↦{shareTok q 3 2} X)
        ∗ ((sV).view.loc (thr d L) ↦{q} SCt)
        ∗ ((b0).view.loc (thr d L) ↦{fullShare} f0) ∗ ((b1).view.loc (thr d L) ↦{fullShare} f1) ∗ ((b2).view.loc (thr d L) ↦{fullShare} f2)
        ∗ ((bS).view.loc (thr d L) ↦{fullShare} fS)
        ∗ bigSep Finset.univ (Φc (F := F) d L)
        ∗ semVal (cell d L cc0_scratch4) 0 ∗ semVal (cell d L cc0_scratch5) 0 ∗ semVal (cell d L cc0_scratch6) 0
        ∗ semVal (cell d L cc0_scratch7) 0 ∗ semVal (cell d L cc0_scratch8) 0 ∗ semVal (cell d L cc0_scratch9) 0
        ∗ semVal (cell d L cc0_scoped0) 0
        ∗ owes (thr d L) O W)
      ⊢ wp frame (wpE (defs₀ (F := F)) 𝒱₀ (thr d L) none) Set.univ
          (cc0__sc_dropout L xV (Memref.isWhole_whole _) sV (Memref.isWhole_whole _) oV (Memref.isWhole_whole _)
              b0 (Memref.isWhole_whole _) b1 (Memref.isWhole_whole _) b2 (Memref.isWhole_whole _) bS (Memref.isWhole_whole _)
              cc0_scratch4 cc0_scratch5 cc0_scratch6 cc0_scratch7 cc0_scratch8 cc0_scratch9 cc0_scoped0)
          fun _ => iprop(((xV).view.loc (thr d L) ↦{shareTok q 3 0} X) ∗ ((xV).view.loc (thr d L) ↦{shareTok q 3 1} X) ∗ ((xV).view.loc (thr d L) ↦{shareTok q 3 2} X)
            ∗ ((sV).view.loc (thr d L) ↦{q} SCt)
            ∗ (∃ f, (b0).view.loc (thr d L) ↦{fullShare} f) ∗ (∃ f, (b1).view.loc (thr d L) ↦{fullShare} f) ∗ (∃ f, (b2).view.loc (thr d L) ↦{fullShare} f)
            ∗ (∃ f, (bS).view.loc (thr d L) ↦{fullShare} f)
            ∗ bigSep Finset.univ (ΦcV (F := F) d L X (TSf d L SCt))
            ∗ semVal (cell d L cc0_scratch4) 0 ∗ semVal (cell d L cc0_scratch5) 0 ∗ semVal (cell d L cc0_scratch6) 0
            ∗ semVal (cell d L cc0_scratch7) 0 ∗ semVal (cell d L cc0_scratch8) 0 ∗ semVal (cell d L cc0_scratch9) 0
            ∗ semVal (cell d L cc0_scoped0) 0
            ∗ ∃ W', ⌜∀ p ∈ W', p ∈ W ∨ p.2 = none⌝ ∗ owes (thr d L) O W') := by
  have k0_h7 : ¬ k0_cond7 = 1#1 := by decide
  have k0_h8 : ¬ k0_cond8 = 1#1 := by decide
  have e30 : k0_off2 L 960#32 = offC L 30 := off2_960 L
  have e31 : k0_off2 L 992#32 = offC L 31 := off2_992 L
  rw [cc0__sc_dropout_eq_skeleton]; delta cc0__sc_dropout_skel
  rw [k0_part128_eq_skeleton]; delta k0_part128_skel
  iintro ⟨#Hlv, Hx0, Hx1, Hx2, Hs, H0, H1, H2, HS, Hout, Hi0, Hi1, Hi2, Ho0, Ho1, Ho2, Hsc, HO⟩
  ihave Hmw := ((K (F := F)).mayWaits_none (thr := thr d L) hO) $$ Hlv
  sl_exec (disch := first | exact View.amount_pos _ _ (show 0 < S128x128.numel by decide) | exact View.amount_pos _ _ (show 0 < S32x1024.numel by decide))
  sl_unfold_run_names
  ihave HS := (Entails.of_eq (congrArg (fun f => (((bS).view.loc (thr d L) ↦{fullShare} f) : sProp (𝕄 (F := F)))) (landedS d L SCt fS))) $$ HS
  sl_rw [bind_assoc]
  sl_for (inv1V d L q X (TSf d L SCt) O W) $$ [Hmw Hi0 Hx0 Hi1 Hx1 Hx2 Hi2 H2 Ho2 Hout Ho0 Ho1 HS HO]
  case region =>
    intro k acc
    sl_respell []
    exact group_tripV d L hI q X (TSf d L SCt) O W _ k acc
  · unfold inv1V
    rw [Slot2V_zero d L rfl, (by decide : cn (3 * 0) = (0 : Fin 32)), (by decide : cn (3 * 0 + 1) = (1 : Fin 32))]
    isplitl [Hmw]
    · iexact Hmw
    isplitl [Hi0 Hx0]
    · iapply (inFlightV_fold_b0 d L cc0_scratch4 _ X (k0_off2_inb L 0) 0 (off2_0 L) _ _)
      isplitl [Hi0]
      · iexact Hi0
      · iexact Hx0
    isplitl [Hi1 Hx1]
    · iapply (inFlightV_fold_b1 d L cc0_scratch5 _ X (k0_off2_inb L 1) 1 (off2_32 L) _ _)
      isplitl [Hi1]
      · iexact Hi1
      · iexact Hx1
    isplitl [Hx2]
    · iexact Hx2
    isplitl [Hi2]
    · iexact Hi2
    isplitl [H2 Ho2 Hout]
    · isplitl [H2]
      · iexists _; iexact H2
      isplitl [Ho2]
      · iexact Ho2
      · iapply (Entails.of_eq (bigSep_congr (s := Finset.univ) (fun j _ => (Ψc_ge d L (X := X) (TS := TSf d L SCt) (n := 3 * 0) (j := j) (Nat.not_lt_zero _)))))
        iexact Hout
    isplitl [Ho0]
    · iexact Ho0
    isplitl [Ho1]
    · iexact Ho1
    isplitl [HS]
    · iexact HS
    iexists _
    isplitr
    rotate_left
    · iexact HO
    · ipureintro
      exact waits_ok (fun p hp => Or.inl hp) _
  iintro %_ HI
  unfold inv1V
  rw [trips1_eq, Slot2V_pos d L (by decide : ¬ (10 : ℕ) = 0), (by decide : fl 10 = 29), (by decide : cn (3 * 10) = (30 : Fin 32)), (by decide : cn (3 * 10 + 1) = (31 : Fin 32))]
  icases HI with ⟨-, Hin0, Hin1, Hx2, Hi2, ⟨Hof2, Hout⟩, Ho0, Ho1, HS, %W', %hW', HO⟩
  ihave Hin0' := (inFlightV_open d L cc0_scratch4 b0 _ X _ _) $$ Hin0
  icases Hin0' with ⟨%I0, Hi0, Hx0⟩
  ihave Hin1' := (inFlightV_open d L cc0_scratch5 b1 _ X _ _) $$ Hin1
  icases Hin1' with ⟨%I1, Hi1, Hx1⟩
  ihave Hof2' := (outFlightV_open d L cc0_scratch9 b2 X (TSf d L SCt) 29 _) $$ Hof2
  icases Hof2' with ⟨%fo9, Ho2, H2⟩
  ihave Hout' := (Entails.of_eq (SparseCore.bigSep_erase' (s := (Finset.univ : Finset (Fin 32)).erase 29) (i := 30) (Φ := Ψc (F := F) d L X (TSf d L SCt) (3 * 10))
    (Finset.mem_erase.mpr ⟨by decide, Finset.mem_univ _⟩))) $$ Hout
  icases Hout' with ⟨Hc30, Hout⟩
  ihave Hout' := (Entails.of_eq (SparseCore.bigSep_erase' (s := ((Finset.univ : Finset (Fin 32)).erase 29).erase 30) (i := 31) (Φ := Ψc (F := F) d L X (TSf d L SCt) (3 * 10))
    (Finset.mem_erase.mpr ⟨by decide, Finset.mem_erase.mpr ⟨by decide, Finset.mem_univ _⟩⟩))) $$ Hout
  icases Hout' with ⟨Hc31, Hout⟩
  ihave Hc30 := (Entails.of_eq (Ψc_ge d L (X := X) (TS := TSf d L SCt) (n := 3 * 10) (j := 30) (by decide))) $$ Hc30
  ihave Hc31 := (Entails.of_eq (Ψc_ge d L (X := X) (TS := TSf d L SCt) (n := 3 * 10) (j := 31) (by decide))) $$ Hc31
  ihave Hc30' := (chunk_unfold d L (k0_off2_inb L 2) 30 e30) $$ Hc30
  icases Hc30' with ⟨%fo30, Hc30⟩
  ihave Hc31' := (chunk_unfold d L (k0_off2_inb L 3) 31 e31) $$ Hc31
  icases Hc31' with ⟨%fo31, Hc31⟩
  sl_exec (disch := first | exact View.amount_pos _ _ (show 0 < S128x128.numel by decide) | exact View.amount_pos _ _ (show 0 < S32x1024.numel by decide))
  sl_rw [bind_assoc]

  sl_for (invBV5 d L (TSf d L SCt) (XC d L X 30)) $$ [Hi0_dst HS]
  case region =>
    intro k' acc'
    sl_respell []
    exact loopStepV5 d L (TSf d L SCt) (XC d L X 30) k' acc'
  · unfold invBV5
    isplitl [Hi0_dst]
    · iexact Hi0_dst
    · iexact HS
  iintro %_ HI
  unfold invBV5
  rw [trips5_eq, hI.h5 (TSf d L SCt) (XC d L X 30)]
  icases HI with ⟨Hbb0, HS⟩
  sl_exec (disch := first | exact View.amount_pos _ _ (show 0 < S128x128.numel by decide) | exact View.amount_pos _ _ (show 0 < S32x1024.numel by decide))

  sl_for (invBV6 d L (TSf d L SCt) (XC d L X 31)) $$ [Hi1_dst HS]
  case region =>
    intro k' acc'
    sl_respell []
    exact loopStepV6 d L (TSf d L SCt) (XC d L X 31) k' acc'
  · unfold invBV6
    isplitl [Hi1_dst]
    · iexact Hi1_dst
    · iexact HS
  iintro %_ HI
  unfold invBV6
  rw [trips6_eq, hI.h6 (TSf d L SCt) (XC d L X 31)]
  icases HI with ⟨Hbb1, HS⟩
  sl_exec (disch := first | exact View.amount_pos _ _ (show 0 < S128x128.numel by decide) | exact View.amount_pos _ _ (show 0 < S32x1024.numel by decide))
  sl_step
  sl_unfold_run_names
  isplitl [Hx0]
  · iexact Hx0
  isplitl [Hx1]
  · iexact Hx1
  isplitl [Hx2]
  · iexact Hx2
  isplitl [Hs]
  · iexact Hs
  isplitl [Hbb0]
  · iexists _; iexact Hbb0
  isplitl [Hbb1]
  · iexists _; iexact Hbb1
  isplitl [H2]
  · iexists _; iexact H2
  isplitl [HS]
  · iexists _; iexact HS
  isplitl [Ho2_dst Hc30 Hc31 Hout]
  · ihave Hd29 := (show ((oChunk L 29).view.loc (thr d L) ↦[(oChunk L 29).view.set]{fullShare} chunkVal d L X (TSf d L SCt) 29 fo9 : sProp (𝕄 (F := F))) ⊢ ΦcV d L X (TSf d L SCt) 29 from by
      unfold ΦcV; iintro H; iexists fo9; iexact H) $$ Ho2_dst
    ihave Hd30 := (chunkV_fold_b0 d L X (TSf d L SCt) (k0_off2_inb L 2) 30 e30 _) $$ Hc30
    ihave Hd31 := (chunkV_fold_b1 d L X (TSf d L SCt) (k0_off2_inb L 3) 31 e31 _) $$ Hc31
    ihave Hout := (Entails.of_eq (bigSep_congr (s := ((Finset.univ.erase (29 : Fin 32)).erase 30).erase 31) (fun j hj => (Ψc_lt d L (X := X) (TS := TSf d L SCt) (n := 3 * 10) (j := j) (by
      simp only [Finset.mem_erase] at hj
      have h29 : j.val ≠ 29 := fun e => hj.2.2.1 (Fin.ext e)
      have h30 : j.val ≠ 30 := fun e => hj.2.1 (Fin.ext e)
      have h31 : j.val ≠ 31 := fun e => hj.1 (Fin.ext e)
      have := j.isLt
      omega))))) $$ Hout
    iapply (Entails.of_eq (regroupAllG (ΦcV d L X (TSf d L SCt)) 29 30 31 (by decide) (by decide) (by decide)))
    isplitl [Hd29]
    · iexact Hd29
    isplitl [Hd30]
    · iexact Hd30
    isplitl [Hd31]
    · iexact Hd31
    · iexact Hout
  isplitl [Hi0]
  · iexact Hi0
  isplitl [Hi1]
  · iexact Hi1
  isplitl [Hi2]
  · iexact Hi2
  isplitl [Ho0]
  · iexact Ho0
  isplitl [Ho1]
  · iexact Ho1
  isplitl [Ho2]
  · iexact Ho2
  isplitl [Hsc]
  · iexact Hsc
  iexists _
  isplitr
  rotate_left
  · iexact HO
  · ipureintro
    exact waits_ok (waits_ok (waits_ok (waits_ok (waits_ok hW' _) _) _) _) _

end Cert.Proof.KI

end
-- ==== Proof.KIVal0.lean ====
/-
  The scaling loops' values, the general part. Every store of a scaling trip writes one row's sixteen lanes, from a
  lane-group boundary, with ONE payload: the lanes loaded there times the row's sixteen scale lanes, read from the
  scale table at the row's place. A list of such stores, at recorded places, leaves the slot scaled at those places and
  untouched elsewhere; a trip's places are rows 2k and 2k + 1, 64 lane groups each; sixteen trips scale the slot.
-/
import proofs.«206558_g86277303042394_cont_sun_m_1099_24_alg».proof.Proof.KIVDefs
import Idealize.ShloMosaic.Lib.Writes
import Idealize.ShloMosaic.Lib.ValueIdx

noncomputable section

namespace Cert.Proof.KI

open Cert.KernelIdeal Cert.KernelIdeal.Gen
open Idealize.ShloMosaic
open Idealize.ShloMosaic.Tactic

variable {F : FTy → Type} [FloatOps F]

/-- The one payload all the stores of a scaling trip compute: the loaded lanes times the row's scale lanes. -/
def payG (r : FVec F S16 .f32) (v : Vec F S1x16 .f32) : FVec F S1x16 .f32 :=
  shapeCast S1x16 (mulf (shapeCast S16 v shapeCasts_S1x16_S16) r) shapeCasts_S16_S1x16

theorem payG_apply (vS v : Vec F S1x16 .f32) (x : S1x16.Idx) :
    payG (shapeCast S16 vS shapeCasts_S1x16_S16) v x = FloatOps.mulf (v x) (vS x) := by
  show FloatOps.mulf (v (Shape.reshapeEquiv _ (Shape.reshapeEquiv _ x))) (vS (Shape.reshapeEquiv _ (Shape.reshapeEquiv _ x))) = _
  rw [Shape.reshapeEquiv_reshapeEquiv, Shape.reshapeEquiv_self]

section Piece

variable {κ : Kind} {sp spS : Space} (v : View sig κ sp S32x1024 .f32) (vS : View sig κ spS S128x128 .f32)
  (G : v.ty.Contents (Elt F)) (fS : vS.ty.Contents (Elt F)) (c : Fin 32)

/-- The function every piece of a scaling trip agrees with: the slot as read, scaled. -/
def GF : S32x1024.Idx → Elt F .f32 := Scaled c (v.read (Elt F) G) (vS.read (Elt F) fS)

/-- A standard piece: one row's sixteen lanes from a lane-group boundary, holding the scaled slot there. -/
def Std (p : View.Piece (Elt F) S32x1024 .f32) : Prop :=
  p.1.size = S1x16.size ∧ (∀ a, p.1.stride a = 1) ∧ p.1.off 1 % 16 = 0 ∧ ∀ x, p.2 x = GF v vS G fS c (p.1.emb x)

theorem std_piece (off : Fin 2 → ℕ) (inb) (offS : Fin 2 → ℕ) (inbS) (hcol : off 1 % 16 = 0)
    (hS0 : offS 0 = (32 * c.val + off 0) / 8) (hS1 : offS 1 = 16 * ((32 * c.val + off 0) % 8)) :
    Std v vS G fS c ⟨Rect.unit (s := S32x1024) off S1x16.size inb,
      payG (shapeCast S16 (vS.readAt (Elt F) (Rect.unit (s := S128x128) offS S1x16.size inbS).toLoadRect fS) shapeCasts_S1x16_S16)
        (v.readAt (Elt F) (Rect.unit (s := S32x1024) off S1x16.size inb).toLoadRect G)⟩ := by
  refine ⟨rfl, fun _ => rfl, hcol, fun x => ?_⟩
  show payG (shapeCast S16 (vS.readAt (Elt F) (Rect.unit (s := S128x128) offS S1x16.size inbS).toLoadRect fS) shapeCasts_S1x16_S16)
        (v.readAt (Elt F) (Rect.unit (s := S32x1024) off S1x16.size inb).toLoadRect G) x = _
  rw [payG_apply]
  show FloatOps.mulf (v.read (Elt F) G ((Rect.unit (s := S32x1024) off S1x16.size inb).emb x))
      (vS.read (Elt F) fS ((Rect.unit (s := S128x128) offS S1x16.size inbS).toLoadRect.idx x))
    = FloatOps.mulf (v.read (Elt F) G ((Rect.unit (s := S32x1024) off S1x16.size inb).emb x))
      (vS.read (Elt F) fS (tIdx c ((Rect.unit (s := S32x1024) off S1x16.size inb).emb x)))
  congr 2
  have hx0 : (x 0).val < 1 := (x 0).isLt
  have hx1 : (x 1).val < 16 := (x 1).isLt
  funext a
  apply Fin.ext
  match a with
  | 0 =>
    show offS 0 + 1 * (x 0).val = (32 * c.val + (off 0 + 1 * (x 0).val)) / 8
    omega
  | 1 =>
    show offS 1 + 1 * (x 1).val = 16 * ((32 * c.val + (off 0 + 1 * (x 0).val)) % 8) + (off 1 + 1 * (x 1).val) % 16
    omega

theorem std_piece' (off : Fin 2 → ℕ) [co : ClosedOff off] (inb) (offS : Fin 2 → ℕ) [coS : ClosedOff offS] (inbS) (hcol : co.form 1 % 16 = 0)
    (hS0 : coS.form 0 = (32 * c.val + co.form 0) / 8) (hS1 : coS.form 1 = 16 * ((32 * c.val + co.form 0) % 8)) :
    Std v vS G fS c ⟨Rect.unit (s := S32x1024) off S1x16.size inb,
      payG (shapeCast S16 (vS.readAt (Elt F) (Rect.unit (s := S128x128) offS S1x16.size inbS).toLoadRect fS) shapeCasts_S1x16_S16)
        (v.readAt (Elt F) (Rect.unit (s := S32x1024) off S1x16.size inb).toLoadRect G)⟩ :=
  std_piece v vS G fS c off inb offS inbS (by rw [co.eq]; exact hcol) (by rw [co.eq, coS.eq]; exact hS0) (by rw [co.eq, coS.eq]; exact hS1)

end Piece

/-! ## A list of standard pieces at recorded places -/

section Generic

variable {κ : Kind} {sp spS : Space} (v : View sig κ sp S32x1024 .f32) (vS : View sig κ spS S128x128 .f32)
  (G : v.ty.Contents (Elt F)) (fS : vS.ty.Contents (Elt F)) (c : Fin 32)

/-- A standard piece at row `rc.1`, lanes from `rc.2`. -/
def StdAt (rc : ℕ × ℕ) (p : View.Piece (Elt F) S32x1024 .f32) : Prop :=
  Std v vS G fS c p ∧ p.1.off 0 = rc.1 ∧ p.1.off 1 = rc.2

theorem stdAt_piece (off : Fin 2 → ℕ) [co : ClosedOff off] (inb) (offS : Fin 2 → ℕ) [coS : ClosedOff offS] (inbS) (hcol : co.form 1 % 16 = 0)
    (hS0 : coS.form 0 = (32 * c.val + co.form 0) / 8) (hS1 : coS.form 1 = 16 * ((32 * c.val + co.form 0) % 8)) :
    StdAt v vS G fS c (co.form 0, co.form 1) ⟨Rect.unit (s := S32x1024) off S1x16.size inb,
      payG (shapeCast S16 (vS.readAt (Elt F) (Rect.unit (s := S128x128) offS S1x16.size inbS).toLoadRect fS) shapeCasts_S1x16_S16)
        (v.readAt (Elt F) (Rect.unit (s := S32x1024) off S1x16.size inb).toLoadRect G)⟩ :=
  ⟨std_piece' v vS G fS c off inb offS inbS hcol hS0 hS1, congrFun co.eq 0, congrFun co.eq 1⟩

/-- The place of an index: its row and the start of its lane group. -/
def key (y : S32x1024.Idx) : ℕ × ℕ := ((y 0).val, 16 * ((y 1).val / 16))

theorem mem_set_iff {p : View.Piece (Elt F) S32x1024 .f32} {rc : ℕ × ℕ} (h : StdAt v vS G fS c rc p) (y : S32x1024.Idx) :
    y ∈ p.1.set ↔ key y = rc := by
  obtain ⟨⟨hsz, hst, hcol, -⟩, h0, h1⟩ := h
  have z0 : S1x16.size 0 = 1 := rfl
  have z1 : S1x16.size 1 = 16 := rfl
  have hy1 : (y 1).val < 1024 := (y 1).isLt
  rw [LoadRect.mem_set]
  constructor
  · intro hm
    obtain ⟨j0, hj0, e0⟩ := hm 0
    obtain ⟨j1, hj1, e1⟩ := hm 1
    rw [hsz, z0] at hj0
    rw [hsz, z1] at hj1
    rw [hst 0, h0] at e0
    rw [hst 1, h1] at e1
    rw [h1] at hcol
    refine Prod.ext ?_ ?_
    · show (y 0).val = rc.1; omega
    · show 16 * ((y 1).val / 16) = rc.2; omega
  · intro hk
    have k0 : (y 0).val = rc.1 := congrArg Prod.fst hk
    have k1 : 16 * ((y 1).val / 16) = rc.2 := congrArg Prod.snd hk
    intro a
    match a with
    | 0 => exact ⟨0, by rw [hsz, z0]; exact Nat.one_pos, by rw [hst 0, h0]; omega⟩
    | 1 => exact ⟨(y 1).val % 16, by rw [hsz, z1]; exact Nat.mod_lt _ (by decide), by rw [hst 1, h1]; omega⟩

/-- What a list of standard pieces at recorded places leaves: the scaled slot at the recorded places, the rest kept. -/
theorem read_writes_std {rcs : List (ℕ × ℕ)} {Lp : List (View.Piece (Elt F) S32x1024 .f32)}
    (h : List.Forall₂ (StdAt v vS G fS c) rcs Lp) (y : S32x1024.Idx) :
    v.read (Elt F) (v.writes (Elt F) G Lp) y = if key y ∈ rcs then GF v vS G fS c y else v.read (Elt F) G y := by
  induction h with
  | nil => rw [View.writes_nil, if_neg List.not_mem_nil]
  | @cons rc p rcs' Lp' hp _ ih =>
    by_cases hy : y ∈ p.1.set
    · have hk : key y = rc := (mem_set_iff v vS G fS c hp y).mp hy
      rw [if_pos (hk ▸ List.mem_cons_self)]
      obtain ⟨x, rfl⟩ : ∃ x, p.1.emb x = y := p.1.exists_idx_of_mem hy
      obtain ⟨r, w⟩ := p
      rw [View.read_writes_cons_emb]
      exact hp.1.2.2.2 x
    · have hk : key y ≠ rc := fun e => hy ((mem_set_iff v vS G fS c hp y).mpr e)
      have hy' : y ∉ Finset.univ.map p.1.emb := by rwa [Rect.map_emb_univ]
      rw [View.writes_cons, View.read_slice_write_of_not_mem p.1 _ _ _ hy', ih]
      by_cases hm : key y ∈ rcs'
      · rw [if_pos hm, if_pos (List.mem_cons_of_mem _ hm)]
      · rw [if_neg hm, if_neg (fun h' => (List.mem_cons.mp h').elim hk hm)]

/-- The places a trip writes, in the order it writes them (the last first): rows `2k` and `2k + 1`, 64 lane groups each. -/
def places (k : ℕ) : List (ℕ × ℕ) := (List.range 128).reverse.map fun t => (2 * k + t / 64, 16 * (t % 64))

theorem key_mem_places (k : ℕ) (y : S32x1024.Idx) : key y ∈ places k ↔ (y 0).val = 2 * k ∨ (y 0).val = 2 * k + 1 := by
  have hy1 : (y 1).val < 1024 := (y 1).isLt
  unfold places key
  rw [List.mem_map]
  constructor
  · rintro ⟨t, ht, e⟩
    have ht' : t < 128 := List.mem_range.mp (List.mem_reverse.mp ht)
    have e0 : 2 * k + t / 64 = (y 0).val := congrArg Prod.fst e
    omega
  · intro h
    refine ⟨64 * ((y 0).val - 2 * k) + (y 1).val / 16, List.mem_reverse.mpr (List.mem_range.mpr (by omega)), Prod.ext ?_ ?_⟩
    · show 2 * k + (64 * ((y 0).val - 2 * k) + (y 1).val / 16) / 64 = (y 0).val; omega
    · show 16 * ((64 * ((y 0).val - 2 * k) + (y 1).val / 16) % 64) = 16 * ((y 1).val / 16); omega

end Generic

/-- A loop of sixteen trips, each scaling rows `2n` and `2n + 1` of what the slot holds, scales the slot. -/
theorem iter_closed_of (c : Fin 32) (fS : TabT F) (it : ℕ → SlotT F → SlotT F) (h0 : ∀ G, it 0 G = G)
    (hs : ∀ n, n < 16 → ∀ G, it (n + 1) G = fun y => if (y 0).val = 2 * n ∨ (y 0).val = 2 * n + 1 then Scaled c (it n G) fS y else it n G y) :
    ∀ G, it 16 G = Scaled c G fS := by
  have key : ∀ n, n ≤ 16 → ∀ G, it n G = fun y => if (y 0).val < 2 * n then Scaled c G fS y else G y := by
    intro n
    induction n with
    | zero => intro _ G; rw [h0]; funext y; rw [if_neg (by omega)]
    | succ n ih =>
      intro hn G
      rw [hs n (by omega) G, ih (by omega) G]
      funext y
      by_cases h1 : (y 0).val = 2 * n ∨ (y 0).val = 2 * n + 1
      · rw [if_pos h1, if_pos (by omega)]
        show FloatOps.mulf (if (y 0).val < 2 * n then Scaled c G fS y else G y) _ = FloatOps.mulf (G y) _
        rw [if_neg (by omega)]
      · rw [if_neg h1]
        show (if (y 0).val < 2 * n then Scaled c G fS y else G y) = _
        by_cases h2 : (y 0).val < 2 * n
        · rw [if_pos h2, if_pos (by omega)]
        · rw [if_neg h2, if_neg (by omega)]
  intro G
  rw [key 16 (le_refl _) G]
  funext y
  have hy : (y 0).val < 32 := (y 0).isLt
  rw [if_pos (by omega)]

/-- One standard piece at its place: the offsets' closed forms, then arithmetic. -/
macro "stdAt_one" : tactic => `(tactic| (refine stdAt_piece _ _ _ _ _ _ _ _ _ ?_ ?_ ?_ <;>
  (simp only [ClosedOff.form, Matrix.cons_val_zero, Matrix.cons_val_one, Matrix.head_cons, Fin.val_mk] <;> omega)))

end Cert.Proof.KI

end
-- ==== Proof.KIVal2.lean ====
/-
  Scaling loop 2's value: the pieces of one trip are standard, at the trip's places, for chunk 3g; one trip scales
  rows 2k and 2k + 1 of the slot; the sixteen trips scale the slot by the scale table's entries for that chunk.
-/
import proofs.«206558_g86277303042394_cont_sun_m_1099_24_alg».proof.Proof.KIVal0

noncomputable section

namespace Cert.Proof.KI

open Cert.KernelIdeal Cert.KernelIdeal.Gen
open Idealize.ShloMosaic
open Idealize.ShloMosaic.Tactic

variable {F : FTy → Type} [FloatOps F]

theorem trips2 : k0_t2_loop.trips = 16 := by decide

/-- The scale lanes' place in the table, in closed form: table row (96 * g.val + 2k + u) / 8, lanes from 16·((96 * g.val + 2k + u) % 8). -/
theorem toff2_eq : ∀ g : Fin k0_t1_loop.trips, ∀ k : Fin k0_t2_loop.trips, ∀ r : Fin 2,
    k0_off4 g k (BitVec.ofNat 32 r.val) = ![(96 * g.val + 2 * k.val + r.val) / 8, 16 * ((96 * g.val + 2 * k.val + r.val) % 8)] := by decide +kernel

instance closedOff_toff2_0 (g : Fin k0_t1_loop.trips) (k : Fin k0_t2_loop.trips) : ClosedOff (k0_off4 g k (BitVec.ofNat 32 0)) := ⟨_, toff2_eq g k ⟨0, by decide⟩⟩
instance closedOff_toff2_1 (g : Fin k0_t1_loop.trips) (k : Fin k0_t2_loop.trips) : ClosedOff (k0_off4 g k (BitVec.ofNat 32 1)) := ⟨_, toff2_eq g k ⟨1, by decide⟩⟩

variable (d : Dev nD) (L : grid0.Coords)

unseal tripV2 in
/-- The pieces of one trip are standard, at the trip's places. -/
theorem tripV2_forall (g : Fin k0_t1_loop.trips) (k : Fin k0_t2_loop.trips) (G : Buf (Elt F) ((b0).view.loc (thr d L))) (fS : Buf (Elt F) ((bS).view.loc (thr d L))) :
    List.Forall₂ (StdAt (b0).view (bS).view G fS (ch g 0)) (places k.val) ((tripV2 (F := F) d L g k).1 G fS) := by
  have hk : k.val < 16 := trips2 ▸ k.isLt
  have hc : (((ch g 0) : Fin 32) : ℕ) = 3 * g.val := rfl
  have hg : g.val < 10 := Nat.lt_of_lt_of_le g.isLt trips1
  delta tripV2
  sl_unfold_run_names
  repeat' (first | exact List.Forall₂.nil | refine List.Forall₂.cons ?_ ?_)
  all_goals stdAt_one

/-- One trip scales rows `2k` and `2k + 1` of the slot. -/
theorem tripV2_spec (g : Fin k0_t1_loop.trips) (k : Fin k0_t2_loop.trips) (G : Buf (Elt F) ((b0).view.loc (thr d L))) (fS : Buf (Elt F) ((bS).view.loc (thr d L))) :
    (b0).view.writes (Elt F) G ((tripV2 (F := F) d L g k).1 G fS)
      = fun y => if (y 0).val = 2 * k.val ∨ (y 0).val = 2 * k.val + 1 then Scaled (ch g 0) G fS y else G y := by
  funext y
  have h := read_writes_std (b0).view (bS).view G fS (ch g 0) (tripV2_forall d L g k G fS) y
  by_cases hy : (y 0).val = 2 * k.val ∨ (y 0).val = 2 * k.val + 1
  · rw [if_pos hy]; exact h.trans (if_pos ((key_mem_places k.val y).mpr hy))
  · rw [if_neg hy]; exact h.trans (if_neg fun hm => hy ((key_mem_places k.val y).mp hm))

/-- The loop scales the slot by the table's entries for its chunk. -/
theorem iterV2_closed (g : Fin k0_t1_loop.trips) (fS : TabT F) (G : SlotT F) : iterV2 (F := F) d L g fS 16 G = Scaled (ch g 0) G fS :=
  iter_closed_of (ch g 0) fS (iterV2 (F := F) d L g fS) (fun _ => rfl)
    (fun n hn G => by
      have e := iterV2_succ (F := F) d L g fS ⟨n, trips2 ▸ hn⟩ G
      exact e.trans (tripV2_spec d L g ⟨n, trips2 ▸ hn⟩ _ fS)) G

end Cert.Proof.KI

end
-- ==== Proof.KIVal3.lean ====
/-
  Scaling loop 3's value: the pieces of one trip are standard, at the trip's places, for chunk 3g + 1; one trip scales
  rows 2k and 2k + 1 of the slot; the sixteen trips scale the slot by the scale table's entries for that chunk.
-/
import proofs.«206558_g86277303042394_cont_sun_m_1099_24_alg».proof.Proof.KIVal0

noncomputable section

namespace Cert.Proof.KI

open Cert.KernelIdeal Cert.KernelIdeal.Gen
open Idealize.ShloMosaic
open Idealize.ShloMosaic.Tactic

variable {F : FTy → Type} [FloatOps F]

theorem trips3 : k0_t3_loop.trips = 16 := by decide

/-- The scale lanes' place in the table, in closed form: table row (96 * g.val + 32 + 2k + u) / 8, lanes from 16·((96 * g.val + 32 + 2k + u) % 8). -/
theorem toff3_eq : ∀ g : Fin k0_t1_loop.trips, ∀ k : Fin k0_t3_loop.trips, ∀ r : Fin 2,
    k0_off71 g k (BitVec.ofNat 32 r.val) = ![(96 * g.val + 32 + 2 * k.val + r.val) / 8, 16 * ((96 * g.val + 32 + 2 * k.val + r.val) % 8)] := by decide +kernel

instance closedOff_toff3_0 (g : Fin k0_t1_loop.trips) (k : Fin k0_t3_loop.trips) : ClosedOff (k0_off71 g k (BitVec.ofNat 32 0)) := ⟨_, toff3_eq g k ⟨0, by decide⟩⟩
instance closedOff_toff3_1 (g : Fin k0_t1_loop.trips) (k : Fin k0_t3_loop.trips) : ClosedOff (k0_off71 g k (BitVec.ofNat 32 1)) := ⟨_, toff3_eq g k ⟨1, by decide⟩⟩

variable (d : Dev nD) (L : grid0.Coords)

unseal tripV3 in
/-- The pieces of one trip are standard, at the trip's places. -/
theorem tripV3_forall (g : Fin k0_t1_loop.trips) (k : Fin k0_t3_loop.trips) (G : Buf (Elt F) ((b1).view.loc (thr d L))) (fS : Buf (Elt F) ((bS).view.loc (thr d L))) :
    List.Forall₂ (StdAt (b1).view (bS).view G fS (ch g 1)) (places k.val) ((tripV3 (F := F) d L g k).1 G fS) := by
  have hk : k.val < 16 := trips3 ▸ k.isLt
  have hc : (((ch g 1) : Fin 32) : ℕ) = 3 * g.val + 1 := rfl
  have hg : g.val < 10 := Nat.lt_of_lt_of_le g.isLt trips1
  delta tripV3
  sl_unfold_run_names
  repeat' (first | exact List.Forall₂.nil | refine List.Forall₂.cons ?_ ?_)
  all_goals stdAt_one

/-- One trip scales rows `2k` and `2k + 1` of the slot. -/
theorem tripV3_spec (g : Fin k0_t1_loop.trips) (k : Fin k0_t3_loop.trips) (G : Buf (Elt F) ((b1).view.loc (thr d L))) (fS : Buf (Elt F) ((bS).view.loc (thr d L))) :
    (b1).view.writes (Elt F) G ((tripV3 (F := F) d L g k).1 G fS)
      = fun y => if (y 0).val = 2 * k.val ∨ (y 0).val = 2 * k.val + 1 then Scaled (ch g 1) G fS y else G y := by
  funext y
  have h := read_writes_std (b1).view (bS).view G fS (ch g 1) (tripV3_forall d L g k G fS) y
  by_cases hy : (y 0).val = 2 * k.val ∨ (y 0).val = 2 * k.val + 1
  · rw [if_pos hy]; exact h.trans (if_pos ((key_mem_places k.val y).mpr hy))
  · rw [if_neg hy]; exact h.trans (if_neg fun hm => hy ((key_mem_places k.val y).mp hm))

/-- The loop scales the slot by the table's entries for its chunk. -/
theorem iterV3_closed (g : Fin k0_t1_loop.trips) (fS : TabT F) (G : SlotT F) : iterV3 (F := F) d L g fS 16 G = Scaled (ch g 1) G fS :=
  iter_closed_of (ch g 1) fS (iterV3 (F := F) d L g fS) (fun _ => rfl)
    (fun n hn G => by
      have e := iterV3_succ (F := F) d L g fS ⟨n, trips3 ▸ hn⟩ G
      exact e.trans (tripV3_spec d L g ⟨n, trips3 ▸ hn⟩ _ fS)) G

end Cert.Proof.KI

end
-- ==== Proof.KIVal4.lean ====
/-
  Scaling loop 4's value: the pieces of one trip are standard, at the trip's places, for chunk 3g + 2; one trip scales
  rows 2k and 2k + 1 of the slot; the sixteen trips scale the slot by the scale table's entries for that chunk.
-/
import proofs.«206558_g86277303042394_cont_sun_m_1099_24_alg».proof.Proof.KIVal0

noncomputable section

namespace Cert.Proof.KI

open Cert.KernelIdeal Cert.KernelIdeal.Gen
open Idealize.ShloMosaic
open Idealize.ShloMosaic.Tactic

variable {F : FTy → Type} [FloatOps F]

theorem trips4 : k0_t4_loop.trips = 16 := by decide

/-- The scale lanes' place in the table, in closed form: table row (96 * g.val + 64 + 2k + u) / 8, lanes from 16·((96 * g.val + 64 + 2k + u) % 8). -/
theorem toff4_eq : ∀ g : Fin k0_t1_loop.trips, ∀ k : Fin k0_t4_loop.trips, ∀ r : Fin 2,
    k0_off138 g k (BitVec.ofNat 32 r.val) = ![(96 * g.val + 64 + 2 * k.val + r.val) / 8, 16 * ((96 * g.val + 64 + 2 * k.val + r.val) % 8)] := by decide +kernel

instance closedOff_toff4_0 (g : Fin k0_t1_loop.trips) (k : Fin k0_t4_loop.trips) : ClosedOff (k0_off138 g k (BitVec.ofNat 32 0)) := ⟨_, toff4_eq g k ⟨0, by decide⟩⟩
instance closedOff_toff4_1 (g : Fin k0_t1_loop.trips) (k : Fin k0_t4_loop.trips) : ClosedOff (k0_off138 g k (BitVec.ofNat 32 1)) := ⟨_, toff4_eq g k ⟨1, by decide⟩⟩

variable (d : Dev nD) (L : grid0.Coords)

unseal tripV4 in
/-- The pieces of one trip are standard, at the trip's places. -/
theorem tripV4_forall (g : Fin k0_t1_loop.trips) (k : Fin k0_t4_loop.trips) (G : Buf (Elt F) ((b2).view.loc (thr d L))) (fS : Buf (Elt F) ((bS).view.loc (thr d L))) :
    List.Forall₂ (StdAt (b2).view (bS).view G fS (ch g 2)) (places k.val) ((tripV4 (F := F) d L g k).1 G fS) := by
  have hk : k.val < 16 := trips4 ▸ k.isLt
  have hc : (((ch g 2) : Fin 32) : ℕ) = 3 * g.val + 2 := rfl
  have hg : g.val < 10 := Nat.lt_of_lt_of_le g.isLt trips1
  delta tripV4
  sl_unfold_run_names
  repeat' (first | exact List.Forall₂.nil | refine List.Forall₂.cons ?_ ?_)
  all_goals stdAt_one

/-- One trip scales rows `2k` and `2k + 1` of the slot. -/
theorem tripV4_spec (g : Fin k0_t1_loop.trips) (k : Fin k0_t4_loop.trips) (G : Buf (Elt F) ((b2).view.loc (thr d L))) (fS : Buf (Elt F) ((bS).view.loc (thr d L))) :
    (b2).view.writes (Elt F) G ((tripV4 (F := F) d L g k).1 G fS)
      = fun y => if (y 0).val = 2 * k.val ∨ (y 0).val = 2 * k.val + 1 then Scaled (ch g 2) G fS y else G y := by
  funext y
  have h := read_writes_std (b2).view (bS).view G fS (ch g 2) (tripV4_forall d L g k G fS) y
  by_cases hy : (y 0).val = 2 * k.val ∨ (y 0).val = 2 * k.val + 1
  · rw [if_pos hy]; exact h.trans (if_pos ((key_mem_places k.val y).mpr hy))
  · rw [if_neg hy]; exact h.trans (if_neg fun hm => hy ((key_mem_places k.val y).mp hm))

/-- The loop scales the slot by the table's entries for its chunk. -/
theorem iterV4_closed (g : Fin k0_t1_loop.trips) (fS : TabT F) (G : SlotT F) : iterV4 (F := F) d L g fS 16 G = Scaled (ch g 2) G fS :=
  iter_closed_of (ch g 2) fS (iterV4 (F := F) d L g fS) (fun _ => rfl)
    (fun n hn G => by
      have e := iterV4_succ (F := F) d L g fS ⟨n, trips4 ▸ hn⟩ G
      exact e.trans (tripV4_spec d L g ⟨n, trips4 ▸ hn⟩ _ fS)) G

end Cert.Proof.KI

end
-- ==== Proof.KIVal5.lean ====
/-
  Scaling loop 5's value: the pieces of one trip are standard, at the trip's places, for chunk 30; one trip scales
  rows 2k and 2k + 1 of the slot; the sixteen trips scale the slot by the scale table's entries for that chunk.
-/
import proofs.«206558_g86277303042394_cont_sun_m_1099_24_alg».proof.Proof.KIVal0

noncomputable section

namespace Cert.Proof.KI

open Cert.KernelIdeal Cert.KernelIdeal.Gen
open Idealize.ShloMosaic
open Idealize.ShloMosaic.Tactic

variable {F : FTy → Type} [FloatOps F]

theorem trips5 : k0_t5_loop.trips = 16 := by decide

/-- The scale lanes' place in the table, in closed form: table row (960 + 2k + u) / 8, lanes from 16·((960 + 2k + u) % 8). -/
theorem toff5_eq : ∀ k : Fin k0_t5_loop.trips, ∀ r : Fin 2,
    k0_off205 k (BitVec.ofNat 32 r.val) = ![(960 + 2 * k.val + r.val) / 8, 16 * ((960 + 2 * k.val + r.val) % 8)] := by decide +kernel

instance closedOff_toff5_0 (k : Fin k0_t5_loop.trips) : ClosedOff (k0_off205 k (BitVec.ofNat 32 0)) := ⟨_, toff5_eq k ⟨0, by decide⟩⟩
instance closedOff_toff5_1 (k : Fin k0_t5_loop.trips) : ClosedOff (k0_off205 k (BitVec.ofNat 32 1)) := ⟨_, toff5_eq k ⟨1, by decide⟩⟩

variable (d : Dev nD) (L : grid0.Coords)

unseal trip5 in
/-- The pieces of one trip are standard, at the trip's places. -/
theorem trip5_forall (k : Fin k0_t5_loop.trips) (G : Buf (Elt F) ((b0).view.loc (thr d L))) (fS : Buf (Elt F) ((bS).view.loc (thr d L))) :
    List.Forall₂ (StdAt (b0).view (bS).view G fS 30) (places k.val) ((trip5 (F := F) d L k).1 G fS) := by
  have hk : k.val < 16 := trips5 ▸ k.isLt
  have hc : ((30 : Fin 32) : ℕ) = 30 := rfl
  delta trip5
  sl_unfold_run_names
  repeat' (first | exact List.Forall₂.nil | refine List.Forall₂.cons ?_ ?_)
  all_goals stdAt_one

/-- One trip scales rows `2k` and `2k + 1` of the slot. -/
theorem trip5_spec (k : Fin k0_t5_loop.trips) (G : Buf (Elt F) ((b0).view.loc (thr d L))) (fS : Buf (Elt F) ((bS).view.loc (thr d L))) :
    (b0).view.writes (Elt F) G ((trip5 (F := F) d L k).1 G fS)
      = fun y => if (y 0).val = 2 * k.val ∨ (y 0).val = 2 * k.val + 1 then Scaled 30 G fS y else G y := by
  funext y
  have h := read_writes_std (b0).view (bS).view G fS 30 (trip5_forall d L k G fS) y
  by_cases hy : (y 0).val = 2 * k.val ∨ (y 0).val = 2 * k.val + 1
  · rw [if_pos hy]; exact h.trans (if_pos ((key_mem_places k.val y).mpr hy))
  · rw [if_neg hy]; exact h.trans (if_neg fun hm => hy ((key_mem_places k.val y).mp hm))

/-- The loop scales the slot by the table's entries for its chunk. -/
theorem iter5_closed (fS : TabT F) (G : SlotT F) : iter5 (F := F) d L fS 16 G = Scaled 30 G fS :=
  iter_closed_of 30 fS (iter5 (F := F) d L fS) (fun _ => rfl)
    (fun n hn G => by
      have e := iter5_succ (F := F) d L fS ⟨n, trips5 ▸ hn⟩ G
      exact e.trans (trip5_spec d L ⟨n, trips5 ▸ hn⟩ _ fS)) G

end Cert.Proof.KI

end
-- ==== Proof.KIVal6.lean ====
/-
  Scaling loop 6's value: the pieces of one trip are standard, at the trip's places, for chunk 31; one trip scales
  rows 2k and 2k + 1 of the slot; the sixteen trips scale the slot by the scale table's entries for that chunk.
-/
import proofs.«206558_g86277303042394_cont_sun_m_1099_24_alg».proof.Proof.KIVal0

noncomputable section

namespace Cert.Proof.KI

open Cert.KernelIdeal Cert.KernelIdeal.Gen
open Idealize.ShloMosaic
open Idealize.ShloMosaic.Tactic

variable {F : FTy → Type} [FloatOps F]

theorem trips6 : k0_t6_loop.trips = 16 := by decide

/-- The scale lanes' place in the table, in closed form: table row (992 + 2k + u) / 8, lanes from 16·((992 + 2k + u) % 8). -/
theorem toff6_eq : ∀ k : Fin k0_t6_loop.trips, ∀ r : Fin 2,
    k0_off271 k (BitVec.ofNat 32 r.val) = ![(992 + 2 * k.val + r.val) / 8, 16 * ((992 + 2 * k.val + r.val) % 8)] := by decide +kernel

instance closedOff_toff6_0 (k : Fin k0_t6_loop.trips) : ClosedOff (k0_off271 k (BitVec.ofNat 32 0)) := ⟨_, toff6_eq k ⟨0, by decide⟩⟩
instance closedOff_toff6_1 (k : Fin k0_t6_loop.trips) : ClosedOff (k0_off271 k (BitVec.ofNat 32 1)) := ⟨_, toff6_eq k ⟨1, by decide⟩⟩

variable (d : Dev nD) (L : grid0.Coords)

unseal trip6 in
/-- The pieces of one trip are standard, at the trip's places. -/
theorem trip6_forall (k : Fin k0_t6_loop.trips) (G : Buf (Elt F) ((b1).view.loc (thr d L))) (fS : Buf (Elt F) ((bS).view.loc (thr d L))) :
    List.Forall₂ (StdAt (b1).view (bS).view G fS 31) (places k.val) ((trip6 (F := F) d L k).1 G fS) := by
  have hk : k.val < 16 := trips6 ▸ k.isLt
  have hc : ((31 : Fin 32) : ℕ) = 31 := rfl
  delta trip6
  sl_unfold_run_names
  repeat' (first | exact List.Forall₂.nil | refine List.Forall₂.cons ?_ ?_)
  all_goals stdAt_one

/-- One trip scales rows `2k` and `2k + 1` of the slot. -/
theorem trip6_spec (k : Fin k0_t6_loop.trips) (G : Buf (Elt F) ((b1).view.loc (thr d L))) (fS : Buf (Elt F) ((bS).view.loc (thr d L))) :
    (b1).view.writes (Elt F) G ((trip6 (F := F) d L k).1 G fS)
      = fun y => if (y 0).val = 2 * k.val ∨ (y 0).val = 2 * k.val + 1 then Scaled 31 G fS y else G y := by
  funext y
  have h := read_writes_std (b1).view (bS).view G fS 31 (trip6_forall d L k G fS) y
  by_cases hy : (y 0).val = 2 * k.val ∨ (y 0).val = 2 * k.val + 1
  · rw [if_pos hy]; exact h.trans (if_pos ((key_mem_places k.val y).mpr hy))
  · rw [if_neg hy]; exact h.trans (if_neg fun hm => hy ((key_mem_places k.val y).mp hm))

/-- The loop scales the slot by the table's entries for its chunk. -/
theorem iter6_closed (fS : TabT F) (G : SlotT F) : iter6 (F := F) d L fS 16 G = Scaled 31 G fS :=
  iter_closed_of 31 fS (iter6 (F := F) d L fS) (fun _ => rfl)
    (fun n hn G => by
      have e := iter6_succ (F := F) d L fS ⟨n, trips6 ▸ hn⟩ G
      exact e.trans (trip6_spec d L ⟨n, trips6 ▸ hn⟩ _ fS)) G

end Cert.Proof.KI

end
-- ==== Proof.KIVal.lean ====
/-
  The five scaling loops' closed forms together: each loop of sixteen trips scales its slot by the scale table's entries
  for its chunk (3g, 3g + 1, 3g + 2 in group g; 30 and 31 after the groups).
-/
import proofs.«206558_g86277303042394_cont_sun_m_1099_24_alg».proof.Proof.KIVal2
import proofs.«206558_g86277303042394_cont_sun_m_1099_24_alg».proof.Proof.KIVal3
import proofs.«206558_g86277303042394_cont_sun_m_1099_24_alg».proof.Proof.KIVal4
import proofs.«206558_g86277303042394_cont_sun_m_1099_24_alg».proof.Proof.KIVal5
import proofs.«206558_g86277303042394_cont_sun_m_1099_24_alg».proof.Proof.KIVal6

noncomputable section

namespace Cert.Proof.KI

open Cert.KernelIdeal Cert.KernelIdeal.Gen
open Idealize.ShloMosaic

variable {F : FTy → Type} [FloatOps F]

theorem iterClosed (d : Dev nD) (L : grid0.Coords) : IterClosed (F := F) d L :=
  ⟨fun g TS G => iterV2_closed d L g TS G, fun g TS G => iterV3_closed d L g TS G, fun g TS G => iterV4_closed d L g TS G,
    fun TS G => iter5_closed d L TS G, fun TS G => iter6_closed d L TS G⟩

end Cert.Proof.KI

end
-- ==== Proof.HostMask.lean ====
/- (run in the unit directory; it transcribes, one definition per printed value, the lines of the mask chain). -/
import Idealize.ShloMosaic.PureOps

/-! # The Bernoulli mask as a closed term

Both programs draw the same mask: a key built from the seed 42 (its high and low words, concatenated), the
counter-mode block cipher run on the key over the row-major counter of the [8192, 4] array, the two result words
combined into a float in [1, 2), shifted to [0, 1), and compared with the probability 0.1. No input of either
program enters: the mask is a constant. Each printed value of that chain is named here by one definition whose
body is the printed function applied to the names of its operands, in the printed order, so that a run of
either program can be matched against it one line at a time, never comparing two unfolded chains.

Names: "m0 … m10" are the values printed in the entry function before the call (the seed, its two words, the key, the
probability); "b_…", "u_…", "t_…" are the values of the Bernoulli function, of the uniform sampler it calls and
of the block cipher that one calls, each under its printed local name. The shape relations the operations cite are
proved here by evaluation, as the programs' own side conditions are. -/

noncomputable section

namespace Cert.HostMask

open Idealize.ShloMosaic

abbrev S_ : Shape := ⟨0, ![]⟩
abbrev S1 : Shape := ⟨1, ![1]⟩
abbrev S2 : Shape := ⟨1, ![2]⟩
abbrev S1x1 : Shape := ⟨2, ![1, 1]⟩
abbrev S8192x4 : Shape := ⟨2, ![8192, 4]⟩

theorem bcast_S_S1 : S_.BroadcastsInDim S1 (![] : Fin 0 → Fin S1.rank) := by decide
theorem concatenates_S1_S1_S2_d0 : Shape.Concatenates [S1, S1] S2 0 := by decide
theorem bcast_S_S1x1 : S_.BroadcastsInDim S1x1 (![] : Fin 0 → Fin S1x1.rank) := by decide
theorem slices_S2_S1_0 : S2.Slices ![0] S1 := by decide
theorem shapeCasts_S1_S_ : S1.ShapeCasts S_ := by decide
theorem slices_S2_S1_1 : S2.Slices ![1] S1 := by decide
theorem bcast_S_S8192x4 : S_.BroadcastsInDim S8192x4 (![] : Fin 0 → Fin S8192x4.rank) := by decide
theorem natLt_32_64 : 32 < 64 := by decide
theorem bcast_S1x1_S8192x4_0_1 : S1x1.BroadcastsInDim S8192x4 (![0, 1] : Fin 2 → Fin S8192x4.rank) := by decide

variable {F : FTy → Type} [FloatOps F]

def m0 : (⟨S_, .i32⟩ : BufTy).Contents (Elt F) := (constantI S_ 32 42#32)
def m1 : (⟨S_, .i32⟩ : BufTy).Contents (Elt F) := (constantI S_ 32 32#32)
def m2 : (⟨S_, .i32⟩ : BufTy).Contents (Elt F) := (Host.shrui : (⟨S_, .i32⟩ : BufTy).Contents (Elt F) → (⟨S_, .i32⟩ : BufTy).Contents (Elt F) → (⟨S_, .i32⟩ : BufTy).Contents (Elt F)) (m0 (F := F)) (m1 (F := F))
def m3 : (⟨S_, .i32⟩ : BufTy).Contents (Elt F) := (id : (⟨S_, .i32⟩ : BufTy).Contents (Elt F) → (⟨S_, .i32⟩ : BufTy).Contents (Elt F)) (m2 (F := F))
def m4 : (⟨S1, .i32⟩ : BufTy).Contents (Elt F) := (broadcastInDim S1 ![] bcast_S_S1 : (⟨S_, .i32⟩ : BufTy).Contents (Elt F) → (⟨S1, .i32⟩ : BufTy).Contents (Elt F)) (m3 (F := F))
def m5 : (⟨S_, .i32⟩ : BufTy).Contents (Elt F) := (constantI S_ 32 4294967295#32)
def m6 : (⟨S_, .i32⟩ : BufTy).Contents (Elt F) := (andi : (⟨S_, .i32⟩ : BufTy).Contents (Elt F) → (⟨S_, .i32⟩ : BufTy).Contents (Elt F) → (⟨S_, .i32⟩ : BufTy).Contents (Elt F)) (m0 (F := F)) (m5 (F := F))
def m7 : (⟨S_, .i32⟩ : BufTy).Contents (Elt F) := (id : (⟨S_, .i32⟩ : BufTy).Contents (Elt F) → (⟨S_, .i32⟩ : BufTy).Contents (Elt F)) (m6 (F := F))
def m8 : (⟨S1, .i32⟩ : BufTy).Contents (Elt F) := (broadcastInDim S1 ![] bcast_S_S1 : (⟨S_, .i32⟩ : BufTy).Contents (Elt F) → (⟨S1, .i32⟩ : BufTy).Contents (Elt F)) (m7 (F := F))
def m9 : (⟨S2, .i32⟩ : BufTy).Contents (Elt F) := ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) (m4 (F := F)) (m8 (F := F))
def m10 : (⟨S_, .f32⟩ : BufTy).Contents (Elt F) := (constant S_ .f32 0x3DCCCCCD#32)
def b_cst : (⟨S_, .f32⟩ : BufTy).Contents (Elt F) := (constant S_ .f32 0x00000000#32)
def b_cst_0 : (⟨S_, .f32⟩ : BufTy).Contents (Elt F) := (constant S_ .f32 0x3F800000#32)
def u_v0 : (⟨S_, .f32⟩ : BufTy).Contents (Elt F) := id (b_cst (F := F))
def u_v1 : (⟨S_, .f32⟩ : BufTy).Contents (Elt F) := id (b_cst_0 (F := F))
def u_v2 : (⟨S1x1, .f32⟩ : BufTy).Contents (Elt F) := (broadcastInDim S1x1 ![] bcast_S_S1x1) (u_v0 (F := F))
def u_v3 : (⟨S1x1, .f32⟩ : BufTy).Contents (Elt F) := (broadcastInDim S1x1 ![] bcast_S_S1x1) (u_v1 (F := F))
def u_v4 : (⟨S1, .i32⟩ : BufTy).Contents (Elt F) := (extractStridedSlice S1 ![0] · slices_S2_S1_0) (m9 (F := F))
def u_v5 : (⟨S_, .i32⟩ : BufTy).Contents (Elt F) := shapeCast S_ (u_v4 (F := F)) shapeCasts_S1_S_
def u_v6 : (⟨S1, .i32⟩ : BufTy).Contents (Elt F) := (extractStridedSlice S1 ![1] · slices_S2_S1_1) (m9 (F := F))
def u_v7 : (⟨S_, .i32⟩ : BufTy).Contents (Elt F) := shapeCast S_ (u_v6 (F := F)) shapeCasts_S1_S_
def u_v8 : (⟨S8192x4, .i64⟩ : BufTy).Contents (Elt F) := (iotaInDim S8192x4 64 0)
def u_v9 : (⟨S8192x4, .i64⟩ : BufTy).Contents (Elt F) := (iotaInDim S8192x4 64 1)
def u_c : (⟨S_, .i64⟩ : BufTy).Contents (Elt F) := (constantI S_ 64 4#64)
def u_v10 : (⟨S8192x4, .i64⟩ : BufTy).Contents (Elt F) := (broadcastInDim S8192x4 ![] bcast_S_S8192x4) (u_c (F := F))
def u_v11 : (⟨S8192x4, .i64⟩ : BufTy).Contents (Elt F) := muli (u_v10 (F := F)) (u_v8 (F := F))
def u_c_0 : (⟨S_, .i64⟩ : BufTy).Contents (Elt F) := (constantI S_ 64 1#64)
def u_v12 : (⟨S8192x4, .i64⟩ : BufTy).Contents (Elt F) := (broadcastInDim S8192x4 ![] bcast_S_S8192x4) (u_c_0 (F := F))
def u_v13 : (⟨S8192x4, .i64⟩ : BufTy).Contents (Elt F) := muli (u_v12 (F := F)) (u_v9 (F := F))
def u_v14 : (⟨S8192x4, .i64⟩ : BufTy).Contents (Elt F) := addi (u_v11 (F := F)) (u_v13 (F := F))
def u_c_1 : (⟨S_, .i64⟩ : BufTy).Contents (Elt F) := (constantI S_ 64 32#64)
def u_v15 : (⟨S8192x4, .i64⟩ : BufTy).Contents (Elt F) := (broadcastInDim S8192x4 ![] bcast_S_S8192x4) (u_c_1 (F := F))
def u_v16 : (⟨S8192x4, .i64⟩ : BufTy).Contents (Elt F) := Host.shrui (u_v14 (F := F)) (u_v15 (F := F))
def u_v17 : (⟨S8192x4, .i32⟩ : BufTy).Contents (Elt F) := (trunci 32 · natLt_32_64) (u_v14 (F := F))
def u_v18 : (⟨S8192x4, .i32⟩ : BufTy).Contents (Elt F) := (trunci 32 · natLt_32_64) (u_v16 (F := F))
def t_v0 : (⟨S_, .i32⟩ : BufTy).Contents (Elt F) := xori (u_v5 (F := F)) (u_v7 (F := F))
def t_c : (⟨S_, .i32⟩ : BufTy).Contents (Elt F) := (constantI S_ 32 466688986#32)
def t_v1 : (⟨S_, .i32⟩ : BufTy).Contents (Elt F) := xori (t_v0 (F := F)) (t_c (F := F))
def t_v2 : (⟨S8192x4, .i32⟩ : BufTy).Contents (Elt F) := (broadcastInDim S8192x4 ![] bcast_S_S8192x4) (u_v5 (F := F))
def t_v3 : (⟨S8192x4, .i32⟩ : BufTy).Contents (Elt F) := addi (u_v18 (F := F)) (t_v2 (F := F))
def t_v4 : (⟨S8192x4, .i32⟩ : BufTy).Contents (Elt F) := (broadcastInDim S8192x4 ![] bcast_S_S8192x4) (u_v7 (F := F))
def t_v5 : (⟨S8192x4, .i32⟩ : BufTy).Contents (Elt F) := addi (u_v17 (F := F)) (t_v4 (F := F))
def t_v6 : (⟨S8192x4, .i32⟩ : BufTy).Contents (Elt F) := addi (t_v3 (F := F)) (t_v5 (F := F))
def t_c_0 : (⟨S_, .i32⟩ : BufTy).Contents (Elt F) := (constantI S_ 32 13#32)
def t_v7 : (⟨S8192x4, .i32⟩ : BufTy).Contents (Elt F) := (broadcastInDim S8192x4 ![] bcast_S_S8192x4) (t_c_0 (F := F))
def t_v8 : (⟨S8192x4, .i32⟩ : BufTy).Contents (Elt F) := Host.shli (t_v5 (F := F)) (t_v7 (F := F))
def t_c_1 : (⟨S_, .i32⟩ : BufTy).Contents (Elt F) := (constantI S_ 32 19#32)
def t_v9 : (⟨S8192x4, .i32⟩ : BufTy).Contents (Elt F) := (broadcastInDim S8192x4 ![] bcast_S_S8192x4) (t_c_1 (F := F))
def t_v10 : (⟨S8192x4, .i32⟩ : BufTy).Contents (Elt F) := Host.shrui (t_v5 (F := F)) (t_v9 (F := F))
def t_v11 : (⟨S8192x4, .i32⟩ : BufTy).Contents (Elt F) := ori (t_v8 (F := F)) (t_v10 (F := F))
def t_v12 : (⟨S8192x4, .i32⟩ : BufTy).Contents (Elt F) := xori (t_v6 (F := F)) (t_v11 (F := F))
def t_v13 : (⟨S8192x4, .i32⟩ : BufTy).Contents (Elt F) := addi (t_v6 (F := F)) (t_v12 (F := F))
def t_c_2 : (⟨S_, .i32⟩ : BufTy).Contents (Elt F) := (constantI S_ 32 15#32)
def t_v14 : (⟨S8192x4, .i32⟩ : BufTy).Contents (Elt F) := (broadcastInDim S8192x4 ![] bcast_S_S8192x4) (t_c_2 (F := F))
def t_v15 : (⟨S8192x4, .i32⟩ : BufTy).Contents (Elt F) := Host.shli (t_v12 (F := F)) (t_v14 (F := F))
def t_c_3 : (⟨S_, .i32⟩ : BufTy).Contents (Elt F) := (constantI S_ 32 17#32)
def t_v16 : (⟨S8192x4, .i32⟩ : BufTy).Contents (Elt F) := (broadcastInDim S8192x4 ![] bcast_S_S8192x4) (t_c_3 (F := F))
def t_v17 : (⟨S8192x4, .i32⟩ : BufTy).Contents (Elt F) := Host.shrui (t_v12 (F := F)) (t_v16 (F := F))
def t_v18 : (⟨S8192x4, .i32⟩ : BufTy).Contents (Elt F) := ori (t_v15 (F := F)) (t_v17 (F := F))
def t_v19 : (⟨S8192x4, .i32⟩ : BufTy).Contents (Elt F) := xori (t_v13 (F := F)) (t_v18 (F := F))
def t_v20 : (⟨S8192x4, .i32⟩ : BufTy).Contents (Elt F) := addi (t_v13 (F := F)) (t_v19 (F := F))
def t_c_4 : (⟨S_, .i32⟩ : BufTy).Contents (Elt F) := (constantI S_ 32 26#32)
def t_v21 : (⟨S8192x4, .i32⟩ : BufTy).Contents (Elt F) := (broadcastInDim S8192x4 ![] bcast_S_S8192x4) (t_c_4 (F := F))
def t_v22 : (⟨S8192x4, .i32⟩ : BufTy).Contents (Elt F) := Host.shli (t_v19 (F := F)) (t_v21 (F := F))
def t_c_5 : (⟨S_, .i32⟩ : BufTy).Contents (Elt F) := (constantI S_ 32 6#32)
def t_v23 : (⟨S8192x4, .i32⟩ : BufTy).Contents (Elt F) := (broadcastInDim S8192x4 ![] bcast_S_S8192x4) (t_c_5 (F := F))
def t_v24 : (⟨S8192x4, .i32⟩ : BufTy).Contents (Elt F) := Host.shrui (t_v19 (F := F)) (t_v23 (F := F))
def t_v25 : (⟨S8192x4, .i32⟩ : BufTy).Contents (Elt F) := ori (t_v22 (F := F)) (t_v24 (F := F))
def t_v26 : (⟨S8192x4, .i32⟩ : BufTy).Contents (Elt F) := xori (t_v20 (F := F)) (t_v25 (F := F))
def t_v27 : (⟨S8192x4, .i32⟩ : BufTy).Contents (Elt F) := addi (t_v20 (F := F)) (t_v26 (F := F))
def t_c_6 : (⟨S_, .i32⟩ : BufTy).Contents (Elt F) := (constantI S_ 32 6#32)
def t_v28 : (⟨S8192x4, .i32⟩ : BufTy).Contents (Elt F) := (broadcastInDim S8192x4 ![] bcast_S_S8192x4) (t_c_6 (F := F))
def t_v29 : (⟨S8192x4, .i32⟩ : BufTy).Contents (Elt F) := Host.shli (t_v26 (F := F)) (t_v28 (F := F))
def t_c_7 : (⟨S_, .i32⟩ : BufTy).Contents (Elt F) := (constantI S_ 32 26#32)
def t_v30 : (⟨S8192x4, .i32⟩ : BufTy).Contents (Elt F) := (broadcastInDim S8192x4 ![] bcast_S_S8192x4) (t_c_7 (F := F))
def t_v31 : (⟨S8192x4, .i32⟩ : BufTy).Contents (Elt F) := Host.shrui (t_v26 (F := F)) (t_v30 (F := F))
def t_v32 : (⟨S8192x4, .i32⟩ : BufTy).Contents (Elt F) := ori (t_v29 (F := F)) (t_v31 (F := F))
def t_v33 : (⟨S8192x4, .i32⟩ : BufTy).Contents (Elt F) := xori (t_v27 (F := F)) (t_v32 (F := F))
def t_v34 : (⟨S8192x4, .i32⟩ : BufTy).Contents (Elt F) := (broadcastInDim S8192x4 ![] bcast_S_S8192x4) (u_v7 (F := F))
def t_v35 : (⟨S8192x4, .i32⟩ : BufTy).Contents (Elt F) := addi (t_v27 (F := F)) (t_v34 (F := F))
def t_v36 : (⟨S8192x4, .i32⟩ : BufTy).Contents (Elt F) := (broadcastInDim S8192x4 ![] bcast_S_S8192x4) (t_v1 (F := F))
def t_v37 : (⟨S8192x4, .i32⟩ : BufTy).Contents (Elt F) := addi (t_v33 (F := F)) (t_v36 (F := F))
def t_c_8 : (⟨S_, .i32⟩ : BufTy).Contents (Elt F) := (constantI S_ 32 1#32)
def t_v38 : (⟨S8192x4, .i32⟩ : BufTy).Contents (Elt F) := (broadcastInDim S8192x4 ![] bcast_S_S8192x4) (t_c_8 (F := F))
def t_v39 : (⟨S8192x4, .i32⟩ : BufTy).Contents (Elt F) := addi (t_v37 (F := F)) (t_v38 (F := F))
def t_v40 : (⟨S8192x4, .i32⟩ : BufTy).Contents (Elt F) := addi (t_v35 (F := F)) (t_v39 (F := F))
def t_c_9 : (⟨S_, .i32⟩ : BufTy).Contents (Elt F) := (constantI S_ 32 17#32)
def t_v41 : (⟨S8192x4, .i32⟩ : BufTy).Contents (Elt F) := (broadcastInDim S8192x4 ![] bcast_S_S8192x4) (t_c_9 (F := F))
def t_v42 : (⟨S8192x4, .i32⟩ : BufTy).Contents (Elt F) := Host.shli (t_v39 (F := F)) (t_v41 (F := F))
def t_c_10 : (⟨S_, .i32⟩ : BufTy).Contents (Elt F) := (constantI S_ 32 15#32)
def t_v43 : (⟨S8192x4, .i32⟩ : BufTy).Contents (Elt F) := (broadcastInDim S8192x4 ![] bcast_S_S8192x4) (t_c_10 (F := F))
def t_v44 : (⟨S8192x4, .i32⟩ : BufTy).Contents (Elt F) := Host.shrui (t_v39 (F := F)) (t_v43 (F := F))
def t_v45 : (⟨S8192x4, .i32⟩ : BufTy).Contents (Elt F) := ori (t_v42 (F := F)) (t_v44 (F := F))
def t_v46 : (⟨S8192x4, .i32⟩ : BufTy).Contents (Elt F) := xori (t_v40 (F := F)) (t_v45 (F := F))
def t_v47 : (⟨S8192x4, .i32⟩ : BufTy).Contents (Elt F) := addi (t_v40 (F := F)) (t_v46 (F := F))
def t_c_11 : (⟨S_, .i32⟩ : BufTy).Contents (Elt F) := (constantI S_ 32 29#32)
def t_v48 : (⟨S8192x4, .i32⟩ : BufTy).Contents (Elt F) := (broadcastInDim S8192x4 ![] bcast_S_S8192x4) (t_c_11 (F := F))
def t_v49 : (⟨S8192x4, .i32⟩ : BufTy).Contents (Elt F) := Host.shli (t_v46 (F := F)) (t_v48 (F := F))
def t_c_12 : (⟨S_, .i32⟩ : BufTy).Contents (Elt F) := (constantI S_ 32 3#32)
def t_v50 : (⟨S8192x4, .i32⟩ : BufTy).Contents (Elt F) := (broadcastInDim S8192x4 ![] bcast_S_S8192x4) (t_c_12 (F := F))
def t_v51 : (⟨S8192x4, .i32⟩ : BufTy).Contents (Elt F) := Host.shrui (t_v46 (F := F)) (t_v50 (F := F))
def t_v52 : (⟨S8192x4, .i32⟩ : BufTy).Contents (Elt F) := ori (t_v49 (F := F)) (t_v51 (F := F))
def t_v53 : (⟨S8192x4, .i32⟩ : BufTy).Contents (Elt F) := xori (t_v47 (F := F)) (t_v52 (F := F))
def t_v54 : (⟨S8192x4, .i32⟩ : BufTy).Contents (Elt F) := addi (t_v47 (F := F)) (t_v53 (F := F))
def t_c_13 : (⟨S_, .i32⟩ : BufTy).Contents (Elt F) := (constantI S_ 32 16#32)
def t_v55 : (⟨S8192x4, .i32⟩ : BufTy).Contents (Elt F) := (broadcastInDim S8192x4 ![] bcast_S_S8192x4) (t_c_13 (F := F))
def t_v56 : (⟨S8192x4, .i32⟩ : BufTy).Contents (Elt F) := Host.shli (t_v53 (F := F)) (t_v55 (F := F))
def t_c_14 : (⟨S_, .i32⟩ : BufTy).Contents (Elt F) := (constantI S_ 32 16#32)
def t_v57 : (⟨S8192x4, .i32⟩ : BufTy).Contents (Elt F) := (broadcastInDim S8192x4 ![] bcast_S_S8192x4) (t_c_14 (F := F))
def t_v58 : (⟨S8192x4, .i32⟩ : BufTy).Contents (Elt F) := Host.shrui (t_v53 (F := F)) (t_v57 (F := F))
def t_v59 : (⟨S8192x4, .i32⟩ : BufTy).Contents (Elt F) := ori (t_v56 (F := F)) (t_v58 (F := F))
def t_v60 : (⟨S8192x4, .i32⟩ : BufTy).Contents (Elt F) := xori (t_v54 (F := F)) (t_v59 (F := F))
def t_v61 : (⟨S8192x4, .i32⟩ : BufTy).Contents (Elt F) := addi (t_v54 (F := F)) (t_v60 (F := F))
def t_c_15 : (⟨S_, .i32⟩ : BufTy).Contents (Elt F) := (constantI S_ 32 24#32)
def t_v62 : (⟨S8192x4, .i32⟩ : BufTy).Contents (Elt F) := (broadcastInDim S8192x4 ![] bcast_S_S8192x4) (t_c_15 (F := F))
def t_v63 : (⟨S8192x4, .i32⟩ : BufTy).Contents (Elt F) := Host.shli (t_v60 (F := F)) (t_v62 (F := F))
def t_c_16 : (⟨S_, .i32⟩ : BufTy).Contents (Elt F) := (constantI S_ 32 8#32)
def t_v64 : (⟨S8192x4, .i32⟩ : BufTy).Contents (Elt F) := (broadcastInDim S8192x4 ![] bcast_S_S8192x4) (t_c_16 (F := F))
def t_v65 : (⟨S8192x4, .i32⟩ : BufTy).Contents (Elt F) := Host.shrui (t_v60 (F := F)) (t_v64 (F := F))
def t_v66 : (⟨S8192x4, .i32⟩ : BufTy).Contents (Elt F) := ori (t_v63 (F := F)) (t_v65 (F := F))
def t_v67 : (⟨S8192x4, .i32⟩ : BufTy).Contents (Elt F) := xori (t_v61 (F := F)) (t_v66 (F := F))
def t_v68 : (⟨S8192x4, .i32⟩ : BufTy).Contents (Elt F) := (broadcastInDim S8192x4 ![] bcast_S_S8192x4) (t_v1 (F := F))
def t_v69 : (⟨S8192x4, .i32⟩ : BufTy).Contents (Elt F) := addi (t_v61 (F := F)) (t_v68 (F := F))
def t_v70 : (⟨S8192x4, .i32⟩ : BufTy).Contents (Elt F) := (broadcastInDim S8192x4 ![] bcast_S_S8192x4) (u_v5 (F := F))
def t_v71 : (⟨S8192x4, .i32⟩ : BufTy).Contents (Elt F) := addi (t_v67 (F := F)) (t_v70 (F := F))
def t_c_17 : (⟨S_, .i32⟩ : BufTy).Contents (Elt F) := (constantI S_ 32 2#32)
def t_v72 : (⟨S8192x4, .i32⟩ : BufTy).Contents (Elt F) := (broadcastInDim S8192x4 ![] bcast_S_S8192x4) (t_c_17 (F := F))
def t_v73 : (⟨S8192x4, .i32⟩ : BufTy).Contents (Elt F) := addi (t_v71 (F := F)) (t_v72 (F := F))
def t_v74 : (⟨S8192x4, .i32⟩ : BufTy).Contents (Elt F) := addi (t_v69 (F := F)) (t_v73 (F := F))
def t_c_18 : (⟨S_, .i32⟩ : BufTy).Contents (Elt F) := (constantI S_ 32 13#32)
def t_v75 : (⟨S8192x4, .i32⟩ : BufTy).Contents (Elt F) := (broadcastInDim S8192x4 ![] bcast_S_S8192x4) (t_c_18 (F := F))
def t_v76 : (⟨S8192x4, .i32⟩ : BufTy).Contents (Elt F) := Host.shli (t_v73 (F := F)) (t_v75 (F := F))
def t_c_19 : (⟨S_, .i32⟩ : BufTy).Contents (Elt F) := (constantI S_ 32 19#32)
def t_v77 : (⟨S8192x4, .i32⟩ : BufTy).Contents (Elt F) := (broadcastInDim S8192x4 ![] bcast_S_S8192x4) (t_c_19 (F := F))
def t_v78 : (⟨S8192x4, .i32⟩ : BufTy).Contents (Elt F) := Host.shrui (t_v73 (F := F)) (t_v77 (F := F))
def t_v79 : (⟨S8192x4, .i32⟩ : BufTy).Contents (Elt F) := ori (t_v76 (F := F)) (t_v78 (F := F))
def t_v80 : (⟨S8192x4, .i32⟩ : BufTy).Contents (Elt F) := xori (t_v74 (F := F)) (t_v79 (F := F))
def t_v81 : (⟨S8192x4, .i32⟩ : BufTy).Contents (Elt F) := addi (t_v74 (F := F)) (t_v80 (F := F))
def t_c_20 : (⟨S_, .i32⟩ : BufTy).Contents (Elt F) := (constantI S_ 32 15#32)
def t_v82 : (⟨S8192x4, .i32⟩ : BufTy).Contents (Elt F) := (broadcastInDim S8192x4 ![] bcast_S_S8192x4) (t_c_20 (F := F))
def t_v83 : (⟨S8192x4, .i32⟩ : BufTy).Contents (Elt F) := Host.shli (t_v80 (F := F)) (t_v82 (F := F))
def t_c_21 : (⟨S_, .i32⟩ : BufTy).Contents (Elt F) := (constantI S_ 32 17#32)
def t_v84 : (⟨S8192x4, .i32⟩ : BufTy).Contents (Elt F) := (broadcastInDim S8192x4 ![] bcast_S_S8192x4) (t_c_21 (F := F))
def t_v85 : (⟨S8192x4, .i32⟩ : BufTy).Contents (Elt F) := Host.shrui (t_v80 (F := F)) (t_v84 (F := F))
def t_v86 : (⟨S8192x4, .i32⟩ : BufTy).Contents (Elt F) := ori (t_v83 (F := F)) (t_v85 (F := F))
def t_v87 : (⟨S8192x4, .i32⟩ : BufTy).Contents (Elt F) := xori (t_v81 (F := F)) (t_v86 (F := F))
def t_v88 : (⟨S8192x4, .i32⟩ : BufTy).Contents (Elt F) := addi (t_v81 (F := F)) (t_v87 (F := F))
def t_c_22 : (⟨S_, .i32⟩ : BufTy).Contents (Elt F) := (constantI S_ 32 26#32)
def t_v89 : (⟨S8192x4, .i32⟩ : BufTy).Contents (Elt F) := (broadcastInDim S8192x4 ![] bcast_S_S8192x4) (t_c_22 (F := F))
def t_v90 : (⟨S8192x4, .i32⟩ : BufTy).Contents (Elt F) := Host.shli (t_v87 (F := F)) (t_v89 (F := F))
def t_c_23 : (⟨S_, .i32⟩ : BufTy).Contents (Elt F) := (constantI S_ 32 6#32)
def t_v91 : (⟨S8192x4, .i32⟩ : BufTy).Contents (Elt F) := (broadcastInDim S8192x4 ![] bcast_S_S8192x4) (t_c_23 (F := F))
def t_v92 : (⟨S8192x4, .i32⟩ : BufTy).Contents (Elt F) := Host.shrui (t_v87 (F := F)) (t_v91 (F := F))
def t_v93 : (⟨S8192x4, .i32⟩ : BufTy).Contents (Elt F) := ori (t_v90 (F := F)) (t_v92 (F := F))
def t_v94 : (⟨S8192x4, .i32⟩ : BufTy).Contents (Elt F) := xori (t_v88 (F := F)) (t_v93 (F := F))
def t_v95 : (⟨S8192x4, .i32⟩ : BufTy).Contents (Elt F) := addi (t_v88 (F := F)) (t_v94 (F := F))
def t_c_24 : (⟨S_, .i32⟩ : BufTy).Contents (Elt F) := (constantI S_ 32 6#32)
def t_v96 : (⟨S8192x4, .i32⟩ : BufTy).Contents (Elt F) := (broadcastInDim S8192x4 ![] bcast_S_S8192x4) (t_c_24 (F := F))
def t_v97 : (⟨S8192x4, .i32⟩ : BufTy).Contents (Elt F) := Host.shli (t_v94 (F := F)) (t_v96 (F := F))
def t_c_25 : (⟨S_, .i32⟩ : BufTy).Contents (Elt F) := (constantI S_ 32 26#32)
def t_v98 : (⟨S8192x4, .i32⟩ : BufTy).Contents (Elt F) := (broadcastInDim S8192x4 ![] bcast_S_S8192x4) (t_c_25 (F := F))
def t_v99 : (⟨S8192x4, .i32⟩ : BufTy).Contents (Elt F) := Host.shrui (t_v94 (F := F)) (t_v98 (F := F))
def t_v100 : (⟨S8192x4, .i32⟩ : BufTy).Contents (Elt F) := ori (t_v97 (F := F)) (t_v99 (F := F))
def t_v101 : (⟨S8192x4, .i32⟩ : BufTy).Contents (Elt F) := xori (t_v95 (F := F)) (t_v100 (F := F))
def t_v102 : (⟨S8192x4, .i32⟩ : BufTy).Contents (Elt F) := (broadcastInDim S8192x4 ![] bcast_S_S8192x4) (u_v5 (F := F))
def t_v103 : (⟨S8192x4, .i32⟩ : BufTy).Contents (Elt F) := addi (t_v95 (F := F)) (t_v102 (F := F))
def t_v104 : (⟨S8192x4, .i32⟩ : BufTy).Contents (Elt F) := (broadcastInDim S8192x4 ![] bcast_S_S8192x4) (u_v7 (F := F))
def t_v105 : (⟨S8192x4, .i32⟩ : BufTy).Contents (Elt F) := addi (t_v101 (F := F)) (t_v104 (F := F))
def t_c_26 : (⟨S_, .i32⟩ : BufTy).Contents (Elt F) := (constantI S_ 32 3#32)
def t_v106 : (⟨S8192x4, .i32⟩ : BufTy).Contents (Elt F) := (broadcastInDim S8192x4 ![] bcast_S_S8192x4) (t_c_26 (F := F))
def t_v107 : (⟨S8192x4, .i32⟩ : BufTy).Contents (Elt F) := addi (t_v105 (F := F)) (t_v106 (F := F))
def t_v108 : (⟨S8192x4, .i32⟩ : BufTy).Contents (Elt F) := addi (t_v103 (F := F)) (t_v107 (F := F))
def t_c_27 : (⟨S_, .i32⟩ : BufTy).Contents (Elt F) := (constantI S_ 32 17#32)
def t_v109 : (⟨S8192x4, .i32⟩ : BufTy).Contents (Elt F) := (broadcastInDim S8192x4 ![] bcast_S_S8192x4) (t_c_27 (F := F))
def t_v110 : (⟨S8192x4, .i32⟩ : BufTy).Contents (Elt F) := Host.shli (t_v107 (F := F)) (t_v109 (F := F))
def t_c_28 : (⟨S_, .i32⟩ : BufTy).Contents (Elt F) := (constantI S_ 32 15#32)
def t_v111 : (⟨S8192x4, .i32⟩ : BufTy).Contents (Elt F) := (broadcastInDim S8192x4 ![] bcast_S_S8192x4) (t_c_28 (F := F))
def t_v112 : (⟨S8192x4, .i32⟩ : BufTy).Contents (Elt F) := Host.shrui (t_v107 (F := F)) (t_v111 (F := F))
def t_v113 : (⟨S8192x4, .i32⟩ : BufTy).Contents (Elt F) := ori (t_v110 (F := F)) (t_v112 (F := F))
def t_v114 : (⟨S8192x4, .i32⟩ : BufTy).Contents (Elt F) := xori (t_v108 (F := F)) (t_v113 (F := F))
def t_v115 : (⟨S8192x4, .i32⟩ : BufTy).Contents (Elt F) := addi (t_v108 (F := F)) (t_v114 (F := F))
def t_c_29 : (⟨S_, .i32⟩ : BufTy).Contents (Elt F) := (constantI S_ 32 29#32)
def t_v116 : (⟨S8192x4, .i32⟩ : BufTy).Contents (Elt F) := (broadcastInDim S8192x4 ![] bcast_S_S8192x4) (t_c_29 (F := F))
def t_v117 : (⟨S8192x4, .i32⟩ : BufTy).Contents (Elt F) := Host.shli (t_v114 (F := F)) (t_v116 (F := F))
def t_c_30 : (⟨S_, .i32⟩ : BufTy).Contents (Elt F) := (constantI S_ 32 3#32)
def t_v118 : (⟨S8192x4, .i32⟩ : BufTy).Contents (Elt F) := (broadcastInDim S8192x4 ![] bcast_S_S8192x4) (t_c_30 (F := F))
def t_v119 : (⟨S8192x4, .i32⟩ : BufTy).Contents (Elt F) := Host.shrui (t_v114 (F := F)) (t_v118 (F := F))
def t_v120 : (⟨S8192x4, .i32⟩ : BufTy).Contents (Elt F) := ori (t_v117 (F := F)) (t_v119 (F := F))
def t_v121 : (⟨S8192x4, .i32⟩ : BufTy).Contents (Elt F) := xori (t_v115 (F := F)) (t_v120 (F := F))
def t_v122 : (⟨S8192x4, .i32⟩ : BufTy).Contents (Elt F) := addi (t_v115 (F := F)) (t_v121 (F := F))
def t_c_31 : (⟨S_, .i32⟩ : BufTy).Contents (Elt F) := (constantI S_ 32 16#32)
def t_v123 : (⟨S8192x4, .i32⟩ : BufTy).Contents (Elt F) := (broadcastInDim S8192x4 ![] bcast_S_S8192x4) (t_c_31 (F := F))
def t_v124 : (⟨S8192x4, .i32⟩ : BufTy).Contents (Elt F) := Host.shli (t_v121 (F := F)) (t_v123 (F := F))
def t_c_32 : (⟨S_, .i32⟩ : BufTy).Contents (Elt F) := (constantI S_ 32 16#32)
def t_v125 : (⟨S8192x4, .i32⟩ : BufTy).Contents (Elt F) := (broadcastInDim S8192x4 ![] bcast_S_S8192x4) (t_c_32 (F := F))
def t_v126 : (⟨S8192x4, .i32⟩ : BufTy).Contents (Elt F) := Host.shrui (t_v121 (F := F)) (t_v125 (F := F))
def t_v127 : (⟨S8192x4, .i32⟩ : BufTy).Contents (Elt F) := ori (t_v124 (F := F)) (t_v126 (F := F))
def t_v128 : (⟨S8192x4, .i32⟩ : BufTy).Contents (Elt F) := xori (t_v122 (F := F)) (t_v127 (F := F))
def t_v129 : (⟨S8192x4, .i32⟩ : BufTy).Contents (Elt F) := addi (t_v122 (F := F)) (t_v128 (F := F))
def t_c_33 : (⟨S_, .i32⟩ : BufTy).Contents (Elt F) := (constantI S_ 32 24#32)
def t_v130 : (⟨S8192x4, .i32⟩ : BufTy).Contents (Elt F) := (broadcastInDim S8192x4 ![] bcast_S_S8192x4) (t_c_33 (F := F))
def t_v131 : (⟨S8192x4, .i32⟩ : BufTy).Contents (Elt F) := Host.shli (t_v128 (F := F)) (t_v130 (F := F))
def t_c_34 : (⟨S_, .i32⟩ : BufTy).Contents (Elt F) := (constantI S_ 32 8#32)
def t_v132 : (⟨S8192x4, .i32⟩ : BufTy).Contents (Elt F) := (broadcastInDim S8192x4 ![] bcast_S_S8192x4) (t_c_34 (F := F))
def t_v133 : (⟨S8192x4, .i32⟩ : BufTy).Contents (Elt F) := Host.shrui (t_v128 (F := F)) (t_v132 (F := F))
def t_v134 : (⟨S8192x4, .i32⟩ : BufTy).Contents (Elt F) := ori (t_v131 (F := F)) (t_v133 (F := F))
def t_v135 : (⟨S8192x4, .i32⟩ : BufTy).Contents (Elt F) := xori (t_v129 (F := F)) (t_v134 (F := F))
def t_v136 : (⟨S8192x4, .i32⟩ : BufTy).Contents (Elt F) := (broadcastInDim S8192x4 ![] bcast_S_S8192x4) (u_v7 (F := F))
def t_v137 : (⟨S8192x4, .i32⟩ : BufTy).Contents (Elt F) := addi (t_v129 (F := F)) (t_v136 (F := F))
def t_v138 : (⟨S8192x4, .i32⟩ : BufTy).Contents (Elt F) := (broadcastInDim S8192x4 ![] bcast_S_S8192x4) (t_v1 (F := F))
def t_v139 : (⟨S8192x4, .i32⟩ : BufTy).Contents (Elt F) := addi (t_v135 (F := F)) (t_v138 (F := F))
def t_c_35 : (⟨S_, .i32⟩ : BufTy).Contents (Elt F) := (constantI S_ 32 4#32)
def t_v140 : (⟨S8192x4, .i32⟩ : BufTy).Contents (Elt F) := (broadcastInDim S8192x4 ![] bcast_S_S8192x4) (t_c_35 (F := F))
def t_v141 : (⟨S8192x4, .i32⟩ : BufTy).Contents (Elt F) := addi (t_v139 (F := F)) (t_v140 (F := F))
def t_v142 : (⟨S8192x4, .i32⟩ : BufTy).Contents (Elt F) := addi (t_v137 (F := F)) (t_v141 (F := F))
def t_c_36 : (⟨S_, .i32⟩ : BufTy).Contents (Elt F) := (constantI S_ 32 13#32)
def t_v143 : (⟨S8192x4, .i32⟩ : BufTy).Contents (Elt F) := (broadcastInDim S8192x4 ![] bcast_S_S8192x4) (t_c_36 (F := F))
def t_v144 : (⟨S8192x4, .i32⟩ : BufTy).Contents (Elt F) := Host.shli (t_v141 (F := F)) (t_v143 (F := F))
def t_c_37 : (⟨S_, .i32⟩ : BufTy).Contents (Elt F) := (constantI S_ 32 19#32)
def t_v145 : (⟨S8192x4, .i32⟩ : BufTy).Contents (Elt F) := (broadcastInDim S8192x4 ![] bcast_S_S8192x4) (t_c_37 (F := F))
def t_v146 : (⟨S8192x4, .i32⟩ : BufTy).Contents (Elt F) := Host.shrui (t_v141 (F := F)) (t_v145 (F := F))
def t_v147 : (⟨S8192x4, .i32⟩ : BufTy).Contents (Elt F) := ori (t_v144 (F := F)) (t_v146 (F := F))
def t_v148 : (⟨S8192x4, .i32⟩ : BufTy).Contents (Elt F) := xori (t_v142 (F := F)) (t_v147 (F := F))
def t_v149 : (⟨S8192x4, .i32⟩ : BufTy).Contents (Elt F) := addi (t_v142 (F := F)) (t_v148 (F := F))
def t_c_38 : (⟨S_, .i32⟩ : BufTy).Contents (Elt F) := (constantI S_ 32 15#32)
def t_v150 : (⟨S8192x4, .i32⟩ : BufTy).Contents (Elt F) := (broadcastInDim S8192x4 ![] bcast_S_S8192x4) (t_c_38 (F := F))
def t_v151 : (⟨S8192x4, .i32⟩ : BufTy).Contents (Elt F) := Host.shli (t_v148 (F := F)) (t_v150 (F := F))
def t_c_39 : (⟨S_, .i32⟩ : BufTy).Contents (Elt F) := (constantI S_ 32 17#32)
def t_v152 : (⟨S8192x4, .i32⟩ : BufTy).Contents (Elt F) := (broadcastInDim S8192x4 ![] bcast_S_S8192x4) (t_c_39 (F := F))
def t_v153 : (⟨S8192x4, .i32⟩ : BufTy).Contents (Elt F) := Host.shrui (t_v148 (F := F)) (t_v152 (F := F))
def t_v154 : (⟨S8192x4, .i32⟩ : BufTy).Contents (Elt F) := ori (t_v151 (F := F)) (t_v153 (F := F))
def t_v155 : (⟨S8192x4, .i32⟩ : BufTy).Contents (Elt F) := xori (t_v149 (F := F)) (t_v154 (F := F))
def t_v156 : (⟨S8192x4, .i32⟩ : BufTy).Contents (Elt F) := addi (t_v149 (F := F)) (t_v155 (F := F))
def t_c_40 : (⟨S_, .i32⟩ : BufTy).Contents (Elt F) := (constantI S_ 32 26#32)
def t_v157 : (⟨S8192x4, .i32⟩ : BufTy).Contents (Elt F) := (broadcastInDim S8192x4 ![] bcast_S_S8192x4) (t_c_40 (F := F))
def t_v158 : (⟨S8192x4, .i32⟩ : BufTy).Contents (Elt F) := Host.shli (t_v155 (F := F)) (t_v157 (F := F))
def t_c_41 : (⟨S_, .i32⟩ : BufTy).Contents (Elt F) := (constantI S_ 32 6#32)
def t_v159 : (⟨S8192x4, .i32⟩ : BufTy).Contents (Elt F) := (broadcastInDim S8192x4 ![] bcast_S_S8192x4) (t_c_41 (F := F))
def t_v160 : (⟨S8192x4, .i32⟩ : BufTy).Contents (Elt F) := Host.shrui (t_v155 (F := F)) (t_v159 (F := F))
def t_v161 : (⟨S8192x4, .i32⟩ : BufTy).Contents (Elt F) := ori (t_v158 (F := F)) (t_v160 (F := F))
def t_v162 : (⟨S8192x4, .i32⟩ : BufTy).Contents (Elt F) := xori (t_v156 (F := F)) (t_v161 (F := F))
def t_v163 : (⟨S8192x4, .i32⟩ : BufTy).Contents (Elt F) := addi (t_v156 (F := F)) (t_v162 (F := F))
def t_c_42 : (⟨S_, .i32⟩ : BufTy).Contents (Elt F) := (constantI S_ 32 6#32)
def t_v164 : (⟨S8192x4, .i32⟩ : BufTy).Contents (Elt F) := (broadcastInDim S8192x4 ![] bcast_S_S8192x4) (t_c_42 (F := F))
def t_v165 : (⟨S8192x4, .i32⟩ : BufTy).Contents (Elt F) := Host.shli (t_v162 (F := F)) (t_v164 (F := F))
def t_c_43 : (⟨S_, .i32⟩ : BufTy).Contents (Elt F) := (constantI S_ 32 26#32)
def t_v166 : (⟨S8192x4, .i32⟩ : BufTy).Contents (Elt F) := (broadcastInDim S8192x4 ![] bcast_S_S8192x4) (t_c_43 (F := F))
def t_v167 : (⟨S8192x4, .i32⟩ : BufTy).Contents (Elt F) := Host.shrui (t_v162 (F := F)) (t_v166 (F := F))
def t_v168 : (⟨S8192x4, .i32⟩ : BufTy).Contents (Elt F) := ori (t_v165 (F := F)) (t_v167 (F := F))
def t_v169 : (⟨S8192x4, .i32⟩ : BufTy).Contents (Elt F) := xori (t_v163 (F := F)) (t_v168 (F := F))
def t_v170 : (⟨S8192x4, .i32⟩ : BufTy).Contents (Elt F) := (broadcastInDim S8192x4 ![] bcast_S_S8192x4) (t_v1 (F := F))
def t_v171 : (⟨S8192x4, .i32⟩ : BufTy).Contents (Elt F) := addi (t_v163 (F := F)) (t_v170 (F := F))
def t_v172 : (⟨S8192x4, .i32⟩ : BufTy).Contents (Elt F) := (broadcastInDim S8192x4 ![] bcast_S_S8192x4) (u_v5 (F := F))
def t_v173 : (⟨S8192x4, .i32⟩ : BufTy).Contents (Elt F) := addi (t_v169 (F := F)) (t_v172 (F := F))
def t_c_44 : (⟨S_, .i32⟩ : BufTy).Contents (Elt F) := (constantI S_ 32 5#32)
def t_v174 : (⟨S8192x4, .i32⟩ : BufTy).Contents (Elt F) := (broadcastInDim S8192x4 ![] bcast_S_S8192x4) (t_c_44 (F := F))
def t_v175 : (⟨S8192x4, .i32⟩ : BufTy).Contents (Elt F) := addi (t_v173 (F := F)) (t_v174 (F := F))
def u_v20 : (⟨S8192x4, .i32⟩ : BufTy).Contents (Elt F) := xori (t_v171 (F := F)) (t_v175 (F := F))
def u_c_2 : (⟨S_, .i32⟩ : BufTy).Contents (Elt F) := (constantI S_ 32 9#32)
def u_v21 : (⟨S8192x4, .i32⟩ : BufTy).Contents (Elt F) := (broadcastInDim S8192x4 ![] bcast_S_S8192x4) (u_c_2 (F := F))
def u_v22 : (⟨S8192x4, .i32⟩ : BufTy).Contents (Elt F) := Host.shrui (u_v20 (F := F)) (u_v21 (F := F))
def u_c_3 : (⟨S_, .i32⟩ : BufTy).Contents (Elt F) := (constantI S_ 32 1065353216#32)
def u_v23 : (⟨S8192x4, .i32⟩ : BufTy).Contents (Elt F) := (broadcastInDim S8192x4 ![] bcast_S_S8192x4) (u_c_3 (F := F))
def u_v24 : (⟨S8192x4, .i32⟩ : BufTy).Contents (Elt F) := ori (u_v22 (F := F)) (u_v23 (F := F))
def u_v25 : (⟨S8192x4, .f32⟩ : BufTy).Contents (Elt F) := (bitcastToFloat .f32) (u_v24 (F := F))
def u_cst : (⟨S_, .f32⟩ : BufTy).Contents (Elt F) := (constant S_ .f32 0x3F800000#32)
def u_v26 : (⟨S8192x4, .f32⟩ : BufTy).Contents (Elt F) := (broadcastInDim S8192x4 ![] bcast_S_S8192x4) (u_cst (F := F))
def u_v27 : (⟨S8192x4, .f32⟩ : BufTy).Contents (Elt F) := subf (u_v25 (F := F)) (u_v26 (F := F))
def u_v28 : (⟨S1x1, .f32⟩ : BufTy).Contents (Elt F) := subf (u_v3 (F := F)) (u_v2 (F := F))
def u_v29 : (⟨S8192x4, .f32⟩ : BufTy).Contents (Elt F) := (broadcastInDim S8192x4 ![0, 1] bcast_S1x1_S8192x4_0_1) (u_v28 (F := F))
def u_v30 : (⟨S8192x4, .f32⟩ : BufTy).Contents (Elt F) := mulf (u_v27 (F := F)) (u_v29 (F := F))
def u_v31 : (⟨S8192x4, .f32⟩ : BufTy).Contents (Elt F) := (broadcastInDim S8192x4 ![0, 1] bcast_S1x1_S8192x4_0_1) (u_v2 (F := F))
def u_v32 : (⟨S8192x4, .f32⟩ : BufTy).Contents (Elt F) := addf (u_v30 (F := F)) (u_v31 (F := F))
def u_v33 : (⟨S8192x4, .f32⟩ : BufTy).Contents (Elt F) := (broadcastInDim S8192x4 ![0, 1] bcast_S1x1_S8192x4_0_1) (u_v2 (F := F))
def u_v34 : (⟨S8192x4, .f32⟩ : BufTy).Contents (Elt F) := maximumf (u_v33 (F := F)) (u_v32 (F := F))
def b_v1 : (⟨S8192x4, .f32⟩ : BufTy).Contents (Elt F) := (broadcastInDim S8192x4 ![] bcast_S_S8192x4) (m10 (F := F))
def b_v2 : (⟨S8192x4, .i1⟩ : BufTy).Contents (Elt F) := (cmpf .olt) (u_v34 (F := F)) (b_v1 (F := F))

/-- The mask: the Bernoulli function's result, one bit per (sequence position, batch row). -/
def mask : IVec S8192x4 1 := b_v2 (F := F)

end Cert.HostMask

end
-- ==== Proof.HostRows.lean ====
import Idealize.ShloMosaic.Lib.StableHlo.Run

/-! # Which buffer holds which value, along a straight line of host operations

A table of (buffer, value) pairs holds of a valuation when every listed buffer has its listed contents. One host
operation extends a table that holds by its result buffer with the printed function's value at the listed contents of its
operands, provided the result buffer is new to the table (static single assignment: no listed buffer is overwritten).
The list of the table's buffers is carried beside it as a closed list, so that newness is decided over references. -/

namespace Cert.HostRows

open Idealize.ShloMosaic Idealize.ShloMosaic.StableHlo

variable {τ : Topo} {sig : RefSig} {Val : EltTy → Type}

/-- Running two lines one after the other is running their concatenation. -/
theorem after_app : ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

/-- A TensorCore buffer with contents of its type. -/
structure Row (sig : RefSig) (Val : EltTy → Type) where
  ref : Ref sig .tc
  val : ref.ty.Contents Val

/-- Every listed buffer holds its listed contents; refs is the list of the listed buffers. -/
def Holds (V : Valuation τ sig Val) (refs : List (Ref sig .tc)) (rows : List (Row sig Val)) : Prop :=
  rows.map Row.ref = refs ∧ ∀ r ∈ rows, V (Proc.devRef .tc r.ref) = r.val

theorem Holds.get {V : Valuation τ sig Val} {refs rows} (h : Holds V refs rows) {x : Ref sig .tc} {vx : x.ty.Contents Val}
    (hm : (⟨x, vx⟩ : Row sig Val) ∈ rows) : V (Proc.devRef .tc x) = vx := h.2 _ hm

/-- An operation that writes one buffer outside the table leaves the table holding. -/
theorem Holds.skip {V : Valuation τ sig Val} {refs rows} {op : HloOp τ sig Val} (y : Ref sig .tc)
    (hw : op.writes = {Proc.devRef .tc y}) (h : Holds V refs rows) (hy : y ∉ refs) : Holds (op.result V) refs rows :=
  ⟨h.1, fun r hr => (op.result_of_not_mem V (by
      rw [hw, Finset.mem_singleton]
      exact devRef_ne_of_ne fun e => hy (h.1 ▸ e ▸ List.mem_map_of_mem hr))).trans (h.2 r hr)⟩

/-- An operation that writes one buffer outside the table extends it by that buffer at its result. -/
theorem Holds.cons {V : Valuation τ sig Val} {refs rows} {op : HloOp τ sig Val} (y : Ref sig .tc)
    (hw : op.writes = {Proc.devRef .tc y}) (h : Holds V refs rows) (hy : y ∉ refs)
    (vy : y.ty.Contents Val) (hv : op.result V (Proc.devRef .tc y) = vy) :
    Holds (op.result V) (y :: refs) (⟨y, vy⟩ :: rows) :=
  ⟨by rw [List.map_cons, h.1], fun r hr => by
    rcases List.mem_cons.mp hr with rfl | hr
    · exact hv
    · exact (Holds.skip y hw h hy).2 r hr⟩

section Builders

variable {V : Valuation τ sig Val} {refs : List (Ref sig .tc)} {rows : List (Row sig Val)}
variable {x a b c y : Ref sig .tc}

theorem Holds.nullary {v : y.ty.Contents Val} {hy} (h : Holds V refs rows) (hn : y ∉ refs)
    {vy : y.ty.Contents Val} (hv : v = vy) :
    Holds ((nullary (τ := τ) y v hy).result V) (y :: refs) (⟨y, vy⟩ :: rows) :=
  Holds.cons y rfl h hn vy ((nullary_result y v hy V).trans hv)

theorem Holds.unary {f : x.ty.Contents Val → y.ty.Contents Val} {hx hy} (h : Holds V refs rows)
    {vx : x.ty.Contents Val} (mx : (⟨x, vx⟩ : Row sig Val) ∈ rows) (hn : y ∉ refs)
    {vy : y.ty.Contents Val} (hv : f vx = vy) :
    Holds ((unary (τ := τ) x y f hx hy).result V) (y :: refs) (⟨y, vy⟩ :: rows) :=
  Holds.cons y rfl h hn vy ((unary_result x y f hx hy V).trans ((congrArg f (h.get mx)).trans hv))

theorem Holds.binary {f : a.ty.Contents Val → b.ty.Contents Val → y.ty.Contents Val} {ha hb hy} (h : Holds V refs rows)
    {va : a.ty.Contents Val} (ma : (⟨a, va⟩ : Row sig Val) ∈ rows)
    {vb : b.ty.Contents Val} (mb : (⟨b, vb⟩ : Row sig Val) ∈ rows) (hn : y ∉ refs)
    {vy : y.ty.Contents Val} (hv : f va vb = vy) :
    Holds ((binary (τ := τ) a b y f ha hb hy).result V) (y :: refs) (⟨y, vy⟩ :: rows) :=
  Holds.cons y rfl h hn vy ((binary_result a b y f ha hb hy V).trans ((congrArg₂ f (h.get ma) (h.get mb)).trans hv))

theorem Holds.ternary {f : c.ty.Contents Val → a.ty.Contents Val → b.ty.Contents Val → y.ty.Contents Val} {hc ha hb hy}
    (h : Holds V refs rows)
    {vc : c.ty.Contents Val} (mc : (⟨c, vc⟩ : Row sig Val) ∈ rows)
    {va : a.ty.Contents Val} (ma : (⟨a, va⟩ : Row sig Val) ∈ rows)
    {vb : b.ty.Contents Val} (mb : (⟨b, vb⟩ : Row sig Val) ∈ rows) (hn : y ∉ refs)
    {vy : y.ty.Contents Val} (hv : f vc va vb = vy) :
    Holds ((ternary (τ := τ) c a b y f hc ha hb hy).result V) (y :: refs) (⟨y, vy⟩ :: rows) :=
  Holds.cons y rfl h hn vy ((ternary_result c a b y f hc ha hb hy V).trans (by
    rw [h.get mc, h.get ma, h.get mb]; exact hv))

theorem Holds.reshape {he : x.ty.elt = y.ty.elt} {hs : x.ty.shape.ShapeCasts y.ty.shape} {hx hy} (h : Holds V refs rows)
    {vx : x.ty.Contents Val} (mx : (⟨x, vx⟩ : Row sig Val) ∈ rows) (hn : y ∉ refs)
    {vy : y.ty.Contents Val} (hv : (fun i => he ▸ shapeCast y.ty.shape vx hs i) = vy) :
    Holds ((reshape (τ := τ) (Val := Val) x y he hs hx hy).result V) (y :: refs) (⟨y, vy⟩ :: rows) :=
  Holds.cons y rfl h hn vy ((reshape_result x y he hs hx hy V).trans (by rw [h.get mx]; exact hv))

end Builders

/-! A property of every operation of a literal list, one operation at a time. -/

theorem all_nil {α : Type} {p : α → Prop} : ∀ x ∈ ([] : List α), p x := fun _ h => nomatch h
theorem all_cons {α : Type} {p : α → Prop} {a : α} {l : List α} (ha : p a) (hl : ∀ x ∈ l, p x) : ∀ x ∈ a :: l, p x :=
  fun x hx => by
    rcases List.mem_cons.mp hx with rfl | h
    · exact ha
    · exact hl x h
theorem all_app {α : Type} {p : α → Prop} {l₁ l₂ : List α} (h₁ : ∀ x ∈ l₁, p x) (h₂ : ∀ x ∈ l₂, p x) : ∀ x ∈ l₁ ++ l₂, p x :=
  fun x hx => (List.mem_append.mp hx).elim (h₁ x) (h₂ x)

/-- No operation of a literal list of the builders' operations leaves a result undetermined. -/
macro "ops_fresh" : tactic =>
  `(tactic| ((repeat (refine all_cons rfl ?_)); exact all_nil))

/-- Every operation of a literal list of the builders' operations touches TensorCore references only. -/
macro "ops_sub" : tactic =>
  `(tactic| ((repeat (refine all_cons (by simp only [nullary_bufs_sub, unary_bufs_sub, binary_bufs_sub,
      ternary_bufs_sub, reshape_bufs_sub]) ?_)); exact all_nil))

end Cert.HostRows

/-! ## Running a table over a line

The table is run backwards over the line's results, newest first. Which lemma a step takes is read off the operation's
builder, and the operands' rows are found by walking the table; nothing is tried and retracted. Each step then decides its
result buffer new to the table (over closed lists of references) and checks the row's value against the printed
function applied to the operands' listed values, by unfolding the value's name once. -/

namespace Cert.HostRows

open Lean Meta Elab Tactic

/-- The proof that the row of the buffer x is in the table, by walking the table (at most n rows). -/
def findRow : Nat → Expr → Expr → MetaM Expr
  | 0, x, _ => throwError "row not found for {x}"
  | n + 1, x, rows => do
    let rows ← whnfR rows
    match rows.app3? ``List.cons with
    | some (_, r, tl) =>
      let r' ← whnfR r
      let ref := r'.getAppArgs[2]!
      if ← isDefEq ref x then
        mkAppOptM ``List.Mem.head #[none, some r, some tl]
      else
        let p ← findRow n x tl
        mkAppM ``List.Mem.tail #[r, p]
    | none => throwError "row not found for {x}"

/-- The operation of the goal's valuation, its builder's name and arguments, and the rest of the table. -/
def goalOp : TacticM (Name × Array Expr × Expr) := withMainContext do
  let t ← instantiateMVars (← (← getMainGoal).getType)
  unless t.isAppOf ``Cert.HostRows.Holds do throwError "not a table goal"
  let args := t.getAppArgs
  let V' := args[3]!
  unless V'.isAppOf ``Idealize.ShloMosaic.HloOp.result do throwError "no operation left"
  let op ← whnfR (V'.getAppArgs[3]!)
  let some fn := op.getAppFn.constName? | throwError "not a builder: {op}"
  return (fn, op.getAppArgs, args[5]!)

/-- One step of the table over the newest operation, whose row heads the table. -/
elab "holds_step" : tactic => do
  let (fn, a, rows) ← goalOp
  withMainContext do
  let rowsW ← whnfR rows
  let some (_, _, tl) := rowsW.app3? ``List.cons | throwError "empty table"
  let mem (x : Expr) : TacticM (TSyntax `term) := do Term.exprToSyntax (← findRow 4096 x tl)
  if fn == ``Idealize.ShloMosaic.StableHlo.nullary then
    evalTactic (← `(tactic| refine Holds.nullary ?_ (by decide +kernel) rfl))
  else if fn == ``Idealize.ShloMosaic.StableHlo.unary then
    let mx ← mem a[3]!
    evalTactic (← `(tactic| refine Holds.unary ?_ $mx (by decide +kernel) rfl))
  else if fn == ``Idealize.ShloMosaic.StableHlo.binary then
    let ma ← mem a[3]!; let mb ← mem a[4]!
    evalTactic (← `(tactic| refine Holds.binary ?_ $ma $mb (by decide +kernel) rfl))
  else if fn == ``Idealize.ShloMosaic.StableHlo.ternary then
    let mc ← mem a[3]!; let ma ← mem a[4]!; let mb ← mem a[5]!
    evalTactic (← `(tactic| refine Holds.ternary ?_ $mc $ma $mb (by decide +kernel) rfl))
  else if fn == ``Idealize.ShloMosaic.StableHlo.reshape then
    let mx ← mem a[3]!
    evalTactic (← `(tactic| refine Holds.reshape ?_ $mx (by decide +kernel) rfl))
  else throwError "not a builder: {fn}"

/-- One step over the newest operation for a table that does not list its result: the table is kept. -/
elab "holds_pass" : tactic => do
  let (fn, a, _) ← goalOp
  let yi := if fn == ``Idealize.ShloMosaic.StableHlo.nullary then 3
    else if fn == ``Idealize.ShloMosaic.StableHlo.unary then 4
    else if fn == ``Idealize.ShloMosaic.StableHlo.binary then 5
    else if fn == ``Idealize.ShloMosaic.StableHlo.ternary then 6
    else if fn == ``Idealize.ShloMosaic.StableHlo.reshape then 4 else 0
  if yi == 0 then throwError "not a builder: {fn}"
  let y ← Term.exprToSyntax a[yi]!
  evalTactic (← `(tactic| refine Holds.skip $y rfl ?_ (by decide +kernel)))

/-- The whole line: every operation a step, then the table before the line. -/
macro "holds_steps" h:ident : tactic => `(tactic| ((repeat holds_step); exact $h))
/-- The whole line for a table that lists none of its results. -/
macro "holds_skips" h:ident : tactic => `(tactic| ((repeat holds_pass); exact $h))

end Cert.HostRows
-- ==== Proof.KHostIdealTab.lean ====
/- (run in the unit directory; it transcribes the printed lines of the entry function, the calls inlined over their records, and lists which named value each result buffer holds). -/
import proofs.«206558_g86277303042394_cont_sun_m_1099_24_alg».proof.Proof.Gen.KernelIdeal
import proofs.«206558_g86277303042394_cont_sun_m_1099_24_alg».proof.Proof.HostMask
import proofs.«206558_g86277303042394_cont_sun_m_1099_24_alg».proof.Proof.HostRows

/-! # The host operations of the entry function as lists, and the table of their results

The entry function's host operations in printed order, each call replaced by the callee's operations over the call's
record, cut into consecutive chunks where the printed text is cut (by function, and by the windows of the long one);
the value of each result outside the mask chain as a named definition (the mask chain's are those of the mask module);
and per chunk the list of the buffers it writes with the named value each holds afterwards. -/

noncomputable section

namespace Cert.KHostIdeal

open Cert.KernelIdeal Cert.KernelIdeal.Gen Idealize.ShloMosaic Idealize.ShloMosaic.TcCoe Idealize.SL.Sem Idealize.ShloMosaic.StableHlo Cert.HostRows

variable {F : FTy → Type} [FloatOps F]

/-- Chunk 0: 11 operations. -/
abbrev ops0 : List (HloOp τ sig (Elt F)) :=
  [ StableHlo.nullary main_c (constantI S_ 32 42#32),
    StableHlo.nullary main_c_0 (constantI S_ 32 32#32),
    StableHlo.binary main_c main_c_0 main_v0 (Host.shrui : (⟨S_, .i32⟩ : BufTy).Contents (Elt F) → (⟨S_, .i32⟩ : BufTy).Contents (Elt F) → (⟨S_, .i32⟩ : BufTy).Contents (Elt F)),
    StableHlo.unary main_v0 main_v1 (id : (⟨S_, .i32⟩ : BufTy).Contents (Elt F) → (⟨S_, .i32⟩ : BufTy).Contents (Elt F)),
    StableHlo.unary main_v1 main_v2 (broadcastInDim S1 ![] bcast_S_S1 : (⟨S_, .i32⟩ : BufTy).Contents (Elt F) → (⟨S1, .i32⟩ : BufTy).Contents (Elt F)),
    StableHlo.nullary main_c_1 (constantI S_ 32 4294967295#32),
    StableHlo.binary main_c main_c_1 main_v3 (andi : (⟨S_, .i32⟩ : BufTy).Contents (Elt F) → (⟨S_, .i32⟩ : BufTy).Contents (Elt F) → (⟨S_, .i32⟩ : BufTy).Contents (Elt F)),
    StableHlo.unary main_v3 main_v4 (id : (⟨S_, .i32⟩ : BufTy).Contents (Elt F) → (⟨S_, .i32⟩ : BufTy).Contents (Elt F)),
    StableHlo.unary main_v4 main_v5 (broadcastInDim S1 ![] bcast_S_S1 : (⟨S_, .i32⟩ : BufTy).Contents (Elt F) → (⟨S1, .i32⟩ : BufTy).Contents (Elt F)),
    StableHlo.binary main_v2 main_v5 main_v6 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst (constant S_ .f32 0x3DCCCCCD#32) ]
/-- Chunk 1: 2 operations. -/
abbrev ops1 : List (HloOp τ sig (Elt F)) :=
  [ StableHlo.TRef.nullary main_call0.cst (constant S_ .f32 0x00000000#32),
    StableHlo.TRef.nullary main_call0.cst_0 (constant S_ .f32 0x3F800000#32) ]
/-- Chunk 2: 22 operations. -/
abbrev ops2 : List (HloOp τ sig (Elt F)) :=
  [ StableHlo.TRef.unary main_call0.cst main_call0.call0.v0 id,
    StableHlo.TRef.unary main_call0.cst_0 main_call0.call0.v1 id,
    StableHlo.TRef.unary main_call0.call0.v0 main_call0.call0.v2 (broadcastInDim S1x1 ![] bcast_S_S1x1),
    StableHlo.TRef.unary main_call0.call0.v1 main_call0.call0.v3 (broadcastInDim S1x1 ![] bcast_S_S1x1),
    StableHlo.TRef.unary (.of main_v6 : StableHlo.TRef sig ⟨S2, .i32⟩) main_call0.call0.v4 (extractStridedSlice S1 ![0] · slices_S2_S1_0),
    StableHlo.TRef.reshape main_call0.call0.v4 main_call0.call0.v5 rfl shapeCasts_S1_S_,
    StableHlo.TRef.unary (.of main_v6 : StableHlo.TRef sig ⟨S2, .i32⟩) main_call0.call0.v6 (extractStridedSlice S1 ![1] · slices_S2_S1_1),
    StableHlo.TRef.reshape main_call0.call0.v6 main_call0.call0.v7 rfl shapeCasts_S1_S_,
    StableHlo.TRef.nullary main_call0.call0.v8 (iotaInDim S8192x4 64 0),
    StableHlo.TRef.nullary main_call0.call0.v9 (iotaInDim S8192x4 64 1),
    StableHlo.TRef.nullary main_call0.call0.c (constantI S_ 64 4#64),
    StableHlo.TRef.unary main_call0.call0.c main_call0.call0.v10 (broadcastInDim S8192x4 ![] bcast_S_S8192x4),
    StableHlo.TRef.binary main_call0.call0.v10 main_call0.call0.v8 main_call0.call0.v11 muli,
    StableHlo.TRef.nullary main_call0.call0.c_0 (constantI S_ 64 1#64),
    StableHlo.TRef.unary main_call0.call0.c_0 main_call0.call0.v12 (broadcastInDim S8192x4 ![] bcast_S_S8192x4),
    StableHlo.TRef.binary main_call0.call0.v12 main_call0.call0.v9 main_call0.call0.v13 muli,
    StableHlo.TRef.binary main_call0.call0.v11 main_call0.call0.v13 main_call0.call0.v14 addi,
    StableHlo.TRef.nullary main_call0.call0.c_1 (constantI S_ 64 32#64),
    StableHlo.TRef.unary main_call0.call0.c_1 main_call0.call0.v15 (broadcastInDim S8192x4 ![] bcast_S_S8192x4),
    StableHlo.TRef.binary main_call0.call0.v14 main_call0.call0.v15 main_call0.call0.v16 Host.shrui,
    StableHlo.TRef.unary main_call0.call0.v14 main_call0.call0.v17 (trunci 32 · natLt_32_64),
    StableHlo.TRef.unary main_call0.call0.v16 main_call0.call0.v18 (trunci 32 · natLt_32_64) ]
/-- Chunk 3: 60 operations. -/
abbrev ops3 : List (HloOp τ sig (Elt F)) :=
  [ StableHlo.TRef.binary main_call0.call0.v5 main_call0.call0.v7 main_call0.call0.call0.v0 xori,
    StableHlo.TRef.nullary main_call0.call0.call0.c (constantI S_ 32 466688986#32),
    StableHlo.TRef.binary main_call0.call0.call0.v0 main_call0.call0.call0.c main_call0.call0.call0.v1 xori,
    StableHlo.TRef.unary main_call0.call0.v5 main_call0.call0.call0.v2 (broadcastInDim S8192x4 ![] bcast_S_S8192x4),
    StableHlo.TRef.binary main_call0.call0.v18 main_call0.call0.call0.v2 main_call0.call0.call0.v3 addi,
    StableHlo.TRef.unary main_call0.call0.v7 main_call0.call0.call0.v4 (broadcastInDim S8192x4 ![] bcast_S_S8192x4),
    StableHlo.TRef.binary main_call0.call0.v17 main_call0.call0.call0.v4 main_call0.call0.call0.v5 addi,
    StableHlo.TRef.binary main_call0.call0.call0.v3 main_call0.call0.call0.v5 main_call0.call0.call0.v6 addi,
    StableHlo.TRef.nullary main_call0.call0.call0.c_0 (constantI S_ 32 13#32),
    StableHlo.TRef.unary main_call0.call0.call0.c_0 main_call0.call0.call0.v7 (broadcastInDim S8192x4 ![] bcast_S_S8192x4),
    StableHlo.TRef.binary main_call0.call0.call0.v5 main_call0.call0.call0.v7 main_call0.call0.call0.v8 Host.shli,
    StableHlo.TRef.nullary main_call0.call0.call0.c_1 (constantI S_ 32 19#32),
    StableHlo.TRef.unary main_call0.call0.call0.c_1 main_call0.call0.call0.v9 (broadcastInDim S8192x4 ![] bcast_S_S8192x4),
    StableHlo.TRef.binary main_call0.call0.call0.v5 main_call0.call0.call0.v9 main_call0.call0.call0.v10 Host.shrui,
    StableHlo.TRef.binary main_call0.call0.call0.v8 main_call0.call0.call0.v10 main_call0.call0.call0.v11 ori,
    StableHlo.TRef.binary main_call0.call0.call0.v6 main_call0.call0.call0.v11 main_call0.call0.call0.v12 xori,
    StableHlo.TRef.binary main_call0.call0.call0.v6 main_call0.call0.call0.v12 main_call0.call0.call0.v13 addi,
    StableHlo.TRef.nullary main_call0.call0.call0.c_2 (constantI S_ 32 15#32),
    StableHlo.TRef.unary main_call0.call0.call0.c_2 main_call0.call0.call0.v14 (broadcastInDim S8192x4 ![] bcast_S_S8192x4),
    StableHlo.TRef.binary main_call0.call0.call0.v12 main_call0.call0.call0.v14 main_call0.call0.call0.v15 Host.shli,
    StableHlo.TRef.nullary main_call0.call0.call0.c_3 (constantI S_ 32 17#32),
    StableHlo.TRef.unary main_call0.call0.call0.c_3 main_call0.call0.call0.v16 (broadcastInDim S8192x4 ![] bcast_S_S8192x4),
    StableHlo.TRef.binary main_call0.call0.call0.v12 main_call0.call0.call0.v16 main_call0.call0.call0.v17 Host.shrui,
    StableHlo.TRef.binary main_call0.call0.call0.v15 main_call0.call0.call0.v17 main_call0.call0.call0.v18 ori,
    StableHlo.TRef.binary main_call0.call0.call0.v13 main_call0.call0.call0.v18 main_call0.call0.call0.v19 xori,
    StableHlo.TRef.binary main_call0.call0.call0.v13 main_call0.call0.call0.v19 main_call0.call0.call0.v20 addi,
    StableHlo.TRef.nullary main_call0.call0.call0.c_4 (constantI S_ 32 26#32),
    StableHlo.TRef.unary main_call0.call0.call0.c_4 main_call0.call0.call0.v21 (broadcastInDim S8192x4 ![] bcast_S_S8192x4),
    StableHlo.TRef.binary main_call0.call0.call0.v19 main_call0.call0.call0.v21 main_call0.call0.call0.v22 Host.shli,
    StableHlo.TRef.nullary main_call0.call0.call0.c_5 (constantI S_ 32 6#32),
    StableHlo.TRef.unary main_call0.call0.call0.c_5 main_call0.call0.call0.v23 (broadcastInDim S8192x4 ![] bcast_S_S8192x4),
    StableHlo.TRef.binary main_call0.call0.call0.v19 main_call0.call0.call0.v23 main_call0.call0.call0.v24 Host.shrui,
    StableHlo.TRef.binary main_call0.call0.call0.v22 main_call0.call0.call0.v24 main_call0.call0.call0.v25 ori,
    StableHlo.TRef.binary main_call0.call0.call0.v20 main_call0.call0.call0.v25 main_call0.call0.call0.v26 xori,
    StableHlo.TRef.binary main_call0.call0.call0.v20 main_call0.call0.call0.v26 main_call0.call0.call0.v27 addi,
    StableHlo.TRef.nullary main_call0.call0.call0.c_6 (constantI S_ 32 6#32),
    StableHlo.TRef.unary main_call0.call0.call0.c_6 main_call0.call0.call0.v28 (broadcastInDim S8192x4 ![] bcast_S_S8192x4),
    StableHlo.TRef.binary main_call0.call0.call0.v26 main_call0.call0.call0.v28 main_call0.call0.call0.v29 Host.shli,
    StableHlo.TRef.nullary main_call0.call0.call0.c_7 (constantI S_ 32 26#32),
    StableHlo.TRef.unary main_call0.call0.call0.c_7 main_call0.call0.call0.v30 (broadcastInDim S8192x4 ![] bcast_S_S8192x4),
    StableHlo.TRef.binary main_call0.call0.call0.v26 main_call0.call0.call0.v30 main_call0.call0.call0.v31 Host.shrui,
    StableHlo.TRef.binary main_call0.call0.call0.v29 main_call0.call0.call0.v31 main_call0.call0.call0.v32 ori,
    StableHlo.TRef.binary main_call0.call0.call0.v27 main_call0.call0.call0.v32 main_call0.call0.call0.v33 xori,
    StableHlo.TRef.unary main_call0.call0.v7 main_call0.call0.call0.v34 (broadcastInDim S8192x4 ![] bcast_S_S8192x4),
    StableHlo.TRef.binary main_call0.call0.call0.v27 main_call0.call0.call0.v34 main_call0.call0.call0.v35 addi,
    StableHlo.TRef.unary main_call0.call0.call0.v1 main_call0.call0.call0.v36 (broadcastInDim S8192x4 ![] bcast_S_S8192x4),
    StableHlo.TRef.binary main_call0.call0.call0.v33 main_call0.call0.call0.v36 main_call0.call0.call0.v37 addi,
    StableHlo.TRef.nullary main_call0.call0.call0.c_8 (constantI S_ 32 1#32),
    StableHlo.TRef.unary main_call0.call0.call0.c_8 main_call0.call0.call0.v38 (broadcastInDim S8192x4 ![] bcast_S_S8192x4),
    StableHlo.TRef.binary main_call0.call0.call0.v37 main_call0.call0.call0.v38 main_call0.call0.call0.v39 addi,
    StableHlo.TRef.binary main_call0.call0.call0.v35 main_call0.call0.call0.v39 main_call0.call0.call0.v40 addi,
    StableHlo.TRef.nullary main_call0.call0.call0.c_9 (constantI S_ 32 17#32),
    StableHlo.TRef.unary main_call0.call0.call0.c_9 main_call0.call0.call0.v41 (broadcastInDim S8192x4 ![] bcast_S_S8192x4),
    StableHlo.TRef.binary main_call0.call0.call0.v39 main_call0.call0.call0.v41 main_call0.call0.call0.v42 Host.shli,
    StableHlo.TRef.nullary main_call0.call0.call0.c_10 (constantI S_ 32 15#32),
    StableHlo.TRef.unary main_call0.call0.call0.c_10 main_call0.call0.call0.v43 (broadcastInDim S8192x4 ![] bcast_S_S8192x4),
    StableHlo.TRef.binary main_call0.call0.call0.v39 main_call0.call0.call0.v43 main_call0.call0.call0.v44 Host.shrui,
    StableHlo.TRef.binary main_call0.call0.call0.v42 main_call0.call0.call0.v44 main_call0.call0.call0.v45 ori,
    StableHlo.TRef.binary main_call0.call0.call0.v40 main_call0.call0.call0.v45 main_call0.call0.call0.v46 xori,
    StableHlo.TRef.binary main_call0.call0.call0.v40 main_call0.call0.call0.v46 main_call0.call0.call0.v47 addi ]
/-- Chunk 4: 60 operations. -/
abbrev ops4 : List (HloOp τ sig (Elt F)) :=
  [ StableHlo.TRef.nullary main_call0.call0.call0.c_11 (constantI S_ 32 29#32),
    StableHlo.TRef.unary main_call0.call0.call0.c_11 main_call0.call0.call0.v48 (broadcastInDim S8192x4 ![] bcast_S_S8192x4),
    StableHlo.TRef.binary main_call0.call0.call0.v46 main_call0.call0.call0.v48 main_call0.call0.call0.v49 Host.shli,
    StableHlo.TRef.nullary main_call0.call0.call0.c_12 (constantI S_ 32 3#32),
    StableHlo.TRef.unary main_call0.call0.call0.c_12 main_call0.call0.call0.v50 (broadcastInDim S8192x4 ![] bcast_S_S8192x4),
    StableHlo.TRef.binary main_call0.call0.call0.v46 main_call0.call0.call0.v50 main_call0.call0.call0.v51 Host.shrui,
    StableHlo.TRef.binary main_call0.call0.call0.v49 main_call0.call0.call0.v51 main_call0.call0.call0.v52 ori,
    StableHlo.TRef.binary main_call0.call0.call0.v47 main_call0.call0.call0.v52 main_call0.call0.call0.v53 xori,
    StableHlo.TRef.binary main_call0.call0.call0.v47 main_call0.call0.call0.v53 main_call0.call0.call0.v54 addi,
    StableHlo.TRef.nullary main_call0.call0.call0.c_13 (constantI S_ 32 16#32),
    StableHlo.TRef.unary main_call0.call0.call0.c_13 main_call0.call0.call0.v55 (broadcastInDim S8192x4 ![] bcast_S_S8192x4),
    StableHlo.TRef.binary main_call0.call0.call0.v53 main_call0.call0.call0.v55 main_call0.call0.call0.v56 Host.shli,
    StableHlo.TRef.nullary main_call0.call0.call0.c_14 (constantI S_ 32 16#32),
    StableHlo.TRef.unary main_call0.call0.call0.c_14 main_call0.call0.call0.v57 (broadcastInDim S8192x4 ![] bcast_S_S8192x4),
    StableHlo.TRef.binary main_call0.call0.call0.v53 main_call0.call0.call0.v57 main_call0.call0.call0.v58 Host.shrui,
    StableHlo.TRef.binary main_call0.call0.call0.v56 main_call0.call0.call0.v58 main_call0.call0.call0.v59 ori,
    StableHlo.TRef.binary main_call0.call0.call0.v54 main_call0.call0.call0.v59 main_call0.call0.call0.v60 xori,
    StableHlo.TRef.binary main_call0.call0.call0.v54 main_call0.call0.call0.v60 main_call0.call0.call0.v61 addi,
    StableHlo.TRef.nullary main_call0.call0.call0.c_15 (constantI S_ 32 24#32),
    StableHlo.TRef.unary main_call0.call0.call0.c_15 main_call0.call0.call0.v62 (broadcastInDim S8192x4 ![] bcast_S_S8192x4),
    StableHlo.TRef.binary main_call0.call0.call0.v60 main_call0.call0.call0.v62 main_call0.call0.call0.v63 Host.shli,
    StableHlo.TRef.nullary main_call0.call0.call0.c_16 (constantI S_ 32 8#32),
    StableHlo.TRef.unary main_call0.call0.call0.c_16 main_call0.call0.call0.v64 (broadcastInDim S8192x4 ![] bcast_S_S8192x4),
    StableHlo.TRef.binary main_call0.call0.call0.v60 main_call0.call0.call0.v64 main_call0.call0.call0.v65 Host.shrui,
    StableHlo.TRef.binary main_call0.call0.call0.v63 main_call0.call0.call0.v65 main_call0.call0.call0.v66 ori,
    StableHlo.TRef.binary main_call0.call0.call0.v61 main_call0.call0.call0.v66 main_call0.call0.call0.v67 xori,
    StableHlo.TRef.unary main_call0.call0.call0.v1 main_call0.call0.call0.v68 (broadcastInDim S8192x4 ![] bcast_S_S8192x4),
    StableHlo.TRef.binary main_call0.call0.call0.v61 main_call0.call0.call0.v68 main_call0.call0.call0.v69 addi,
    StableHlo.TRef.unary main_call0.call0.v5 main_call0.call0.call0.v70 (broadcastInDim S8192x4 ![] bcast_S_S8192x4),
    StableHlo.TRef.binary main_call0.call0.call0.v67 main_call0.call0.call0.v70 main_call0.call0.call0.v71 addi,
    StableHlo.TRef.nullary main_call0.call0.call0.c_17 (constantI S_ 32 2#32),
    StableHlo.TRef.unary main_call0.call0.call0.c_17 main_call0.call0.call0.v72 (broadcastInDim S8192x4 ![] bcast_S_S8192x4),
    StableHlo.TRef.binary main_call0.call0.call0.v71 main_call0.call0.call0.v72 main_call0.call0.call0.v73 addi,
    StableHlo.TRef.binary main_call0.call0.call0.v69 main_call0.call0.call0.v73 main_call0.call0.call0.v74 addi,
    StableHlo.TRef.nullary main_call0.call0.call0.c_18 (constantI S_ 32 13#32),
    StableHlo.TRef.unary main_call0.call0.call0.c_18 main_call0.call0.call0.v75 (broadcastInDim S8192x4 ![] bcast_S_S8192x4),
    StableHlo.TRef.binary main_call0.call0.call0.v73 main_call0.call0.call0.v75 main_call0.call0.call0.v76 Host.shli,
    StableHlo.TRef.nullary main_call0.call0.call0.c_19 (constantI S_ 32 19#32),
    StableHlo.TRef.unary main_call0.call0.call0.c_19 main_call0.call0.call0.v77 (broadcastInDim S8192x4 ![] bcast_S_S8192x4),
    StableHlo.TRef.binary main_call0.call0.call0.v73 main_call0.call0.call0.v77 main_call0.call0.call0.v78 Host.shrui,
    StableHlo.TRef.binary main_call0.call0.call0.v76 main_call0.call0.call0.v78 main_call0.call0.call0.v79 ori,
    StableHlo.TRef.binary main_call0.call0.call0.v74 main_call0.call0.call0.v79 main_call0.call0.call0.v80 xori,
    StableHlo.TRef.binary main_call0.call0.call0.v74 main_call0.call0.call0.v80 main_call0.call0.call0.v81 addi,
    StableHlo.TRef.nullary main_call0.call0.call0.c_20 (constantI S_ 32 15#32),
    StableHlo.TRef.unary main_call0.call0.call0.c_20 main_call0.call0.call0.v82 (broadcastInDim S8192x4 ![] bcast_S_S8192x4),
    StableHlo.TRef.binary main_call0.call0.call0.v80 main_call0.call0.call0.v82 main_call0.call0.call0.v83 Host.shli,
    StableHlo.TRef.nullary main_call0.call0.call0.c_21 (constantI S_ 32 17#32),
    StableHlo.TRef.unary main_call0.call0.call0.c_21 main_call0.call0.call0.v84 (broadcastInDim S8192x4 ![] bcast_S_S8192x4),
    StableHlo.TRef.binary main_call0.call0.call0.v80 main_call0.call0.call0.v84 main_call0.call0.call0.v85 Host.shrui,
    StableHlo.TRef.binary main_call0.call0.call0.v83 main_call0.call0.call0.v85 main_call0.call0.call0.v86 ori,
    StableHlo.TRef.binary main_call0.call0.call0.v81 main_call0.call0.call0.v86 main_call0.call0.call0.v87 xori,
    StableHlo.TRef.binary main_call0.call0.call0.v81 main_call0.call0.call0.v87 main_call0.call0.call0.v88 addi,
    StableHlo.TRef.nullary main_call0.call0.call0.c_22 (constantI S_ 32 26#32),
    StableHlo.TRef.unary main_call0.call0.call0.c_22 main_call0.call0.call0.v89 (broadcastInDim S8192x4 ![] bcast_S_S8192x4),
    StableHlo.TRef.binary main_call0.call0.call0.v87 main_call0.call0.call0.v89 main_call0.call0.call0.v90 Host.shli,
    StableHlo.TRef.nullary main_call0.call0.call0.c_23 (constantI S_ 32 6#32),
    StableHlo.TRef.unary main_call0.call0.call0.c_23 main_call0.call0.call0.v91 (broadcastInDim S8192x4 ![] bcast_S_S8192x4),
    StableHlo.TRef.binary main_call0.call0.call0.v87 main_call0.call0.call0.v91 main_call0.call0.call0.v92 Host.shrui,
    StableHlo.TRef.binary main_call0.call0.call0.v90 main_call0.call0.call0.v92 main_call0.call0.call0.v93 ori,
    StableHlo.TRef.binary main_call0.call0.call0.v88 main_call0.call0.call0.v93 main_call0.call0.call0.v94 xori ]
/-- Chunk 5: 60 operations. -/
abbrev ops5 : List (HloOp τ sig (Elt F)) :=
  [ StableHlo.TRef.binary main_call0.call0.call0.v88 main_call0.call0.call0.v94 main_call0.call0.call0.v95 addi,
    StableHlo.TRef.nullary main_call0.call0.call0.c_24 (constantI S_ 32 6#32),
    StableHlo.TRef.unary main_call0.call0.call0.c_24 main_call0.call0.call0.v96 (broadcastInDim S8192x4 ![] bcast_S_S8192x4),
    StableHlo.TRef.binary main_call0.call0.call0.v94 main_call0.call0.call0.v96 main_call0.call0.call0.v97 Host.shli,
    StableHlo.TRef.nullary main_call0.call0.call0.c_25 (constantI S_ 32 26#32),
    StableHlo.TRef.unary main_call0.call0.call0.c_25 main_call0.call0.call0.v98 (broadcastInDim S8192x4 ![] bcast_S_S8192x4),
    StableHlo.TRef.binary main_call0.call0.call0.v94 main_call0.call0.call0.v98 main_call0.call0.call0.v99 Host.shrui,
    StableHlo.TRef.binary main_call0.call0.call0.v97 main_call0.call0.call0.v99 main_call0.call0.call0.v100 ori,
    StableHlo.TRef.binary main_call0.call0.call0.v95 main_call0.call0.call0.v100 main_call0.call0.call0.v101 xori,
    StableHlo.TRef.unary main_call0.call0.v5 main_call0.call0.call0.v102 (broadcastInDim S8192x4 ![] bcast_S_S8192x4),
    StableHlo.TRef.binary main_call0.call0.call0.v95 main_call0.call0.call0.v102 main_call0.call0.call0.v103 addi,
    StableHlo.TRef.unary main_call0.call0.v7 main_call0.call0.call0.v104 (broadcastInDim S8192x4 ![] bcast_S_S8192x4),
    StableHlo.TRef.binary main_call0.call0.call0.v101 main_call0.call0.call0.v104 main_call0.call0.call0.v105 addi,
    StableHlo.TRef.nullary main_call0.call0.call0.c_26 (constantI S_ 32 3#32),
    StableHlo.TRef.unary main_call0.call0.call0.c_26 main_call0.call0.call0.v106 (broadcastInDim S8192x4 ![] bcast_S_S8192x4),
    StableHlo.TRef.binary main_call0.call0.call0.v105 main_call0.call0.call0.v106 main_call0.call0.call0.v107 addi,
    StableHlo.TRef.binary main_call0.call0.call0.v103 main_call0.call0.call0.v107 main_call0.call0.call0.v108 addi,
    StableHlo.TRef.nullary main_call0.call0.call0.c_27 (constantI S_ 32 17#32),
    StableHlo.TRef.unary main_call0.call0.call0.c_27 main_call0.call0.call0.v109 (broadcastInDim S8192x4 ![] bcast_S_S8192x4),
    StableHlo.TRef.binary main_call0.call0.call0.v107 main_call0.call0.call0.v109 main_call0.call0.call0.v110 Host.shli,
    StableHlo.TRef.nullary main_call0.call0.call0.c_28 (constantI S_ 32 15#32),
    StableHlo.TRef.unary main_call0.call0.call0.c_28 main_call0.call0.call0.v111 (broadcastInDim S8192x4 ![] bcast_S_S8192x4),
    StableHlo.TRef.binary main_call0.call0.call0.v107 main_call0.call0.call0.v111 main_call0.call0.call0.v112 Host.shrui,
    StableHlo.TRef.binary main_call0.call0.call0.v110 main_call0.call0.call0.v112 main_call0.call0.call0.v113 ori,
    StableHlo.TRef.binary main_call0.call0.call0.v108 main_call0.call0.call0.v113 main_call0.call0.call0.v114 xori,
    StableHlo.TRef.binary main_call0.call0.call0.v108 main_call0.call0.call0.v114 main_call0.call0.call0.v115 addi,
    StableHlo.TRef.nullary main_call0.call0.call0.c_29 (constantI S_ 32 29#32),
    StableHlo.TRef.unary main_call0.call0.call0.c_29 main_call0.call0.call0.v116 (broadcastInDim S8192x4 ![] bcast_S_S8192x4),
    StableHlo.TRef.binary main_call0.call0.call0.v114 main_call0.call0.call0.v116 main_call0.call0.call0.v117 Host.shli,
    StableHlo.TRef.nullary main_call0.call0.call0.c_30 (constantI S_ 32 3#32),
    StableHlo.TRef.unary main_call0.call0.call0.c_30 main_call0.call0.call0.v118 (broadcastInDim S8192x4 ![] bcast_S_S8192x4),
    StableHlo.TRef.binary main_call0.call0.call0.v114 main_call0.call0.call0.v118 main_call0.call0.call0.v119 Host.shrui,
    StableHlo.TRef.binary main_call0.call0.call0.v117 main_call0.call0.call0.v119 main_call0.call0.call0.v120 ori,
    StableHlo.TRef.binary main_call0.call0.call0.v115 main_call0.call0.call0.v120 main_call0.call0.call0.v121 xori,
    StableHlo.TRef.binary main_call0.call0.call0.v115 main_call0.call0.call0.v121 main_call0.call0.call0.v122 addi,
    StableHlo.TRef.nullary main_call0.call0.call0.c_31 (constantI S_ 32 16#32),
    StableHlo.TRef.unary main_call0.call0.call0.c_31 main_call0.call0.call0.v123 (broadcastInDim S8192x4 ![] bcast_S_S8192x4),
    StableHlo.TRef.binary main_call0.call0.call0.v121 main_call0.call0.call0.v123 main_call0.call0.call0.v124 Host.shli,
    StableHlo.TRef.nullary main_call0.call0.call0.c_32 (constantI S_ 32 16#32),
    StableHlo.TRef.unary main_call0.call0.call0.c_32 main_call0.call0.call0.v125 (broadcastInDim S8192x4 ![] bcast_S_S8192x4),
    StableHlo.TRef.binary main_call0.call0.call0.v121 main_call0.call0.call0.v125 main_call0.call0.call0.v126 Host.shrui,
    StableHlo.TRef.binary main_call0.call0.call0.v124 main_call0.call0.call0.v126 main_call0.call0.call0.v127 ori,
    StableHlo.TRef.binary main_call0.call0.call0.v122 main_call0.call0.call0.v127 main_call0.call0.call0.v128 xori,
    StableHlo.TRef.binary main_call0.call0.call0.v122 main_call0.call0.call0.v128 main_call0.call0.call0.v129 addi,
    StableHlo.TRef.nullary main_call0.call0.call0.c_33 (constantI S_ 32 24#32),
    StableHlo.TRef.unary main_call0.call0.call0.c_33 main_call0.call0.call0.v130 (broadcastInDim S8192x4 ![] bcast_S_S8192x4),
    StableHlo.TRef.binary main_call0.call0.call0.v128 main_call0.call0.call0.v130 main_call0.call0.call0.v131 Host.shli,
    StableHlo.TRef.nullary main_call0.call0.call0.c_34 (constantI S_ 32 8#32),
    StableHlo.TRef.unary main_call0.call0.call0.c_34 main_call0.call0.call0.v132 (broadcastInDim S8192x4 ![] bcast_S_S8192x4),
    StableHlo.TRef.binary main_call0.call0.call0.v128 main_call0.call0.call0.v132 main_call0.call0.call0.v133 Host.shrui,
    StableHlo.TRef.binary main_call0.call0.call0.v131 main_call0.call0.call0.v133 main_call0.call0.call0.v134 ori,
    StableHlo.TRef.binary main_call0.call0.call0.v129 main_call0.call0.call0.v134 main_call0.call0.call0.v135 xori,
    StableHlo.TRef.unary main_call0.call0.v7 main_call0.call0.call0.v136 (broadcastInDim S8192x4 ![] bcast_S_S8192x4),
    StableHlo.TRef.binary main_call0.call0.call0.v129 main_call0.call0.call0.v136 main_call0.call0.call0.v137 addi,
    StableHlo.TRef.unary main_call0.call0.call0.v1 main_call0.call0.call0.v138 (broadcastInDim S8192x4 ![] bcast_S_S8192x4),
    StableHlo.TRef.binary main_call0.call0.call0.v135 main_call0.call0.call0.v138 main_call0.call0.call0.v139 addi,
    StableHlo.TRef.nullary main_call0.call0.call0.c_35 (constantI S_ 32 4#32),
    StableHlo.TRef.unary main_call0.call0.call0.c_35 main_call0.call0.call0.v140 (broadcastInDim S8192x4 ![] bcast_S_S8192x4),
    StableHlo.TRef.binary main_call0.call0.call0.v139 main_call0.call0.call0.v140 main_call0.call0.call0.v141 addi,
    StableHlo.TRef.binary main_call0.call0.call0.v137 main_call0.call0.call0.v141 main_call0.call0.call0.v142 addi ]
/-- Chunk 6: 42 operations. -/
abbrev ops6 : List (HloOp τ sig (Elt F)) :=
  [ StableHlo.TRef.nullary main_call0.call0.call0.c_36 (constantI S_ 32 13#32),
    StableHlo.TRef.unary main_call0.call0.call0.c_36 main_call0.call0.call0.v143 (broadcastInDim S8192x4 ![] bcast_S_S8192x4),
    StableHlo.TRef.binary main_call0.call0.call0.v141 main_call0.call0.call0.v143 main_call0.call0.call0.v144 Host.shli,
    StableHlo.TRef.nullary main_call0.call0.call0.c_37 (constantI S_ 32 19#32),
    StableHlo.TRef.unary main_call0.call0.call0.c_37 main_call0.call0.call0.v145 (broadcastInDim S8192x4 ![] bcast_S_S8192x4),
    StableHlo.TRef.binary main_call0.call0.call0.v141 main_call0.call0.call0.v145 main_call0.call0.call0.v146 Host.shrui,
    StableHlo.TRef.binary main_call0.call0.call0.v144 main_call0.call0.call0.v146 main_call0.call0.call0.v147 ori,
    StableHlo.TRef.binary main_call0.call0.call0.v142 main_call0.call0.call0.v147 main_call0.call0.call0.v148 xori,
    StableHlo.TRef.binary main_call0.call0.call0.v142 main_call0.call0.call0.v148 main_call0.call0.call0.v149 addi,
    StableHlo.TRef.nullary main_call0.call0.call0.c_38 (constantI S_ 32 15#32),
    StableHlo.TRef.unary main_call0.call0.call0.c_38 main_call0.call0.call0.v150 (broadcastInDim S8192x4 ![] bcast_S_S8192x4),
    StableHlo.TRef.binary main_call0.call0.call0.v148 main_call0.call0.call0.v150 main_call0.call0.call0.v151 Host.shli,
    StableHlo.TRef.nullary main_call0.call0.call0.c_39 (constantI S_ 32 17#32),
    StableHlo.TRef.unary main_call0.call0.call0.c_39 main_call0.call0.call0.v152 (broadcastInDim S8192x4 ![] bcast_S_S8192x4),
    StableHlo.TRef.binary main_call0.call0.call0.v148 main_call0.call0.call0.v152 main_call0.call0.call0.v153 Host.shrui,
    StableHlo.TRef.binary main_call0.call0.call0.v151 main_call0.call0.call0.v153 main_call0.call0.call0.v154 ori,
    StableHlo.TRef.binary main_call0.call0.call0.v149 main_call0.call0.call0.v154 main_call0.call0.call0.v155 xori,
    StableHlo.TRef.binary main_call0.call0.call0.v149 main_call0.call0.call0.v155 main_call0.call0.call0.v156 addi,
    StableHlo.TRef.nullary main_call0.call0.call0.c_40 (constantI S_ 32 26#32),
    StableHlo.TRef.unary main_call0.call0.call0.c_40 main_call0.call0.call0.v157 (broadcastInDim S8192x4 ![] bcast_S_S8192x4),
    StableHlo.TRef.binary main_call0.call0.call0.v155 main_call0.call0.call0.v157 main_call0.call0.call0.v158 Host.shli,
    StableHlo.TRef.nullary main_call0.call0.call0.c_41 (constantI S_ 32 6#32),
    StableHlo.TRef.unary main_call0.call0.call0.c_41 main_call0.call0.call0.v159 (broadcastInDim S8192x4 ![] bcast_S_S8192x4),
    StableHlo.TRef.binary main_call0.call0.call0.v155 main_call0.call0.call0.v159 main_call0.call0.call0.v160 Host.shrui,
    StableHlo.TRef.binary main_call0.call0.call0.v158 main_call0.call0.call0.v160 main_call0.call0.call0.v161 ori,
    StableHlo.TRef.binary main_call0.call0.call0.v156 main_call0.call0.call0.v161 main_call0.call0.call0.v162 xori,
    StableHlo.TRef.binary main_call0.call0.call0.v156 main_call0.call0.call0.v162 main_call0.call0.call0.v163 addi,
    StableHlo.TRef.nullary main_call0.call0.call0.c_42 (constantI S_ 32 6#32),
    StableHlo.TRef.unary main_call0.call0.call0.c_42 main_call0.call0.call0.v164 (broadcastInDim S8192x4 ![] bcast_S_S8192x4),
    StableHlo.TRef.binary main_call0.call0.call0.v162 main_call0.call0.call0.v164 main_call0.call0.call0.v165 Host.shli,
    StableHlo.TRef.nullary main_call0.call0.call0.c_43 (constantI S_ 32 26#32),
    StableHlo.TRef.unary main_call0.call0.call0.c_43 main_call0.call0.call0.v166 (broadcastInDim S8192x4 ![] bcast_S_S8192x4),
    StableHlo.TRef.binary main_call0.call0.call0.v162 main_call0.call0.call0.v166 main_call0.call0.call0.v167 Host.shrui,
    StableHlo.TRef.binary main_call0.call0.call0.v165 main_call0.call0.call0.v167 main_call0.call0.call0.v168 ori,
    StableHlo.TRef.binary main_call0.call0.call0.v163 main_call0.call0.call0.v168 main_call0.call0.call0.v169 xori,
    StableHlo.TRef.unary main_call0.call0.call0.v1 main_call0.call0.call0.v170 (broadcastInDim S8192x4 ![] bcast_S_S8192x4),
    StableHlo.TRef.binary main_call0.call0.call0.v163 main_call0.call0.call0.v170 main_call0.call0.call0.v171 addi,
    StableHlo.TRef.unary main_call0.call0.v5 main_call0.call0.call0.v172 (broadcastInDim S8192x4 ![] bcast_S_S8192x4),
    StableHlo.TRef.binary main_call0.call0.call0.v169 main_call0.call0.call0.v172 main_call0.call0.call0.v173 addi,
    StableHlo.TRef.nullary main_call0.call0.call0.c_44 (constantI S_ 32 5#32),
    StableHlo.TRef.unary main_call0.call0.call0.c_44 main_call0.call0.call0.v174 (broadcastInDim S8192x4 ![] bcast_S_S8192x4),
    StableHlo.TRef.binary main_call0.call0.call0.v173 main_call0.call0.call0.v174 main_call0.call0.call0.v175 addi ]
/-- Chunk 7: 18 operations. -/
abbrev ops7 : List (HloOp τ sig (Elt F)) :=
  [ StableHlo.TRef.binary main_call0.call0.call0.v171 main_call0.call0.call0.v175 main_call0.call0.v20 xori,
    StableHlo.TRef.nullary main_call0.call0.c_2 (constantI S_ 32 9#32),
    StableHlo.TRef.unary main_call0.call0.c_2 main_call0.call0.v21 (broadcastInDim S8192x4 ![] bcast_S_S8192x4),
    StableHlo.TRef.binary main_call0.call0.v20 main_call0.call0.v21 main_call0.call0.v22 Host.shrui,
    StableHlo.TRef.nullary main_call0.call0.c_3 (constantI S_ 32 1065353216#32),
    StableHlo.TRef.unary main_call0.call0.c_3 main_call0.call0.v23 (broadcastInDim S8192x4 ![] bcast_S_S8192x4),
    StableHlo.TRef.binary main_call0.call0.v22 main_call0.call0.v23 main_call0.call0.v24 ori,
    StableHlo.TRef.unary main_call0.call0.v24 main_call0.call0.v25 (bitcastToFloat .f32),
    StableHlo.TRef.nullary main_call0.call0.cst (constant S_ .f32 0x3F800000#32),
    StableHlo.TRef.unary main_call0.call0.cst main_call0.call0.v26 (broadcastInDim S8192x4 ![] bcast_S_S8192x4),
    StableHlo.TRef.binary main_call0.call0.v25 main_call0.call0.v26 main_call0.call0.v27 subf,
    StableHlo.TRef.binary main_call0.call0.v3 main_call0.call0.v2 main_call0.call0.v28 subf,
    StableHlo.TRef.unary main_call0.call0.v28 main_call0.call0.v29 (broadcastInDim S8192x4 ![0, 1] bcast_S1x1_S8192x4_0_1),
    StableHlo.TRef.binary main_call0.call0.v27 main_call0.call0.v29 main_call0.call0.v30 mulf,
    StableHlo.TRef.unary main_call0.call0.v2 main_call0.call0.v31 (broadcastInDim S8192x4 ![0, 1] bcast_S1x1_S8192x4_0_1),
    StableHlo.TRef.binary main_call0.call0.v30 main_call0.call0.v31 main_call0.call0.v32 addf,
    StableHlo.TRef.unary main_call0.call0.v2 main_call0.call0.v33 (broadcastInDim S8192x4 ![0, 1] bcast_S1x1_S8192x4_0_1),
    StableHlo.TRef.binary main_call0.call0.v33 main_call0.call0.v32 main_call0.call0.v34 maximumf ]
/-- Chunk 8: 2 operations. -/
abbrev ops8 : List (HloOp τ sig (Elt F)) :=
  [ StableHlo.TRef.unary (.of main_cst : StableHlo.TRef sig ⟨S_, .f32⟩) main_call0.v1 (broadcastInDim S8192x4 ![] bcast_S_S8192x4),
    StableHlo.TRef.binary main_call0.call0.v34 main_call0.v1 main_call0.v2 (cmpf .olt) ]
/-- Chunk 9: 12 operations. -/
abbrev ops9 : List (HloOp τ sig (Elt F)) :=
  [ StableHlo.nullary main_cst_2 (constant S_ .f32 0x00000000#32),
    StableHlo.nullary main_cst_3 (constant S_ .f32 0x3F8E38E4#32),
    StableHlo.TRef.unary (.of main_cst_2 : StableHlo.TRef sig ⟨S_, .f32⟩) main_call1.v0 (broadcastInDim S8192x4 ![] bcast_S_S8192x4),
    StableHlo.TRef.unary (.of main_cst_3 : StableHlo.TRef sig ⟨S_, .f32⟩) main_call1.v1 (broadcastInDim S8192x4 ![] bcast_S_S8192x4),
    StableHlo.TRef.ternary (.of main_v7 : StableHlo.TRef sig ⟨S8192x4, .i1⟩) main_call1.v0 main_call1.v1 main_call1.v2 select,
    StableHlo.unary main_v8 main_v9 (id : (⟨S8192x4, .f32⟩ : BufTy).Contents (Elt F) → (⟨S8192x4, .f32⟩ : BufTy).Contents (Elt F)),
    StableHlo.unary main_v9 main_v10 ((transpose S4x8192 [1, 0] · transposes_S8192x4_S4x8192_1_0) : (⟨S8192x4, .f32⟩ : BufTy).Contents (Elt F) → (⟨S4x8192, .f32⟩ : BufTy).Contents (Elt F)),
    StableHlo.reshape main_v10 main_v11 rfl shapeCasts_S4x8192_S32768,
    StableHlo.unary main_v11 main_v12 (broadcastInDim S32768x1 ![0] bcast_S32768_S32768x1_0 : (⟨S32768, .f32⟩ : BufTy).Contents (Elt F) → (⟨S32768x1, .f32⟩ : BufTy).Contents (Elt F)),
    StableHlo.unary main_v12 main_v13 (broadcastInDim S32768x16 ![0, 1] bcast_S32768x1_S32768x16_0_1 : (⟨S32768x1, .f32⟩ : BufTy).Contents (Elt F) → (⟨S32768x16, .f32⟩ : BufTy).Contents (Elt F)),
    StableHlo.reshape main_arg0 main_v14 rfl shapeCasts_S4x8192x1024_S32768x1024,
    StableHlo.reshape main_v13 main_v15 rfl shapeCasts_S32768x16_S4096x128 ]
/-- The operation after the SparseCore call. -/
abbrev opOut : HloOp τ sig (Elt F) :=
  StableHlo.reshape main_v16 main_v17 rfl shapeCasts_S32768x1024_S4x8192x1024
/-- The host operations before the SparseCore call (of the whole @main when there is none), in order, calls inlined: the chunks appended. -/
abbrev hostOps0 : List (HloOp τ sig (Elt F)) :=
  ops0 ++ (ops1 ++ (ops2 ++ (ops3 ++ (ops4 ++ (ops5 ++ (ops6 ++ (ops7 ++ (ops8 ++ (ops9)))))))))

/-! The named values of the results outside the mask chain, over the argument's contents. -/
def v_main_cst_2 : (⟨S_, .f32⟩ : BufTy).Contents (Elt F) := (constant S_ .f32 0x00000000#32)
def v_main_cst_3 : (⟨S_, .f32⟩ : BufTy).Contents (Elt F) := (constant S_ .f32 0x3F8E38E4#32)
def v_main_call1_v0 : (⟨S8192x4, .f32⟩ : BufTy).Contents (Elt F) := (broadcastInDim S8192x4 ![] bcast_S_S8192x4) (v_main_cst_2 (F := F))
def v_main_call1_v1 : (⟨S8192x4, .f32⟩ : BufTy).Contents (Elt F) := (broadcastInDim S8192x4 ![] bcast_S_S8192x4) (v_main_cst_3 (F := F))
def v_main_v8 : (⟨S8192x4, .f32⟩ : BufTy).Contents (Elt F) := select (Cert.HostMask.b_v2 (F := F)) (v_main_call1_v0 (F := F)) (v_main_call1_v1 (F := F))
def v_main_v9 : (⟨S8192x4, .f32⟩ : BufTy).Contents (Elt F) := (id : (⟨S8192x4, .f32⟩ : BufTy).Contents (Elt F) → (⟨S8192x4, .f32⟩ : BufTy).Contents (Elt F)) (v_main_v8 (F := F))
def v_main_v10 : (⟨S4x8192, .f32⟩ : BufTy).Contents (Elt F) := ((transpose S4x8192 [1, 0] · transposes_S8192x4_S4x8192_1_0) : (⟨S8192x4, .f32⟩ : BufTy).Contents (Elt F) → (⟨S4x8192, .f32⟩ : BufTy).Contents (Elt F)) (v_main_v9 (F := F))
def v_main_v11 : (⟨S32768, .f32⟩ : BufTy).Contents (Elt F) := shapeCast S32768 (v_main_v10 (F := F)) shapeCasts_S4x8192_S32768
def v_main_v12 : (⟨S32768x1, .f32⟩ : BufTy).Contents (Elt F) := (broadcastInDim S32768x1 ![0] bcast_S32768_S32768x1_0 : (⟨S32768, .f32⟩ : BufTy).Contents (Elt F) → (⟨S32768x1, .f32⟩ : BufTy).Contents (Elt F)) (v_main_v11 (F := F))
def v_main_v13 : (⟨S32768x16, .f32⟩ : BufTy).Contents (Elt F) := (broadcastInDim S32768x16 ![0, 1] bcast_S32768x1_S32768x16_0_1 : (⟨S32768x1, .f32⟩ : BufTy).Contents (Elt F) → (⟨S32768x16, .f32⟩ : BufTy).Contents (Elt F)) (v_main_v12 (F := F))
def v_main_v14 (x : (⟨S4x8192x1024, .f32⟩ : BufTy).Contents (Elt F)) : (⟨S32768x1024, .f32⟩ : BufTy).Contents (Elt F) := shapeCast S32768x1024 (x) shapeCasts_S4x8192x1024_S32768x1024
def v_main_v15 : (⟨S4096x128, .f32⟩ : BufTy).Contents (Elt F) := shapeCast S4096x128 (v_main_v13 (F := F)) shapeCasts_S32768x16_S4096x128

/-! The buffers written, chunk by chunk (latest first, each list continuing the one before), and which named value each holds. -/
abbrev refsInit : List (Ref sig .tc) := [main_arg0]
abbrev rowsInit (x : (⟨S4x8192x1024, .f32⟩ : BufTy).Contents (Elt F)) : List (Row sig (Elt F)) := [⟨main_arg0, x⟩]
abbrev refs0 : List (Ref sig .tc) :=
  main_cst ::
  main_v6 ::
  main_v5 ::
  main_v4 ::
  main_v3 ::
  main_c_1 ::
  main_v2 ::
  main_v1 ::
  main_v0 ::
  main_c_0 ::
  main_c ::
  refsInit
abbrev rows0 (x : (⟨S4x8192x1024, .f32⟩ : BufTy).Contents (Elt F)) : List (Row sig (Elt F)) :=
  ⟨main_cst, Cert.HostMask.m10 (F := F)⟩ ::
  ⟨main_v6, Cert.HostMask.m9 (F := F)⟩ ::
  ⟨main_v5, Cert.HostMask.m8 (F := F)⟩ ::
  ⟨main_v4, Cert.HostMask.m7 (F := F)⟩ ::
  ⟨main_v3, Cert.HostMask.m6 (F := F)⟩ ::
  ⟨main_c_1, Cert.HostMask.m5 (F := F)⟩ ::
  ⟨main_v2, Cert.HostMask.m4 (F := F)⟩ ::
  ⟨main_v1, Cert.HostMask.m3 (F := F)⟩ ::
  ⟨main_v0, Cert.HostMask.m2 (F := F)⟩ ::
  ⟨main_c_0, Cert.HostMask.m1 (F := F)⟩ ::
  ⟨main_c, Cert.HostMask.m0 (F := F)⟩ ::
  rowsInit x
abbrev refs1 : List (Ref sig .tc) :=
  main_call0_cst_0 ::
  main_call0_cst ::
  refs0
abbrev rows1 (x : (⟨S4x8192x1024, .f32⟩ : BufTy).Contents (Elt F)) : List (Row sig (Elt F)) :=
  ⟨main_call0_cst_0, Cert.HostMask.b_cst_0 (F := F)⟩ ::
  ⟨main_call0_cst, Cert.HostMask.b_cst (F := F)⟩ ::
  rows0 x
abbrev refs2 : List (Ref sig .tc) :=
  main_call0_call0_v18 ::
  main_call0_call0_v17 ::
  main_call0_call0_v16 ::
  main_call0_call0_v15 ::
  main_call0_call0_c_1 ::
  main_call0_call0_v14 ::
  main_call0_call0_v13 ::
  main_call0_call0_v12 ::
  main_call0_call0_c_0 ::
  main_call0_call0_v11 ::
  main_call0_call0_v10 ::
  main_call0_call0_c ::
  main_call0_call0_v9 ::
  main_call0_call0_v8 ::
  main_call0_call0_v7 ::
  main_call0_call0_v6 ::
  main_call0_call0_v5 ::
  main_call0_call0_v4 ::
  main_call0_call0_v3 ::
  main_call0_call0_v2 ::
  main_call0_call0_v1 ::
  main_call0_call0_v0 ::
  refs1
abbrev rows2 (x : (⟨S4x8192x1024, .f32⟩ : BufTy).Contents (Elt F)) : List (Row sig (Elt F)) :=
  ⟨main_call0_call0_v18, Cert.HostMask.u_v18 (F := F)⟩ ::
  ⟨main_call0_call0_v17, Cert.HostMask.u_v17 (F := F)⟩ ::
  ⟨main_call0_call0_v16, Cert.HostMask.u_v16 (F := F)⟩ ::
  ⟨main_call0_call0_v15, Cert.HostMask.u_v15 (F := F)⟩ ::
  ⟨main_call0_call0_c_1, Cert.HostMask.u_c_1 (F := F)⟩ ::
  ⟨main_call0_call0_v14, Cert.HostMask.u_v14 (F := F)⟩ ::
  ⟨main_call0_call0_v13, Cert.HostMask.u_v13 (F := F)⟩ ::
  ⟨main_call0_call0_v12, Cert.HostMask.u_v12 (F := F)⟩ ::
  ⟨main_call0_call0_c_0, Cert.HostMask.u_c_0 (F := F)⟩ ::
  ⟨main_call0_call0_v11, Cert.HostMask.u_v11 (F := F)⟩ ::
  ⟨main_call0_call0_v10, Cert.HostMask.u_v10 (F := F)⟩ ::
  ⟨main_call0_call0_c, Cert.HostMask.u_c (F := F)⟩ ::
  ⟨main_call0_call0_v9, Cert.HostMask.u_v9 (F := F)⟩ ::
  ⟨main_call0_call0_v8, Cert.HostMask.u_v8 (F := F)⟩ ::
  ⟨main_call0_call0_v7, Cert.HostMask.u_v7 (F := F)⟩ ::
  ⟨main_call0_call0_v6, Cert.HostMask.u_v6 (F := F)⟩ ::
  ⟨main_call0_call0_v5, Cert.HostMask.u_v5 (F := F)⟩ ::
  ⟨main_call0_call0_v4, Cert.HostMask.u_v4 (F := F)⟩ ::
  ⟨main_call0_call0_v3, Cert.HostMask.u_v3 (F := F)⟩ ::
  ⟨main_call0_call0_v2, Cert.HostMask.u_v2 (F := F)⟩ ::
  ⟨main_call0_call0_v1, Cert.HostMask.u_v1 (F := F)⟩ ::
  ⟨main_call0_call0_v0, Cert.HostMask.u_v0 (F := F)⟩ ::
  rows1 x
abbrev refs3 : List (Ref sig .tc) :=
  main_call0_call0_call0_v47 ::
  main_call0_call0_call0_v46 ::
  main_call0_call0_call0_v45 ::
  main_call0_call0_call0_v44 ::
  main_call0_call0_call0_v43 ::
  main_call0_call0_call0_c_10 ::
  main_call0_call0_call0_v42 ::
  main_call0_call0_call0_v41 ::
  main_call0_call0_call0_c_9 ::
  main_call0_call0_call0_v40 ::
  main_call0_call0_call0_v39 ::
  main_call0_call0_call0_v38 ::
  main_call0_call0_call0_c_8 ::
  main_call0_call0_call0_v37 ::
  main_call0_call0_call0_v36 ::
  main_call0_call0_call0_v35 ::
  main_call0_call0_call0_v34 ::
  main_call0_call0_call0_v33 ::
  main_call0_call0_call0_v32 ::
  main_call0_call0_call0_v31 ::
  main_call0_call0_call0_v30 ::
  main_call0_call0_call0_c_7 ::
  main_call0_call0_call0_v29 ::
  main_call0_call0_call0_v28 ::
  main_call0_call0_call0_c_6 ::
  main_call0_call0_call0_v27 ::
  main_call0_call0_call0_v26 ::
  main_call0_call0_call0_v25 ::
  main_call0_call0_call0_v24 ::
  main_call0_call0_call0_v23 ::
  main_call0_call0_call0_c_5 ::
  main_call0_call0_call0_v22 ::
  main_call0_call0_call0_v21 ::
  main_call0_call0_call0_c_4 ::
  main_call0_call0_call0_v20 ::
  main_call0_call0_call0_v19 ::
  main_call0_call0_call0_v18 ::
  main_call0_call0_call0_v17 ::
  main_call0_call0_call0_v16 ::
  main_call0_call0_call0_c_3 ::
  main_call0_call0_call0_v15 ::
  main_call0_call0_call0_v14 ::
  main_call0_call0_call0_c_2 ::
  main_call0_call0_call0_v13 ::
  main_call0_call0_call0_v12 ::
  main_call0_call0_call0_v11 ::
  main_call0_call0_call0_v10 ::
  main_call0_call0_call0_v9 ::
  main_call0_call0_call0_c_1 ::
  main_call0_call0_call0_v8 ::
  main_call0_call0_call0_v7 ::
  main_call0_call0_call0_c_0 ::
  main_call0_call0_call0_v6 ::
  main_call0_call0_call0_v5 ::
  main_call0_call0_call0_v4 ::
  main_call0_call0_call0_v3 ::
  main_call0_call0_call0_v2 ::
  main_call0_call0_call0_v1 ::
  main_call0_call0_call0_c ::
  main_call0_call0_call0_v0 ::
  refs2
abbrev rows3 (x : (⟨S4x8192x1024, .f32⟩ : BufTy).Contents (Elt F)) : List (Row sig (Elt F)) :=
  ⟨main_call0_call0_call0_v47, Cert.HostMask.t_v47 (F := F)⟩ ::
  ⟨main_call0_call0_call0_v46, Cert.HostMask.t_v46 (F := F)⟩ ::
  ⟨main_call0_call0_call0_v45, Cert.HostMask.t_v45 (F := F)⟩ ::
  ⟨main_call0_call0_call0_v44, Cert.HostMask.t_v44 (F := F)⟩ ::
  ⟨main_call0_call0_call0_v43, Cert.HostMask.t_v43 (F := F)⟩ ::
  ⟨main_call0_call0_call0_c_10, Cert.HostMask.t_c_10 (F := F)⟩ ::
  ⟨main_call0_call0_call0_v42, Cert.HostMask.t_v42 (F := F)⟩ ::
  ⟨main_call0_call0_call0_v41, Cert.HostMask.t_v41 (F := F)⟩ ::
  ⟨main_call0_call0_call0_c_9, Cert.HostMask.t_c_9 (F := F)⟩ ::
  ⟨main_call0_call0_call0_v40, Cert.HostMask.t_v40 (F := F)⟩ ::
  ⟨main_call0_call0_call0_v39, Cert.HostMask.t_v39 (F := F)⟩ ::
  ⟨main_call0_call0_call0_v38, Cert.HostMask.t_v38 (F := F)⟩ ::
  ⟨main_call0_call0_call0_c_8, Cert.HostMask.t_c_8 (F := F)⟩ ::
  ⟨main_call0_call0_call0_v37, Cert.HostMask.t_v37 (F := F)⟩ ::
  ⟨main_call0_call0_call0_v36, Cert.HostMask.t_v36 (F := F)⟩ ::
  ⟨main_call0_call0_call0_v35, Cert.HostMask.t_v35 (F := F)⟩ ::
  ⟨main_call0_call0_call0_v34, Cert.HostMask.t_v34 (F := F)⟩ ::
  ⟨main_call0_call0_call0_v33, Cert.HostMask.t_v33 (F := F)⟩ ::
  ⟨main_call0_call0_call0_v32, Cert.HostMask.t_v32 (F := F)⟩ ::
  ⟨main_call0_call0_call0_v31, Cert.HostMask.t_v31 (F := F)⟩ ::
  ⟨main_call0_call0_call0_v30, Cert.HostMask.t_v30 (F := F)⟩ ::
  ⟨main_call0_call0_call0_c_7, Cert.HostMask.t_c_7 (F := F)⟩ ::
  ⟨main_call0_call0_call0_v29, Cert.HostMask.t_v29 (F := F)⟩ ::
  ⟨main_call0_call0_call0_v28, Cert.HostMask.t_v28 (F := F)⟩ ::
  ⟨main_call0_call0_call0_c_6, Cert.HostMask.t_c_6 (F := F)⟩ ::
  ⟨main_call0_call0_call0_v27, Cert.HostMask.t_v27 (F := F)⟩ ::
  ⟨main_call0_call0_call0_v26, Cert.HostMask.t_v26 (F := F)⟩ ::
  ⟨main_call0_call0_call0_v25, Cert.HostMask.t_v25 (F := F)⟩ ::
  ⟨main_call0_call0_call0_v24, Cert.HostMask.t_v24 (F := F)⟩ ::
  ⟨main_call0_call0_call0_v23, Cert.HostMask.t_v23 (F := F)⟩ ::
  ⟨main_call0_call0_call0_c_5, Cert.HostMask.t_c_5 (F := F)⟩ ::
  ⟨main_call0_call0_call0_v22, Cert.HostMask.t_v22 (F := F)⟩ ::
  ⟨main_call0_call0_call0_v21, Cert.HostMask.t_v21 (F := F)⟩ ::
  ⟨main_call0_call0_call0_c_4, Cert.HostMask.t_c_4 (F := F)⟩ ::
  ⟨main_call0_call0_call0_v20, Cert.HostMask.t_v20 (F := F)⟩ ::
  ⟨main_call0_call0_call0_v19, Cert.HostMask.t_v19 (F := F)⟩ ::
  ⟨main_call0_call0_call0_v18, Cert.HostMask.t_v18 (F := F)⟩ ::
  ⟨main_call0_call0_call0_v17, Cert.HostMask.t_v17 (F := F)⟩ ::
  ⟨main_call0_call0_call0_v16, Cert.HostMask.t_v16 (F := F)⟩ ::
  ⟨main_call0_call0_call0_c_3, Cert.HostMask.t_c_3 (F := F)⟩ ::
  ⟨main_call0_call0_call0_v15, Cert.HostMask.t_v15 (F := F)⟩ ::
  ⟨main_call0_call0_call0_v14, Cert.HostMask.t_v14 (F := F)⟩ ::
  ⟨main_call0_call0_call0_c_2, Cert.HostMask.t_c_2 (F := F)⟩ ::
  ⟨main_call0_call0_call0_v13, Cert.HostMask.t_v13 (F := F)⟩ ::
  ⟨main_call0_call0_call0_v12, Cert.HostMask.t_v12 (F := F)⟩ ::
  ⟨main_call0_call0_call0_v11, Cert.HostMask.t_v11 (F := F)⟩ ::
  ⟨main_call0_call0_call0_v10, Cert.HostMask.t_v10 (F := F)⟩ ::
  ⟨main_call0_call0_call0_v9, Cert.HostMask.t_v9 (F := F)⟩ ::
  ⟨main_call0_call0_call0_c_1, Cert.HostMask.t_c_1 (F := F)⟩ ::
  ⟨main_call0_call0_call0_v8, Cert.HostMask.t_v8 (F := F)⟩ ::
  ⟨main_call0_call0_call0_v7, Cert.HostMask.t_v7 (F := F)⟩ ::
  ⟨main_call0_call0_call0_c_0, Cert.HostMask.t_c_0 (F := F)⟩ ::
  ⟨main_call0_call0_call0_v6, Cert.HostMask.t_v6 (F := F)⟩ ::
  ⟨main_call0_call0_call0_v5, Cert.HostMask.t_v5 (F := F)⟩ ::
  ⟨main_call0_call0_call0_v4, Cert.HostMask.t_v4 (F := F)⟩ ::
  ⟨main_call0_call0_call0_v3, Cert.HostMask.t_v3 (F := F)⟩ ::
  ⟨main_call0_call0_call0_v2, Cert.HostMask.t_v2 (F := F)⟩ ::
  ⟨main_call0_call0_call0_v1, Cert.HostMask.t_v1 (F := F)⟩ ::
  ⟨main_call0_call0_call0_c, Cert.HostMask.t_c (F := F)⟩ ::
  ⟨main_call0_call0_call0_v0, Cert.HostMask.t_v0 (F := F)⟩ ::
  rows2 x
abbrev refs4 : List (Ref sig .tc) :=
  main_call0_call0_call0_v94 ::
  main_call0_call0_call0_v93 ::
  main_call0_call0_call0_v92 ::
  main_call0_call0_call0_v91 ::
  main_call0_call0_call0_c_23 ::
  main_call0_call0_call0_v90 ::
  main_call0_call0_call0_v89 ::
  main_call0_call0_call0_c_22 ::
  main_call0_call0_call0_v88 ::
  main_call0_call0_call0_v87 ::
  main_call0_call0_call0_v86 ::
  main_call0_call0_call0_v85 ::
  main_call0_call0_call0_v84 ::
  main_call0_call0_call0_c_21 ::
  main_call0_call0_call0_v83 ::
  main_call0_call0_call0_v82 ::
  main_call0_call0_call0_c_20 ::
  main_call0_call0_call0_v81 ::
  main_call0_call0_call0_v80 ::
  main_call0_call0_call0_v79 ::
  main_call0_call0_call0_v78 ::
  main_call0_call0_call0_v77 ::
  main_call0_call0_call0_c_19 ::
  main_call0_call0_call0_v76 ::
  main_call0_call0_call0_v75 ::
  main_call0_call0_call0_c_18 ::
  main_call0_call0_call0_v74 ::
  main_call0_call0_call0_v73 ::
  main_call0_call0_call0_v72 ::
  main_call0_call0_call0_c_17 ::
  main_call0_call0_call0_v71 ::
  main_call0_call0_call0_v70 ::
  main_call0_call0_call0_v69 ::
  main_call0_call0_call0_v68 ::
  main_call0_call0_call0_v67 ::
  main_call0_call0_call0_v66 ::
  main_call0_call0_call0_v65 ::
  main_call0_call0_call0_v64 ::
  main_call0_call0_call0_c_16 ::
  main_call0_call0_call0_v63 ::
  main_call0_call0_call0_v62 ::
  main_call0_call0_call0_c_15 ::
  main_call0_call0_call0_v61 ::
  main_call0_call0_call0_v60 ::
  main_call0_call0_call0_v59 ::
  main_call0_call0_call0_v58 ::
  main_call0_call0_call0_v57 ::
  main_call0_call0_call0_c_14 ::
  main_call0_call0_call0_v56 ::
  main_call0_call0_call0_v55 ::
  main_call0_call0_call0_c_13 ::
  main_call0_call0_call0_v54 ::
  main_call0_call0_call0_v53 ::
  main_call0_call0_call0_v52 ::
  main_call0_call0_call0_v51 ::
  main_call0_call0_call0_v50 ::
  main_call0_call0_call0_c_12 ::
  main_call0_call0_call0_v49 ::
  main_call0_call0_call0_v48 ::
  main_call0_call0_call0_c_11 ::
  refs3
abbrev rows4 (x : (⟨S4x8192x1024, .f32⟩ : BufTy).Contents (Elt F)) : List (Row sig (Elt F)) :=
  ⟨main_call0_call0_call0_v94, Cert.HostMask.t_v94 (F := F)⟩ ::
  ⟨main_call0_call0_call0_v93, Cert.HostMask.t_v93 (F := F)⟩ ::
  ⟨main_call0_call0_call0_v92, Cert.HostMask.t_v92 (F := F)⟩ ::
  ⟨main_call0_call0_call0_v91, Cert.HostMask.t_v91 (F := F)⟩ ::
  ⟨main_call0_call0_call0_c_23, Cert.HostMask.t_c_23 (F := F)⟩ ::
  ⟨main_call0_call0_call0_v90, Cert.HostMask.t_v90 (F := F)⟩ ::
  ⟨main_call0_call0_call0_v89, Cert.HostMask.t_v89 (F := F)⟩ ::
  ⟨main_call0_call0_call0_c_22, Cert.HostMask.t_c_22 (F := F)⟩ ::
  ⟨main_call0_call0_call0_v88, Cert.HostMask.t_v88 (F := F)⟩ ::
  ⟨main_call0_call0_call0_v87, Cert.HostMask.t_v87 (F := F)⟩ ::
  ⟨main_call0_call0_call0_v86, Cert.HostMask.t_v86 (F := F)⟩ ::
  ⟨main_call0_call0_call0_v85, Cert.HostMask.t_v85 (F := F)⟩ ::
  ⟨main_call0_call0_call0_v84, Cert.HostMask.t_v84 (F := F)⟩ ::
  ⟨main_call0_call0_call0_c_21, Cert.HostMask.t_c_21 (F := F)⟩ ::
  ⟨main_call0_call0_call0_v83, Cert.HostMask.t_v83 (F := F)⟩ ::
  ⟨main_call0_call0_call0_v82, Cert.HostMask.t_v82 (F := F)⟩ ::
  ⟨main_call0_call0_call0_c_20, Cert.HostMask.t_c_20 (F := F)⟩ ::
  ⟨main_call0_call0_call0_v81, Cert.HostMask.t_v81 (F := F)⟩ ::
  ⟨main_call0_call0_call0_v80, Cert.HostMask.t_v80 (F := F)⟩ ::
  ⟨main_call0_call0_call0_v79, Cert.HostMask.t_v79 (F := F)⟩ ::
  ⟨main_call0_call0_call0_v78, Cert.HostMask.t_v78 (F := F)⟩ ::
  ⟨main_call0_call0_call0_v77, Cert.HostMask.t_v77 (F := F)⟩ ::
  ⟨main_call0_call0_call0_c_19, Cert.HostMask.t_c_19 (F := F)⟩ ::
  ⟨main_call0_call0_call0_v76, Cert.HostMask.t_v76 (F := F)⟩ ::
  ⟨main_call0_call0_call0_v75, Cert.HostMask.t_v75 (F := F)⟩ ::
  ⟨main_call0_call0_call0_c_18, Cert.HostMask.t_c_18 (F := F)⟩ ::
  ⟨main_call0_call0_call0_v74, Cert.HostMask.t_v74 (F := F)⟩ ::
  ⟨main_call0_call0_call0_v73, Cert.HostMask.t_v73 (F := F)⟩ ::
  ⟨main_call0_call0_call0_v72, Cert.HostMask.t_v72 (F := F)⟩ ::
  ⟨main_call0_call0_call0_c_17, Cert.HostMask.t_c_17 (F := F)⟩ ::
  ⟨main_call0_call0_call0_v71, Cert.HostMask.t_v71 (F := F)⟩ ::
  ⟨main_call0_call0_call0_v70, Cert.HostMask.t_v70 (F := F)⟩ ::
  ⟨main_call0_call0_call0_v69, Cert.HostMask.t_v69 (F := F)⟩ ::
  ⟨main_call0_call0_call0_v68, Cert.HostMask.t_v68 (F := F)⟩ ::
  ⟨main_call0_call0_call0_v67, Cert.HostMask.t_v67 (F := F)⟩ ::
  ⟨main_call0_call0_call0_v66, Cert.HostMask.t_v66 (F := F)⟩ ::
  ⟨main_call0_call0_call0_v65, Cert.HostMask.t_v65 (F := F)⟩ ::
  ⟨main_call0_call0_call0_v64, Cert.HostMask.t_v64 (F := F)⟩ ::
  ⟨main_call0_call0_call0_c_16, Cert.HostMask.t_c_16 (F := F)⟩ ::
  ⟨main_call0_call0_call0_v63, Cert.HostMask.t_v63 (F := F)⟩ ::
  ⟨main_call0_call0_call0_v62, Cert.HostMask.t_v62 (F := F)⟩ ::
  ⟨main_call0_call0_call0_c_15, Cert.HostMask.t_c_15 (F := F)⟩ ::
  ⟨main_call0_call0_call0_v61, Cert.HostMask.t_v61 (F := F)⟩ ::
  ⟨main_call0_call0_call0_v60, Cert.HostMask.t_v60 (F := F)⟩ ::
  ⟨main_call0_call0_call0_v59, Cert.HostMask.t_v59 (F := F)⟩ ::
  ⟨main_call0_call0_call0_v58, Cert.HostMask.t_v58 (F := F)⟩ ::
  ⟨main_call0_call0_call0_v57, Cert.HostMask.t_v57 (F := F)⟩ ::
  ⟨main_call0_call0_call0_c_14, Cert.HostMask.t_c_14 (F := F)⟩ ::
  ⟨main_call0_call0_call0_v56, Cert.HostMask.t_v56 (F := F)⟩ ::
  ⟨main_call0_call0_call0_v55, Cert.HostMask.t_v55 (F := F)⟩ ::
  ⟨main_call0_call0_call0_c_13, Cert.HostMask.t_c_13 (F := F)⟩ ::
  ⟨main_call0_call0_call0_v54, Cert.HostMask.t_v54 (F := F)⟩ ::
  ⟨main_call0_call0_call0_v53, Cert.HostMask.t_v53 (F := F)⟩ ::
  ⟨main_call0_call0_call0_v52, Cert.HostMask.t_v52 (F := F)⟩ ::
  ⟨main_call0_call0_call0_v51, Cert.HostMask.t_v51 (F := F)⟩ ::
  ⟨main_call0_call0_call0_v50, Cert.HostMask.t_v50 (F := F)⟩ ::
  ⟨main_call0_call0_call0_c_12, Cert.HostMask.t_c_12 (F := F)⟩ ::
  ⟨main_call0_call0_call0_v49, Cert.HostMask.t_v49 (F := F)⟩ ::
  ⟨main_call0_call0_call0_v48, Cert.HostMask.t_v48 (F := F)⟩ ::
  ⟨main_call0_call0_call0_c_11, Cert.HostMask.t_c_11 (F := F)⟩ ::
  rows3 x
abbrev refs5 : List (Ref sig .tc) :=
  main_call0_call0_call0_v142 ::
  main_call0_call0_call0_v141 ::
  main_call0_call0_call0_v140 ::
  main_call0_call0_call0_c_35 ::
  main_call0_call0_call0_v139 ::
  main_call0_call0_call0_v138 ::
  main_call0_call0_call0_v137 ::
  main_call0_call0_call0_v136 ::
  main_call0_call0_call0_v135 ::
  main_call0_call0_call0_v134 ::
  main_call0_call0_call0_v133 ::
  main_call0_call0_call0_v132 ::
  main_call0_call0_call0_c_34 ::
  main_call0_call0_call0_v131 ::
  main_call0_call0_call0_v130 ::
  main_call0_call0_call0_c_33 ::
  main_call0_call0_call0_v129 ::
  main_call0_call0_call0_v128 ::
  main_call0_call0_call0_v127 ::
  main_call0_call0_call0_v126 ::
  main_call0_call0_call0_v125 ::
  main_call0_call0_call0_c_32 ::
  main_call0_call0_call0_v124 ::
  main_call0_call0_call0_v123 ::
  main_call0_call0_call0_c_31 ::
  main_call0_call0_call0_v122 ::
  main_call0_call0_call0_v121 ::
  main_call0_call0_call0_v120 ::
  main_call0_call0_call0_v119 ::
  main_call0_call0_call0_v118 ::
  main_call0_call0_call0_c_30 ::
  main_call0_call0_call0_v117 ::
  main_call0_call0_call0_v116 ::
  main_call0_call0_call0_c_29 ::
  main_call0_call0_call0_v115 ::
  main_call0_call0_call0_v114 ::
  main_call0_call0_call0_v113 ::
  main_call0_call0_call0_v112 ::
  main_call0_call0_call0_v111 ::
  main_call0_call0_call0_c_28 ::
  main_call0_call0_call0_v110 ::
  main_call0_call0_call0_v109 ::
  main_call0_call0_call0_c_27 ::
  main_call0_call0_call0_v108 ::
  main_call0_call0_call0_v107 ::
  main_call0_call0_call0_v106 ::
  main_call0_call0_call0_c_26 ::
  main_call0_call0_call0_v105 ::
  main_call0_call0_call0_v104 ::
  main_call0_call0_call0_v103 ::
  main_call0_call0_call0_v102 ::
  main_call0_call0_call0_v101 ::
  main_call0_call0_call0_v100 ::
  main_call0_call0_call0_v99 ::
  main_call0_call0_call0_v98 ::
  main_call0_call0_call0_c_25 ::
  main_call0_call0_call0_v97 ::
  main_call0_call0_call0_v96 ::
  main_call0_call0_call0_c_24 ::
  main_call0_call0_call0_v95 ::
  refs4
abbrev rows5 (x : (⟨S4x8192x1024, .f32⟩ : BufTy).Contents (Elt F)) : List (Row sig (Elt F)) :=
  ⟨main_call0_call0_call0_v142, Cert.HostMask.t_v142 (F := F)⟩ ::
  ⟨main_call0_call0_call0_v141, Cert.HostMask.t_v141 (F := F)⟩ ::
  ⟨main_call0_call0_call0_v140, Cert.HostMask.t_v140 (F := F)⟩ ::
  ⟨main_call0_call0_call0_c_35, Cert.HostMask.t_c_35 (F := F)⟩ ::
  ⟨main_call0_call0_call0_v139, Cert.HostMask.t_v139 (F := F)⟩ ::
  ⟨main_call0_call0_call0_v138, Cert.HostMask.t_v138 (F := F)⟩ ::
  ⟨main_call0_call0_call0_v137, Cert.HostMask.t_v137 (F := F)⟩ ::
  ⟨main_call0_call0_call0_v136, Cert.HostMask.t_v136 (F := F)⟩ ::
  ⟨main_call0_call0_call0_v135, Cert.HostMask.t_v135 (F := F)⟩ ::
  ⟨main_call0_call0_call0_v134, Cert.HostMask.t_v134 (F := F)⟩ ::
  ⟨main_call0_call0_call0_v133, Cert.HostMask.t_v133 (F := F)⟩ ::
  ⟨main_call0_call0_call0_v132, Cert.HostMask.t_v132 (F := F)⟩ ::
  ⟨main_call0_call0_call0_c_34, Cert.HostMask.t_c_34 (F := F)⟩ ::
  ⟨main_call0_call0_call0_v131, Cert.HostMask.t_v131 (F := F)⟩ ::
  ⟨main_call0_call0_call0_v130, Cert.HostMask.t_v130 (F := F)⟩ ::
  ⟨main_call0_call0_call0_c_33, Cert.HostMask.t_c_33 (F := F)⟩ ::
  ⟨main_call0_call0_call0_v129, Cert.HostMask.t_v129 (F := F)⟩ ::
  ⟨main_call0_call0_call0_v128, Cert.HostMask.t_v128 (F := F)⟩ ::
  ⟨main_call0_call0_call0_v127, Cert.HostMask.t_v127 (F := F)⟩ ::
  ⟨main_call0_call0_call0_v126, Cert.HostMask.t_v126 (F := F)⟩ ::
  ⟨main_call0_call0_call0_v125, Cert.HostMask.t_v125 (F := F)⟩ ::
  ⟨main_call0_call0_call0_c_32, Cert.HostMask.t_c_32 (F := F)⟩ ::
  ⟨main_call0_call0_call0_v124, Cert.HostMask.t_v124 (F := F)⟩ ::
  ⟨main_call0_call0_call0_v123, Cert.HostMask.t_v123 (F := F)⟩ ::
  ⟨main_call0_call0_call0_c_31, Cert.HostMask.t_c_31 (F := F)⟩ ::
  ⟨main_call0_call0_call0_v122, Cert.HostMask.t_v122 (F := F)⟩ ::
  ⟨main_call0_call0_call0_v121, Cert.HostMask.t_v121 (F := F)⟩ ::
  ⟨main_call0_call0_call0_v120, Cert.HostMask.t_v120 (F := F)⟩ ::
  ⟨main_call0_call0_call0_v119, Cert.HostMask.t_v119 (F := F)⟩ ::
  ⟨main_call0_call0_call0_v118, Cert.HostMask.t_v118 (F := F)⟩ ::
  ⟨main_call0_call0_call0_c_30, Cert.HostMask.t_c_30 (F := F)⟩ ::
  ⟨main_call0_call0_call0_v117, Cert.HostMask.t_v117 (F := F)⟩ ::
  ⟨main_call0_call0_call0_v116, Cert.HostMask.t_v116 (F := F)⟩ ::
  ⟨main_call0_call0_call0_c_29, Cert.HostMask.t_c_29 (F := F)⟩ ::
  ⟨main_call0_call0_call0_v115, Cert.HostMask.t_v115 (F := F)⟩ ::
  ⟨main_call0_call0_call0_v114, Cert.HostMask.t_v114 (F := F)⟩ ::
  ⟨main_call0_call0_call0_v113, Cert.HostMask.t_v113 (F := F)⟩ ::
  ⟨main_call0_call0_call0_v112, Cert.HostMask.t_v112 (F := F)⟩ ::
  ⟨main_call0_call0_call0_v111, Cert.HostMask.t_v111 (F := F)⟩ ::
  ⟨main_call0_call0_call0_c_28, Cert.HostMask.t_c_28 (F := F)⟩ ::
  ⟨main_call0_call0_call0_v110, Cert.HostMask.t_v110 (F := F)⟩ ::
  ⟨main_call0_call0_call0_v109, Cert.HostMask.t_v109 (F := F)⟩ ::
  ⟨main_call0_call0_call0_c_27, Cert.HostMask.t_c_27 (F := F)⟩ ::
  ⟨main_call0_call0_call0_v108, Cert.HostMask.t_v108 (F := F)⟩ ::
  ⟨main_call0_call0_call0_v107, Cert.HostMask.t_v107 (F := F)⟩ ::
  ⟨main_call0_call0_call0_v106, Cert.HostMask.t_v106 (F := F)⟩ ::
  ⟨main_call0_call0_call0_c_26, Cert.HostMask.t_c_26 (F := F)⟩ ::
  ⟨main_call0_call0_call0_v105, Cert.HostMask.t_v105 (F := F)⟩ ::
  ⟨main_call0_call0_call0_v104, Cert.HostMask.t_v104 (F := F)⟩ ::
  ⟨main_call0_call0_call0_v103, Cert.HostMask.t_v103 (F := F)⟩ ::
  ⟨main_call0_call0_call0_v102, Cert.HostMask.t_v102 (F := F)⟩ ::
  ⟨main_call0_call0_call0_v101, Cert.HostMask.t_v101 (F := F)⟩ ::
  ⟨main_call0_call0_call0_v100, Cert.HostMask.t_v100 (F := F)⟩ ::
  ⟨main_call0_call0_call0_v99, Cert.HostMask.t_v99 (F := F)⟩ ::
  ⟨main_call0_call0_call0_v98, Cert.HostMask.t_v98 (F := F)⟩ ::
  ⟨main_call0_call0_call0_c_25, Cert.HostMask.t_c_25 (F := F)⟩ ::
  ⟨main_call0_call0_call0_v97, Cert.HostMask.t_v97 (F := F)⟩ ::
  ⟨main_call0_call0_call0_v96, Cert.HostMask.t_v96 (F := F)⟩ ::
  ⟨main_call0_call0_call0_c_24, Cert.HostMask.t_c_24 (F := F)⟩ ::
  ⟨main_call0_call0_call0_v95, Cert.HostMask.t_v95 (F := F)⟩ ::
  rows4 x
abbrev refs6 : List (Ref sig .tc) :=
  main_call0_call0_v19_1 ::
  main_call0_call0_call0_v174 ::
  main_call0_call0_call0_c_44 ::
  main_call0_call0_call0_v173 ::
  main_call0_call0_call0_v172 ::
  main_call0_call0_v19_0 ::
  main_call0_call0_call0_v170 ::
  main_call0_call0_call0_v169 ::
  main_call0_call0_call0_v168 ::
  main_call0_call0_call0_v167 ::
  main_call0_call0_call0_v166 ::
  main_call0_call0_call0_c_43 ::
  main_call0_call0_call0_v165 ::
  main_call0_call0_call0_v164 ::
  main_call0_call0_call0_c_42 ::
  main_call0_call0_call0_v163 ::
  main_call0_call0_call0_v162 ::
  main_call0_call0_call0_v161 ::
  main_call0_call0_call0_v160 ::
  main_call0_call0_call0_v159 ::
  main_call0_call0_call0_c_41 ::
  main_call0_call0_call0_v158 ::
  main_call0_call0_call0_v157 ::
  main_call0_call0_call0_c_40 ::
  main_call0_call0_call0_v156 ::
  main_call0_call0_call0_v155 ::
  main_call0_call0_call0_v154 ::
  main_call0_call0_call0_v153 ::
  main_call0_call0_call0_v152 ::
  main_call0_call0_call0_c_39 ::
  main_call0_call0_call0_v151 ::
  main_call0_call0_call0_v150 ::
  main_call0_call0_call0_c_38 ::
  main_call0_call0_call0_v149 ::
  main_call0_call0_call0_v148 ::
  main_call0_call0_call0_v147 ::
  main_call0_call0_call0_v146 ::
  main_call0_call0_call0_v145 ::
  main_call0_call0_call0_c_37 ::
  main_call0_call0_call0_v144 ::
  main_call0_call0_call0_v143 ::
  main_call0_call0_call0_c_36 ::
  refs5
abbrev rows6 (x : (⟨S4x8192x1024, .f32⟩ : BufTy).Contents (Elt F)) : List (Row sig (Elt F)) :=
  ⟨main_call0_call0_v19_1, Cert.HostMask.t_v175 (F := F)⟩ ::
  ⟨main_call0_call0_call0_v174, Cert.HostMask.t_v174 (F := F)⟩ ::
  ⟨main_call0_call0_call0_c_44, Cert.HostMask.t_c_44 (F := F)⟩ ::
  ⟨main_call0_call0_call0_v173, Cert.HostMask.t_v173 (F := F)⟩ ::
  ⟨main_call0_call0_call0_v172, Cert.HostMask.t_v172 (F := F)⟩ ::
  ⟨main_call0_call0_v19_0, Cert.HostMask.t_v171 (F := F)⟩ ::
  ⟨main_call0_call0_call0_v170, Cert.HostMask.t_v170 (F := F)⟩ ::
  ⟨main_call0_call0_call0_v169, Cert.HostMask.t_v169 (F := F)⟩ ::
  ⟨main_call0_call0_call0_v168, Cert.HostMask.t_v168 (F := F)⟩ ::
  ⟨main_call0_call0_call0_v167, Cert.HostMask.t_v167 (F := F)⟩ ::
  ⟨main_call0_call0_call0_v166, Cert.HostMask.t_v166 (F := F)⟩ ::
  ⟨main_call0_call0_call0_c_43, Cert.HostMask.t_c_43 (F := F)⟩ ::
  ⟨main_call0_call0_call0_v165, Cert.HostMask.t_v165 (F := F)⟩ ::
  ⟨main_call0_call0_call0_v164, Cert.HostMask.t_v164 (F := F)⟩ ::
  ⟨main_call0_call0_call0_c_42, Cert.HostMask.t_c_42 (F := F)⟩ ::
  ⟨main_call0_call0_call0_v163, Cert.HostMask.t_v163 (F := F)⟩ ::
  ⟨main_call0_call0_call0_v162, Cert.HostMask.t_v162 (F := F)⟩ ::
  ⟨main_call0_call0_call0_v161, Cert.HostMask.t_v161 (F := F)⟩ ::
  ⟨main_call0_call0_call0_v160, Cert.HostMask.t_v160 (F := F)⟩ ::
  ⟨main_call0_call0_call0_v159, Cert.HostMask.t_v159 (F := F)⟩ ::
  ⟨main_call0_call0_call0_c_41, Cert.HostMask.t_c_41 (F := F)⟩ ::
  ⟨main_call0_call0_call0_v158, Cert.HostMask.t_v158 (F := F)⟩ ::
  ⟨main_call0_call0_call0_v157, Cert.HostMask.t_v157 (F := F)⟩ ::
  ⟨main_call0_call0_call0_c_40, Cert.HostMask.t_c_40 (F := F)⟩ ::
  ⟨main_call0_call0_call0_v156, Cert.HostMask.t_v156 (F := F)⟩ ::
  ⟨main_call0_call0_call0_v155, Cert.HostMask.t_v155 (F := F)⟩ ::
  ⟨main_call0_call0_call0_v154, Cert.HostMask.t_v154 (F := F)⟩ ::
  ⟨main_call0_call0_call0_v153, Cert.HostMask.t_v153 (F := F)⟩ ::
  ⟨main_call0_call0_call0_v152, Cert.HostMask.t_v152 (F := F)⟩ ::
  ⟨main_call0_call0_call0_c_39, Cert.HostMask.t_c_39 (F := F)⟩ ::
  ⟨main_call0_call0_call0_v151, Cert.HostMask.t_v151 (F := F)⟩ ::
  ⟨main_call0_call0_call0_v150, Cert.HostMask.t_v150 (F := F)⟩ ::
  ⟨main_call0_call0_call0_c_38, Cert.HostMask.t_c_38 (F := F)⟩ ::
  ⟨main_call0_call0_call0_v149, Cert.HostMask.t_v149 (F := F)⟩ ::
  ⟨main_call0_call0_call0_v148, Cert.HostMask.t_v148 (F := F)⟩ ::
  ⟨main_call0_call0_call0_v147, Cert.HostMask.t_v147 (F := F)⟩ ::
  ⟨main_call0_call0_call0_v146, Cert.HostMask.t_v146 (F := F)⟩ ::
  ⟨main_call0_call0_call0_v145, Cert.HostMask.t_v145 (F := F)⟩ ::
  ⟨main_call0_call0_call0_c_37, Cert.HostMask.t_c_37 (F := F)⟩ ::
  ⟨main_call0_call0_call0_v144, Cert.HostMask.t_v144 (F := F)⟩ ::
  ⟨main_call0_call0_call0_v143, Cert.HostMask.t_v143 (F := F)⟩ ::
  ⟨main_call0_call0_call0_c_36, Cert.HostMask.t_c_36 (F := F)⟩ ::
  rows5 x
abbrev refs7 : List (Ref sig .tc) :=
  main_call0_v0 ::
  main_call0_call0_v33 ::
  main_call0_call0_v32 ::
  main_call0_call0_v31 ::
  main_call0_call0_v30 ::
  main_call0_call0_v29 ::
  main_call0_call0_v28 ::
  main_call0_call0_v27 ::
  main_call0_call0_v26 ::
  main_call0_call0_cst ::
  main_call0_call0_v25 ::
  main_call0_call0_v24 ::
  main_call0_call0_v23 ::
  main_call0_call0_c_3 ::
  main_call0_call0_v22 ::
  main_call0_call0_v21 ::
  main_call0_call0_c_2 ::
  main_call0_call0_v20 ::
  refs6
abbrev rows7 (x : (⟨S4x8192x1024, .f32⟩ : BufTy).Contents (Elt F)) : List (Row sig (Elt F)) :=
  ⟨main_call0_v0, Cert.HostMask.u_v34 (F := F)⟩ ::
  ⟨main_call0_call0_v33, Cert.HostMask.u_v33 (F := F)⟩ ::
  ⟨main_call0_call0_v32, Cert.HostMask.u_v32 (F := F)⟩ ::
  ⟨main_call0_call0_v31, Cert.HostMask.u_v31 (F := F)⟩ ::
  ⟨main_call0_call0_v30, Cert.HostMask.u_v30 (F := F)⟩ ::
  ⟨main_call0_call0_v29, Cert.HostMask.u_v29 (F := F)⟩ ::
  ⟨main_call0_call0_v28, Cert.HostMask.u_v28 (F := F)⟩ ::
  ⟨main_call0_call0_v27, Cert.HostMask.u_v27 (F := F)⟩ ::
  ⟨main_call0_call0_v26, Cert.HostMask.u_v26 (F := F)⟩ ::
  ⟨main_call0_call0_cst, Cert.HostMask.u_cst (F := F)⟩ ::
  ⟨main_call0_call0_v25, Cert.HostMask.u_v25 (F := F)⟩ ::
  ⟨main_call0_call0_v24, Cert.HostMask.u_v24 (F := F)⟩ ::
  ⟨main_call0_call0_v23, Cert.HostMask.u_v23 (F := F)⟩ ::
  ⟨main_call0_call0_c_3, Cert.HostMask.u_c_3 (F := F)⟩ ::
  ⟨main_call0_call0_v22, Cert.HostMask.u_v22 (F := F)⟩ ::
  ⟨main_call0_call0_v21, Cert.HostMask.u_v21 (F := F)⟩ ::
  ⟨main_call0_call0_c_2, Cert.HostMask.u_c_2 (F := F)⟩ ::
  ⟨main_call0_call0_v20, Cert.HostMask.u_v20 (F := F)⟩ ::
  rows6 x
abbrev refs8 : List (Ref sig .tc) :=
  main_v7 ::
  main_call0_v1 ::
  refs7
abbrev rows8 (x : (⟨S4x8192x1024, .f32⟩ : BufTy).Contents (Elt F)) : List (Row sig (Elt F)) :=
  ⟨main_v7, Cert.HostMask.b_v2 (F := F)⟩ ::
  ⟨main_call0_v1, Cert.HostMask.b_v1 (F := F)⟩ ::
  rows7 x
abbrev refs9 : List (Ref sig .tc) :=
  main_v15 ::
  main_v14 ::
  main_v13 ::
  main_v12 ::
  main_v11 ::
  main_v10 ::
  main_v9 ::
  main_v8 ::
  main_call1_v1 ::
  main_call1_v0 ::
  main_cst_3 ::
  main_cst_2 ::
  refs8
abbrev rows9 (x : (⟨S4x8192x1024, .f32⟩ : BufTy).Contents (Elt F)) : List (Row sig (Elt F)) :=
  ⟨main_v15, v_main_v15 (F := F)⟩ ::
  ⟨main_v14, v_main_v14 x⟩ ::
  ⟨main_v13, v_main_v13 (F := F)⟩ ::
  ⟨main_v12, v_main_v12 (F := F)⟩ ::
  ⟨main_v11, v_main_v11 (F := F)⟩ ::
  ⟨main_v10, v_main_v10 (F := F)⟩ ::
  ⟨main_v9, v_main_v9 (F := F)⟩ ::
  ⟨main_v8, v_main_v8 (F := F)⟩ ::
  ⟨main_call1_v1, v_main_call1_v1 (F := F)⟩ ::
  ⟨main_call1_v0, v_main_call1_v0 (F := F)⟩ ::
  ⟨main_cst_3, v_main_cst_3 (F := F)⟩ ::
  ⟨main_cst_2, v_main_cst_2 (F := F)⟩ ::
  rows8 x

end Cert.KHostIdeal

end
-- ==== Proof.KHostIdeal.lean ====
import proofs.«206558_g86277303042394_cont_sun_m_1099_24_alg».proof.Proof.KHostIdealTab

/-! # The entry function as one line of host operations around the SparseCore call

The entry function is: its host operations in order (the calls unfolded at their records), the SparseCore call, the
final reshape, the return. Sequencing is associative, so the printed nesting (each call's body a block of its own)
and the flat list are the same program. Every operation is one of the builders: it determines its result (nothing
is left fresh) and touches TensorCore references only. The argument's buffer is written by no operation, so it holds
afterwards what it held before. -/

noncomputable section

namespace Cert.KHostIdeal

open Cert.KernelIdeal Cert.KernelIdeal.Gen Idealize.ShloMosaic Idealize.ShloMosaic.TcCoe Idealize.SL.Sem Idealize.ShloMosaic.StableHlo Cert.HostRows

variable {F : FTy → Type} [FloatOps F]

-- some three hundred binds are re-associated: the rewriting recurses once per statement
set_option maxRecDepth 200000 in
set_option maxHeartbeats 4000000 in
/-- The entry function is that line: the functions unfolded at their calls, the records at their fields, and sequencing
    re-associated, both sides are the same chain of steps. -/
theorem main_eq (d : Dev nD) :
    main (F := F) d = (seq hostOps0 >>= fun _ => sc.run d 0 >>= fun _ => hlo rfl opOut (fun _ => .ret (⟨⟩ : PUnit)) >>= fun _ => pure ⟨⟩) := by
  simp only [main, fn_bernoulli.body, fn_uniform.body, fn_threefry2x32.body, fn_threefry2x32.body_part0,
    fn_threefry2x32.body_part1, fn_threefry2x32.body_part2, fn_threefry2x32.body_part3, fn_where.body,
    hostOps0, ops0, ops1, ops2, ops3, ops4, ops5, ops6, ops7, ops8, ops9, seq_append, seq, bind_assoc, pure_bind]

/-- All the TensorCore's buffers: the argument, every host value, the SparseCore call's result and the final result. -/
def bufs0 : Finset (DevRef τ sig) := tcRefs τ sig

theorem ops0_fresh : ∀ op ∈ ops0 (F := F), op.fresh = ∅ := by ops_fresh
theorem ops0_sub : ∀ op ∈ ops0 (F := F), op.bufs ⊆ tcRefs τ sig := by ops_sub
theorem ops1_fresh : ∀ op ∈ ops1 (F := F), op.fresh = ∅ := by ops_fresh
theorem ops1_sub : ∀ op ∈ ops1 (F := F), op.bufs ⊆ tcRefs τ sig := by ops_sub
theorem ops2_fresh : ∀ op ∈ ops2 (F := F), op.fresh = ∅ := by ops_fresh
theorem ops2_sub : ∀ op ∈ ops2 (F := F), op.bufs ⊆ tcRefs τ sig := by ops_sub
theorem ops3_fresh : ∀ op ∈ ops3 (F := F), op.fresh = ∅ := by ops_fresh
theorem ops3_sub : ∀ op ∈ ops3 (F := F), op.bufs ⊆ tcRefs τ sig := by ops_sub
theorem ops4_fresh : ∀ op ∈ ops4 (F := F), op.fresh = ∅ := by ops_fresh
theorem ops4_sub : ∀ op ∈ ops4 (F := F), op.bufs ⊆ tcRefs τ sig := by ops_sub
theorem ops5_fresh : ∀ op ∈ ops5 (F := F), op.fresh = ∅ := by ops_fresh
theorem ops5_sub : ∀ op ∈ ops5 (F := F), op.bufs ⊆ tcRefs τ sig := by ops_sub
theorem ops6_fresh : ∀ op ∈ ops6 (F := F), op.fresh = ∅ := by ops_fresh
theorem ops6_sub : ∀ op ∈ ops6 (F := F), op.bufs ⊆ tcRefs τ sig := by ops_sub
theorem ops7_fresh : ∀ op ∈ ops7 (F := F), op.fresh = ∅ := by ops_fresh
theorem ops7_sub : ∀ op ∈ ops7 (F := F), op.bufs ⊆ tcRefs τ sig := by ops_sub
theorem ops8_fresh : ∀ op ∈ ops8 (F := F), op.fresh = ∅ := by ops_fresh
theorem ops8_sub : ∀ op ∈ ops8 (F := F), op.bufs ⊆ tcRefs τ sig := by ops_sub
theorem ops9_fresh : ∀ op ∈ ops9 (F := F), op.fresh = ∅ := by ops_fresh
theorem ops9_sub : ∀ op ∈ ops9 (F := F), op.bufs ⊆ tcRefs τ sig := by ops_sub

/-- Every host operation determines its result. -/
theorem hostOps0_fresh : ∀ op ∈ hostOps0 (F := F), op.fresh = ∅ :=
  all_app ops0_fresh (all_app ops1_fresh (all_app ops2_fresh (all_app ops3_fresh (all_app ops4_fresh (all_app ops5_fresh
    (all_app ops6_fresh (all_app ops7_fresh (all_app ops8_fresh ops9_fresh))))))))

/-- Every host operation touches TensorCore buffers only. -/
theorem hostOps0_sub : ∀ op ∈ hostOps0 (F := F), op.bufs ⊆ bufs0 :=
  all_app ops0_sub (all_app ops1_sub (all_app ops2_sub (all_app ops3_sub (all_app ops4_sub (all_app ops5_sub
    (all_app ops6_sub (all_app ops7_sub (all_app ops8_sub ops9_sub))))))))

/-- No TensorCore reference of this program is scoped. -/
theorem tc_unscoped : ∀ r : Ref sig .tc, r.isScoped = false := by decide +kernel

/-- Every buffer of the set is an unscoped TensorCore reference's. -/
theorem bufs0_unscoped : ∀ b ∈ bufs0, ∃ r : Ref sig .tc, r.isScoped = false ∧ Proc.devRef (τ := τ) .tc r = b := by
  intro b hb
  obtain ⟨r, -, rfl⟩ := Finset.mem_map.mp hb
  exact ⟨r, tc_unscoped r, rfl⟩

theorem opOut_sub : (opOut (F := F)).bufs ⊆ bufs0 := reshape_bufs_sub ..
theorem opOut_fresh : (opOut (F := F)).fresh = ∅ := rfl

/-! The argument's buffer through each chunk: no operation writes it. -/

theorem arg0_0 (V : Valuation τ sig (Elt F)) (x) (h : Holds V refsInit (rowsInit x)) :
    Holds (after ops0 V) refsInit (rowsInit x) := by
  simp only [after_cons, after_nil]; holds_skips h
theorem arg0_1 (V : Valuation τ sig (Elt F)) (x) (h : Holds V refsInit (rowsInit x)) :
    Holds (after ops1 V) refsInit (rowsInit x) := by
  simp only [after_cons, after_nil]; holds_skips h
theorem arg0_2 (V : Valuation τ sig (Elt F)) (x) (h : Holds V refsInit (rowsInit x)) :
    Holds (after ops2 V) refsInit (rowsInit x) := by
  simp only [after_cons, after_nil]; holds_skips h
theorem arg0_3 (V : Valuation τ sig (Elt F)) (x) (h : Holds V refsInit (rowsInit x)) :
    Holds (after ops3 V) refsInit (rowsInit x) := by
  simp only [after_cons, after_nil]; holds_skips h
theorem arg0_4 (V : Valuation τ sig (Elt F)) (x) (h : Holds V refsInit (rowsInit x)) :
    Holds (after ops4 V) refsInit (rowsInit x) := by
  simp only [after_cons, after_nil]; holds_skips h
theorem arg0_5 (V : Valuation τ sig (Elt F)) (x) (h : Holds V refsInit (rowsInit x)) :
    Holds (after ops5 V) refsInit (rowsInit x) := by
  simp only [after_cons, after_nil]; holds_skips h
theorem arg0_6 (V : Valuation τ sig (Elt F)) (x) (h : Holds V refsInit (rowsInit x)) :
    Holds (after ops6 V) refsInit (rowsInit x) := by
  simp only [after_cons, after_nil]; holds_skips h
theorem arg0_7 (V : Valuation τ sig (Elt F)) (x) (h : Holds V refsInit (rowsInit x)) :
    Holds (after ops7 V) refsInit (rowsInit x) := by
  simp only [after_cons, after_nil]; holds_skips h
theorem arg0_8 (V : Valuation τ sig (Elt F)) (x) (h : Holds V refsInit (rowsInit x)) :
    Holds (after ops8 V) refsInit (rowsInit x) := by
  simp only [after_cons, after_nil]; holds_skips h
theorem arg0_9 (V : Valuation τ sig (Elt F)) (x) (h : Holds V refsInit (rowsInit x)) :
    Holds (after ops9 V) refsInit (rowsInit x) := by
  simp only [after_cons, after_nil]; holds_skips h

/-- The argument's buffer is unchanged by the host operations. -/
theorem after_arg0 (V : Valuation τ sig (Elt F)) :
    after hostOps0 V (Proc.devRef .tc main_arg0) = V (Proc.devRef .tc main_arg0) := by
  have h0 : Holds V refsInit (rowsInit (V (Proc.devRef .tc main_arg0))) :=
    ⟨rfl, fun r hr => by rcases List.mem_singleton.mp hr with rfl; rfl⟩
  have h := arg0_9 _ _ (arg0_8 _ _ (arg0_7 _ _ (arg0_6 _ _ (arg0_5 _ _ (arg0_4 _ _ (arg0_3 _ _ (arg0_2 _ _ (arg0_1 _ _
    (arg0_0 V _ h0)))))))))
  simp only [hostOps0, after_app]
  exact h.get (List.Mem.head _)

end Cert.KHostIdeal

end
-- ==== Proof.KIFrame.lean ====
/-
  The frame of the idealized dropout kernel's program, from the tile's body at its own resources: the host
  operations before the call have the facts the run asks of them; the body, wrapped as the launch's obligation, gives
  the run; every weakly fair execution terminates and the argument's buffer is unchanged, from any launch memory.
-/
import proofs.«206558_g86277303042394_cont_sun_m_1099_24_alg».proof.Proof.KHostIdeal
import proofs.«206558_g86277303042394_cont_sun_m_1099_24_alg».proof.Proof.KIBodyE
import proofs.«206558_g86277303042394_cont_sun_m_1099_24_alg».proof.Proof.Gen.Pre_finite_inputs

noncomputable section

namespace Cert.Proof.KI

open Cert.KernelIdeal Cert.KernelIdeal.Gen

open Idealize.ShloMosaic
open Idealize.SL.Sem

variable {F : FTy → Type} [FloatOps F]

/-- The host operations before the call have what the run asks of them. -/
theorem hostFacts : HostFacts (F := F) (Cert.KHostIdeal.hostOps0 (F := F)) :=
  ⟨Cert.KHostIdeal.main_eq, Cert.KHostIdeal.hostOps0_fresh, fun op h => (Cert.KHostIdeal.hostOps0_sub op h).trans tcRefs_sub,
    Cert.KHostIdeal.after_arg0⟩

/-- The program runs and leaves its argument unchanged, given the tile's body. -/
theorem frame_of_core [∀ e, Nonempty (Elt F e)] (hcore : TileCore (F := F)) (m : (ℓ : Loc nD τ sig) → Buf (Elt F) ℓ) (ρ : Dev nD → PrngReg) :
    θ_run (Cert.KernelIdeal.defs (F := F)) (Cert.KernelIdeal.threads (F := F)) ⟨m, fun _ => 0, ρ⟩
      (fun r => ∀ c : Dev nD, r.2.mem ((c.tc : Thread nD τ).loc main_arg0) = m ((c.tc : Thread nD τ).loc main_arg0)) :=
  run_mainE _ m ρ hostFacts (bodySpecE_of_core hcore)

/-- The same with the result: the result buffer holds the call's result reshaped. -/
theorem run_of_body [∀ e, Nonempty (Elt F e)] (hbody : ∀ X SC O0, BodySpec (F := F) X SC O0) (m : (ℓ : Loc nD τ sig) → Buf (Elt F) ℓ) (ρ : Dev nD → PrngReg) :
    θ_run (Cert.KernelIdeal.defs (F := F)) (Cert.KernelIdeal.threads (F := F)) ⟨m, fun _ => 0, ρ⟩ (QC (Cert.KHostIdeal.hostOps0 (F := F)) m) :=
  run_main _ m ρ hostFacts hbody

/-- The frame claim of the program. -/
theorem frame_KernelIdeal' (hcore : TileCore (F := Ideal)) :
    Cert.frame_KernelIdeal (hKernelIdeal := Cert.KernelIdeal.Gen.facts) (hPre_finite_inputs := Cert.Pre_finite_inputs.Gen.facts) :=
  fun m ρ _ => frame_of_core hcore m ρ

end Cert.Proof.KI

end
-- ==== Proof.RefRunTab.lean ====
/- (run in the unit directory; it transcribes the printed lines of the entry function, the calls inlined over their records, and lists which named value each result buffer holds). -/
import proofs.«206558_g86277303042394_cont_sun_m_1099_24_alg».proof.Proof.Gen.ReferenceIdeal
import proofs.«206558_g86277303042394_cont_sun_m_1099_24_alg».proof.Proof.HostMask
import proofs.«206558_g86277303042394_cont_sun_m_1099_24_alg».proof.Proof.HostRows

/-! # The host operations of the entry function as lists, and the table of their results

The entry function's host operations in printed order, each call replaced by the callee's operations over the call's
record, cut into consecutive chunks where the printed text is cut (by function, and by the windows of the long one);
the value of each result outside the mask chain as a named definition (the mask chain's are those of the mask module);
and per chunk the list of the buffers it writes with the named value each holds afterwards. -/

noncomputable section

namespace Cert.RefRun

open Cert.ReferenceIdeal Cert.ReferenceIdeal.Gen Idealize.ShloMosaic Idealize.ShloMosaic.TcCoe Idealize.SL.Sem Idealize.ShloMosaic.StableHlo Cert.HostRows

variable {F : FTy → Type} [FloatOps F]

/-- Chunk 0: 12 operations. -/
abbrev ops0 : List (HloOp τ sig (Elt F)) :=
  [ StableHlo.unary main_arg0 main_v0 ((transpose S8192x4x1024 [1, 0, 2] · transposes_S4x8192x1024_S8192x4x1024_1_0_2) : (⟨S4x8192x1024, .f32⟩ : BufTy).Contents (Elt F) → (⟨S8192x4x1024, .f32⟩ : BufTy).Contents (Elt F)),
    StableHlo.nullary main_c (constantI S_ 32 42#32),
    StableHlo.nullary main_c_0 (constantI S_ 32 32#32),
    StableHlo.binary main_c main_c_0 main_v1 (Host.shrui : (⟨S_, .i32⟩ : BufTy).Contents (Elt F) → (⟨S_, .i32⟩ : BufTy).Contents (Elt F) → (⟨S_, .i32⟩ : BufTy).Contents (Elt F)),
    StableHlo.unary main_v1 main_v2 (id : (⟨S_, .i32⟩ : BufTy).Contents (Elt F) → (⟨S_, .i32⟩ : BufTy).Contents (Elt F)),
    StableHlo.unary main_v2 main_v3 (broadcastInDim S1 ![] bcast_S_S1 : (⟨S_, .i32⟩ : BufTy).Contents (Elt F) → (⟨S1, .i32⟩ : BufTy).Contents (Elt F)),
    StableHlo.nullary main_c_1 (constantI S_ 32 4294967295#32),
    StableHlo.binary main_c main_c_1 main_v4 (andi : (⟨S_, .i32⟩ : BufTy).Contents (Elt F) → (⟨S_, .i32⟩ : BufTy).Contents (Elt F) → (⟨S_, .i32⟩ : BufTy).Contents (Elt F)),
    StableHlo.unary main_v4 main_v5 (id : (⟨S_, .i32⟩ : BufTy).Contents (Elt F) → (⟨S_, .i32⟩ : BufTy).Contents (Elt F)),
    StableHlo.unary main_v5 main_v6 (broadcastInDim S1 ![] bcast_S_S1 : (⟨S_, .i32⟩ : BufTy).Contents (Elt F) → (⟨S1, .i32⟩ : BufTy).Contents (Elt F)),
    StableHlo.binary main_v3 main_v6 main_v7 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst (constant S_ .f32 0x3DCCCCCD#32) ]
/-- Chunk 1: 2 operations. -/
abbrev ops1 : List (HloOp τ sig (Elt F)) :=
  [ StableHlo.TRef.nullary main_call0.cst (constant S_ .f32 0x00000000#32),
    StableHlo.TRef.nullary main_call0.cst_0 (constant S_ .f32 0x3F800000#32) ]
/-- Chunk 2: 22 operations. -/
abbrev ops2 : List (HloOp τ sig (Elt F)) :=
  [ StableHlo.TRef.unary main_call0.cst main_call0.call0.v0 id,
    StableHlo.TRef.unary main_call0.cst_0 main_call0.call0.v1 id,
    StableHlo.TRef.unary main_call0.call0.v0 main_call0.call0.v2 (broadcastInDim S1x1 ![] bcast_S_S1x1),
    StableHlo.TRef.unary main_call0.call0.v1 main_call0.call0.v3 (broadcastInDim S1x1 ![] bcast_S_S1x1),
    StableHlo.TRef.unary (.of main_v7 : StableHlo.TRef sig ⟨S2, .i32⟩) main_call0.call0.v4 (extractStridedSlice S1 ![0] · slices_S2_S1_0),
    StableHlo.TRef.reshape main_call0.call0.v4 main_call0.call0.v5 rfl shapeCasts_S1_S_,
    StableHlo.TRef.unary (.of main_v7 : StableHlo.TRef sig ⟨S2, .i32⟩) main_call0.call0.v6 (extractStridedSlice S1 ![1] · slices_S2_S1_1),
    StableHlo.TRef.reshape main_call0.call0.v6 main_call0.call0.v7 rfl shapeCasts_S1_S_,
    StableHlo.TRef.nullary main_call0.call0.v8 (iotaInDim S8192x4 64 0),
    StableHlo.TRef.nullary main_call0.call0.v9 (iotaInDim S8192x4 64 1),
    StableHlo.TRef.nullary main_call0.call0.c (constantI S_ 64 4#64),
    StableHlo.TRef.unary main_call0.call0.c main_call0.call0.v10 (broadcastInDim S8192x4 ![] bcast_S_S8192x4),
    StableHlo.TRef.binary main_call0.call0.v10 main_call0.call0.v8 main_call0.call0.v11 muli,
    StableHlo.TRef.nullary main_call0.call0.c_0 (constantI S_ 64 1#64),
    StableHlo.TRef.unary main_call0.call0.c_0 main_call0.call0.v12 (broadcastInDim S8192x4 ![] bcast_S_S8192x4),
    StableHlo.TRef.binary main_call0.call0.v12 main_call0.call0.v9 main_call0.call0.v13 muli,
    StableHlo.TRef.binary main_call0.call0.v11 main_call0.call0.v13 main_call0.call0.v14 addi,
    StableHlo.TRef.nullary main_call0.call0.c_1 (constantI S_ 64 32#64),
    StableHlo.TRef.unary main_call0.call0.c_1 main_call0.call0.v15 (broadcastInDim S8192x4 ![] bcast_S_S8192x4),
    StableHlo.TRef.binary main_call0.call0.v14 main_call0.call0.v15 main_call0.call0.v16 Host.shrui,
    StableHlo.TRef.unary main_call0.call0.v14 main_call0.call0.v17 (trunci 32 · natLt_32_64),
    StableHlo.TRef.unary main_call0.call0.v16 main_call0.call0.v18 (trunci 32 · natLt_32_64) ]
/-- Chunk 3: 60 operations. -/
abbrev ops3 : List (HloOp τ sig (Elt F)) :=
  [ StableHlo.TRef.binary main_call0.call0.v5 main_call0.call0.v7 main_call0.call0.call0.v0 xori,
    StableHlo.TRef.nullary main_call0.call0.call0.c (constantI S_ 32 466688986#32),
    StableHlo.TRef.binary main_call0.call0.call0.v0 main_call0.call0.call0.c main_call0.call0.call0.v1 xori,
    StableHlo.TRef.unary main_call0.call0.v5 main_call0.call0.call0.v2 (broadcastInDim S8192x4 ![] bcast_S_S8192x4),
    StableHlo.TRef.binary main_call0.call0.v18 main_call0.call0.call0.v2 main_call0.call0.call0.v3 addi,
    StableHlo.TRef.unary main_call0.call0.v7 main_call0.call0.call0.v4 (broadcastInDim S8192x4 ![] bcast_S_S8192x4),
    StableHlo.TRef.binary main_call0.call0.v17 main_call0.call0.call0.v4 main_call0.call0.call0.v5 addi,
    StableHlo.TRef.binary main_call0.call0.call0.v3 main_call0.call0.call0.v5 main_call0.call0.call0.v6 addi,
    StableHlo.TRef.nullary main_call0.call0.call0.c_0 (constantI S_ 32 13#32),
    StableHlo.TRef.unary main_call0.call0.call0.c_0 main_call0.call0.call0.v7 (broadcastInDim S8192x4 ![] bcast_S_S8192x4),
    StableHlo.TRef.binary main_call0.call0.call0.v5 main_call0.call0.call0.v7 main_call0.call0.call0.v8 Host.shli,
    StableHlo.TRef.nullary main_call0.call0.call0.c_1 (constantI S_ 32 19#32),
    StableHlo.TRef.unary main_call0.call0.call0.c_1 main_call0.call0.call0.v9 (broadcastInDim S8192x4 ![] bcast_S_S8192x4),
    StableHlo.TRef.binary main_call0.call0.call0.v5 main_call0.call0.call0.v9 main_call0.call0.call0.v10 Host.shrui,
    StableHlo.TRef.binary main_call0.call0.call0.v8 main_call0.call0.call0.v10 main_call0.call0.call0.v11 ori,
    StableHlo.TRef.binary main_call0.call0.call0.v6 main_call0.call0.call0.v11 main_call0.call0.call0.v12 xori,
    StableHlo.TRef.binary main_call0.call0.call0.v6 main_call0.call0.call0.v12 main_call0.call0.call0.v13 addi,
    StableHlo.TRef.nullary main_call0.call0.call0.c_2 (constantI S_ 32 15#32),
    StableHlo.TRef.unary main_call0.call0.call0.c_2 main_call0.call0.call0.v14 (broadcastInDim S8192x4 ![] bcast_S_S8192x4),
    StableHlo.TRef.binary main_call0.call0.call0.v12 main_call0.call0.call0.v14 main_call0.call0.call0.v15 Host.shli,
    StableHlo.TRef.nullary main_call0.call0.call0.c_3 (constantI S_ 32 17#32),
    StableHlo.TRef.unary main_call0.call0.call0.c_3 main_call0.call0.call0.v16 (broadcastInDim S8192x4 ![] bcast_S_S8192x4),
    StableHlo.TRef.binary main_call0.call0.call0.v12 main_call0.call0.call0.v16 main_call0.call0.call0.v17 Host.shrui,
    StableHlo.TRef.binary main_call0.call0.call0.v15 main_call0.call0.call0.v17 main_call0.call0.call0.v18 ori,
    StableHlo.TRef.binary main_call0.call0.call0.v13 main_call0.call0.call0.v18 main_call0.call0.call0.v19 xori,
    StableHlo.TRef.binary main_call0.call0.call0.v13 main_call0.call0.call0.v19 main_call0.call0.call0.v20 addi,
    StableHlo.TRef.nullary main_call0.call0.call0.c_4 (constantI S_ 32 26#32),
    StableHlo.TRef.unary main_call0.call0.call0.c_4 main_call0.call0.call0.v21 (broadcastInDim S8192x4 ![] bcast_S_S8192x4),
    StableHlo.TRef.binary main_call0.call0.call0.v19 main_call0.call0.call0.v21 main_call0.call0.call0.v22 Host.shli,
    StableHlo.TRef.nullary main_call0.call0.call0.c_5 (constantI S_ 32 6#32),
    StableHlo.TRef.unary main_call0.call0.call0.c_5 main_call0.call0.call0.v23 (broadcastInDim S8192x4 ![] bcast_S_S8192x4),
    StableHlo.TRef.binary main_call0.call0.call0.v19 main_call0.call0.call0.v23 main_call0.call0.call0.v24 Host.shrui,
    StableHlo.TRef.binary main_call0.call0.call0.v22 main_call0.call0.call0.v24 main_call0.call0.call0.v25 ori,
    StableHlo.TRef.binary main_call0.call0.call0.v20 main_call0.call0.call0.v25 main_call0.call0.call0.v26 xori,
    StableHlo.TRef.binary main_call0.call0.call0.v20 main_call0.call0.call0.v26 main_call0.call0.call0.v27 addi,
    StableHlo.TRef.nullary main_call0.call0.call0.c_6 (constantI S_ 32 6#32),
    StableHlo.TRef.unary main_call0.call0.call0.c_6 main_call0.call0.call0.v28 (broadcastInDim S8192x4 ![] bcast_S_S8192x4),
    StableHlo.TRef.binary main_call0.call0.call0.v26 main_call0.call0.call0.v28 main_call0.call0.call0.v29 Host.shli,
    StableHlo.TRef.nullary main_call0.call0.call0.c_7 (constantI S_ 32 26#32),
    StableHlo.TRef.unary main_call0.call0.call0.c_7 main_call0.call0.call0.v30 (broadcastInDim S8192x4 ![] bcast_S_S8192x4),
    StableHlo.TRef.binary main_call0.call0.call0.v26 main_call0.call0.call0.v30 main_call0.call0.call0.v31 Host.shrui,
    StableHlo.TRef.binary main_call0.call0.call0.v29 main_call0.call0.call0.v31 main_call0.call0.call0.v32 ori,
    StableHlo.TRef.binary main_call0.call0.call0.v27 main_call0.call0.call0.v32 main_call0.call0.call0.v33 xori,
    StableHlo.TRef.unary main_call0.call0.v7 main_call0.call0.call0.v34 (broadcastInDim S8192x4 ![] bcast_S_S8192x4),
    StableHlo.TRef.binary main_call0.call0.call0.v27 main_call0.call0.call0.v34 main_call0.call0.call0.v35 addi,
    StableHlo.TRef.unary main_call0.call0.call0.v1 main_call0.call0.call0.v36 (broadcastInDim S8192x4 ![] bcast_S_S8192x4),
    StableHlo.TRef.binary main_call0.call0.call0.v33 main_call0.call0.call0.v36 main_call0.call0.call0.v37 addi,
    StableHlo.TRef.nullary main_call0.call0.call0.c_8 (constantI S_ 32 1#32),
    StableHlo.TRef.unary main_call0.call0.call0.c_8 main_call0.call0.call0.v38 (broadcastInDim S8192x4 ![] bcast_S_S8192x4),
    StableHlo.TRef.binary main_call0.call0.call0.v37 main_call0.call0.call0.v38 main_call0.call0.call0.v39 addi,
    StableHlo.TRef.binary main_call0.call0.call0.v35 main_call0.call0.call0.v39 main_call0.call0.call0.v40 addi,
    StableHlo.TRef.nullary main_call0.call0.call0.c_9 (constantI S_ 32 17#32),
    StableHlo.TRef.unary main_call0.call0.call0.c_9 main_call0.call0.call0.v41 (broadcastInDim S8192x4 ![] bcast_S_S8192x4),
    StableHlo.TRef.binary main_call0.call0.call0.v39 main_call0.call0.call0.v41 main_call0.call0.call0.v42 Host.shli,
    StableHlo.TRef.nullary main_call0.call0.call0.c_10 (constantI S_ 32 15#32),
    StableHlo.TRef.unary main_call0.call0.call0.c_10 main_call0.call0.call0.v43 (broadcastInDim S8192x4 ![] bcast_S_S8192x4),
    StableHlo.TRef.binary main_call0.call0.call0.v39 main_call0.call0.call0.v43 main_call0.call0.call0.v44 Host.shrui,
    StableHlo.TRef.binary main_call0.call0.call0.v42 main_call0.call0.call0.v44 main_call0.call0.call0.v45 ori,
    StableHlo.TRef.binary main_call0.call0.call0.v40 main_call0.call0.call0.v45 main_call0.call0.call0.v46 xori,
    StableHlo.TRef.binary main_call0.call0.call0.v40 main_call0.call0.call0.v46 main_call0.call0.call0.v47 addi ]
/-- Chunk 4: 60 operations. -/
abbrev ops4 : List (HloOp τ sig (Elt F)) :=
  [ StableHlo.TRef.nullary main_call0.call0.call0.c_11 (constantI S_ 32 29#32),
    StableHlo.TRef.unary main_call0.call0.call0.c_11 main_call0.call0.call0.v48 (broadcastInDim S8192x4 ![] bcast_S_S8192x4),
    StableHlo.TRef.binary main_call0.call0.call0.v46 main_call0.call0.call0.v48 main_call0.call0.call0.v49 Host.shli,
    StableHlo.TRef.nullary main_call0.call0.call0.c_12 (constantI S_ 32 3#32),
    StableHlo.TRef.unary main_call0.call0.call0.c_12 main_call0.call0.call0.v50 (broadcastInDim S8192x4 ![] bcast_S_S8192x4),
    StableHlo.TRef.binary main_call0.call0.call0.v46 main_call0.call0.call0.v50 main_call0.call0.call0.v51 Host.shrui,
    StableHlo.TRef.binary main_call0.call0.call0.v49 main_call0.call0.call0.v51 main_call0.call0.call0.v52 ori,
    StableHlo.TRef.binary main_call0.call0.call0.v47 main_call0.call0.call0.v52 main_call0.call0.call0.v53 xori,
    StableHlo.TRef.binary main_call0.call0.call0.v47 main_call0.call0.call0.v53 main_call0.call0.call0.v54 addi,
    StableHlo.TRef.nullary main_call0.call0.call0.c_13 (constantI S_ 32 16#32),
    StableHlo.TRef.unary main_call0.call0.call0.c_13 main_call0.call0.call0.v55 (broadcastInDim S8192x4 ![] bcast_S_S8192x4),
    StableHlo.TRef.binary main_call0.call0.call0.v53 main_call0.call0.call0.v55 main_call0.call0.call0.v56 Host.shli,
    StableHlo.TRef.nullary main_call0.call0.call0.c_14 (constantI S_ 32 16#32),
    StableHlo.TRef.unary main_call0.call0.call0.c_14 main_call0.call0.call0.v57 (broadcastInDim S8192x4 ![] bcast_S_S8192x4),
    StableHlo.TRef.binary main_call0.call0.call0.v53 main_call0.call0.call0.v57 main_call0.call0.call0.v58 Host.shrui,
    StableHlo.TRef.binary main_call0.call0.call0.v56 main_call0.call0.call0.v58 main_call0.call0.call0.v59 ori,
    StableHlo.TRef.binary main_call0.call0.call0.v54 main_call0.call0.call0.v59 main_call0.call0.call0.v60 xori,
    StableHlo.TRef.binary main_call0.call0.call0.v54 main_call0.call0.call0.v60 main_call0.call0.call0.v61 addi,
    StableHlo.TRef.nullary main_call0.call0.call0.c_15 (constantI S_ 32 24#32),
    StableHlo.TRef.unary main_call0.call0.call0.c_15 main_call0.call0.call0.v62 (broadcastInDim S8192x4 ![] bcast_S_S8192x4),
    StableHlo.TRef.binary main_call0.call0.call0.v60 main_call0.call0.call0.v62 main_call0.call0.call0.v63 Host.shli,
    StableHlo.TRef.nullary main_call0.call0.call0.c_16 (constantI S_ 32 8#32),
    StableHlo.TRef.unary main_call0.call0.call0.c_16 main_call0.call0.call0.v64 (broadcastInDim S8192x4 ![] bcast_S_S8192x4),
    StableHlo.TRef.binary main_call0.call0.call0.v60 main_call0.call0.call0.v64 main_call0.call0.call0.v65 Host.shrui,
    StableHlo.TRef.binary main_call0.call0.call0.v63 main_call0.call0.call0.v65 main_call0.call0.call0.v66 ori,
    StableHlo.TRef.binary main_call0.call0.call0.v61 main_call0.call0.call0.v66 main_call0.call0.call0.v67 xori,
    StableHlo.TRef.unary main_call0.call0.call0.v1 main_call0.call0.call0.v68 (broadcastInDim S8192x4 ![] bcast_S_S8192x4),
    StableHlo.TRef.binary main_call0.call0.call0.v61 main_call0.call0.call0.v68 main_call0.call0.call0.v69 addi,
    StableHlo.TRef.unary main_call0.call0.v5 main_call0.call0.call0.v70 (broadcastInDim S8192x4 ![] bcast_S_S8192x4),
    StableHlo.TRef.binary main_call0.call0.call0.v67 main_call0.call0.call0.v70 main_call0.call0.call0.v71 addi,
    StableHlo.TRef.nullary main_call0.call0.call0.c_17 (constantI S_ 32 2#32),
    StableHlo.TRef.unary main_call0.call0.call0.c_17 main_call0.call0.call0.v72 (broadcastInDim S8192x4 ![] bcast_S_S8192x4),
    StableHlo.TRef.binary main_call0.call0.call0.v71 main_call0.call0.call0.v72 main_call0.call0.call0.v73 addi,
    StableHlo.TRef.binary main_call0.call0.call0.v69 main_call0.call0.call0.v73 main_call0.call0.call0.v74 addi,
    StableHlo.TRef.nullary main_call0.call0.call0.c_18 (constantI S_ 32 13#32),
    StableHlo.TRef.unary main_call0.call0.call0.c_18 main_call0.call0.call0.v75 (broadcastInDim S8192x4 ![] bcast_S_S8192x4),
    StableHlo.TRef.binary main_call0.call0.call0.v73 main_call0.call0.call0.v75 main_call0.call0.call0.v76 Host.shli,
    StableHlo.TRef.nullary main_call0.call0.call0.c_19 (constantI S_ 32 19#32),
    StableHlo.TRef.unary main_call0.call0.call0.c_19 main_call0.call0.call0.v77 (broadcastInDim S8192x4 ![] bcast_S_S8192x4),
    StableHlo.TRef.binary main_call0.call0.call0.v73 main_call0.call0.call0.v77 main_call0.call0.call0.v78 Host.shrui,
    StableHlo.TRef.binary main_call0.call0.call0.v76 main_call0.call0.call0.v78 main_call0.call0.call0.v79 ori,
    StableHlo.TRef.binary main_call0.call0.call0.v74 main_call0.call0.call0.v79 main_call0.call0.call0.v80 xori,
    StableHlo.TRef.binary main_call0.call0.call0.v74 main_call0.call0.call0.v80 main_call0.call0.call0.v81 addi,
    StableHlo.TRef.nullary main_call0.call0.call0.c_20 (constantI S_ 32 15#32),
    StableHlo.TRef.unary main_call0.call0.call0.c_20 main_call0.call0.call0.v82 (broadcastInDim S8192x4 ![] bcast_S_S8192x4),
    StableHlo.TRef.binary main_call0.call0.call0.v80 main_call0.call0.call0.v82 main_call0.call0.call0.v83 Host.shli,
    StableHlo.TRef.nullary main_call0.call0.call0.c_21 (constantI S_ 32 17#32),
    StableHlo.TRef.unary main_call0.call0.call0.c_21 main_call0.call0.call0.v84 (broadcastInDim S8192x4 ![] bcast_S_S8192x4),
    StableHlo.TRef.binary main_call0.call0.call0.v80 main_call0.call0.call0.v84 main_call0.call0.call0.v85 Host.shrui,
    StableHlo.TRef.binary main_call0.call0.call0.v83 main_call0.call0.call0.v85 main_call0.call0.call0.v86 ori,
    StableHlo.TRef.binary main_call0.call0.call0.v81 main_call0.call0.call0.v86 main_call0.call0.call0.v87 xori,
    StableHlo.TRef.binary main_call0.call0.call0.v81 main_call0.call0.call0.v87 main_call0.call0.call0.v88 addi,
    StableHlo.TRef.nullary main_call0.call0.call0.c_22 (constantI S_ 32 26#32),
    StableHlo.TRef.unary main_call0.call0.call0.c_22 main_call0.call0.call0.v89 (broadcastInDim S8192x4 ![] bcast_S_S8192x4),
    StableHlo.TRef.binary main_call0.call0.call0.v87 main_call0.call0.call0.v89 main_call0.call0.call0.v90 Host.shli,
    StableHlo.TRef.nullary main_call0.call0.call0.c_23 (constantI S_ 32 6#32),
    StableHlo.TRef.unary main_call0.call0.call0.c_23 main_call0.call0.call0.v91 (broadcastInDim S8192x4 ![] bcast_S_S8192x4),
    StableHlo.TRef.binary main_call0.call0.call0.v87 main_call0.call0.call0.v91 main_call0.call0.call0.v92 Host.shrui,
    StableHlo.TRef.binary main_call0.call0.call0.v90 main_call0.call0.call0.v92 main_call0.call0.call0.v93 ori,
    StableHlo.TRef.binary main_call0.call0.call0.v88 main_call0.call0.call0.v93 main_call0.call0.call0.v94 xori ]
/-- Chunk 5: 60 operations. -/
abbrev ops5 : List (HloOp τ sig (Elt F)) :=
  [ StableHlo.TRef.binary main_call0.call0.call0.v88 main_call0.call0.call0.v94 main_call0.call0.call0.v95 addi,
    StableHlo.TRef.nullary main_call0.call0.call0.c_24 (constantI S_ 32 6#32),
    StableHlo.TRef.unary main_call0.call0.call0.c_24 main_call0.call0.call0.v96 (broadcastInDim S8192x4 ![] bcast_S_S8192x4),
    StableHlo.TRef.binary main_call0.call0.call0.v94 main_call0.call0.call0.v96 main_call0.call0.call0.v97 Host.shli,
    StableHlo.TRef.nullary main_call0.call0.call0.c_25 (constantI S_ 32 26#32),
    StableHlo.TRef.unary main_call0.call0.call0.c_25 main_call0.call0.call0.v98 (broadcastInDim S8192x4 ![] bcast_S_S8192x4),
    StableHlo.TRef.binary main_call0.call0.call0.v94 main_call0.call0.call0.v98 main_call0.call0.call0.v99 Host.shrui,
    StableHlo.TRef.binary main_call0.call0.call0.v97 main_call0.call0.call0.v99 main_call0.call0.call0.v100 ori,
    StableHlo.TRef.binary main_call0.call0.call0.v95 main_call0.call0.call0.v100 main_call0.call0.call0.v101 xori,
    StableHlo.TRef.unary main_call0.call0.v5 main_call0.call0.call0.v102 (broadcastInDim S8192x4 ![] bcast_S_S8192x4),
    StableHlo.TRef.binary main_call0.call0.call0.v95 main_call0.call0.call0.v102 main_call0.call0.call0.v103 addi,
    StableHlo.TRef.unary main_call0.call0.v7 main_call0.call0.call0.v104 (broadcastInDim S8192x4 ![] bcast_S_S8192x4),
    StableHlo.TRef.binary main_call0.call0.call0.v101 main_call0.call0.call0.v104 main_call0.call0.call0.v105 addi,
    StableHlo.TRef.nullary main_call0.call0.call0.c_26 (constantI S_ 32 3#32),
    StableHlo.TRef.unary main_call0.call0.call0.c_26 main_call0.call0.call0.v106 (broadcastInDim S8192x4 ![] bcast_S_S8192x4),
    StableHlo.TRef.binary main_call0.call0.call0.v105 main_call0.call0.call0.v106 main_call0.call0.call0.v107 addi,
    StableHlo.TRef.binary main_call0.call0.call0.v103 main_call0.call0.call0.v107 main_call0.call0.call0.v108 addi,
    StableHlo.TRef.nullary main_call0.call0.call0.c_27 (constantI S_ 32 17#32),
    StableHlo.TRef.unary main_call0.call0.call0.c_27 main_call0.call0.call0.v109 (broadcastInDim S8192x4 ![] bcast_S_S8192x4),
    StableHlo.TRef.binary main_call0.call0.call0.v107 main_call0.call0.call0.v109 main_call0.call0.call0.v110 Host.shli,
    StableHlo.TRef.nullary main_call0.call0.call0.c_28 (constantI S_ 32 15#32),
    StableHlo.TRef.unary main_call0.call0.call0.c_28 main_call0.call0.call0.v111 (broadcastInDim S8192x4 ![] bcast_S_S8192x4),
    StableHlo.TRef.binary main_call0.call0.call0.v107 main_call0.call0.call0.v111 main_call0.call0.call0.v112 Host.shrui,
    StableHlo.TRef.binary main_call0.call0.call0.v110 main_call0.call0.call0.v112 main_call0.call0.call0.v113 ori,
    StableHlo.TRef.binary main_call0.call0.call0.v108 main_call0.call0.call0.v113 main_call0.call0.call0.v114 xori,
    StableHlo.TRef.binary main_call0.call0.call0.v108 main_call0.call0.call0.v114 main_call0.call0.call0.v115 addi,
    StableHlo.TRef.nullary main_call0.call0.call0.c_29 (constantI S_ 32 29#32),
    StableHlo.TRef.unary main_call0.call0.call0.c_29 main_call0.call0.call0.v116 (broadcastInDim S8192x4 ![] bcast_S_S8192x4),
    StableHlo.TRef.binary main_call0.call0.call0.v114 main_call0.call0.call0.v116 main_call0.call0.call0.v117 Host.shli,
    StableHlo.TRef.nullary main_call0.call0.call0.c_30 (constantI S_ 32 3#32),
    StableHlo.TRef.unary main_call0.call0.call0.c_30 main_call0.call0.call0.v118 (broadcastInDim S8192x4 ![] bcast_S_S8192x4),
    StableHlo.TRef.binary main_call0.call0.call0.v114 main_call0.call0.call0.v118 main_call0.call0.call0.v119 Host.shrui,
    StableHlo.TRef.binary main_call0.call0.call0.v117 main_call0.call0.call0.v119 main_call0.call0.call0.v120 ori,
    StableHlo.TRef.binary main_call0.call0.call0.v115 main_call0.call0.call0.v120 main_call0.call0.call0.v121 xori,
    StableHlo.TRef.binary main_call0.call0.call0.v115 main_call0.call0.call0.v121 main_call0.call0.call0.v122 addi,
    StableHlo.TRef.nullary main_call0.call0.call0.c_31 (constantI S_ 32 16#32),
    StableHlo.TRef.unary main_call0.call0.call0.c_31 main_call0.call0.call0.v123 (broadcastInDim S8192x4 ![] bcast_S_S8192x4),
    StableHlo.TRef.binary main_call0.call0.call0.v121 main_call0.call0.call0.v123 main_call0.call0.call0.v124 Host.shli,
    StableHlo.TRef.nullary main_call0.call0.call0.c_32 (constantI S_ 32 16#32),
    StableHlo.TRef.unary main_call0.call0.call0.c_32 main_call0.call0.call0.v125 (broadcastInDim S8192x4 ![] bcast_S_S8192x4),
    StableHlo.TRef.binary main_call0.call0.call0.v121 main_call0.call0.call0.v125 main_call0.call0.call0.v126 Host.shrui,
    StableHlo.TRef.binary main_call0.call0.call0.v124 main_call0.call0.call0.v126 main_call0.call0.call0.v127 ori,
    StableHlo.TRef.binary main_call0.call0.call0.v122 main_call0.call0.call0.v127 main_call0.call0.call0.v128 xori,
    StableHlo.TRef.binary main_call0.call0.call0.v122 main_call0.call0.call0.v128 main_call0.call0.call0.v129 addi,
    StableHlo.TRef.nullary main_call0.call0.call0.c_33 (constantI S_ 32 24#32),
    StableHlo.TRef.unary main_call0.call0.call0.c_33 main_call0.call0.call0.v130 (broadcastInDim S8192x4 ![] bcast_S_S8192x4),
    StableHlo.TRef.binary main_call0.call0.call0.v128 main_call0.call0.call0.v130 main_call0.call0.call0.v131 Host.shli,
    StableHlo.TRef.nullary main_call0.call0.call0.c_34 (constantI S_ 32 8#32),
    StableHlo.TRef.unary main_call0.call0.call0.c_34 main_call0.call0.call0.v132 (broadcastInDim S8192x4 ![] bcast_S_S8192x4),
    StableHlo.TRef.binary main_call0.call0.call0.v128 main_call0.call0.call0.v132 main_call0.call0.call0.v133 Host.shrui,
    StableHlo.TRef.binary main_call0.call0.call0.v131 main_call0.call0.call0.v133 main_call0.call0.call0.v134 ori,
    StableHlo.TRef.binary main_call0.call0.call0.v129 main_call0.call0.call0.v134 main_call0.call0.call0.v135 xori,
    StableHlo.TRef.unary main_call0.call0.v7 main_call0.call0.call0.v136 (broadcastInDim S8192x4 ![] bcast_S_S8192x4),
    StableHlo.TRef.binary main_call0.call0.call0.v129 main_call0.call0.call0.v136 main_call0.call0.call0.v137 addi,
    StableHlo.TRef.unary main_call0.call0.call0.v1 main_call0.call0.call0.v138 (broadcastInDim S8192x4 ![] bcast_S_S8192x4),
    StableHlo.TRef.binary main_call0.call0.call0.v135 main_call0.call0.call0.v138 main_call0.call0.call0.v139 addi,
    StableHlo.TRef.nullary main_call0.call0.call0.c_35 (constantI S_ 32 4#32),
    StableHlo.TRef.unary main_call0.call0.call0.c_35 main_call0.call0.call0.v140 (broadcastInDim S8192x4 ![] bcast_S_S8192x4),
    StableHlo.TRef.binary main_call0.call0.call0.v139 main_call0.call0.call0.v140 main_call0.call0.call0.v141 addi,
    StableHlo.TRef.binary main_call0.call0.call0.v137 main_call0.call0.call0.v141 main_call0.call0.call0.v142 addi ]
/-- Chunk 6: 42 operations. -/
abbrev ops6 : List (HloOp τ sig (Elt F)) :=
  [ StableHlo.TRef.nullary main_call0.call0.call0.c_36 (constantI S_ 32 13#32),
    StableHlo.TRef.unary main_call0.call0.call0.c_36 main_call0.call0.call0.v143 (broadcastInDim S8192x4 ![] bcast_S_S8192x4),
    StableHlo.TRef.binary main_call0.call0.call0.v141 main_call0.call0.call0.v143 main_call0.call0.call0.v144 Host.shli,
    StableHlo.TRef.nullary main_call0.call0.call0.c_37 (constantI S_ 32 19#32),
    StableHlo.TRef.unary main_call0.call0.call0.c_37 main_call0.call0.call0.v145 (broadcastInDim S8192x4 ![] bcast_S_S8192x4),
    StableHlo.TRef.binary main_call0.call0.call0.v141 main_call0.call0.call0.v145 main_call0.call0.call0.v146 Host.shrui,
    StableHlo.TRef.binary main_call0.call0.call0.v144 main_call0.call0.call0.v146 main_call0.call0.call0.v147 ori,
    StableHlo.TRef.binary main_call0.call0.call0.v142 main_call0.call0.call0.v147 main_call0.call0.call0.v148 xori,
    StableHlo.TRef.binary main_call0.call0.call0.v142 main_call0.call0.call0.v148 main_call0.call0.call0.v149 addi,
    StableHlo.TRef.nullary main_call0.call0.call0.c_38 (constantI S_ 32 15#32),
    StableHlo.TRef.unary main_call0.call0.call0.c_38 main_call0.call0.call0.v150 (broadcastInDim S8192x4 ![] bcast_S_S8192x4),
    StableHlo.TRef.binary main_call0.call0.call0.v148 main_call0.call0.call0.v150 main_call0.call0.call0.v151 Host.shli,
    StableHlo.TRef.nullary main_call0.call0.call0.c_39 (constantI S_ 32 17#32),
    StableHlo.TRef.unary main_call0.call0.call0.c_39 main_call0.call0.call0.v152 (broadcastInDim S8192x4 ![] bcast_S_S8192x4),
    StableHlo.TRef.binary main_call0.call0.call0.v148 main_call0.call0.call0.v152 main_call0.call0.call0.v153 Host.shrui,
    StableHlo.TRef.binary main_call0.call0.call0.v151 main_call0.call0.call0.v153 main_call0.call0.call0.v154 ori,
    StableHlo.TRef.binary main_call0.call0.call0.v149 main_call0.call0.call0.v154 main_call0.call0.call0.v155 xori,
    StableHlo.TRef.binary main_call0.call0.call0.v149 main_call0.call0.call0.v155 main_call0.call0.call0.v156 addi,
    StableHlo.TRef.nullary main_call0.call0.call0.c_40 (constantI S_ 32 26#32),
    StableHlo.TRef.unary main_call0.call0.call0.c_40 main_call0.call0.call0.v157 (broadcastInDim S8192x4 ![] bcast_S_S8192x4),
    StableHlo.TRef.binary main_call0.call0.call0.v155 main_call0.call0.call0.v157 main_call0.call0.call0.v158 Host.shli,
    StableHlo.TRef.nullary main_call0.call0.call0.c_41 (constantI S_ 32 6#32),
    StableHlo.TRef.unary main_call0.call0.call0.c_41 main_call0.call0.call0.v159 (broadcastInDim S8192x4 ![] bcast_S_S8192x4),
    StableHlo.TRef.binary main_call0.call0.call0.v155 main_call0.call0.call0.v159 main_call0.call0.call0.v160 Host.shrui,
    StableHlo.TRef.binary main_call0.call0.call0.v158 main_call0.call0.call0.v160 main_call0.call0.call0.v161 ori,
    StableHlo.TRef.binary main_call0.call0.call0.v156 main_call0.call0.call0.v161 main_call0.call0.call0.v162 xori,
    StableHlo.TRef.binary main_call0.call0.call0.v156 main_call0.call0.call0.v162 main_call0.call0.call0.v163 addi,
    StableHlo.TRef.nullary main_call0.call0.call0.c_42 (constantI S_ 32 6#32),
    StableHlo.TRef.unary main_call0.call0.call0.c_42 main_call0.call0.call0.v164 (broadcastInDim S8192x4 ![] bcast_S_S8192x4),
    StableHlo.TRef.binary main_call0.call0.call0.v162 main_call0.call0.call0.v164 main_call0.call0.call0.v165 Host.shli,
    StableHlo.TRef.nullary main_call0.call0.call0.c_43 (constantI S_ 32 26#32),
    StableHlo.TRef.unary main_call0.call0.call0.c_43 main_call0.call0.call0.v166 (broadcastInDim S8192x4 ![] bcast_S_S8192x4),
    StableHlo.TRef.binary main_call0.call0.call0.v162 main_call0.call0.call0.v166 main_call0.call0.call0.v167 Host.shrui,
    StableHlo.TRef.binary main_call0.call0.call0.v165 main_call0.call0.call0.v167 main_call0.call0.call0.v168 ori,
    StableHlo.TRef.binary main_call0.call0.call0.v163 main_call0.call0.call0.v168 main_call0.call0.call0.v169 xori,
    StableHlo.TRef.unary main_call0.call0.call0.v1 main_call0.call0.call0.v170 (broadcastInDim S8192x4 ![] bcast_S_S8192x4),
    StableHlo.TRef.binary main_call0.call0.call0.v163 main_call0.call0.call0.v170 main_call0.call0.call0.v171 addi,
    StableHlo.TRef.unary main_call0.call0.v5 main_call0.call0.call0.v172 (broadcastInDim S8192x4 ![] bcast_S_S8192x4),
    StableHlo.TRef.binary main_call0.call0.call0.v169 main_call0.call0.call0.v172 main_call0.call0.call0.v173 addi,
    StableHlo.TRef.nullary main_call0.call0.call0.c_44 (constantI S_ 32 5#32),
    StableHlo.TRef.unary main_call0.call0.call0.c_44 main_call0.call0.call0.v174 (broadcastInDim S8192x4 ![] bcast_S_S8192x4),
    StableHlo.TRef.binary main_call0.call0.call0.v173 main_call0.call0.call0.v174 main_call0.call0.call0.v175 addi ]
/-- Chunk 7: 18 operations. -/
abbrev ops7 : List (HloOp τ sig (Elt F)) :=
  [ StableHlo.TRef.binary main_call0.call0.call0.v171 main_call0.call0.call0.v175 main_call0.call0.v20 xori,
    StableHlo.TRef.nullary main_call0.call0.c_2 (constantI S_ 32 9#32),
    StableHlo.TRef.unary main_call0.call0.c_2 main_call0.call0.v21 (broadcastInDim S8192x4 ![] bcast_S_S8192x4),
    StableHlo.TRef.binary main_call0.call0.v20 main_call0.call0.v21 main_call0.call0.v22 Host.shrui,
    StableHlo.TRef.nullary main_call0.call0.c_3 (constantI S_ 32 1065353216#32),
    StableHlo.TRef.unary main_call0.call0.c_3 main_call0.call0.v23 (broadcastInDim S8192x4 ![] bcast_S_S8192x4),
    StableHlo.TRef.binary main_call0.call0.v22 main_call0.call0.v23 main_call0.call0.v24 ori,
    StableHlo.TRef.unary main_call0.call0.v24 main_call0.call0.v25 (bitcastToFloat .f32),
    StableHlo.TRef.nullary main_call0.call0.cst (constant S_ .f32 0x3F800000#32),
    StableHlo.TRef.unary main_call0.call0.cst main_call0.call0.v26 (broadcastInDim S8192x4 ![] bcast_S_S8192x4),
    StableHlo.TRef.binary main_call0.call0.v25 main_call0.call0.v26 main_call0.call0.v27 subf,
    StableHlo.TRef.binary main_call0.call0.v3 main_call0.call0.v2 main_call0.call0.v28 subf,
    StableHlo.TRef.unary main_call0.call0.v28 main_call0.call0.v29 (broadcastInDim S8192x4 ![0, 1] bcast_S1x1_S8192x4_0_1),
    StableHlo.TRef.binary main_call0.call0.v27 main_call0.call0.v29 main_call0.call0.v30 mulf,
    StableHlo.TRef.unary main_call0.call0.v2 main_call0.call0.v31 (broadcastInDim S8192x4 ![0, 1] bcast_S1x1_S8192x4_0_1),
    StableHlo.TRef.binary main_call0.call0.v30 main_call0.call0.v31 main_call0.call0.v32 addf,
    StableHlo.TRef.unary main_call0.call0.v2 main_call0.call0.v33 (broadcastInDim S8192x4 ![0, 1] bcast_S1x1_S8192x4_0_1),
    StableHlo.TRef.binary main_call0.call0.v33 main_call0.call0.v32 main_call0.call0.v34 maximumf ]
/-- Chunk 8: 2 operations. -/
abbrev ops8 : List (HloOp τ sig (Elt F)) :=
  [ StableHlo.TRef.unary (.of main_cst : StableHlo.TRef sig ⟨S_, .f32⟩) main_call0.v1 (broadcastInDim S8192x4 ![] bcast_S_S8192x4),
    StableHlo.TRef.binary main_call0.call0.v34 main_call0.v1 main_call0.v2 (cmpf .olt) ]
/-- Chunk 9: 9 operations. -/
abbrev ops9 : List (HloOp τ sig (Elt F)) :=
  [ StableHlo.unary main_v8 main_v9 (broadcastInDim S8192x4x1 ![0, 1] bcast_S8192x4_S8192x4x1_0_1 : (⟨S8192x4, .i1⟩ : BufTy).Contents (Elt F) → (⟨S8192x4x1, .i1⟩ : BufTy).Contents (Elt F)),
    StableHlo.nullary main_cst_2 (constant S_ .f32 0x00000000#32),
    StableHlo.TRef.unary (.of main_v9 : StableHlo.TRef sig ⟨S8192x4x1, .i1⟩) main_call1.v0 (broadcastInDim S8192x4x1024 ![0, 1, 2] bcast_S8192x4x1_S8192x4x1024_0_1_2),
    StableHlo.TRef.unary (.of main_cst_2 : StableHlo.TRef sig ⟨S_, .f32⟩) main_call1.v1 (broadcastInDim S8192x4x1024 ![] bcast_S_S8192x4x1024),
    StableHlo.TRef.ternary main_call1.v0 main_call1.v1 (.of main_v0 : StableHlo.TRef sig ⟨S8192x4x1024, .f32⟩) main_call1.v2 select,
    StableHlo.unary main_v10 main_v11 ((transpose S4x8192x1024 [1, 0, 2] · transposes_S8192x4x1024_S4x8192x1024_1_0_2) : (⟨S8192x4x1024, .f32⟩ : BufTy).Contents (Elt F) → (⟨S4x8192x1024, .f32⟩ : BufTy).Contents (Elt F)),
    StableHlo.nullary main_cst_3 (constant S_ .f32 0x3F8E38E4#32),
    StableHlo.unary main_cst_3 main_v12 (broadcastInDim S4x8192x1024 ![] bcast_S_S4x8192x1024 : (⟨S_, .f32⟩ : BufTy).Contents (Elt F) → (⟨S4x8192x1024, .f32⟩ : BufTy).Contents (Elt F)),
    StableHlo.binary main_v11 main_v12 main_v13 (mulf : (⟨S4x8192x1024, .f32⟩ : BufTy).Contents (Elt F) → (⟨S4x8192x1024, .f32⟩ : BufTy).Contents (Elt F) → (⟨S4x8192x1024, .f32⟩ : BufTy).Contents (Elt F)) ]
/-- The host operations before the SparseCore call (of the whole @main when there is none), in order, calls inlined: the chunks appended. -/
abbrev hostOps0 : List (HloOp τ sig (Elt F)) :=
  ops0 ++ (ops1 ++ (ops2 ++ (ops3 ++ (ops4 ++ (ops5 ++ (ops6 ++ (ops7 ++ (ops8 ++ (ops9)))))))))

/-! The named values of the results outside the mask chain, over the argument's contents. -/
def v_main_v0 (x : (⟨S4x8192x1024, .f32⟩ : BufTy).Contents (Elt F)) : (⟨S8192x4x1024, .f32⟩ : BufTy).Contents (Elt F) := ((transpose S8192x4x1024 [1, 0, 2] · transposes_S4x8192x1024_S8192x4x1024_1_0_2) : (⟨S4x8192x1024, .f32⟩ : BufTy).Contents (Elt F) → (⟨S8192x4x1024, .f32⟩ : BufTy).Contents (Elt F)) (x)
def v_main_v9 : (⟨S8192x4x1, .i1⟩ : BufTy).Contents (Elt F) := (broadcastInDim S8192x4x1 ![0, 1] bcast_S8192x4_S8192x4x1_0_1 : (⟨S8192x4, .i1⟩ : BufTy).Contents (Elt F) → (⟨S8192x4x1, .i1⟩ : BufTy).Contents (Elt F)) (Cert.HostMask.b_v2 (F := F))
def v_main_cst_2 : (⟨S_, .f32⟩ : BufTy).Contents (Elt F) := (constant S_ .f32 0x00000000#32)
def v_main_call1_v0 : (⟨S8192x4x1024, .i1⟩ : BufTy).Contents (Elt F) := (broadcastInDim S8192x4x1024 ![0, 1, 2] bcast_S8192x4x1_S8192x4x1024_0_1_2) (v_main_v9 (F := F))
def v_main_call1_v1 : (⟨S8192x4x1024, .f32⟩ : BufTy).Contents (Elt F) := (broadcastInDim S8192x4x1024 ![] bcast_S_S8192x4x1024) (v_main_cst_2 (F := F))
def v_main_v10 (x : (⟨S4x8192x1024, .f32⟩ : BufTy).Contents (Elt F)) : (⟨S8192x4x1024, .f32⟩ : BufTy).Contents (Elt F) := select (v_main_call1_v0 (F := F)) (v_main_call1_v1 (F := F)) (v_main_v0 x)
def v_main_v11 (x : (⟨S4x8192x1024, .f32⟩ : BufTy).Contents (Elt F)) : (⟨S4x8192x1024, .f32⟩ : BufTy).Contents (Elt F) := ((transpose S4x8192x1024 [1, 0, 2] · transposes_S8192x4x1024_S4x8192x1024_1_0_2) : (⟨S8192x4x1024, .f32⟩ : BufTy).Contents (Elt F) → (⟨S4x8192x1024, .f32⟩ : BufTy).Contents (Elt F)) (v_main_v10 x)
def v_main_cst_3 : (⟨S_, .f32⟩ : BufTy).Contents (Elt F) := (constant S_ .f32 0x3F8E38E4#32)
def v_main_v12 : (⟨S4x8192x1024, .f32⟩ : BufTy).Contents (Elt F) := (broadcastInDim S4x8192x1024 ![] bcast_S_S4x8192x1024 : (⟨S_, .f32⟩ : BufTy).Contents (Elt F) → (⟨S4x8192x1024, .f32⟩ : BufTy).Contents (Elt F)) (v_main_cst_3 (F := F))
def v_main_v13 (x : (⟨S4x8192x1024, .f32⟩ : BufTy).Contents (Elt F)) : (⟨S4x8192x1024, .f32⟩ : BufTy).Contents (Elt F) := (mulf : (⟨S4x8192x1024, .f32⟩ : BufTy).Contents (Elt F) → (⟨S4x8192x1024, .f32⟩ : BufTy).Contents (Elt F) → (⟨S4x8192x1024, .f32⟩ : BufTy).Contents (Elt F)) (v_main_v11 x) (v_main_v12 (F := F))

/-! The buffers written, chunk by chunk (latest first, each list continuing the one before), and which named value each holds. -/
abbrev refsInit : List (Ref sig .tc) := [main_arg0]
abbrev rowsInit (x : (⟨S4x8192x1024, .f32⟩ : BufTy).Contents (Elt F)) : List (Row sig (Elt F)) := [⟨main_arg0, x⟩]
abbrev refs0 : List (Ref sig .tc) :=
  main_cst ::
  main_v7 ::
  main_v6 ::
  main_v5 ::
  main_v4 ::
  main_c_1 ::
  main_v3 ::
  main_v2 ::
  main_v1 ::
  main_c_0 ::
  main_c ::
  main_v0 ::
  refsInit
abbrev rows0 (x : (⟨S4x8192x1024, .f32⟩ : BufTy).Contents (Elt F)) : List (Row sig (Elt F)) :=
  ⟨main_cst, Cert.HostMask.m10 (F := F)⟩ ::
  ⟨main_v7, Cert.HostMask.m9 (F := F)⟩ ::
  ⟨main_v6, Cert.HostMask.m8 (F := F)⟩ ::
  ⟨main_v5, Cert.HostMask.m7 (F := F)⟩ ::
  ⟨main_v4, Cert.HostMask.m6 (F := F)⟩ ::
  ⟨main_c_1, Cert.HostMask.m5 (F := F)⟩ ::
  ⟨main_v3, Cert.HostMask.m4 (F := F)⟩ ::
  ⟨main_v2, Cert.HostMask.m3 (F := F)⟩ ::
  ⟨main_v1, Cert.HostMask.m2 (F := F)⟩ ::
  ⟨main_c_0, Cert.HostMask.m1 (F := F)⟩ ::
  ⟨main_c, Cert.HostMask.m0 (F := F)⟩ ::
  ⟨main_v0, v_main_v0 x⟩ ::
  rowsInit x
abbrev refs1 : List (Ref sig .tc) :=
  main_call0_cst_0 ::
  main_call0_cst ::
  refs0
abbrev rows1 (x : (⟨S4x8192x1024, .f32⟩ : BufTy).Contents (Elt F)) : List (Row sig (Elt F)) :=
  ⟨main_call0_cst_0, Cert.HostMask.b_cst_0 (F := F)⟩ ::
  ⟨main_call0_cst, Cert.HostMask.b_cst (F := F)⟩ ::
  rows0 x
abbrev refs2 : List (Ref sig .tc) :=
  main_call0_call0_v18 ::
  main_call0_call0_v17 ::
  main_call0_call0_v16 ::
  main_call0_call0_v15 ::
  main_call0_call0_c_1 ::
  main_call0_call0_v14 ::
  main_call0_call0_v13 ::
  main_call0_call0_v12 ::
  main_call0_call0_c_0 ::
  main_call0_call0_v11 ::
  main_call0_call0_v10 ::
  main_call0_call0_c ::
  main_call0_call0_v9 ::
  main_call0_call0_v8 ::
  main_call0_call0_v7 ::
  main_call0_call0_v6 ::
  main_call0_call0_v5 ::
  main_call0_call0_v4 ::
  main_call0_call0_v3 ::
  main_call0_call0_v2 ::
  main_call0_call0_v1 ::
  main_call0_call0_v0 ::
  refs1
abbrev rows2 (x : (⟨S4x8192x1024, .f32⟩ : BufTy).Contents (Elt F)) : List (Row sig (Elt F)) :=
  ⟨main_call0_call0_v18, Cert.HostMask.u_v18 (F := F)⟩ ::
  ⟨main_call0_call0_v17, Cert.HostMask.u_v17 (F := F)⟩ ::
  ⟨main_call0_call0_v16, Cert.HostMask.u_v16 (F := F)⟩ ::
  ⟨main_call0_call0_v15, Cert.HostMask.u_v15 (F := F)⟩ ::
  ⟨main_call0_call0_c_1, Cert.HostMask.u_c_1 (F := F)⟩ ::
  ⟨main_call0_call0_v14, Cert.HostMask.u_v14 (F := F)⟩ ::
  ⟨main_call0_call0_v13, Cert.HostMask.u_v13 (F := F)⟩ ::
  ⟨main_call0_call0_v12, Cert.HostMask.u_v12 (F := F)⟩ ::
  ⟨main_call0_call0_c_0, Cert.HostMask.u_c_0 (F := F)⟩ ::
  ⟨main_call0_call0_v11, Cert.HostMask.u_v11 (F := F)⟩ ::
  ⟨main_call0_call0_v10, Cert.HostMask.u_v10 (F := F)⟩ ::
  ⟨main_call0_call0_c, Cert.HostMask.u_c (F := F)⟩ ::
  ⟨main_call0_call0_v9, Cert.HostMask.u_v9 (F := F)⟩ ::
  ⟨main_call0_call0_v8, Cert.HostMask.u_v8 (F := F)⟩ ::
  ⟨main_call0_call0_v7, Cert.HostMask.u_v7 (F := F)⟩ ::
  ⟨main_call0_call0_v6, Cert.HostMask.u_v6 (F := F)⟩ ::
  ⟨main_call0_call0_v5, Cert.HostMask.u_v5 (F := F)⟩ ::
  ⟨main_call0_call0_v4, Cert.HostMask.u_v4 (F := F)⟩ ::
  ⟨main_call0_call0_v3, Cert.HostMask.u_v3 (F := F)⟩ ::
  ⟨main_call0_call0_v2, Cert.HostMask.u_v2 (F := F)⟩ ::
  ⟨main_call0_call0_v1, Cert.HostMask.u_v1 (F := F)⟩ ::
  ⟨main_call0_call0_v0, Cert.HostMask.u_v0 (F := F)⟩ ::
  rows1 x
abbrev refs3 : List (Ref sig .tc) :=
  main_call0_call0_call0_v47 ::
  main_call0_call0_call0_v46 ::
  main_call0_call0_call0_v45 ::
  main_call0_call0_call0_v44 ::
  main_call0_call0_call0_v43 ::
  main_call0_call0_call0_c_10 ::
  main_call0_call0_call0_v42 ::
  main_call0_call0_call0_v41 ::
  main_call0_call0_call0_c_9 ::
  main_call0_call0_call0_v40 ::
  main_call0_call0_call0_v39 ::
  main_call0_call0_call0_v38 ::
  main_call0_call0_call0_c_8 ::
  main_call0_call0_call0_v37 ::
  main_call0_call0_call0_v36 ::
  main_call0_call0_call0_v35 ::
  main_call0_call0_call0_v34 ::
  main_call0_call0_call0_v33 ::
  main_call0_call0_call0_v32 ::
  main_call0_call0_call0_v31 ::
  main_call0_call0_call0_v30 ::
  main_call0_call0_call0_c_7 ::
  main_call0_call0_call0_v29 ::
  main_call0_call0_call0_v28 ::
  main_call0_call0_call0_c_6 ::
  main_call0_call0_call0_v27 ::
  main_call0_call0_call0_v26 ::
  main_call0_call0_call0_v25 ::
  main_call0_call0_call0_v24 ::
  main_call0_call0_call0_v23 ::
  main_call0_call0_call0_c_5 ::
  main_call0_call0_call0_v22 ::
  main_call0_call0_call0_v21 ::
  main_call0_call0_call0_c_4 ::
  main_call0_call0_call0_v20 ::
  main_call0_call0_call0_v19 ::
  main_call0_call0_call0_v18 ::
  main_call0_call0_call0_v17 ::
  main_call0_call0_call0_v16 ::
  main_call0_call0_call0_c_3 ::
  main_call0_call0_call0_v15 ::
  main_call0_call0_call0_v14 ::
  main_call0_call0_call0_c_2 ::
  main_call0_call0_call0_v13 ::
  main_call0_call0_call0_v12 ::
  main_call0_call0_call0_v11 ::
  main_call0_call0_call0_v10 ::
  main_call0_call0_call0_v9 ::
  main_call0_call0_call0_c_1 ::
  main_call0_call0_call0_v8 ::
  main_call0_call0_call0_v7 ::
  main_call0_call0_call0_c_0 ::
  main_call0_call0_call0_v6 ::
  main_call0_call0_call0_v5 ::
  main_call0_call0_call0_v4 ::
  main_call0_call0_call0_v3 ::
  main_call0_call0_call0_v2 ::
  main_call0_call0_call0_v1 ::
  main_call0_call0_call0_c ::
  main_call0_call0_call0_v0 ::
  refs2
abbrev rows3 (x : (⟨S4x8192x1024, .f32⟩ : BufTy).Contents (Elt F)) : List (Row sig (Elt F)) :=
  ⟨main_call0_call0_call0_v47, Cert.HostMask.t_v47 (F := F)⟩ ::
  ⟨main_call0_call0_call0_v46, Cert.HostMask.t_v46 (F := F)⟩ ::
  ⟨main_call0_call0_call0_v45, Cert.HostMask.t_v45 (F := F)⟩ ::
  ⟨main_call0_call0_call0_v44, Cert.HostMask.t_v44 (F := F)⟩ ::
  ⟨main_call0_call0_call0_v43, Cert.HostMask.t_v43 (F := F)⟩ ::
  ⟨main_call0_call0_call0_c_10, Cert.HostMask.t_c_10 (F := F)⟩ ::
  ⟨main_call0_call0_call0_v42, Cert.HostMask.t_v42 (F := F)⟩ ::
  ⟨main_call0_call0_call0_v41, Cert.HostMask.t_v41 (F := F)⟩ ::
  ⟨main_call0_call0_call0_c_9, Cert.HostMask.t_c_9 (F := F)⟩ ::
  ⟨main_call0_call0_call0_v40, Cert.HostMask.t_v40 (F := F)⟩ ::
  ⟨main_call0_call0_call0_v39, Cert.HostMask.t_v39 (F := F)⟩ ::
  ⟨main_call0_call0_call0_v38, Cert.HostMask.t_v38 (F := F)⟩ ::
  ⟨main_call0_call0_call0_c_8, Cert.HostMask.t_c_8 (F := F)⟩ ::
  ⟨main_call0_call0_call0_v37, Cert.HostMask.t_v37 (F := F)⟩ ::
  ⟨main_call0_call0_call0_v36, Cert.HostMask.t_v36 (F := F)⟩ ::
  ⟨main_call0_call0_call0_v35, Cert.HostMask.t_v35 (F := F)⟩ ::
  ⟨main_call0_call0_call0_v34, Cert.HostMask.t_v34 (F := F)⟩ ::
  ⟨main_call0_call0_call0_v33, Cert.HostMask.t_v33 (F := F)⟩ ::
  ⟨main_call0_call0_call0_v32, Cert.HostMask.t_v32 (F := F)⟩ ::
  ⟨main_call0_call0_call0_v31, Cert.HostMask.t_v31 (F := F)⟩ ::
  ⟨main_call0_call0_call0_v30, Cert.HostMask.t_v30 (F := F)⟩ ::
  ⟨main_call0_call0_call0_c_7, Cert.HostMask.t_c_7 (F := F)⟩ ::
  ⟨main_call0_call0_call0_v29, Cert.HostMask.t_v29 (F := F)⟩ ::
  ⟨main_call0_call0_call0_v28, Cert.HostMask.t_v28 (F := F)⟩ ::
  ⟨main_call0_call0_call0_c_6, Cert.HostMask.t_c_6 (F := F)⟩ ::
  ⟨main_call0_call0_call0_v27, Cert.HostMask.t_v27 (F := F)⟩ ::
  ⟨main_call0_call0_call0_v26, Cert.HostMask.t_v26 (F := F)⟩ ::
  ⟨main_call0_call0_call0_v25, Cert.HostMask.t_v25 (F := F)⟩ ::
  ⟨main_call0_call0_call0_v24, Cert.HostMask.t_v24 (F := F)⟩ ::
  ⟨main_call0_call0_call0_v23, Cert.HostMask.t_v23 (F := F)⟩ ::
  ⟨main_call0_call0_call0_c_5, Cert.HostMask.t_c_5 (F := F)⟩ ::
  ⟨main_call0_call0_call0_v22, Cert.HostMask.t_v22 (F := F)⟩ ::
  ⟨main_call0_call0_call0_v21, Cert.HostMask.t_v21 (F := F)⟩ ::
  ⟨main_call0_call0_call0_c_4, Cert.HostMask.t_c_4 (F := F)⟩ ::
  ⟨main_call0_call0_call0_v20, Cert.HostMask.t_v20 (F := F)⟩ ::
  ⟨main_call0_call0_call0_v19, Cert.HostMask.t_v19 (F := F)⟩ ::
  ⟨main_call0_call0_call0_v18, Cert.HostMask.t_v18 (F := F)⟩ ::
  ⟨main_call0_call0_call0_v17, Cert.HostMask.t_v17 (F := F)⟩ ::
  ⟨main_call0_call0_call0_v16, Cert.HostMask.t_v16 (F := F)⟩ ::
  ⟨main_call0_call0_call0_c_3, Cert.HostMask.t_c_3 (F := F)⟩ ::
  ⟨main_call0_call0_call0_v15, Cert.HostMask.t_v15 (F := F)⟩ ::
  ⟨main_call0_call0_call0_v14, Cert.HostMask.t_v14 (F := F)⟩ ::
  ⟨main_call0_call0_call0_c_2, Cert.HostMask.t_c_2 (F := F)⟩ ::
  ⟨main_call0_call0_call0_v13, Cert.HostMask.t_v13 (F := F)⟩ ::
  ⟨main_call0_call0_call0_v12, Cert.HostMask.t_v12 (F := F)⟩ ::
  ⟨main_call0_call0_call0_v11, Cert.HostMask.t_v11 (F := F)⟩ ::
  ⟨main_call0_call0_call0_v10, Cert.HostMask.t_v10 (F := F)⟩ ::
  ⟨main_call0_call0_call0_v9, Cert.HostMask.t_v9 (F := F)⟩ ::
  ⟨main_call0_call0_call0_c_1, Cert.HostMask.t_c_1 (F := F)⟩ ::
  ⟨main_call0_call0_call0_v8, Cert.HostMask.t_v8 (F := F)⟩ ::
  ⟨main_call0_call0_call0_v7, Cert.HostMask.t_v7 (F := F)⟩ ::
  ⟨main_call0_call0_call0_c_0, Cert.HostMask.t_c_0 (F := F)⟩ ::
  ⟨main_call0_call0_call0_v6, Cert.HostMask.t_v6 (F := F)⟩ ::
  ⟨main_call0_call0_call0_v5, Cert.HostMask.t_v5 (F := F)⟩ ::
  ⟨main_call0_call0_call0_v4, Cert.HostMask.t_v4 (F := F)⟩ ::
  ⟨main_call0_call0_call0_v3, Cert.HostMask.t_v3 (F := F)⟩ ::
  ⟨main_call0_call0_call0_v2, Cert.HostMask.t_v2 (F := F)⟩ ::
  ⟨main_call0_call0_call0_v1, Cert.HostMask.t_v1 (F := F)⟩ ::
  ⟨main_call0_call0_call0_c, Cert.HostMask.t_c (F := F)⟩ ::
  ⟨main_call0_call0_call0_v0, Cert.HostMask.t_v0 (F := F)⟩ ::
  rows2 x
abbrev refs4 : List (Ref sig .tc) :=
  main_call0_call0_call0_v94 ::
  main_call0_call0_call0_v93 ::
  main_call0_call0_call0_v92 ::
  main_call0_call0_call0_v91 ::
  main_call0_call0_call0_c_23 ::
  main_call0_call0_call0_v90 ::
  main_call0_call0_call0_v89 ::
  main_call0_call0_call0_c_22 ::
  main_call0_call0_call0_v88 ::
  main_call0_call0_call0_v87 ::
  main_call0_call0_call0_v86 ::
  main_call0_call0_call0_v85 ::
  main_call0_call0_call0_v84 ::
  main_call0_call0_call0_c_21 ::
  main_call0_call0_call0_v83 ::
  main_call0_call0_call0_v82 ::
  main_call0_call0_call0_c_20 ::
  main_call0_call0_call0_v81 ::
  main_call0_call0_call0_v80 ::
  main_call0_call0_call0_v79 ::
  main_call0_call0_call0_v78 ::
  main_call0_call0_call0_v77 ::
  main_call0_call0_call0_c_19 ::
  main_call0_call0_call0_v76 ::
  main_call0_call0_call0_v75 ::
  main_call0_call0_call0_c_18 ::
  main_call0_call0_call0_v74 ::
  main_call0_call0_call0_v73 ::
  main_call0_call0_call0_v72 ::
  main_call0_call0_call0_c_17 ::
  main_call0_call0_call0_v71 ::
  main_call0_call0_call0_v70 ::
  main_call0_call0_call0_v69 ::
  main_call0_call0_call0_v68 ::
  main_call0_call0_call0_v67 ::
  main_call0_call0_call0_v66 ::
  main_call0_call0_call0_v65 ::
  main_call0_call0_call0_v64 ::
  main_call0_call0_call0_c_16 ::
  main_call0_call0_call0_v63 ::
  main_call0_call0_call0_v62 ::
  main_call0_call0_call0_c_15 ::
  main_call0_call0_call0_v61 ::
  main_call0_call0_call0_v60 ::
  main_call0_call0_call0_v59 ::
  main_call0_call0_call0_v58 ::
  main_call0_call0_call0_v57 ::
  main_call0_call0_call0_c_14 ::
  main_call0_call0_call0_v56 ::
  main_call0_call0_call0_v55 ::
  main_call0_call0_call0_c_13 ::
  main_call0_call0_call0_v54 ::
  main_call0_call0_call0_v53 ::
  main_call0_call0_call0_v52 ::
  main_call0_call0_call0_v51 ::
  main_call0_call0_call0_v50 ::
  main_call0_call0_call0_c_12 ::
  main_call0_call0_call0_v49 ::
  main_call0_call0_call0_v48 ::
  main_call0_call0_call0_c_11 ::
  refs3
abbrev rows4 (x : (⟨S4x8192x1024, .f32⟩ : BufTy).Contents (Elt F)) : List (Row sig (Elt F)) :=
  ⟨main_call0_call0_call0_v94, Cert.HostMask.t_v94 (F := F)⟩ ::
  ⟨main_call0_call0_call0_v93, Cert.HostMask.t_v93 (F := F)⟩ ::
  ⟨main_call0_call0_call0_v92, Cert.HostMask.t_v92 (F := F)⟩ ::
  ⟨main_call0_call0_call0_v91, Cert.HostMask.t_v91 (F := F)⟩ ::
  ⟨main_call0_call0_call0_c_23, Cert.HostMask.t_c_23 (F := F)⟩ ::
  ⟨main_call0_call0_call0_v90, Cert.HostMask.t_v90 (F := F)⟩ ::
  ⟨main_call0_call0_call0_v89, Cert.HostMask.t_v89 (F := F)⟩ ::
  ⟨main_call0_call0_call0_c_22, Cert.HostMask.t_c_22 (F := F)⟩ ::
  ⟨main_call0_call0_call0_v88, Cert.HostMask.t_v88 (F := F)⟩ ::
  ⟨main_call0_call0_call0_v87, Cert.HostMask.t_v87 (F := F)⟩ ::
  ⟨main_call0_call0_call0_v86, Cert.HostMask.t_v86 (F := F)⟩ ::
  ⟨main_call0_call0_call0_v85, Cert.HostMask.t_v85 (F := F)⟩ ::
  ⟨main_call0_call0_call0_v84, Cert.HostMask.t_v84 (F := F)⟩ ::
  ⟨main_call0_call0_call0_c_21, Cert.HostMask.t_c_21 (F := F)⟩ ::
  ⟨main_call0_call0_call0_v83, Cert.HostMask.t_v83 (F := F)⟩ ::
  ⟨main_call0_call0_call0_v82, Cert.HostMask.t_v82 (F := F)⟩ ::
  ⟨main_call0_call0_call0_c_20, Cert.HostMask.t_c_20 (F := F)⟩ ::
  ⟨main_call0_call0_call0_v81, Cert.HostMask.t_v81 (F := F)⟩ ::
  ⟨main_call0_call0_call0_v80, Cert.HostMask.t_v80 (F := F)⟩ ::
  ⟨main_call0_call0_call0_v79, Cert.HostMask.t_v79 (F := F)⟩ ::
  ⟨main_call0_call0_call0_v78, Cert.HostMask.t_v78 (F := F)⟩ ::
  ⟨main_call0_call0_call0_v77, Cert.HostMask.t_v77 (F := F)⟩ ::
  ⟨main_call0_call0_call0_c_19, Cert.HostMask.t_c_19 (F := F)⟩ ::
  ⟨main_call0_call0_call0_v76, Cert.HostMask.t_v76 (F := F)⟩ ::
  ⟨main_call0_call0_call0_v75, Cert.HostMask.t_v75 (F := F)⟩ ::
  ⟨main_call0_call0_call0_c_18, Cert.HostMask.t_c_18 (F := F)⟩ ::
  ⟨main_call0_call0_call0_v74, Cert.HostMask.t_v74 (F := F)⟩ ::
  ⟨main_call0_call0_call0_v73, Cert.HostMask.t_v73 (F := F)⟩ ::
  ⟨main_call0_call0_call0_v72, Cert.HostMask.t_v72 (F := F)⟩ ::
  ⟨main_call0_call0_call0_c_17, Cert.HostMask.t_c_17 (F := F)⟩ ::
  ⟨main_call0_call0_call0_v71, Cert.HostMask.t_v71 (F := F)⟩ ::
  ⟨main_call0_call0_call0_v70, Cert.HostMask.t_v70 (F := F)⟩ ::
  ⟨main_call0_call0_call0_v69, Cert.HostMask.t_v69 (F := F)⟩ ::
  ⟨main_call0_call0_call0_v68, Cert.HostMask.t_v68 (F := F)⟩ ::
  ⟨main_call0_call0_call0_v67, Cert.HostMask.t_v67 (F := F)⟩ ::
  ⟨main_call0_call0_call0_v66, Cert.HostMask.t_v66 (F := F)⟩ ::
  ⟨main_call0_call0_call0_v65, Cert.HostMask.t_v65 (F := F)⟩ ::
  ⟨main_call0_call0_call0_v64, Cert.HostMask.t_v64 (F := F)⟩ ::
  ⟨main_call0_call0_call0_c_16, Cert.HostMask.t_c_16 (F := F)⟩ ::
  ⟨main_call0_call0_call0_v63, Cert.HostMask.t_v63 (F := F)⟩ ::
  ⟨main_call0_call0_call0_v62, Cert.HostMask.t_v62 (F := F)⟩ ::
  ⟨main_call0_call0_call0_c_15, Cert.HostMask.t_c_15 (F := F)⟩ ::
  ⟨main_call0_call0_call0_v61, Cert.HostMask.t_v61 (F := F)⟩ ::
  ⟨main_call0_call0_call0_v60, Cert.HostMask.t_v60 (F := F)⟩ ::
  ⟨main_call0_call0_call0_v59, Cert.HostMask.t_v59 (F := F)⟩ ::
  ⟨main_call0_call0_call0_v58, Cert.HostMask.t_v58 (F := F)⟩ ::
  ⟨main_call0_call0_call0_v57, Cert.HostMask.t_v57 (F := F)⟩ ::
  ⟨main_call0_call0_call0_c_14, Cert.HostMask.t_c_14 (F := F)⟩ ::
  ⟨main_call0_call0_call0_v56, Cert.HostMask.t_v56 (F := F)⟩ ::
  ⟨main_call0_call0_call0_v55, Cert.HostMask.t_v55 (F := F)⟩ ::
  ⟨main_call0_call0_call0_c_13, Cert.HostMask.t_c_13 (F := F)⟩ ::
  ⟨main_call0_call0_call0_v54, Cert.HostMask.t_v54 (F := F)⟩ ::
  ⟨main_call0_call0_call0_v53, Cert.HostMask.t_v53 (F := F)⟩ ::
  ⟨main_call0_call0_call0_v52, Cert.HostMask.t_v52 (F := F)⟩ ::
  ⟨main_call0_call0_call0_v51, Cert.HostMask.t_v51 (F := F)⟩ ::
  ⟨main_call0_call0_call0_v50, Cert.HostMask.t_v50 (F := F)⟩ ::
  ⟨main_call0_call0_call0_c_12, Cert.HostMask.t_c_12 (F := F)⟩ ::
  ⟨main_call0_call0_call0_v49, Cert.HostMask.t_v49 (F := F)⟩ ::
  ⟨main_call0_call0_call0_v48, Cert.HostMask.t_v48 (F := F)⟩ ::
  ⟨main_call0_call0_call0_c_11, Cert.HostMask.t_c_11 (F := F)⟩ ::
  rows3 x
abbrev refs5 : List (Ref sig .tc) :=
  main_call0_call0_call0_v142 ::
  main_call0_call0_call0_v141 ::
  main_call0_call0_call0_v140 ::
  main_call0_call0_call0_c_35 ::
  main_call0_call0_call0_v139 ::
  main_call0_call0_call0_v138 ::
  main_call0_call0_call0_v137 ::
  main_call0_call0_call0_v136 ::
  main_call0_call0_call0_v135 ::
  main_call0_call0_call0_v134 ::
  main_call0_call0_call0_v133 ::
  main_call0_call0_call0_v132 ::
  main_call0_call0_call0_c_34 ::
  main_call0_call0_call0_v131 ::
  main_call0_call0_call0_v130 ::
  main_call0_call0_call0_c_33 ::
  main_call0_call0_call0_v129 ::
  main_call0_call0_call0_v128 ::
  main_call0_call0_call0_v127 ::
  main_call0_call0_call0_v126 ::
  main_call0_call0_call0_v125 ::
  main_call0_call0_call0_c_32 ::
  main_call0_call0_call0_v124 ::
  main_call0_call0_call0_v123 ::
  main_call0_call0_call0_c_31 ::
  main_call0_call0_call0_v122 ::
  main_call0_call0_call0_v121 ::
  main_call0_call0_call0_v120 ::
  main_call0_call0_call0_v119 ::
  main_call0_call0_call0_v118 ::
  main_call0_call0_call0_c_30 ::
  main_call0_call0_call0_v117 ::
  main_call0_call0_call0_v116 ::
  main_call0_call0_call0_c_29 ::
  main_call0_call0_call0_v115 ::
  main_call0_call0_call0_v114 ::
  main_call0_call0_call0_v113 ::
  main_call0_call0_call0_v112 ::
  main_call0_call0_call0_v111 ::
  main_call0_call0_call0_c_28 ::
  main_call0_call0_call0_v110 ::
  main_call0_call0_call0_v109 ::
  main_call0_call0_call0_c_27 ::
  main_call0_call0_call0_v108 ::
  main_call0_call0_call0_v107 ::
  main_call0_call0_call0_v106 ::
  main_call0_call0_call0_c_26 ::
  main_call0_call0_call0_v105 ::
  main_call0_call0_call0_v104 ::
  main_call0_call0_call0_v103 ::
  main_call0_call0_call0_v102 ::
  main_call0_call0_call0_v101 ::
  main_call0_call0_call0_v100 ::
  main_call0_call0_call0_v99 ::
  main_call0_call0_call0_v98 ::
  main_call0_call0_call0_c_25 ::
  main_call0_call0_call0_v97 ::
  main_call0_call0_call0_v96 ::
  main_call0_call0_call0_c_24 ::
  main_call0_call0_call0_v95 ::
  refs4
abbrev rows5 (x : (⟨S4x8192x1024, .f32⟩ : BufTy).Contents (Elt F)) : List (Row sig (Elt F)) :=
  ⟨main_call0_call0_call0_v142, Cert.HostMask.t_v142 (F := F)⟩ ::
  ⟨main_call0_call0_call0_v141, Cert.HostMask.t_v141 (F := F)⟩ ::
  ⟨main_call0_call0_call0_v140, Cert.HostMask.t_v140 (F := F)⟩ ::
  ⟨main_call0_call0_call0_c_35, Cert.HostMask.t_c_35 (F := F)⟩ ::
  ⟨main_call0_call0_call0_v139, Cert.HostMask.t_v139 (F := F)⟩ ::
  ⟨main_call0_call0_call0_v138, Cert.HostMask.t_v138 (F := F)⟩ ::
  ⟨main_call0_call0_call0_v137, Cert.HostMask.t_v137 (F := F)⟩ ::
  ⟨main_call0_call0_call0_v136, Cert.HostMask.t_v136 (F := F)⟩ ::
  ⟨main_call0_call0_call0_v135, Cert.HostMask.t_v135 (F := F)⟩ ::
  ⟨main_call0_call0_call0_v134, Cert.HostMask.t_v134 (F := F)⟩ ::
  ⟨main_call0_call0_call0_v133, Cert.HostMask.t_v133 (F := F)⟩ ::
  ⟨main_call0_call0_call0_v132, Cert.HostMask.t_v132 (F := F)⟩ ::
  ⟨main_call0_call0_call0_c_34, Cert.HostMask.t_c_34 (F := F)⟩ ::
  ⟨main_call0_call0_call0_v131, Cert.HostMask.t_v131 (F := F)⟩ ::
  ⟨main_call0_call0_call0_v130, Cert.HostMask.t_v130 (F := F)⟩ ::
  ⟨main_call0_call0_call0_c_33, Cert.HostMask.t_c_33 (F := F)⟩ ::
  ⟨main_call0_call0_call0_v129, Cert.HostMask.t_v129 (F := F)⟩ ::
  ⟨main_call0_call0_call0_v128, Cert.HostMask.t_v128 (F := F)⟩ ::
  ⟨main_call0_call0_call0_v127, Cert.HostMask.t_v127 (F := F)⟩ ::
  ⟨main_call0_call0_call0_v126, Cert.HostMask.t_v126 (F := F)⟩ ::
  ⟨main_call0_call0_call0_v125, Cert.HostMask.t_v125 (F := F)⟩ ::
  ⟨main_call0_call0_call0_c_32, Cert.HostMask.t_c_32 (F := F)⟩ ::
  ⟨main_call0_call0_call0_v124, Cert.HostMask.t_v124 (F := F)⟩ ::
  ⟨main_call0_call0_call0_v123, Cert.HostMask.t_v123 (F := F)⟩ ::
  ⟨main_call0_call0_call0_c_31, Cert.HostMask.t_c_31 (F := F)⟩ ::
  ⟨main_call0_call0_call0_v122, Cert.HostMask.t_v122 (F := F)⟩ ::
  ⟨main_call0_call0_call0_v121, Cert.HostMask.t_v121 (F := F)⟩ ::
  ⟨main_call0_call0_call0_v120, Cert.HostMask.t_v120 (F := F)⟩ ::
  ⟨main_call0_call0_call0_v119, Cert.HostMask.t_v119 (F := F)⟩ ::
  ⟨main_call0_call0_call0_v118, Cert.HostMask.t_v118 (F := F)⟩ ::
  ⟨main_call0_call0_call0_c_30, Cert.HostMask.t_c_30 (F := F)⟩ ::
  ⟨main_call0_call0_call0_v117, Cert.HostMask.t_v117 (F := F)⟩ ::
  ⟨main_call0_call0_call0_v116, Cert.HostMask.t_v116 (F := F)⟩ ::
  ⟨main_call0_call0_call0_c_29, Cert.HostMask.t_c_29 (F := F)⟩ ::
  ⟨main_call0_call0_call0_v115, Cert.HostMask.t_v115 (F := F)⟩ ::
  ⟨main_call0_call0_call0_v114, Cert.HostMask.t_v114 (F := F)⟩ ::
  ⟨main_call0_call0_call0_v113, Cert.HostMask.t_v113 (F := F)⟩ ::
  ⟨main_call0_call0_call0_v112, Cert.HostMask.t_v112 (F := F)⟩ ::
  ⟨main_call0_call0_call0_v111, Cert.HostMask.t_v111 (F := F)⟩ ::
  ⟨main_call0_call0_call0_c_28, Cert.HostMask.t_c_28 (F := F)⟩ ::
  ⟨main_call0_call0_call0_v110, Cert.HostMask.t_v110 (F := F)⟩ ::
  ⟨main_call0_call0_call0_v109, Cert.HostMask.t_v109 (F := F)⟩ ::
  ⟨main_call0_call0_call0_c_27, Cert.HostMask.t_c_27 (F := F)⟩ ::
  ⟨main_call0_call0_call0_v108, Cert.HostMask.t_v108 (F := F)⟩ ::
  ⟨main_call0_call0_call0_v107, Cert.HostMask.t_v107 (F := F)⟩ ::
  ⟨main_call0_call0_call0_v106, Cert.HostMask.t_v106 (F := F)⟩ ::
  ⟨main_call0_call0_call0_c_26, Cert.HostMask.t_c_26 (F := F)⟩ ::
  ⟨main_call0_call0_call0_v105, Cert.HostMask.t_v105 (F := F)⟩ ::
  ⟨main_call0_call0_call0_v104, Cert.HostMask.t_v104 (F := F)⟩ ::
  ⟨main_call0_call0_call0_v103, Cert.HostMask.t_v103 (F := F)⟩ ::
  ⟨main_call0_call0_call0_v102, Cert.HostMask.t_v102 (F := F)⟩ ::
  ⟨main_call0_call0_call0_v101, Cert.HostMask.t_v101 (F := F)⟩ ::
  ⟨main_call0_call0_call0_v100, Cert.HostMask.t_v100 (F := F)⟩ ::
  ⟨main_call0_call0_call0_v99, Cert.HostMask.t_v99 (F := F)⟩ ::
  ⟨main_call0_call0_call0_v98, Cert.HostMask.t_v98 (F := F)⟩ ::
  ⟨main_call0_call0_call0_c_25, Cert.HostMask.t_c_25 (F := F)⟩ ::
  ⟨main_call0_call0_call0_v97, Cert.HostMask.t_v97 (F := F)⟩ ::
  ⟨main_call0_call0_call0_v96, Cert.HostMask.t_v96 (F := F)⟩ ::
  ⟨main_call0_call0_call0_c_24, Cert.HostMask.t_c_24 (F := F)⟩ ::
  ⟨main_call0_call0_call0_v95, Cert.HostMask.t_v95 (F := F)⟩ ::
  rows4 x
abbrev refs6 : List (Ref sig .tc) :=
  main_call0_call0_v19_1 ::
  main_call0_call0_call0_v174 ::
  main_call0_call0_call0_c_44 ::
  main_call0_call0_call0_v173 ::
  main_call0_call0_call0_v172 ::
  main_call0_call0_v19_0 ::
  main_call0_call0_call0_v170 ::
  main_call0_call0_call0_v169 ::
  main_call0_call0_call0_v168 ::
  main_call0_call0_call0_v167 ::
  main_call0_call0_call0_v166 ::
  main_call0_call0_call0_c_43 ::
  main_call0_call0_call0_v165 ::
  main_call0_call0_call0_v164 ::
  main_call0_call0_call0_c_42 ::
  main_call0_call0_call0_v163 ::
  main_call0_call0_call0_v162 ::
  main_call0_call0_call0_v161 ::
  main_call0_call0_call0_v160 ::
  main_call0_call0_call0_v159 ::
  main_call0_call0_call0_c_41 ::
  main_call0_call0_call0_v158 ::
  main_call0_call0_call0_v157 ::
  main_call0_call0_call0_c_40 ::
  main_call0_call0_call0_v156 ::
  main_call0_call0_call0_v155 ::
  main_call0_call0_call0_v154 ::
  main_call0_call0_call0_v153 ::
  main_call0_call0_call0_v152 ::
  main_call0_call0_call0_c_39 ::
  main_call0_call0_call0_v151 ::
  main_call0_call0_call0_v150 ::
  main_call0_call0_call0_c_38 ::
  main_call0_call0_call0_v149 ::
  main_call0_call0_call0_v148 ::
  main_call0_call0_call0_v147 ::
  main_call0_call0_call0_v146 ::
  main_call0_call0_call0_v145 ::
  main_call0_call0_call0_c_37 ::
  main_call0_call0_call0_v144 ::
  main_call0_call0_call0_v143 ::
  main_call0_call0_call0_c_36 ::
  refs5
abbrev rows6 (x : (⟨S4x8192x1024, .f32⟩ : BufTy).Contents (Elt F)) : List (Row sig (Elt F)) :=
  ⟨main_call0_call0_v19_1, Cert.HostMask.t_v175 (F := F)⟩ ::
  ⟨main_call0_call0_call0_v174, Cert.HostMask.t_v174 (F := F)⟩ ::
  ⟨main_call0_call0_call0_c_44, Cert.HostMask.t_c_44 (F := F)⟩ ::
  ⟨main_call0_call0_call0_v173, Cert.HostMask.t_v173 (F := F)⟩ ::
  ⟨main_call0_call0_call0_v172, Cert.HostMask.t_v172 (F := F)⟩ ::
  ⟨main_call0_call0_v19_0, Cert.HostMask.t_v171 (F := F)⟩ ::
  ⟨main_call0_call0_call0_v170, Cert.HostMask.t_v170 (F := F)⟩ ::
  ⟨main_call0_call0_call0_v169, Cert.HostMask.t_v169 (F := F)⟩ ::
  ⟨main_call0_call0_call0_v168, Cert.HostMask.t_v168 (F := F)⟩ ::
  ⟨main_call0_call0_call0_v167, Cert.HostMask.t_v167 (F := F)⟩ ::
  ⟨main_call0_call0_call0_v166, Cert.HostMask.t_v166 (F := F)⟩ ::
  ⟨main_call0_call0_call0_c_43, Cert.HostMask.t_c_43 (F := F)⟩ ::
  ⟨main_call0_call0_call0_v165, Cert.HostMask.t_v165 (F := F)⟩ ::
  ⟨main_call0_call0_call0_v164, Cert.HostMask.t_v164 (F := F)⟩ ::
  ⟨main_call0_call0_call0_c_42, Cert.HostMask.t_c_42 (F := F)⟩ ::
  ⟨main_call0_call0_call0_v163, Cert.HostMask.t_v163 (F := F)⟩ ::
  ⟨main_call0_call0_call0_v162, Cert.HostMask.t_v162 (F := F)⟩ ::
  ⟨main_call0_call0_call0_v161, Cert.HostMask.t_v161 (F := F)⟩ ::
  ⟨main_call0_call0_call0_v160, Cert.HostMask.t_v160 (F := F)⟩ ::
  ⟨main_call0_call0_call0_v159, Cert.HostMask.t_v159 (F := F)⟩ ::
  ⟨main_call0_call0_call0_c_41, Cert.HostMask.t_c_41 (F := F)⟩ ::
  ⟨main_call0_call0_call0_v158, Cert.HostMask.t_v158 (F := F)⟩ ::
  ⟨main_call0_call0_call0_v157, Cert.HostMask.t_v157 (F := F)⟩ ::
  ⟨main_call0_call0_call0_c_40, Cert.HostMask.t_c_40 (F := F)⟩ ::
  ⟨main_call0_call0_call0_v156, Cert.HostMask.t_v156 (F := F)⟩ ::
  ⟨main_call0_call0_call0_v155, Cert.HostMask.t_v155 (F := F)⟩ ::
  ⟨main_call0_call0_call0_v154, Cert.HostMask.t_v154 (F := F)⟩ ::
  ⟨main_call0_call0_call0_v153, Cert.HostMask.t_v153 (F := F)⟩ ::
  ⟨main_call0_call0_call0_v152, Cert.HostMask.t_v152 (F := F)⟩ ::
  ⟨main_call0_call0_call0_c_39, Cert.HostMask.t_c_39 (F := F)⟩ ::
  ⟨main_call0_call0_call0_v151, Cert.HostMask.t_v151 (F := F)⟩ ::
  ⟨main_call0_call0_call0_v150, Cert.HostMask.t_v150 (F := F)⟩ ::
  ⟨main_call0_call0_call0_c_38, Cert.HostMask.t_c_38 (F := F)⟩ ::
  ⟨main_call0_call0_call0_v149, Cert.HostMask.t_v149 (F := F)⟩ ::
  ⟨main_call0_call0_call0_v148, Cert.HostMask.t_v148 (F := F)⟩ ::
  ⟨main_call0_call0_call0_v147, Cert.HostMask.t_v147 (F := F)⟩ ::
  ⟨main_call0_call0_call0_v146, Cert.HostMask.t_v146 (F := F)⟩ ::
  ⟨main_call0_call0_call0_v145, Cert.HostMask.t_v145 (F := F)⟩ ::
  ⟨main_call0_call0_call0_c_37, Cert.HostMask.t_c_37 (F := F)⟩ ::
  ⟨main_call0_call0_call0_v144, Cert.HostMask.t_v144 (F := F)⟩ ::
  ⟨main_call0_call0_call0_v143, Cert.HostMask.t_v143 (F := F)⟩ ::
  ⟨main_call0_call0_call0_c_36, Cert.HostMask.t_c_36 (F := F)⟩ ::
  rows5 x
abbrev refs7 : List (Ref sig .tc) :=
  main_call0_v0 ::
  main_call0_call0_v33 ::
  main_call0_call0_v32 ::
  main_call0_call0_v31 ::
  main_call0_call0_v30 ::
  main_call0_call0_v29 ::
  main_call0_call0_v28 ::
  main_call0_call0_v27 ::
  main_call0_call0_v26 ::
  main_call0_call0_cst ::
  main_call0_call0_v25 ::
  main_call0_call0_v24 ::
  main_call0_call0_v23 ::
  main_call0_call0_c_3 ::
  main_call0_call0_v22 ::
  main_call0_call0_v21 ::
  main_call0_call0_c_2 ::
  main_call0_call0_v20 ::
  refs6
abbrev rows7 (x : (⟨S4x8192x1024, .f32⟩ : BufTy).Contents (Elt F)) : List (Row sig (Elt F)) :=
  ⟨main_call0_v0, Cert.HostMask.u_v34 (F := F)⟩ ::
  ⟨main_call0_call0_v33, Cert.HostMask.u_v33 (F := F)⟩ ::
  ⟨main_call0_call0_v32, Cert.HostMask.u_v32 (F := F)⟩ ::
  ⟨main_call0_call0_v31, Cert.HostMask.u_v31 (F := F)⟩ ::
  ⟨main_call0_call0_v30, Cert.HostMask.u_v30 (F := F)⟩ ::
  ⟨main_call0_call0_v29, Cert.HostMask.u_v29 (F := F)⟩ ::
  ⟨main_call0_call0_v28, Cert.HostMask.u_v28 (F := F)⟩ ::
  ⟨main_call0_call0_v27, Cert.HostMask.u_v27 (F := F)⟩ ::
  ⟨main_call0_call0_v26, Cert.HostMask.u_v26 (F := F)⟩ ::
  ⟨main_call0_call0_cst, Cert.HostMask.u_cst (F := F)⟩ ::
  ⟨main_call0_call0_v25, Cert.HostMask.u_v25 (F := F)⟩ ::
  ⟨main_call0_call0_v24, Cert.HostMask.u_v24 (F := F)⟩ ::
  ⟨main_call0_call0_v23, Cert.HostMask.u_v23 (F := F)⟩ ::
  ⟨main_call0_call0_c_3, Cert.HostMask.u_c_3 (F := F)⟩ ::
  ⟨main_call0_call0_v22, Cert.HostMask.u_v22 (F := F)⟩ ::
  ⟨main_call0_call0_v21, Cert.HostMask.u_v21 (F := F)⟩ ::
  ⟨main_call0_call0_c_2, Cert.HostMask.u_c_2 (F := F)⟩ ::
  ⟨main_call0_call0_v20, Cert.HostMask.u_v20 (F := F)⟩ ::
  rows6 x
abbrev refs8 : List (Ref sig .tc) :=
  main_v8 ::
  main_call0_v1 ::
  refs7
abbrev rows8 (x : (⟨S4x8192x1024, .f32⟩ : BufTy).Contents (Elt F)) : List (Row sig (Elt F)) :=
  ⟨main_v8, Cert.HostMask.b_v2 (F := F)⟩ ::
  ⟨main_call0_v1, Cert.HostMask.b_v1 (F := F)⟩ ::
  rows7 x
abbrev refs9 : List (Ref sig .tc) :=
  main_v13 ::
  main_v12 ::
  main_cst_3 ::
  main_v11 ::
  main_v10 ::
  main_call1_v1 ::
  main_call1_v0 ::
  main_cst_2 ::
  main_v9 ::
  refs8
abbrev rows9 (x : (⟨S4x8192x1024, .f32⟩ : BufTy).Contents (Elt F)) : List (Row sig (Elt F)) :=
  ⟨main_v13, v_main_v13 x⟩ ::
  ⟨main_v12, v_main_v12 (F := F)⟩ ::
  ⟨main_cst_3, v_main_cst_3 (F := F)⟩ ::
  ⟨main_v11, v_main_v11 x⟩ ::
  ⟨main_v10, v_main_v10 x⟩ ::
  ⟨main_call1_v1, v_main_call1_v1 (F := F)⟩ ::
  ⟨main_call1_v0, v_main_call1_v0 (F := F)⟩ ::
  ⟨main_cst_2, v_main_cst_2 (F := F)⟩ ::
  ⟨main_v9, v_main_v9 (F := F)⟩ ::
  rows8 x

end Cert.RefRun

end
-- ==== Proof.RefRun.lean ====
import proofs.«206558_g86277303042394_cont_sun_m_1099_24_alg».proof.Proof.RefRunTab

/-! # The reference's run

The reference is host operations only: its entry function is one line (the calls unfolded at their records), and every
weakly fair execution ends with each buffer at the line's fold over the launch contents. The table of named values is
run over the line chunk by chunk: each operation's result buffer is new (static single assignment), its operands'
buffers hold their listed values, and the listed value of its result is the printed function at those, by the
definition of the name. The result is the argument, transposed, zeroed where the mask is set, transposed back and scaled;
the argument's buffer is written by no operation. -/

noncomputable section

namespace Cert.RefRun

open Cert.ReferenceIdeal Cert.ReferenceIdeal.Gen Idealize.ShloMosaic Idealize.ShloMosaic.TcCoe Idealize.SL.Sem Idealize.ShloMosaic.StableHlo Cert.HostRows

variable {F : FTy → Type} [FloatOps F]

set_option maxHeartbeats 4000000

-- some three hundred binds are re-associated: the rewriting recurses once per statement
set_option maxRecDepth 200000 in
/-- The entry function is the line: the functions unfolded at their calls, the records at their fields, and sequencing
    re-associated, both sides are the same chain of steps. -/
theorem main_eq (c : Dev nD) : main (F := F) c = seq hostOps0 := by
  simp only [main, fn_bernoulli.body, fn_uniform.body, fn_threefry2x32.body, fn_threefry2x32.body_part0,
    fn_threefry2x32.body_part1, fn_threefry2x32.body_part2, fn_threefry2x32.body_part3, fn_where.body,
    hostOps0, ops0, ops1, ops2, ops3, ops4, ops5, ops6, ops7, ops8, ops9, seq_append, seq, bind_assoc, pure_bind]

theorem scopedRefs_eq : (Finset.univ.filter fun b : Ref sig .tc => b.isScoped) = ∅ := by decide +kernel
theorem scopedSems_eq : (Finset.univ.filter fun sm : SemLoc sig => sm.isScoped .tc) = ∅ := by decide

theorem ops0_fresh : ∀ op ∈ ops0 (F := F), op.fresh = ∅ := by ops_fresh
theorem ops0_sub : ∀ op ∈ ops0 (F := F), op.bufs ⊆ tcRefs τ sig := by ops_sub
theorem ops1_fresh : ∀ op ∈ ops1 (F := F), op.fresh = ∅ := by ops_fresh
theorem ops1_sub : ∀ op ∈ ops1 (F := F), op.bufs ⊆ tcRefs τ sig := by ops_sub
theorem ops2_fresh : ∀ op ∈ ops2 (F := F), op.fresh = ∅ := by ops_fresh
theorem ops2_sub : ∀ op ∈ ops2 (F := F), op.bufs ⊆ tcRefs τ sig := by ops_sub
theorem ops3_fresh : ∀ op ∈ ops3 (F := F), op.fresh = ∅ := by ops_fresh
theorem ops3_sub : ∀ op ∈ ops3 (F := F), op.bufs ⊆ tcRefs τ sig := by ops_sub
theorem ops4_fresh : ∀ op ∈ ops4 (F := F), op.fresh = ∅ := by ops_fresh
theorem ops4_sub : ∀ op ∈ ops4 (F := F), op.bufs ⊆ tcRefs τ sig := by ops_sub
theorem ops5_fresh : ∀ op ∈ ops5 (F := F), op.fresh = ∅ := by ops_fresh
theorem ops5_sub : ∀ op ∈ ops5 (F := F), op.bufs ⊆ tcRefs τ sig := by ops_sub
theorem ops6_fresh : ∀ op ∈ ops6 (F := F), op.fresh = ∅ := by ops_fresh
theorem ops6_sub : ∀ op ∈ ops6 (F := F), op.bufs ⊆ tcRefs τ sig := by ops_sub
theorem ops7_fresh : ∀ op ∈ ops7 (F := F), op.fresh = ∅ := by ops_fresh
theorem ops7_sub : ∀ op ∈ ops7 (F := F), op.bufs ⊆ tcRefs τ sig := by ops_sub
theorem ops8_fresh : ∀ op ∈ ops8 (F := F), op.fresh = ∅ := by ops_fresh
theorem ops8_sub : ∀ op ∈ ops8 (F := F), op.bufs ⊆ tcRefs τ sig := by ops_sub
theorem ops9_fresh : ∀ op ∈ ops9 (F := F), op.fresh = ∅ := by ops_fresh
theorem ops9_sub : ∀ op ∈ ops9 (F := F), op.bufs ⊆ tcRefs τ sig := by ops_sub

theorem hostOps0_fresh : ∀ op ∈ hostOps0 (F := F), op.fresh = ∅ :=
  all_app ops0_fresh (all_app ops1_fresh (all_app ops2_fresh (all_app ops3_fresh (all_app ops4_fresh (all_app ops5_fresh
    (all_app ops6_fresh (all_app ops7_fresh (all_app ops8_fresh ops9_fresh))))))))

theorem hostOps0_sub : ∀ op ∈ hostOps0 (F := F), op.bufs ⊆ tcRefs τ sig :=
  all_app ops0_sub (all_app ops1_sub (all_app ops2_sub (all_app ops3_sub (all_app ops4_sub (all_app ops5_sub
    (all_app ops6_sub (all_app ops7_sub (all_app ops8_sub ops9_sub))))))))

theorem run_0 (V : Valuation τ sig (Elt F)) (x) (h : Holds V refsInit (rowsInit x)) :
    Holds (after ops0 V) refs0 (rows0 x) := by
  simp only [after_cons, after_nil]; holds_steps h
theorem run_1 (V : Valuation τ sig (Elt F)) (x) (h : Holds V refs0 (rows0 x)) :
    Holds (after ops1 V) refs1 (rows1 x) := by
  simp only [after_cons, after_nil]; holds_steps h
theorem run_2 (V : Valuation τ sig (Elt F)) (x) (h : Holds V refs1 (rows1 x)) :
    Holds (after ops2 V) refs2 (rows2 x) := by
  simp only [after_cons, after_nil]; holds_steps h
theorem run_3 (V : Valuation τ sig (Elt F)) (x) (h : Holds V refs2 (rows2 x)) :
    Holds (after ops3 V) refs3 (rows3 x) := by
  simp only [after_cons, after_nil]; holds_steps h
theorem run_4 (V : Valuation τ sig (Elt F)) (x) (h : Holds V refs3 (rows3 x)) :
    Holds (after ops4 V) refs4 (rows4 x) := by
  simp only [after_cons, after_nil]; holds_steps h
theorem run_5 (V : Valuation τ sig (Elt F)) (x) (h : Holds V refs4 (rows4 x)) :
    Holds (after ops5 V) refs5 (rows5 x) := by
  simp only [after_cons, after_nil]; holds_steps h
theorem run_6 (V : Valuation τ sig (Elt F)) (x) (h : Holds V refs5 (rows5 x)) :
    Holds (after ops6 V) refs6 (rows6 x) := by
  simp only [after_cons, after_nil]; holds_steps h
theorem run_7 (V : Valuation τ sig (Elt F)) (x) (h : Holds V refs6 (rows6 x)) :
    Holds (after ops7 V) refs7 (rows7 x) := by
  simp only [after_cons, after_nil]; holds_steps h
theorem run_8 (V : Valuation τ sig (Elt F)) (x) (h : Holds V refs7 (rows7 x)) :
    Holds (after ops8 V) refs8 (rows8 x) := by
  simp only [after_cons, after_nil]; holds_steps h
theorem run_9 (V : Valuation τ sig (Elt F)) (x) (h : Holds V refs8 (rows8 x)) :
    Holds (after ops9 V) refs9 (rows9 x) := by
  simp only [after_cons, after_nil]; holds_steps h

/-- After the host operations every buffer written holds its named value, the argument's buffer what it held. -/
theorem run_all (V : Valuation τ sig (Elt F)) :
    Holds (after hostOps0 V) refs9 (rows9 (V (Proc.devRef .tc main_arg0))) := by
  have h0 : Holds V refsInit (rowsInit (V (Proc.devRef .tc main_arg0))) :=
    ⟨rfl, fun r hr => by rcases List.mem_singleton.mp hr with rfl; rfl⟩
  have h := run_9 _ _ (run_8 _ _ (run_7 _ _ (run_6 _ _ (run_5 _ _ (run_4 _ _ (run_3 _ _ (run_2 _ _ (run_1 _ _
    (run_0 V _ h0)))))))))
  simp only [hostOps0, after_app]
  exact h

/-- The reference's result from the argument's contents: transposed to (sequence position, batch row, hidden), zeroed
    where the mask (broadcast along hidden) is set, transposed back, scaled by 1/(1 - 0.1). -/
def refOut (x : FVec F S4x8192x1024 .f32) : FVec F S4x8192x1024 .f32 :=
  mulf
    (transpose S4x8192x1024 [1, 0, 2]
      (select
        (broadcastInDim S8192x4x1024 ![0, 1, 2] bcast_S8192x4x1_S8192x4x1024_0_1_2
          (broadcastInDim S8192x4x1 ![0, 1] bcast_S8192x4_S8192x4x1_0_1 (Cert.HostMask.mask (F := F))))
        (broadcastInDim S8192x4x1024 ![] bcast_S_S8192x4x1024 (constant S_ .f32 0x00000000#32))
        (transpose S8192x4x1024 [1, 0, 2] x transposes_S4x8192x1024_S8192x4x1024_1_0_2))
      transposes_S8192x4x1024_S4x8192x1024_1_0_2)
    (broadcastInDim S4x8192x1024 ![] bcast_S_S4x8192x1024 (constant S_ .f32 0x3F8E38E4#32))

theorem refOut_eq (x : FVec F S4x8192x1024 .f32) : refOut x = v_main_v13 x := rfl

theorem after_v13 (V : Valuation τ sig (Elt F)) :
    after hostOps0 V (Proc.devRef .tc main_v13) = refOut (V (Proc.devRef .tc main_arg0)) :=
  (run_all V).get (List.Mem.head _)

/-! The argument's buffer through each chunk: no operation writes it. -/

theorem arg0_0 (V : Valuation τ sig (Elt F)) (x) (h : Holds V refsInit (rowsInit x)) :
    Holds (after ops0 V) refsInit (rowsInit x) := by
  simp only [after_cons, after_nil]; holds_skips h
theorem arg0_1 (V : Valuation τ sig (Elt F)) (x) (h : Holds V refsInit (rowsInit x)) :
    Holds (after ops1 V) refsInit (rowsInit x) := by
  simp only [after_cons, after_nil]; holds_skips h
theorem arg0_2 (V : Valuation τ sig (Elt F)) (x) (h : Holds V refsInit (rowsInit x)) :
    Holds (after ops2 V) refsInit (rowsInit x) := by
  simp only [after_cons, after_nil]; holds_skips h
theorem arg0_3 (V : Valuation τ sig (Elt F)) (x) (h : Holds V refsInit (rowsInit x)) :
    Holds (after ops3 V) refsInit (rowsInit x) := by
  simp only [after_cons, after_nil]; holds_skips h
theorem arg0_4 (V : Valuation τ sig (Elt F)) (x) (h : Holds V refsInit (rowsInit x)) :
    Holds (after ops4 V) refsInit (rowsInit x) := by
  simp only [after_cons, after_nil]; holds_skips h
theorem arg0_5 (V : Valuation τ sig (Elt F)) (x) (h : Holds V refsInit (rowsInit x)) :
    Holds (after ops5 V) refsInit (rowsInit x) := by
  simp only [after_cons, after_nil]; holds_skips h
theorem arg0_6 (V : Valuation τ sig (Elt F)) (x) (h : Holds V refsInit (rowsInit x)) :
    Holds (after ops6 V) refsInit (rowsInit x) := by
  simp only [after_cons, after_nil]; holds_skips h
theorem arg0_7 (V : Valuation τ sig (Elt F)) (x) (h : Holds V refsInit (rowsInit x)) :
    Holds (after ops7 V) refsInit (rowsInit x) := by
  simp only [after_cons, after_nil]; holds_skips h
theorem arg0_8 (V : Valuation τ sig (Elt F)) (x) (h : Holds V refsInit (rowsInit x)) :
    Holds (after ops8 V) refsInit (rowsInit x) := by
  simp only [after_cons, after_nil]; holds_skips h
theorem arg0_9 (V : Valuation τ sig (Elt F)) (x) (h : Holds V refsInit (rowsInit x)) :
    Holds (after ops9 V) refsInit (rowsInit x) := by
  simp only [after_cons, after_nil]; holds_skips h

/-- The argument's buffer is unchanged by the line. -/
theorem after_arg0 (V : Valuation τ sig (Elt F)) :
    after hostOps0 V (Proc.devRef .tc main_arg0) = V (Proc.devRef .tc main_arg0) := by
  have h0 : Holds V refsInit (rowsInit (V (Proc.devRef .tc main_arg0))) :=
    ⟨rfl, fun r hr => by rcases List.mem_singleton.mp hr with rfl; rfl⟩
  have h := arg0_9 _ _ (arg0_8 _ _ (arg0_7 _ _ (arg0_6 _ _ (arg0_5 _ _ (arg0_4 _ _ (arg0_3 _ _ (arg0_2 _ _ (arg0_1 _ _
    (arg0_0 V _ h0)))))))))
  simp only [hostOps0, after_app]
  exact h.get (List.Mem.head _)

/-- On every device, from any memory with zero counters: every weakly fair execution of the reference terminates with
    the result buffer at `refOut` of the argument's launch contents and the argument's buffer unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v13) = refOut (m ((c.tc : Thread nD τ).loc main_arg0))
      ∧ r.2.mem ((c.tc : Thread nD τ).loc main_arg0) = m ((c.tc : Thread nD τ).loc main_arg0)) :=
  (θ_run defs _ _).mono (fun _ h c => ⟨(h c main_v13).trans (after_v13 _), (h c main_arg0).trans (after_arg0 _)⟩)
    (run_seq scopedRefs_eq scopedSems_eq defs main (fun _ => hostOps0) main_eq
      (fun _ => List.forall_iff_forall_mem.mpr hostOps0_sub) m ρ (fun _ => hostOps0_fresh))

end Cert.RefRun

end
-- ==== Proof.KIAlgebraic.lean ====
/-
  The algebraic claim, assembled: the idealized kernel's program and the idealized reference, from memories agreeing
  on the argument, both run, leave the argument unchanged, and end with equal results. The kernel's side is the
  launch's valued run (its result buffer holds the call's result array, reshaped); the reference's side is its run
  (its result buffer holds `refOut` of the argument); what joins them is one equation between two pure terms of the
  argument, taken here as a hypothesis.
-/
import proofs.«206558_g86277303042394_cont_sun_m_1099_24_alg».proof.Proof.KIFrame
import proofs.«206558_g86277303042394_cont_sun_m_1099_24_alg».proof.Proof.RefRun
import proofs.«206558_g86277303042394_cont_sun_m_1099_24_alg».proof.Proof.Gen.ReferenceIdeal

noncomputable section

namespace Cert.Proof.KI

open Idealize.ShloMosaic
open Idealize.SL.Sem

/-- The value equation the two sides meet at: on every device the kernel's result — the whole-array function of the
    reshaped argument and the scale table the host line leaves, reshaped back — is the reference's result. -/
def ValEq : Prop :=
  ∀ (m : (ℓ : Loc Cert.KernelIdeal.nD Cert.KernelIdeal.τ Cert.KernelIdeal.sig) → Buf (Elt Ideal) ℓ) (c : Dev Cert.KernelIdeal.nD),
    RES (Cert.KHostIdeal.hostOps0 (F := Ideal)) m c
      = Cert.RefRun.refOut (F := Ideal) (m ((c.tc : Thread Cert.KernelIdeal.nD Cert.KernelIdeal.τ).loc Cert.KernelIdeal.main_arg0))

/-- The frame claim of the reference. -/
theorem frame_ReferenceIdeal' :
    Cert.frame_ReferenceIdeal (hReferenceIdeal := Cert.ReferenceIdeal.Gen.facts) (hPre_finite_inputs := Cert.Pre_finite_inputs.Gen.facts) :=
  fun m ρ _ => (θ_run _ _ _).mono (fun _ h c => (h c).2) (Cert.RefRun.run (F := Ideal) m ρ)

/-- The algebraic claim, from the tile's body at the valued post and the value equation. -/
theorem algebraic' (hbody : ∀ X SC O0, BodySpec (F := Ideal) X SC O0) (hval : ValEq) :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) :=
  fun m g m' g' _ hmm' =>
    ⟨fun c => RES (Cert.KHostIdeal.hostOps0 (F := Ideal)) m c, run_of_body hbody m g,
      (θ_run _ _ _).mono (fun _ h c => ⟨(h c).1.trans ((congrArg (Cert.RefRun.refOut (F := Ideal)) (hmm' c)).trans (hval m c).symm), (h c).2⟩)
        (Cert.RefRun.run (F := Ideal) m' g')⟩

end Cert.Proof.KI

end
-- ==== Proof.KHostIdealVal.lean ====
import proofs.«206558_g86277303042394_cont_sun_m_1099_24_alg».proof.Proof.KHostIdealTab

/-! # What the host operations leave in the SparseCore call's operand buffers

The table of named values is run over the host operations chunk by chunk: each operation's result buffer is new
(static single assignment), its operands' buffers hold their listed values, and the listed value of its result is the
printed function at those, by the definition of the name. At the end the reshaped argument sits in the first operand
buffer and the scale table, a function of the mask alone, in the second. -/

noncomputable section

namespace Cert.KHostIdeal

open Cert.KernelIdeal Cert.KernelIdeal.Gen Idealize.ShloMosaic Idealize.ShloMosaic.TcCoe Idealize.SL.Sem Idealize.ShloMosaic.StableHlo Cert.HostRows

variable {F : FTy → Type} [FloatOps F]

set_option maxHeartbeats 4000000

theorem run_0 (V : Valuation τ sig (Elt F)) (x) (h : Holds V refsInit (rowsInit x)) :
    Holds (after ops0 V) refs0 (rows0 x) := by
  simp only [after_cons, after_nil]; holds_steps h
theorem run_1 (V : Valuation τ sig (Elt F)) (x) (h : Holds V refs0 (rows0 x)) :
    Holds (after ops1 V) refs1 (rows1 x) := by
  simp only [after_cons, after_nil]; holds_steps h
theorem run_2 (V : Valuation τ sig (Elt F)) (x) (h : Holds V refs1 (rows1 x)) :
    Holds (after ops2 V) refs2 (rows2 x) := by
  simp only [after_cons, after_nil]; holds_steps h
theorem run_3 (V : Valuation τ sig (Elt F)) (x) (h : Holds V refs2 (rows2 x)) :
    Holds (after ops3 V) refs3 (rows3 x) := by
  simp only [after_cons, after_nil]; holds_steps h
theorem run_4 (V : Valuation τ sig (Elt F)) (x) (h : Holds V refs3 (rows3 x)) :
    Holds (after ops4 V) refs4 (rows4 x) := by
  simp only [after_cons, after_nil]; holds_steps h
theorem run_5 (V : Valuation τ sig (Elt F)) (x) (h : Holds V refs4 (rows4 x)) :
    Holds (after ops5 V) refs5 (rows5 x) := by
  simp only [after_cons, after_nil]; holds_steps h
theorem run_6 (V : Valuation τ sig (Elt F)) (x) (h : Holds V refs5 (rows5 x)) :
    Holds (after ops6 V) refs6 (rows6 x) := by
  simp only [after_cons, after_nil]; holds_steps h
theorem run_7 (V : Valuation τ sig (Elt F)) (x) (h : Holds V refs6 (rows6 x)) :
    Holds (after ops7 V) refs7 (rows7 x) := by
  simp only [after_cons, after_nil]; holds_steps h
theorem run_8 (V : Valuation τ sig (Elt F)) (x) (h : Holds V refs7 (rows7 x)) :
    Holds (after ops8 V) refs8 (rows8 x) := by
  simp only [after_cons, after_nil]; holds_steps h
theorem run_9 (V : Valuation τ sig (Elt F)) (x) (h : Holds V refs8 (rows8 x)) :
    Holds (after ops9 V) refs9 (rows9 x) := by
  simp only [after_cons, after_nil]; holds_steps h

/-- After the host operations every buffer written holds its named value, the argument's buffer what it held. -/
theorem run_all (V : Valuation τ sig (Elt F)) :
    Holds (after hostOps0 V) refs9 (rows9 (V (Proc.devRef .tc main_arg0))) := by
  have h0 : Holds V refsInit (rowsInit (V (Proc.devRef .tc main_arg0))) :=
    ⟨rfl, fun r hr => by rcases List.mem_singleton.mp hr with rfl; rfl⟩
  have h := run_9 _ _ (run_8 _ _ (run_7 _ _ (run_6 _ _ (run_5 _ _ (run_4 _ _ (run_3 _ _ (run_2 _ _ (run_1 _ _
    (run_0 V _ h0)))))))))
  simp only [hostOps0, after_app]
  exact h

/-- The scale table: 0 where the mask is set and 1/(1 - 0.1) elsewhere, over (sequence position, batch row); transposed to
    (batch row, sequence position), flattened to one row index, repeated 16 times along a new minor axis, and cut into
    rows of 128. -/
def scaleTable : FVec F S4096x128 .f32 :=
  shapeCast S4096x128
    (broadcastInDim S32768x16 ![0, 1] bcast_S32768x1_S32768x16_0_1
      (broadcastInDim S32768x1 ![0] bcast_S32768_S32768x1_0
        (shapeCast S32768
          (transpose S4x8192 [1, 0]
            (id (select (Cert.HostMask.mask (F := F))
              (broadcastInDim S8192x4 ![] bcast_S_S8192x4 (constant S_ .f32 0x00000000#32))
              (broadcastInDim S8192x4 ![] bcast_S_S8192x4 (constant S_ .f32 0x3F8E38E4#32))))
            transposes_S8192x4_S4x8192_1_0)
          shapeCasts_S4x8192_S32768)))
    shapeCasts_S32768x16_S4096x128

theorem scaleTable_eq : scaleTable (F := F) = v_main_v15 := rfl

/-- The first operand buffer holds the argument reshaped to rows. -/
theorem after_v14 (V : Valuation τ sig (Elt F)) :
    after hostOps0 V (Proc.devRef .tc main_v14)
      = shapeCast S32768x1024 (V (Proc.devRef .tc main_arg0)) shapeCasts_S4x8192x1024_S32768x1024 :=
  (run_all V).get (List.Mem.tail _ (List.Mem.head _))

/-- The second operand buffer holds the scale table. -/
theorem after_v15 (V : Valuation τ sig (Elt F)) : after hostOps0 V (Proc.devRef .tc main_v15) = scaleTable :=
  (run_all V).get (List.Mem.head _)

end Cert.KHostIdeal

end
-- ==== Proof.KHostIdealApply.lean ====
import proofs.«206558_g86277303042394_cont_sun_m_1099_24_alg».proof.Proof.KHostIdealVal
import Idealize.ShloMosaic.Lib.ValueLayout
import Idealize.ShloMosaic.Lib.IdealHost

/-! # The scale table, entry by entry

Row `r`, column `q` of the [4096, 128] table is position `128 r + q` of the flat table, that is entry
`(8 r + q / 16, q % 16)` of the [32768, 16] array; its 16 columns repeat one value per row, the value at
`row = 8 r + q / 16` of the flat [32768] vector, which is entry `(row / 8192, row % 8192)` of the [4, 8192] array, the
transpose of the [8192, 4] array of scales: 0 where the mask is set, 1/(1 - 0.1) elsewhere. -/

noncomputable section

namespace Cert.KHostIdeal

open Cert.KernelIdeal Cert.KernelIdeal.Gen Idealize.ShloMosaic Idealize.ShloMosaic.TcCoe Idealize.SL.Sem Idealize.ShloMosaic.StableHlo Cert.HostRows Idealize.ShloMosaic.ValueIdx

variable {F : FTy → Type} [FloatOps F]

/-- A vector broadcast along a new minor axis of size one reads its own entry. -/
theorem bcast_col_apply {α : Type} (x : S32768.Idx → α) (i : Fin 32768) (j : Fin 1) :
    broadcastInDim S32768x1 ![0] bcast_S32768_S32768x1_0 x (ix2 i j) = x (ix1 i) := by
  unfold broadcastInDim
  refine congrArg x (funext fun a => ?_)
  match a with
  | ⟨0, _⟩ =>
    split
    · rename_i h1; exact absurd h1 (by decide +revert)
    · exact Fin.ext rfl

/-- A one-column array broadcast to 16 columns reads its row's one entry. -/
theorem bcast_16_apply {α : Type} (x : S32768x1.Idx → α) (i : Fin 32768) (j : Fin 16) :
    broadcastInDim S32768x16 ![0, 1] bcast_S32768x1_S32768x16_0_1 x (ix2 i j) = x (ix2 i (0 : Fin 1)) := by
  unfold broadcastInDim
  refine congrArg x (funext fun a => ?_)
  match a with
  | ⟨0, _⟩ =>
    split
    · rename_i h1; exact absurd h1 (by decide +revert)
    · exact Fin.ext rfl
  | ⟨1, _⟩ =>
    split
    · exact Fin.ext rfl
    · rename_i h1; exact absurd (by decide +revert) h1

theorem scaleTable_apply (r : Fin 4096) (q : Fin 128) :
    scaleTable (F := F) (ix2 r q)
      = if Cert.HostMask.mask (F := F)
            (ix2 (⟨(8 * r.val + q.val / 16) % 8192, Nat.mod_lt _ (by decide)⟩ : Fin 8192)
                 (⟨(8 * r.val + q.val / 16) / 8192, by have := r.isLt; have := q.isLt; omega⟩ : Fin 4)) = 1#1
        then FloatOps.ofBits .f32 0x00000000#32 else FloatOps.ofBits .f32 0x3F8E38E4#32 := by
  have hr := r.isLt
  have hq := q.isLt
  unfold scaleTable
  rw [shapeCast_apply _ _ (ix2 r q)
      (ix2 (⟨8 * r.val + q.val / 16, by omega⟩ : Fin 32768) (⟨q.val % 16, by omega⟩ : Fin 16)) (by
        rw [Shape.rowMajor_val_two, Shape.rowMajor_val_two]
        show (8 * r.val + q.val / 16) * 16 + q.val % 16 = r.val * 128 + q.val
        omega)]
  rw [bcast_16_apply, bcast_col_apply]
  rw [shapeCast_apply _ _ (ix1 (⟨8 * r.val + q.val / 16, by omega⟩ : Fin 32768))
      (ix2 (⟨(8 * r.val + q.val / 16) / 8192, by omega⟩ : Fin 4) (⟨(8 * r.val + q.val / 16) % 8192, Nat.mod_lt _ (by decide)⟩ : Fin 8192)) (by
        rw [Shape.rowMajor_val_two, Shape.rowMajor_val_one]
        show (8 * r.val + q.val / 16) / 8192 * 8192 + (8 * r.val + q.val / 16) % 8192 = 8 * r.val + q.val / 16
        omega)]
  rw [transpose_ix2_apply]
  show select _ _ _ (ix2 _ _) = _
  rw [select_apply, broadcastInDim_scalar_apply, broadcastInDim_scalar_apply]
  rfl

end Cert.KHostIdeal

end
-- ==== Proof.RefRunApply.lean ====
import proofs.«206558_g86277303042394_cont_sun_m_1099_24_alg».proof.Proof.RefRun
import Idealize.ShloMosaic.Lib.ValueLayout
import Idealize.ShloMosaic.Lib.IdealHost

/-! # The reference's result, entry by entry

At batch row `b`, sequence position `s`, hidden index `h` the result is the argument's entry there, replaced by zero
when the mask is set at `(s, b)` (the two transposes cancel on the indices; the mask is broadcast along the hidden axis),
times the scale 1/(1 - 0.1). -/

noncomputable section

namespace Cert.RefRun

open Cert.ReferenceIdeal Cert.ReferenceIdeal.Gen Idealize.ShloMosaic Idealize.ShloMosaic.TcCoe Idealize.SL.Sem Idealize.ShloMosaic.StableHlo Cert.HostRows Idealize.ShloMosaic.ValueIdx

/-- The mask with a unit hidden axis, broadcast along the hidden axis, reads the unit entry of its row. -/
theorem bcast_hidden_apply {α : Type} (x : S8192x4x1.Idx → α) (s : Fin 8192) (b : Fin 4) (h : Fin 1024) :
    broadcastInDim S8192x4x1024 ![0, 1, 2] bcast_S8192x4x1_S8192x4x1024_0_1_2 x (ix3 s b h) = x (ix3 s b (0 : Fin 1)) := by
  unfold broadcastInDim
  refine congrArg x (funext fun a => ?_)
  match a with
  | ⟨0, _⟩ =>
    split
    · rename_i h1; exact absurd h1 (by decide +revert)
    · exact Fin.ext rfl
  | ⟨1, _⟩ =>
    split
    · rename_i h1; exact absurd h1 (by decide +revert)
    · exact Fin.ext rfl
  | ⟨2, _⟩ =>
    split
    · exact Fin.ext rfl
    · rename_i h1; exact absurd (by decide +revert) h1

/-- The mask given a unit hidden axis reads its own entry. -/
theorem bcast_unit_apply {α : Type} (x : S8192x4.Idx → α) (s : Fin 8192) (b : Fin 4) (u : Fin 1) :
    broadcastInDim S8192x4x1 ![0, 1] bcast_S8192x4_S8192x4x1_0_1 x (ix3 s b u) = x (ix2 s b) := by
  unfold broadcastInDim
  refine congrArg x (funext fun a => ?_)
  match a with
  | ⟨0, _⟩ =>
    split
    · rename_i h1; exact absurd h1 (by decide +revert)
    · exact Fin.ext rfl
  | ⟨1, _⟩ =>
    split
    · rename_i h1; exact absurd h1 (by decide +revert)
    · exact Fin.ext rfl

theorem refOut_apply (x : FVec Ideal S4x8192x1024 .f32) (b : Fin 4) (s : Fin 8192) (h : Fin 1024) :
    refOut x (ix3 b s h)
      = if Cert.HostMask.mask (F := Ideal) (ix2 s b) = 1#1 then (0 : EReal) * Ideal.ofBits .f32 0x3F8E38E4#32
        else x (ix3 b s h) * Ideal.ofBits .f32 0x3F8E38E4#32 := by
  unfold refOut
  rw [mulf_apply]
  rw [transpose_apply _ _ _ (ix3 b s h) (ix3 s b h) (fun c => match c with | ⟨0, _⟩ => rfl | ⟨1, _⟩ => rfl | ⟨2, _⟩ => rfl)]
  rw [select_apply, bcast_hidden_apply, bcast_unit_apply]
  rw [transpose_apply _ x _ (ix3 s b h) (ix3 b s h) (fun c => match c with | ⟨0, _⟩ => rfl | ⟨1, _⟩ => rfl | ⟨2, _⟩ => rfl)]
  rw [broadcastInDim_scalar_apply, broadcastInDim_scalar_apply, constant_apply, constant_apply, Ideal.ofBits_zero_f32]
  unfold Scalar.select
  split
  · rename_i hm; exact (if_pos hm).symm
  · rename_i hm; exact (if_neg hm).symm

end Cert.RefRun

end
-- ==== Proof.KIValEq.lean ====
import proofs.«206558_g86277303042394_cont_sun_m_1099_24_alg».proof.Proof.KIAlgebraic
import proofs.«206558_g86277303042394_cont_sun_m_1099_24_alg».proof.Proof.KHostIdealApply
import proofs.«206558_g86277303042394_cont_sun_m_1099_24_alg».proof.Proof.RefRunApply

/-! # The value equation

At batch row `b`, sequence position `s`, hidden index `h`, with `row = 8192 b + s`: the kernel's result is the argument's
entry times the scale table's entry `(row / 8, 16 (row % 8) + h % 16)`; that entry is the flat table's at
`8 (row / 8) + (16 (row % 8) + h % 16) / 16 = row`, the scale of `(s, b)`: 0 where the mask is set, the constant
elsewhere. The reference's result is 0 times the constant where the mask is set and the argument's entry times the constant
elsewhere. On the extended reals a product with 0 on either side is 0, so the two agree. -/

noncomputable section

namespace Cert.Proof.KI

open Cert.KernelIdeal Cert.KernelIdeal.Gen Idealize.ShloMosaic Idealize.SL.Sem Idealize.ShloMosaic.ValueIdx

/-- The scale table's entry, with the mask's index named. -/
theorem scaleTable_at (r : Fin 4096) (q : Fin 128) (s : Fin 8192) (b : Fin 4)
    (hs : (8 * r.val + q.val / 16) % 8192 = s.val) (hb : (8 * r.val + q.val / 16) / 8192 = b.val) :
    Cert.KHostIdeal.scaleTable (F := Ideal) (ix2 r q)
      = if Cert.HostMask.mask (F := Ideal) (ix2 s b) = 1#1 then (0 : EReal) else Ideal.ofBits .f32 0x3F8E38E4#32 := by
  rw [Cert.KHostIdeal.scaleTable_apply]
  have h1 : (⟨(8 * r.val + q.val / 16) % 8192, Nat.mod_lt _ (by decide)⟩ : Fin 8192) = s := Fin.ext hs
  have h2 : (⟨(8 * r.val + q.val / 16) / 8192, by have := r.isLt; have := q.isLt; omega⟩ : Fin 4) = b := Fin.ext hb
  rw [h1, h2]
  rw [show (FloatOps.ofBits (F := Ideal) .f32 0x00000000#32) = (0 : EReal) from Ideal.ofBits_zero_f32]
  rfl

theorem valEq : ValEq := by
  intro m c
  rw [RES_eq]
  refine funext fun (i : S4x8192x1024.Idx) => ?_
  obtain ⟨b, s, h, rfl⟩ : ∃ b s h, i = ix3 b s h := ⟨i 0, i 1, i 2, eq_ix3 i⟩
  rw [Cert.RefRun.refOut_apply]
  have hb := b.isLt
  have hs := s.isLt
  have hh := h.isLt
  show shapeCast S4x8192x1024 (OUTV c (XH (Cert.KHostIdeal.hostOps0 (F := Ideal)) m c) (SH (Cert.KHostIdeal.hostOps0 (F := Ideal)) m c))
      shapeCasts_S32768x1024_S4x8192x1024 (ix3 b s h) = _
  rw [shapeCast_apply _ _ (ix3 b s h) (ix2 (⟨8192 * b.val + s.val, by omega⟩ : Fin 32768) h) (by
      rw [Shape.rowMajor_val_two, Shape.rowMajor_val_three]
      show (8192 * b.val + s.val) * 1024 + h.val = (b.val * 8192 + s.val) * 1024 + h.val
      omega)]
  unfold OUTV
  have hX : XH (Cert.KHostIdeal.hostOps0 (F := Ideal)) m c
      = shapeCast S32768x1024 (m ((c.tc : Thread nD τ).loc main_arg0)) shapeCasts_S4x8192x1024_S32768x1024 :=
    Cert.KHostIdeal.after_v14 (F := Ideal) _
  have hS : SH (Cert.KHostIdeal.hostOps0 (F := Ideal)) m c = Cert.KHostIdeal.scaleTable (F := Ideal) :=
    Cert.KHostIdeal.after_v15 (F := Ideal) _
  rw [hX, hS]
  rw [shapeCast_apply _ _ (ix2 (⟨8192 * b.val + s.val, by omega⟩ : Fin 32768) h) (ix3 b s h) (by
      rw [Shape.rowMajor_val_two, Shape.rowMajor_val_three]
      show (b.val * 8192 + s.val) * 1024 + h.val = (8192 * b.val + s.val) * 1024 + h.val
      omega)]
  have hsc : scIdx (ix2 (⟨8192 * b.val + s.val, by omega⟩ : Fin 32768) h)
      = ix2 (⟨(8192 * b.val + s.val) / 8, by omega⟩ : Fin 4096) (⟨16 * ((8192 * b.val + s.val) % 8) + h.val % 16, by omega⟩ : Fin 128) :=
    funext fun a => match a with | ⟨0, _⟩ => rfl | ⟨1, _⟩ => rfl
  rw [hsc, scaleTable_at _ _ s b (by show (8 * ((8192 * b.val + s.val) / 8) + (16 * ((8192 * b.val + s.val) % 8) + h.val % 16) / 16) % 8192 = s.val; omega)
    (by show (8 * ((8192 * b.val + s.val) / 8) + (16 * ((8192 * b.val + s.val) % 8) + h.val % 16) / 16) / 8192 = b.val; omega)]
  have key : ∀ (xv cst : EReal) (p : Prop) [Decidable p],
      xv * (if p then (0 : EReal) else cst) = if p then 0 * cst else xv * cst := by
    intro xv cst p _
    split
    · rw [mul_zero, zero_mul]
    · rfl
  exact key _ _ _

end Cert.Proof.KI

end
-- ==== Proof.KHostTab.lean ====
/- (run in the unit directory; it transcribes the printed lines of the entry function, the calls inlined over their records, and lists which named value each result buffer holds). -/
import proofs.«206558_g86277303042394_cont_sun_m_1099_24_alg».proof.Proof.Gen.Kernel
import proofs.«206558_g86277303042394_cont_sun_m_1099_24_alg».proof.Proof.HostMask
import proofs.«206558_g86277303042394_cont_sun_m_1099_24_alg».proof.Proof.HostRows

/-! # The host operations of the entry function as lists, and the table of their results

The entry function's host operations in printed order, each call replaced by the callee's operations over the call's
record, cut into consecutive chunks where the printed text is cut (by function, and by the windows of the long one);
the value of each result outside the mask chain as a named definition (the mask chain's are those of the mask module);
and per chunk the list of the buffers it writes with the named value each holds afterwards. -/

noncomputable section

namespace Cert.KHost

open Cert.Kernel Cert.Kernel.Gen Idealize.ShloMosaic Idealize.ShloMosaic.TcCoe Idealize.SL.Sem Idealize.ShloMosaic.StableHlo Cert.HostRows

variable {F : FTy → Type} [FloatOps F]

/-- Chunk 0: 11 operations. -/
abbrev ops0 : List (HloOp τ sig (Elt F)) :=
  [ StableHlo.nullary main_c (constantI S_ 32 42#32),
    StableHlo.nullary main_c_0 (constantI S_ 32 32#32),
    StableHlo.binary main_c main_c_0 main_v0 (Host.shrui : (⟨S_, .i32⟩ : BufTy).Contents (Elt F) → (⟨S_, .i32⟩ : BufTy).Contents (Elt F) → (⟨S_, .i32⟩ : BufTy).Contents (Elt F)),
    StableHlo.unary main_v0 main_v1 (id : (⟨S_, .i32⟩ : BufTy).Contents (Elt F) → (⟨S_, .i32⟩ : BufTy).Contents (Elt F)),
    StableHlo.unary main_v1 main_v2 (broadcastInDim S1 ![] bcast_S_S1 : (⟨S_, .i32⟩ : BufTy).Contents (Elt F) → (⟨S1, .i32⟩ : BufTy).Contents (Elt F)),
    StableHlo.nullary main_c_1 (constantI S_ 32 4294967295#32),
    StableHlo.binary main_c main_c_1 main_v3 (andi : (⟨S_, .i32⟩ : BufTy).Contents (Elt F) → (⟨S_, .i32⟩ : BufTy).Contents (Elt F) → (⟨S_, .i32⟩ : BufTy).Contents (Elt F)),
    StableHlo.unary main_v3 main_v4 (id : (⟨S_, .i32⟩ : BufTy).Contents (Elt F) → (⟨S_, .i32⟩ : BufTy).Contents (Elt F)),
    StableHlo.unary main_v4 main_v5 (broadcastInDim S1 ![] bcast_S_S1 : (⟨S_, .i32⟩ : BufTy).Contents (Elt F) → (⟨S1, .i32⟩ : BufTy).Contents (Elt F)),
    StableHlo.binary main_v2 main_v5 main_v6 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst (constant S_ .f32 0x3DCCCCCD#32) ]
/-- Chunk 1: 2 operations. -/
abbrev ops1 : List (HloOp τ sig (Elt F)) :=
  [ StableHlo.TRef.nullary main_call0.cst (constant S_ .f32 0x00000000#32),
    StableHlo.TRef.nullary main_call0.cst_0 (constant S_ .f32 0x3F800000#32) ]
/-- Chunk 2: 22 operations. -/
abbrev ops2 : List (HloOp τ sig (Elt F)) :=
  [ StableHlo.TRef.unary main_call0.cst main_call0.call0.v0 id,
    StableHlo.TRef.unary main_call0.cst_0 main_call0.call0.v1 id,
    StableHlo.TRef.unary main_call0.call0.v0 main_call0.call0.v2 (broadcastInDim S1x1 ![] bcast_S_S1x1),
    StableHlo.TRef.unary main_call0.call0.v1 main_call0.call0.v3 (broadcastInDim S1x1 ![] bcast_S_S1x1),
    StableHlo.TRef.unary (.of main_v6 : StableHlo.TRef sig ⟨S2, .i32⟩) main_call0.call0.v4 (extractStridedSlice S1 ![0] · slices_S2_S1_0),
    StableHlo.TRef.reshape main_call0.call0.v4 main_call0.call0.v5 rfl shapeCasts_S1_S_,
    StableHlo.TRef.unary (.of main_v6 : StableHlo.TRef sig ⟨S2, .i32⟩) main_call0.call0.v6 (extractStridedSlice S1 ![1] · slices_S2_S1_1),
    StableHlo.TRef.reshape main_call0.call0.v6 main_call0.call0.v7 rfl shapeCasts_S1_S_,
    StableHlo.TRef.nullary main_call0.call0.v8 (iotaInDim S8192x4 64 0),
    StableHlo.TRef.nullary main_call0.call0.v9 (iotaInDim S8192x4 64 1),
    StableHlo.TRef.nullary main_call0.call0.c (constantI S_ 64 4#64),
    StableHlo.TRef.unary main_call0.call0.c main_call0.call0.v10 (broadcastInDim S8192x4 ![] bcast_S_S8192x4),
    StableHlo.TRef.binary main_call0.call0.v10 main_call0.call0.v8 main_call0.call0.v11 muli,
    StableHlo.TRef.nullary main_call0.call0.c_0 (constantI S_ 64 1#64),
    StableHlo.TRef.unary main_call0.call0.c_0 main_call0.call0.v12 (broadcastInDim S8192x4 ![] bcast_S_S8192x4),
    StableHlo.TRef.binary main_call0.call0.v12 main_call0.call0.v9 main_call0.call0.v13 muli,
    StableHlo.TRef.binary main_call0.call0.v11 main_call0.call0.v13 main_call0.call0.v14 addi,
    StableHlo.TRef.nullary main_call0.call0.c_1 (constantI S_ 64 32#64),
    StableHlo.TRef.unary main_call0.call0.c_1 main_call0.call0.v15 (broadcastInDim S8192x4 ![] bcast_S_S8192x4),
    StableHlo.TRef.binary main_call0.call0.v14 main_call0.call0.v15 main_call0.call0.v16 Host.shrui,
    StableHlo.TRef.unary main_call0.call0.v14 main_call0.call0.v17 (trunci 32 · natLt_32_64),
    StableHlo.TRef.unary main_call0.call0.v16 main_call0.call0.v18 (trunci 32 · natLt_32_64) ]
/-- Chunk 3: 60 operations. -/
abbrev ops3 : List (HloOp τ sig (Elt F)) :=
  [ StableHlo.TRef.binary main_call0.call0.v5 main_call0.call0.v7 main_call0.call0.call0.v0 xori,
    StableHlo.TRef.nullary main_call0.call0.call0.c (constantI S_ 32 466688986#32),
    StableHlo.TRef.binary main_call0.call0.call0.v0 main_call0.call0.call0.c main_call0.call0.call0.v1 xori,
    StableHlo.TRef.unary main_call0.call0.v5 main_call0.call0.call0.v2 (broadcastInDim S8192x4 ![] bcast_S_S8192x4),
    StableHlo.TRef.binary main_call0.call0.v18 main_call0.call0.call0.v2 main_call0.call0.call0.v3 addi,
    StableHlo.TRef.unary main_call0.call0.v7 main_call0.call0.call0.v4 (broadcastInDim S8192x4 ![] bcast_S_S8192x4),
    StableHlo.TRef.binary main_call0.call0.v17 main_call0.call0.call0.v4 main_call0.call0.call0.v5 addi,
    StableHlo.TRef.binary main_call0.call0.call0.v3 main_call0.call0.call0.v5 main_call0.call0.call0.v6 addi,
    StableHlo.TRef.nullary main_call0.call0.call0.c_0 (constantI S_ 32 13#32),
    StableHlo.TRef.unary main_call0.call0.call0.c_0 main_call0.call0.call0.v7 (broadcastInDim S8192x4 ![] bcast_S_S8192x4),
    StableHlo.TRef.binary main_call0.call0.call0.v5 main_call0.call0.call0.v7 main_call0.call0.call0.v8 Host.shli,
    StableHlo.TRef.nullary main_call0.call0.call0.c_1 (constantI S_ 32 19#32),
    StableHlo.TRef.unary main_call0.call0.call0.c_1 main_call0.call0.call0.v9 (broadcastInDim S8192x4 ![] bcast_S_S8192x4),
    StableHlo.TRef.binary main_call0.call0.call0.v5 main_call0.call0.call0.v9 main_call0.call0.call0.v10 Host.shrui,
    StableHlo.TRef.binary main_call0.call0.call0.v8 main_call0.call0.call0.v10 main_call0.call0.call0.v11 ori,
    StableHlo.TRef.binary main_call0.call0.call0.v6 main_call0.call0.call0.v11 main_call0.call0.call0.v12 xori,
    StableHlo.TRef.binary main_call0.call0.call0.v6 main_call0.call0.call0.v12 main_call0.call0.call0.v13 addi,
    StableHlo.TRef.nullary main_call0.call0.call0.c_2 (constantI S_ 32 15#32),
    StableHlo.TRef.unary main_call0.call0.call0.c_2 main_call0.call0.call0.v14 (broadcastInDim S8192x4 ![] bcast_S_S8192x4),
    StableHlo.TRef.binary main_call0.call0.call0.v12 main_call0.call0.call0.v14 main_call0.call0.call0.v15 Host.shli,
    StableHlo.TRef.nullary main_call0.call0.call0.c_3 (constantI S_ 32 17#32),
    StableHlo.TRef.unary main_call0.call0.call0.c_3 main_call0.call0.call0.v16 (broadcastInDim S8192x4 ![] bcast_S_S8192x4),
    StableHlo.TRef.binary main_call0.call0.call0.v12 main_call0.call0.call0.v16 main_call0.call0.call0.v17 Host.shrui,
    StableHlo.TRef.binary main_call0.call0.call0.v15 main_call0.call0.call0.v17 main_call0.call0.call0.v18 ori,
    StableHlo.TRef.binary main_call0.call0.call0.v13 main_call0.call0.call0.v18 main_call0.call0.call0.v19 xori,
    StableHlo.TRef.binary main_call0.call0.call0.v13 main_call0.call0.call0.v19 main_call0.call0.call0.v20 addi,
    StableHlo.TRef.nullary main_call0.call0.call0.c_4 (constantI S_ 32 26#32),
    StableHlo.TRef.unary main_call0.call0.call0.c_4 main_call0.call0.call0.v21 (broadcastInDim S8192x4 ![] bcast_S_S8192x4),
    StableHlo.TRef.binary main_call0.call0.call0.v19 main_call0.call0.call0.v21 main_call0.call0.call0.v22 Host.shli,
    StableHlo.TRef.nullary main_call0.call0.call0.c_5 (constantI S_ 32 6#32),
    StableHlo.TRef.unary main_call0.call0.call0.c_5 main_call0.call0.call0.v23 (broadcastInDim S8192x4 ![] bcast_S_S8192x4),
    StableHlo.TRef.binary main_call0.call0.call0.v19 main_call0.call0.call0.v23 main_call0.call0.call0.v24 Host.shrui,
    StableHlo.TRef.binary main_call0.call0.call0.v22 main_call0.call0.call0.v24 main_call0.call0.call0.v25 ori,
    StableHlo.TRef.binary main_call0.call0.call0.v20 main_call0.call0.call0.v25 main_call0.call0.call0.v26 xori,
    StableHlo.TRef.binary main_call0.call0.call0.v20 main_call0.call0.call0.v26 main_call0.call0.call0.v27 addi,
    StableHlo.TRef.nullary main_call0.call0.call0.c_6 (constantI S_ 32 6#32),
    StableHlo.TRef.unary main_call0.call0.call0.c_6 main_call0.call0.call0.v28 (broadcastInDim S8192x4 ![] bcast_S_S8192x4),
    StableHlo.TRef.binary main_call0.call0.call0.v26 main_call0.call0.call0.v28 main_call0.call0.call0.v29 Host.shli,
    StableHlo.TRef.nullary main_call0.call0.call0.c_7 (constantI S_ 32 26#32),
    StableHlo.TRef.unary main_call0.call0.call0.c_7 main_call0.call0.call0.v30 (broadcastInDim S8192x4 ![] bcast_S_S8192x4),
    StableHlo.TRef.binary main_call0.call0.call0.v26 main_call0.call0.call0.v30 main_call0.call0.call0.v31 Host.shrui,
    StableHlo.TRef.binary main_call0.call0.call0.v29 main_call0.call0.call0.v31 main_call0.call0.call0.v32 ori,
    StableHlo.TRef.binary main_call0.call0.call0.v27 main_call0.call0.call0.v32 main_call0.call0.call0.v33 xori,
    StableHlo.TRef.unary main_call0.call0.v7 main_call0.call0.call0.v34 (broadcastInDim S8192x4 ![] bcast_S_S8192x4),
    StableHlo.TRef.binary main_call0.call0.call0.v27 main_call0.call0.call0.v34 main_call0.call0.call0.v35 addi,
    StableHlo.TRef.unary main_call0.call0.call0.v1 main_call0.call0.call0.v36 (broadcastInDim S8192x4 ![] bcast_S_S8192x4),
    StableHlo.TRef.binary main_call0.call0.call0.v33 main_call0.call0.call0.v36 main_call0.call0.call0.v37 addi,
    StableHlo.TRef.nullary main_call0.call0.call0.c_8 (constantI S_ 32 1#32),
    StableHlo.TRef.unary main_call0.call0.call0.c_8 main_call0.call0.call0.v38 (broadcastInDim S8192x4 ![] bcast_S_S8192x4),
    StableHlo.TRef.binary main_call0.call0.call0.v37 main_call0.call0.call0.v38 main_call0.call0.call0.v39 addi,
    StableHlo.TRef.binary main_call0.call0.call0.v35 main_call0.call0.call0.v39 main_call0.call0.call0.v40 addi,
    StableHlo.TRef.nullary main_call0.call0.call0.c_9 (constantI S_ 32 17#32),
    StableHlo.TRef.unary main_call0.call0.call0.c_9 main_call0.call0.call0.v41 (broadcastInDim S8192x4 ![] bcast_S_S8192x4),
    StableHlo.TRef.binary main_call0.call0.call0.v39 main_call0.call0.call0.v41 main_call0.call0.call0.v42 Host.shli,
    StableHlo.TRef.nullary main_call0.call0.call0.c_10 (constantI S_ 32 15#32),
    StableHlo.TRef.unary main_call0.call0.call0.c_10 main_call0.call0.call0.v43 (broadcastInDim S8192x4 ![] bcast_S_S8192x4),
    StableHlo.TRef.binary main_call0.call0.call0.v39 main_call0.call0.call0.v43 main_call0.call0.call0.v44 Host.shrui,
    StableHlo.TRef.binary main_call0.call0.call0.v42 main_call0.call0.call0.v44 main_call0.call0.call0.v45 ori,
    StableHlo.TRef.binary main_call0.call0.call0.v40 main_call0.call0.call0.v45 main_call0.call0.call0.v46 xori,
    StableHlo.TRef.binary main_call0.call0.call0.v40 main_call0.call0.call0.v46 main_call0.call0.call0.v47 addi ]
/-- Chunk 4: 60 operations. -/
abbrev ops4 : List (HloOp τ sig (Elt F)) :=
  [ StableHlo.TRef.nullary main_call0.call0.call0.c_11 (constantI S_ 32 29#32),
    StableHlo.TRef.unary main_call0.call0.call0.c_11 main_call0.call0.call0.v48 (broadcastInDim S8192x4 ![] bcast_S_S8192x4),
    StableHlo.TRef.binary main_call0.call0.call0.v46 main_call0.call0.call0.v48 main_call0.call0.call0.v49 Host.shli,
    StableHlo.TRef.nullary main_call0.call0.call0.c_12 (constantI S_ 32 3#32),
    StableHlo.TRef.unary main_call0.call0.call0.c_12 main_call0.call0.call0.v50 (broadcastInDim S8192x4 ![] bcast_S_S8192x4),
    StableHlo.TRef.binary main_call0.call0.call0.v46 main_call0.call0.call0.v50 main_call0.call0.call0.v51 Host.shrui,
    StableHlo.TRef.binary main_call0.call0.call0.v49 main_call0.call0.call0.v51 main_call0.call0.call0.v52 ori,
    StableHlo.TRef.binary main_call0.call0.call0.v47 main_call0.call0.call0.v52 main_call0.call0.call0.v53 xori,
    StableHlo.TRef.binary main_call0.call0.call0.v47 main_call0.call0.call0.v53 main_call0.call0.call0.v54 addi,
    StableHlo.TRef.nullary main_call0.call0.call0.c_13 (constantI S_ 32 16#32),
    StableHlo.TRef.unary main_call0.call0.call0.c_13 main_call0.call0.call0.v55 (broadcastInDim S8192x4 ![] bcast_S_S8192x4),
    StableHlo.TRef.binary main_call0.call0.call0.v53 main_call0.call0.call0.v55 main_call0.call0.call0.v56 Host.shli,
    StableHlo.TRef.nullary main_call0.call0.call0.c_14 (constantI S_ 32 16#32),
    StableHlo.TRef.unary main_call0.call0.call0.c_14 main_call0.call0.call0.v57 (broadcastInDim S8192x4 ![] bcast_S_S8192x4),
    StableHlo.TRef.binary main_call0.call0.call0.v53 main_call0.call0.call0.v57 main_call0.call0.call0.v58 Host.shrui,
    StableHlo.TRef.binary main_call0.call0.call0.v56 main_call0.call0.call0.v58 main_call0.call0.call0.v59 ori,
    StableHlo.TRef.binary main_call0.call0.call0.v54 main_call0.call0.call0.v59 main_call0.call0.call0.v60 xori,
    StableHlo.TRef.binary main_call0.call0.call0.v54 main_call0.call0.call0.v60 main_call0.call0.call0.v61 addi,
    StableHlo.TRef.nullary main_call0.call0.call0.c_15 (constantI S_ 32 24#32),
    StableHlo.TRef.unary main_call0.call0.call0.c_15 main_call0.call0.call0.v62 (broadcastInDim S8192x4 ![] bcast_S_S8192x4),
    StableHlo.TRef.binary main_call0.call0.call0.v60 main_call0.call0.call0.v62 main_call0.call0.call0.v63 Host.shli,
    StableHlo.TRef.nullary main_call0.call0.call0.c_16 (constantI S_ 32 8#32),
    StableHlo.TRef.unary main_call0.call0.call0.c_16 main_call0.call0.call0.v64 (broadcastInDim S8192x4 ![] bcast_S_S8192x4),
    StableHlo.TRef.binary main_call0.call0.call0.v60 main_call0.call0.call0.v64 main_call0.call0.call0.v65 Host.shrui,
    StableHlo.TRef.binary main_call0.call0.call0.v63 main_call0.call0.call0.v65 main_call0.call0.call0.v66 ori,
    StableHlo.TRef.binary main_call0.call0.call0.v61 main_call0.call0.call0.v66 main_call0.call0.call0.v67 xori,
    StableHlo.TRef.unary main_call0.call0.call0.v1 main_call0.call0.call0.v68 (broadcastInDim S8192x4 ![] bcast_S_S8192x4),
    StableHlo.TRef.binary main_call0.call0.call0.v61 main_call0.call0.call0.v68 main_call0.call0.call0.v69 addi,
    StableHlo.TRef.unary main_call0.call0.v5 main_call0.call0.call0.v70 (broadcastInDim S8192x4 ![] bcast_S_S8192x4),
    StableHlo.TRef.binary main_call0.call0.call0.v67 main_call0.call0.call0.v70 main_call0.call0.call0.v71 addi,
    StableHlo.TRef.nullary main_call0.call0.call0.c_17 (constantI S_ 32 2#32),
    StableHlo.TRef.unary main_call0.call0.call0.c_17 main_call0.call0.call0.v72 (broadcastInDim S8192x4 ![] bcast_S_S8192x4),
    StableHlo.TRef.binary main_call0.call0.call0.v71 main_call0.call0.call0.v72 main_call0.call0.call0.v73 addi,
    StableHlo.TRef.binary main_call0.call0.call0.v69 main_call0.call0.call0.v73 main_call0.call0.call0.v74 addi,
    StableHlo.TRef.nullary main_call0.call0.call0.c_18 (constantI S_ 32 13#32),
    StableHlo.TRef.unary main_call0.call0.call0.c_18 main_call0.call0.call0.v75 (broadcastInDim S8192x4 ![] bcast_S_S8192x4),
    StableHlo.TRef.binary main_call0.call0.call0.v73 main_call0.call0.call0.v75 main_call0.call0.call0.v76 Host.shli,
    StableHlo.TRef.nullary main_call0.call0.call0.c_19 (constantI S_ 32 19#32),
    StableHlo.TRef.unary main_call0.call0.call0.c_19 main_call0.call0.call0.v77 (broadcastInDim S8192x4 ![] bcast_S_S8192x4),
    StableHlo.TRef.binary main_call0.call0.call0.v73 main_call0.call0.call0.v77 main_call0.call0.call0.v78 Host.shrui,
    StableHlo.TRef.binary main_call0.call0.call0.v76 main_call0.call0.call0.v78 main_call0.call0.call0.v79 ori,
    StableHlo.TRef.binary main_call0.call0.call0.v74 main_call0.call0.call0.v79 main_call0.call0.call0.v80 xori,
    StableHlo.TRef.binary main_call0.call0.call0.v74 main_call0.call0.call0.v80 main_call0.call0.call0.v81 addi,
    StableHlo.TRef.nullary main_call0.call0.call0.c_20 (constantI S_ 32 15#32),
    StableHlo.TRef.unary main_call0.call0.call0.c_20 main_call0.call0.call0.v82 (broadcastInDim S8192x4 ![] bcast_S_S8192x4),
    StableHlo.TRef.binary main_call0.call0.call0.v80 main_call0.call0.call0.v82 main_call0.call0.call0.v83 Host.shli,
    StableHlo.TRef.nullary main_call0.call0.call0.c_21 (constantI S_ 32 17#32),
    StableHlo.TRef.unary main_call0.call0.call0.c_21 main_call0.call0.call0.v84 (broadcastInDim S8192x4 ![] bcast_S_S8192x4),
    StableHlo.TRef.binary main_call0.call0.call0.v80 main_call0.call0.call0.v84 main_call0.call0.call0.v85 Host.shrui,
    StableHlo.TRef.binary main_call0.call0.call0.v83 main_call0.call0.call0.v85 main_call0.call0.call0.v86 ori,
    StableHlo.TRef.binary main_call0.call0.call0.v81 main_call0.call0.call0.v86 main_call0.call0.call0.v87 xori,
    StableHlo.TRef.binary main_call0.call0.call0.v81 main_call0.call0.call0.v87 main_call0.call0.call0.v88 addi,
    StableHlo.TRef.nullary main_call0.call0.call0.c_22 (constantI S_ 32 26#32),
    StableHlo.TRef.unary main_call0.call0.call0.c_22 main_call0.call0.call0.v89 (broadcastInDim S8192x4 ![] bcast_S_S8192x4),
    StableHlo.TRef.binary main_call0.call0.call0.v87 main_call0.call0.call0.v89 main_call0.call0.call0.v90 Host.shli,
    StableHlo.TRef.nullary main_call0.call0.call0.c_23 (constantI S_ 32 6#32),
    StableHlo.TRef.unary main_call0.call0.call0.c_23 main_call0.call0.call0.v91 (broadcastInDim S8192x4 ![] bcast_S_S8192x4),
    StableHlo.TRef.binary main_call0.call0.call0.v87 main_call0.call0.call0.v91 main_call0.call0.call0.v92 Host.shrui,
    StableHlo.TRef.binary main_call0.call0.call0.v90 main_call0.call0.call0.v92 main_call0.call0.call0.v93 ori,
    StableHlo.TRef.binary main_call0.call0.call0.v88 main_call0.call0.call0.v93 main_call0.call0.call0.v94 xori ]
/-- Chunk 5: 60 operations. -/
abbrev ops5 : List (HloOp τ sig (Elt F)) :=
  [ StableHlo.TRef.binary main_call0.call0.call0.v88 main_call0.call0.call0.v94 main_call0.call0.call0.v95 addi,
    StableHlo.TRef.nullary main_call0.call0.call0.c_24 (constantI S_ 32 6#32),
    StableHlo.TRef.unary main_call0.call0.call0.c_24 main_call0.call0.call0.v96 (broadcastInDim S8192x4 ![] bcast_S_S8192x4),
    StableHlo.TRef.binary main_call0.call0.call0.v94 main_call0.call0.call0.v96 main_call0.call0.call0.v97 Host.shli,
    StableHlo.TRef.nullary main_call0.call0.call0.c_25 (constantI S_ 32 26#32),
    StableHlo.TRef.unary main_call0.call0.call0.c_25 main_call0.call0.call0.v98 (broadcastInDim S8192x4 ![] bcast_S_S8192x4),
    StableHlo.TRef.binary main_call0.call0.call0.v94 main_call0.call0.call0.v98 main_call0.call0.call0.v99 Host.shrui,
    StableHlo.TRef.binary main_call0.call0.call0.v97 main_call0.call0.call0.v99 main_call0.call0.call0.v100 ori,
    StableHlo.TRef.binary main_call0.call0.call0.v95 main_call0.call0.call0.v100 main_call0.call0.call0.v101 xori,
    StableHlo.TRef.unary main_call0.call0.v5 main_call0.call0.call0.v102 (broadcastInDim S8192x4 ![] bcast_S_S8192x4),
    StableHlo.TRef.binary main_call0.call0.call0.v95 main_call0.call0.call0.v102 main_call0.call0.call0.v103 addi,
    StableHlo.TRef.unary main_call0.call0.v7 main_call0.call0.call0.v104 (broadcastInDim S8192x4 ![] bcast_S_S8192x4),
    StableHlo.TRef.binary main_call0.call0.call0.v101 main_call0.call0.call0.v104 main_call0.call0.call0.v105 addi,
    StableHlo.TRef.nullary main_call0.call0.call0.c_26 (constantI S_ 32 3#32),
    StableHlo.TRef.unary main_call0.call0.call0.c_26 main_call0.call0.call0.v106 (broadcastInDim S8192x4 ![] bcast_S_S8192x4),
    StableHlo.TRef.binary main_call0.call0.call0.v105 main_call0.call0.call0.v106 main_call0.call0.call0.v107 addi,
    StableHlo.TRef.binary main_call0.call0.call0.v103 main_call0.call0.call0.v107 main_call0.call0.call0.v108 addi,
    StableHlo.TRef.nullary main_call0.call0.call0.c_27 (constantI S_ 32 17#32),
    StableHlo.TRef.unary main_call0.call0.call0.c_27 main_call0.call0.call0.v109 (broadcastInDim S8192x4 ![] bcast_S_S8192x4),
    StableHlo.TRef.binary main_call0.call0.call0.v107 main_call0.call0.call0.v109 main_call0.call0.call0.v110 Host.shli,
    StableHlo.TRef.nullary main_call0.call0.call0.c_28 (constantI S_ 32 15#32),
    StableHlo.TRef.unary main_call0.call0.call0.c_28 main_call0.call0.call0.v111 (broadcastInDim S8192x4 ![] bcast_S_S8192x4),
    StableHlo.TRef.binary main_call0.call0.call0.v107 main_call0.call0.call0.v111 main_call0.call0.call0.v112 Host.shrui,
    StableHlo.TRef.binary main_call0.call0.call0.v110 main_call0.call0.call0.v112 main_call0.call0.call0.v113 ori,
    StableHlo.TRef.binary main_call0.call0.call0.v108 main_call0.call0.call0.v113 main_call0.call0.call0.v114 xori,
    StableHlo.TRef.binary main_call0.call0.call0.v108 main_call0.call0.call0.v114 main_call0.call0.call0.v115 addi,
    StableHlo.TRef.nullary main_call0.call0.call0.c_29 (constantI S_ 32 29#32),
    StableHlo.TRef.unary main_call0.call0.call0.c_29 main_call0.call0.call0.v116 (broadcastInDim S8192x4 ![] bcast_S_S8192x4),
    StableHlo.TRef.binary main_call0.call0.call0.v114 main_call0.call0.call0.v116 main_call0.call0.call0.v117 Host.shli,
    StableHlo.TRef.nullary main_call0.call0.call0.c_30 (constantI S_ 32 3#32),
    StableHlo.TRef.unary main_call0.call0.call0.c_30 main_call0.call0.call0.v118 (broadcastInDim S8192x4 ![] bcast_S_S8192x4),
    StableHlo.TRef.binary main_call0.call0.call0.v114 main_call0.call0.call0.v118 main_call0.call0.call0.v119 Host.shrui,
    StableHlo.TRef.binary main_call0.call0.call0.v117 main_call0.call0.call0.v119 main_call0.call0.call0.v120 ori,
    StableHlo.TRef.binary main_call0.call0.call0.v115 main_call0.call0.call0.v120 main_call0.call0.call0.v121 xori,
    StableHlo.TRef.binary main_call0.call0.call0.v115 main_call0.call0.call0.v121 main_call0.call0.call0.v122 addi,
    StableHlo.TRef.nullary main_call0.call0.call0.c_31 (constantI S_ 32 16#32),
    StableHlo.TRef.unary main_call0.call0.call0.c_31 main_call0.call0.call0.v123 (broadcastInDim S8192x4 ![] bcast_S_S8192x4),
    StableHlo.TRef.binary main_call0.call0.call0.v121 main_call0.call0.call0.v123 main_call0.call0.call0.v124 Host.shli,
    StableHlo.TRef.nullary main_call0.call0.call0.c_32 (constantI S_ 32 16#32),
    StableHlo.TRef.unary main_call0.call0.call0.c_32 main_call0.call0.call0.v125 (broadcastInDim S8192x4 ![] bcast_S_S8192x4),
    StableHlo.TRef.binary main_call0.call0.call0.v121 main_call0.call0.call0.v125 main_call0.call0.call0.v126 Host.shrui,
    StableHlo.TRef.binary main_call0.call0.call0.v124 main_call0.call0.call0.v126 main_call0.call0.call0.v127 ori,
    StableHlo.TRef.binary main_call0.call0.call0.v122 main_call0.call0.call0.v127 main_call0.call0.call0.v128 xori,
    StableHlo.TRef.binary main_call0.call0.call0.v122 main_call0.call0.call0.v128 main_call0.call0.call0.v129 addi,
    StableHlo.TRef.nullary main_call0.call0.call0.c_33 (constantI S_ 32 24#32),
    StableHlo.TRef.unary main_call0.call0.call0.c_33 main_call0.call0.call0.v130 (broadcastInDim S8192x4 ![] bcast_S_S8192x4),
    StableHlo.TRef.binary main_call0.call0.call0.v128 main_call0.call0.call0.v130 main_call0.call0.call0.v131 Host.shli,
    StableHlo.TRef.nullary main_call0.call0.call0.c_34 (constantI S_ 32 8#32),
    StableHlo.TRef.unary main_call0.call0.call0.c_34 main_call0.call0.call0.v132 (broadcastInDim S8192x4 ![] bcast_S_S8192x4),
    StableHlo.TRef.binary main_call0.call0.call0.v128 main_call0.call0.call0.v132 main_call0.call0.call0.v133 Host.shrui,
    StableHlo.TRef.binary main_call0.call0.call0.v131 main_call0.call0.call0.v133 main_call0.call0.call0.v134 ori,
    StableHlo.TRef.binary main_call0.call0.call0.v129 main_call0.call0.call0.v134 main_call0.call0.call0.v135 xori,
    StableHlo.TRef.unary main_call0.call0.v7 main_call0.call0.call0.v136 (broadcastInDim S8192x4 ![] bcast_S_S8192x4),
    StableHlo.TRef.binary main_call0.call0.call0.v129 main_call0.call0.call0.v136 main_call0.call0.call0.v137 addi,
    StableHlo.TRef.unary main_call0.call0.call0.v1 main_call0.call0.call0.v138 (broadcastInDim S8192x4 ![] bcast_S_S8192x4),
    StableHlo.TRef.binary main_call0.call0.call0.v135 main_call0.call0.call0.v138 main_call0.call0.call0.v139 addi,
    StableHlo.TRef.nullary main_call0.call0.call0.c_35 (constantI S_ 32 4#32),
    StableHlo.TRef.unary main_call0.call0.call0.c_35 main_call0.call0.call0.v140 (broadcastInDim S8192x4 ![] bcast_S_S8192x4),
    StableHlo.TRef.binary main_call0.call0.call0.v139 main_call0.call0.call0.v140 main_call0.call0.call0.v141 addi,
    StableHlo.TRef.binary main_call0.call0.call0.v137 main_call0.call0.call0.v141 main_call0.call0.call0.v142 addi ]
/-- Chunk 6: 42 operations. -/
abbrev ops6 : List (HloOp τ sig (Elt F)) :=
  [ StableHlo.TRef.nullary main_call0.call0.call0.c_36 (constantI S_ 32 13#32),
    StableHlo.TRef.unary main_call0.call0.call0.c_36 main_call0.call0.call0.v143 (broadcastInDim S8192x4 ![] bcast_S_S8192x4),
    StableHlo.TRef.binary main_call0.call0.call0.v141 main_call0.call0.call0.v143 main_call0.call0.call0.v144 Host.shli,
    StableHlo.TRef.nullary main_call0.call0.call0.c_37 (constantI S_ 32 19#32),
    StableHlo.TRef.unary main_call0.call0.call0.c_37 main_call0.call0.call0.v145 (broadcastInDim S8192x4 ![] bcast_S_S8192x4),
    StableHlo.TRef.binary main_call0.call0.call0.v141 main_call0.call0.call0.v145 main_call0.call0.call0.v146 Host.shrui,
    StableHlo.TRef.binary main_call0.call0.call0.v144 main_call0.call0.call0.v146 main_call0.call0.call0.v147 ori,
    StableHlo.TRef.binary main_call0.call0.call0.v142 main_call0.call0.call0.v147 main_call0.call0.call0.v148 xori,
    StableHlo.TRef.binary main_call0.call0.call0.v142 main_call0.call0.call0.v148 main_call0.call0.call0.v149 addi,
    StableHlo.TRef.nullary main_call0.call0.call0.c_38 (constantI S_ 32 15#32),
    StableHlo.TRef.unary main_call0.call0.call0.c_38 main_call0.call0.call0.v150 (broadcastInDim S8192x4 ![] bcast_S_S8192x4),
    StableHlo.TRef.binary main_call0.call0.call0.v148 main_call0.call0.call0.v150 main_call0.call0.call0.v151 Host.shli,
    StableHlo.TRef.nullary main_call0.call0.call0.c_39 (constantI S_ 32 17#32),
    StableHlo.TRef.unary main_call0.call0.call0.c_39 main_call0.call0.call0.v152 (broadcastInDim S8192x4 ![] bcast_S_S8192x4),
    StableHlo.TRef.binary main_call0.call0.call0.v148 main_call0.call0.call0.v152 main_call0.call0.call0.v153 Host.shrui,
    StableHlo.TRef.binary main_call0.call0.call0.v151 main_call0.call0.call0.v153 main_call0.call0.call0.v154 ori,
    StableHlo.TRef.binary main_call0.call0.call0.v149 main_call0.call0.call0.v154 main_call0.call0.call0.v155 xori,
    StableHlo.TRef.binary main_call0.call0.call0.v149 main_call0.call0.call0.v155 main_call0.call0.call0.v156 addi,
    StableHlo.TRef.nullary main_call0.call0.call0.c_40 (constantI S_ 32 26#32),
    StableHlo.TRef.unary main_call0.call0.call0.c_40 main_call0.call0.call0.v157 (broadcastInDim S8192x4 ![] bcast_S_S8192x4),
    StableHlo.TRef.binary main_call0.call0.call0.v155 main_call0.call0.call0.v157 main_call0.call0.call0.v158 Host.shli,
    StableHlo.TRef.nullary main_call0.call0.call0.c_41 (constantI S_ 32 6#32),
    StableHlo.TRef.unary main_call0.call0.call0.c_41 main_call0.call0.call0.v159 (broadcastInDim S8192x4 ![] bcast_S_S8192x4),
    StableHlo.TRef.binary main_call0.call0.call0.v155 main_call0.call0.call0.v159 main_call0.call0.call0.v160 Host.shrui,
    StableHlo.TRef.binary main_call0.call0.call0.v158 main_call0.call0.call0.v160 main_call0.call0.call0.v161 ori,
    StableHlo.TRef.binary main_call0.call0.call0.v156 main_call0.call0.call0.v161 main_call0.call0.call0.v162 xori,
    StableHlo.TRef.binary main_call0.call0.call0.v156 main_call0.call0.call0.v162 main_call0.call0.call0.v163 addi,
    StableHlo.TRef.nullary main_call0.call0.call0.c_42 (constantI S_ 32 6#32),
    StableHlo.TRef.unary main_call0.call0.call0.c_42 main_call0.call0.call0.v164 (broadcastInDim S8192x4 ![] bcast_S_S8192x4),
    StableHlo.TRef.binary main_call0.call0.call0.v162 main_call0.call0.call0.v164 main_call0.call0.call0.v165 Host.shli,
    StableHlo.TRef.nullary main_call0.call0.call0.c_43 (constantI S_ 32 26#32),
    StableHlo.TRef.unary main_call0.call0.call0.c_43 main_call0.call0.call0.v166 (broadcastInDim S8192x4 ![] bcast_S_S8192x4),
    StableHlo.TRef.binary main_call0.call0.call0.v162 main_call0.call0.call0.v166 main_call0.call0.call0.v167 Host.shrui,
    StableHlo.TRef.binary main_call0.call0.call0.v165 main_call0.call0.call0.v167 main_call0.call0.call0.v168 ori,
    StableHlo.TRef.binary main_call0.call0.call0.v163 main_call0.call0.call0.v168 main_call0.call0.call0.v169 xori,
    StableHlo.TRef.unary main_call0.call0.call0.v1 main_call0.call0.call0.v170 (broadcastInDim S8192x4 ![] bcast_S_S8192x4),
    StableHlo.TRef.binary main_call0.call0.call0.v163 main_call0.call0.call0.v170 main_call0.call0.call0.v171 addi,
    StableHlo.TRef.unary main_call0.call0.v5 main_call0.call0.call0.v172 (broadcastInDim S8192x4 ![] bcast_S_S8192x4),
    StableHlo.TRef.binary main_call0.call0.call0.v169 main_call0.call0.call0.v172 main_call0.call0.call0.v173 addi,
    StableHlo.TRef.nullary main_call0.call0.call0.c_44 (constantI S_ 32 5#32),
    StableHlo.TRef.unary main_call0.call0.call0.c_44 main_call0.call0.call0.v174 (broadcastInDim S8192x4 ![] bcast_S_S8192x4),
    StableHlo.TRef.binary main_call0.call0.call0.v173 main_call0.call0.call0.v174 main_call0.call0.call0.v175 addi ]
/-- Chunk 7: 18 operations. -/
abbrev ops7 : List (HloOp τ sig (Elt F)) :=
  [ StableHlo.TRef.binary main_call0.call0.call0.v171 main_call0.call0.call0.v175 main_call0.call0.v20 xori,
    StableHlo.TRef.nullary main_call0.call0.c_2 (constantI S_ 32 9#32),
    StableHlo.TRef.unary main_call0.call0.c_2 main_call0.call0.v21 (broadcastInDim S8192x4 ![] bcast_S_S8192x4),
    StableHlo.TRef.binary main_call0.call0.v20 main_call0.call0.v21 main_call0.call0.v22 Host.shrui,
    StableHlo.TRef.nullary main_call0.call0.c_3 (constantI S_ 32 1065353216#32),
    StableHlo.TRef.unary main_call0.call0.c_3 main_call0.call0.v23 (broadcastInDim S8192x4 ![] bcast_S_S8192x4),
    StableHlo.TRef.binary main_call0.call0.v22 main_call0.call0.v23 main_call0.call0.v24 ori,
    StableHlo.TRef.unary main_call0.call0.v24 main_call0.call0.v25 (bitcastToFloat .f32),
    StableHlo.TRef.nullary main_call0.call0.cst (constant S_ .f32 0x3F800000#32),
    StableHlo.TRef.unary main_call0.call0.cst main_call0.call0.v26 (broadcastInDim S8192x4 ![] bcast_S_S8192x4),
    StableHlo.TRef.binary main_call0.call0.v25 main_call0.call0.v26 main_call0.call0.v27 subf,
    StableHlo.TRef.binary main_call0.call0.v3 main_call0.call0.v2 main_call0.call0.v28 subf,
    StableHlo.TRef.unary main_call0.call0.v28 main_call0.call0.v29 (broadcastInDim S8192x4 ![0, 1] bcast_S1x1_S8192x4_0_1),
    StableHlo.TRef.binary main_call0.call0.v27 main_call0.call0.v29 main_call0.call0.v30 mulf,
    StableHlo.TRef.unary main_call0.call0.v2 main_call0.call0.v31 (broadcastInDim S8192x4 ![0, 1] bcast_S1x1_S8192x4_0_1),
    StableHlo.TRef.binary main_call0.call0.v30 main_call0.call0.v31 main_call0.call0.v32 addf,
    StableHlo.TRef.unary main_call0.call0.v2 main_call0.call0.v33 (broadcastInDim S8192x4 ![0, 1] bcast_S1x1_S8192x4_0_1),
    StableHlo.TRef.binary main_call0.call0.v33 main_call0.call0.v32 main_call0.call0.v34 maximumf ]
/-- Chunk 8: 2 operations. -/
abbrev ops8 : List (HloOp τ sig (Elt F)) :=
  [ StableHlo.TRef.unary (.of main_cst : StableHlo.TRef sig ⟨S_, .f32⟩) main_call0.v1 (broadcastInDim S8192x4 ![] bcast_S_S8192x4),
    StableHlo.TRef.binary main_call0.call0.v34 main_call0.v1 main_call0.v2 (cmpf .olt) ]
/-- Chunk 9: 12 operations. -/
abbrev ops9 : List (HloOp τ sig (Elt F)) :=
  [ StableHlo.nullary main_cst_2 (constant S_ .f32 0x00000000#32),
    StableHlo.nullary main_cst_3 (constant S_ .f32 0x3F8E38E4#32),
    StableHlo.TRef.unary (.of main_cst_2 : StableHlo.TRef sig ⟨S_, .f32⟩) main_call1.v0 (broadcastInDim S8192x4 ![] bcast_S_S8192x4),
    StableHlo.TRef.unary (.of main_cst_3 : StableHlo.TRef sig ⟨S_, .f32⟩) main_call1.v1 (broadcastInDim S8192x4 ![] bcast_S_S8192x4),
    StableHlo.TRef.ternary (.of main_v7 : StableHlo.TRef sig ⟨S8192x4, .i1⟩) main_call1.v0 main_call1.v1 main_call1.v2 select,
    StableHlo.unary main_v8 main_v9 (id : (⟨S8192x4, .f32⟩ : BufTy).Contents (Elt F) → (⟨S8192x4, .f32⟩ : BufTy).Contents (Elt F)),
    StableHlo.unary main_v9 main_v10 ((transpose S4x8192 [1, 0] · transposes_S8192x4_S4x8192_1_0) : (⟨S8192x4, .f32⟩ : BufTy).Contents (Elt F) → (⟨S4x8192, .f32⟩ : BufTy).Contents (Elt F)),
    StableHlo.reshape main_v10 main_v11 rfl shapeCasts_S4x8192_S32768,
    StableHlo.unary main_v11 main_v12 (broadcastInDim S32768x1 ![0] bcast_S32768_S32768x1_0 : (⟨S32768, .f32⟩ : BufTy).Contents (Elt F) → (⟨S32768x1, .f32⟩ : BufTy).Contents (Elt F)),
    StableHlo.unary main_v12 main_v13 (broadcastInDim S32768x16 ![0, 1] bcast_S32768x1_S32768x16_0_1 : (⟨S32768x1, .f32⟩ : BufTy).Contents (Elt F) → (⟨S32768x16, .f32⟩ : BufTy).Contents (Elt F)),
    StableHlo.reshape main_arg0 main_v14 rfl shapeCasts_S4x8192x1024_S32768x1024,
    StableHlo.reshape main_v13 main_v15 rfl shapeCasts_S32768x16_S4096x128 ]
/-- The operation after the SparseCore call. -/
abbrev opOut : HloOp τ sig (Elt F) :=
  StableHlo.reshape main_v16 main_v17 rfl shapeCasts_S32768x1024_S4x8192x1024
/-- The host operations before the SparseCore call (of the whole @main when there is none), in order, calls inlined: the chunks appended. -/
abbrev hostOps0 : List (HloOp τ sig (Elt F)) :=
  ops0 ++ (ops1 ++ (ops2 ++ (ops3 ++ (ops4 ++ (ops5 ++ (ops6 ++ (ops7 ++ (ops8 ++ (ops9)))))))))

/-! The named values of the results outside the mask chain, over the argument's contents. -/
def v_main_cst_2 : (⟨S_, .f32⟩ : BufTy).Contents (Elt F) := (constant S_ .f32 0x00000000#32)
def v_main_cst_3 : (⟨S_, .f32⟩ : BufTy).Contents (Elt F) := (constant S_ .f32 0x3F8E38E4#32)
def v_main_call1_v0 : (⟨S8192x4, .f32⟩ : BufTy).Contents (Elt F) := (broadcastInDim S8192x4 ![] bcast_S_S8192x4) (v_main_cst_2 (F := F))
def v_main_call1_v1 : (⟨S8192x4, .f32⟩ : BufTy).Contents (Elt F) := (broadcastInDim S8192x4 ![] bcast_S_S8192x4) (v_main_cst_3 (F := F))
def v_main_v8 : (⟨S8192x4, .f32⟩ : BufTy).Contents (Elt F) := select (Cert.HostMask.b_v2 (F := F)) (v_main_call1_v0 (F := F)) (v_main_call1_v1 (F := F))
def v_main_v9 : (⟨S8192x4, .f32⟩ : BufTy).Contents (Elt F) := (id : (⟨S8192x4, .f32⟩ : BufTy).Contents (Elt F) → (⟨S8192x4, .f32⟩ : BufTy).Contents (Elt F)) (v_main_v8 (F := F))
def v_main_v10 : (⟨S4x8192, .f32⟩ : BufTy).Contents (Elt F) := ((transpose S4x8192 [1, 0] · transposes_S8192x4_S4x8192_1_0) : (⟨S8192x4, .f32⟩ : BufTy).Contents (Elt F) → (⟨S4x8192, .f32⟩ : BufTy).Contents (Elt F)) (v_main_v9 (F := F))
def v_main_v11 : (⟨S32768, .f32⟩ : BufTy).Contents (Elt F) := shapeCast S32768 (v_main_v10 (F := F)) shapeCasts_S4x8192_S32768
def v_main_v12 : (⟨S32768x1, .f32⟩ : BufTy).Contents (Elt F) := (broadcastInDim S32768x1 ![0] bcast_S32768_S32768x1_0 : (⟨S32768, .f32⟩ : BufTy).Contents (Elt F) → (⟨S32768x1, .f32⟩ : BufTy).Contents (Elt F)) (v_main_v11 (F := F))
def v_main_v13 : (⟨S32768x16, .f32⟩ : BufTy).Contents (Elt F) := (broadcastInDim S32768x16 ![0, 1] bcast_S32768x1_S32768x16_0_1 : (⟨S32768x1, .f32⟩ : BufTy).Contents (Elt F) → (⟨S32768x16, .f32⟩ : BufTy).Contents (Elt F)) (v_main_v12 (F := F))
def v_main_v14 (x : (⟨S4x8192x1024, .f32⟩ : BufTy).Contents (Elt F)) : (⟨S32768x1024, .f32⟩ : BufTy).Contents (Elt F) := shapeCast S32768x1024 (x) shapeCasts_S4x8192x1024_S32768x1024
def v_main_v15 : (⟨S4096x128, .f32⟩ : BufTy).Contents (Elt F) := shapeCast S4096x128 (v_main_v13 (F := F)) shapeCasts_S32768x16_S4096x128

/-! The buffers written, chunk by chunk (latest first, each list continuing the one before), and which named value each holds. -/
abbrev refsInit : List (Ref sig .tc) := [main_arg0]
abbrev rowsInit (x : (⟨S4x8192x1024, .f32⟩ : BufTy).Contents (Elt F)) : List (Row sig (Elt F)) := [⟨main_arg0, x⟩]
abbrev refs0 : List (Ref sig .tc) :=
  main_cst ::
  main_v6 ::
  main_v5 ::
  main_v4 ::
  main_v3 ::
  main_c_1 ::
  main_v2 ::
  main_v1 ::
  main_v0 ::
  main_c_0 ::
  main_c ::
  refsInit
abbrev rows0 (x : (⟨S4x8192x1024, .f32⟩ : BufTy).Contents (Elt F)) : List (Row sig (Elt F)) :=
  ⟨main_cst, Cert.HostMask.m10 (F := F)⟩ ::
  ⟨main_v6, Cert.HostMask.m9 (F := F)⟩ ::
  ⟨main_v5, Cert.HostMask.m8 (F := F)⟩ ::
  ⟨main_v4, Cert.HostMask.m7 (F := F)⟩ ::
  ⟨main_v3, Cert.HostMask.m6 (F := F)⟩ ::
  ⟨main_c_1, Cert.HostMask.m5 (F := F)⟩ ::
  ⟨main_v2, Cert.HostMask.m4 (F := F)⟩ ::
  ⟨main_v1, Cert.HostMask.m3 (F := F)⟩ ::
  ⟨main_v0, Cert.HostMask.m2 (F := F)⟩ ::
  ⟨main_c_0, Cert.HostMask.m1 (F := F)⟩ ::
  ⟨main_c, Cert.HostMask.m0 (F := F)⟩ ::
  rowsInit x
abbrev refs1 : List (Ref sig .tc) :=
  main_call0_cst_0 ::
  main_call0_cst ::
  refs0
abbrev rows1 (x : (⟨S4x8192x1024, .f32⟩ : BufTy).Contents (Elt F)) : List (Row sig (Elt F)) :=
  ⟨main_call0_cst_0, Cert.HostMask.b_cst_0 (F := F)⟩ ::
  ⟨main_call0_cst, Cert.HostMask.b_cst (F := F)⟩ ::
  rows0 x
abbrev refs2 : List (Ref sig .tc) :=
  main_call0_call0_v18 ::
  main_call0_call0_v17 ::
  main_call0_call0_v16 ::
  main_call0_call0_v15 ::
  main_call0_call0_c_1 ::
  main_call0_call0_v14 ::
  main_call0_call0_v13 ::
  main_call0_call0_v12 ::
  main_call0_call0_c_0 ::
  main_call0_call0_v11 ::
  main_call0_call0_v10 ::
  main_call0_call0_c ::
  main_call0_call0_v9 ::
  main_call0_call0_v8 ::
  main_call0_call0_v7 ::
  main_call0_call0_v6 ::
  main_call0_call0_v5 ::
  main_call0_call0_v4 ::
  main_call0_call0_v3 ::
  main_call0_call0_v2 ::
  main_call0_call0_v1 ::
  main_call0_call0_v0 ::
  refs1
abbrev rows2 (x : (⟨S4x8192x1024, .f32⟩ : BufTy).Contents (Elt F)) : List (Row sig (Elt F)) :=
  ⟨main_call0_call0_v18, Cert.HostMask.u_v18 (F := F)⟩ ::
  ⟨main_call0_call0_v17, Cert.HostMask.u_v17 (F := F)⟩ ::
  ⟨main_call0_call0_v16, Cert.HostMask.u_v16 (F := F)⟩ ::
  ⟨main_call0_call0_v15, Cert.HostMask.u_v15 (F := F)⟩ ::
  ⟨main_call0_call0_c_1, Cert.HostMask.u_c_1 (F := F)⟩ ::
  ⟨main_call0_call0_v14, Cert.HostMask.u_v14 (F := F)⟩ ::
  ⟨main_call0_call0_v13, Cert.HostMask.u_v13 (F := F)⟩ ::
  ⟨main_call0_call0_v12, Cert.HostMask.u_v12 (F := F)⟩ ::
  ⟨main_call0_call0_c_0, Cert.HostMask.u_c_0 (F := F)⟩ ::
  ⟨main_call0_call0_v11, Cert.HostMask.u_v11 (F := F)⟩ ::
  ⟨main_call0_call0_v10, Cert.HostMask.u_v10 (F := F)⟩ ::
  ⟨main_call0_call0_c, Cert.HostMask.u_c (F := F)⟩ ::
  ⟨main_call0_call0_v9, Cert.HostMask.u_v9 (F := F)⟩ ::
  ⟨main_call0_call0_v8, Cert.HostMask.u_v8 (F := F)⟩ ::
  ⟨main_call0_call0_v7, Cert.HostMask.u_v7 (F := F)⟩ ::
  ⟨main_call0_call0_v6, Cert.HostMask.u_v6 (F := F)⟩ ::
  ⟨main_call0_call0_v5, Cert.HostMask.u_v5 (F := F)⟩ ::
  ⟨main_call0_call0_v4, Cert.HostMask.u_v4 (F := F)⟩ ::
  ⟨main_call0_call0_v3, Cert.HostMask.u_v3 (F := F)⟩ ::
  ⟨main_call0_call0_v2, Cert.HostMask.u_v2 (F := F)⟩ ::
  ⟨main_call0_call0_v1, Cert.HostMask.u_v1 (F := F)⟩ ::
  ⟨main_call0_call0_v0, Cert.HostMask.u_v0 (F := F)⟩ ::
  rows1 x
abbrev refs3 : List (Ref sig .tc) :=
  main_call0_call0_call0_v47 ::
  main_call0_call0_call0_v46 ::
  main_call0_call0_call0_v45 ::
  main_call0_call0_call0_v44 ::
  main_call0_call0_call0_v43 ::
  main_call0_call0_call0_c_10 ::
  main_call0_call0_call0_v42 ::
  main_call0_call0_call0_v41 ::
  main_call0_call0_call0_c_9 ::
  main_call0_call0_call0_v40 ::
  main_call0_call0_call0_v39 ::
  main_call0_call0_call0_v38 ::
  main_call0_call0_call0_c_8 ::
  main_call0_call0_call0_v37 ::
  main_call0_call0_call0_v36 ::
  main_call0_call0_call0_v35 ::
  main_call0_call0_call0_v34 ::
  main_call0_call0_call0_v33 ::
  main_call0_call0_call0_v32 ::
  main_call0_call0_call0_v31 ::
  main_call0_call0_call0_v30 ::
  main_call0_call0_call0_c_7 ::
  main_call0_call0_call0_v29 ::
  main_call0_call0_call0_v28 ::
  main_call0_call0_call0_c_6 ::
  main_call0_call0_call0_v27 ::
  main_call0_call0_call0_v26 ::
  main_call0_call0_call0_v25 ::
  main_call0_call0_call0_v24 ::
  main_call0_call0_call0_v23 ::
  main_call0_call0_call0_c_5 ::
  main_call0_call0_call0_v22 ::
  main_call0_call0_call0_v21 ::
  main_call0_call0_call0_c_4 ::
  main_call0_call0_call0_v20 ::
  main_call0_call0_call0_v19 ::
  main_call0_call0_call0_v18 ::
  main_call0_call0_call0_v17 ::
  main_call0_call0_call0_v16 ::
  main_call0_call0_call0_c_3 ::
  main_call0_call0_call0_v15 ::
  main_call0_call0_call0_v14 ::
  main_call0_call0_call0_c_2 ::
  main_call0_call0_call0_v13 ::
  main_call0_call0_call0_v12 ::
  main_call0_call0_call0_v11 ::
  main_call0_call0_call0_v10 ::
  main_call0_call0_call0_v9 ::
  main_call0_call0_call0_c_1 ::
  main_call0_call0_call0_v8 ::
  main_call0_call0_call0_v7 ::
  main_call0_call0_call0_c_0 ::
  main_call0_call0_call0_v6 ::
  main_call0_call0_call0_v5 ::
  main_call0_call0_call0_v4 ::
  main_call0_call0_call0_v3 ::
  main_call0_call0_call0_v2 ::
  main_call0_call0_call0_v1 ::
  main_call0_call0_call0_c ::
  main_call0_call0_call0_v0 ::
  refs2
abbrev rows3 (x : (⟨S4x8192x1024, .f32⟩ : BufTy).Contents (Elt F)) : List (Row sig (Elt F)) :=
  ⟨main_call0_call0_call0_v47, Cert.HostMask.t_v47 (F := F)⟩ ::
  ⟨main_call0_call0_call0_v46, Cert.HostMask.t_v46 (F := F)⟩ ::
  ⟨main_call0_call0_call0_v45, Cert.HostMask.t_v45 (F := F)⟩ ::
  ⟨main_call0_call0_call0_v44, Cert.HostMask.t_v44 (F := F)⟩ ::
  ⟨main_call0_call0_call0_v43, Cert.HostMask.t_v43 (F := F)⟩ ::
  ⟨main_call0_call0_call0_c_10, Cert.HostMask.t_c_10 (F := F)⟩ ::
  ⟨main_call0_call0_call0_v42, Cert.HostMask.t_v42 (F := F)⟩ ::
  ⟨main_call0_call0_call0_v41, Cert.HostMask.t_v41 (F := F)⟩ ::
  ⟨main_call0_call0_call0_c_9, Cert.HostMask.t_c_9 (F := F)⟩ ::
  ⟨main_call0_call0_call0_v40, Cert.HostMask.t_v40 (F := F)⟩ ::
  ⟨main_call0_call0_call0_v39, Cert.HostMask.t_v39 (F := F)⟩ ::
  ⟨main_call0_call0_call0_v38, Cert.HostMask.t_v38 (F := F)⟩ ::
  ⟨main_call0_call0_call0_c_8, Cert.HostMask.t_c_8 (F := F)⟩ ::
  ⟨main_call0_call0_call0_v37, Cert.HostMask.t_v37 (F := F)⟩ ::
  ⟨main_call0_call0_call0_v36, Cert.HostMask.t_v36 (F := F)⟩ ::
  ⟨main_call0_call0_call0_v35, Cert.HostMask.t_v35 (F := F)⟩ ::
  ⟨main_call0_call0_call0_v34, Cert.HostMask.t_v34 (F := F)⟩ ::
  ⟨main_call0_call0_call0_v33, Cert.HostMask.t_v33 (F := F)⟩ ::
  ⟨main_call0_call0_call0_v32, Cert.HostMask.t_v32 (F := F)⟩ ::
  ⟨main_call0_call0_call0_v31, Cert.HostMask.t_v31 (F := F)⟩ ::
  ⟨main_call0_call0_call0_v30, Cert.HostMask.t_v30 (F := F)⟩ ::
  ⟨main_call0_call0_call0_c_7, Cert.HostMask.t_c_7 (F := F)⟩ ::
  ⟨main_call0_call0_call0_v29, Cert.HostMask.t_v29 (F := F)⟩ ::
  ⟨main_call0_call0_call0_v28, Cert.HostMask.t_v28 (F := F)⟩ ::
  ⟨main_call0_call0_call0_c_6, Cert.HostMask.t_c_6 (F := F)⟩ ::
  ⟨main_call0_call0_call0_v27, Cert.HostMask.t_v27 (F := F)⟩ ::
  ⟨main_call0_call0_call0_v26, Cert.HostMask.t_v26 (F := F)⟩ ::
  ⟨main_call0_call0_call0_v25, Cert.HostMask.t_v25 (F := F)⟩ ::
  ⟨main_call0_call0_call0_v24, Cert.HostMask.t_v24 (F := F)⟩ ::
  ⟨main_call0_call0_call0_v23, Cert.HostMask.t_v23 (F := F)⟩ ::
  ⟨main_call0_call0_call0_c_5, Cert.HostMask.t_c_5 (F := F)⟩ ::
  ⟨main_call0_call0_call0_v22, Cert.HostMask.t_v22 (F := F)⟩ ::
  ⟨main_call0_call0_call0_v21, Cert.HostMask.t_v21 (F := F)⟩ ::
  ⟨main_call0_call0_call0_c_4, Cert.HostMask.t_c_4 (F := F)⟩ ::
  ⟨main_call0_call0_call0_v20, Cert.HostMask.t_v20 (F := F)⟩ ::
  ⟨main_call0_call0_call0_v19, Cert.HostMask.t_v19 (F := F)⟩ ::
  ⟨main_call0_call0_call0_v18, Cert.HostMask.t_v18 (F := F)⟩ ::
  ⟨main_call0_call0_call0_v17, Cert.HostMask.t_v17 (F := F)⟩ ::
  ⟨main_call0_call0_call0_v16, Cert.HostMask.t_v16 (F := F)⟩ ::
  ⟨main_call0_call0_call0_c_3, Cert.HostMask.t_c_3 (F := F)⟩ ::
  ⟨main_call0_call0_call0_v15, Cert.HostMask.t_v15 (F := F)⟩ ::
  ⟨main_call0_call0_call0_v14, Cert.HostMask.t_v14 (F := F)⟩ ::
  ⟨main_call0_call0_call0_c_2, Cert.HostMask.t_c_2 (F := F)⟩ ::
  ⟨main_call0_call0_call0_v13, Cert.HostMask.t_v13 (F := F)⟩ ::
  ⟨main_call0_call0_call0_v12, Cert.HostMask.t_v12 (F := F)⟩ ::
  ⟨main_call0_call0_call0_v11, Cert.HostMask.t_v11 (F := F)⟩ ::
  ⟨main_call0_call0_call0_v10, Cert.HostMask.t_v10 (F := F)⟩ ::
  ⟨main_call0_call0_call0_v9, Cert.HostMask.t_v9 (F := F)⟩ ::
  ⟨main_call0_call0_call0_c_1, Cert.HostMask.t_c_1 (F := F)⟩ ::
  ⟨main_call0_call0_call0_v8, Cert.HostMask.t_v8 (F := F)⟩ ::
  ⟨main_call0_call0_call0_v7, Cert.HostMask.t_v7 (F := F)⟩ ::
  ⟨main_call0_call0_call0_c_0, Cert.HostMask.t_c_0 (F := F)⟩ ::
  ⟨main_call0_call0_call0_v6, Cert.HostMask.t_v6 (F := F)⟩ ::
  ⟨main_call0_call0_call0_v5, Cert.HostMask.t_v5 (F := F)⟩ ::
  ⟨main_call0_call0_call0_v4, Cert.HostMask.t_v4 (F := F)⟩ ::
  ⟨main_call0_call0_call0_v3, Cert.HostMask.t_v3 (F := F)⟩ ::
  ⟨main_call0_call0_call0_v2, Cert.HostMask.t_v2 (F := F)⟩ ::
  ⟨main_call0_call0_call0_v1, Cert.HostMask.t_v1 (F := F)⟩ ::
  ⟨main_call0_call0_call0_c, Cert.HostMask.t_c (F := F)⟩ ::
  ⟨main_call0_call0_call0_v0, Cert.HostMask.t_v0 (F := F)⟩ ::
  rows2 x
abbrev refs4 : List (Ref sig .tc) :=
  main_call0_call0_call0_v94 ::
  main_call0_call0_call0_v93 ::
  main_call0_call0_call0_v92 ::
  main_call0_call0_call0_v91 ::
  main_call0_call0_call0_c_23 ::
  main_call0_call0_call0_v90 ::
  main_call0_call0_call0_v89 ::
  main_call0_call0_call0_c_22 ::
  main_call0_call0_call0_v88 ::
  main_call0_call0_call0_v87 ::
  main_call0_call0_call0_v86 ::
  main_call0_call0_call0_v85 ::
  main_call0_call0_call0_v84 ::
  main_call0_call0_call0_c_21 ::
  main_call0_call0_call0_v83 ::
  main_call0_call0_call0_v82 ::
  main_call0_call0_call0_c_20 ::
  main_call0_call0_call0_v81 ::
  main_call0_call0_call0_v80 ::
  main_call0_call0_call0_v79 ::
  main_call0_call0_call0_v78 ::
  main_call0_call0_call0_v77 ::
  main_call0_call0_call0_c_19 ::
  main_call0_call0_call0_v76 ::
  main_call0_call0_call0_v75 ::
  main_call0_call0_call0_c_18 ::
  main_call0_call0_call0_v74 ::
  main_call0_call0_call0_v73 ::
  main_call0_call0_call0_v72 ::
  main_call0_call0_call0_c_17 ::
  main_call0_call0_call0_v71 ::
  main_call0_call0_call0_v70 ::
  main_call0_call0_call0_v69 ::
  main_call0_call0_call0_v68 ::
  main_call0_call0_call0_v67 ::
  main_call0_call0_call0_v66 ::
  main_call0_call0_call0_v65 ::
  main_call0_call0_call0_v64 ::
  main_call0_call0_call0_c_16 ::
  main_call0_call0_call0_v63 ::
  main_call0_call0_call0_v62 ::
  main_call0_call0_call0_c_15 ::
  main_call0_call0_call0_v61 ::
  main_call0_call0_call0_v60 ::
  main_call0_call0_call0_v59 ::
  main_call0_call0_call0_v58 ::
  main_call0_call0_call0_v57 ::
  main_call0_call0_call0_c_14 ::
  main_call0_call0_call0_v56 ::
  main_call0_call0_call0_v55 ::
  main_call0_call0_call0_c_13 ::
  main_call0_call0_call0_v54 ::
  main_call0_call0_call0_v53 ::
  main_call0_call0_call0_v52 ::
  main_call0_call0_call0_v51 ::
  main_call0_call0_call0_v50 ::
  main_call0_call0_call0_c_12 ::
  main_call0_call0_call0_v49 ::
  main_call0_call0_call0_v48 ::
  main_call0_call0_call0_c_11 ::
  refs3
abbrev rows4 (x : (⟨S4x8192x1024, .f32⟩ : BufTy).Contents (Elt F)) : List (Row sig (Elt F)) :=
  ⟨main_call0_call0_call0_v94, Cert.HostMask.t_v94 (F := F)⟩ ::
  ⟨main_call0_call0_call0_v93, Cert.HostMask.t_v93 (F := F)⟩ ::
  ⟨main_call0_call0_call0_v92, Cert.HostMask.t_v92 (F := F)⟩ ::
  ⟨main_call0_call0_call0_v91, Cert.HostMask.t_v91 (F := F)⟩ ::
  ⟨main_call0_call0_call0_c_23, Cert.HostMask.t_c_23 (F := F)⟩ ::
  ⟨main_call0_call0_call0_v90, Cert.HostMask.t_v90 (F := F)⟩ ::
  ⟨main_call0_call0_call0_v89, Cert.HostMask.t_v89 (F := F)⟩ ::
  ⟨main_call0_call0_call0_c_22, Cert.HostMask.t_c_22 (F := F)⟩ ::
  ⟨main_call0_call0_call0_v88, Cert.HostMask.t_v88 (F := F)⟩ ::
  ⟨main_call0_call0_call0_v87, Cert.HostMask.t_v87 (F := F)⟩ ::
  ⟨main_call0_call0_call0_v86, Cert.HostMask.t_v86 (F := F)⟩ ::
  ⟨main_call0_call0_call0_v85, Cert.HostMask.t_v85 (F := F)⟩ ::
  ⟨main_call0_call0_call0_v84, Cert.HostMask.t_v84 (F := F)⟩ ::
  ⟨main_call0_call0_call0_c_21, Cert.HostMask.t_c_21 (F := F)⟩ ::
  ⟨main_call0_call0_call0_v83, Cert.HostMask.t_v83 (F := F)⟩ ::
  ⟨main_call0_call0_call0_v82, Cert.HostMask.t_v82 (F := F)⟩ ::
  ⟨main_call0_call0_call0_c_20, Cert.HostMask.t_c_20 (F := F)⟩ ::
  ⟨main_call0_call0_call0_v81, Cert.HostMask.t_v81 (F := F)⟩ ::
  ⟨main_call0_call0_call0_v80, Cert.HostMask.t_v80 (F := F)⟩ ::
  ⟨main_call0_call0_call0_v79, Cert.HostMask.t_v79 (F := F)⟩ ::
  ⟨main_call0_call0_call0_v78, Cert.HostMask.t_v78 (F := F)⟩ ::
  ⟨main_call0_call0_call0_v77, Cert.HostMask.t_v77 (F := F)⟩ ::
  ⟨main_call0_call0_call0_c_19, Cert.HostMask.t_c_19 (F := F)⟩ ::
  ⟨main_call0_call0_call0_v76, Cert.HostMask.t_v76 (F := F)⟩ ::
  ⟨main_call0_call0_call0_v75, Cert.HostMask.t_v75 (F := F)⟩ ::
  ⟨main_call0_call0_call0_c_18, Cert.HostMask.t_c_18 (F := F)⟩ ::
  ⟨main_call0_call0_call0_v74, Cert.HostMask.t_v74 (F := F)⟩ ::
  ⟨main_call0_call0_call0_v73, Cert.HostMask.t_v73 (F := F)⟩ ::
  ⟨main_call0_call0_call0_v72, Cert.HostMask.t_v72 (F := F)⟩ ::
  ⟨main_call0_call0_call0_c_17, Cert.HostMask.t_c_17 (F := F)⟩ ::
  ⟨main_call0_call0_call0_v71, Cert.HostMask.t_v71 (F := F)⟩ ::
  ⟨main_call0_call0_call0_v70, Cert.HostMask.t_v70 (F := F)⟩ ::
  ⟨main_call0_call0_call0_v69, Cert.HostMask.t_v69 (F := F)⟩ ::
  ⟨main_call0_call0_call0_v68, Cert.HostMask.t_v68 (F := F)⟩ ::
  ⟨main_call0_call0_call0_v67, Cert.HostMask.t_v67 (F := F)⟩ ::
  ⟨main_call0_call0_call0_v66, Cert.HostMask.t_v66 (F := F)⟩ ::
  ⟨main_call0_call0_call0_v65, Cert.HostMask.t_v65 (F := F)⟩ ::
  ⟨main_call0_call0_call0_v64, Cert.HostMask.t_v64 (F := F)⟩ ::
  ⟨main_call0_call0_call0_c_16, Cert.HostMask.t_c_16 (F := F)⟩ ::
  ⟨main_call0_call0_call0_v63, Cert.HostMask.t_v63 (F := F)⟩ ::
  ⟨main_call0_call0_call0_v62, Cert.HostMask.t_v62 (F := F)⟩ ::
  ⟨main_call0_call0_call0_c_15, Cert.HostMask.t_c_15 (F := F)⟩ ::
  ⟨main_call0_call0_call0_v61, Cert.HostMask.t_v61 (F := F)⟩ ::
  ⟨main_call0_call0_call0_v60, Cert.HostMask.t_v60 (F := F)⟩ ::
  ⟨main_call0_call0_call0_v59, Cert.HostMask.t_v59 (F := F)⟩ ::
  ⟨main_call0_call0_call0_v58, Cert.HostMask.t_v58 (F := F)⟩ ::
  ⟨main_call0_call0_call0_v57, Cert.HostMask.t_v57 (F := F)⟩ ::
  ⟨main_call0_call0_call0_c_14, Cert.HostMask.t_c_14 (F := F)⟩ ::
  ⟨main_call0_call0_call0_v56, Cert.HostMask.t_v56 (F := F)⟩ ::
  ⟨main_call0_call0_call0_v55, Cert.HostMask.t_v55 (F := F)⟩ ::
  ⟨main_call0_call0_call0_c_13, Cert.HostMask.t_c_13 (F := F)⟩ ::
  ⟨main_call0_call0_call0_v54, Cert.HostMask.t_v54 (F := F)⟩ ::
  ⟨main_call0_call0_call0_v53, Cert.HostMask.t_v53 (F := F)⟩ ::
  ⟨main_call0_call0_call0_v52, Cert.HostMask.t_v52 (F := F)⟩ ::
  ⟨main_call0_call0_call0_v51, Cert.HostMask.t_v51 (F := F)⟩ ::
  ⟨main_call0_call0_call0_v50, Cert.HostMask.t_v50 (F := F)⟩ ::
  ⟨main_call0_call0_call0_c_12, Cert.HostMask.t_c_12 (F := F)⟩ ::
  ⟨main_call0_call0_call0_v49, Cert.HostMask.t_v49 (F := F)⟩ ::
  ⟨main_call0_call0_call0_v48, Cert.HostMask.t_v48 (F := F)⟩ ::
  ⟨main_call0_call0_call0_c_11, Cert.HostMask.t_c_11 (F := F)⟩ ::
  rows3 x
abbrev refs5 : List (Ref sig .tc) :=
  main_call0_call0_call0_v142 ::
  main_call0_call0_call0_v141 ::
  main_call0_call0_call0_v140 ::
  main_call0_call0_call0_c_35 ::
  main_call0_call0_call0_v139 ::
  main_call0_call0_call0_v138 ::
  main_call0_call0_call0_v137 ::
  main_call0_call0_call0_v136 ::
  main_call0_call0_call0_v135 ::
  main_call0_call0_call0_v134 ::
  main_call0_call0_call0_v133 ::
  main_call0_call0_call0_v132 ::
  main_call0_call0_call0_c_34 ::
  main_call0_call0_call0_v131 ::
  main_call0_call0_call0_v130 ::
  main_call0_call0_call0_c_33 ::
  main_call0_call0_call0_v129 ::
  main_call0_call0_call0_v128 ::
  main_call0_call0_call0_v127 ::
  main_call0_call0_call0_v126 ::
  main_call0_call0_call0_v125 ::
  main_call0_call0_call0_c_32 ::
  main_call0_call0_call0_v124 ::
  main_call0_call0_call0_v123 ::
  main_call0_call0_call0_c_31 ::
  main_call0_call0_call0_v122 ::
  main_call0_call0_call0_v121 ::
  main_call0_call0_call0_v120 ::
  main_call0_call0_call0_v119 ::
  main_call0_call0_call0_v118 ::
  main_call0_call0_call0_c_30 ::
  main_call0_call0_call0_v117 ::
  main_call0_call0_call0_v116 ::
  main_call0_call0_call0_c_29 ::
  main_call0_call0_call0_v115 ::
  main_call0_call0_call0_v114 ::
  main_call0_call0_call0_v113 ::
  main_call0_call0_call0_v112 ::
  main_call0_call0_call0_v111 ::
  main_call0_call0_call0_c_28 ::
  main_call0_call0_call0_v110 ::
  main_call0_call0_call0_v109 ::
  main_call0_call0_call0_c_27 ::
  main_call0_call0_call0_v108 ::
  main_call0_call0_call0_v107 ::
  main_call0_call0_call0_v106 ::
  main_call0_call0_call0_c_26 ::
  main_call0_call0_call0_v105 ::
  main_call0_call0_call0_v104 ::
  main_call0_call0_call0_v103 ::
  main_call0_call0_call0_v102 ::
  main_call0_call0_call0_v101 ::
  main_call0_call0_call0_v100 ::
  main_call0_call0_call0_v99 ::
  main_call0_call0_call0_v98 ::
  main_call0_call0_call0_c_25 ::
  main_call0_call0_call0_v97 ::
  main_call0_call0_call0_v96 ::
  main_call0_call0_call0_c_24 ::
  main_call0_call0_call0_v95 ::
  refs4
abbrev rows5 (x : (⟨S4x8192x1024, .f32⟩ : BufTy).Contents (Elt F)) : List (Row sig (Elt F)) :=
  ⟨main_call0_call0_call0_v142, Cert.HostMask.t_v142 (F := F)⟩ ::
  ⟨main_call0_call0_call0_v141, Cert.HostMask.t_v141 (F := F)⟩ ::
  ⟨main_call0_call0_call0_v140, Cert.HostMask.t_v140 (F := F)⟩ ::
  ⟨main_call0_call0_call0_c_35, Cert.HostMask.t_c_35 (F := F)⟩ ::
  ⟨main_call0_call0_call0_v139, Cert.HostMask.t_v139 (F := F)⟩ ::
  ⟨main_call0_call0_call0_v138, Cert.HostMask.t_v138 (F := F)⟩ ::
  ⟨main_call0_call0_call0_v137, Cert.HostMask.t_v137 (F := F)⟩ ::
  ⟨main_call0_call0_call0_v136, Cert.HostMask.t_v136 (F := F)⟩ ::
  ⟨main_call0_call0_call0_v135, Cert.HostMask.t_v135 (F := F)⟩ ::
  ⟨main_call0_call0_call0_v134, Cert.HostMask.t_v134 (F := F)⟩ ::
  ⟨main_call0_call0_call0_v133, Cert.HostMask.t_v133 (F := F)⟩ ::
  ⟨main_call0_call0_call0_v132, Cert.HostMask.t_v132 (F := F)⟩ ::
  ⟨main_call0_call0_call0_c_34, Cert.HostMask.t_c_34 (F := F)⟩ ::
  ⟨main_call0_call0_call0_v131, Cert.HostMask.t_v131 (F := F)⟩ ::
  ⟨main_call0_call0_call0_v130, Cert.HostMask.t_v130 (F := F)⟩ ::
  ⟨main_call0_call0_call0_c_33, Cert.HostMask.t_c_33 (F := F)⟩ ::
  ⟨main_call0_call0_call0_v129, Cert.HostMask.t_v129 (F := F)⟩ ::
  ⟨main_call0_call0_call0_v128, Cert.HostMask.t_v128 (F := F)⟩ ::
  ⟨main_call0_call0_call0_v127, Cert.HostMask.t_v127 (F := F)⟩ ::
  ⟨main_call0_call0_call0_v126, Cert.HostMask.t_v126 (F := F)⟩ ::
  ⟨main_call0_call0_call0_v125, Cert.HostMask.t_v125 (F := F)⟩ ::
  ⟨main_call0_call0_call0_c_32, Cert.HostMask.t_c_32 (F := F)⟩ ::
  ⟨main_call0_call0_call0_v124, Cert.HostMask.t_v124 (F := F)⟩ ::
  ⟨main_call0_call0_call0_v123, Cert.HostMask.t_v123 (F := F)⟩ ::
  ⟨main_call0_call0_call0_c_31, Cert.HostMask.t_c_31 (F := F)⟩ ::
  ⟨main_call0_call0_call0_v122, Cert.HostMask.t_v122 (F := F)⟩ ::
  ⟨main_call0_call0_call0_v121, Cert.HostMask.t_v121 (F := F)⟩ ::
  ⟨main_call0_call0_call0_v120, Cert.HostMask.t_v120 (F := F)⟩ ::
  ⟨main_call0_call0_call0_v119, Cert.HostMask.t_v119 (F := F)⟩ ::
  ⟨main_call0_call0_call0_v118, Cert.HostMask.t_v118 (F := F)⟩ ::
  ⟨main_call0_call0_call0_c_30, Cert.HostMask.t_c_30 (F := F)⟩ ::
  ⟨main_call0_call0_call0_v117, Cert.HostMask.t_v117 (F := F)⟩ ::
  ⟨main_call0_call0_call0_v116, Cert.HostMask.t_v116 (F := F)⟩ ::
  ⟨main_call0_call0_call0_c_29, Cert.HostMask.t_c_29 (F := F)⟩ ::
  ⟨main_call0_call0_call0_v115, Cert.HostMask.t_v115 (F := F)⟩ ::
  ⟨main_call0_call0_call0_v114, Cert.HostMask.t_v114 (F := F)⟩ ::
  ⟨main_call0_call0_call0_v113, Cert.HostMask.t_v113 (F := F)⟩ ::
  ⟨main_call0_call0_call0_v112, Cert.HostMask.t_v112 (F := F)⟩ ::
  ⟨main_call0_call0_call0_v111, Cert.HostMask.t_v111 (F := F)⟩ ::
  ⟨main_call0_call0_call0_c_28, Cert.HostMask.t_c_28 (F := F)⟩ ::
  ⟨main_call0_call0_call0_v110, Cert.HostMask.t_v110 (F := F)⟩ ::
  ⟨main_call0_call0_call0_v109, Cert.HostMask.t_v109 (F := F)⟩ ::
  ⟨main_call0_call0_call0_c_27, Cert.HostMask.t_c_27 (F := F)⟩ ::
  ⟨main_call0_call0_call0_v108, Cert.HostMask.t_v108 (F := F)⟩ ::
  ⟨main_call0_call0_call0_v107, Cert.HostMask.t_v107 (F := F)⟩ ::
  ⟨main_call0_call0_call0_v106, Cert.HostMask.t_v106 (F := F)⟩ ::
  ⟨main_call0_call0_call0_c_26, Cert.HostMask.t_c_26 (F := F)⟩ ::
  ⟨main_call0_call0_call0_v105, Cert.HostMask.t_v105 (F := F)⟩ ::
  ⟨main_call0_call0_call0_v104, Cert.HostMask.t_v104 (F := F)⟩ ::
  ⟨main_call0_call0_call0_v103, Cert.HostMask.t_v103 (F := F)⟩ ::
  ⟨main_call0_call0_call0_v102, Cert.HostMask.t_v102 (F := F)⟩ ::
  ⟨main_call0_call0_call0_v101, Cert.HostMask.t_v101 (F := F)⟩ ::
  ⟨main_call0_call0_call0_v100, Cert.HostMask.t_v100 (F := F)⟩ ::
  ⟨main_call0_call0_call0_v99, Cert.HostMask.t_v99 (F := F)⟩ ::
  ⟨main_call0_call0_call0_v98, Cert.HostMask.t_v98 (F := F)⟩ ::
  ⟨main_call0_call0_call0_c_25, Cert.HostMask.t_c_25 (F := F)⟩ ::
  ⟨main_call0_call0_call0_v97, Cert.HostMask.t_v97 (F := F)⟩ ::
  ⟨main_call0_call0_call0_v96, Cert.HostMask.t_v96 (F := F)⟩ ::
  ⟨main_call0_call0_call0_c_24, Cert.HostMask.t_c_24 (F := F)⟩ ::
  ⟨main_call0_call0_call0_v95, Cert.HostMask.t_v95 (F := F)⟩ ::
  rows4 x
abbrev refs6 : List (Ref sig .tc) :=
  main_call0_call0_v19_1 ::
  main_call0_call0_call0_v174 ::
  main_call0_call0_call0_c_44 ::
  main_call0_call0_call0_v173 ::
  main_call0_call0_call0_v172 ::
  main_call0_call0_v19_0 ::
  main_call0_call0_call0_v170 ::
  main_call0_call0_call0_v169 ::
  main_call0_call0_call0_v168 ::
  main_call0_call0_call0_v167 ::
  main_call0_call0_call0_v166 ::
  main_call0_call0_call0_c_43 ::
  main_call0_call0_call0_v165 ::
  main_call0_call0_call0_v164 ::
  main_call0_call0_call0_c_42 ::
  main_call0_call0_call0_v163 ::
  main_call0_call0_call0_v162 ::
  main_call0_call0_call0_v161 ::
  main_call0_call0_call0_v160 ::
  main_call0_call0_call0_v159 ::
  main_call0_call0_call0_c_41 ::
  main_call0_call0_call0_v158 ::
  main_call0_call0_call0_v157 ::
  main_call0_call0_call0_c_40 ::
  main_call0_call0_call0_v156 ::
  main_call0_call0_call0_v155 ::
  main_call0_call0_call0_v154 ::
  main_call0_call0_call0_v153 ::
  main_call0_call0_call0_v152 ::
  main_call0_call0_call0_c_39 ::
  main_call0_call0_call0_v151 ::
  main_call0_call0_call0_v150 ::
  main_call0_call0_call0_c_38 ::
  main_call0_call0_call0_v149 ::
  main_call0_call0_call0_v148 ::
  main_call0_call0_call0_v147 ::
  main_call0_call0_call0_v146 ::
  main_call0_call0_call0_v145 ::
  main_call0_call0_call0_c_37 ::
  main_call0_call0_call0_v144 ::
  main_call0_call0_call0_v143 ::
  main_call0_call0_call0_c_36 ::
  refs5
abbrev rows6 (x : (⟨S4x8192x1024, .f32⟩ : BufTy).Contents (Elt F)) : List (Row sig (Elt F)) :=
  ⟨main_call0_call0_v19_1, Cert.HostMask.t_v175 (F := F)⟩ ::
  ⟨main_call0_call0_call0_v174, Cert.HostMask.t_v174 (F := F)⟩ ::
  ⟨main_call0_call0_call0_c_44, Cert.HostMask.t_c_44 (F := F)⟩ ::
  ⟨main_call0_call0_call0_v173, Cert.HostMask.t_v173 (F := F)⟩ ::
  ⟨main_call0_call0_call0_v172, Cert.HostMask.t_v172 (F := F)⟩ ::
  ⟨main_call0_call0_v19_0, Cert.HostMask.t_v171 (F := F)⟩ ::
  ⟨main_call0_call0_call0_v170, Cert.HostMask.t_v170 (F := F)⟩ ::
  ⟨main_call0_call0_call0_v169, Cert.HostMask.t_v169 (F := F)⟩ ::
  ⟨main_call0_call0_call0_v168, Cert.HostMask.t_v168 (F := F)⟩ ::
  ⟨main_call0_call0_call0_v167, Cert.HostMask.t_v167 (F := F)⟩ ::
  ⟨main_call0_call0_call0_v166, Cert.HostMask.t_v166 (F := F)⟩ ::
  ⟨main_call0_call0_call0_c_43, Cert.HostMask.t_c_43 (F := F)⟩ ::
  ⟨main_call0_call0_call0_v165, Cert.HostMask.t_v165 (F := F)⟩ ::
  ⟨main_call0_call0_call0_v164, Cert.HostMask.t_v164 (F := F)⟩ ::
  ⟨main_call0_call0_call0_c_42, Cert.HostMask.t_c_42 (F := F)⟩ ::
  ⟨main_call0_call0_call0_v163, Cert.HostMask.t_v163 (F := F)⟩ ::
  ⟨main_call0_call0_call0_v162, Cert.HostMask.t_v162 (F := F)⟩ ::
  ⟨main_call0_call0_call0_v161, Cert.HostMask.t_v161 (F := F)⟩ ::
  ⟨main_call0_call0_call0_v160, Cert.HostMask.t_v160 (F := F)⟩ ::
  ⟨main_call0_call0_call0_v159, Cert.HostMask.t_v159 (F := F)⟩ ::
  ⟨main_call0_call0_call0_c_41, Cert.HostMask.t_c_41 (F := F)⟩ ::
  ⟨main_call0_call0_call0_v158, Cert.HostMask.t_v158 (F := F)⟩ ::
  ⟨main_call0_call0_call0_v157, Cert.HostMask.t_v157 (F := F)⟩ ::
  ⟨main_call0_call0_call0_c_40, Cert.HostMask.t_c_40 (F := F)⟩ ::
  ⟨main_call0_call0_call0_v156, Cert.HostMask.t_v156 (F := F)⟩ ::
  ⟨main_call0_call0_call0_v155, Cert.HostMask.t_v155 (F := F)⟩ ::
  ⟨main_call0_call0_call0_v154, Cert.HostMask.t_v154 (F := F)⟩ ::
  ⟨main_call0_call0_call0_v153, Cert.HostMask.t_v153 (F := F)⟩ ::
  ⟨main_call0_call0_call0_v152, Cert.HostMask.t_v152 (F := F)⟩ ::
  ⟨main_call0_call0_call0_c_39, Cert.HostMask.t_c_39 (F := F)⟩ ::
  ⟨main_call0_call0_call0_v151, Cert.HostMask.t_v151 (F := F)⟩ ::
  ⟨main_call0_call0_call0_v150, Cert.HostMask.t_v150 (F := F)⟩ ::
  ⟨main_call0_call0_call0_c_38, Cert.HostMask.t_c_38 (F := F)⟩ ::
  ⟨main_call0_call0_call0_v149, Cert.HostMask.t_v149 (F := F)⟩ ::
  ⟨main_call0_call0_call0_v148, Cert.HostMask.t_v148 (F := F)⟩ ::
  ⟨main_call0_call0_call0_v147, Cert.HostMask.t_v147 (F := F)⟩ ::
  ⟨main_call0_call0_call0_v146, Cert.HostMask.t_v146 (F := F)⟩ ::
  ⟨main_call0_call0_call0_v145, Cert.HostMask.t_v145 (F := F)⟩ ::
  ⟨main_call0_call0_call0_c_37, Cert.HostMask.t_c_37 (F := F)⟩ ::
  ⟨main_call0_call0_call0_v144, Cert.HostMask.t_v144 (F := F)⟩ ::
  ⟨main_call0_call0_call0_v143, Cert.HostMask.t_v143 (F := F)⟩ ::
  ⟨main_call0_call0_call0_c_36, Cert.HostMask.t_c_36 (F := F)⟩ ::
  rows5 x
abbrev refs7 : List (Ref sig .tc) :=
  main_call0_v0 ::
  main_call0_call0_v33 ::
  main_call0_call0_v32 ::
  main_call0_call0_v31 ::
  main_call0_call0_v30 ::
  main_call0_call0_v29 ::
  main_call0_call0_v28 ::
  main_call0_call0_v27 ::
  main_call0_call0_v26 ::
  main_call0_call0_cst ::
  main_call0_call0_v25 ::
  main_call0_call0_v24 ::
  main_call0_call0_v23 ::
  main_call0_call0_c_3 ::
  main_call0_call0_v22 ::
  main_call0_call0_v21 ::
  main_call0_call0_c_2 ::
  main_call0_call0_v20 ::
  refs6
abbrev rows7 (x : (⟨S4x8192x1024, .f32⟩ : BufTy).Contents (Elt F)) : List (Row sig (Elt F)) :=
  ⟨main_call0_v0, Cert.HostMask.u_v34 (F := F)⟩ ::
  ⟨main_call0_call0_v33, Cert.HostMask.u_v33 (F := F)⟩ ::
  ⟨main_call0_call0_v32, Cert.HostMask.u_v32 (F := F)⟩ ::
  ⟨main_call0_call0_v31, Cert.HostMask.u_v31 (F := F)⟩ ::
  ⟨main_call0_call0_v30, Cert.HostMask.u_v30 (F := F)⟩ ::
  ⟨main_call0_call0_v29, Cert.HostMask.u_v29 (F := F)⟩ ::
  ⟨main_call0_call0_v28, Cert.HostMask.u_v28 (F := F)⟩ ::
  ⟨main_call0_call0_v27, Cert.HostMask.u_v27 (F := F)⟩ ::
  ⟨main_call0_call0_v26, Cert.HostMask.u_v26 (F := F)⟩ ::
  ⟨main_call0_call0_cst, Cert.HostMask.u_cst (F := F)⟩ ::
  ⟨main_call0_call0_v25, Cert.HostMask.u_v25 (F := F)⟩ ::
  ⟨main_call0_call0_v24, Cert.HostMask.u_v24 (F := F)⟩ ::
  ⟨main_call0_call0_v23, Cert.HostMask.u_v23 (F := F)⟩ ::
  ⟨main_call0_call0_c_3, Cert.HostMask.u_c_3 (F := F)⟩ ::
  ⟨main_call0_call0_v22, Cert.HostMask.u_v22 (F := F)⟩ ::
  ⟨main_call0_call0_v21, Cert.HostMask.u_v21 (F := F)⟩ ::
  ⟨main_call0_call0_c_2, Cert.HostMask.u_c_2 (F := F)⟩ ::
  ⟨main_call0_call0_v20, Cert.HostMask.u_v20 (F := F)⟩ ::
  rows6 x
abbrev refs8 : List (Ref sig .tc) :=
  main_v7 ::
  main_call0_v1 ::
  refs7
abbrev rows8 (x : (⟨S4x8192x1024, .f32⟩ : BufTy).Contents (Elt F)) : List (Row sig (Elt F)) :=
  ⟨main_v7, Cert.HostMask.b_v2 (F := F)⟩ ::
  ⟨main_call0_v1, Cert.HostMask.b_v1 (F := F)⟩ ::
  rows7 x
abbrev refs9 : List (Ref sig .tc) :=
  main_v15 ::
  main_v14 ::
  main_v13 ::
  main_v12 ::
  main_v11 ::
  main_v10 ::
  main_v9 ::
  main_v8 ::
  main_call1_v1 ::
  main_call1_v0 ::
  main_cst_3 ::
  main_cst_2 ::
  refs8
abbrev rows9 (x : (⟨S4x8192x1024, .f32⟩ : BufTy).Contents (Elt F)) : List (Row sig (Elt F)) :=
  ⟨main_v15, v_main_v15 (F := F)⟩ ::
  ⟨main_v14, v_main_v14 x⟩ ::
  ⟨main_v13, v_main_v13 (F := F)⟩ ::
  ⟨main_v12, v_main_v12 (F := F)⟩ ::
  ⟨main_v11, v_main_v11 (F := F)⟩ ::
  ⟨main_v10, v_main_v10 (F := F)⟩ ::
  ⟨main_v9, v_main_v9 (F := F)⟩ ::
  ⟨main_v8, v_main_v8 (F := F)⟩ ::
  ⟨main_call1_v1, v_main_call1_v1 (F := F)⟩ ::
  ⟨main_call1_v0, v_main_call1_v0 (F := F)⟩ ::
  ⟨main_cst_3, v_main_cst_3 (F := F)⟩ ::
  ⟨main_cst_2, v_main_cst_2 (F := F)⟩ ::
  rows8 x

end Cert.KHost

end
-- ==== Proof.KHost.lean ====
import proofs.«206558_g86277303042394_cont_sun_m_1099_24_alg».proof.Proof.KHostTab

/-! # The entry function as one line of host operations around the SparseCore call

The entry function is: its host operations in order (the calls unfolded at their records), the SparseCore call, the
final reshape, the return. Sequencing is associative, so the printed nesting (each call's body a block of its own)
and the flat list are the same program. Every operation is one of the builders: it determines its result (nothing
is left fresh) and touches TensorCore references only. The argument's buffer is written by no operation, so it holds
afterwards what it held before. -/

noncomputable section

namespace Cert.KHost

open Cert.Kernel Cert.Kernel.Gen Idealize.ShloMosaic Idealize.ShloMosaic.TcCoe Idealize.SL.Sem Idealize.ShloMosaic.StableHlo Cert.HostRows

variable {F : FTy → Type} [FloatOps F]

-- some three hundred binds are re-associated: the rewriting recurses once per statement
set_option maxRecDepth 200000 in
set_option maxHeartbeats 4000000 in
/-- The entry function is that line: the functions unfolded at their calls, the records at their fields, and sequencing
    re-associated, both sides are the same chain of steps. -/
theorem main_eq (d : Dev nD) :
    main (F := F) d = (seq hostOps0 >>= fun _ => sc.run d 0 >>= fun _ => hlo rfl opOut (fun _ => .ret (⟨⟩ : PUnit)) >>= fun _ => pure ⟨⟩) := by
  simp only [main, fn_bernoulli.body, fn_uniform.body, fn_threefry2x32.body, fn_threefry2x32.body_part0,
    fn_threefry2x32.body_part1, fn_threefry2x32.body_part2, fn_threefry2x32.body_part3, fn_where.body,
    hostOps0, ops0, ops1, ops2, ops3, ops4, ops5, ops6, ops7, ops8, ops9, seq_append, seq, bind_assoc, pure_bind]

/-- All the TensorCore's buffers: the argument, every host value, the SparseCore call's result and the final result. -/
def bufs0 : Finset (DevRef τ sig) := tcRefs τ sig

theorem ops0_fresh : ∀ op ∈ ops0 (F := F), op.fresh = ∅ := by ops_fresh
theorem ops0_sub : ∀ op ∈ ops0 (F := F), op.bufs ⊆ tcRefs τ sig := by ops_sub
theorem ops1_fresh : ∀ op ∈ ops1 (F := F), op.fresh = ∅ := by ops_fresh
theorem ops1_sub : ∀ op ∈ ops1 (F := F), op.bufs ⊆ tcRefs τ sig := by ops_sub
theorem ops2_fresh : ∀ op ∈ ops2 (F := F), op.fresh = ∅ := by ops_fresh
theorem ops2_sub : ∀ op ∈ ops2 (F := F), op.bufs ⊆ tcRefs τ sig := by ops_sub
theorem ops3_fresh : ∀ op ∈ ops3 (F := F), op.fresh = ∅ := by ops_fresh
theorem ops3_sub : ∀ op ∈ ops3 (F := F), op.bufs ⊆ tcRefs τ sig := by ops_sub
theorem ops4_fresh : ∀ op ∈ ops4 (F := F), op.fresh = ∅ := by ops_fresh
theorem ops4_sub : ∀ op ∈ ops4 (F := F), op.bufs ⊆ tcRefs τ sig := by ops_sub
theorem ops5_fresh : ∀ op ∈ ops5 (F := F), op.fresh = ∅ := by ops_fresh
theorem ops5_sub : ∀ op ∈ ops5 (F := F), op.bufs ⊆ tcRefs τ sig := by ops_sub
theorem ops6_fresh : ∀ op ∈ ops6 (F := F), op.fresh = ∅ := by ops_fresh
theorem ops6_sub : ∀ op ∈ ops6 (F := F), op.bufs ⊆ tcRefs τ sig := by ops_sub
theorem ops7_fresh : ∀ op ∈ ops7 (F := F), op.fresh = ∅ := by ops_fresh
theorem ops7_sub : ∀ op ∈ ops7 (F := F), op.bufs ⊆ tcRefs τ sig := by ops_sub
theorem ops8_fresh : ∀ op ∈ ops8 (F := F), op.fresh = ∅ := by ops_fresh
theorem ops8_sub : ∀ op ∈ ops8 (F := F), op.bufs ⊆ tcRefs τ sig := by ops_sub
theorem ops9_fresh : ∀ op ∈ ops9 (F := F), op.fresh = ∅ := by ops_fresh
theorem ops9_sub : ∀ op ∈ ops9 (F := F), op.bufs ⊆ tcRefs τ sig := by ops_sub

/-- Every host operation determines its result. -/
theorem hostOps0_fresh : ∀ op ∈ hostOps0 (F := F), op.fresh = ∅ :=
  all_app ops0_fresh (all_app ops1_fresh (all_app ops2_fresh (all_app ops3_fresh (all_app ops4_fresh (all_app ops5_fresh
    (all_app ops6_fresh (all_app ops7_fresh (all_app ops8_fresh ops9_fresh))))))))

/-- Every host operation touches TensorCore buffers only. -/
theorem hostOps0_sub : ∀ op ∈ hostOps0 (F := F), op.bufs ⊆ bufs0 :=
  all_app ops0_sub (all_app ops1_sub (all_app ops2_sub (all_app ops3_sub (all_app ops4_sub (all_app ops5_sub
    (all_app ops6_sub (all_app ops7_sub (all_app ops8_sub ops9_sub))))))))

/-- No TensorCore reference of this program is scoped. -/
theorem tc_unscoped : ∀ r : Ref sig .tc, r.isScoped = false := by decide +kernel

/-- Every buffer of the set is an unscoped TensorCore reference's. -/
theorem bufs0_unscoped : ∀ b ∈ bufs0, ∃ r : Ref sig .tc, r.isScoped = false ∧ Proc.devRef (τ := τ) .tc r = b := by
  intro b hb
  obtain ⟨r, -, rfl⟩ := Finset.mem_map.mp hb
  exact ⟨r, tc_unscoped r, rfl⟩

theorem opOut_sub : (opOut (F := F)).bufs ⊆ bufs0 := reshape_bufs_sub ..
theorem opOut_fresh : (opOut (F := F)).fresh = ∅ := rfl

/-! The argument's buffer through each chunk: no operation writes it. -/

theorem arg0_0 (V : Valuation τ sig (Elt F)) (x) (h : Holds V refsInit (rowsInit x)) :
    Holds (after ops0 V) refsInit (rowsInit x) := by
  simp only [after_cons, after_nil]; holds_skips h
theorem arg0_1 (V : Valuation τ sig (Elt F)) (x) (h : Holds V refsInit (rowsInit x)) :
    Holds (after ops1 V) refsInit (rowsInit x) := by
  simp only [after_cons, after_nil]; holds_skips h
theorem arg0_2 (V : Valuation τ sig (Elt F)) (x) (h : Holds V refsInit (rowsInit x)) :
    Holds (after ops2 V) refsInit (rowsInit x) := by
  simp only [after_cons, after_nil]; holds_skips h
theorem arg0_3 (V : Valuation τ sig (Elt F)) (x) (h : Holds V refsInit (rowsInit x)) :
    Holds (after ops3 V) refsInit (rowsInit x) := by
  simp only [after_cons, after_nil]; holds_skips h
theorem arg0_4 (V : Valuation τ sig (Elt F)) (x) (h : Holds V refsInit (rowsInit x)) :
    Holds (after ops4 V) refsInit (rowsInit x) := by
  simp only [after_cons, after_nil]; holds_skips h
theorem arg0_5 (V : Valuation τ sig (Elt F)) (x) (h : Holds V refsInit (rowsInit x)) :
    Holds (after ops5 V) refsInit (rowsInit x) := by
  simp only [after_cons, after_nil]; holds_skips h
theorem arg0_6 (V : Valuation τ sig (Elt F)) (x) (h : Holds V refsInit (rowsInit x)) :
    Holds (after ops6 V) refsInit (rowsInit x) := by
  simp only [after_cons, after_nil]; holds_skips h
theorem arg0_7 (V : Valuation τ sig (Elt F)) (x) (h : Holds V refsInit (rowsInit x)) :
    Holds (after ops7 V) refsInit (rowsInit x) := by
  simp only [after_cons, after_nil]; holds_skips h
theorem arg0_8 (V : Valuation τ sig (Elt F)) (x) (h : Holds V refsInit (rowsInit x)) :
    Holds (after ops8 V) refsInit (rowsInit x) := by
  simp only [after_cons, after_nil]; holds_skips h
theorem arg0_9 (V : Valuation τ sig (Elt F)) (x) (h : Holds V refsInit (rowsInit x)) :
    Holds (after ops9 V) refsInit (rowsInit x) := by
  simp only [after_cons, after_nil]; holds_skips h

/-- The argument's buffer is unchanged by the host operations. -/
theorem after_arg0 (V : Valuation τ sig (Elt F)) :
    after hostOps0 V (Proc.devRef .tc main_arg0) = V (Proc.devRef .tc main_arg0) := by
  have h0 : Holds V refsInit (rowsInit (V (Proc.devRef .tc main_arg0))) :=
    ⟨rfl, fun r hr => by rcases List.mem_singleton.mp hr with rfl; rfl⟩
  have h := arg0_9 _ _ (arg0_8 _ _ (arg0_7 _ _ (arg0_6 _ _ (arg0_5 _ _ (arg0_4 _ _ (arg0_3 _ _ (arg0_2 _ _ (arg0_1 _ _
    (arg0_0 V _ h0)))))))))
  simp only [hostOps0, after_app]
  exact h.get (List.Mem.head _)

end Cert.KHost

end
-- ==== Proof.KCommon.lean ====
/-
  The launch vocabulary of the dropout kernel: the SparseCore configuration as the launch theorem reads
  it, the handshake facts, and the ghost state — the handshakes' rounds beside a copy of the transfer counters, which is
  all a kernel needs whose only communication is local copies it waits for itself.
-/
import proofs.«206558_g86277303042394_cont_sun_m_1099_24_alg».proof.Defs
import Idealize.ShloMosaic.Lib.SparseCore.Launch
import Idealize.ShloMosaic.Lib.StableHlo.Run
import Idealize.ShloMosaic.Lib.Pipeline.Kit
import Idealize.ShloMosaic.Lib.Tactic
import proofs.«206558_g86277303042394_cont_sun_m_1099_24_alg».proof.Proof.Gen.Kernel

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev 𝕄 : Type := MT nD τ sig (HIx 1) (Elt F) ℕ UU ℕ

/-- The handshakes' rounds, the left factor; the transfers' counters are found by instance in the right. -/
abbrev EH : Emb UH (MT nD τ sig (HIx 1) (Elt F) ℕ UU ℕ) := embL

end Cert.Proof.KB

end
-- ==== Proof.KPay.lean ====
/-
  What the SparseCore call moves: each of the 32 tiles (worker w = 2·s + c on SparseCore c, subcore s) reads rows
  [1024·w, 1024·(w+1)) of x and rows [128·w, 128·(w+1)) of the scale table, and writes the same rows of the result, 32
  chunks of 32 rows each. A tile is handed a read share of x and of the table (whole arrays) and the 32 chunks of its
  rows of the result; it hands back the shares and the chunks at the one whole-array function
  out (r, h) = x (r, h) · scale (r / 8, 16·(r % 8) + h % 16).
-/
import proofs.«206558_g86277303042394_cont_sun_m_1099_24_alg».proof.Proof.KCommon

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

/-- The three arrays of the call as a tile's kernel names them. -/
abbrev xV : Memref sig .scVector .hbm S32768x1024 .f32 := Memref.whole main_v14_scv
abbrev sV : Memref sig .scVector .hbm S4096x128 .f32 := Memref.whole main_v15_scv
abbrev oV : Memref sig .scVector .hbm S32768x1024 .f32 := Memref.whole main_v16_scv

/-- and as locations of device `d` (the TensorCore's names for them). -/
abbrev xLoc (d : Dev nD) : Loc nD τ sig := (SparseCore.T d).loc main_v14
abbrev sLoc (d : Dev nD) : Loc nD τ sig := (SparseCore.T d).loc main_v15
abbrev oLoc (d : Dev nD) : Loc nD τ sig := (SparseCore.T d).loc main_v16

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

def coordsV (c : Fin (grid0.bound 0)) (s : Fin (grid0.bound 1)) : grid0.Coords :=
  fun | 0 => c | 1 => s | ⟨_ + 2, h⟩ => absurd h (Nat.not_lt.2 (Nat.le_add_left _ _))

theorem L0_lt (L : grid0.Coords) : (L 0).val < 2 := (L 0).isLt
theorem L1_lt (L : grid0.Coords) : (L 1).val < 16 := (L 1).isLt

/-- The worker number of the tile at grid coordinates `L`: 2·s + c. -/
def wid (L : grid0.Coords) : Fin 32 := ⟨2 * (L 1).val + (L 0).val, by have := L0_lt L; have := L1_lt L; omega⟩

/-- Chunk `j` of the tile's rows: 32 rows from row 1024·w + 32·j. -/
def offC (L : grid0.Coords) (j : Fin 32) : Fin 2 → Nat := ![2048 * (L 1).val + 1024 * (L 0).val + 32 * j.val, 0]

theorem offC_inb (L : grid0.Coords) (j : Fin 32) : ∀ a, offC L j a + S32x1024.size a ≤ S32768x1024.size a := by
  have := L0_lt L; have := L1_lt L; have := j.isLt
  intro a; fin_cases a <;> simp [offC] <;> omega

abbrev rectC (L : grid0.Coords) (j : Fin 32) : Rect S32768x1024 := Rect.unit (s := S32768x1024) (offC L j) S32x1024.size (offC_inb L j)
abbrev oChunk (L : grid0.Coords) (j : Fin 32) : Memref sig .scVector .hbm S32x1024 .f32 := (oV).slice (rectC L j) (fun _ => rfl)
abbrev xChunk (L : grid0.Coords) (j : Fin 32) : Memref sig .scVector .hbm S32x1024 .f32 := (xV).slice (rectC L j) (fun _ => rfl)

/-- The tile's read share of an array read by all 32 tiles. -/
abbrev qT (L : grid0.Coords) : PosShare TreeShare := shareTok fullShare 32 (wid L)

section Values

variable (d : Dev nD)

/-- The scale entry row `r` of x meets at lane `h % 16`: the table's entry (r / 8, 16·(r % 8) + h % 16). -/
def scIdx (i : S32768x1024.Idx) : S4096x128.Idx :=
  have h0 : (i 0).val < 32768 := (i 0).isLt
  have h1 : (i 1).val < 1024 := (i 1).isLt
  fun | 0 => ⟨(i 0).val / 8, by show _ < 4096; omega⟩ | 1 => ⟨16 * ((i 0).val % 8) + (i 1).val % 16, by show _ < 128; omega⟩

/-- The result as one function of x and the scale table. -/
def OUTV (X : Buf (Elt F) (xLoc d)) (SC : Buf (Elt F) (sLoc d)) : Buf (Elt F) (oLoc d) :=
  fun i => FloatOps.mulf (X i) (SC (scIdx i))

end Values

/-! ## What a tile is handed and hands back -/

section Pay

variable (X : (d : Dev nD) → Buf (Elt F) (xLoc d)) (SC : (d : Dev nD) → Buf (Elt F) (sLoc d)) (O0 : (d : Dev nD) → Buf (Elt F) (oLoc d))

/-- The tile's share of x and of the table, and its 32 chunks of the result at contents `f`. -/
def tileRes (d : Dev nD) (L : grid0.Coords) (f : Buf (Elt F) (oLoc d)) : sProp (𝕄 (F := F)) :=
  iprop((xLoc d ↦{qT L} X d) ∗ (sLoc d ↦{qT L} SC d)
    ∗ bigSep Finset.univ fun j : Fin 32 => (oLoc d ↦[(oChunk L j).view.set]{fullShare} f))

def goL (d : Dev nD) (L : grid0.Coords) : sProp (𝕄 (F := F)) := tileRes X SC d L (O0 d)
def tdL (d : Dev nD) (L : grid0.Coords) : sProp (𝕄 (F := F)) := tileRes X SC d L (OUTV d (X d) (SC d))

/-- What a tile hands back when only the frame is wanted: its shares, and its chunks at some contents. -/
def tdLE (d : Dev nD) (L : grid0.Coords) : sProp (𝕄 (F := F)) := iprop(∃ f, tileRes X SC d L f)

theorem tdL_tdLE (d : Dev nD) (L : grid0.Coords) : tdL X SC d L ⊢ tdLE X SC d L := by
  unfold tdL tdLE; iintro H; iexists _; iexact H

def goN (d : Dev nD) (c s : ℕ) : sProp (𝕄 (F := F)) :=
  if h : c < grid0.bound 0 ∧ s < grid0.bound 1 then goL X SC O0 d (coordsV ⟨c, h.1⟩ ⟨s, h.2⟩) else iprop(emp)
def tdN (d : Dev nD) (c s : ℕ) : sProp (𝕄 (F := F)) :=
  if h : c < grid0.bound 0 ∧ s < grid0.bound 1 then tdL X SC d (coordsV ⟨c, h.1⟩ ⟨s, h.2⟩) else iprop(emp)

def tdNE (d : Dev nD) (c s : ℕ) : sProp (𝕄 (F := F)) :=
  if h : c < grid0.bound 0 ∧ s < grid0.bound 1 then tdLE X SC d (coordsV ⟨c, h.1⟩ ⟨s, h.2⟩) else iprop(emp)
theorem tdNE_eq (d : Dev nD) (c : Fin (grid0.bound 0)) (s : Fin (grid0.bound 1)) :
    tdNE X SC d c.val s.val = tdLE X SC d (coordsV c s) := dif_pos ⟨c.isLt, s.isLt⟩

theorem goN_eq (d : Dev nD) (c : Fin (grid0.bound 0)) (s : Fin (grid0.bound 1)) :
    goN X SC O0 d c.val s.val = goL X SC O0 d (coordsV c s) := dif_pos ⟨c.isLt, s.isLt⟩
theorem tdN_eq (d : Dev nD) (c : Fin (grid0.bound 0)) (s : Fin (grid0.bound 1)) :
    tdN X SC d c.val s.val = tdL X SC d (coordsV c s) := dif_pos ⟨c.isLt, s.isLt⟩

/-- The call's payloads: a SparseCore is handed its sixteen tiles' operands, a tile its own. -/
def P : (K (F := F)).Pay (nD := nD) (Val := Elt F) (Name := ℕ) (U := UU) where
  st := fun q d c => bigSep Finset.univ fun i : Fin ((K (F := F)).nSub q) => goN X SC O0 d c.val i.val
  dn := fun q d c => bigSep Finset.univ fun i : Fin ((K (F := F)).nSub q) => tdN X SC d c.val i.val
  go := fun _ d c i => goN X SC O0 d c.val i.val
  td := fun _ d c i => tdN X SC d c.val i.val
  x := fun _ _ => iprop(emp)

/-- The same call when only the frame is wanted: the tiles' results at some contents. -/
def PE : (K (F := F)).Pay (nD := nD) (Val := Elt F) (Name := ℕ) (U := UU) where
  st := fun q d c => bigSep Finset.univ fun i : Fin ((K (F := F)).nSub q) => goN X SC O0 d c.val i.val
  dn := fun q d c => bigSep Finset.univ fun i : Fin ((K (F := F)).nSub q) => tdNE X SC d c.val i.val
  go := fun _ d c i => goN X SC O0 d c.val i.val
  td := fun _ d c i => tdNE X SC d c.val i.val
  x := fun _ _ => iprop(emp)

end Pay

end Cert.Proof.KB

end
-- ==== Proof.KOpen.lean ====
/-
  A tile's scoped storage, opened: its seven DMA cells (three for the copies in, three for the copies out, one for the
  scale table's copy) each at zero, and its four scratch buffers (three row slots and the scale table) each at some
  contents, beside the rest of what the vector subcore owns.
-/
import proofs.«206558_g86277303042394_cont_sun_m_1099_24_alg».proof.Proof.KPay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev b0 : Memref sig .scVector .vmem S32x1024 .f32 := Memref.whole cc0_scratch0
abbrev b1 : Memref sig .scVector .vmem S32x1024 .f32 := Memref.whole cc0_scratch1
abbrev b2 : Memref sig .scVector .vmem S32x1024 .f32 := Memref.whole cc0_scratch2
abbrev bS : Memref sig .scVector .vmem S128x128 .f32 := Memref.whole cc0_scratch3

variable (d : Dev nD) (L : grid0.Coords)

/-- The tile's cell of a DMA semaphore. -/
abbrev cell (sm : DmaSems sig S_) : GSem nD τ sig := (thr d L, .dma sm.sem)

theorem cell_ne {a b : DmaSems sig S_} (h : (SemLoc.dma a.sem : SemLoc sig) ≠ SemLoc.dma b.sem) : cell d L a ≠ cell d L b :=
  fun e => h (congrArg Prod.snd e)

/-- The other cells the subcore owns. -/
abbrev restCells : Finset (GSem nD τ sig) := (((((((ownCells (thr d L)).erase (cell d L cc0_scratch4)).erase (cell d L cc0_scratch5)).erase (cell d L cc0_scratch6)).erase (cell d L cc0_scratch7)).erase (cell d L cc0_scratch8)).erase (cell d L cc0_scratch9)).erase (cell d L cc0_scoped0)

omit [FloatOps F] in
theorem ownSems0_V :
    (ownSems0 (thr d L) : sProp (𝕄 (F := F)))
      = iprop(semVal (cell d L cc0_scratch4) 0 ∗ semVal (cell d L cc0_scratch5) 0 ∗ semVal (cell d L cc0_scratch6) 0 ∗ semVal (cell d L cc0_scratch7) 0 ∗ semVal (cell d L cc0_scratch8) 0 ∗ semVal (cell d L cc0_scratch9) 0 ∗ semVal (cell d L cc0_scoped0) 0
          ∗ bigSep (restCells d L) fun g => semVal g 0) := by
  unfold SparseCore.Cfg.ownSems0
  rw [SparseCore.bigSep_erase' ((mem_ownCells (g := cell d L cc0_scratch4)).mpr ⟨rfl, by show (SemLoc.dma cc0_scratch4.sem : SemLoc sig).isScoped .scVector = true; decide⟩),
    SparseCore.bigSep_erase' (Finset.mem_erase.mpr ⟨cell_ne d L (show (SemLoc.dma cc0_scratch5.sem : SemLoc sig) ≠ SemLoc.dma cc0_scratch4.sem by decide), (mem_ownCells (g := cell d L cc0_scratch5)).mpr ⟨rfl, by show (SemLoc.dma cc0_scratch5.sem : SemLoc sig).isScoped .scVector = true; decide⟩⟩),
    SparseCore.bigSep_erase' (Finset.mem_erase.mpr ⟨cell_ne d L (show (SemLoc.dma cc0_scratch6.sem : SemLoc sig) ≠ SemLoc.dma cc0_scratch5.sem by decide), Finset.mem_erase.mpr ⟨cell_ne d L (show (SemLoc.dma cc0_scratch6.sem : SemLoc sig) ≠ SemLoc.dma cc0_scratch4.sem by decide), (mem_ownCells (g := cell d L cc0_scratch6)).mpr ⟨rfl, by show (SemLoc.dma cc0_scratch6.sem : SemLoc sig).isScoped .scVector = true; decide⟩⟩⟩),
    SparseCore.bigSep_erase' (Finset.mem_erase.mpr ⟨cell_ne d L (show (SemLoc.dma cc0_scratch7.sem : SemLoc sig) ≠ SemLoc.dma cc0_scratch6.sem by decide), Finset.mem_erase.mpr ⟨cell_ne d L (show (SemLoc.dma cc0_scratch7.sem : SemLoc sig) ≠ SemLoc.dma cc0_scratch5.sem by decide), Finset.mem_erase.mpr ⟨cell_ne d L (show (SemLoc.dma cc0_scratch7.sem : SemLoc sig) ≠ SemLoc.dma cc0_scratch4.sem by decide), (mem_ownCells (g := cell d L cc0_scratch7)).mpr ⟨rfl, by show (SemLoc.dma cc0_scratch7.sem : SemLoc sig).isScoped .scVector = true; decide⟩⟩⟩⟩),
    SparseCore.bigSep_erase' (Finset.mem_erase.mpr ⟨cell_ne d L (show (SemLoc.dma cc0_scratch8.sem : SemLoc sig) ≠ SemLoc.dma cc0_scratch7.sem by decide), Finset.mem_erase.mpr ⟨cell_ne d L (show (SemLoc.dma cc0_scratch8.sem : SemLoc sig) ≠ SemLoc.dma cc0_scratch6.sem by decide), Finset.mem_erase.mpr ⟨cell_ne d L (show (SemLoc.dma cc0_scratch8.sem : SemLoc sig) ≠ SemLoc.dma cc0_scratch5.sem by decide), Finset.mem_erase.mpr ⟨cell_ne d L (show (SemLoc.dma cc0_scratch8.sem : SemLoc sig) ≠ SemLoc.dma cc0_scratch4.sem by decide), (mem_ownCells (g := cell d L cc0_scratch8)).mpr ⟨rfl, by show (SemLoc.dma cc0_scratch8.sem : SemLoc sig).isScoped .scVector = true; decide⟩⟩⟩⟩⟩),
    SparseCore.bigSep_erase' (Finset.mem_erase.mpr ⟨cell_ne d L (show (SemLoc.dma cc0_scratch9.sem : SemLoc sig) ≠ SemLoc.dma cc0_scratch8.sem by decide), Finset.mem_erase.mpr ⟨cell_ne d L (show (SemLoc.dma cc0_scratch9.sem : SemLoc sig) ≠ SemLoc.dma cc0_scratch7.sem by decide), Finset.mem_erase.mpr ⟨cell_ne d L (show (SemLoc.dma cc0_scratch9.sem : SemLoc sig) ≠ SemLoc.dma cc0_scratch6.sem by decide), Finset.mem_erase.mpr ⟨cell_ne d L (show (SemLoc.dma cc0_scratch9.sem : SemLoc sig) ≠ SemLoc.dma cc0_scratch5.sem by decide), Finset.mem_erase.mpr ⟨cell_ne d L (show (SemLoc.dma cc0_scratch9.sem : SemLoc sig) ≠ SemLoc.dma cc0_scratch4.sem by decide), (mem_ownCells (g := cell d L cc0_scratch9)).mpr ⟨rfl, by show (SemLoc.dma cc0_scratch9.sem : SemLoc sig).isScoped .scVector = true; decide⟩⟩⟩⟩⟩⟩),
    SparseCore.bigSep_erase' (Finset.mem_erase.mpr ⟨cell_ne d L (show (SemLoc.dma cc0_scoped0.sem : SemLoc sig) ≠ SemLoc.dma cc0_scratch9.sem by decide), Finset.mem_erase.mpr ⟨cell_ne d L (show (SemLoc.dma cc0_scoped0.sem : SemLoc sig) ≠ SemLoc.dma cc0_scratch8.sem by decide), Finset.mem_erase.mpr ⟨cell_ne d L (show (SemLoc.dma cc0_scoped0.sem : SemLoc sig) ≠ SemLoc.dma cc0_scratch7.sem by decide), Finset.mem_erase.mpr ⟨cell_ne d L (show (SemLoc.dma cc0_scoped0.sem : SemLoc sig) ≠ SemLoc.dma cc0_scratch6.sem by decide), Finset.mem_erase.mpr ⟨cell_ne d L (show (SemLoc.dma cc0_scoped0.sem : SemLoc sig) ≠ SemLoc.dma cc0_scratch5.sem by decide), Finset.mem_erase.mpr ⟨cell_ne d L (show (SemLoc.dma cc0_scoped0.sem : SemLoc sig) ≠ SemLoc.dma cc0_scratch4.sem by decide), (mem_ownCells (g := cell d L cc0_scoped0)).mpr ⟨rfl, by show (SemLoc.dma cc0_scoped0.sem : SemLoc sig).isScoped .scVector = true; decide⟩⟩⟩⟩⟩⟩⟩)]

/-- The other buffers the subcore owns. -/
abbrev restRefs : Finset (DevRef τ sig) := ((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)

omit [FloatOps F] in
theorem ownBufs_V :
    (ownBufs (thr d L) : sProp (𝕄 (F := F)))
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩)]

end Cert.Proof.KB

end
-- ==== Proof.KInner.lean ====
import proofs.«206558_g86277303042394_cont_sun_m_1099_24_alg».proof.Proof.KOpen
import proofs.«206558_g86277303042394_cont_sun_m_1099_24_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

variable (d : Dev nD) (L : grid0.Coords)

/-! ## The scaling loops

Each of the five scaling loops runs sixteen trips over one slot; a trip multiplies rows 2k and 2k+1 of the slot, lane group
by lane group, by the sixteen-lane scale vector of the row. The pieces a trip stores are found by running it once at a
symbolic trip; the loop's result is the iteration of those stores over what the slot held when the loop began. -/

/-- One trip of scaling loop 2: what it stores over the slot's contents `G`, given the scale table `fS`. -/
@[irreducible] def trip2 (v2 a0 a1 : BitVec 32) (g : Fin k0_t1_loop.trips) (v41 : BitVec 32) (k : Fin k0_t2_loop.trips) :
    Σ' (Lp : Buf (Elt F) ((b0).view.loc (thr d L)) → Buf (Elt F) ((bS).view.loc (thr d L)) → List (View.Piece (Elt F) S32x1024 .f32)),
      ∀ (G : Buf (Elt F) ((b0).view.loc (thr d L))) (fS : Buf (Elt F) ((bS).view.loc (thr d L))),
        (iprop(((b0).view.loc (thr d L) ↦{fullShare} G) ∗ ((bS).view.loc (thr d L) ↦{fullShare} fS)) : sProp (𝕄 (F := F)))
        ⊢ wp frame (wpE (defs₀ (F := F)) 𝒱₀ (thr d L) none) Set.univ
            (k0_t2_body L xV (Memref.isWhole_whole _) sV (Memref.isWhole_whole _) oV (Memref.isWhole_whole _)
              b0 (Memref.isWhole_whole _) b1 (Memref.isWhole_whole _) b2 (Memref.isWhole_whole _) bS (Memref.isWhole_whole _)
              cc0_scratch4 cc0_scratch5 cc0_scratch6 cc0_scratch7 cc0_scratch8 cc0_scratch9 cc0_scoped0 v2 a0 a1 g v41 k ⟨⟩)
            (fun _ => iprop(((b0).view.loc (thr d L) ↦{fullShare} (b0).view.writes (Elt F) G (Lp G fS))
              ∗ ((bS).view.loc (thr d L) ↦{fullShare} fS))) := by
  refine ⟨?_, fun G fS => ?run⟩
  case run =>
    delta k0_t2_body
    iintro ⟨H0, HS⟩
    sl_exec_parts
    sl_step
    sl_close

/-- The slot after the first `k` trips of scaling loop 2. -/
def iter2 (v2 a0 a1 : BitVec 32) (g : Fin k0_t1_loop.trips) (v41 : BitVec 32) (fS : Buf (Elt F) ((bS).view.loc (thr d L))) : ℕ → Buf (Elt F) ((b0).view.loc (thr d L)) → Buf (Elt F) ((b0).view.loc (thr d L))
  | 0, G => G
  | k + 1, G => if h : k < k0_t2_loop.trips then
      (b0).view.writes (Elt F) (iter2 v2 a0 a1 g v41 fS k G) ((trip2 d L v2 a0 a1 g v41 ⟨k, h⟩).1 (iter2 v2 a0 a1 g v41 fS k G) fS)
    else iter2 v2 a0 a1 g v41 fS k G

theorem iter2_succ (v2 a0 a1 : BitVec 32) (g : Fin k0_t1_loop.trips) (v41 : BitVec 32) (fS : Buf (Elt F) ((bS).view.loc (thr d L))) (k : Fin k0_t2_loop.trips) (G : Buf (Elt F) ((b0).view.loc (thr d L))) :
    iter2 d L v2 a0 a1 g v41 fS (k.val + 1) G
      = (b0).view.writes (Elt F) (iter2 d L v2 a0 a1 g v41 fS k.val G) ((trip2 d L v2 a0 a1 g v41 k).1 (iter2 d L v2 a0 a1 g v41 fS k.val G) fS) := by
  rw [iter2]; exact dif_pos k.isLt

/-- One trip of scaling loop 3: what it stores over the slot's contents `G`, given the scale table `fS`. -/
@[irreducible] def trip3 (v2 : BitVec 32) (g : Fin k0_t1_loop.trips) (a15 v61 a0 a1 : BitVec 32) (k : Fin k0_t3_loop.trips) :
    Σ' (Lp : Buf (Elt F) ((b1).view.loc (thr d L)) → Buf (Elt F) ((bS).view.loc (thr d L)) → List (View.Piece (Elt F) S32x1024 .f32)),
      ∀ (G : Buf (Elt F) ((b1).view.loc (thr d L))) (fS : Buf (Elt F) ((bS).view.loc (thr d L))),
        (iprop(((b1).view.loc (thr d L) ↦{fullShare} G) ∗ ((bS).view.loc (thr d L) ↦{fullShare} fS)) : sProp (𝕄 (F := F)))
        ⊢ wp frame (wpE (defs₀ (F := F)) 𝒱₀ (thr d L) none) Set.univ
            (k0_t3_body L xV (Memref.isWhole_whole _) sV (Memref.isWhole_whole _) oV (Memref.isWhole_whole _)
              b0 (Memref.isWhole_whole _) b1 (Memref.isWhole_whole _) b2 (Memref.isWhole_whole _) bS (Memref.isWhole_whole _)
              cc0_scratch4 cc0_scratch5 cc0_scratch6 cc0_scratch7 cc0_scratch8 cc0_scratch9 cc0_scoped0 v2 g a15 v61 a0 a1 k ⟨⟩)
            (fun _ => iprop(((b1).view.loc (thr d L) ↦{fullShare} (b1).view.writes (Elt F) G (Lp G fS))
              ∗ ((bS).view.loc (thr d L) ↦{fullShare} fS))) := by
  refine ⟨?_, fun G fS => ?run⟩
  case run =>
    delta k0_t3_body
    iintro ⟨H0, HS⟩
    sl_exec_parts
    sl_step
    sl_close

/-- The slot after the first `k` trips of scaling loop 3. -/
def iter3 (v2 : BitVec 32) (g : Fin k0_t1_loop.trips) (a15 v61 a0 a1 : BitVec 32) (fS : Buf (Elt F) ((bS).view.loc (thr d L))) : ℕ → Buf (Elt F) ((b1).view.loc (thr d L)) → Buf (Elt F) ((b1).view.loc (thr d L))
  | 0, G => G
  | k + 1, G => if h : k < k0_t3_loop.trips then
      (b1).view.writes (Elt F) (iter3 v2 g a15 v61 a0 a1 fS k G) ((trip3 d L v2 g a15 v61 a0 a1 ⟨k, h⟩).1 (iter3 v2 g a15 v61 a0 a1 fS k G) fS)
    else iter3 v2 g a15 v61 a0 a1 fS k G

theorem iter3_succ (v2 : BitVec 32) (g : Fin k0_t1_loop.trips) (a15 v61 a0 a1 : BitVec 32) (fS : Buf (Elt F) ((bS).view.loc (thr d L))) (k : Fin k0_t3_loop.trips) (G : Buf (Elt F) ((b1).view.loc (thr d L))) :
    iter3 d L v2 g a15 v61 a0 a1 fS (k.val + 1) G
      = (b1).view.writes (Elt F) (iter3 d L v2 g a15 v61 a0 a1 fS k.val G) ((trip3 d L v2 g a15 v61 a0 a1 k).1 (iter3 d L v2 g a15 v61 a0 a1 fS k.val G) fS) := by
  rw [iter3]; exact dif_pos k.isLt

/-- One trip of scaling loop 4: what it stores over the slot's contents `G`, given the scale table `fS`. -/
@[irreducible] def trip4 (v2 : BitVec 32) (g : Fin k0_t1_loop.trips) (a15 v61 a0 a1 v81 : BitVec 32) (k : Fin k0_t4_loop.trips) :
    Σ' (Lp : Buf (Elt F) ((b2).view.loc (thr d L)) → Buf (Elt F) ((bS).view.loc (thr d L)) → List (View.Piece (Elt F) S32x1024 .f32)),
      ∀ (G : Buf (Elt F) ((b2).view.loc (thr d L))) (fS : Buf (Elt F) ((bS).view.loc (thr d L))),
        (iprop(((b2).view.loc (thr d L) ↦{fullShare} G) ∗ ((bS).view.loc (thr d L) ↦{fullShare} fS)) : sProp (𝕄 (F := F)))
        ⊢ wp frame (wpE (defs₀ (F := F)) 𝒱₀ (thr d L) none) Set.univ
            (k0_t4_body L xV (Memref.isWhole_whole _) sV (Memref.isWhole_whole _) oV (Memref.isWhole_whole _)
              b0 (Memref.isWhole_whole _) b1 (Memref.isWhole_whole _) b2 (Memref.isWhole_whole _) bS (Memref.isWhole_whole _)
              cc0_scratch4 cc0_scratch5 cc0_scratch6 cc0_scratch7 cc0_scratch8 cc0_scratch9 cc0_scoped0 v2 g a15 v61 a0 a1 v81 k ⟨⟩)
            (fun _ => iprop(((b2).view.loc (thr d L) ↦{fullShare} (b2).view.writes (Elt F) G (Lp G fS))
              ∗ ((bS).view.loc (thr d L) ↦{fullShare} fS))) := by
  refine ⟨?_, fun G fS => ?run⟩
  case run =>
    delta k0_t4_body
    iintro ⟨H0, HS⟩
    sl_exec_parts
    sl_step
    sl_close

/-- The slot after the first `k` trips of scaling loop 4. -/
def iter4 (v2 : BitVec 32) (g : Fin k0_t1_loop.trips) (a15 v61 a0 a1 v81 : BitVec 32) (fS : Buf (Elt F) ((bS).view.loc (thr d L))) : ℕ → Buf (Elt F) ((b2).view.loc (thr d L)) → Buf (Elt F) ((b2).view.loc (thr d L))
  | 0, G => G
  | k + 1, G => if h : k < k0_t4_loop.trips then
      (b2).view.writes (Elt F) (iter4 v2 g a15 v61 a0 a1 v81 fS k G) ((trip4 d L v2 g a15 v61 a0 a1 v81 ⟨k, h⟩).1 (iter4 v2 g a15 v61 a0 a1 v81 fS k G) fS)
    else iter4 v2 g a15 v61 a0 a1 v81 fS k G

theorem iter4_succ (v2 : BitVec 32) (g : Fin k0_t1_loop.trips) (a15 v61 a0 a1 v81 : BitVec 32) (fS : Buf (Elt F) ((bS).view.loc (thr d L))) (k : Fin k0_t4_loop.trips) (G : Buf (Elt F) ((b2).view.loc (thr d L))) :
    iter4 d L v2 g a15 v61 a0 a1 v81 fS (k.val + 1) G
      = (b2).view.writes (Elt F) (iter4 d L v2 g a15 v61 a0 a1 v81 fS k.val G) ((trip4 d L v2 g a15 v61 a0 a1 v81 k).1 (iter4 d L v2 g a15 v61 a0 a1 v81 fS k.val G) fS) := by
  rw [iter4]; exact dif_pos k.isLt

/-- One trip of scaling loop 5: what it stores over the slot's contents `G`, given the scale table `fS`. -/
@[irreducible] def trip5  (k : Fin k0_t5_loop.trips) :
    Σ' (Lp : Buf (Elt F) ((b0).view.loc (thr d L)) → Buf (Elt F) ((bS).view.loc (thr d L)) → List (View.Piece (Elt F) S32x1024 .f32)),
      ∀ (G : Buf (Elt F) ((b0).view.loc (thr d L))) (fS : Buf (Elt F) ((bS).view.loc (thr d L))),
        (iprop(((b0).view.loc (thr d L) ↦{fullShare} G) ∗ ((bS).view.loc (thr d L) ↦{fullShare} fS)) : sProp (𝕄 (F := F)))
        ⊢ wp frame (wpE (defs₀ (F := F)) 𝒱₀ (thr d L) none) Set.univ
            (k0_t5_body L xV (Memref.isWhole_whole _) sV (Memref.isWhole_whole _) oV (Memref.isWhole_whole _)
              b0 (Memref.isWhole_whole _) b1 (Memref.isWhole_whole _) b2 (Memref.isWhole_whole _) bS (Memref.isWhole_whole _)
              cc0_scratch4 cc0_scratch5 cc0_scratch6 cc0_scratch7 cc0_scratch8 cc0_scratch9 cc0_scoped0  k ⟨⟩)
            (fun _ => iprop(((b0).view.loc (thr d L) ↦{fullShare} (b0).view.writes (Elt F) G (Lp G fS))
              ∗ ((bS).view.loc (thr d L) ↦{fullShare} fS))) := by
  refine ⟨?_, fun G fS => ?run⟩
  case run =>
    delta k0_t5_body
    iintro ⟨H0, HS⟩
    sl_exec_parts
    sl_step
    sl_close

/-- The slot after the first `k` trips of scaling loop 5. -/
def iter5  (fS : Buf (Elt F) ((bS).view.loc (thr d L))) : ℕ → Buf (Elt F) ((b0).view.loc (thr d L)) → Buf (Elt F) ((b0).view.loc (thr d L))
  | 0, G => G
  | k + 1, G => if h : k < k0_t5_loop.trips then
      (b0).view.writes (Elt F) (iter5  fS k G) ((trip5 d L  ⟨k, h⟩).1 (iter5  fS k G) fS)
    else iter5  fS k G

theorem iter5_succ  (fS : Buf (Elt F) ((bS).view.loc (thr d L))) (k : Fin k0_t5_loop.trips) (G : Buf (Elt F) ((b0).view.loc (thr d L))) :
    iter5 d L  fS (k.val + 1) G
      = (b0).view.writes (Elt F) (iter5 d L  fS k.val G) ((trip5 d L  k).1 (iter5 d L  fS k.val G) fS) := by
  rw [iter5]; exact dif_pos k.isLt

/-- One trip of scaling loop 6: what it stores over the slot's contents `G`, given the scale table `fS`. -/
@[irreducible] def trip6  (k : Fin k0_t6_loop.trips) :
    Σ' (Lp : Buf (Elt F) ((b1).view.loc (thr d L)) → Buf (Elt F) ((bS).view.loc (thr d L)) → List (View.Piece (Elt F) S32x1024 .f32)),
      ∀ (G : Buf (Elt F) ((b1).view.loc (thr d L))) (fS : Buf (Elt F) ((bS).view.loc (thr d L))),
        (iprop(((b1).view.loc (thr d L) ↦{fullShare} G) ∗ ((bS).view.loc (thr d L) ↦{fullShare} fS)) : sProp (𝕄 (F := F)))
        ⊢ wp frame (wpE (defs₀ (F := F)) 𝒱₀ (thr d L) none) Set.univ
            (k0_t6_body L xV (Memref.isWhole_whole _) sV (Memref.isWhole_whole _) oV (Memref.isWhole_whole _)
              b0 (Memref.isWhole_whole _) b1 (Memref.isWhole_whole _) b2 (Memref.isWhole_whole _) bS (Memref.isWhole_whole _)
              cc0_scratch4 cc0_scratch5 cc0_scratch6 cc0_scratch7 cc0_scratch8 cc0_scratch9 cc0_scoped0  k ⟨⟩)
            (fun _ => iprop(((b1).view.loc (thr d L) ↦{fullShare} (b1).view.writes (Elt F) G (Lp G fS))
              ∗ ((bS).view.loc (thr d L) ↦{fullShare} fS))) := by
  refine ⟨?_, fun G fS => ?run⟩
  case run =>
    delta k0_t6_body
    iintro ⟨H0, HS⟩
    sl_exec_parts
    sl_step
    sl_close

/-- The slot after the first `k` trips of scaling loop 6. -/
def iter6  (fS : Buf (Elt F) ((bS).view.loc (thr d L))) : ℕ → Buf (Elt F) ((b1).view.loc (thr d L)) → Buf (Elt F) ((b1).view.loc (thr d L))
  | 0, G => G
  | k + 1, G => if h : k < k0_t6_loop.trips then
      (b1).view.writes (Elt F) (iter6  fS k G) ((trip6 d L  ⟨k, h⟩).1 (iter6  fS k G) fS)
    else iter6  fS k G

theorem iter6_succ  (fS : Buf (Elt F) ((bS).view.loc (thr d L))) (k : Fin k0_t6_loop.trips) (G : Buf (Elt F) ((b1).view.loc (thr d L))) :
    iter6 d L  fS (k.val + 1) G
      = (b1).view.writes (Elt F) (iter6 d L  fS k.val G) ((trip6 d L  k).1 (iter6 d L  fS k.val G) fS) := by
  rw [iter6]; exact dif_pos k.isLt

end Cert.Proof.KB

end
-- ==== Proof.KBodyDefs.lean ====
import proofs.«206558_g86277303042394_cont_sun_m_1099_24_alg».proof.Proof.KInner
import proofs.«206558_g86277303042394_cont_sun_m_1099_24_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

variable (d : Dev nD) (L : grid0.Coords)

/-! ## The tile's resources, as the run holds them

A chunk of the result is held through its own slice memref. A copy in flight into a slot holds the slot and the lent
part of one read share of x; a copy in flight out of a slot holds the chunk and the slot. For the frame the contents
are left existential. -/

/-- A 32-row slice of the result at row offsets `off`, spelt as the kernel slices it. -/
abbrev oSlice (off : Fin 2 → Nat) (h : ∀ a, off a + S32x1024.size a ≤ S32768x1024.size a) : Memref sig .scVector .hbm S32x1024 .f32 :=
  (oV).slice (Rect.unit (s := S32768x1024) off S32x1024.size h) (fun _ => rfl)

/-- Chunk `j` of the tile's rows of the result, at some contents. -/
def Φc (j : Fin 32) : sProp (𝕄 (F := F)) :=
  iprop(∃ f, (oChunk L j).view.loc (thr d L) ↦[(oChunk L j).view.set]{fullShare} f)

/-- A chunk held through the kernel's own spelling of its slice is that chunk. -/
theorem chunk_fold {off : Fin 2 → Nat} (h : ∀ a, off a + S32x1024.size a ≤ S32768x1024.size a) (j : Fin 32) (e : off = offC L j)
    (f : Buf (Elt F) ((oSlice off h).view.loc (thr d L))) :
    ((oSlice off h).view.loc (thr d L) ↦[(oSlice off h).view.set]{fullShare} f : sProp (𝕄 (F := F))) ⊢ Φc d L j := by
  subst e
  unfold Φc
  iintro H; iexists f; iexact H

theorem chunk_unfold {off : Fin 2 → Nat} (h : ∀ a, off a + S32x1024.size a ≤ S32768x1024.size a) (j : Fin 32) (e : off = offC L j) :
    Φc (F := F) d L j ⊢ iprop(∃ f, (oSlice off h).view.loc (thr d L) ↦[(oSlice off h).view.set]{fullShare} f) := by
  subst e
  unfold Φc
  iintro H; iexact H

/-- A copy into slot `b` in flight on cell `sm`, out of the read share `t` of x. -/
def InFlight (sm : DmaSems sig S_) (b : Memref sig .scVector .vmem S32x1024 .f32) (t : PosShare TreeShare)
    (X : Buf (Elt F) ((xV).view.loc (thr d L))) : sProp (𝕄 (F := F)) :=
  iprop(∃ (I : Finset (Idx ((xV).view.loc (thr d L)))) (f : Buf (Elt F) (b.view.loc (thr d L))),
    Transfers.Flight countersEmb (thr d L) (SemLoc.dma sm.sem) default 1048576
        iprop((b.view.loc (thr d L) ↦{fullShare} f) ∗ ((xV).view.loc (thr d L) ↦[I]{t} X))
      ∗ ((xV).view.loc (thr d L) ↦[Finset.univ \ I]{t} X))

/-- A copy out of slot `b` into chunk `j` in flight on cell `sm`. -/
def OutFlight (sm : DmaSems sig S_) (b : Memref sig .scVector .vmem S32x1024 .f32) (j : Fin 32) : sProp (𝕄 (F := F)) :=
  iprop(∃ (fo : Buf (Elt F) ((oChunk L j).view.loc (thr d L))) (f : Buf (Elt F) (b.view.loc (thr d L))),
    Transfers.Flight countersEmb (thr d L) (SemLoc.dma sm.sem) default 1048576
        iprop(((oChunk L j).view.loc (thr d L) ↦[(oChunk L j).view.set]{fullShare} fo) ∗ (b.view.loc (thr d L) ↦[b.view.set]{fullShare} f))
      ∗ (b.view.loc (thr d L) ↦[Finset.univ \ b.view.set]{fullShare} f))

theorem outFlight_fold (sm : DmaSems sig S_) (b : Memref sig .scVector .vmem S32x1024 .f32)
    {off : Fin 2 → Nat} (h : ∀ a, off a + S32x1024.size a ≤ S32768x1024.size a) (j : Fin 32) (e : off = offC L j)
    (fo : Buf (Elt F) ((oSlice off h).view.loc (thr d L))) (f : Buf (Elt F) (b.view.loc (thr d L))) :
    (iprop(Transfers.Flight countersEmb (thr d L) (SemLoc.dma sm.sem) default 1048576
        iprop(((oSlice off h).view.loc (thr d L) ↦[(oSlice off h).view.set]{fullShare} fo) ∗ (b.view.loc (thr d L) ↦[b.view.set]{fullShare} f))
      ∗ (b.view.loc (thr d L) ↦[Finset.univ \ b.view.set]{fullShare} f)) : sProp (𝕄 (F := F))) ⊢ OutFlight d L sm b j := by
  subst e
  unfold OutFlight
  iintro ⟨Hf, Hr⟩
  iexists fo, f
  isplitl [Hf]
  · iexact Hf
  · iexact Hr

/-! ## Chunk numbers -/

theorem trips1 : k0_t1_loop.trips ≤ 10 := k0_t1_abs.2.1

/-- Chunk `3g + r` of group `g`. -/
def ch (g : Fin k0_t1_loop.trips) (r : Fin 3) : Fin 32 :=
  ⟨3 * g.val + r.val, by have := g.isLt; have := trips1; have := r.isLt; omega⟩

/-- The chunk whose copy out is in flight when group `g ≥ 1` begins: `3g − 1`. -/
def fl (g : ℕ) : Fin 32 := ⟨(3 * g + 31) % 32, Nat.mod_lt _ (by decide)⟩

theorem fl_succ (g : Fin k0_t1_loop.trips) : fl (g.val + 1) = ch g 2 := by
  have := g.isLt; have := trips1
  apply Fin.ext; show (3 * (g.val + 1) + 31) % 32 = 3 * g.val + 2; omega

theorem ch_ne (g : Fin k0_t1_loop.trips) {r r' : Fin 3} (h : r ≠ r') : ch g r ≠ ch g r' := by
  intro e; apply h; apply Fin.ext
  have := congrArg Fin.val e; simp only [ch] at this; omega

theorem fl_ne_ch (g : Fin k0_t1_loop.trips) (r : Fin 3) : fl g.val ≠ ch g r := by
  have := g.isLt; have := trips1; have := r.isLt
  intro e; have := congrArg Fin.val e; simp only [ch, fl] at this; omega

/-- The kernel's offsets of a group's chunks are the chunks'. -/
theorem off3_eq (g : Fin k0_t1_loop.trips) (r : Fin 3) : k0_off3 L g (BitVec.ofNat 32 r.val) = offC L (ch g r) := by
  rw [k0_off3_eq]; unfold offC ch
  funext a; fin_cases a <;> simp <;> ring

/-- The chunks held while group `g` begins: all of them at the first group, all but the one in flight later. -/
def heldSet (g : ℕ) : Finset (Fin 32) := if g = 0 then Finset.univ else Finset.univ.erase (fl g)

theorem swap_chunk (a j : Fin 32) (h : a ≠ j) :
    (iprop(Φc d L a ∗ bigSep ((Finset.univ.erase a).erase j) (Φc d L)) : sProp (𝕄 (F := F))) = bigSep (Finset.univ.erase j) (Φc d L) := by
  rw [Finset.erase_right_comm, ← SparseCore.bigSep_erase' (Finset.mem_erase.mpr ⟨h, Finset.mem_univ a⟩)]

/-! ## The scaling loops' frame invariants: the slot at some contents, the table as it is -/

def invB (b : Memref sig .scVector .vmem S32x1024 .f32) (fS : Buf (Elt F) ((bS).view.loc (thr d L))) (_ : Nat) (_ : PUnit) : sProp (𝕄 (F := F)) :=
  iprop((∃ G, b.view.loc (thr d L) ↦{fullShare} G) ∗ ((bS).view.loc (thr d L) ↦{fullShare} fS))

theorem loopStep2 (fS : Buf (Elt F) ((bS).view.loc (thr d L))) (v2 a0 a1 : BitVec 32) (g : Fin k0_t1_loop.trips) (v41 : BitVec 32) (k : Fin k0_t2_loop.trips) (acc : PUnit) :
    invB (F := F) d L b0 fS k.val acc
      ⊢ wp frame (wpE (defs₀ (F := F)) 𝒱₀ (thr d L) none) Set.univ
          (k0_t2_body L xV (Memref.isWhole_whole _) sV (Memref.isWhole_whole _) oV (Memref.isWhole_whole _)
              b0 (Memref.isWhole_whole _) b1 (Memref.isWhole_whole _) b2 (Memref.isWhole_whole _) bS (Memref.isWhole_whole _)
              cc0_scratch4 cc0_scratch5 cc0_scratch6 cc0_scratch7 cc0_scratch8 cc0_scratch9 cc0_scoped0 v2 a0 a1 g v41 k acc)
          (invB d L b0 fS (k.val + 1)) := by
  unfold invB
  iintro ⟨⟨%G, H0⟩, HS⟩
  iapply (((trip2 d L v2 a0 a1 g v41 k).2 G fS).trans (wp_mono frame _ _ fun _ => (by
    iintro ⟨H0, HS⟩
    isplitl [H0]
    · iexists _; iexact H0
    · iexact HS)))
  isplitl [H0]
  · iexact H0
  · iexact HS

theorem loopStep3 (fS : Buf (Elt F) ((bS).view.loc (thr d L))) (v2 : BitVec 32) (g : Fin k0_t1_loop.trips) (a15 v61 a0 a1 : BitVec 32) (k : Fin k0_t3_loop.trips) (acc : PUnit) :
    invB (F := F) d L b1 fS k.val acc
      ⊢ wp frame (wpE (defs₀ (F := F)) 𝒱₀ (thr d L) none) Set.univ
          (k0_t3_body L xV (Memref.isWhole_whole _) sV (Memref.isWhole_whole _) oV (Memref.isWhole_whole _)
              b0 (Memref.isWhole_whole _) b1 (Memref.isWhole_whole _) b2 (Memref.isWhole_whole _) bS (Memref.isWhole_whole _)
              cc0_scratch4 cc0_scratch5 cc0_scratch6 cc0_scratch7 cc0_scratch8 cc0_scratch9 cc0_scoped0 v2 g a15 v61 a0 a1 k acc)
          (invB d L b1 fS (k.val + 1)) := by
  unfold invB
  iintro ⟨⟨%G, H0⟩, HS⟩
  iapply (((trip3 d L v2 g a15 v61 a0 a1 k).2 G fS).trans (wp_mono frame _ _ fun _ => (by
    iintro ⟨H0, HS⟩
    isplitl [H0]
    · iexists _; iexact H0
    · iexact HS)))
  isplitl [H0]
  · iexact H0
  · iexact HS

theorem loopStep4 (fS : Buf (Elt F) ((bS).view.loc (thr d L))) (v2 : BitVec 32) (g : Fin k0_t1_loop.trips) (a15 v61 a0 a1 v81 : BitVec 32) (k : Fin k0_t4_loop.trips) (acc : PUnit) :
    invB (F := F) d L b2 fS k.val acc
      ⊢ wp frame (wpE (defs₀ (F := F)) 𝒱₀ (thr d L) none) Set.univ
          (k0_t4_body L xV (Memref.isWhole_whole _) sV (Memref.isWhole_whole _) oV (Memref.isWhole_whole _)
              b0 (Memref.isWhole_whole _) b1 (Memref.isWhole_whole _) b2 (Memref.isWhole_whole _) bS (Memref.isWhole_whole _)
              cc0_scratch4 cc0_scratch5 cc0_scratch6 cc0_scratch7 cc0_scratch8 cc0_scratch9 cc0_scoped0 v2 g a15 v61 a0 a1 v81 k acc)
          (invB d L b2 fS (k.val + 1)) := by
  unfold invB
  iintro ⟨⟨%G, H0⟩, HS⟩
  iapply (((trip4 d L v2 g a15 v61 a0 a1 v81 k).2 G fS).trans (wp_mono frame _ _ fun _ => (by
    iintro ⟨H0, HS⟩
    isplitl [H0]
    · iexists _; iexact H0
    · iexact HS)))
  isplitl [H0]
  · iexact H0
  · iexact HS

theorem loopStep5 (fS : Buf (Elt F) ((bS).view.loc (thr d L)))  (k : Fin k0_t5_loop.trips) (acc : PUnit) :
    invB (F := F) d L b0 fS k.val acc
      ⊢ wp frame (wpE (defs₀ (F := F)) 𝒱₀ (thr d L) none) Set.univ
          (k0_t5_body L xV (Memref.isWhole_whole _) sV (Memref.isWhole_whole _) oV (Memref.isWhole_whole _)
              b0 (Memref.isWhole_whole _) b1 (Memref.isWhole_whole _) b2 (Memref.isWhole_whole _) bS (Memref.isWhole_whole _)
              cc0_scratch4 cc0_scratch5 cc0_scratch6 cc0_scratch7 cc0_scratch8 cc0_scratch9 cc0_scoped0  k acc)
          (invB d L b0 fS (k.val + 1)) := by
  unfold invB
  iintro ⟨⟨%G, H0⟩, HS⟩
  iapply (((trip5 d L  k).2 G fS).trans (wp_mono frame _ _ fun _ => (by
    iintro ⟨H0, HS⟩
    isplitl [H0]
    · iexists _; iexact H0
    · iexact HS)))
  isplitl [H0]
  · iexact H0
  · iexact HS

theorem loopStep6 (fS : Buf (Elt F) ((bS).view.loc (thr d L)))  (k : Fin k0_t6_loop.trips) (acc : PUnit) :
    invB (F := F) d L b1 fS k.val acc
      ⊢ wp frame (wpE (defs₀ (F := F)) 𝒱₀ (thr d L) none) Set.univ
          (k0_t6_body L xV (Memref.isWhole_whole _) sV (Memref.isWhole_whole _) oV (Memref.isWhole_whole _)
              b0 (Memref.isWhole_whole _) b1 (Memref.isWhole_whole _) b2 (Memref.isWhole_whole _) bS (Memref.isWhole_whole _)
              cc0_scratch4 cc0_scratch5 cc0_scratch6 cc0_scratch7 cc0_scratch8 cc0_scratch9 cc0_scoped0  k acc)
          (invB d L b1 fS (k.val + 1)) := by
  unfold invB
  iintro ⟨⟨%G, H0⟩, HS⟩
  iapply (((trip6 d L  k).2 G fS).trans (wp_mono frame _ _ fun _ => (by
    iintro ⟨H0, HS⟩
    isplitl [H0]
    · iexists _; iexact H0
    · iexact HS)))
  isplitl [H0]
  · iexact H0
  · iexact HS

end Cert.Proof.KB

end
-- ==== Proof.KLaunch1.lean ====
/-
  The launch of the dropout kernel, first part: what the launch theorem asks of the call beside the tile's
  body. The body enters as a hypothesis (`BodySpec`); from it the tile obligation, the identity split of a SparseCore's
  operands into its sixteen tiles', the launch element (the handshakes' rounds; the transfer counters are dropped), and
  the two array lemmas: x and the scale table go out as 32 read shares, one per tile (tile w = 2·s + c), and the result
  as its 1024 chunks of 32 rows (32 per tile), which are pairwise disjoint and cover the array.
-/
import proofs.«206558_g86277303042394_cont_sun_m_1099_24_alg».proof.Proof.KPay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.Tactic

variable {F : FTy → Type} [FloatOps F]

section Launch

variable (X : (d : Dev nD) → Buf (Elt F) (xLoc d)) (SC : (d : Dev nD) → Buf (Elt F) (sLoc d)) (O0 : (d : Dev nD) → Buf (Elt F) (oLoc d))

/-! ## The body, as the tile obligation takes it -/

/-- The tile's body at a symbolic place: from its operands (its read shares of x and of the table, its 32 chunks of the
    result at the launch contents) to the same with the chunks at the result function. -/
def BodySpec : Prop :=
  ∀ (d : Dev nD) (L : grid0.Coords) (O : CellTallies nD τ sig (HIx 1)) (W : Waits sig (HIx 1)), (∀ g, O g none = 0) →
    iprop(levAts (K (F := F)).L (K (F := F)).lev ∗ emp ∗ goL X SC O0 d L ∗ scopedBufs (thr d L) ∗ scopedSems0 (thr d L) ∗ owes (thr d L) O W)
      ⊢ wp frame (wpE (defs₀ (F := F)) 𝒱₀ (thr d L) none) Set.univ
          (cc0__sc_dropout L xV (Memref.isWhole_whole _) sV (Memref.isWhole_whole _) oV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8 cc0_scratch9 cc0_scoped0)
          fun _ => iprop(tdL X SC d L ∗ scopedBufs (thr d L) ∗ scopedSems0 (thr d L) ∗ ∃ W', ⌜∀ p ∈ W', p ∈ W ∨ p.2 = none⌝ ∗ owes (thr d L) O W')

/-! ## The payloads are storable -/

instance tileRes_storable (d : Dev nD) (L : grid0.Coords) (f : Buf (Elt F) (oLoc d)) :
    BI.Storable (upEmb : UEmb _ (𝕄 (F := F))) (tileRes X SC d L f) := by
  unfold tileRes; infer_instance

instance goN_storable (d : Dev nD) (c s : ℕ) : BI.Storable (upEmb : UEmb _ (𝕄 (F := F))) (goN X SC O0 d c s) := by
  unfold goN goL; split <;> infer_instance
instance tdN_storable (d : Dev nD) (c s : ℕ) : BI.Storable (upEmb : UEmb _ (𝕄 (F := F))) (tdN X SC d c s) := by
  unfold tdN tdL; split <;> infer_instance

instance P_storable : (P X SC O0).IsStorable where
  st _ d c := by unfold P; infer_instance
  dn _ d c := by unfold P; infer_instance
  go _ d c i := by unfold P; infer_instance
  td _ d c i := by unfold P; infer_instance

/-! ## A SparseCore's operands are its tiles' -/

theorem vecSplit : (K (F := F)).VecSplit' (P X SC O0) 0 := by
  intro d c
  show (bigSep Finset.univ fun i : Fin ((K (F := F)).nSub 0) => goN X SC O0 d c.val i.val)
    ⊢ |={Set.univ}=> iprop((bigSep Finset.univ fun i : Fin ((K (F := F)).nSub 0) => goN X SC O0 d c.val i.val)
        ∗ ((bigSep Finset.univ fun i : Fin ((K (F := F)).nSub 0) => tdN X SC d c.val i.val)
          -∗ bigSep Finset.univ fun i : Fin ((K (F := F)).nSub 0) => tdN X SC d c.val i.val))
  iintro H; imodintro
  isplitl [H]; · iexact H
  iintro H; iexact H

/-! ## The tile obligation -/

theorem defs₀_vector (c : Fin τ.nSC) (s : Fin τ.nSub) :
    defs₀ (F := F) (.scVector c s) 0 ()
      = SparseCore.onTile hcore0 hsub0 (fun c s => cc0__sc_dropout (coordsV c s) xV (Memref.isWhole_whole _) sV (Memref.isWhole_whole _) oV (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7 cc0_scratch8 cc0_scratch9 cc0_scoped0) ⟨⟩ c s := rfl

omit [FloatOps F] in
theorem obl_post {thr : Thread nD τ} {A B C : sProp (𝕄 (F := F))} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hbody : BodySpec X SC O0) : (K (F := F)).TileObl (D (F := F)) 𝒱 (P X SC O0) v₀ 0 := by
  intro d c i O W hO _ _
  -- the kernel owes nothing for a protocol of its own
  simp only [show (P X SC O0).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hgo : (P X SC O0).go 0 d c i = goL X SC O0 d (coordsV ⟨_, hc.1⟩ ⟨_, hc.2⟩) := goN_eq X SC O0 d ⟨_, hc.1⟩ ⟨_, hc.2⟩
  have htd : (P X SC O0).td 0 d c i = tdL X SC d (coordsV ⟨_, hc.1⟩ ⟨_, hc.2⟩) := tdN_eq X SC d ⟨_, hc.1⟩ ⟨_, hc.2⟩
  rw [hgo, htd]
  exact (hbody d (coordsV ⟨_, hc.1⟩ ⟨_, hc.2⟩) O W hO).trans (wp_mono frame _ _ fun _ => obl_post)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp (𝕄 (F := F))) := bigSep_emp_const s

theorem hu₀ : (ownU (u₀ (F := F)) : sProp (𝕄 (F := F)))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P X SC O0).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp (𝕄 (F := F)))) = iprop(emp) from by
    rw [bigSep_congr fun _ _ => bigSep_emp' _, bigSep_emp']]
  iempintro

/-! ## The arrays dealt to the 32 tiles and gathered back -/

/-- The tile numbering: tile (c, s) is worker 2·s + c. -/
def eW : Fin (grid0.bound 0) × Fin (grid0.bound 1) ≃ Fin 32 where
  toFun p := ⟨2 * p.2.val + p.1.val, by have h1 : p.1.val < 2 := p.1.isLt; have h2 : p.2.val < 16 := p.2.isLt; omega⟩
  invFun w := (⟨w.val % 2, Nat.mod_lt _ (by decide)⟩, ⟨w.val / 2, by have := w.isLt; show w.val / 2 < 16; omega⟩)
  left_inv p := by
    have h1 : p.1.val < 2 := p.1.isLt
    have h2 : p.2.val < 16 := p.2.isLt
    refine Prod.ext (Fin.ext ?_) (Fin.ext ?_)
    · show (2 * p.2.val + p.1.val) % 2 = p.1.val; omega
    · show (2 * p.2.val + p.1.val) / 2 = p.2.val; omega
  right_inv w := by
    refine Fin.ext ?_
    show 2 * (w.val / 2) + w.val % 2 = w.val; omega

omit [FloatOps F] in
theorem wid_coordsV (c : Fin (grid0.bound 0)) (s : Fin (grid0.bound 1)) : wid (coordsV c s) = eW (c, s) := rfl

omit [FloatOps F] in
/-- 32 read shares, one per worker, are one per tile. -/
theorem shares_tiles (ℓ : Loc nD τ sig) (f : Buf (Elt F) ℓ) :
    (bigSep Finset.univ fun w : Fin 32 => (ℓ ↦{shareTok fullShare 32 w} f : sProp (𝕄 (F := F))))
      = bigSep Finset.univ fun c : Fin (grid0.bound 0) => bigSep Finset.univ fun s : Fin (grid0.bound 1) => ℓ ↦{qT (coordsV c s)} f := by
  rw [BI.bigSep_univ_equiv eW, BI.bigSep_univ_prod]; rfl

/-- The chunks' element sets, indexed by tile and chunk. -/
abbrev CS (p : (Fin (grid0.bound 0) × Fin (grid0.bound 1)) × Fin 32) : Finset S32768x1024.Idx := (oChunk (coordsV p.1.1 p.1.2) p.2).view.set

omit [FloatOps F] in
/-- Chunk (c, s, j) is the rows of 32-row block number 32·(2·s + c) + j. -/
theorem mem_CS (p : (Fin (grid0.bound 0) × Fin (grid0.bound 1)) × Fin 32) (i : S32768x1024.Idx) :
    i ∈ CS p ↔ (i 0).val / 32 = 32 * (2 * p.1.2.val + p.1.1.val) + p.2.val := by
  have e0 : offC (coordsV p.1.1 p.1.2) p.2 0 = 2048 * p.1.2.val + 1024 * p.1.1.val + 32 * p.2.val := rfl
  have e1 : offC (coordsV p.1.1 p.1.2) p.2 1 = 0 := rfl
  have z0 : S32x1024.size 0 = 32 := rfl
  have z1 : S32x1024.size 1 = 1024 := rfl
  have hi1 : (i 1).val < 1024 := (i 1).isLt
  show i ∈ ((View.whole (main_v16_scv : Ref sig .scVector)).slice (rectC (coordsV p.1.1 p.1.2) p.2)).set ↔ _
  rw [View.set_slice_whole, Rect.mem_set_unit]
  constructor
  · intro h
    have h0 := h 0
    rw [e0, z0] at h0
    omega
  · intro h a
    match a with
    | 0 => rw [e0, z0]; omega
    | 1 => rw [e1, z1]; omega

omit [FloatOps F] in
theorem CS_disjoint : ∀ p ∈ (Finset.univ : Finset ((Fin (grid0.bound 0) × Fin (grid0.bound 1)) × Fin 32)), ∀ p' ∈ (Finset.univ : Finset ((Fin (grid0.bound 0) × Fin (grid0.bound 1)) × Fin 32)),
    p ≠ p' → Disjoint (CS p) (CS p') := by
  intro p _ p' _ hne
  refine Finset.disjoint_left.mpr fun i h1 h2 => hne ?_
  have e1 := (mem_CS p i).mp h1
  have e2 := (mem_CS p' i).mp h2
  have a1 : p.1.1.val < 2 := p.1.1.isLt
  have a2 : p.1.2.val < 16 := p.1.2.isLt
  have a3 : p.2.val < 32 := p.2.isLt
  have b1 : p'.1.1.val < 2 := p'.1.1.isLt
  have b2 : p'.1.2.val < 16 := p'.1.2.isLt
  have b3 : p'.2.val < 32 := p'.2.isLt
  refine Prod.ext (Prod.ext (Fin.ext ?_) (Fin.ext ?_)) (Fin.ext ?_) <;> omega

omit [FloatOps F] in
theorem CS_cover : (Finset.univ : Finset ((Fin (grid0.bound 0) × Fin (grid0.bound 1)) × Fin 32)).biUnion CS = Finset.univ := by
  ext i
  simp only [Finset.mem_biUnion, Finset.mem_univ, true_and, iff_true]
  have hi0 : (i 0).val < 32768 := (i 0).isLt
  refine ⟨((⟨((i 0).val / 1024) % 2, Nat.mod_lt _ (by decide)⟩, ⟨(i 0).val / 2048, by show _ < 16; omega⟩), ⟨((i 0).val / 32) % 32, Nat.mod_lt _ (by decide)⟩), (mem_CS _ i).mpr ?_⟩
  show (i 0).val / 32 = 32 * (2 * ((i 0).val / 2048) + ((i 0).val / 1024) % 2) + ((i 0).val / 32) % 32
  omega

omit [FloatOps F] in
/-- The result array is its 1024 chunks, per tile. -/
theorem out_chunks (d : Dev nD) (f : Buf (Elt F) (oLoc d)) :
    (bigSep Finset.univ fun c : Fin (grid0.bound 0) => bigSep Finset.univ fun s : Fin (grid0.bound 1) => bigSep Finset.univ fun j : Fin 32 =>
        (oLoc d ↦[(oChunk (coordsV c s) j).view.set]{fullShare} f : sProp (𝕄 (F := F))))
      = (oLoc d ↦{fullShare} f) := by
  have h1 := BI.bigSep_univ_prod (fun p : (Fin (grid0.bound 0) × Fin (grid0.bound 1)) × Fin 32 => (oLoc d ↦[CS p]{fullShare} f : sProp (𝕄 (F := F))))
  have h2 := BI.bigSep_univ_prod (fun a : Fin (grid0.bound 0) × Fin (grid0.bound 1) => bigSep Finset.univ fun b : Fin 32 => (oLoc d ↦[CS (a, b)]{fullShare} f : sProp (𝕄 (F := F))))
  rw [← pointsTo_biUnion Finset.univ (ℓ := oLoc d) CS CS_disjoint, CS_cover] at h1
  exact (h1.trans h2).symm

/-- The tiles' operands at result contents `f`: 32 shares of x, 32 of the table, the result whole. -/
theorem tiles_eq (d : Dev nD) (f : Buf (Elt F) (oLoc d)) :
    (bigSep Finset.univ fun c : Fin (grid0.bound 0) => bigSep Finset.univ fun s : Fin (grid0.bound 1) => tileRes X SC d (coordsV c s) f)
      = iprop((bigSep Finset.univ fun w : Fin 32 => (xLoc d ↦{shareTok fullShare 32 w} X d))
          ∗ (bigSep Finset.univ fun w : Fin 32 => (sLoc d ↦{shareTok fullShare 32 w} SC d))
          ∗ (oLoc d ↦{fullShare} f)) := by
  unfold tileRes
  simp only [bigSep_sep']
  rw [shares_tiles, shares_tiles, out_chunks]

theorem st_eq (d : Dev nD) :
    (bigSep Finset.univ fun c : Fin ((K (F := F)).nCore 0) => (P X SC O0).st 0 d c)
      = bigSep Finset.univ fun c : Fin (grid0.bound 0) => bigSep Finset.univ fun s : Fin (grid0.bound 1) => tileRes X SC d (coordsV c s) (O0 d) := by
  show (bigSep Finset.univ fun c : Fin (grid0.bound 0) => bigSep Finset.univ fun s : Fin (grid0.bound 1) => goN X SC O0 d c.val s.val) = _
  exact bigSep_congr fun c _ => bigSep_congr fun s _ => goN_eq X SC O0 d c s
theorem dn_eq (d : Dev nD) :
    (bigSep Finset.univ fun c : Fin ((K (F := F)).nCore 0) => (P X SC O0).dn 0 d c)
      = bigSep Finset.univ fun c : Fin (grid0.bound 0) => bigSep Finset.univ fun s : Fin (grid0.bound 1) => tileRes X SC d (coordsV c s) (OUTV d (X d) (SC d)) := by
  show (bigSep Finset.univ fun c : Fin (grid0.bound 0) => bigSep Finset.univ fun s : Fin (grid0.bound 1) => tdN X SC d c.val s.val) = _
  exact bigSep_congr fun c _ => bigSep_congr fun s _ => tdN_eq X SC d c s

/-- What stays with the TensorCore during the call: the remainders of x and of the table. -/
def R (d : Dev nD) : sProp (𝕄 (F := F)) := iprop((xLoc d ↦{shareDrop fullShare 32} X d) ∗ (sLoc d ↦{shareDrop fullShare 32} SC d))

theorem deal (d : Dev nD) :
    iprop((xLoc d ↦{fullShare} X d) ∗ (sLoc d ↦{fullShare} SC d) ∗ (oLoc d ↦{fullShare} O0 d))
      ⊢ iprop(R X SC d ∗ bigSep Finset.univ fun c : Fin ((K (F := F)).nCore 0) => (P X SC O0).st 0 d c) := by
  rw [st_eq, tiles_eq]; unfold R
  iintro ⟨Hx, Hs, Ho⟩
  ihave Hx' := (pointsTo_toks_split fullShare 32) $$ Hx
  ihave Hs' := (pointsTo_toks_split fullShare 32) $$ Hs
  icases Hx' with ⟨Hxr, Hxt⟩
  icases Hs' with ⟨Hsr, Hst⟩
  isplitl [Hxr Hsr]
  · isplitl [Hxr]; · iexact Hxr
    iexact Hsr
  isplitl [Hxt]; · iexact Hxt
  isplitl [Hst]; · iexact Hst
  iexact Ho

theorem gather (d : Dev nD) :
    iprop(R X SC d ∗ bigSep Finset.univ fun c : Fin ((K (F := F)).nCore 0) => (P X SC O0).dn 0 d c)
      ⊢ iprop((xLoc d ↦{fullShare} X d) ∗ (sLoc d ↦{fullShare} SC d) ∗ (oLoc d ↦{fullShare} OUTV d (X d) (SC d))) := by
  rw [dn_eq, tiles_eq]; unfold R
  iintro ⟨⟨Hxr, Hsr⟩, Hxt, Hst, Ho⟩
  isplitl [Hxr Hxt]
  · iapply (pointsTo_toks_join fullShare 32)
    isplitl [Hxr]; · iexact Hxr
    iexact Hxt
  isplitl [Hsr Hst]
  · iapply (pointsTo_toks_join fullShare 32)
    isplitl [Hsr]; · iexact Hsr
    iexact Hst
  iexact Ho

end Launch

end Cert.Proof.KB

end
-- ==== Proof.KLaunch2.lean ====
/-
  The launch of the dropout kernel, second part: @main on the TensorCore and the program's run. The host
  operations before the call enter as a list with the facts the run needs of them (`HostFacts`); they run as one
  straight line over the TensorCore's unscoped buffers held whole; x (reshaped), the scale table and the result array
  are taken out, dealt to the 32 tiles, the call runs, they are gathered and put back, the result at the one
  whole-array function; the last reshape runs; the claim reads the reshaped result and the argument off the final memory.
-/
import proofs.«206558_g86277303042394_cont_sun_m_1099_24_alg».proof.Proof.KLaunch1

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within wp_seq after)
open Idealize.ShloMosaic.Tactic

variable {F : FTy → Type} [FloatOps F]

/-! ## The host side, as the run needs it -/

/-- The one host operation after the call: the result reshaped to the argument's shape. -/
abbrev opOut : HloOp τ sig (Elt F) := StableHlo.reshape main_v16 main_v17 rfl shapeCasts_S32768x1024_S4x8192x1024

/-- The TensorCore's unscoped buffers, as device buffers. -/
def tcU : Finset (DevRef τ sig) :=
  (Finset.univ.filter fun b : Ref sig .tc => ¬ b.isScoped).map ⟨Proc.devRef (sig := sig) (.tc : Proc τ), Proc.devRef_injective _⟩

theorem mem_tcU {r : Ref sig .tc} (h : r.isScoped = false) : Proc.devRef (τ := τ) .tc r ∈ tcU :=
  Finset.mem_map_of_mem _ (Finset.mem_filter.mpr ⟨Finset.mem_univ _, by rw [h]; exact Bool.false_ne_true⟩)

/-- A set of device buffers each of which is an unscoped TensorCore reference lies in `tcU`. -/
theorem sub_tcU {B : Finset (DevRef τ sig)} (h : ∀ b ∈ B, ∃ r : Ref sig .tc, r.isScoped = false ∧ Proc.devRef (τ := τ) .tc r = b) : B ⊆ tcU :=
  fun b hb => by obtain ⟨r, hr, rfl⟩ := h b hb; exact mem_tcU hr

/-- No TensorCore buffer of this program is scoped: every TensorCore reference is in `tcU`. -/
theorem noScoped : ∀ r : Ref sig .tc, r.isScoped = false := by decide
theorem tcRefs_sub : StableHlo.tcRefs τ sig ⊆ tcU := fun b hb => by
  obtain ⟨r, -, rfl⟩ := Finset.mem_map.mp hb
  exact mem_tcU (noScoped r)

/-- What the run asks of the host operations before the call. -/
structure HostFacts (hostOps0 : List (HloOp τ sig (Elt F))) : Prop where
  main_eq : ∀ d : Dev nD, main (F := F) d
    = (StableHlo.seq hostOps0 >>= fun _ => sc.run d 0 >>= fun _ => hlo rfl (opOut (F := F)) (fun _ => .ret (⟨⟩ : PUnit)) >>= fun _ => pure (⟨⟩ : PUnit))
  fresh : ∀ op ∈ hostOps0, op.fresh = ∅
  sub : ∀ op ∈ hostOps0, op.bufs ⊆ tcU
  after_arg0 : ∀ V : Valuation τ sig (Elt F), after hostOps0 V (Proc.devRef .tc main_arg0) = V (Proc.devRef .tc main_arg0)

section Run

variable (hostOps0 : List (HloOp τ sig (Elt F))) (m : (ℓ : Loc nD τ sig) → Buf (Elt F) ℓ) (ρ : Dev nD → PrngReg)

abbrev x' : DevRef τ sig := Proc.devRef .tc (main_v14 : Ref sig .tc)
abbrev s' : DevRef τ sig := Proc.devRef .tc (main_v15 : Ref sig .tc)
abbrev o' : DevRef τ sig := Proc.devRef .tc (main_v16 : Ref sig .tc)
abbrev r' : DevRef τ sig := Proc.devRef .tc (main_v17 : Ref sig .tc)
abbrev a' : DevRef τ sig := Proc.devRef .tc (main_arg0 : Ref sig .tc)

/-- The launch valuation; after the host line; after the call (the result array at the whole-array function of x and
    the table as the host line left them); after the last reshape. -/
def V0 (d : Dev nD) : Valuation τ sig (Elt F) := fun b => m (d, b)
def V1 (d : Dev nD) : Valuation τ sig (Elt F) := after hostOps0 (V0 m d)
def XH (d : Dev nD) : Buf (Elt F) (xLoc d) := V1 hostOps0 m d x'
def SH (d : Dev nD) : Buf (Elt F) (sLoc d) := V1 hostOps0 m d s'
def OH (d : Dev nD) : Buf (Elt F) (oLoc d) := V1 hostOps0 m d o'
def V2 (d : Dev nD) : Valuation τ sig (Elt F) := Function.update (V1 hostOps0 m d) o' (OUTV d (XH hostOps0 m d) (SH hostOps0 m d))
def V3 (d : Dev nD) : Valuation τ sig (Elt F) := (opOut (F := F)).result (V2 hostOps0 m d)

/-- The program's result: the call's result array, reshaped. -/
def RES (d : Dev nD) : Buf (Elt F) ((SparseCore.T d : Thread nD τ).loc main_v17) := V3 hostOps0 m d r'

omit [FloatOps F] in
theorem unscoped_held (d : Dev nD) : (unscopedBufs d (fun b => m ((SparseCore.T d).loc b)) : sProp (𝕄 (F := F))) = held (T d) tcU (V0 m d) := by
  unfold unscopedBufs held tcU; rw [bigSep_map]; rfl

abbrev S3 : Finset (DevRef τ sig) := {x', s', o'}
abbrev S2 : Finset (DevRef τ sig) := {r', a'}

omit [FloatOps F] in
theorem held_S3 (d : Dev nD) (W : Valuation τ sig (Elt F)) :
    (held (T d) S3 W : sProp (𝕄 (F := F))) = iprop((xLoc d ↦{fullShare} W x') ∗ (sLoc d ↦{fullShare} W s') ∗ (oLoc d ↦{fullShare} W o')) := by
  unfold held S3
  rw [SparseCore.bigSep_insert' (by decide), SparseCore.bigSep_insert' (by decide), bigSep_singleton]
omit [FloatOps F] in
theorem held_S2 (d : Dev nD) (W : Valuation τ sig (Elt F)) :
    (held (T d) S2 W : sProp (𝕄 (F := F))) = iprop(((SparseCore.T d).loc main_v17 ↦{fullShare} W r') ∗ ((SparseCore.T d).loc main_arg0 ↦{fullShare} W a')) := by
  unfold held S2
  rw [SparseCore.bigSep_insert' (by decide), bigSep_singleton]

theorem S3_sub : S3 ⊆ tcU := by
  intro b hb
  rcases Finset.mem_insert.mp hb with rfl | hb
  · exact mem_tcU rfl
  rcases Finset.mem_insert.mp hb with rfl | hb
  · exact mem_tcU rfl
  · cases Finset.mem_singleton.mp hb; exact mem_tcU rfl
theorem S2_sub : S2 ⊆ tcU := by
  intro b hb
  rcases Finset.mem_insert.mp hb with rfl | hb
  · exact mem_tcU rfl
  · cases Finset.mem_singleton.mp hb; exact mem_tcU rfl
theorem opOut_sub : (opOut (F := F)).bufs ⊆ tcU := by
  intro b hb
  rcases Finset.mem_insert.mp hb with rfl | hb
  · exact mem_tcU rfl
  · cases Finset.mem_singleton.mp hb; exact mem_tcU rfl

/-- Off the result array the call changes nothing. -/
theorem held_rest (d : Dev nD) :
    (held (T d) (tcU \ S3) (V2 hostOps0 m d) : sProp (𝕄 (F := F))) = held (T d) (tcU \ S3) (V1 hostOps0 m d) :=
  held_congr (T d) fun b hb => Function.update_of_ne (fun e => (Finset.mem_sdiff.mp hb).2 (by rw [e]; simp)) _ _

theorem V2_x (d : Dev nD) : V2 hostOps0 m d x' = XH hostOps0 m d := Function.update_of_ne (show x' ≠ o' by decide) _ _
theorem V2_s (d : Dev nD) : V2 hostOps0 m d s' = SH hostOps0 m d := Function.update_of_ne (show s' ≠ o' by decide) _ _
theorem V2_o (d : Dev nD) : V2 hostOps0 m d o' = OUTV d (XH hostOps0 m d) (SH hostOps0 m d) := Function.update_self _ _ _

/-- The program's result as a pure term: the whole-array function of x and the table after the host line, reshaped. -/
theorem RES_eq (d : Dev nD) :
    RES hostOps0 m d = fun i => (rfl : (main_v16 : Ref sig .tc).ty.elt = (main_v17 : Ref sig .tc).ty.elt) ▸
      shapeCast (main_v17 : Ref sig .tc).ty.shape (OUTV d (XH hostOps0 m d) (SH hostOps0 m d)) shapeCasts_S32768x1024_S4x8192x1024 i := by
  unfold RES V3
  rw [StableHlo.reshape_result', V2_o]

/-- What @main leaves the claim: the reshaped result and the argument. -/
def FIN (d : Dev nD) : sProp (𝕄 (F := F)) :=
  iprop(((SparseCore.T d).loc main_v17 ↦{fullShare} V3 hostOps0 m d r') ∗ ((SparseCore.T d).loc main_arg0 ↦{fullShare} V3 hostOps0 m d a'))

variable (H : HostFacts hostOps0)

include H in
/-- The argument is untouched: the host line does not write it, nor the call, nor the last reshape. -/
theorem V3_arg0 (d : Dev nD) : V3 hostOps0 m d a' = m ((SparseCore.T d).loc main_arg0) := by
  unfold V3
  rw [StableHlo.reshape_result_ne (h := show (main_arg0 : Ref sig .tc) ≠ main_v17 by decide)]
  unfold V2
  rw [Function.update_of_ne (show a' ≠ o' by decide)]
  exact H.after_arg0 _

include H in
/-- @main on device `d`'s TensorCore: the host line, the arrays dealt, the call, the arrays gathered, the last reshape. -/
theorem hmain (κ : GSem nD τ sig → ℕ) (d : Dev nD) :
    iprop((K (F := F)).ctx EH (P (XH hostOps0 m) (SH hostOps0 m) (OH hostOps0 m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN hostOps0 m d) := by
  unfold SparseCore.Cfg.tcRes
  rw [unscoped_held, H.main_eq d]
  iintro ⟨#Hctx, Hst, ⟨Hb, Hheld, -, -⟩, -⟩
  -- the host line
  iapply (wp_seq 𝒱 none Set.univ d tcU _ hostOps0 H.sub H.fresh (V0 m d)) $$ [Hb Hheld]
  · isplitl [Hb]; · iexact Hb
    iexact Hheld
  iintro ⟨Hb, Hheld⟩
  -- x, the table and the result array out of the held set, and to the tiles
  ihave Hh := (Entails.of_eq ((show (held (d.tc : Thread nD τ) tcU (after hostOps0 (V0 m d)) : sProp (𝕄 (F := F))) = held (T d) tcU (V1 hostOps0 m d) from rfl).trans <| (held_sub_split (T d) S3_sub (V1 hostOps0 m d)).trans
    (congrArg (fun A => iprop(A ∗ held (T d) (tcU \ S3) (V1 hostOps0 m d))) (held_S3 d _)))) $$ Hheld
  icases Hh with ⟨⟨Hx, Hs, Ho⟩, Hrest⟩
  ihave Hd := (deal (XH hostOps0 m) (SH hostOps0 m) (OH hostOps0 m) d) $$ [Hx Hs Ho]
  · isplitl [Hx]; · iexact Hx
    isplitl [Hs]; · iexact Hs
    iexact Ho
  icases Hd with ⟨HR, Hgo⟩
  simp only [wp_bind, wp_pure]
  -- the call
  iapply ((K (F := F)).wp_run (D (F := F)) 𝒱 (EH := EH) (P := P (XH hostOps0 m) (SH hostOps0 m) (OH hostOps0 m)) κ d 0) $$ [Hst Hgo Hb HR Hrest]
  isplitr; · iexact Hctx
  isplitl [Hst]; · iexact Hst
  isplitl [Hgo]; · iexact Hgo
  iintro ⟨Hst, Hdn⟩
  ihave Hg := (gather (XH hostOps0 m) (SH hostOps0 m) (OH hostOps0 m) d) $$ [HR Hdn]
  · isplitl [HR]; · iexact HR
    iexact Hdn
  icases Hg with ⟨Hx, Hs, Ho⟩
  -- the last reshape, over the set put back
  iapply (wp_hlo_within 𝒱 (SparseCore.T d) none Set.univ (op := opOut) (S := tcU) opOut_sub (V := V2 hostOps0 m d)) $$ [Hb Hx Hs Ho Hrest]
  · isplitl [Hb]; · iexact Hb
    rw [held_sub_split (T d) S3_sub, held_S3, held_rest, V2_x, V2_s, V2_o]
    isplitr [Hrest]
    · isplitl [Hx]; · iexact Hx
      isplitl [Hs]; · iexact Hs
      iexact Ho
    · iexact Hrest
  iintro ⟨Hb, Hheld⟩
  ihave Hh := (Entails.of_eq ((held_sub_split (T d) S2_sub ((opOut (F := F)).result (V2 hostOps0 m d))).trans
    (congrArg (fun A => iprop(A ∗ held (T d) (tcU \ S2) ((opOut (F := F)).result (V2 hostOps0 m d)))) (held_S2 d _)))) $$ Hheld
  icases Hh with ⟨⟨Hr, Ha⟩, -⟩
  rw [wp_ret]; imodintro; imodintro
  isplitl [Hst]; · iexact Hst
  unfold FIN V3
  isplitl [Hr]; · iexact Hr
  iexact Ha

/-- What the final memory holds at the two buffers of the claim. -/
def fq (d : Dev nD) (st : Phys nD τ sig (Elt F)) : Prop :=
  st.mem.mem ((SparseCore.T d : Thread nD τ).loc main_v17) = RES hostOps0 m d
    ∧ st.mem.mem ((SparseCore.T d : Thread nD τ).loc main_arg0) = V3 hostOps0 m d a'

theorem hfin (d : Dev nD) (st : Phys nD τ sig (Elt F)) : iprop(FIN hostOps0 m d ∗ SI st) ⊢ (⌜fq hostOps0 m d st⌝ : sProp (𝕄 (F := F))) := by
  unfold FIN
  iintro ⟨⟨Hr, Ha⟩, HSI⟩
  ihave H1 := (persistent_entails_right (SI_pointsTo_agree (st := st) (ℓ := (SparseCore.T d : Thread nD τ).loc main_v17) (I := Finset.univ) (q := fullShare) (f := V3 hostOps0 m d r'))) $$ [HSI Hr]
  · isplitl [HSI] <;> iassumption
  icases H1 with ⟨%h1, HSI, -⟩
  ihave H2 := (SI_pointsTo_agree (st := st) (ℓ := (SparseCore.T d : Thread nD τ).loc main_arg0) (I := Finset.univ) (q := fullShare) (f := V3 hostOps0 m d a')) $$ [HSI Ha]
  · isplitl [HSI] <;> iassumption
  icases H2 with %h2
  ipureintro; exact ⟨funext fun i => h1 i (Finset.mem_univ i), funext fun i => h2 i (Finset.mem_univ i)⟩

/-! ## The program's run -/

/-- The run's post: the result buffer holds the call's result reshaped, the argument is unchanged. -/
def QC : PUnit × MemSt nD τ sig (Elt F) → Prop := fun r => ∀ c : Dev nD,
  r.2.mem ((c.tc : Thread nD τ).loc main_v17) = RES hostOps0 m c ∧ r.2.mem ((c.tc : Thread nD τ).loc main_arg0) = m ((c.tc : Thread nD τ).loc main_arg0)

include H in
theorem run_main [∀ e, Nonempty (Elt F e)] (hbody : ∀ X SC O0, BodySpec (F := F) X SC O0) :
    θ_run (Cert.Kernel.defs (F := F)) (Cert.Kernel.threads (F := F)) ⟨m, fun _ => 0, ρ⟩ (QC hostOps0 m) :=
  SparseCore.Cfg.θ_run_sc (K := K (F := F)) (D := D (F := F)) (𝒱 := 𝒱) (EH := EH) (P := P (XH hostOps0 m) (SH hostOps0 m) (OH hostOps0 m)) facts v₀
    (fun q hq => match q with | 0 => nomatch hq)
    (fun q _ => match q with | 0 => tileObl _ _ _ (hbody _ _ _))
    (fun q _ => match q with | 0 => SparseCore.Cfg.VecSplit.of_plain (vecSplit _ _ _))
    m ρ main (fun _ => iprop(emp)) (FIN hostOps0 m) (u₀ (F := F)) (sep_elim_left.trans (hu₀ _ _ _)) (hmain hostOps0 m ρ H) (fq hostOps0 m) (hfin hostOps0 m) (QC hostOps0 m)
    (fun _ h c => ⟨(h c).1, (h c).2.trans (V3_arg0 hostOps0 m H c)⟩)

end Run

end Cert.Proof.KB

end
-- ==== Proof.KLaunchE.lean ====
/-
  The launch of the dropout kernel when only the frame is wanted: the tiles hand their chunks of the result
  back at SOME contents. The same chain as for the valued payloads — the tile obligation from the body at the weaker
  post, the identity split, the launch element, the arrays dealt and gathered (the 1024 chunks, pairwise disjoint and
  covering the array, join at some whole-array contents), @main on the TensorCore and the run — with the claim that the
  argument is unchanged.
-/
import proofs.«206558_g86277303042394_cont_sun_m_1099_24_alg».proof.Proof.KLaunch2

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.StableHlo (held held_split held_sdiff_result held_sub_split held_congr wp_hlo_within wp_seq after)
open Idealize.ShloMosaic.Tactic

variable {F : FTy → Type} [FloatOps F]

section LaunchE

variable (X : (d : Dev nD) → Buf (Elt F) (xLoc d)) (SC : (d : Dev nD) → Buf (Elt F) (sLoc d)) (O0 : (d : Dev nD) → Buf (Elt F) (oLoc d))

/-- The tile's body at the weaker post: its chunks of the result come back at some contents. -/
def BodySpecE : Prop :=
  ∀ (d : Dev nD) (L : grid0.Coords) (O : CellTallies nD τ sig (HIx 1)) (W : Waits sig (HIx 1)), (∀ g, O g none = 0) →
    iprop(levAts (K (F := F)).L (K (F := F)).lev ∗ emp ∗ goL X SC O0 d L ∗ scopedBufs (thr d L) ∗ scopedSems0 (thr d L) ∗ owes (thr d L) O W)
      ⊢ wp frame (wpE (defs₀ (F := F)) 𝒱₀ (thr d L) none) Set.univ
          (cc0__sc_dropout L xV (Memref.isWhole_whole _) sV (Memref.isWhole_whole _) oV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8 cc0_scratch9 cc0_scoped0)
          fun _ => iprop(tdLE X SC d L ∗ scopedBufs (thr d L) ∗ scopedSems0 (thr d L) ∗ ∃ W', ⌜∀ p ∈ W', p ∈ W ∨ p.2 = none⌝ ∗ owes (thr d L) O W')

/-- The body at the valued post is one at the weaker post. -/
theorem BodySpec.toE (h : BodySpec X SC O0) : BodySpecE X SC O0 := fun d L O W hO =>
  (h d L O W hO).trans (wp_mono frame _ _ fun _ => sep_mono_left (tdL_tdLE X SC d L))

instance tdNE_storable (d : Dev nD) (c s : ℕ) : BI.Storable (upEmb : UEmb _ (𝕄 (F := F))) (tdNE X SC d c s) := by
  unfold tdNE tdLE; split <;> infer_instance

instance PE_storable : (PE X SC O0).IsStorable where
  st _ d c := by unfold PE; infer_instance
  dn _ d c := by unfold PE; infer_instance
  go _ d c i := by unfold PE; infer_instance
  td _ d c i := by unfold PE; infer_instance

theorem vecSplitE : (K (F := F)).VecSplit' (PE X SC O0) 0 := by
  intro d c
  show (bigSep Finset.univ fun i : Fin ((K (F := F)).nSub 0) => goN X SC O0 d c.val i.val)
    ⊢ |={Set.univ}=> iprop((bigSep Finset.univ fun i : Fin ((K (F := F)).nSub 0) => goN X SC O0 d c.val i.val)
        ∗ ((bigSep Finset.univ fun i : Fin ((K (F := F)).nSub 0) => tdNE X SC d c.val i.val)
          -∗ bigSep Finset.univ fun i : Fin ((K (F := F)).nSub 0) => tdNE X SC d c.val i.val))
  iintro H; imodintro
  isplitl [H]; · iexact H
  iintro H; iexact H

theorem tileOblE (hbody : BodySpecE X SC O0) : (K (F := F)).TileObl (D (F := F)) 𝒱 (PE X SC O0) v₀ 0 := by
  intro d c i O W hO _ _
  -- the kernel owes nothing for a protocol of its own
  simp only [show (PE X SC O0).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hgo : (PE X SC O0).go 0 d c i = goL X SC O0 d (coordsV ⟨_, hc.1⟩ ⟨_, hc.2⟩) := goN_eq X SC O0 d ⟨_, hc.1⟩ ⟨_, hc.2⟩
  have htd : (PE X SC O0).td 0 d c i = tdLE X SC d (coordsV ⟨_, hc.1⟩ ⟨_, hc.2⟩) := tdNE_eq X SC d ⟨_, hc.1⟩ ⟨_, hc.2⟩
  rw [hgo, htd]
  exact (hbody d (coordsV ⟨_, hc.1⟩ ⟨_, hc.2⟩) O W hO).trans (wp_mono frame _ _ fun _ => obl_post)

theorem hu₀E : (ownU (u₀ (F := F)) : sProp (𝕄 (F := F)))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PE X SC O0).x q thr) :=
  hu₀ X SC O0

/-! ## The arrays dealt and gathered -/

theorem dealE (d : Dev nD) :
    iprop((xLoc d ↦{fullShare} X d) ∗ (sLoc d ↦{fullShare} SC d) ∗ (oLoc d ↦{fullShare} O0 d))
      ⊢ iprop(R X SC d ∗ bigSep Finset.univ fun c : Fin ((K (F := F)).nCore 0) => (PE X SC O0).st 0 d c) :=
  deal X SC O0 d

/-- The 1024 chunks, each at some contents, are the whole result array at some contents. -/
theorem chunks_join (d : Dev nD) :
    (bigSep Finset.univ fun c : Fin (grid0.bound 0) => bigSep Finset.univ fun s : Fin (grid0.bound 1) => bigSep Finset.univ fun j : Fin 32 =>
        (iprop(∃ g, oLoc d ↦[(oChunk (coordsV c s) j).view.set]{fullShare} g) : sProp (𝕄 (F := F))))
      ⊢ iprop(∃ f, oLoc d ↦{fullShare} f) := by
  have h1 := BI.bigSep_univ_prod (fun p : (Fin (grid0.bound 0) × Fin (grid0.bound 1)) × Fin 32 => (iprop(∃ g, oLoc d ↦[CS p]{fullShare} g) : sProp (𝕄 (F := F))))
  have h2 := BI.bigSep_univ_prod (fun a : Fin (grid0.bound 0) × Fin (grid0.bound 1) => bigSep Finset.univ fun b : Fin 32 => (iprop(∃ g, oLoc d ↦[CS (a, b)]{fullShare} g) : sProp (𝕄 (F := F))))
  refine (Entails.of_eq (h1.trans h2).symm).trans ?_
  refine (bigSep_exists_pi Finset.univ (fun p (g : Buf (Elt F) (oLoc d)) => (oLoc d ↦[CS p]{fullShare} g : sProp (𝕄 (F := F))))).trans ?_
  iintro ⟨%fs, H⟩
  ihave H' := (pointsTo_biUnion_join Finset.univ CS fs (fs ((⟨0, by decide⟩, ⟨0, by decide⟩), ⟨0, by decide⟩)) CS_disjoint) $$ H
  icases H' with ⟨%g, -, Hg⟩
  rw [CS_cover]
  iexists g; iexact Hg

omit [FloatOps F] in
theorem chunk_ex (d : Dev nD) (L : grid0.Coords) (j : Fin 32) (f : Buf (Elt F) (oLoc d)) :
    (oLoc d ↦[(oChunk L j).view.set]{fullShare} f : sProp (𝕄 (F := F))) ⊢ iprop(∃ g, oLoc d ↦[(oChunk L j).view.set]{fullShare} g) := by
  iintro H; iexists f; iexact H

/-- A tile's results at some contents: its shares, and each chunk at some contents. -/
theorem tileE_split (d : Dev nD) (L : grid0.Coords) :
    (iprop(∃ f, tileRes X SC d L f) : sProp (𝕄 (F := F)))
      ⊢ iprop((xLoc d ↦{qT L} X d) ∗ (sLoc d ↦{qT L} SC d) ∗ bigSep Finset.univ fun j : Fin 32 => iprop(∃ g, oLoc d ↦[(oChunk L j).view.set]{fullShare} g)) := by
  have hmono (f : Buf (Elt F) (oLoc d)) :
      (bigSep Finset.univ fun j : Fin 32 => (oLoc d ↦[(oChunk L j).view.set]{fullShare} f : sProp (𝕄 (F := F))))
        ⊢ bigSep Finset.univ fun j : Fin 32 => iprop(∃ g, oLoc d ↦[(oChunk L j).view.set]{fullShare} g) :=
    bigSep_mono fun j _ => chunk_ex d L j f
  unfold tileRes
  iintro ⟨%f, Hx, Hs, Ho⟩
  isplitl [Hx]; · iexact Hx
  isplitl [Hs]; · iexact Hs
  iapply (hmono f); iexact Ho

theorem dnE_eq (d : Dev nD) :
    (bigSep Finset.univ fun c : Fin ((K (F := F)).nCore 0) => (PE X SC O0).dn 0 d c)
      = bigSep Finset.univ fun c : Fin (grid0.bound 0) => bigSep Finset.univ fun s : Fin (grid0.bound 1) => iprop(∃ f, tileRes X SC d (coordsV c s) f) := by
  show (bigSep Finset.univ fun c : Fin (grid0.bound 0) => bigSep Finset.univ fun s : Fin (grid0.bound 1) => tdNE X SC d c.val s.val) = _
  exact bigSep_congr fun c _ => bigSep_congr fun s _ => tdNE_eq X SC d c s

theorem gatherE (d : Dev nD) :
    iprop(R X SC d ∗ bigSep Finset.univ fun c : Fin ((K (F := F)).nCore 0) => (PE X SC O0).dn 0 d c)
      ⊢ iprop((xLoc d ↦{fullShare} X d) ∗ (sLoc d ↦{fullShare} SC d) ∗ ∃ f, oLoc d ↦{fullShare} f) := by
  have hmono : (bigSep Finset.univ fun c : Fin (grid0.bound 0) => bigSep Finset.univ fun s : Fin (grid0.bound 1) => (iprop(∃ f, tileRes X SC d (coordsV c s) f) : sProp (𝕄 (F := F))))
      ⊢ bigSep Finset.univ fun c : Fin (grid0.bound 0) => bigSep Finset.univ fun s : Fin (grid0.bound 1) =>
          iprop((xLoc d ↦{qT (coordsV c s)} X d) ∗ (sLoc d ↦{qT (coordsV c s)} SC d)
            ∗ bigSep Finset.univ fun j : Fin 32 => iprop(∃ g, oLoc d ↦[(oChunk (coordsV c s) j).view.set]{fullShare} g)) :=
    bigSep_mono fun c _ => bigSep_mono fun s _ => tileE_split X SC d (coordsV c s)
  rw [dnE_eq]; unfold R
  iintro ⟨⟨Hxr, Hsr⟩, Hdn⟩
  ihave Hdn' := hmono $$ Hdn
  simp only [bigSep_sep']
  icases Hdn' with ⟨Hxt, Hst, Ho⟩
  isplitl [Hxr Hxt]
  · iapply (pointsTo_toks_join fullShare 32)
    isplitl [Hxr]; · iexact Hxr
    rw [shares_tiles]; iexact Hxt
  isplitl [Hsr Hst]
  · iapply (pointsTo_toks_join fullShare 32)
    isplitl [Hsr]; · iexact Hsr
    rw [shares_tiles]; iexact Hst
  iapply (chunks_join d); iexact Ho

end LaunchE

/-! ## @main on the TensorCore and the run, the argument's frame only -/

section RunE

variable (hostOps0 : List (HloOp τ sig (Elt F))) (m : (ℓ : Loc nD τ sig) → Buf (Elt F) ℓ) (ρ : Dev nD → PrngReg)

/-- The valuation after the call when the result array holds `f`. -/
def V2f (d : Dev nD) (f : Buf (Elt F) (oLoc d)) : Valuation τ sig (Elt F) := Function.update (V1 hostOps0 m d) o' f

theorem held_restf (d : Dev nD) (f : Buf (Elt F) (oLoc d)) :
    (held (T d) (tcU \ S3) (V2f hostOps0 m d f) : sProp (𝕄 (F := F))) = held (T d) (tcU \ S3) (V1 hostOps0 m d) :=
  held_congr (T d) fun b hb => Function.update_of_ne (fun e => (Finset.mem_sdiff.mp hb).2 (by rw [e]; simp)) _ _

theorem V2f_x (d : Dev nD) (f : Buf (Elt F) (oLoc d)) : V2f hostOps0 m d f x' = XH hostOps0 m d := Function.update_of_ne (show x' ≠ o' by decide) _ _
theorem V2f_s (d : Dev nD) (f : Buf (Elt F) (oLoc d)) : V2f hostOps0 m d f s' = SH hostOps0 m d := Function.update_of_ne (show s' ≠ o' by decide) _ _
theorem V2f_o (d : Dev nD) (f : Buf (Elt F) (oLoc d)) : V2f hostOps0 m d f o' = f := Function.update_self _ _ _

/-- What @main leaves the claim: the argument at its launch contents. -/
def FINE (d : Dev nD) : sProp (𝕄 (F := F)) := (SparseCore.T d : Thread nD τ).loc main_arg0 ↦{fullShare} m ((SparseCore.T d : Thread nD τ).loc main_arg0)

variable (H : HostFacts hostOps0)

include H in
/-- The argument is untouched, whatever the call left in the result array. -/
theorem V3f_arg0 (d : Dev nD) (f : Buf (Elt F) (oLoc d)) :
    (opOut (F := F)).result (V2f hostOps0 m d f) a' = m ((SparseCore.T d : Thread nD τ).loc main_arg0) := by
  rw [StableHlo.reshape_result_ne (h := show (main_arg0 : Ref sig .tc) ≠ main_v17 by decide)]
  unfold V2f
  rw [Function.update_of_ne (show a' ≠ o' by decide)]
  exact H.after_arg0 _

include H in
theorem hmainE (κ : GSem nD τ sig → ℕ) (d : Dev nD) :
    iprop((K (F := F)).ctx EH (PE (XH hostOps0 m) (SH hostOps0 m) (OH hostOps0 m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FINE m d) := by
  unfold SparseCore.Cfg.tcRes
  rw [unscoped_held, H.main_eq d]
  iintro ⟨#Hctx, Hst, ⟨Hb, Hheld, -, -⟩, -⟩
  -- the host line
  iapply (wp_seq 𝒱 none Set.univ d tcU _ hostOps0 H.sub H.fresh (V0 m d)) $$ [Hb Hheld]
  · isplitl [Hb]; · iexact Hb
    iexact Hheld
  iintro ⟨Hb, Hheld⟩
  -- x, the table and the result array out of the held set, and to the tiles
  ihave Hh := (Entails.of_eq ((show (held (d.tc : Thread nD τ) tcU (after hostOps0 (V0 m d)) : sProp (𝕄 (F := F))) = held (T d) tcU (V1 hostOps0 m d) from rfl).trans <|
    (held_sub_split (T d) S3_sub (V1 hostOps0 m d)).trans
    (congrArg (fun A => iprop(A ∗ held (T d) (tcU \ S3) (V1 hostOps0 m d))) (held_S3 d _)))) $$ Hheld
  icases Hh with ⟨⟨Hx, Hs, Ho⟩, Hrest⟩
  ihave Hd := (dealE (XH hostOps0 m) (SH hostOps0 m) (OH hostOps0 m) d) $$ [Hx Hs Ho]
  · isplitl [Hx]; · iexact Hx
    isplitl [Hs]; · iexact Hs
    iexact Ho
  icases Hd with ⟨HR, Hgo⟩
  simp only [wp_bind, wp_pure]
  -- the call
  iapply ((K (F := F)).wp_run (D (F := F)) 𝒱 (EH := EH) (P := PE (XH hostOps0 m) (SH hostOps0 m) (OH hostOps0 m)) κ d 0) $$ [Hst Hgo Hb HR Hrest]
  isplitr; · iexact Hctx
  isplitl [Hst]; · iexact Hst
  isplitl [Hgo]; · iexact Hgo
  iintro ⟨Hst, Hdn⟩
  ihave Hg := (gatherE (XH hostOps0 m) (SH hostOps0 m) (OH hostOps0 m) d) $$ [HR Hdn]
  · isplitl [HR]; · iexact HR
    iexact Hdn
  icases Hg with ⟨Hx, Hs, %f, Ho⟩
  -- the last reshape, over the set put back
  iapply (wp_hlo_within 𝒱 (SparseCore.T d) none Set.univ (op := opOut) (S := tcU) opOut_sub (V := V2f hostOps0 m d f)) $$ [Hb Hx Hs Ho Hrest]
  · isplitl [Hb]; · iexact Hb
    rw [held_sub_split (T d) S3_sub, held_S3, held_restf, V2f_x, V2f_s, V2f_o]
    isplitr [Hrest]
    · isplitl [Hx]; · iexact Hx
      isplitl [Hs]; · iexact Hs
      iexact Ho
    · iexact Hrest
  iintro ⟨Hb, Hheld⟩
  ihave Hh := (Entails.of_eq ((held_sub_split (T d) S2_sub ((opOut (F := F)).result (V2f hostOps0 m d f))).trans
    (congrArg (fun A => iprop(A ∗ held (T d) (tcU \ S2) ((opOut (F := F)).result (V2f hostOps0 m d f)))) (held_S2 d _)))) $$ Hheld
  icases Hh with ⟨⟨-, Ha⟩, -⟩
  rw [wp_ret]; imodintro; imodintro
  isplitl [Hst]; · iexact Hst
  unfold FINE
  rw [← V3f_arg0 hostOps0 m H d f]
  iexact Ha

def fqE (d : Dev nD) (st : Phys nD τ sig (Elt F)) : Prop :=
  st.mem.mem ((SparseCore.T d : Thread nD τ).loc main_arg0) = m ((SparseCore.T d : Thread nD τ).loc main_arg0)

theorem hfinE (d : Dev nD) (st : Phys nD τ sig (Elt F)) : iprop(FINE m d ∗ SI st) ⊢ (⌜fqE m d st⌝ : sProp (𝕄 (F := F))) := by
  unfold FINE
  iintro ⟨Ha, HSI⟩
  ihave H2 := (SI_pointsTo_agree (st := st) (ℓ := (SparseCore.T d : Thread nD τ).loc main_arg0) (I := Finset.univ) (q := fullShare) (f := m ((SparseCore.T d : Thread nD τ).loc main_arg0))) $$ [HSI Ha]
  · isplitl [HSI] <;> iassumption
  icases H2 with %h2
  ipureintro; exact funext fun i => h2 i (Finset.mem_univ i)

/-- The frame's post: the argument is unchanged. -/
def QCE : PUnit × MemSt nD τ sig (Elt F) → Prop := fun r => ∀ c : Dev nD,
  r.2.mem ((c.tc : Thread nD τ).loc main_arg0) = m ((c.tc : Thread nD τ).loc main_arg0)

include H in
theorem run_mainE [∀ e, Nonempty (Elt F e)] (hbody : ∀ X SC O0, BodySpecE (F := F) X SC O0) :
    θ_run (Cert.Kernel.defs (F := F)) (Cert.Kernel.threads (F := F)) ⟨m, fun _ => 0, ρ⟩ (QCE m) :=
  SparseCore.Cfg.θ_run_sc (K := K (F := F)) (D := D (F := F)) (𝒱 := 𝒱) (EH := EH) (P := PE (XH hostOps0 m) (SH hostOps0 m) (OH hostOps0 m)) facts v₀
    (fun q hq => match q with | 0 => nomatch hq)
    (fun q _ => match q with | 0 => tileOblE _ _ _ (hbody _ _ _))
    (fun q _ => match q with | 0 => SparseCore.Cfg.VecSplit.of_plain (vecSplitE _ _ _))
    m ρ main (fun _ => iprop(emp)) (FINE m) (u₀ (F := F)) (sep_elim_left.trans (hu₀E _ _ _)) (hmainE hostOps0 m ρ H) (fqE m) (hfinE m) (QCE m)
    (fun _ h c => h c)

end RunE

end Cert.Proof.KB

end
-- ==== Proof.KBodyE.lean ====
/-
  From the tile's body at its own resources — three read tokens of x, a read share of the scale table, the four scratch
  buffers, the 32 chunks of the result each at some contents, the seven DMA cells at zero — to the body as the launch
  takes it (at the weaker post): the tile's scoped storage is opened, its share of x is split into three tokens and
  joined back, each buffer is restated through the memref the kernel names it by, and the 32 chunks, pairwise disjoint,
  come back at one contents.
-/
import proofs.«206558_g86277303042394_cont_sun_m_1099_24_alg».proof.Proof.KBodyDefs
import proofs.«206558_g86277303042394_cont_sun_m_1099_24_alg».proof.Proof.KLaunchE

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop pointsTo_toks_split pointsTo_toks_join)

variable {F : FTy → Type} [FloatOps F]

/-- The tile's body at its own resources, at a symbolic place. -/
def TileCore : Prop :=
  ∀ (d : Dev nD) (L : grid0.Coords) (q : PosShare TreeShare) (X : Buf (Elt F) ((xV).view.loc (thr d L))) (SCt : Buf (Elt F) ((sV).view.loc (thr d L)))
    (O : CellTallies nD τ sig (HIx 1)) (W : Waits sig (HIx 1)) (_ : ∀ g, O g none = 0)
    (f0 : Buf (Elt F) ((b0).view.loc (thr d L))) (f1 : Buf (Elt F) ((b1).view.loc (thr d L))) (f2 : Buf (Elt F) ((b2).view.loc (thr d L)))
    (fS : Buf (Elt F) ((bS).view.loc (thr d L))),
    iprop(levAts (K (F := F)).L (K (F := F)).lev
        ∗ ((xV).view.loc (thr d L) ↦{shareTok q 3 0} X) ∗ ((xV).view.loc (thr d L) ↦{shareTok q 3 1} X) ∗ ((xV).view.loc (thr d L) ↦{shareTok q 3 2} X)
        ∗ ((sV).view.loc (thr d L) ↦{q} SCt)
        ∗ ((b0).view.loc (thr d L) ↦{fullShare} f0) ∗ ((b1).view.loc (thr d L) ↦{fullShare} f1) ∗ ((b2).view.loc (thr d L) ↦{fullShare} f2)
        ∗ ((bS).view.loc (thr d L) ↦{fullShare} fS)
        ∗ bigSep Finset.univ (Φc (F := F) d L)
        ∗ semVal (cell d L cc0_scratch4) 0 ∗ semVal (cell d L cc0_scratch5) 0 ∗ semVal (cell d L cc0_scratch6) 0
        ∗ semVal (cell d L cc0_scratch7) 0 ∗ semVal (cell d L cc0_scratch8) 0 ∗ semVal (cell d L cc0_scratch9) 0
        ∗ semVal (cell d L cc0_scoped0) 0
        ∗ owes (thr d L) O W)
      ⊢ wp frame (wpE (defs₀ (F := F)) 𝒱₀ (thr d L) none) Set.univ
          (cc0__sc_dropout L xV (Memref.isWhole_whole _) sV (Memref.isWhole_whole _) oV (Memref.isWhole_whole _)
              b0 (Memref.isWhole_whole _) b1 (Memref.isWhole_whole _) b2 (Memref.isWhole_whole _) bS (Memref.isWhole_whole _)
              cc0_scratch4 cc0_scratch5 cc0_scratch6 cc0_scratch7 cc0_scratch8 cc0_scratch9 cc0_scoped0)
          fun _ => iprop(((xV).view.loc (thr d L) ↦{shareTok q 3 0} X) ∗ ((xV).view.loc (thr d L) ↦{shareTok q 3 1} X) ∗ ((xV).view.loc (thr d L) ↦{shareTok q 3 2} X)
            ∗ ((sV).view.loc (thr d L) ↦{q} SCt)
            ∗ (∃ f, (b0).view.loc (thr d L) ↦{fullShare} f) ∗ (∃ f, (b1).view.loc (thr d L) ↦{fullShare} f) ∗ (∃ f, (b2).view.loc (thr d L) ↦{fullShare} f)
            ∗ (∃ f, (bS).view.loc (thr d L) ↦{fullShare} f)
            ∗ bigSep Finset.univ (Φc (F := F) d L)
            ∗ semVal (cell d L cc0_scratch4) 0 ∗ semVal (cell d L cc0_scratch5) 0 ∗ semVal (cell d L cc0_scratch6) 0
            ∗ semVal (cell d L cc0_scratch7) 0 ∗ semVal (cell d L cc0_scratch8) 0 ∗ semVal (cell d L cc0_scratch9) 0
            ∗ semVal (cell d L cc0_scoped0) 0
            ∗ ∃ W', ⌜∀ p ∈ W', p ∈ W ∨ p.2 = none⌝ ∗ owes (thr d L) O W')

section Wrap

variable (d : Dev nD) (L : grid0.Coords)

omit [FloatOps F] in
/-- A tile's chunks are pairwise disjoint: chunk `j` is rows [off + 32·j, off + 32·j + 32). -/
theorem chunk_disjoint : ∀ j ∈ (Finset.univ : Finset (Fin 32)), ∀ j' ∈ (Finset.univ : Finset (Fin 32)), j ≠ j' →
    Disjoint (oChunk L j).view.set (oChunk L j').view.set := by
  intro j _ j' _ hne
  show Disjoint ((View.whole (main_v16_scv : Ref sig .scVector)).slice (rectC L j)).set ((View.whole (main_v16_scv : Ref sig .scVector)).slice (rectC L j')).set
  rw [View.set_slice_whole, View.set_slice_whole]
  refine Rect.unit_disjoint 0 ?_
  have e (j : Fin 32) : offC L j 0 = 2048 * (L 1).val + 1024 * (L 0).val + 32 * j.val := rfl
  have z0 : S32x1024.size 0 = 32 := rfl
  rw [e, e, z0]
  have : j.val ≠ j'.val := fun h => hne (Fin.ext h)
  omega

/-- The 32 chunks, each at some contents, are the 32 chunks at one contents. -/
theorem tile_chunks_join :
    (bigSep Finset.univ (Φc (F := F) d L)) ⊢ iprop(∃ f, bigSep Finset.univ fun j : Fin 32 => (oLoc d ↦[(oChunk L j).view.set]{fullShare} f : sProp (𝕄 (F := F)))) := by
  refine (show (bigSep Finset.univ (Φc (F := F) d L)) ⊢ bigSep Finset.univ fun j : Fin 32 => iprop(∃ f, (oLoc d ↦[(oChunk L j).view.set]{fullShare} f : sProp (𝕄 (F := F)))) from
    Entails.of_eq (bigSep_congr fun j _ => by unfold Φc; rfl)).trans ?_
  refine (bigSep_exists_pi Finset.univ (fun (j : Fin 32) (g : Buf (Elt F) (oLoc d)) => (oLoc d ↦[(oChunk L j).view.set]{fullShare} g : sProp (𝕄 (F := F))))).trans ?_
  iintro ⟨%fs, H⟩
  ihave H' := (pointsTo_biUnion_join Finset.univ (fun j : Fin 32 => (oChunk L j).view.set) fs (fs 0) (chunk_disjoint L)) $$ H
  icases H' with ⟨%g, -, Hg⟩
  iexists g
  ihave Hg' := (Entails.of_eq (pointsTo_biUnion (q := fullShare) (f := g) Finset.univ (ℓ := oLoc d) (fun j : Fin 32 => (oChunk L j).view.set) (chunk_disjoint L))) $$ Hg
  iexact Hg'

omit [FloatOps F] in
/-- The 32 chunks at one contents are each at some contents. -/
theorem tile_chunks_open (f : Buf (Elt F) (oLoc d)) :
    (bigSep Finset.univ fun j : Fin 32 => (oLoc d ↦[(oChunk L j).view.set]{fullShare} f : sProp (𝕄 (F := F)))) ⊢ bigSep Finset.univ (Φc (F := F) d L) :=
  bigSep_mono fun j _ => by
    show (oLoc d ↦[(oChunk L j).view.set]{fullShare} f : sProp (𝕄 (F := F))) ⊢ iprop(∃ g, (oChunk L j).view.loc (thr d L) ↦[(oChunk L j).view.set]{fullShare} g)
    iintro H; iexists f; iexact H

omit [FloatOps F] in
theorem bigSep_fin3 (Φ : Fin 3 → sProp (𝕄 (F := F))) : bigSep Finset.univ Φ = iprop(Φ 0 ∗ Φ 1 ∗ Φ 2) := by
  rw [show (Finset.univ : Finset (Fin 3)) = {0, 1, 2} by decide, SparseCore.bigSep_insert' (by decide), SparseCore.bigSep_insert' (by decide), bigSep_singleton]

end Wrap

/-- The body as the launch takes it, from the body at the tile's own resources. -/
theorem bodySpecE_of_core (hcore : TileCore (F := F)) : ∀ X SC O0, BodySpecE (F := F) X SC O0 := by
  intro X SC O0 d L O W hO
  rw [(K (F := F)).scopedBufs_V facts d (cV L) (jV L), SparseCore.Cfg.scopedSems0_V (Val := Elt F) d (cV L) (jV L), ownSems0_V d L, ownBufs_V d L]
  unfold goL tdLE tileRes
  iintro ⟨#Hlv, -, ⟨Hx, Hs, Ho⟩, ⟨⟨%f0, H0⟩, ⟨%f1, H1⟩, ⟨%f2, H2⟩, ⟨%fS, HS⟩, Hbufs⟩, ⟨Hc4, Hc5, Hc6, Hc7, Hc8, Hc9, Hc0, Hsems⟩, HO⟩
  -- the tile's share of x as three tokens and a remainder; its chunks each at some contents
  ihave Hx' := (pointsTo_toks_split (qT L) 3) $$ Hx
  icases Hx' with ⟨Hxr, Hxt⟩
  ihave Hxt' := (Entails.of_eq (bigSep_fin3 (F := F) fun i : Fin 3 => (xLoc d ↦{shareTok (qT L) 3 i} X d))) $$ Hxt
  icases Hxt' with ⟨Hx0, Hx1, Hx2⟩
  ihave Hch := (tile_chunks_open d L (O0 d)) $$ Ho
  iapply (wp_wand_r frame _ _)
  isplitl [Hx0 Hx1 Hx2 Hs H0 H1 H2 HS Hch Hc4 Hc5 Hc6 Hc7 Hc8 Hc9 Hc0 HO]
  · iapply (hcore d L (qT L) (X d) (SC d) O W hO f0 f1 f2 fS)
    isplitr; · iexact Hlv
    isplitl [Hx0]; · iexact Hx0
    isplitl [Hx1]; · iexact Hx1
    isplitl [Hx2]; · iexact Hx2
    isplitl [Hs]; · iexact Hs
    isplitl [H0]; · iexact H0
    isplitl [H1]; · iexact H1
    isplitl [H2]; · iexact H2
    isplitl [HS]; · iexact HS
    isplitl [Hch]; · iexact Hch
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc0]; · iexact Hc0
    iexact HO
  iintro %_ ⟨Hx0, Hx1, Hx2, Hs, H0, H1, H2, HS, Hch, Hc4, Hc5, Hc6, Hc7, Hc8, Hc9, Hc0, HO⟩
  -- the tokens joined back, the chunks at one contents
  ihave Hj := (tile_chunks_join d L) $$ Hch
  icases Hj with ⟨%f, Ho⟩
  isplitl [Hxr Hx0 Hx1 Hx2 Hs Ho]
  · iexists f
    isplitl [Hxr Hx0 Hx1 Hx2]
    · iapply (pointsTo_toks_join (qT L) 3)
      isplitl [Hxr]; · iexact Hxr
      rw [bigSep_fin3]
      isplitl [Hx0]; · iexact Hx0
      isplitl [Hx1]; · iexact Hx1
      iexact Hx2
    isplitl [Hs]; · iexact Hs
    iexact Ho
  isplitl [H0 H1 H2 HS Hbufs]
  · isplitl [H0]; · iexact H0
    isplitl [H1]; · iexact H1
    isplitl [H2]; · iexact H2
    isplitl [HS]; · iexact HS
    iexact Hbufs
  isplitl [Hc4 Hc5 Hc6 Hc7 Hc8 Hc9 Hc0 Hsems]
  · isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc0]; · iexact Hc0
    iexact Hsems
  iexact HO

end Cert.Proof.KB

end
-- ==== Proof.KFrame.lean ====
/-
  The frame of the dropout kernel's program, from the tile's body at its own resources: the host
  operations before the call have the facts the run asks of them; the body, wrapped as the launch's obligation, gives
  the run; every weakly fair execution terminates and the argument's buffer is unchanged, from any launch memory.
-/
import proofs.«206558_g86277303042394_cont_sun_m_1099_24_alg».proof.Proof.KHost
import proofs.«206558_g86277303042394_cont_sun_m_1099_24_alg».proof.Proof.KBodyE
import proofs.«206558_g86277303042394_cont_sun_m_1099_24_alg».proof.Proof.Gen.Pre_finite_inputs

noncomputable section

namespace Cert.Proof.KB

open Cert.Kernel Cert.Kernel.Gen

open Idealize.ShloMosaic
open Idealize.SL.Sem

variable {F : FTy → Type} [FloatOps F]

/-- The host operations before the call have what the run asks of them. -/
theorem hostFacts : HostFacts (F := F) (Cert.KHost.hostOps0 (F := F)) :=
  ⟨Cert.KHost.main_eq, Cert.KHost.hostOps0_fresh, fun op h => (Cert.KHost.hostOps0_sub op h).trans tcRefs_sub,
    Cert.KHost.after_arg0⟩

/-- The program runs and leaves its argument unchanged, given the tile's body. -/
theorem frame_of_core [∀ e, Nonempty (Elt F e)] (hcore : TileCore (F := F)) (m : (ℓ : Loc nD τ sig) → Buf (Elt F) ℓ) (ρ : Dev nD → PrngReg) :
    θ_run (Cert.Kernel.defs (F := F)) (Cert.Kernel.threads (F := F)) ⟨m, fun _ => 0, ρ⟩
      (fun r => ∀ c : Dev nD, r.2.mem ((c.tc : Thread nD τ).loc main_arg0) = m ((c.tc : Thread nD τ).loc main_arg0)) :=
  run_mainE _ m ρ hostFacts (bodySpecE_of_core hcore)

/-- The same with the result: the result buffer holds the call's result reshaped. -/
theorem run_of_body [∀ e, Nonempty (Elt F e)] (hbody : ∀ X SC O0, BodySpec (F := F) X SC O0) (m : (ℓ : Loc nD τ sig) → Buf (Elt F) ℓ) (ρ : Dev nD → PrngReg) :
    θ_run (Cert.Kernel.defs (F := F)) (Cert.Kernel.threads (F := F)) ⟨m, fun _ => 0, ρ⟩ (QC (Cert.KHost.hostOps0 (F := F)) m) :=
  run_main _ m ρ hostFacts hbody

/-- The frame claim of the program. -/
theorem frame_Kernel' (hcore : TileCore (F := Bits)) :
    Cert.frame_Kernel (hKernel := Cert.Kernel.Gen.facts) (hPre_finite_inputs := Cert.Pre_finite_inputs.Gen.facts) :=
  fun m ρ _ => frame_of_core hcore m ρ

end Cert.Proof.KB

end
-- ==== Proof.KIClaim.lean ====
/-
  The certificate's claim from four statements about the two programs: the tile's body at its own resources (at the
  bit-exact and at the ideal instance), the tile's body at the valued post (ideal instance), and the value equation
  between the kernel's and the reference's result terms. They give the five conjuncts: the three frames (each program
  runs, every weakly fair execution terminating, its argument unchanged), the idealization (no operation was
  rewritten: nothing to state), and the algebraic claim.
-/
import proofs.«206558_g86277303042394_cont_sun_m_1099_24_alg».proof.Defs
import proofs.«206558_g86277303042394_cont_sun_m_1099_24_alg».proof.Proof.KFrame
import proofs.«206558_g86277303042394_cont_sun_m_1099_24_alg».proof.Proof.KIAlgebraic
import proofs.«206558_g86277303042394_cont_sun_m_1099_24_alg».proof.Proof.Gen.Kernel
import proofs.«206558_g86277303042394_cont_sun_m_1099_24_alg».proof.Proof.Gen.KernelIdeal
import proofs.«206558_g86277303042394_cont_sun_m_1099_24_alg».proof.Proof.Gen.ReferenceIdeal
import proofs.«206558_g86277303042394_cont_sun_m_1099_24_alg».proof.Proof.Gen.Pre_finite_inputs

noncomputable section

namespace Cert.Proof

open Idealize.ShloMosaic Idealize.SL.Sem

theorem claim_of (hcoreB : KB.TileCore (F := Bits)) (hcoreI : KI.TileCore (F := Ideal))
    (hbody : ∀ X SC O0, KI.BodySpec (F := Ideal) X SC O0) (hval : KI.ValEq) : Cert.Claim :=
  ⟨Cert.Kernel.Gen.facts, Cert.KernelIdeal.Gen.facts, Cert.ReferenceIdeal.Gen.facts, Cert.Pre_finite_inputs.Gen.facts,
    KB.frame_Kernel' hcoreB, KI.frame_KernelIdeal' hcoreI, KI.frame_ReferenceIdeal', trivial, KI.algebraic' hbody hval⟩

end Cert.Proof

end
-- ==== Proof.KGroupDefs.lean ====
import proofs.«206558_g86277303042394_cont_sun_m_1099_24_alg».proof.Proof.KBodyDefs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

variable (d : Dev nD) (L : grid0.Coords)

/-! ## The tile between two groups of three chunks

When group `g` begins, the copies into slots 0 and 1 (chunks 3g and 3g+1) are in flight; slot 2 is free at the first
group and afterwards still being copied out (chunk 3g−1); every other chunk of the result is held. -/

theorem inFlight_fold (sm : DmaSems sig S_) (b : Memref sig .scVector .vmem S32x1024 .f32) (t : PosShare TreeShare)
    (X : Buf (Elt F) ((xV).view.loc (thr d L))) (I : Finset (Idx ((xV).view.loc (thr d L)))) (f : Buf (Elt F) (b.view.loc (thr d L))) :
    (iprop(Transfers.Flight countersEmb (thr d L) (SemLoc.dma sm.sem) default 1048576
        iprop((b.view.loc (thr d L) ↦{fullShare} f) ∗ ((xV).view.loc (thr d L) ↦[I]{t} X))
      ∗ ((xV).view.loc (thr d L) ↦[Finset.univ \ I]{t} X)) : sProp (𝕄 (F := F))) ⊢ InFlight d L sm b t X := by
  unfold InFlight
  iintro ⟨Hf, Hr⟩
  iexists I, f
  isplitl [Hf]
  · iexact Hf
  · iexact Hr

theorem inFlight_open (sm : DmaSems sig S_) (b : Memref sig .scVector .vmem S32x1024 .f32) (t : PosShare TreeShare)
    (X : Buf (Elt F) ((xV).view.loc (thr d L))) :
    InFlight (F := F) d L sm b t X ⊢ iprop(∃ (I : Finset (Idx ((xV).view.loc (thr d L)))) (f : Buf (Elt F) (b.view.loc (thr d L))),
      Transfers.Flight countersEmb (thr d L) (SemLoc.dma sm.sem) default 1048576
          iprop((b.view.loc (thr d L) ↦{fullShare} f) ∗ ((xV).view.loc (thr d L) ↦[I]{t} X))
        ∗ ((xV).view.loc (thr d L) ↦[Finset.univ \ I]{t} X)) := by
  unfold InFlight; exact Entails.rfl

theorem outFlight_open (sm : DmaSems sig S_) (b : Memref sig .scVector .vmem S32x1024 .f32) (j : Fin 32) :
    OutFlight (F := F) d L sm b j ⊢ iprop(∃ (fo : Buf (Elt F) ((oChunk L j).view.loc (thr d L))) (f : Buf (Elt F) (b.view.loc (thr d L))),
      Transfers.Flight countersEmb (thr d L) (SemLoc.dma sm.sem) default 1048576
          iprop(((oChunk L j).view.loc (thr d L) ↦[(oChunk L j).view.set]{fullShare} fo) ∗ (b.view.loc (thr d L) ↦[b.view.set]{fullShare} f))
        ∗ (b.view.loc (thr d L) ↦[Finset.univ \ b.view.set]{fullShare} f)) := by
  unfold OutFlight; exact Entails.rfl

/-- Slot 2 and the chunks held, when group `g` begins. -/
def Slot2 (g : ℕ) : sProp (𝕄 (F := F)) :=
  if g = 0 then iprop((∃ f, (b2).view.loc (thr d L) ↦{fullShare} f) ∗ semVal (cell d L cc0_scratch9) 0 ∗ bigSep Finset.univ (Φc d L))
  else iprop(OutFlight d L cc0_scratch9 b2 (fl g) ∗ bigSep (Finset.univ.erase (fl g)) (Φc d L))

theorem Slot2_zero {g : ℕ} (h : g = 0) : Slot2 (F := F) d L g
    = iprop((∃ f, (b2).view.loc (thr d L) ↦{fullShare} f) ∗ semVal (cell d L cc0_scratch9) 0 ∗ bigSep Finset.univ (Φc d L)) := if_pos h
theorem Slot2_pos {g : ℕ} (h : ¬ g = 0) : Slot2 (F := F) d L g
    = iprop(OutFlight d L cc0_scratch9 b2 (fl g) ∗ bigSep (Finset.univ.erase (fl g)) (Φc d L)) := if_neg h
theorem Slot2_succ (g : Fin k0_t1_loop.trips) : Slot2 (F := F) d L (g.val + 1)
    = iprop(OutFlight d L cc0_scratch9 b2 (ch g 2) ∗ bigSep (Finset.univ.erase (ch g 2)) (Φc d L)) := by
  rw [Slot2_pos d L (Nat.succ_ne_zero _), fl_succ]

/-- The tile when group `g` begins. -/
def inv1 (q : PosShare TreeShare) (X : Buf (Elt F) ((xV).view.loc (thr d L)))
    (O : CellTallies nD τ sig (HIx 1)) (W : Waits sig (HIx 1)) (g : ℕ) (_ : PUnit) : sProp (𝕄 (F := F)) :=
  iprop(Transfers.MayWaits (thr d L) none O
    ∗ InFlight d L cc0_scratch4 b0 (shareTok q 3 0) X
    ∗ InFlight d L cc0_scratch5 b1 (shareTok q 3 1) X
    ∗ ((xV).view.loc (thr d L) ↦{shareTok q 3 2} X) ∗ semVal (cell d L cc0_scratch6) 0
    ∗ Slot2 d L g
    ∗ semVal (cell d L cc0_scratch7) 0 ∗ semVal (cell d L cc0_scratch8) 0
    ∗ (∃ fS, (bS).view.loc (thr d L) ↦{fullShare} fS)
    ∗ ∃ W', ⌜∀ p ∈ W', p ∈ W ∨ p.2 = none⌝ ∗ owes (thr d L) O W')

/-- Three chunks taken out of a held set and put back (the third stays out). -/
theorem regroup (S : Finset (Fin 32)) (j0 j1 j2 : Fin 32) (h0 : j0 ∈ S) (h1 : j1 ∈ S) (h01 : j0 ≠ j1) (h02 : j0 ≠ j2) (h12 : j1 ≠ j2) :
    (iprop(Φc d L j0 ∗ Φc d L j1 ∗ bigSep (((S.erase j0).erase j1).erase j2) (Φc d L)) : sProp (𝕄 (F := F))) = bigSep (S.erase j2) (Φc d L) := by
  have e : ((S.erase j0).erase j1).erase j2 = ((S.erase j2).erase j0).erase j1 := by
    ext x; simp only [Finset.mem_erase]; tauto
  rw [e, ← SparseCore.bigSep_erase' (Finset.mem_erase.mpr ⟨h01.symm, Finset.mem_erase.mpr ⟨h12, h1⟩⟩),
    ← SparseCore.bigSep_erase' (Finset.mem_erase.mpr ⟨h02, h0⟩)]

end Cert.Proof.KB

end
-- ==== Proof.KGroup.lean ====
import proofs.«206558_g86277303042394_cont_sun_m_1099_24_alg».proof.Proof.KGroupDefs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

variable (d : Dev nD) (L : grid0.Coords)

theorem waits_ok {W W' : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with hp | hp
  · exact .inr (hp ▸ rfl)
  · exact h p hp

/-! ## One group: three chunks scaled and sent out, the next three requested -/

theorem group_trip (q : PosShare TreeShare) (X : Buf (Elt F) ((xV).view.loc (thr d L)))
    (O : CellTallies nD τ sig (HIx 1)) (W : Waits sig (HIx 1)) (v2 : BitVec 32) (k : Fin k0_t1_loop.trips) (acc : PUnit) :
    inv1 (F := F) d L q X O W k.val acc
      ⊢ wp frame (wpE (defs₀ (F := F)) 𝒱₀ (thr d L) none) Set.univ
          (k0_t1_body L xV (Memref.isWhole_whole _) sV (Memref.isWhole_whole _) oV (Memref.isWhole_whole _)
              b0 (Memref.isWhole_whole _) b1 (Memref.isWhole_whole _) b2 (Memref.isWhole_whole _) bS (Memref.isWhole_whole _)
              cc0_scratch4 cc0_scratch5 cc0_scratch6 cc0_scratch7 cc0_scratch8 cc0_scratch9 cc0_scoped0 v2 k acc)
          (inv1 d L q X O W (k.val + 1)) := by
  have hc1z : k.val = 0 → ¬ k0_cond1 k = 1#1 := by revert k; decide
  have hc1p : ¬ k.val = 0 → k0_cond1 k = 1#1 := by revert k; decide
  have k0_h2 : k0_cond2 k = 1#1 := by revert k; decide
  have k0_h3 : k0_cond3 k = 1#1 := by revert k; decide
  have k0_h4 : k0_cond4 k = 1#1 := by revert k; decide
  have k0_h5 : k0_cond5 k = 1#1 := by revert k; decide
  have k0_h6 : k0_cond6 k = 1#1 := by revert k; decide
  have e0 : k0_off3 L k 0#32 = offC L (ch k 0) := off3_eq L k 0
  have e1 : k0_off3 L k 1#32 = offC L (ch k 1) := off3_eq L k 1
  have e2 : k0_off3 L k 2#32 = offC L (ch k 2) := off3_eq L k 2
  unfold inv1
  rw [Slot2_succ]
  delta k0_t1_body
  rw [k0_part76_eq_skeleton]; delta k0_part76_skel
  by_cases hk : k.val = 0
  · have k0_h1 : ¬ k0_cond1 k = 1#1 := hc1z hk
    rw [Slot2_zero d L hk]
    iintro ⟨Hmw, Hin0, Hin1, Hx2, Hi2, ⟨⟨%f2, H2⟩, Ho2, Hout⟩, Ho0, Ho1, ⟨%fS, HS⟩, %W', %hW', HO⟩
    ihave Hin0' := (inFlight_open d L cc0_scratch4 b0 _ X) $$ Hin0
    icases Hin0' with ⟨%I0, %f0, Hi0, Hx0⟩
    ihave Hin1' := (inFlight_open d L cc0_scratch5 b1 _ X) $$ Hin1
    icases Hin1' with ⟨%I1, %f1, Hi1, Hx1⟩

    -- the group's three chunks, out of the held set, spelt as the kernel slices them
    ihave Hout' := (Entails.of_eq (SparseCore.bigSep_erase' (s := (Finset.univ : Finset (Fin 32))) (i := ch k 0) (Φ := Φc (F := F) d L) (Finset.mem_univ _))) $$ Hout
    icases Hout' with ⟨Hc0, Hout⟩
    ihave Hout' := (Entails.of_eq (SparseCore.bigSep_erase' (s := (Finset.univ : Finset (Fin 32)).erase (ch k 0)) (i := ch k 1) (Φ := Φc (F := F) d L) (Finset.mem_erase.mpr ⟨(ch_ne k (by decide : (1 : Fin 3) ≠ 0)), Finset.mem_univ _⟩))) $$ Hout
    icases Hout' with ⟨Hc1, Hout⟩
    ihave Hout' := (Entails.of_eq (SparseCore.bigSep_erase' (s := ((Finset.univ : Finset (Fin 32)).erase (ch k 0)).erase (ch k 1)) (i := ch k 2) (Φ := Φc (F := F) d L) (Finset.mem_erase.mpr ⟨(ch_ne k (by decide : (2 : Fin 3) ≠ 1)), Finset.mem_erase.mpr ⟨(ch_ne k (by decide : (2 : Fin 3) ≠ 0)), Finset.mem_univ _⟩⟩))) $$ Hout
    icases Hout' with ⟨Hc2, Hout⟩
    ihave Hc0' := (chunk_unfold d L (k0_off3_inb L k 0) (ch k 0) e0) $$ Hc0
    icases Hc0' with ⟨%fo0, Hc0⟩
    ihave Hc1' := (chunk_unfold d L (k0_off3_inb L k 1) (ch k 1) e1) $$ Hc1
    icases Hc1' with ⟨%fo1, Hc1⟩
    ihave Hc2' := (chunk_unfold d L (k0_off3_inb L k 2) (ch k 2) e2) $$ Hc2
    icases Hc2' with ⟨%fo2, Hc2⟩
    sl_exec (disch := first | exact View.amount_pos _ _ (show 0 < S128x128.numel by decide) | exact View.amount_pos _ _ (show 0 < S32x1024.numel by decide))
    sl_rw [bind_assoc]

    sl_for (invB d L b0 fS) $$ [Hi0_dst HS]
    case region =>
      intro k' acc'
      sl_respell []
      exact loopStep2 d L fS _ _ _ _ _ k' acc'
    · unfold invB
      isplitl [Hi0_dst]
      · iexists _; iexact Hi0_dst
      · iexact HS
    iintro %_ HI
    unfold invB
    icases HI with ⟨⟨%Gb0, Hbb0⟩, HS⟩
    sl_exec (disch := first | exact View.amount_pos _ _ (show 0 < S128x128.numel by decide) | exact View.amount_pos _ _ (show 0 < S32x1024.numel by decide))

    sl_for (invB d L b1 fS) $$ [Hi1_dst HS]
    case region =>
      intro k' acc'
      sl_respell []
      exact loopStep3 d L fS _ _ _ _ _ _ k' acc'
    · unfold invB
      isplitl [Hi1_dst]
      · iexists _; iexact Hi1_dst
      · iexact HS
    iintro %_ HI
    unfold invB
    icases HI with ⟨⟨%Gb1, Hbb1⟩, HS⟩
    sl_exec (disch := first | exact View.amount_pos _ _ (show 0 < S128x128.numel by decide) | exact View.amount_pos _ _ (show 0 < S32x1024.numel by decide))

    sl_for (invB d L b2 fS) $$ [H2 HS]
    case region =>
      intro k' acc'
      sl_respell []
      exact loopStep4 d L fS _ _ _ _ _ _ _ k' acc'
    · unfold invB
      isplitl [H2]
      · iexists _; iexact H2
      · iexact HS
    iintro %_ HI
    unfold invB
    icases HI with ⟨⟨%Gb2, Hbb2⟩, HS⟩

    sl_exec (disch := first | exact View.amount_pos _ _ (show 0 < S128x128.numel by decide) | exact View.amount_pos _ _ (show 0 < S32x1024.numel by decide))
    sl_step
    isplitl [Hmw]
    · iexact Hmw
    isplitl [Hi0 Hx0]
    · iapply (inFlight_fold d L cc0_scratch4 b0 _ X _ _)
      isplitl [Hi0]
      · iexact Hi0
      · iexact Hx0
    isplitl [Hi1 Hx1]
    · iapply (inFlight_fold d L cc0_scratch5 b1 _ X _ _)
      isplitl [Hi1]
      · iexact Hi1
      · iexact Hx1
    isplitl [Hx2]
    · iexact Hx2
    isplitl [Hi2]
    · iexact Hi2
    isplitl [Ho2 Hbb2 Hc0 Hc1 Hout]
    · isplitl [Ho2 Hbb2]
      · iapply (outFlight_fold d L cc0_scratch9 b2 (k0_off3_inb L k 2) (ch k 2) e2 _ _)
        isplitl [Ho2]
        · iexact Ho2
        · iexact Hbb2
      · ihave Hd0 := (chunk_fold d L (k0_off3_inb L k 0) (ch k 0) e0 _) $$ Hc0
        ihave Hd1 := (chunk_fold d L (k0_off3_inb L k 1) (ch k 1) e1 _) $$ Hc1
        iapply (Entails.of_eq (regroup d L Finset.univ (ch k 0) (ch k 1) (ch k 2) (Finset.mem_univ _) (Finset.mem_univ _)
          (ch_ne k (by decide : (0 : Fin 3) ≠ 1)) (ch_ne k (by decide : (0 : Fin 3) ≠ 2)) (ch_ne k (by decide : (1 : Fin 3) ≠ 2))))
        isplitl [Hd0]
        · iexact Hd0
        isplitl [Hd1]
        · iexact Hd1
        · iexact Hout
    isplitl [Ho0]
    · iexact Ho0
    isplitl [Ho1]
    · iexact Ho1
    isplitl [HS]
    · iexists _; iexact HS
    iexists _
    isplitr
    rotate_left
    · iexact HO
    · ipureintro
      exact waits_ok (waits_ok (waits_ok (waits_ok (waits_ok hW' _) _) _) _) _
  · have k0_h1 : k0_cond1 k = 1#1 := hc1p hk
    rw [Slot2_pos d L hk]
    iintro ⟨Hmw, Hin0, Hin1, Hx2, Hi2, ⟨Hof2, Hout⟩, Ho0, Ho1, ⟨%fS, HS⟩, %W', %hW', HO⟩
    ihave Hin0' := (inFlight_open d L cc0_scratch4 b0 _ X) $$ Hin0
    icases Hin0' with ⟨%I0, %f0, Hi0, Hx0⟩
    ihave Hin1' := (inFlight_open d L cc0_scratch5 b1 _ X) $$ Hin1
    icases Hin1' with ⟨%I1, %f1, Hi1, Hx1⟩
    ihave Hof2' := (outFlight_open d L cc0_scratch9 b2 (fl k.val)) $$ Hof2
    icases Hof2' with ⟨%fo9, %f2, Ho2, H2⟩

    -- the group's three chunks, out of the held set, spelt as the kernel slices them
    ihave Hout' := (Entails.of_eq (SparseCore.bigSep_erase' (s := ((Finset.univ : Finset (Fin 32)).erase (fl k.val))) (i := ch k 0) (Φ := Φc (F := F) d L) (Finset.mem_erase.mpr ⟨(fl_ne_ch k 0).symm, Finset.mem_univ _⟩))) $$ Hout
    icases Hout' with ⟨Hc0, Hout⟩
    ihave Hout' := (Entails.of_eq (SparseCore.bigSep_erase' (s := ((Finset.univ : Finset (Fin 32)).erase (fl k.val)).erase (ch k 0)) (i := ch k 1) (Φ := Φc (F := F) d L) (Finset.mem_erase.mpr ⟨(ch_ne k (by decide : (1 : Fin 3) ≠ 0)), Finset.mem_erase.mpr ⟨(fl_ne_ch k 1).symm, Finset.mem_univ _⟩⟩))) $$ Hout
    icases Hout' with ⟨Hc1, Hout⟩
    ihave Hout' := (Entails.of_eq (SparseCore.bigSep_erase' (s := (((Finset.univ : Finset (Fin 32)).erase (fl k.val)).erase (ch k 0)).erase (ch k 1)) (i := ch k 2) (Φ := Φc (F := F) d L) (Finset.mem_erase.mpr ⟨(ch_ne k (by decide : (2 : Fin 3) ≠ 1)), Finset.mem_erase.mpr ⟨(ch_ne k (by decide : (2 : Fin 3) ≠ 0)), Finset.mem_erase.mpr ⟨(fl_ne_ch k 2).symm, Finset.mem_univ _⟩⟩⟩))) $$ Hout
    icases Hout' with ⟨Hc2, Hout⟩
    ihave Hc0' := (chunk_unfold d L (k0_off3_inb L k 0) (ch k 0) e0) $$ Hc0
    icases Hc0' with ⟨%fo0, Hc0⟩
    ihave Hc1' := (chunk_unfold d L (k0_off3_inb L k 1) (ch k 1) e1) $$ Hc1
    icases Hc1' with ⟨%fo1, Hc1⟩
    ihave Hc2' := (chunk_unfold d L (k0_off3_inb L k 2) (ch k 2) e2) $$ Hc2
    icases Hc2' with ⟨%fo2, Hc2⟩
    sl_exec (disch := first | exact View.amount_pos _ _ (show 0 < S128x128.numel by decide) | exact View.amount_pos _ _ (show 0 < S32x1024.numel by decide))
    sl_rw [bind_assoc]

    sl_for (invB d L b0 fS) $$ [Hi0_dst HS]
    case region =>
      intro k' acc'
      sl_respell []
      exact loopStep2 d L fS _ _ _ _ _ k' acc'
    · unfold invB
      isplitl [Hi0_dst]
      · iexists _; iexact Hi0_dst
      · iexact HS
    iintro %_ HI
    unfold invB
    icases HI with ⟨⟨%Gb0, Hbb0⟩, HS⟩
    sl_exec (disch := first | exact View.amount_pos _ _ (show 0 < S128x128.numel by decide) | exact View.amount_pos _ _ (show 0 < S32x1024.numel by decide))

    sl_for (invB d L b1 fS) $$ [Hi1_dst HS]
    case region =>
      intro k' acc'
      sl_respell []
      exact loopStep3 d L fS _ _ _ _ _ _ k' acc'
    · unfold invB
      isplitl [Hi1_dst]
      · iexists _; iexact Hi1_dst
      · iexact HS
    iintro %_ HI
    unfold invB
    icases HI with ⟨⟨%Gb1, Hbb1⟩, HS⟩
    sl_exec (disch := first | exact View.amount_pos _ _ (show 0 < S128x128.numel by decide) | exact View.amount_pos _ _ (show 0 < S32x1024.numel by decide))

    sl_for (invB d L b2 fS) $$ [H2 HS]
    case region =>
      intro k' acc'
      sl_respell []
      exact loopStep4 d L fS _ _ _ _ _ _ _ k' acc'
    · unfold invB
      isplitl [H2]
      · iexists _; iexact H2
      · iexact HS
    iintro %_ HI
    unfold invB
    icases HI with ⟨⟨%Gb2, Hbb2⟩, HS⟩
    ihave Hca := (show ((oChunk L (fl k.val)).view.loc (thr d L) ↦[(oChunk L (fl k.val)).view.set]{fullShare} _ : sProp (𝕄 (F := F))) ⊢ Φc d L (fl k.val) from by
      unfold Φc; iintro H; iexists _; iexact H) $$ Ho2_dst

    sl_exec (disch := first | exact View.amount_pos _ _ (show 0 < S128x128.numel by decide) | exact View.amount_pos _ _ (show 0 < S32x1024.numel by decide))
    sl_step
    isplitl [Hmw]
    · iexact Hmw
    isplitl [Hi0 Hx0]
    · iapply (inFlight_fold d L cc0_scratch4 b0 _ X _ _)
      isplitl [Hi0]
      · iexact Hi0
      · iexact Hx0
    isplitl [Hi1 Hx1]
    · iapply (inFlight_fold d L cc0_scratch5 b1 _ X _ _)
      isplitl [Hi1]
      · iexact Hi1
      · iexact Hx1
    isplitl [Hx2]
    · iexact Hx2
    isplitl [Hi2]
    · iexact Hi2
    isplitl [Ho2 Hbb2 Hc0 Hc1 Hout Hca]
    · isplitl [Ho2 Hbb2]
      · iapply (outFlight_fold d L cc0_scratch9 b2 (k0_off3_inb L k 2) (ch k 2) e2 _ _)
        isplitl [Ho2]
        · iexact Ho2
        · iexact Hbb2
      · ihave Hd0 := (chunk_fold d L (k0_off3_inb L k 0) (ch k 0) e0 _) $$ Hc0
        ihave Hd1 := (chunk_fold d L (k0_off3_inb L k 1) (ch k 1) e1 _) $$ Hc1
        iapply (Entails.of_eq (swap_chunk d L (fl k.val) (ch k 2) (fl_ne_ch k 2)))
        isplitl [Hca]
        · iexact Hca
        iapply (Entails.of_eq (regroup d L (Finset.univ.erase (fl k.val)) (ch k 0) (ch k 1) (ch k 2)
          (Finset.mem_erase.mpr ⟨(fl_ne_ch k 0).symm, Finset.mem_univ _⟩) (Finset.mem_erase.mpr ⟨(fl_ne_ch k 1).symm, Finset.mem_univ _⟩)
          (ch_ne k (by decide : (0 : Fin 3) ≠ 1)) (ch_ne k (by decide : (0 : Fin 3) ≠ 2)) (ch_ne k (by decide : (1 : Fin 3) ≠ 2))))
        isplitl [Hd0]
        · iexact Hd0
        isplitl [Hd1]
        · iexact Hd1
        · iexact Hout
    isplitl [Ho0]
    · iexact Ho0
    isplitl [Ho1]
    · iexact Ho1
    isplitl [HS]
    · iexists _; iexact HS
    iexists _
    isplitr
    rotate_left
    · iexact HO
    · ipureintro
      exact waits_ok (waits_ok (waits_ok (waits_ok (waits_ok (waits_ok hW' _) _) _) _) _) _

end Cert.Proof.KB

end
-- ==== Proof.KCore.lean ====
import proofs.«206558_g86277303042394_cont_sun_m_1099_24_alg».proof.Proof.KGroup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

variable (d : Dev nD) (L : grid0.Coords)

/-! ## The whole tile: scale table in, two copies requested, ten groups, the last two chunks, the drain -/

theorem off2_960 : ∀ L : grid0.Coords, k0_off2 L 960#32 = offC L 30 := by decide +kernel
theorem off2_992 : ∀ L : grid0.Coords, k0_off2 L 992#32 = offC L 31 := by decide +kernel

theorem trips1_eq : Scf.trips k0_t1_loop.lb k0_t1_loop.ub k0_t1_loop.st = 10 := by decide

/-- All chunks back: the one whose copy out the last group left in flight and the last two. -/
theorem regroup_all (a j0 j1 : Fin 32) (ha0 : a ≠ j0) (ha1 : a ≠ j1) (h01 : j0 ≠ j1) :
    (iprop(Φc d L a ∗ Φc d L j0 ∗ Φc d L j1 ∗ bigSep (((Finset.univ.erase a).erase j0).erase j1) (Φc d L)) : sProp (𝕄 (F := F)))
      = bigSep Finset.univ (Φc d L) := by
  rw [← SparseCore.bigSep_erase' (Finset.mem_erase.mpr ⟨h01.symm, Finset.mem_erase.mpr ⟨ha1.symm, Finset.mem_univ _⟩⟩),
    ← SparseCore.bigSep_erase' (Finset.mem_erase.mpr ⟨ha0.symm, Finset.mem_univ _⟩),
    ← SparseCore.bigSep_erase' (Finset.mem_univ a)]

theorem tile_core (q : PosShare TreeShare) (X : Buf (Elt F) ((xV).view.loc (thr d L))) (SCt : Buf (Elt F) ((sV).view.loc (thr d L)))
    (O : CellTallies nD τ sig (HIx 1)) (W : Waits sig (HIx 1)) (hO : ∀ g, O g none = 0)
    (f0 : Buf (Elt F) ((b0).view.loc (thr d L))) (f1 : Buf (Elt F) ((b1).view.loc (thr d L))) (f2 : Buf (Elt F) ((b2).view.loc (thr d L)))
    (fS : Buf (Elt F) ((bS).view.loc (thr d L))) :
    iprop(levAts (K (F := F)).L (K (F := F)).lev
        ∗ ((xV).view.loc (thr d L) ↦{shareTok q 3 0} X) ∗ ((xV).view.loc (thr d L) ↦{shareTok q 3 1} X) ∗ ((xV).view.loc (thr d L) ↦{shareTok q 3 2} X)
        ∗ ((sV).view.loc (thr d L) ↦{q} SCt)
        ∗ ((b0).view.loc (thr d L) ↦{fullShare} f0) ∗ ((b1).view.loc (thr d L) ↦{fullShare} f1) ∗ ((b2).view.loc (thr d L) ↦{fullShare} f2)
        ∗ ((bS).view.loc (thr d L) ↦{fullShare} fS)
        ∗ bigSep Finset.univ (Φc (F := F) d L)
        ∗ semVal (cell d L cc0_scratch4) 0 ∗ semVal (cell d L cc0_scratch5) 0 ∗ semVal (cell d L cc0_scratch6) 0
        ∗ semVal (cell d L cc0_scratch7) 0 ∗ semVal (cell d L cc0_scratch8) 0 ∗ semVal (cell d L cc0_scratch9) 0
        ∗ semVal (cell d L cc0_scoped0) 0
        ∗ owes (thr d L) O W)
      ⊢ wp frame (wpE (defs₀ (F := F)) 𝒱₀ (thr d L) none) Set.univ
          (cc0__sc_dropout L xV (Memref.isWhole_whole _) sV (Memref.isWhole_whole _) oV (Memref.isWhole_whole _)
              b0 (Memref.isWhole_whole _) b1 (Memref.isWhole_whole _) b2 (Memref.isWhole_whole _) bS (Memref.isWhole_whole _)
              cc0_scratch4 cc0_scratch5 cc0_scratch6 cc0_scratch7 cc0_scratch8 cc0_scratch9 cc0_scoped0)
          fun _ => iprop(((xV).view.loc (thr d L) ↦{shareTok q 3 0} X) ∗ ((xV).view.loc (thr d L) ↦{shareTok q 3 1} X) ∗ ((xV).view.loc (thr d L) ↦{shareTok q 3 2} X)
            ∗ ((sV).view.loc (thr d L) ↦{q} SCt)
            ∗ (∃ f, (b0).view.loc (thr d L) ↦{fullShare} f) ∗ (∃ f, (b1).view.loc (thr d L) ↦{fullShare} f) ∗ (∃ f, (b2).view.loc (thr d L) ↦{fullShare} f)
            ∗ (∃ f, (bS).view.loc (thr d L) ↦{fullShare} f)
            ∗ bigSep Finset.univ (Φc (F := F) d L)
            ∗ semVal (cell d L cc0_scratch4) 0 ∗ semVal (cell d L cc0_scratch5) 0 ∗ semVal (cell d L cc0_scratch6) 0
            ∗ semVal (cell d L cc0_scratch7) 0 ∗ semVal (cell d L cc0_scratch8) 0 ∗ semVal (cell d L cc0_scratch9) 0
            ∗ semVal (cell d L cc0_scoped0) 0
            ∗ ∃ W', ⌜∀ p ∈ W', p ∈ W ∨ p.2 = none⌝ ∗ owes (thr d L) O W') := by
  have k0_h7 : ¬ k0_cond7 = 1#1 := by decide
  have k0_h8 : ¬ k0_cond8 = 1#1 := by decide
  have e30 : k0_off2 L 960#32 = offC L 30 := off2_960 L
  have e31 : k0_off2 L 992#32 = offC L 31 := off2_992 L
  rw [cc0__sc_dropout_eq_skeleton]; delta cc0__sc_dropout_skel
  rw [k0_part128_eq_skeleton]; delta k0_part128_skel
  iintro ⟨#Hlv, Hx0, Hx1, Hx2, Hs, H0, H1, H2, HS, Hout, Hi0, Hi1, Hi2, Ho0, Ho1, Ho2, Hsc, HO⟩
  ihave Hmw := ((K (F := F)).mayWaits_none (thr := thr d L) hO) $$ Hlv
  sl_exec (disch := first | exact View.amount_pos _ _ (show 0 < S128x128.numel by decide) | exact View.amount_pos _ _ (show 0 < S32x1024.numel by decide))
  sl_rw [bind_assoc]
  sl_for (inv1 d L q X O W) $$ [Hmw Hi0 Hx0 Hi1 Hx1 Hx2 Hi2 H2 Ho2 Hout Ho0 Ho1 HS HO]
  case region =>
    intro k acc
    sl_respell []
    exact group_trip d L q X O W _ k acc
  · unfold inv1
    rw [Slot2_zero d L rfl]
    isplitl [Hmw]
    · iexact Hmw
    isplitl [Hi0 Hx0]
    · iapply (inFlight_fold d L cc0_scratch4 b0 _ X _ _)
      isplitl [Hi0]
      · iexact Hi0
      · iexact Hx0
    isplitl [Hi1 Hx1]
    · iapply (inFlight_fold d L cc0_scratch5 b1 _ X _ _)
      isplitl [Hi1]
      · iexact Hi1
      · iexact Hx1
    isplitl [Hx2]
    · iexact Hx2
    isplitl [Hi2]
    · iexact Hi2
    isplitl [H2 Ho2 Hout]
    · isplitl [H2]
      · iexists _; iexact H2
      isplitl [Ho2]
      · iexact Ho2
      · iexact Hout
    isplitl [Ho0]
    · iexact Ho0
    isplitl [Ho1]
    · iexact Ho1
    isplitl [HS]
    · iexists _; iexact HS
    iexists _
    isplitr
    rotate_left
    · iexact HO
    · ipureintro
      exact waits_ok (fun p hp => Or.inl hp) _
  iintro %_ HI
  unfold inv1
  rw [trips1_eq, Slot2_pos d L (by decide : ¬ (10 : ℕ) = 0), (by decide : fl 10 = 29)]
  icases HI with ⟨-, Hin0, Hin1, Hx2, Hi2, ⟨Hof2, Hout⟩, Ho0, Ho1, ⟨%fS', HS⟩, %W', %hW', HO⟩
  ihave Hin0' := (inFlight_open d L cc0_scratch4 b0 _ X) $$ Hin0
  icases Hin0' with ⟨%I0, %g0, Hi0, Hx0⟩
  ihave Hin1' := (inFlight_open d L cc0_scratch5 b1 _ X) $$ Hin1
  icases Hin1' with ⟨%I1, %g1, Hi1, Hx1⟩
  ihave Hof2' := (outFlight_open d L cc0_scratch9 b2 29) $$ Hof2
  icases Hof2' with ⟨%fo9, %g2, Ho2, H2⟩
  -- the last two chunks
  ihave Hout' := (Entails.of_eq (SparseCore.bigSep_erase' (s := (Finset.univ : Finset (Fin 32)).erase 29) (i := 30) (Φ := Φc (F := F) d L)
    (Finset.mem_erase.mpr ⟨by decide, Finset.mem_univ _⟩))) $$ Hout
  icases Hout' with ⟨Hc30, Hout⟩
  ihave Hout' := (Entails.of_eq (SparseCore.bigSep_erase' (s := ((Finset.univ : Finset (Fin 32)).erase 29).erase 30) (i := 31) (Φ := Φc (F := F) d L)
    (Finset.mem_erase.mpr ⟨by decide, Finset.mem_erase.mpr ⟨by decide, Finset.mem_univ _⟩⟩))) $$ Hout
  icases Hout' with ⟨Hc31, Hout⟩
  ihave Hc30' := (chunk_unfold d L (k0_off2_inb L 2) 30 e30) $$ Hc30
  icases Hc30' with ⟨%fo30, Hc30⟩
  ihave Hc31' := (chunk_unfold d L (k0_off2_inb L 3) 31 e31) $$ Hc31
  icases Hc31' with ⟨%fo31, Hc31⟩
  sl_exec (disch := first | exact View.amount_pos _ _ (show 0 < S128x128.numel by decide) | exact View.amount_pos _ _ (show 0 < S32x1024.numel by decide))
  sl_rw [bind_assoc]
  sl_for (invB d L b0 fS') $$ [Hi0_dst HS]
  case region =>
    intro k' acc'
    sl_respell []
    exact loopStep5 d L fS' k' acc'
  · unfold invB
    isplitl [Hi0_dst]
    · iexists _; iexact Hi0_dst
    · iexact HS
  iintro %_ HI
  unfold invB
  icases HI with ⟨⟨%Gb0, Hbb0⟩, HS⟩
  sl_exec (disch := first | exact View.amount_pos _ _ (show 0 < S128x128.numel by decide) | exact View.amount_pos _ _ (show 0 < S32x1024.numel by decide))

  sl_for (invB d L b1 fS') $$ [Hi1_dst HS]
  case region =>
    intro k' acc'
    sl_respell []
    exact loopStep6 d L fS' k' acc'
  · unfold invB
    isplitl [Hi1_dst]
    · iexists _; iexact Hi1_dst
    · iexact HS
  iintro %_ HI
  unfold invB
  icases HI with ⟨⟨%Gb1, Hbb1⟩, HS⟩
  sl_exec (disch := first | exact View.amount_pos _ _ (show 0 < S128x128.numel by decide) | exact View.amount_pos _ _ (show 0 < S32x1024.numel by decide))
  sl_step
  isplitl [Hx0]
  · iexact Hx0
  isplitl [Hx1]
  · iexact Hx1
  isplitl [Hx2]
  · iexact Hx2
  isplitl [Hs]
  · iexact Hs
  isplitl [Hbb0]
  · iexists _; iexact Hbb0
  isplitl [Hbb1]
  · iexists _; iexact Hbb1
  isplitl [H2]
  · iexists _; iexact H2
  isplitl [HS]
  · iexists _; iexact HS
  isplitl [Ho2_dst Hc30 Hc31 Hout]
  · ihave Hd29 := (show ((oChunk L 29).view.loc (thr d L) ↦[(oChunk L 29).view.set]{fullShare} fo9 : sProp (𝕄 (F := F))) ⊢ Φc d L 29 from by
      unfold Φc; iintro H; iexists _; iexact H) $$ Ho2_dst
    ihave Hd30 := (chunk_fold d L (k0_off2_inb L 2) 30 e30 _) $$ Hc30
    ihave Hd31 := (chunk_fold d L (k0_off2_inb L 3) 31 e31 _) $$ Hc31
    iapply (Entails.of_eq (regroup_all d L 29 30 31 (by decide) (by decide) (by decide)))
    isplitl [Hd29]
    · iexact Hd29
    isplitl [Hd30]
    · iexact Hd30
    isplitl [Hd31]
    · iexact Hd31
    · iexact Hout
  isplitl [Hi0]
  · iexact Hi0
  isplitl [Hi1]
  · iexact Hi1
  isplitl [Hi2]
  · iexact Hi2
  isplitl [Ho0]
  · iexact Ho0
  isplitl [Ho1]
  · iexact Ho1
  isplitl [Ho2]
  · iexact Ho2
  isplitl [Hsc]
  · iexact Hsc
  iexists _
  isplitr
  rotate_left
  · iexact HO
  · ipureintro
    exact waits_ok (waits_ok (waits_ok (waits_ok (waits_ok hW' _) _) _) _) _

end Cert.Proof.KB

end
-- ==== Proof.KFrameC.lean ====
/-
  The frame claim of the dropout kernel's program, closed: the tile's body at its own resources, through the
  wrapper to the launch's obligation and the launch's run.
-/
import proofs.«206558_g86277303042394_cont_sun_m_1099_24_alg».proof.Proof.KCore
import proofs.«206558_g86277303042394_cont_sun_m_1099_24_alg».proof.Proof.KFrame

noncomputable section

namespace Cert.Proof.KB

open Idealize.ShloMosaic Idealize.SL.Sem

/-- The tile's body, as the wrapper takes it. -/
theorem tileCore {F : FTy → Type} [FloatOps F] : TileCore (F := F) := fun d L => tile_core d L

/-- `Cert.frame_Kernel` (Defs.lean). -/
theorem frame_Kernel :
    Cert.frame_Kernel (hKernel := Cert.Kernel.Gen.facts) (hPre_finite_inputs := Cert.Pre_finite_inputs.Gen.facts) :=
  frame_Kernel' tileCore

end Cert.Proof.KB

end
-- ==== Proof.KIFrameC.lean ====
/-
  The frame claim of the idealized dropout kernel's program, closed: the tile's body at its own resources, through the
  wrapper to the launch's obligation and the launch's run.
-/
import proofs.«206558_g86277303042394_cont_sun_m_1099_24_alg».proof.Proof.KICore
import proofs.«206558_g86277303042394_cont_sun_m_1099_24_alg».proof.Proof.KIFrame

noncomputable section

namespace Cert.Proof.KI

open Idealize.ShloMosaic Idealize.SL.Sem

/-- The tile's body, as the wrapper takes it. -/
theorem tileCore {F : FTy → Type} [FloatOps F] : TileCore (F := F) := fun d L => tile_core d L

/-- `Cert.frame_KernelIdeal` (Defs.lean). -/
theorem frame_KernelIdeal :
    Cert.frame_KernelIdeal (hKernelIdeal := Cert.KernelIdeal.Gen.facts) (hPre_finite_inputs := Cert.Pre_finite_inputs.Gen.facts) :=
  frame_KernelIdeal' tileCore

end Cert.Proof.KI

end
-- ==== Proof.KIFinal.lean ====
import proofs.«206558_g86277303042394_cont_sun_m_1099_24_alg».proof.Proof.KIBodyV
import proofs.«206558_g86277303042394_cont_sun_m_1099_24_alg».proof.Proof.KIVCore
import proofs.«206558_g86277303042394_cont_sun_m_1099_24_alg».proof.Proof.KIVal
import proofs.«206558_g86277303042394_cont_sun_m_1099_24_alg».proof.Proof.KIValEq
import proofs.«206558_g86277303042394_cont_sun_m_1099_24_alg».proof.Proof.KIClaim
import proofs.«206558_g86277303042394_cont_sun_m_1099_24_alg».proof.Proof.KFrameC
import proofs.«206558_g86277303042394_cont_sun_m_1099_24_alg».proof.Proof.KIFrameC

/-!
  The last two steps: the tile's body as the launch takes it at the ideal instance, from the valued body at the tile's own
  resources and the scaling loops' closed forms; and the certificate's claim from the four statements about the two
  programs.
-/

noncomputable section

namespace Cert.Proof

open Idealize.ShloMosaic Idealize.SL.Sem

/-- The tile's body as the launch takes it, at the ideal instance. -/
theorem KI.bodySpec : ∀ X SC O0, KI.BodySpec (F := Ideal) X SC O0 :=
  KI.bodySpec_of_coreV (fun d L hI q X SCt O W hO f0 f1 f2 fS => KI.tile_coreV d L hI q X SCt O W hO f0 f1 f2 fS) KI.iterClosed

/-- The claim. -/
theorem claim' : Cert.Claim := claim_of KB.tileCore KI.tileCore KI.bodySpec KI.valEq

end Cert.Proof

end
-- ==== Proof.lean ====
/-
  The certificate of a dropout kernel on the SparseCores against its reference.

  THE PROGRAMS. The argument x : f32[4, 8192, 1024] is read as 32768 rows of 1024 words. On the host both programs draw
  the same Bernoulli(0.1) mask over [8192, 4] from one fixed key (a counter-based generator run as host
  operations, the same operations in both programs). The reference zeroes the rows of x the mask marks and multiplies every word
  by c, the f32 nearest to 1 / (1 − 0.1): transpose (select (mask, 0, transpose x)) · c. The kernel's program turns
  the mask into a SCALE per row — 0 where the mask is set, c elsewhere — transposes the scales to row order, repeats
  each 16 times and lays them out as a table [4096, 128], so that row r of x finds its scale, once per lane, at
  (r / 8, 16·(r % 8) + lane); it reshapes x to [32768, 1024], runs one SparseCore call, and reshapes the call's result
  back to [4, 8192, 1024].

  THE CALL runs on 2 SparseCores × 16 vector subcores: tile w = 2·s + c owns rows [1024·w, 1024·(w + 1)) of x and of
  the result, as 32 chunks of 32 rows, and rows [128·w, 128·(w + 1)) of the table. A tile copies its rows of the table
  into its own memory once, then moves its chunks through three row slots, each slot with one DMA cell for its copy in
  and one for its copy out: while one slot's chunk is scaled (each 16-lane piece of a row multiplied by the row's 16
  scales) the next chunk's copy in and the previous chunk's copy out are in flight. So
      out (r, h) = x (r, h) · scale (r / 8, 16·(r % 8) + h % 16).

  THE PROOF. The tile's body is proved once, at a symbolic tile: from a read share of x and of the table, its 32
  chunks of the result and its own scoped storage (the four scratch buffers, the seven DMA cells at zero) to the same
  with the chunks rewritten; every wait is for a copy the tile itself started on a cell nobody else signals, so the
  tile needs no schedule and owes nothing while it waits. A scaling loop's sixteen trips each store 128 pieces — two
  rows, 64 lane groups — all of one form (the lanes loaded there times the row's scale lanes), so the loop leaves its
  slot scaled by the table's entries for its chunk. The launch deals x and the table to the 32 tiles as 32 read shares
  each, and the result array as its 1024 chunks, which are pairwise disjoint and cover it; gathered back, the chunks
  join to the whole array (at the one whole-array function above, or, for the frames, at some contents). The host
  operations before the call run as one straight line over the TensorCore's buffers, the last reshape after it.
  Hence the three frames — every weakly fair execution of the 35 threads (the TensorCore, 2 sequencers, 32 tiles)
  terminates, nothing faulting, and the argument's buffer is never written — for the program as printed, for the same
  text read over the extended reals, and for the reference. No operation was rewritten by the idealization. The
  algebraic claim: over the extended reals both results are pure terms of the argument and the mask, and they agree
  index by index by the law  x · (if m then 0 else c) = (if m then 0 else x) · c  (both sides are x · c where the mask
  is clear; where it is set one is x · 0 and the other 0 · c).
-/
import proofs.«206558_g86277303042394_cont_sun_m_1099_24_alg».proof.Defs
import proofs.«206558_g86277303042394_cont_sun_m_1099_24_alg».proof.Proof.KIFinal

noncomputable section

namespace Cert.Proof

open Idealize.ShloMosaic Idealize.SL.Sem

theorem claim : Cert.Claim := Cert.Proof.claim'

end Cert.Proof

end
